-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v154)) (v1 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_v148) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x192 : Shape := ⟨2, ![256, 192]⟩
abbrev S192 : Shape := ⟨1, ![192]⟩
abbrev S12x192x192 : Shape := ⟨3, ![12, 192, 192]⟩
abbrev S12x192 : Shape := ⟨2, ![12, 192]⟩
abbrev S192x3 : Shape := ⟨2, ![192, 3]⟩
abbrev S3 : Shape := ⟨1, ![3]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x192 : S_.BroadcastsInDim S256x192 (![] : Fin 0 → Fin S256x192.rank)
  reducesTo_S256x192_S_d0_1 : S256x192.ReducesTo [0, 1] S_
  bcast_S_S192 : S_.BroadcastsInDim S192 (![] : Fin 0 → Fin S192.rank)
  reducesTo_S192_S_d0 : S192.ReducesTo [0] S_
  bcast_S_S12x192x192 : S_.BroadcastsInDim S12x192x192 (![] : Fin 0 → Fin S12x192x192.rank)
  reducesTo_S12x192x192_S_d0_1_2 : S12x192x192.ReducesTo [0, 1, 2] S_
  bcast_S_S12x192 : S_.BroadcastsInDim S12x192 (![] : Fin 0 → Fin S12x192.rank)
  reducesTo_S12x192_S_d0_1 : S12x192.ReducesTo [0, 1] S_
  bcast_S_S192x3 : S_.BroadcastsInDim S192x3 (![] : Fin 0 → Fin S192x3.rank)
  reducesTo_S192x3_S_d0_1 : S192x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg4 : FVec F S12x192x192 .f32) (main_arg5 : FVec F S12x192 .f32) (main_arg6 : FVec F S192x3 .f32) (main_arg7 : FVec F S3 .f32) (main_v13 : IVec S_ 1) (main_v16 : IVec S192 1) : IVec S_ 1 :=
  let main_c_5 : IVec S_ 1 := constantI S_ 1 1#1
  let main_v17 : IVec S_ 1 := (fun x v => Host.reduce IntOp.andi x v reducesTo_S192_S_d0 h_S_) main_v16 main_c_5
  let main_v18 : IVec S_ 1 := andi main_v13 main_v17
  let main_v19 : FVec F S12x192x192 .f32 := Host.absf main_arg4
  let main_cst_6 : FVec F S_ .f32 := constant S_ .f32 0x7F800000#32
  let main_v20 : FVec F S12x192x192 .f32 := broadcastInDim S12x192x192 ![] bcast_S_S12x192x192 main_cst_6
  let main_v21 : IVec S12x192x192 1 := cmpf .olt main_v19 main_v20
  let main_c_7 : IVec S_ 1 := constantI S_ 1 1#1
  let main_v22 : IVec S_ 1 := (fun x v => Host.reduce IntOp.andi x v reducesTo_S12x192x192_S_d0_1_2 h_S_) main_v21 main_c_7
  let main_v23 : IVec S_ 1 := andi main_v18 main_v22
  let main_v24 : FVec F S12x192 .f32 := Host.absf main_arg5
  let main_cst_8 : FVec F S_ .f32 := constant S_ .f32 0x7F800000#32
  let main_v25 : FVec F S12x192 .f32 := broadcastInDim S12x192 ![] bcast_S_S12x192 main_cst_8
  let main_v26 : IVec S12x192 1 := cmpf .olt main_v24 main_v25
  let main_c_9 : IVec S_ 1 := constantI S_ 1 1#1
  let main_v27 : IVec S_ 1 := (fun x v => Host.reduce IntOp.andi x v reducesTo_S12x192_S_d0_1 h_S_) main_v26 main_c_9
  let main_v28 : IVec S_ 1 := andi main_v23 main_v27
  let main_v29 : FVec F S192x3 .f32 := Host.absf main_arg6
  let main_cst_10 : FVec F S_ .f32 := constant S_ .f32 0x7F800000#32
  let main_v30 : FVec F S192x3 .f32 := broadcastInDim S192x3 ![] bcast_S_S192x3 main_cst_10
  let main_v31 : IVec S192x3 1 := cmpf .olt main_v29 main_v30
  let main_c_11 : IVec S_ 1 := constantI S_ 1 1#1
  let main_v32 : IVec S_ 1 := (fun x v => Host.reduce IntOp.andi x v reducesTo_S192x3_S_d0_1 h_S_) main_v31 main_c_11
  let main_v33 : IVec S_ 1 := andi main_v28 main_v32
  fn_part2 (F := F) main_arg7 main_v33

def fn {F : FTy → Type} [FloatOps F] (main_arg0 : FVec F S8192x256 .f32) (main_arg1 : FVec F S8192x8192 .f32) (main_arg2 : FVec F S256x192 .f32) (main_arg3 : FVec F S192 .f32) (main_arg4 : FVec F S12x192x192 .f32) (main_arg5 : FVec F S12x192 .f32) (main_arg6 : FVec F S192x3 .f32) (main_arg7 : FVec F S3 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x192 .f32 := Host.absf main_arg2
  let main_cst_2 : FVec F S_ .f32 := constant S_ .f32 0x7F800000#32
  let main_v10 : FVec F S256x192 .f32 := broadcastInDim S256x192 ![] bcast_S_S256x192 main_cst_2
  let main_v11 : IVec S256x192 1 := cmpf .olt main_v9 main_v10
  let main_c_3 : IVec S_ 1 := constantI S_ 1 1#1
  let main_v12 : IVec S_ 1 := (fun x v => Host.reduce IntOp.andi x v reducesTo_S256x192_S_d0_1 h_S_) main_v11 main_c_3
  let main_v13 : IVec S_ 1 := andi main_v8 main_v12
  let main_v14 : FVec F S192 .f32 := Host.absf main_arg3
  let main_cst_4 : FVec F S_ .f32 := constant S_ .f32 0x7F800000#32
  let main_v15 : FVec F S192 .f32 := broadcastInDim S192 ![] bcast_S_S192 main_cst_4
  let main_v16 : IVec S192 1 := cmpf .olt main_v14 main_v15
  fn_part1 (F := F) main_arg4 main_arg5 main_arg6 main_arg7 main_v13 main_v16
-- ==== Kernel.lean ====
abbrev S8192x256 : Shape := ⟨2, ![8192, 256]⟩
abbrev S8192x8192 : Shape := ⟨2, ![8192, 8192]⟩
abbrev S256x192 : Shape := ⟨2, ![256, 192]⟩
abbrev S192 : Shape := ⟨1, ![192]⟩
abbrev S12x192x192 : Shape := ⟨3, ![12, 192, 192]⟩
abbrev S12x192 : Shape := ⟨2, ![12, 192]⟩
abbrev S192x3 : Shape := ⟨2, ![192, 3]⟩
abbrev S3 : Shape := ⟨1, ![3]⟩
abbrev S256x8192 : Shape := ⟨2, ![256, 8192]⟩
abbrev S8192x64 : Shape := ⟨2, ![8192, 64]⟩
abbrev S8192x128 : Shape := ⟨2, ![8192, 128]⟩
abbrev S2048x256 : Shape := ⟨2, ![2048, 256]⟩
abbrev S2048x64 : Shape := ⟨2, ![2048, 64]⟩
abbrev S2048x128 : Shape := ⟨2, ![2048, 128]⟩
abbrev S2048x192 : Shape := ⟨2, ![2048, 192]⟩
abbrev S64 : Shape := ⟨1, ![64]⟩
abbrev S1x64 : Shape := ⟨2, ![1, 64]⟩
abbrev S128 : Shape := ⟨1, ![128]⟩
abbrev S1x128 : Shape := ⟨2, ![1, 128]⟩
abbrev S8192x192 : Shape := ⟨2, ![8192, 192]⟩
abbrev S512x8192 : Shape := ⟨2, ![512, 8192]⟩
abbrev S512x128 : Shape := ⟨2, ![512, 128]⟩
abbrev S512x192 : Shape := ⟨2, ![512, 192]⟩
abbrev S512x64 : Shape := ⟨2, ![512, 64]⟩
abbrev S1x192x192 : Shape := ⟨3, ![1, 192, 192]⟩
abbrev S192x192 : Shape := ⟨2, ![192, 192]⟩
abbrev S1x192 : Shape := ⟨2, ![1, 192]⟩
abbrev S_ : Shape := ⟨0, ![]⟩
abbrev S8192x2 : Shape := ⟨2, ![8192, 2]⟩
abbrev S8192x1 : Shape := ⟨2, ![8192, 1]⟩
abbrev S2048x2 : Shape := ⟨2, ![2048, 2]⟩
abbrev S2048x1 : Shape := ⟨2, ![2048, 1]⟩
abbrev S2048x3 : Shape := ⟨2, ![2048, 3]⟩
abbrev S2 : Shape := ⟨1, ![2]⟩
abbrev S1x2 : Shape := ⟨2, ![1, 2]⟩
abbrev S1 : Shape := ⟨1, ![1]⟩
abbrev S1x1 : Shape := ⟨2, ![1, 1]⟩
abbrev S8192x3 : Shape := ⟨2, ![8192, 3]⟩
abbrev S512x1 : Shape := ⟨2, ![512, 1]⟩
abbrev S512x3 : Shape := ⟨2, ![512, 3]⟩
abbrev S512x2 : Shape := ⟨2, ![512, 2]⟩

abbrev nBuf : Space → Nat
  | .hbm => 184
  | .vmem => 228
  | .smem => 0
  | _ => 0

abbrev hbmTy0_0 (i : Nat) : BufTy := match i % 128 with
  | 0 => ⟨S8192x256, .f32⟩
  | 1 => ⟨S8192x8192, .f32⟩
  | 2 => ⟨S256x192, .f32⟩
  | 3 => ⟨S192, .f32⟩
  | 4 => ⟨S12x192x192, .f32⟩
  | 5 => ⟨S12x192, .f32⟩
  | 6 => ⟨S192x3, .f32⟩
  | 7 => ⟨S3, .f32⟩
  | 8 => ⟨S8192x8192, .bf16⟩
  | 9 => ⟨S8192x64, .bf16⟩
  | 10 => ⟨S8192x128, .f32⟩
  | 11 => ⟨S64, .f32⟩
  | 12 => ⟨S1x64, .f32⟩
  | 13 => ⟨S128, .f32⟩
  | 14 => ⟨S1x128, .f32⟩
  | 15 => ⟨S8192x192, .f32⟩
  | 16 => ⟨S1x192x192, .f32⟩
  | 17 => ⟨S192x192, .f32⟩
  | 18 => ⟨S1x192, .f32⟩
  | 19 => ⟨S192, .f32⟩
  | 20 => ⟨S8192x64, .bf16⟩
  | 21 => ⟨S8192x128, .f32⟩
  | 22 => ⟨S64, .f32⟩
  | 23 => ⟨S1x64, .f32⟩
  | 24 => ⟨S128, .f32⟩
  | 25 => ⟨S1x128, .f32⟩
  | 26 => ⟨S8192x192, .f32⟩
  | 27 => ⟨S8192x192, .f32⟩
  | 28 => ⟨S8192x192, .f32⟩
  | 29 => ⟨S_, .f32⟩
  | 30 => ⟨S8192x192, .f32⟩
  | 31 => ⟨S8192x192, .f32⟩
  | 32 => ⟨S1x192x192, .f32⟩
  | 33 => ⟨S192x192, .f32⟩
  | 34 => ⟨S1x192, .f32⟩
  | 35 => ⟨S192, .f32⟩
  | 36 => ⟨S8192x64, .bf16⟩
  | 37 => ⟨S8192x128, .f32⟩
  | 38 => ⟨S64, .f32⟩
  | 39 => ⟨S1x64, .f32⟩
  | 40 => ⟨S128, .f32⟩
  | 41 => ⟨S1x128, .f32⟩
  | 42 => ⟨S8192x192, .f32⟩
  | 43 => ⟨S1x192x192, .f32⟩
  | 44 => ⟨S192x192, .f32⟩
  | 45 => ⟨S1x192, .f32⟩
  | 46 => ⟨S192, .f32⟩
  | 47 => ⟨S8192x64, .bf16⟩
  | 48 => ⟨S8192x128, .f32⟩
  | 49 => ⟨S64, .f32⟩
  | 50 => ⟨S1x64, .f32⟩
  | 51 => ⟨S128, .f32⟩
  | 52 => ⟨S1x128, .f32⟩
  | 53 => ⟨S8192x192, .f32⟩
  | 54 => ⟨S8192x192, .f32⟩
  | 55 => ⟨S_, .f32⟩
  | 56 => ⟨S8192x192, .f32⟩
  | 57 => ⟨S8192x192, .f32⟩
  | 58 => ⟨S1x192x192, .f32⟩
  | 59 => ⟨S192x192, .f32⟩
  | 60 => ⟨S1x192, .f32⟩
  | 61 => ⟨S192, .f32⟩
  | 62 => ⟨S8192x64, .bf16⟩
  | 63 => ⟨S8192x128, .f32⟩
  | 64 => ⟨S64, .f32⟩
  | 65 => ⟨S1x64, .f32⟩
  | 66 => ⟨S128, .f32⟩
  | 67 => ⟨S1x128, .f32⟩
  | 68 => ⟨S8192x192, .f32⟩
  | 69 => ⟨S1x192x192, .f32⟩
  | 70 => ⟨S192x192, .f32⟩
  | 71 => ⟨S1x192, .f32⟩
  | 72 => ⟨S192, .f32⟩
  | 73 => ⟨S8192x64, .bf16⟩
  | 74 => ⟨S8192x128, .f32⟩
  | 75 => ⟨S64, .f32⟩
  | 76 => ⟨S1x64, .f32⟩
  | 77 => ⟨S128, .f32⟩
  | 78 => ⟨S1x128, .f32⟩
  | 79 => ⟨S8192x192, .f32⟩
  | 80 => ⟨S8192x192, .f32⟩
  | 81 => ⟨S_, .f32⟩
  | 82 => ⟨S8192x192, .f32⟩
  | 83 => ⟨S8192x192, .f32⟩
  | 84 => ⟨S1x192x192, .f32⟩
  | 85 => ⟨S192x192, .f32⟩
  | 86 => ⟨S1x192, .f32⟩
  | 87 => ⟨S192, .f32⟩
  | 88 => ⟨S8192x64, .bf16⟩
  | 89 => ⟨S8192x128, .f32⟩
  | 90 => ⟨S64, .f32⟩
  | 91 => ⟨S1x64, .f32⟩
  | 92 => ⟨S128, .f32⟩
  | 93 => ⟨S1x128, .f32⟩
  | 94 => ⟨S8192x192, .f32⟩
  | 95 => ⟨S1x192x192, .f32⟩
  | 96 => ⟨S192x192, .f32⟩
  | 97 => ⟨S1x192, .f32⟩
  | 98 => ⟨S192, .f32⟩
  | 99 => ⟨S8192x64, .bf16⟩
  | 100 => ⟨S8192x128, .f32⟩
  | 101 => ⟨S64, .f32⟩
  | 102 => ⟨S1x64, .f32⟩
  | 103 => ⟨S128, .f32⟩
  | 104 => ⟨S1x128, .f32⟩
  | 105 => ⟨S8192x192, .f32⟩
  | 106 => ⟨S8192x192, .f32⟩
  | 107 => ⟨S_, .f32⟩
  | 108 => ⟨S8192x192, .f32⟩
  | 109 => ⟨S8192x192, .f32⟩
  | 110 => ⟨S1x192x192, .f32⟩
  | 111 => ⟨S192x192, .f32⟩
  | 112 => ⟨S1x192, .f32⟩
  | 113 => ⟨S192, .f32⟩
  | 114 => ⟨S8192x64, .bf16⟩
  | 115 => ⟨S8192x128, .f32⟩
  | 116 => ⟨S64, .f32⟩
  | 117 => ⟨S1x64, .f32⟩
  | 118 => ⟨S128, .f32⟩
  | 119 => ⟨S1x128, .f32⟩
  | 120 => ⟨S8192x192, .f32⟩
  | 121 => ⟨S1x192x192, .f32⟩
  | 122 => ⟨S192x192, .f32⟩
  | 123 => ⟨S1x192, .f32⟩
  | 124 => ⟨S192, .f32⟩
  | 125 => ⟨S8192x64, .bf16⟩
  | 126 => ⟨S8192x128, .f32⟩
  | 127 => ⟨S64, .f32⟩
  | _ => ⟨S8192x256, .f32⟩

abbrev hbmTy0_1 (i : Nat) : BufTy := match i % 128 with
  | 0 => ⟨S1x64, .f32⟩
  | 1 => ⟨S128, .f32⟩
  | 2 => ⟨S1x128, .f32⟩
  | 3 => ⟨S8192x192, .f32⟩
  | 4 => ⟨S8192x192, .f32⟩
  | 5 => ⟨S_, .f32⟩
  | 6 => ⟨S8192x192, .f32⟩
  | 7 => ⟨S8192x192, .f32⟩
  | 8 => ⟨S1x192x192, .f32⟩
  | 9 => ⟨S192x192, .f32⟩
  | 10 => ⟨S1x192, .f32⟩
  | 11 => ⟨S192, .f32⟩
  | 12 => ⟨S8192x64, .bf16⟩
  | 13 => ⟨S8192x128, .f32⟩
  | 14 => ⟨S64, .f32⟩
  | 15 => ⟨S1x64, .f32⟩
  | 16 => ⟨S128, .f32⟩
  | 17 => ⟨S1x128, .f32⟩
  | 18 => ⟨S8192x192, .f32⟩
  | 19 => ⟨S1x192x192, .f32⟩
  | 20 => ⟨S192x192, .f32⟩
  | 21 => ⟨S1x192, .f32⟩
  | 22 => ⟨S192, .f32⟩
  | 23 => ⟨S8192x64, .bf16⟩
  | 24 => ⟨S8192x128, .f32⟩
  | 25 => ⟨S64, .f32⟩
  | 26 => ⟨S1x64, .f32⟩
  | 27 => ⟨S128, .f32⟩
  | 28 => ⟨S1x128, .f32⟩
  | 29 => ⟨S8192x192, .f32⟩
  | 30 => ⟨S8192x192, .f32⟩
  | 31 => ⟨S_, .f32⟩
  | 32 => ⟨S8192x192, .f32⟩
  | 33 => ⟨S8192x192, .f32⟩
  | 34 => ⟨S1x192x192, .f32⟩
  | 35 => ⟨S192x192, .f32⟩
  | 36 => ⟨S1x192, .f32⟩
  | 37 => ⟨S192, .f32⟩
  | 38 => ⟨S8192x64, .bf16⟩
  | 39 => ⟨S8192x128, .f32⟩
  | 40 => ⟨S64, .f32⟩
  | 41 => ⟨S1x64, .f32⟩
  | 42 => ⟨S128, .f32⟩
  | 43 => ⟨S1x128, .f32⟩
  | 44 => ⟨S8192x192, .f32⟩
  | 45 => ⟨S8192x192, .f32⟩
  | 46 => ⟨S_, .f32⟩
  | 47 => ⟨S8192x192, .f32⟩
  | 48 => ⟨S8192x192, .f32⟩
  | 49 => ⟨S8192x2, .bf16⟩
  | 50 => ⟨S8192x1, .f32⟩
  | 51 => ⟨S2, .f32⟩
  | 52 => ⟨S1x2, .f32⟩
  | 53 => ⟨S1, .f32⟩
  | 54 => ⟨S1x1, .f32⟩
  | 55 => ⟨S8192x3, .f32⟩
  | _ => ⟨S8192x256, .f32⟩

abbrev hbmTy (i : Nat) : BufTy := match i / 128 with
  | 0 => hbmTy0_0 i
  | 1 => hbmTy0_1 i
  | _ => ⟨S8192x256, .f32⟩

abbrev vmemTy0_0 (i : Nat) : BufTy := match i % 128 with
  | 0 => ⟨S256x8192, .f32⟩
  | 1 => ⟨S256x8192, .f32⟩
  | 2 => ⟨S256x8192, .bf16⟩
  | 3 => ⟨S256x8192, .bf16⟩
  | 4 => ⟨S2048x256, .f32⟩
  | 5 => ⟨S2048x256, .f32⟩
  | 6 => ⟨S256x192, .f32⟩
  | 7 => ⟨S2048x64, .bf16⟩
  | 8 => ⟨S2048x64, .bf16⟩
  | 9 => ⟨S2048x128, .f32⟩
  | 10 => ⟨S2048x128, .f32⟩
  | 11 => ⟨S512x8192, .bf16⟩
  | 12 => ⟨S512x8192, .bf16⟩
  | 13 => ⟨S8192x64, .bf16⟩
  | 14 => ⟨S512x128, .f32⟩
  | 15 => ⟨S512x128, .f32⟩
  | 16 => ⟨S1x64, .f32⟩
  | 17 => ⟨S1x128, .f32⟩
  | 18 => ⟨S512x192, .f32⟩
  | 19 => ⟨S512x192, .f32⟩
  | 20 => ⟨S2048x192, .f32⟩
  | 21 => ⟨S2048x192, .f32⟩
  | 22 => ⟨S192x192, .f32⟩
  | 23 => ⟨S2048x64, .bf16⟩
  | 24 => ⟨S2048x64, .bf16⟩
  | 25 => ⟨S2048x128, .f32⟩
  | 26 => ⟨S2048x128, .f32⟩
  | 27 => ⟨S512x8192, .bf16⟩
  | 28 => ⟨S512x8192, .bf16⟩
  | 29 => ⟨S8192x64, .bf16⟩
  | 30 => ⟨S512x128, .f32⟩
  | 31 => ⟨S512x128, .f32⟩
  | 32 => ⟨S1x64, .f32⟩
  | 33 => ⟨S1x128, .f32⟩
  | 34 => ⟨S512x192, .f32⟩
  | 35 => ⟨S512x192, .f32⟩
  | 36 => ⟨S2048x192, .f32⟩
  | 37 => ⟨S2048x192, .f32⟩
  | 38 => ⟨S192x192, .f32⟩
  | 39 => ⟨S2048x64, .bf16⟩
  | 40 => ⟨S2048x64, .bf16⟩
  | 41 => ⟨S2048x128, .f32⟩
  | 42 => ⟨S2048x128, .f32⟩
  | 43 => ⟨S512x8192, .bf16⟩
  | 44 => ⟨S512x8192, .bf16⟩
  | 45 => ⟨S8192x64, .bf16⟩
  | 46 => ⟨S512x128, .f32⟩
  | 47 => ⟨S512x128, .f32⟩
  | 48 => ⟨S1x64, .f32⟩
  | 49 => ⟨S1x128, .f32⟩
  | 50 => ⟨S512x192, .f32⟩
  | 51 => ⟨S512x192, .f32⟩
  | 52 => ⟨S2048x192, .f32⟩
  | 53 => ⟨S2048x192, .f32⟩
  | 54 => ⟨S192x192, .f32⟩
  | 55 => ⟨S2048x64, .bf16⟩
  | 56 => ⟨S2048x64, .bf16⟩
  | 57 => ⟨S2048x128, .f32⟩
  | 58 => ⟨S2048x128, .f32⟩
  | 59 => ⟨S512x8192, .bf16⟩
  | 60 => ⟨S512x8192, .bf16⟩
  | 61 => ⟨S8192x64, .bf16⟩
  | 62 => ⟨S512x128, .f32⟩
  | 63 => ⟨S512x128, .f32⟩
  | 64 => ⟨S1x64, .f32⟩
  | 65 => ⟨S1x128, .f32⟩
  | 66 => ⟨S512x192, .f32⟩
  | 67 => ⟨S512x192, .f32⟩
  | 68 => ⟨S2048x192, .f32⟩
  | 69 => ⟨S2048x192, .f32⟩
  | 70 => ⟨S192x192, .f32⟩
  | 71 => ⟨S2048x64, .bf16⟩
  | 72 => ⟨S2048x64, .bf16⟩
  | 73 => ⟨S2048x128, .f32⟩
  | 74 => ⟨S2048x128, .f32⟩
  | 75 => ⟨S512x8192, .bf16⟩
  | 76 => ⟨S512x8192, .bf16⟩
  | 77 => ⟨S8192x64, .bf16⟩
  | 78 => ⟨S512x128, .f32⟩
  | 79 => ⟨S512x128, .f32⟩
  | 80 => ⟨S1x64, .f32⟩
  | 81 => ⟨S1x128, .f32⟩
  | 82 => ⟨S512x192, .f32⟩
  | 83 => ⟨S512x192, .f32⟩
  | 84 => ⟨S2048x192, .f32⟩
  | 85 => ⟨S2048x192, .f32⟩
  | 86 => ⟨S192x192, .f32⟩
  | 87 => ⟨S2048x64, .bf16⟩
  | 88 => ⟨S2048x64, .bf16⟩
  | 89 => ⟨S2048x128, .f32⟩
  | 90 => ⟨S2048x128, .f32⟩
  | 91 => ⟨S512x8192, .bf16⟩
  | 92 => ⟨S512x8192, .bf16⟩
  | 93 => ⟨S8192x64, .bf16⟩
  | 94 => ⟨S512x128, .f32⟩
  | 95 => ⟨S512x128, .f32⟩
  | 96 => ⟨S1x64, .f32⟩
  | 97 => ⟨S1x128, .f32⟩
  | 98 => ⟨S512x192, .f32⟩
  | 99 => ⟨S512x192, .f32⟩
  | 100 => ⟨S2048x192, .f32⟩
  | 101 => ⟨S2048x192, .f32⟩
  | 102 => ⟨S192x192, .f32⟩
  | 103 => ⟨S2048x64, .bf16⟩
  | 104 => ⟨S2048x64, .bf16⟩
  | 105 => ⟨S2048x128, .f32⟩
  | 106 => ⟨S2048x128, .f32⟩
  | 107 => ⟨S512x8192, .bf16⟩
  | 108 => ⟨S512x8192, .bf16⟩
  | 109 => ⟨S8192x64, .bf16⟩
  | 110 => ⟨S512x128, .f32⟩
  | 111 => ⟨S512x128, .f32⟩
  | 112 => ⟨S1x64, .f32⟩
  | 113 => ⟨S1x128, .f32⟩
  | 114 => ⟨S512x192, .f32⟩
  | 115 => ⟨S512x192, .f32⟩
  | 116 => ⟨S2048x192, .f32⟩
  | 117 => ⟨S2048x192, .f32⟩
  | 118 => ⟨S192x192, .f32⟩
  | 119 => ⟨S2048x64, .bf16⟩
  | 120 => ⟨S2048x64, .bf16⟩
  | 121 => ⟨S2048x128, .f32⟩
  | 122 => ⟨S2048x128, .f32⟩
  | 123 => ⟨S512x8192, .bf16⟩
  | 124 => ⟨S512x8192, .bf16⟩
  | 125 => ⟨S8192x64, .bf16⟩
  | 126 => ⟨S512x128, .f32⟩
  | 127 => ⟨S512x128, .f32⟩
  | _ => ⟨S8192x256, .f32⟩

abbrev vmemTy0_1 (i : Nat) : BufTy := match i % 128 with
  | 0 => ⟨S1x64, .f32⟩
  | 1 => ⟨S1x128, .f32⟩
  | 2 => ⟨S512x192, .f32⟩
  | 3 => ⟨S512x192, .f32⟩
  | 4 => ⟨S2048x192, .f32⟩
  | 5 => ⟨S2048x192, .f32⟩
  | 6 => ⟨S192x192, .f32⟩
  | 7 => ⟨S2048x64, .bf16⟩
  | 8 => ⟨S2048x64, .bf16⟩
  | 9 => ⟨S2048x128, .f32⟩
  | 10 => ⟨S2048x128, .f32⟩
  | 11 => ⟨S512x8192, .bf16⟩
  | 12 => ⟨S512x8192, .bf16⟩
  | 13 => ⟨S8192x64, .bf16⟩
  | 14 => ⟨S512x128, .f32⟩
  | 15 => ⟨S512x128, .f32⟩
  | 16 => ⟨S1x64, .f32⟩
  | 17 => ⟨S1x128, .f32⟩
  | 18 => ⟨S512x192, .f32⟩
  | 19 => ⟨S512x192, .f32⟩
  | 20 => ⟨S2048x192, .f32⟩
  | 21 => ⟨S2048x192, .f32⟩
  | 22 => ⟨S192x192, .f32⟩
  | 23 => ⟨S2048x64, .bf16⟩
  | 24 => ⟨S2048x64, .bf16⟩
  | 25 => ⟨S2048x128, .f32⟩
  | 26 => ⟨S2048x128, .f32⟩
  | 27 => ⟨S512x8192, .bf16⟩
  | 28 => ⟨S512x8192, .bf16⟩
  | 29 => ⟨S8192x64, .bf16⟩
  | 30 => ⟨S512x128, .f32⟩
  | 31 => ⟨S512x128, .f32⟩
  | 32 => ⟨S1x64, .f32⟩
  | 33 => ⟨S1x128, .f32⟩
  | 34 => ⟨S512x192, .f32⟩
  | 35 => ⟨S512x192, .f32⟩
  | 36 => ⟨S2048x192, .f32⟩
  | 37 => ⟨S2048x192, .f32⟩
  | 38 => ⟨S192x192, .f32⟩
  | 39 => ⟨S2048x64, .bf16⟩
  | 40 => ⟨S2048x64, .bf16⟩
  | 41 => ⟨S2048x128, .f32⟩
  | 42 => ⟨S2048x128, .f32⟩
  | 43 => ⟨S512x8192, .bf16⟩
  | 44 => ⟨S512x8192, .bf16⟩
  | 45 => ⟨S8192x64, .bf16⟩
  | 46 => ⟨S512x128, .f32⟩
  | 47 => ⟨S512x128, .f32⟩
  | 48 => ⟨S1x64, .f32⟩
  | 49 => ⟨S1x128, .f32⟩
  | 50 => ⟨S512x192, .f32⟩
  | 51 => ⟨S512x192, .f32⟩
  | 52 => ⟨S2048x192, .f32⟩
  | 53 => ⟨S2048x192, .f32⟩
  | 54 => ⟨S192x192, .f32⟩
  | 55 => ⟨S2048x64, .bf16⟩
  | 56 => ⟨S2048x64, .bf16⟩
  | 57 => ⟨S2048x128, .f32⟩
  | 58 => ⟨S2048x128, .f32⟩
  | 59 => ⟨S512x8192, .bf16⟩
  | 60 => ⟨S512x8192, .bf16⟩
  | 61 => ⟨S8192x64, .bf16⟩
  | 62 => ⟨S512x128, .f32⟩
  | 63 => ⟨S512x128, .f32⟩
  | 64 => ⟨S1x64, .f32⟩
  | 65 => ⟨S1x128, .f32⟩
  | 66 => ⟨S512x192, .f32⟩
  | 67 => ⟨S512x192, .f32⟩
  | 68 => ⟨S2048x192, .f32⟩
  | 69 => ⟨S2048x192, .f32⟩
  | 70 => ⟨S192x192, .f32⟩
  | 71 => ⟨S2048x64, .bf16⟩
  | 72 => ⟨S2048x64, .bf16⟩
  | 73 => ⟨S2048x128, .f32⟩
  | 74 => ⟨S2048x128, .f32⟩
  | 75 => ⟨S512x8192, .bf16⟩
  | 76 => ⟨S512x8192, .bf16⟩
  | 77 => ⟨S8192x64, .bf16⟩
  | 78 => ⟨S512x128, .f32⟩
  | 79 => ⟨S512x128, .f32⟩
  | 80 => ⟨S1x64, .f32⟩
  | 81 => ⟨S1x128, .f32⟩
  | 82 => ⟨S512x192, .f32⟩
  | 83 => ⟨S512x192, .f32⟩
  | 84 => ⟨S2048x192, .f32⟩
  | 85 => ⟨S2048x192, .f32⟩
  | 86 => ⟨S192x3, .f32⟩
  | 87 => ⟨S2048x2, .bf16⟩
  | 88 => ⟨S2048x2, .bf16⟩
  | 89 => ⟨S2048x1, .f32⟩
  | 90 => ⟨S2048x1, .f32⟩
  | 91 => ⟨S512x8192, .bf16⟩
  | 92 => ⟨S512x8192, .bf16⟩
  | 93 => ⟨S8192x2, .bf16⟩
  | 94 => ⟨S512x1, .f32⟩
  | 95 => ⟨S512x1, .f32⟩
  | 96 => ⟨S1x2, .f32⟩
  | 97 => ⟨S1x1, .f32⟩
  | 98 => ⟨S512x3, .f32⟩
  | 99 => ⟨S512x3, .f32⟩
  | _ => ⟨S8192x256, .f32⟩

abbrev vmemTy (i : Nat) : BufTy := match i / 128 with
  | 0 => vmemTy0_0 i
  | 1 => vmemTy0_1 i
  | _ => ⟨S8192x256, .f32⟩

abbrev bufTy : (tb : Table) → Fin (tcTables nBuf tb) → BufTy
  | .hbm, ⟨i, _⟩ => hbmTy i
  | .local _ .vmem, ⟨i, _⟩ => vmemTy i
  | _, _ => ⟨S8192x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 228 → Bool
  | ⟨i, _⟩ => dmaSemScopedAt i

abbrev sig : RefSig :=
  ofTc nBuf bufTy 0 228 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48_0 : Ref sig .tc := ⟨.hbm, 62, rfl⟩
abbrev main_v48_1 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58_0 : Ref sig .tc := ⟨.hbm, 73, rfl⟩
abbrev main_v58_1 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_1 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71_0 : Ref sig .tc := ⟨.hbm, 88, rfl⟩
abbrev main_v71_1 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81_0 : Ref sig .tc := ⟨.hbm, 99, rfl⟩
abbrev main_v81_1 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_2 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94_0 : Ref sig .tc := ⟨.hbm, 114, rfl⟩
abbrev main_v94_1 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104_0 : Ref sig .tc := ⟨.hbm, 125, rfl⟩
abbrev main_v104_1 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_3 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117_0 : Ref sig .tc := ⟨.hbm, 140, rfl⟩
abbrev main_v117_1 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127_0 : Ref sig .tc := ⟨.hbm, 151, rfl⟩
abbrev main_v127_1 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_cst_4 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140_0 : Ref sig .tc := ⟨.hbm, 166, rfl⟩
abbrev main_v140_1 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_5 : Ref sig .tc := ⟨.hbm, 174, rfl⟩
abbrev main_v147 : Ref sig .tc := ⟨.hbm, 175, rfl⟩
abbrev main_v148 : Ref sig .tc := ⟨.hbm, 176, rfl⟩
abbrev main_v149_0 : Ref sig .tc := ⟨.hbm, 177, rfl⟩
abbrev main_v149_1 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg5_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg2_1 : Ref sig .tc := ⟨.vmem, 56, rfl⟩
abbrev cc7_stg3_0 : Ref sig .tc := ⟨.vmem, 57, rfl⟩
abbrev cc7_stg3_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg2_0 : Ref sig .tc := ⟨.vmem, 62, rfl⟩
abbrev cc8_stg2_1 : Ref sig .tc := ⟨.vmem, 63, rfl⟩
abbrev cc8_stg3_0 : Ref sig .tc := ⟨.vmem, 64, rfl⟩
abbrev cc8_stg4_0 : Ref sig .tc := ⟨.vmem, 65, rfl⟩
abbrev cc8_stg5_0 : Ref sig .tc := ⟨.vmem, 66, rfl⟩
abbrev cc8_stg5_1 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg2_0 : Ref sig .tc := ⟨.vmem, 71, rfl⟩
abbrev cc9_stg2_1 : Ref sig .tc := ⟨.vmem, 72, rfl⟩
abbrev cc9_stg3_0 : Ref sig .tc := ⟨.vmem, 73, rfl⟩
abbrev cc9_stg3_1 : Ref sig .tc := ⟨.vmem, 74, rfl⟩
abbrev cc10_stg0_0 : Ref sig .tc := ⟨.vmem, 75, rfl⟩
abbrev cc10_stg0_1 : Ref sig .tc := ⟨.vmem, 76, rfl⟩
abbrev cc10_stg1_0 : Ref sig .tc := ⟨.vmem, 77, rfl⟩
abbrev cc10_stg2_0 : Ref sig .tc := ⟨.vmem, 78, rfl⟩
abbrev cc10_stg2_1 : Ref sig .tc := ⟨.vmem, 79, rfl⟩
abbrev cc10_stg3_0 : Ref sig .tc := ⟨.vmem, 80, rfl⟩
abbrev cc10_stg4_0 : Ref sig .tc := ⟨.vmem, 81, rfl⟩
abbrev cc10_stg5_0 : Ref sig .tc := ⟨.vmem, 82, rfl⟩
abbrev cc10_stg5_1 : Ref sig .tc := ⟨.vmem, 83, rfl⟩
abbrev cc11_stg0_0 : Ref sig .tc := ⟨.vmem, 84, rfl⟩
abbrev cc11_stg0_1 : Ref sig .tc := ⟨.vmem, 85, rfl⟩
abbrev cc11_stg1_0 : Ref sig .tc := ⟨.vmem, 86, rfl⟩
abbrev cc11_stg2_0 : Ref sig .tc := ⟨.vmem, 87, rfl⟩
abbrev cc11_stg2_1 : Ref sig .tc := ⟨.vmem, 88, rfl⟩
abbrev cc11_stg3_0 : Ref sig .tc := ⟨.vmem, 89, rfl⟩
abbrev cc11_stg3_1 : Ref sig .tc := ⟨.vmem, 90, rfl⟩
abbrev cc12_stg0_0 : Ref sig .tc := ⟨.vmem, 91, rfl⟩
abbrev cc12_stg0_1 : Ref sig .tc := ⟨.vmem, 92, rfl⟩
abbrev cc12_stg1_0 : Ref sig .tc := ⟨.vmem, 93, rfl⟩
abbrev cc12_stg2_0 : Ref sig .tc := ⟨.vmem, 94, rfl⟩
abbrev cc12_stg2_1 : Ref sig .tc := ⟨.vmem, 95, rfl⟩
abbrev cc12_stg3_0 : Ref sig .tc := ⟨.vmem, 96, rfl⟩
abbrev cc12_stg4_0 : Ref sig .tc := ⟨.vmem, 97, rfl⟩
abbrev cc12_stg5_0 : Ref sig .tc := ⟨.vmem, 98, rfl⟩
abbrev cc12_stg5_1 : Ref sig .tc := ⟨.vmem, 99, rfl⟩
abbrev cc13_stg0_0 : Ref sig .tc := ⟨.vmem, 100, rfl⟩
abbrev cc13_stg0_1 : Ref sig .tc := ⟨.vmem, 101, rfl⟩
abbrev cc13_stg1_0 : Ref sig .tc := ⟨.vmem, 102, rfl⟩
abbrev cc13_stg2_0 : Ref sig .tc := ⟨.vmem, 103, rfl⟩
abbrev cc13_stg2_1 : Ref sig .tc := ⟨.vmem, 104, rfl⟩
abbrev cc13_stg3_0 : Ref sig .tc := ⟨.vmem, 105, rfl⟩
abbrev cc13_stg3_1 : Ref sig .tc := ⟨.vmem, 106, rfl⟩
abbrev cc14_stg0_0 : Ref sig .tc := ⟨.vmem, 107, rfl⟩
abbrev cc14_stg0_1 : Ref sig .tc := ⟨.vmem, 108, rfl⟩
abbrev cc14_stg1_0 : Ref sig .tc := ⟨.vmem, 109, rfl⟩
abbrev cc14_stg2_0 : Ref sig .tc := ⟨.vmem, 110, rfl⟩
abbrev cc14_stg2_1 : Ref sig .tc := ⟨.vmem, 111, rfl⟩
abbrev cc14_stg3_0 : Ref sig .tc := ⟨.vmem, 112, rfl⟩
abbrev cc14_stg4_0 : Ref sig .tc := ⟨.vmem, 113, rfl⟩
abbrev cc14_stg5_0 : Ref sig .tc := ⟨.vmem, 114, rfl⟩
abbrev cc14_stg5_1 : Ref sig .tc := ⟨.vmem, 115, rfl⟩
abbrev cc15_stg0_0 : Ref sig .tc := ⟨.vmem, 116, rfl⟩
abbrev cc15_stg0_1 : Ref sig .tc := ⟨.vmem, 117, rfl⟩
abbrev cc15_stg1_0 : Ref sig .tc := ⟨.vmem, 118, rfl⟩
abbrev cc15_stg2_0 : Ref sig .tc := ⟨.vmem, 119, rfl⟩
abbrev cc15_stg2_1 : Ref sig .tc := ⟨.vmem, 120, rfl⟩
abbrev cc15_stg3_0 : Ref sig .tc := ⟨.vmem, 121, rfl⟩
abbrev cc15_stg3_1 : Ref sig .tc := ⟨.vmem, 122, rfl⟩
abbrev cc16_stg0_0 : Ref sig .tc := ⟨.vmem, 123, rfl⟩
abbrev cc16_stg0_1 : Ref sig .tc := ⟨.vmem, 124, rfl⟩
abbrev cc16_stg1_0 : Ref sig .tc := ⟨.vmem, 125, rfl⟩
abbrev cc16_stg2_0 : Ref sig .tc := ⟨.vmem, 126, rfl⟩
abbrev cc16_stg2_1 : Ref sig .tc := ⟨.vmem, 127, rfl⟩
abbrev cc16_stg3_0 : Ref sig .tc := ⟨.vmem, 128, rfl⟩
abbrev cc16_stg4_0 : Ref sig .tc := ⟨.vmem, 129, rfl⟩
abbrev cc16_stg5_0 : Ref sig .tc := ⟨.vmem, 130, rfl⟩
abbrev cc16_stg5_1 : Ref sig .tc := ⟨.vmem, 131, rfl⟩
abbrev cc17_stg0_0 : Ref sig .tc := ⟨.vmem, 132, rfl⟩
abbrev cc17_stg0_1 : Ref sig .tc := ⟨.vmem, 133, rfl⟩
abbrev cc17_stg1_0 : Ref sig .tc := ⟨.vmem, 134, rfl⟩
abbrev cc17_stg2_0 : Ref sig .tc := ⟨.vmem, 135, rfl⟩
abbrev cc17_stg2_1 : Ref sig .tc := ⟨.vmem, 136, rfl⟩
abbrev cc17_stg3_0 : Ref sig .tc := ⟨.vmem, 137, rfl⟩
abbrev cc17_stg3_1 : Ref sig .tc := ⟨.vmem, 138, rfl⟩
abbrev cc18_stg0_0 : Ref sig .tc := ⟨.vmem, 139, rfl⟩
abbrev cc18_stg0_1 : Ref sig .tc := ⟨.vmem, 140, rfl⟩
abbrev cc18_stg1_0 : Ref sig .tc := ⟨.vmem, 141, rfl⟩
abbrev cc18_stg2_0 : Ref sig .tc := ⟨.vmem, 142, rfl⟩
abbrev cc18_stg2_1 : Ref sig .tc := ⟨.vmem, 143, rfl⟩
abbrev cc18_stg3_0 : Ref sig .tc := ⟨.vmem, 144, rfl⟩
abbrev cc18_stg4_0 : Ref sig .tc := ⟨.vmem, 145, rfl⟩
abbrev cc18_stg5_0 : Ref sig .tc := ⟨.vmem, 146, rfl⟩
abbrev cc18_stg5_1 : Ref sig .tc := ⟨.vmem, 147, rfl⟩
abbrev cc19_stg0_0 : Ref sig .tc := ⟨.vmem, 148, rfl⟩
abbrev cc19_stg0_1 : Ref sig .tc := ⟨.vmem, 149, rfl⟩
abbrev cc19_stg1_0 : Ref sig .tc := ⟨.vmem, 150, rfl⟩
abbrev cc19_stg2_0 : Ref sig .tc := ⟨.vmem, 151, rfl⟩
abbrev cc19_stg2_1 : Ref sig .tc := ⟨.vmem, 152, rfl⟩
abbrev cc19_stg3_0 : Ref sig .tc := ⟨.vmem, 153, rfl⟩
abbrev cc19_stg3_1 : Ref sig .tc := ⟨.vmem, 154, rfl⟩
abbrev cc20_stg0_0 : Ref sig .tc := ⟨.vmem, 155, rfl⟩
abbrev cc20_stg0_1 : Ref sig .tc := ⟨.vmem, 156, rfl⟩
abbrev cc20_stg1_0 : Ref sig .tc := ⟨.vmem, 157, rfl⟩
abbrev cc20_stg2_0 : Ref sig .tc := ⟨.vmem, 158, rfl⟩
abbrev cc20_stg2_1 : Ref sig .tc := ⟨.vmem, 159, rfl⟩
abbrev cc20_stg3_0 : Ref sig .tc := ⟨.vmem, 160, rfl⟩
abbrev cc20_stg4_0 : Ref sig .tc := ⟨.vmem, 161, rfl⟩
abbrev cc20_stg5_0 : Ref sig .tc := ⟨.vmem, 162, rfl⟩
abbrev cc20_stg5_1 : Ref sig .tc := ⟨.vmem, 163, rfl⟩
abbrev cc21_stg0_0 : Ref sig .tc := ⟨.vmem, 164, rfl⟩
abbrev cc21_stg0_1 : Ref sig .tc := ⟨.vmem, 165, rfl⟩
abbrev cc21_stg1_0 : Ref sig .tc := ⟨.vmem, 166, rfl⟩
abbrev cc21_stg2_0 : Ref sig .tc := ⟨.vmem, 167, rfl⟩
abbrev cc21_stg2_1 : Ref sig .tc := ⟨.vmem, 168, rfl⟩
abbrev cc21_stg3_0 : Ref sig .tc := ⟨.vmem, 169, rfl⟩
abbrev cc21_stg3_1 : Ref sig .tc := ⟨.vmem, 170, rfl⟩
abbrev cc22_stg0_0 : Ref sig .tc := ⟨.vmem, 171, rfl⟩
abbrev cc22_stg0_1 : Ref sig .tc := ⟨.vmem, 172, rfl⟩
abbrev cc22_stg1_0 : Ref sig .tc := ⟨.vmem, 173, rfl⟩
abbrev cc22_stg2_0 : Ref sig .tc := ⟨.vmem, 174, rfl⟩
abbrev cc22_stg2_1 : Ref sig .tc := ⟨.vmem, 175, rfl⟩
abbrev cc22_stg3_0 : Ref sig .tc := ⟨.vmem, 176, rfl⟩
abbrev cc22_stg4_0 : Ref sig .tc := ⟨.vmem, 177, rfl⟩
abbrev cc22_stg5_0 : Ref sig .tc := ⟨.vmem, 178, rfl⟩
abbrev cc22_stg5_1 : Ref sig .tc := ⟨.vmem, 179, rfl⟩
abbrev cc23_stg0_0 : Ref sig .tc := ⟨.vmem, 180, rfl⟩
abbrev cc23_stg0_1 : Ref sig .tc := ⟨.vmem, 181, rfl⟩
abbrev cc23_stg1_0 : Ref sig .tc := ⟨.vmem, 182, rfl⟩
abbrev cc23_stg2_0 : Ref sig .tc := ⟨.vmem, 183, rfl⟩
abbrev cc23_stg2_1 : Ref sig .tc := ⟨.vmem, 184, rfl⟩
abbrev cc23_stg3_0 : Ref sig .tc := ⟨.vmem, 185, rfl⟩
abbrev cc23_stg3_1 : Ref sig .tc := ⟨.vmem, 186, rfl⟩
abbrev cc24_stg0_0 : Ref sig .tc := ⟨.vmem, 187, rfl⟩
abbrev cc24_stg0_1 : Ref sig .tc := ⟨.vmem, 188, rfl⟩
abbrev cc24_stg1_0 : Ref sig .tc := ⟨.vmem, 189, rfl⟩
abbrev cc24_stg2_0 : Ref sig .tc := ⟨.vmem, 190, rfl⟩
abbrev cc24_stg2_1 : Ref sig .tc := ⟨.vmem, 191, rfl⟩
abbrev cc24_stg3_0 : Ref sig .tc := ⟨.vmem, 192, rfl⟩
abbrev cc24_stg4_0 : Ref sig .tc := ⟨.vmem, 193, rfl⟩
abbrev cc24_stg5_0 : Ref sig .tc := ⟨.vmem, 194, rfl⟩
abbrev cc24_stg5_1 : Ref sig .tc := ⟨.vmem, 195, rfl⟩
abbrev cc25_stg0_0 : Ref sig .tc := ⟨.vmem, 196, rfl⟩
abbrev cc25_stg0_1 : Ref sig .tc := ⟨.vmem, 197, rfl⟩
abbrev cc25_stg1_0 : Ref sig .tc := ⟨.vmem, 198, rfl⟩
abbrev cc25_stg2_0 : Ref sig .tc := ⟨.vmem, 199, rfl⟩
abbrev cc25_stg2_1 : Ref sig .tc := ⟨.vmem, 200, rfl⟩
abbrev cc25_stg3_0 : Ref sig .tc := ⟨.vmem, 201, rfl⟩
abbrev cc25_stg3_1 : Ref sig .tc := ⟨.vmem, 202, rfl⟩
abbrev cc26_stg0_0 : Ref sig .tc := ⟨.vmem, 203, rfl⟩
abbrev cc26_stg0_1 : Ref sig .tc := ⟨.vmem, 204, rfl⟩
abbrev cc26_stg1_0 : Ref sig .tc := ⟨.vmem, 205, rfl⟩
abbrev cc26_stg2_0 : Ref sig .tc := ⟨.vmem, 206, rfl⟩
abbrev cc26_stg2_1 : Ref sig .tc := ⟨.vmem, 207, rfl⟩
abbrev cc26_stg3_0 : Ref sig .tc := ⟨.vmem, 208, rfl⟩
abbrev cc26_stg4_0 : Ref sig .tc := ⟨.vmem, 209, rfl⟩
abbrev cc26_stg5_0 : Ref sig .tc := ⟨.vmem, 210, rfl⟩
abbrev cc26_stg5_1 : Ref sig .tc := ⟨.vmem, 211, rfl⟩
abbrev cc27_stg0_0 : Ref sig .tc := ⟨.vmem, 212, rfl⟩
abbrev cc27_stg0_1 : Ref sig .tc := ⟨.vmem, 213, rfl⟩
abbrev cc27_stg1_0 : Ref sig .tc := ⟨.vmem, 214, rfl⟩
abbrev cc27_stg2_0 : Ref sig .tc := ⟨.vmem, 215, rfl⟩
abbrev cc27_stg2_1 : Ref sig .tc := ⟨.vmem, 216, rfl⟩
abbrev cc27_stg3_0 : Ref sig .tc := ⟨.vmem, 217, rfl⟩
abbrev cc27_stg3_1 : Ref sig .tc := ⟨.vmem, 218, rfl⟩
abbrev cc28_stg0_0 : Ref sig .tc := ⟨.vmem, 219, rfl⟩
abbrev cc28_stg0_1 : Ref sig .tc := ⟨.vmem, 220, rfl⟩
abbrev cc28_stg1_0 : Ref sig .tc := ⟨.vmem, 221, rfl⟩
abbrev cc28_stg2_0 : Ref sig .tc := ⟨.vmem, 222, rfl⟩
abbrev cc28_stg2_1 : Ref sig .tc := ⟨.vmem, 223, rfl⟩
abbrev cc28_stg3_0 : Ref sig .tc := ⟨.vmem, 224, rfl⟩
abbrev cc28_stg4_0 : Ref sig .tc := ⟨.vmem, 225, rfl⟩
abbrev cc28_stg5_0 : Ref sig .tc := ⟨.vmem, 226, rfl⟩
abbrev cc28_stg5_1 : Ref sig .tc := ⟨.vmem, 227, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem5_0 : DmaSem sig := 50
abbrev cc6_sem5_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem2_1 : DmaSem sig := 56
abbrev cc7_sem3_0 : DmaSem sig := 57
abbrev cc7_sem3_1 : DmaSem sig := 58
abbrev cc8_sem0_0 : DmaSem sig := 59
abbrev cc8_sem0_1 : DmaSem sig := 60
abbrev cc8_sem1_0 : DmaSem sig := 61
abbrev cc8_sem2_0 : DmaSem sig := 62
abbrev cc8_sem2_1 : DmaSem sig := 63
abbrev cc8_sem3_0 : DmaSem sig := 64
abbrev cc8_sem4_0 : DmaSem sig := 65
abbrev cc8_sem5_0 : DmaSem sig := 66
abbrev cc8_sem5_1 : DmaSem sig := 67
abbrev cc9_sem0_0 : DmaSem sig := 68
abbrev cc9_sem0_1 : DmaSem sig := 69
abbrev cc9_sem1_0 : DmaSem sig := 70
abbrev cc9_sem2_0 : DmaSem sig := 71
abbrev cc9_sem2_1 : DmaSem sig := 72
abbrev cc9_sem3_0 : DmaSem sig := 73
abbrev cc9_sem3_1 : DmaSem sig := 74
abbrev cc10_sem0_0 : DmaSem sig := 75
abbrev cc10_sem0_1 : DmaSem sig := 76
abbrev cc10_sem1_0 : DmaSem sig := 77
abbrev cc10_sem2_0 : DmaSem sig := 78
abbrev cc10_sem2_1 : DmaSem sig := 79
abbrev cc10_sem3_0 : DmaSem sig := 80
abbrev cc10_sem4_0 : DmaSem sig := 81
abbrev cc10_sem5_0 : DmaSem sig := 82
abbrev cc10_sem5_1 : DmaSem sig := 83
abbrev cc11_sem0_0 : DmaSem sig := 84
abbrev cc11_sem0_1 : DmaSem sig := 85
abbrev cc11_sem1_0 : DmaSem sig := 86
abbrev cc11_sem2_0 : DmaSem sig := 87
abbrev cc11_sem2_1 : DmaSem sig := 88
abbrev cc11_sem3_0 : DmaSem sig := 89
abbrev cc11_sem3_1 : DmaSem sig := 90
abbrev cc12_sem0_0 : DmaSem sig := 91
abbrev cc12_sem0_1 : DmaSem sig := 92
abbrev cc12_sem1_0 : DmaSem sig := 93
abbrev cc12_sem2_0 : DmaSem sig := 94
abbrev cc12_sem2_1 : DmaSem sig := 95
abbrev cc12_sem3_0 : DmaSem sig := 96
abbrev cc12_sem4_0 : DmaSem sig := 97
abbrev cc12_sem5_0 : DmaSem sig := 98
abbrev cc12_sem5_1 : DmaSem sig := 99
abbrev cc13_sem0_0 : DmaSem sig := 100
abbrev cc13_sem0_1 : DmaSem sig := 101
abbrev cc13_sem1_0 : DmaSem sig := 102
abbrev cc13_sem2_0 : DmaSem sig := 103
abbrev cc13_sem2_1 : DmaSem sig := 104
abbrev cc13_sem3_0 : DmaSem sig := 105
abbrev cc13_sem3_1 : DmaSem sig := 106
abbrev cc14_sem0_0 : DmaSem sig := 107
abbrev cc14_sem0_1 : DmaSem sig := 108
abbrev cc14_sem1_0 : DmaSem sig := 109
abbrev cc14_sem2_0 : DmaSem sig := 110
abbrev cc14_sem2_1 : DmaSem sig := 111
abbrev cc14_sem3_0 : DmaSem sig := 112
abbrev cc14_sem4_0 : DmaSem sig := 113
abbrev cc14_sem5_0 : DmaSem sig := 114
abbrev cc14_sem5_1 : DmaSem sig := 115
abbrev cc15_sem0_0 : DmaSem sig := 116
abbrev cc15_sem0_1 : DmaSem sig := 117
abbrev cc15_sem1_0 : DmaSem sig := 118
abbrev cc15_sem2_0 : DmaSem sig := 119
abbrev cc15_sem2_1 : DmaSem sig := 120
abbrev cc15_sem3_0 : DmaSem sig := 121
abbrev cc15_sem3_1 : DmaSem sig := 122
abbrev cc16_sem0_0 : DmaSem sig := 123
abbrev cc16_sem0_1 : DmaSem sig := 124
abbrev cc16_sem1_0 : DmaSem sig := 125
abbrev cc16_sem2_0 : DmaSem sig := 126
abbrev cc16_sem2_1 : DmaSem sig := 127
abbrev cc16_sem3_0 : DmaSem sig := 128
abbrev cc16_sem4_0 : DmaSem sig := 129
abbrev cc16_sem5_0 : DmaSem sig := 130
abbrev cc16_sem5_1 : DmaSem sig := 131
abbrev cc17_sem0_0 : DmaSem sig := 132
abbrev cc17_sem0_1 : DmaSem sig := 133
abbrev cc17_sem1_0 : DmaSem sig := 134
abbrev cc17_sem2_0 : DmaSem sig := 135
abbrev cc17_sem2_1 : DmaSem sig := 136
abbrev cc17_sem3_0 : DmaSem sig := 137
abbrev cc17_sem3_1 : DmaSem sig := 138
abbrev cc18_sem0_0 : DmaSem sig := 139
abbrev cc18_sem0_1 : DmaSem sig := 140
abbrev cc18_sem1_0 : DmaSem sig := 141
abbrev cc18_sem2_0 : DmaSem sig := 142
abbrev cc18_sem2_1 : DmaSem sig := 143
abbrev cc18_sem3_0 : DmaSem sig := 144
abbrev cc18_sem4_0 : DmaSem sig := 145
abbrev cc18_sem5_0 : DmaSem sig := 146
abbrev cc18_sem5_1 : DmaSem sig := 147
abbrev cc19_sem0_0 : DmaSem sig := 148
abbrev cc19_sem0_1 : DmaSem sig := 149
abbrev cc19_sem1_0 : DmaSem sig := 150
abbrev cc19_sem2_0 : DmaSem sig := 151
abbrev cc19_sem2_1 : DmaSem sig := 152
abbrev cc19_sem3_0 : DmaSem sig := 153
abbrev cc19_sem3_1 : DmaSem sig := 154
abbrev cc20_sem0_0 : DmaSem sig := 155
abbrev cc20_sem0_1 : DmaSem sig := 156
abbrev cc20_sem1_0 : DmaSem sig := 157
abbrev cc20_sem2_0 : DmaSem sig := 158
abbrev cc20_sem2_1 : DmaSem sig := 159
abbrev cc20_sem3_0 : DmaSem sig := 160
abbrev cc20_sem4_0 : DmaSem sig := 161
abbrev cc20_sem5_0 : DmaSem sig := 162
abbrev cc20_sem5_1 : DmaSem sig := 163
abbrev cc21_sem0_0 : DmaSem sig := 164
abbrev cc21_sem0_1 : DmaSem sig := 165
abbrev cc21_sem1_0 : DmaSem sig := 166
abbrev cc21_sem2_0 : DmaSem sig := 167
abbrev cc21_sem2_1 : DmaSem sig := 168
abbrev cc21_sem3_0 : DmaSem sig := 169
abbrev cc21_sem3_1 : DmaSem sig := 170
abbrev cc22_sem0_0 : DmaSem sig := 171
abbrev cc22_sem0_1 : DmaSem sig := 172
abbrev cc22_sem1_0 : DmaSem sig := 173
abbrev cc22_sem2_0 : DmaSem sig := 174
abbrev cc22_sem2_1 : DmaSem sig := 175
abbrev cc22_sem3_0 : DmaSem sig := 176
abbrev cc22_sem4_0 : DmaSem sig := 177
abbrev cc22_sem5_0 : DmaSem sig := 178
abbrev cc22_sem5_1 : DmaSem sig := 179
abbrev cc23_sem0_0 : DmaSem sig := 180
abbrev cc23_sem0_1 : DmaSem sig := 181
abbrev cc23_sem1_0 : DmaSem sig := 182
abbrev cc23_sem2_0 : DmaSem sig := 183
abbrev cc23_sem2_1 : DmaSem sig := 184
abbrev cc23_sem3_0 : DmaSem sig := 185
abbrev cc23_sem3_1 : DmaSem sig := 186
abbrev cc24_sem0_0 : DmaSem sig := 187
abbrev cc24_sem0_1 : DmaSem sig := 188
abbrev cc24_sem1_0 : DmaSem sig := 189
abbrev cc24_sem2_0 : DmaSem sig := 190
abbrev cc24_sem2_1 : DmaSem sig := 191
abbrev cc24_sem3_0 : DmaSem sig := 192
abbrev cc24_sem4_0 : DmaSem sig := 193
abbrev cc24_sem5_0 : DmaSem sig := 194
abbrev cc24_sem5_1 : DmaSem sig := 195
abbrev cc25_sem0_0 : DmaSem sig := 196
abbrev cc25_sem0_1 : DmaSem sig := 197
abbrev cc25_sem1_0 : DmaSem sig := 198
abbrev cc25_sem2_0 : DmaSem sig := 199
abbrev cc25_sem2_1 : DmaSem sig := 200
abbrev cc25_sem3_0 : DmaSem sig := 201
abbrev cc25_sem3_1 : DmaSem sig := 202
abbrev cc26_sem0_0 : DmaSem sig := 203
abbrev cc26_sem0_1 : DmaSem sig := 204
abbrev cc26_sem1_0 : DmaSem sig := 205
abbrev cc26_sem2_0 : DmaSem sig := 206
abbrev cc26_sem2_1 : DmaSem sig := 207
abbrev cc26_sem3_0 : DmaSem sig := 208
abbrev cc26_sem4_0 : DmaSem sig := 209
abbrev cc26_sem5_0 : DmaSem sig := 210
abbrev cc26_sem5_1 : DmaSem sig := 211
abbrev cc27_sem0_0 : DmaSem sig := 212
abbrev cc27_sem0_1 : DmaSem sig := 213
abbrev cc27_sem1_0 : DmaSem sig := 214
abbrev cc27_sem2_0 : DmaSem sig := 215
abbrev cc27_sem2_1 : DmaSem sig := 216
abbrev cc27_sem3_0 : DmaSem sig := 217
abbrev cc27_sem3_1 : DmaSem sig := 218
abbrev cc28_sem0_0 : DmaSem sig := 219
abbrev cc28_sem0_1 : DmaSem sig := 220
abbrev cc28_sem1_0 : DmaSem sig := 221
abbrev cc28_sem2_0 : DmaSem sig := 222
abbrev cc28_sem2_1 : DmaSem sig := 223
abbrev cc28_sem3_0 : DmaSem sig := 224
abbrev cc28_sem4_0 : DmaSem sig := 225
abbrev cc28_sem5_0 : DmaSem sig := 226
abbrev cc28_sem5_1 : DmaSem sig := 227

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S192x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x192 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S192x192 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2048x64 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x8192 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8192x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S512x192 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x192 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S192x192 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2048x64 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2048x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x8192 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S8192x64 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S512x192 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x192 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S192x192 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2048x64 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S2048x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![16], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x8192 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S8192x64 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S512x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S512x192 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2048x192 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S192x192 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S2048x64 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S2048x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![16], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S512x8192 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S8192x64 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S512x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S512x192 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2048x192 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S192x192 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S2048x64 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S2048x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![16], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S512x8192 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S8192x64 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S512x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S512x192 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![4], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2048x192 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S192x192 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S2048x64 .bf16 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S2048x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![16], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S512x8192 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S8192x64 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S512x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 1 → Memref sig .tc .vmem S1x64 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S512x192 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![4], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2048x192 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S192x192 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S2048x64 .bf16 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 2 → Memref sig .tc .vmem S2048x128 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![16], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S512x8192 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S8192x64 .bf16 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S512x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 1 → Memref sig .tc .vmem S1x64 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S512x192 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev grid19 : Pipeline.Grid := ⟨1, ![4], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S2048x192 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S192x192 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S2048x64 .bf16 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev stage19_3 : Fin 2 → Memref sig .tc .vmem S2048x128 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev grid20 : Pipeline.Grid := ⟨1, ![16], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S512x8192 .bf16 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S8192x64 .bf16 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 2 → Memref sig .tc .vmem S512x128 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev stage20_3 : Fin 1 → Memref sig .tc .vmem S1x64 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x128 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 2 → Memref sig .tc .vmem S512x192 .f32 := fun | 0 => Memref.whole cc20_stg5_0 | 1 => Memref.whole cc20_stg5_1 | ⟨_ + 2, h⟩ => absurd h (Nat.not_lt.2 (Nat.le_add_left _ _))
abbrev sem20_5 : Fin 2 → DmaSem sig := fun | 0 => cc20_sem5_0 | 1 => cc20_sem5_1 | ⟨_ + 2, h⟩ => absurd h (Nat.not_lt.2 (Nat.le_add_left _ _))
abbrev reads20_5 : Fin grid20.rank → Bool := ![true]

abbrev grid21 : Pipeline.Grid := ⟨1, ![4], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S2048x192 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S192x192 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 2 → Memref sig .tc .vmem S2048x64 .bf16 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev stage21_3 : Fin 2 → Memref sig .tc .vmem S2048x128 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

abbrev grid22 : Pipeline.Grid := ⟨1, ![16], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_5 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S512x8192 .bf16 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S8192x64 .bf16 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 2 → Memref sig .tc .vmem S512x128 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev stage22_3 : Fin 1 → Memref sig .tc .vmem S1x64 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S1x128 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev stage22_5 : Fin 2 → Memref sig .tc .vmem S512x192 .f32 := fun | 0 => Memref.whole cc22_stg5_0 | 1 => Memref.whole cc22_stg5_1 | ⟨_ + 2, h⟩ => absurd h (Nat.not_lt.2 (Nat.le_add_left _ _))
abbrev sem22_5 : Fin 2 → DmaSem sig := fun | 0 => cc22_sem5_0 | 1 => cc22_sem5_1 | ⟨_ + 2, h⟩ => absurd h (Nat.not_lt.2 (Nat.le_add_left _ _))
abbrev reads22_5 : Fin grid22.rank → Bool := ![true]

abbrev grid23 : Pipeline.Grid := ⟨1, ![4], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_3 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S2048x192 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S192x192 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 2 → Memref sig .tc .vmem S2048x64 .bf16 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true]

abbrev stage23_3 : Fin 2 → Memref sig .tc .vmem S2048x128 .f32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true]

abbrev grid24 : Pipeline.Grid := ⟨1, ![16], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_3 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_5 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S512x8192 .bf16 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 1 → Memref sig .tc .vmem S8192x64 .bf16 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 2 → Memref sig .tc .vmem S512x128 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev stage24_3 : Fin 1 → Memref sig .tc .vmem S1x64 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false]

abbrev stage24_4 : Fin 1 → Memref sig .tc .vmem S1x128 .f32 := fun | 0 => Memref.whole cc24_stg4_0 | ⟨_ + 1, h⟩ => absurd h (Nat.not_lt.2 (Nat.le_add_left _ _))
abbrev sem24_4 : Fin 1 → DmaSem sig := fun | 0 => cc24_sem4_0 | ⟨_ + 1, h⟩ => absurd h (Nat.not_lt.2 (Nat.le_add_left _ _))
abbrev reads24_4 : Fin grid24.rank → Bool := ![false]

abbrev stage24_5 : Fin 2 → Memref sig .tc .vmem S512x192 .f32 := fun | 0 => Memref.whole cc24_stg5_0 | 1 => Memref.whole cc24_stg5_1 | ⟨_ + 2, h⟩ => absurd h (Nat.not_lt.2 (Nat.le_add_left _ _))
abbrev sem24_5 : Fin 2 → DmaSem sig := fun | 0 => cc24_sem5_0 | 1 => cc24_sem5_1 | ⟨_ + 2, h⟩ => absurd h (Nat.not_lt.2 (Nat.le_add_left _ _))
abbrev reads24_5 : Fin grid24.rank → Bool := ![true]

abbrev grid25 : Pipeline.Grid := ⟨1, ![4], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_3 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S2048x192 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S192x192 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 2 → Memref sig .tc .vmem S2048x64 .bf16 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![true]

abbrev stage25_3 : Fin 2 → Memref sig .tc .vmem S2048x128 .f32 := fun | 0 => Memref.whole cc25_stg3_0 | 1 => Memref.whole cc25_stg3_1 | ⟨_ + 2, h⟩ => absurd h (Nat.not_lt.2 (Nat.le_add_left _ _))
abbrev sem25_3 : Fin 2 → DmaSem sig := fun | 0 => cc25_sem3_0 | 1 => cc25_sem3_1 | ⟨_ + 2, h⟩ => absurd h (Nat.not_lt.2 (Nat.le_add_left _ _))
abbrev reads25_3 : Fin grid25.rank → Bool := ![true]

abbrev grid26 : Pipeline.Grid := ⟨1, ![16], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_3 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_4 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_5 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S512x8192 .bf16 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S8192x64 .bf16 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 2 → Memref sig .tc .vmem S512x128 .f32 := fun | 0 => Memref.whole cc26_stg2_0 | 1 => Memref.whole cc26_stg2_1 | ⟨_ + 2, h⟩ => absurd h (Nat.not_lt.2 (Nat.le_add_left _ _))
abbrev sem26_2 : Fin 2 → DmaSem sig := fun | 0 => cc26_sem2_0 | 1 => cc26_sem2_1 | ⟨_ + 2, h⟩ => absurd h (Nat.not_lt.2 (Nat.le_add_left _ _))
abbrev reads26_2 : Fin grid26.rank → Bool := ![true]

abbrev stage26_3 : Fin 1 → Memref sig .tc .vmem S1x64 .f32 := fun | 0 => Memref.whole cc26_stg3_0 | ⟨_ + 1, h⟩ => absurd h (Nat.not_lt.2 (Nat.le_add_left _ _))
abbrev sem26_3 : Fin 1 → DmaSem sig := fun | 0 => cc26_sem3_0 | ⟨_ + 1, h⟩ => absurd h (Nat.not_lt.2 (Nat.le_add_left _ _))
abbrev reads26_3 : Fin grid26.rank → Bool := ![false]

abbrev stage26_4 : Fin 1 → Memref sig .tc .vmem S1x128 .f32 := fun | 0 => Memref.whole cc26_stg4_0 | ⟨_ + 1, h⟩ => absurd h (Nat.not_lt.2 (Nat.le_add_left _ _))
abbrev sem26_4 : Fin 1 → DmaSem sig := fun | 0 => cc26_sem4_0 | ⟨_ + 1, h⟩ => absurd h (Nat.not_lt.2 (Nat.le_add_left _ _))
abbrev reads26_4 : Fin grid26.rank → Bool := ![false]

abbrev stage26_5 : Fin 2 → Memref sig .tc .vmem S512x192 .f32 := fun | 0 => Memref.whole cc26_stg5_0 | 1 => Memref.whole cc26_stg5_1 | ⟨_ + 2, h⟩ => absurd h (Nat.not_lt.2 (Nat.le_add_left _ _))
abbrev sem26_5 : Fin 2 → DmaSem sig := fun | 0 => cc26_sem5_0 | 1 => cc26_sem5_1 | ⟨_ + 2, h⟩ => absurd h (Nat.not_lt.2 (Nat.le_add_left _ _))
abbrev reads26_5 : Fin grid26.rank → Bool := ![true]

abbrev grid27 : Pipeline.Grid := ⟨1, ![4], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_2 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_3 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S2048x192 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S192x3 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 2 → Memref sig .tc .vmem S2048x2 .bf16 := fun | 0 => Memref.whole cc27_stg2_0 | 1 => Memref.whole cc27_stg2_1 | ⟨_ + 2, h⟩ => absurd h (Nat.not_lt.2 (Nat.le_add_left _ _))
abbrev sem27_2 : Fin 2 → DmaSem sig := fun | 0 => cc27_sem2_0 | 1 => cc27_sem2_1 | ⟨_ + 2, h⟩ => absurd h (Nat.not_lt.2 (Nat.le_add_left _ _))
abbrev reads27_2 : Fin grid27.rank → Bool := ![true]

abbrev stage27_3 : Fin 2 → Memref sig .tc .vmem S2048x1 .f32 := fun | 0 => Memref.whole cc27_stg3_0 | 1 => Memref.whole cc27_stg3_1 | ⟨_ + 2, h⟩ => absurd h (Nat.not_lt.2 (Nat.le_add_left _ _))
abbrev sem27_3 : Fin 2 → DmaSem sig := fun | 0 => cc27_sem3_0 | 1 => cc27_sem3_1 | ⟨_ + 2, h⟩ => absurd h (Nat.not_lt.2 (Nat.le_add_left _ _))
abbrev reads27_3 : Fin grid27.rank → Bool := ![true]

abbrev grid28 : Pipeline.Grid := ⟨1, ![16], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_2 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_3 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_4 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_5 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage28_0 : Fin 2 → Memref sig .tc .vmem S512x8192 .bf16 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 1 → Memref sig .tc .vmem S8192x2 .bf16 := fun | 0 => Memref.whole cc28_stg1_0 | ⟨_ + 1, h⟩ => absurd h (Nat.not_lt.2 (Nat.le_add_left _ _))
abbrev sem28_1 : Fin 1 → DmaSem sig := fun | 0 => cc28_sem1_0 | ⟨_ + 1, h⟩ => absurd h (Nat.not_lt.2 (Nat.le_add_left _ _))
abbrev reads28_1 : Fin grid28.rank → Bool := ![false]

abbrev stage28_2 : Fin 2 → Memref sig .tc .vmem S512x1 .f32 := fun | 0 => Memref.whole cc28_stg2_0 | 1 => Memref.whole cc28_stg2_1 | ⟨_ + 2, h⟩ => absurd h (Nat.not_lt.2 (Nat.le_add_left _ _))
abbrev sem28_2 : Fin 2 → DmaSem sig := fun | 0 => cc28_sem2_0 | 1 => cc28_sem2_1 | ⟨_ + 2, h⟩ => absurd h (Nat.not_lt.2 (Nat.le_add_left _ _))
abbrev reads28_2 : Fin grid28.rank → Bool := ![true]

abbrev stage28_3 : Fin 1 → Memref sig .tc .vmem S1x2 .f32 := fun | 0 => Memref.whole cc28_stg3_0 | ⟨_ + 1, h⟩ => absurd h (Nat.not_lt.2 (Nat.le_add_left _ _))
abbrev sem28_3 : Fin 1 → DmaSem sig := fun | 0 => cc28_sem3_0 | ⟨_ + 1, h⟩ => absurd h (Nat.not_lt.2 (Nat.le_add_left _ _))
abbrev reads28_3 : Fin grid28.rank → Bool := ![false]

abbrev stage28_4 : Fin 1 → Memref sig .tc .vmem S1x1 .f32 := fun | 0 => Memref.whole cc28_stg4_0 | ⟨_ + 1, h⟩ => absurd h (Nat.not_lt.2 (Nat.le_add_left _ _))
abbrev sem28_4 : Fin 1 → DmaSem sig := fun | 0 => cc28_sem4_0 | ⟨_ + 1, h⟩ => absurd h (Nat.not_lt.2 (Nat.le_add_left _ _))
abbrev reads28_4 : Fin grid28.rank → Bool := ![false]

abbrev stage28_5 : Fin 2 → Memref sig .tc .vmem S512x3 .f32 := fun | 0 => Memref.whole cc28_stg5_0 | 1 => Memref.whole cc28_stg5_1 | ⟨_ + 2, h⟩ => absurd h (Nat.not_lt.2 (Nat.le_add_left _ _))
abbrev sem28_5 : Fin 2 → DmaSem sig := fun | 0 => cc28_sem5_0 | 1 => cc28_sem5_1 | ⟨_ + 2, h⟩ => absurd h (Nat.not_lt.2 (Nat.le_add_left _ _))
abbrev reads28_5 : Fin grid28.rank → Bool := ![true]

class Facts₀ : Prop where
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  packedbf16_S256x8192_S256x8192_0_0 : (Rect.unit (s := S256x8192) ![0, 0] S256x8192.size inb_S256x8192_S256x8192_0_0).PackedRows (EltTy.packing .bf16)
  inb_S2048x256_S2048x256_0_0 : ∀ a, (![0, 0] : Fin 2 → Nat) a + S2048x256.size a ≤ S2048x256.size a
  h_S2048x256 : 0 < S2048x256.numel
  inb_S256x192_S256x192_0_0 : ∀ a, (![0, 0] : Fin 2 → Nat) a + S256x192.size a ≤ S256x192.size a
  h_S256x192 : 0 < S256x192.numel
  slices_S2048x192_o0_0_S2048x64 : S2048x192.Slices ![0, 0] S2048x64
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  slices_S2048x192_o0_64_S2048x128 : S2048x192.Slices ![0, 64] S2048x128
  inb_S2048x128_S2048x128_0_0 : ∀ a, (![0, 0] : Fin 2 → Nat) a + S2048x128.size a ≤ S2048x128.size a
  h_S2048x128 : 0 < S2048x128.numel
  slices_S192_S64_0 : S192.Slices ![0] S64
  shapeCasts_S64_S1x64 : S64.ShapeCasts S1x64
  slices_S192_S128_64 : S192.Slices ![64] S128
  shapeCasts_S128_S1x128 : S128.ShapeCasts S1x128
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  concatenates_S512x64_S512x128_S512x192_d1 : Shape.Concatenates [S512x64, S512x128] S512x192 1
  inb_S512x192_S512x192_0_0 : ∀ a, (![0, 0] : Fin 2 → Nat) a + S512x192.size a ≤ S512x192.size a
  h_S512x192 : 0 < S512x192.numel
  slices_S12x192x192_S1x192x192_0_0_0 : S12x192x192.Slices ![0, 0, 0] S1x192x192
  shapeCasts_S1x192x192_S192x192 : S1x192x192.ShapeCasts S192x192
  slices_S12x192_S1x192_0_0 : S12x192.Slices ![0, 0] S1x192
  shapeCasts_S1x192_S192 : S1x192.ShapeCasts S192
  inb_S2048x192_S2048x192_0_0 : ∀ a, (![0, 0] : Fin 2 → Nat) a + S2048x192.size a ≤ S2048x192.size a
  h_S2048x192 : 0 < S2048x192.numel
  shapeCasts_S2048x192_S2048x192 : S2048x192.ShapeCasts S2048x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  slices_S8192x256_S8192x192_0_0 : S8192x256.Slices ![0, 0] S8192x192
  bcast_S_S8192x192 : S_.BroadcastsInDim S8192x192 (![] : Fin 0 → Fin S8192x192.rank)
  slices_S12x192x192_S1x192x192_1_0_0 : S12x192x192.Slices ![1, 0, 0] S1x192x192
  slices_S12x192_S1x192_1_0 : S12x192.Slices ![1, 0] S1x192
  slices_S12x192x192_S1x192x192_2_0_0 : S12x192x192.Slices ![2, 0, 0] S1x192x192
  slices_S12x192_S1x192_2_0 : S12x192.Slices ![2, 0] S1x192
  slices_S12x192x192_S1x192x192_3_0_0 : S12x192x192.Slices ![3, 0, 0] S1x192x192
  slices_S12x192_S1x192_3_0 : S12x192.Slices ![3, 0] S1x192
  slices_S12x192x192_S1x192x192_4_0_0 : S12x192x192.Slices ![4, 0, 0] S1x192x192
  slices_S12x192_S1x192_4_0 : S12x192.Slices ![4, 0] S1x192
  slices_S12x192x192_S1x192x192_5_0_0 : S12x192x192.Slices ![5, 0, 0] S1x192x192
  slices_S12x192_S1x192_5_0 : S12x192.Slices ![5, 0] S1x192
  slices_S12x192x192_S1x192x192_6_0_0 : S12x192x192.Slices ![6, 0, 0] S1x192x192
  slices_S12x192_S1x192_6_0 : S12x192.Slices ![6, 0] S1x192
  slices_S12x192x192_S1x192x192_7_0_0 : S12x192x192.Slices ![7, 0, 0] S1x192x192
  slices_S12x192_S1x192_7_0 : S12x192.Slices ![7, 0] S1x192
  slices_S12x192x192_S1x192x192_8_0_0 : S12x192x192.Slices ![8, 0, 0] S1x192x192
  slices_S12x192_S1x192_8_0 : S12x192.Slices ![8, 0] S1x192
  slices_S12x192x192_S1x192x192_9_0_0 : S12x192x192.Slices ![9, 0, 0] S1x192x192
  slices_S12x192_S1x192_9_0 : S12x192.Slices ![9, 0] S1x192
  slices_S12x192x192_S1x192x192_10_0_0 : S12x192x192.Slices ![10, 0, 0] S1x192x192
  slices_S12x192_S1x192_10_0 : S12x192.Slices ![10, 0] S1x192
  slices_S12x192x192_S1x192x192_11_0_0 : S12x192x192.Slices ![11, 0, 0] S1x192x192
  slices_S12x192_S1x192_11_0 : S12x192.Slices ![11, 0] S1x192
  inb_S192x3_S192x3_0_0 : ∀ a, (![0, 0] : Fin 2 → Nat) a + S192x3.size a ≤ S192x3.size a
  h_S192x3 : 0 < S192x3.numel
  slices_S2048x3_o0_0_S2048x2 : S2048x3.Slices ![0, 0] S2048x2
  inb_S2048x2_S2048x2_0_0 : ∀ a, (![0, 0] : Fin 2 → Nat) a + S2048x2.size a ≤ S2048x2.size a
  h_S2048x2 : 0 < S2048x2.numel
  packedbf16_S2048x2_S2048x2_0_0 : (Rect.unit (s := S2048x2) ![0, 0] S2048x2.size inb_S2048x2_S2048x2_0_0).PackedRows (EltTy.packing .bf16)
  slices_S2048x3_o0_2_S2048x1 : S2048x3.Slices ![0, 2] S2048x1
  inb_S2048x1_S2048x1_0_0 : ∀ a, (![0, 0] : Fin 2 → Nat) a + S2048x1.size a ≤ S2048x1.size a
  h_S2048x1 : 0 < S2048x1.numel
  slices_S3_S2_0 : S3.Slices ![0] S2
  shapeCasts_S2_S1x2 : S2.ShapeCasts S1x2
  slices_S3_S1_2 : S3.Slices ![2] S1
  shapeCasts_S1_S1x1 : S1.ShapeCasts S1x1
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  concatenates_S512x2_S512x1_S512x3_d1 : Shape.Concatenates [S512x2, S512x1] S512x3 1
  inb_S512x3_S512x3_0_0 : ∀ a, (![0, 0] : Fin 2 → Nat) a + S512x3.size a ≤ S512x3.size a
  h_S512x3 : 0 < S512x3.numel
  dot_S2048x256_S256x192_S2048x192_1_0_0_1_n_n_wf : DotDims.WF S2048x256 S256x192 S2048x192 [1] [0] [0] [1] [] []
  dot_S512x8192_S8192x64_S512x64_1_0_0_1_n_n_wf : DotDims.WF S512x8192 S8192x64 S512x64 [1] [0] [0] [1] [] []
  dot_S2048x192_S192x192_S2048x192_1_0_0_1_n_n_wf : DotDims.WF S2048x192 S192x192 S2048x192 [1] [0] [0] [1] [] []
  dot_S2048x192_S192x3_S2048x3_1_0_0_1_n_n_wf : DotDims.WF S2048x192 S192x3 S2048x3 [1] [0] [0] [1] [] []
  dot_S512x8192_S8192x2_S512x2_1_0_0_1_n_n_wf : DotDims.WF S512x8192 S8192x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .bf16 = 32 ∨ (Rect.block (s := S8192x8192) S256x8192.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x192.size a ≤ S256x192.size a
  hwx1_1 : ∀ i : grid1.Coords, EltTy.bits .f32 = 32 ∨ (Rect.block (s := S256x192) S256x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .bf16 = 32 ∨ (Rect.block (s := S8192x64) S2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .bf16 = 32 ∨ (Rect.block (s := S8192x8192) S512x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .bf16 = 32 ∨ (Rect.block (s := S8192x64) S8192x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S8192x128.size a
  hwx2_2 : ∀ i : grid2.Coords, EltTy.bits .f32 = 32 ∨ (Rect.block (s := S8192x128) S512x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x192.size a ≤ S8192x192.size a
  hwx2_5 : ∀ i : grid2.Coords, EltTy.bits .f32 = 32 ∨ (Rect.block (s := S8192x192) S512x192.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x192.size a ≤ S8192x192.size a
  hwx3_0 : ∀ i : grid3.Coords, EltTy.bits .f32 = 32 ∨ (Rect.block (s := S8192x192) S2048x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x192.size a ≤ S192x192.size a
  hwx3_1 : ∀ i : grid3.Coords, EltTy.bits .f32 = 32 ∨ (Rect.block (s := S192x192) S192x192.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S8192x64.size a
  hwx3_2 : ∀ i : grid3.Coords, EltTy.bits .bf16 = 32 ∨ (Rect.block (s := S8192x64) S2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S8192x128.size a
  hwx3_3 : ∀ i : grid3.Coords, EltTy.bits .f32 = 32 ∨ (Rect.block (s := S8192x128) S2048x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x8192.size a ≤ S8192x8192.size a
  hwx4_0 : ∀ i : grid4.Coords, EltTy.bits .bf16 = 32 ∨ (Rect.block (s := S8192x8192) S512x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S8192x64.size a
  hwx4_1 : ∀ i : grid4.Coords, EltTy.bits .bf16 = 32 ∨ (Rect.block (s := S8192x64) S8192x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S8192x128.size a
  hwx4_2 : ∀ i : grid4.Coords, EltTy.bits .f32 = 32 ∨ (Rect.block (s := S8192x128) S512x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x192.size a ≤ S8192x192.size a
  hwx4_5 : ∀ i : grid4.Coords, EltTy.bits .f32 = 32 ∨ (Rect.block (s := S8192x192) S512x192.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x192.size a ≤ S8192x192.size a
  hwx5_0 : ∀ i : grid5.Coords, EltTy.bits .f32 = 32 ∨ (Rect.block (s := S8192x192) S2048x192.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S192x192.size a ≤ S192x192.size a
  hwx5_1 : ∀ i : grid5.Coords, EltTy.bits .f32 = 32 ∨ (Rect.block (s := S192x192) S192x192.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x64.size a ≤ S8192x64.size a
  hwx5_2 : ∀ i : grid5.Coords, EltTy.bits .bf16 = 32 ∨ (Rect.block (s := S8192x64) S2048x64.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x128.size a ≤ S8192x128.size a
  hwx5_3 : ∀ i : grid5.Coords, EltTy.bits .f32 = 32 ∨ (Rect.block (s := S8192x128) S2048x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x8192.size a ≤ S8192x8192.size a
  hwx6_0 : ∀ i : grid6.Coords, EltTy.bits .bf16 = 32 ∨ (Rect.block (s := S8192x8192) S512x8192.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8192x64.size a ≤ S8192x64.size a
  hwx6_1 : ∀ i : grid6.Coords, EltTy.bits .bf16 = 32 ∨ (Rect.block (s := S8192x64) S8192x64.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S8192x128.size a
  hwx6_2 : ∀ i : grid6.Coords, EltTy.bits .f32 = 32 ∨ (Rect.block (s := S8192x128) S512x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S512x192.size a ≤ S8192x192.size a
  hwx6_5 : ∀ i : grid6.Coords, EltTy.bits .f32 = 32 ∨ (Rect.block (s := S8192x192) S512x192.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x192.size a ≤ S8192x192.size a
  hwx7_0 : ∀ i : grid7.Coords, EltTy.bits .f32 = 32 ∨ (Rect.block (s := S8192x192) S2048x192.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S192x192.size a ≤ S192x192.size a
  hwx7_1 : ∀ i : grid7.Coords, EltTy.bits .f32 = 32 ∨ (Rect.block (s := S192x192) S192x192.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x64.size a ≤ S8192x64.size a
  hwx7_2 : ∀ i : grid7.Coords, EltTy.bits .bf16 = 32 ∨ (Rect.block (s := S8192x64) S2048x64.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x128.size a ≤ S8192x128.size a
  hwx7_3 : ∀ i : grid7.Coords, EltTy.bits .f32 = 32 ∨ (Rect.block (s := S8192x128) S2048x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x8192.size a ≤ S8192x8192.size a
  hwx8_0 : ∀ i : grid8.Coords, EltTy.bits .bf16 = 32 ∨ (Rect.block (s := S8192x8192) S512x8192.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S8192x64.size a ≤ S8192x64.size a
  hwx8_1 : ∀ i : grid8.Coords, EltTy.bits .bf16 = 32 ∨ (Rect.block (s := S8192x64) S8192x64.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S512x128.size a ≤ S8192x128.size a
  hwx8_2 : ∀ i : grid8.Coords, EltTy.bits .f32 = 32 ∨ (Rect.block (s := S8192x128) S512x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S512x192.size a ≤ S8192x192.size a
  hwx8_5 : ∀ i : grid8.Coords, EltTy.bits .f32 = 32 ∨ (Rect.block (s := S8192x192) S512x192.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x192.size a ≤ S8192x192.size a
  hwx9_0 : ∀ i : grid9.Coords, EltTy.bits .f32 = 32 ∨ (Rect.block (s := S8192x192) S2048x192.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S192x192.size a ≤ S192x192.size a
  hwx9_1 : ∀ i : grid9.Coords, EltTy.bits .f32 = 32 ∨ (Rect.block (s := S192x192) S192x192.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x64.size a ≤ S8192x64.size a
  hwx9_2 : ∀ i : grid9.Coords, EltTy.bits .bf16 = 32 ∨ (Rect.block (s := S8192x64) S2048x64.size (cc9_transform_2 i) (hinb9_2 i)).WholeWords (EltTy.packing .bf16)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2048x128.size a ≤ S8192x128.size a
  hwx9_3 : ∀ i : grid9.Coords, EltTy.bits .f32 = 32 ∨ (Rect.block (s := S8192x128) S2048x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x8192.size a ≤ S8192x8192.size a
  hwx10_0 : ∀ i : grid10.Coords, EltTy.bits .bf16 = 32 ∨ (Rect.block (s := S8192x8192) S512x8192.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S8192x64.size a ≤ S8192x64.size a
  hwx10_1 : ∀ i : grid10.Coords, EltTy.bits .bf16 = 32 ∨ (Rect.block (s := S8192x64) S8192x64.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S512x128.size a ≤ S8192x128.size a
  hwx10_2 : ∀ i : grid10.Coords, EltTy.bits .f32 = 32 ∨ (Rect.block (s := S8192x128) S512x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S512x192.size a ≤ S8192x192.size a
  hwx10_5 : ∀ i : grid10.Coords, EltTy.bits .f32 = 32 ∨ (Rect.block (s := S8192x192) S512x192.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x192.size a ≤ S8192x192.size a
  hwx11_0 : ∀ i : grid11.Coords, EltTy.bits .f32 = 32 ∨ (Rect.block (s := S8192x192) S2048x192.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S192x192.size a ≤ S192x192.size a
  hwx11_1 : ∀ i : grid11.Coords, EltTy.bits .f32 = 32 ∨ (Rect.block (s := S192x192) S192x192.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2048x64.size a ≤ S8192x64.size a
  hwx11_2 : ∀ i : grid11.Coords, EltTy.bits .bf16 = 32 ∨ (Rect.block (s := S8192x64) S2048x64.size (cc11_transform_2 i) (hinb11_2 i)).WholeWords (EltTy.packing .bf16)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2048x128.size a ≤ S8192x128.size a
  hwx11_3 : ∀ i : grid11.Coords, EltTy.bits .f32 = 32 ∨ (Rect.block (s := S8192x128) S2048x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S512x8192.size a ≤ S8192x8192.size a
  hwx12_0 : ∀ i : grid12.Coords, EltTy.bits .bf16 = 32 ∨ (Rect.block (s := S8192x8192) S512x8192.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S8192x64.size a ≤ S8192x64.size a
  hwx12_1 : ∀ i : grid12.Coords, EltTy.bits .bf16 = 32 ∨ (Rect.block (s := S8192x64) S8192x64.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S512x128.size a ≤ S8192x128.size a
  hwx12_2 : ∀ i : grid12.Coords, EltTy.bits .f32 = 32 ∨ (Rect.block (s := S8192x128) S512x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S512x192.size a ≤ S8192x192.size a
  hwx12_5 : ∀ i : grid12.Coords, EltTy.bits .f32 = 32 ∨ (Rect.block (s := S8192x192) S512x192.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2048x192.size a ≤ S8192x192.size a
  hwx13_0 : ∀ i : grid13.Coords, EltTy.bits .f32 = 32 ∨ (Rect.block (s := S8192x192) S2048x192.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S192x192.size a ≤ S192x192.size a
  hwx13_1 : ∀ i : grid13.Coords, EltTy.bits .f32 = 32 ∨ (Rect.block (s := S192x192) S192x192.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2048x64.size a ≤ S8192x64.size a
  hwx13_2 : ∀ i : grid13.Coords, EltTy.bits .bf16 = 32 ∨ (Rect.block (s := S8192x64) S2048x64.size (cc13_transform_2 i) (hinb13_2 i)).WholeWords (EltTy.packing .bf16)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2048x128.size a ≤ S8192x128.size a
  hwx13_3 : ∀ i : grid13.Coords, EltTy.bits .f32 = 32 ∨ (Rect.block (s := S8192x128) S2048x128.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S512x8192.size a ≤ S8192x8192.size a
  hwx14_0 : ∀ i : grid14.Coords, EltTy.bits .bf16 = 32 ∨ (Rect.block (s := S8192x8192) S512x8192.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S8192x64.size a ≤ S8192x64.size a
  hwx14_1 : ∀ i : grid14.Coords, EltTy.bits .bf16 = 32 ∨ (Rect.block (s := S8192x64) S8192x64.size (cc14_transform_1 i) (hinb14_1 i)).WholeWords (EltTy.packing .bf16)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S512x128.size a ≤ S8192x128.size a
  hwx14_2 : ∀ i : grid14.Coords, EltTy.bits .f32 = 32 ∨ (Rect.block (s := S8192x128) S512x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S512x192.size a ≤ S8192x192.size a
  hwx14_5 : ∀ i : grid14.Coords, EltTy.bits .f32 = 32 ∨ (Rect.block (s := S8192x192) S512x192.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2048x192.size a ≤ S8192x192.size a
  hwx15_0 : ∀ i : grid15.Coords, EltTy.bits .f32 = 32 ∨ (Rect.block (s := S8192x192) S2048x192.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S192x192.size a ≤ S192x192.size a
  hwx15_1 : ∀ i : grid15.Coords, EltTy.bits .f32 = 32 ∨ (Rect.block (s := S192x192) S192x192.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2048x64.size a ≤ S8192x64.size a
  hwx15_2 : ∀ i : grid15.Coords, EltTy.bits .bf16 = 32 ∨ (Rect.block (s := S8192x64) S2048x64.size (cc15_transform_2 i) (hinb15_2 i)).WholeWords (EltTy.packing .bf16)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S2048x128.size a ≤ S8192x128.size a
  hwx15_3 : ∀ i : grid15.Coords, EltTy.bits .f32 = 32 ∨ (Rect.block (s := S8192x128) S2048x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S512x8192.size a ≤ S8192x8192.size a
  hwx16_0 : ∀ i : grid16.Coords, EltTy.bits .bf16 = 32 ∨ (Rect.block (s := S8192x8192) S512x8192.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S8192x64.size a ≤ S8192x64.size a
  hwx16_1 : ∀ i : grid16.Coords, EltTy.bits .bf16 = 32 ∨ (Rect.block (s := S8192x64) S8192x64.size (cc16_transform_1 i) (hinb16_1 i)).WholeWords (EltTy.packing .bf16)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S512x128.size a ≤ S8192x128.size a
  hwx16_2 : ∀ i : grid16.Coords, EltTy.bits .f32 = 32 ∨ (Rect.block (s := S8192x128) S512x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x64.size a ≤ S1x64.size a
  hwx16_3 : ∀ i : grid16.Coords, EltTy.bits .f32 = 32 ∨ (Rect.block (s := S1x64) S1x64.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S512x192.size a ≤ S8192x192.size a
  hwx16_5 : ∀ i : grid16.Coords, EltTy.bits .f32 = 32 ∨ (Rect.block (s := S8192x192) S512x192.size (cc16_transform_5 i) (hinb16_5 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2048x192.size a ≤ S8192x192.size a
  hwx17_0 : ∀ i : grid17.Coords, EltTy.bits .f32 = 32 ∨ (Rect.block (s := S8192x192) S2048x192.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S192x192.size a ≤ S192x192.size a
  hwx17_1 : ∀ i : grid17.Coords, EltTy.bits .f32 = 32 ∨ (Rect.block (s := S192x192) S192x192.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S2048x64.size a ≤ S8192x64.size a
  hwx17_2 : ∀ i : grid17.Coords, EltTy.bits .bf16 = 32 ∨ (Rect.block (s := S8192x64) S2048x64.size (cc17_transform_2 i) (hinb17_2 i)).WholeWords (EltTy.packing .bf16)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S2048x128.size a ≤ S8192x128.size a
  hwx17_3 : ∀ i : grid17.Coords, EltTy.bits .f32 = 32 ∨ (Rect.block (s := S8192x128) S2048x128.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S512x8192.size a ≤ S8192x8192.size a
  hwx18_0 : ∀ i : grid18.Coords, EltTy.bits .bf16 = 32 ∨ (Rect.block (s := S8192x8192) S512x8192.size (cc18_transform_0 i) (hinb18_0 i)).WholeWords (EltTy.packing .bf16)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S8192x64.size a ≤ S8192x64.size a
  hwx18_1 : ∀ i : grid18.Coords, EltTy.bits .bf16 = 32 ∨ (Rect.block (s := S8192x64) S8192x64.size (cc18_transform_1 i) (hinb18_1 i)).WholeWords (EltTy.packing .bf16)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S512x128.size a ≤ S8192x128.size a
  hwx18_2 : ∀ i : grid18.Coords, EltTy.bits .f32 = 32 ∨ (Rect.block (s := S8192x128) S512x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x64.size a ≤ S1x64.size a
  hwx18_3 : ∀ i : grid18.Coords, EltTy.bits .f32 = 32 ∨ (Rect.block (s := S1x64) S1x64.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x128.size a ≤ S1x128.size a
  hwx18_4 : ∀ i : grid18.Coords, EltTy.bits .f32 = 32 ∨ (Rect.block (s := S1x128) S1x128.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S512x192.size a ≤ S8192x192.size a
  hwx18_5 : ∀ i : grid18.Coords, EltTy.bits .f32 = 32 ∨ (Rect.block (s := S8192x192) S512x192.size (cc18_transform_5 i) (hinb18_5 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S2048x192.size a ≤ S8192x192.size a
  hwx19_0 : ∀ i : grid19.Coords, EltTy.bits .f32 = 32 ∨ (Rect.block (s := S8192x192) S2048x192.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S192x192.size a ≤ S192x192.size a
  hwx19_1 : ∀ i : grid19.Coords, EltTy.bits .f32 = 32 ∨ (Rect.block (s := S192x192) S192x192.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S2048x64.size a ≤ S8192x64.size a
  hwx19_2 : ∀ i : grid19.Coords, EltTy.bits .bf16 = 32 ∨ (Rect.block (s := S8192x64) S2048x64.size (cc19_transform_2 i) (hinb19_2 i)).WholeWords (EltTy.packing .bf16)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S2048x128.size a ≤ S8192x128.size a
  hwx19_3 : ∀ i : grid19.Coords, EltTy.bits .f32 = 32 ∨ (Rect.block (s := S8192x128) S2048x128.size (cc19_transform_3 i) (hinb19_3 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S512x8192.size a ≤ S8192x8192.size a
  hwx20_0 : ∀ i : grid20.Coords, EltTy.bits .bf16 = 32 ∨ (Rect.block (s := S8192x8192) S512x8192.size (cc20_transform_0 i) (hinb20_0 i)).WholeWords (EltTy.packing .bf16)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S8192x64.size a ≤ S8192x64.size a
  hwx20_1 : ∀ i : grid20.Coords, EltTy.bits .bf16 = 32 ∨ (Rect.block (s := S8192x64) S8192x64.size (cc20_transform_1 i) (hinb20_1 i)).WholeWords (EltTy.packing .bf16)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S512x128.size a ≤ S8192x128.size a
  hwx20_2 : ∀ i : grid20.Coords, EltTy.bits .f32 = 32 ∨ (Rect.block (s := S8192x128) S512x128.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S1x64.size a ≤ S1x64.size a
  hwx20_3 : ∀ i : grid20.Coords, EltTy.bits .f32 = 32 ∨ (Rect.block (s := S1x64) S1x64.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x128.size a ≤ S1x128.size a
  hwx20_4 : ∀ i : grid20.Coords, EltTy.bits .f32 = 32 ∨ (Rect.block (s := S1x128) S1x128.size (cc20_transform_4 i) (hinb20_4 i)).WholeWords (EltTy.packing .f32)
  hstage20_5 : ∀ j, (stage20_5 j).IsWhole
  nbuf20_5 : grid20.bufCount reads20_5 false = 2
  hreads20_5 : ∀ i i' : grid20.Coords, (∀ a, reads20_5 a = true → i a = i' a) → cc20_transform_5 i = cc20_transform_5 i'
  hinb20_5 : ∀ (i : grid20.Coords) a, (cc20_transform_5 i a + 1) * S512x192.size a ≤ S8192x192.size a
  hwx20_5 : ∀ i : grid20.Coords, EltTy.bits .f32 = 32 ∨ (Rect.block (s := S8192x192) S512x192.size (cc20_transform_5 i) (hinb20_5 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2048x192.size a ≤ S8192x192.size a
  hwx21_0 : ∀ i : grid21.Coords, EltTy.bits .f32 = 32 ∨ (Rect.block (s := S8192x192) S2048x192.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S192x192.size a ≤ S192x192.size a
  hwx21_1 : ∀ i : grid21.Coords, EltTy.bits .f32 = 32 ∨ (Rect.block (s := S192x192) S192x192.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S2048x64.size a ≤ S8192x64.size a
  hwx21_2 : ∀ i : grid21.Coords, EltTy.bits .bf16 = 32 ∨ (Rect.block (s := S8192x64) S2048x64.size (cc21_transform_2 i) (hinb21_2 i)).WholeWords (EltTy.packing .bf16)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S2048x128.size a ≤ S8192x128.size a
  hwx21_3 : ∀ i : grid21.Coords, EltTy.bits .f32 = 32 ∨ (Rect.block (s := S8192x128) S2048x128.size (cc21_transform_3 i) (hinb21_3 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S512x8192.size a ≤ S8192x8192.size a
  hwx22_0 : ∀ i : grid22.Coords, EltTy.bits .bf16 = 32 ∨ (Rect.block (s := S8192x8192) S512x8192.size (cc22_transform_0 i) (hinb22_0 i)).WholeWords (EltTy.packing .bf16)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S8192x64.size a ≤ S8192x64.size a
  hwx22_1 : ∀ i : grid22.Coords, EltTy.bits .bf16 = 32 ∨ (Rect.block (s := S8192x64) S8192x64.size (cc22_transform_1 i) (hinb22_1 i)).WholeWords (EltTy.packing .bf16)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S512x128.size a ≤ S8192x128.size a
  hwx22_2 : ∀ i : grid22.Coords, EltTy.bits .f32 = 32 ∨ (Rect.block (s := S8192x128) S512x128.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S1x64.size a ≤ S1x64.size a
  hwx22_3 : ∀ i : grid22.Coords, EltTy.bits .f32 = 32 ∨ (Rect.block (s := S1x64) S1x64.size (cc22_transform_3 i) (hinb22_3 i)).WholeWords (EltTy.packing .f32)
  hstage22_4 : ∀ j, (stage22_4 j).IsWhole
  nbuf22_4 : grid22.bufCount reads22_4 true = 1
  hreads22_4 : ∀ i i' : grid22.Coords, (∀ a, reads22_4 a = true → i a = i' a) → cc22_transform_4 i = cc22_transform_4 i'
  hinb22_4 : ∀ (i : grid22.Coords) a, (cc22_transform_4 i a + 1) * S1x128.size a ≤ S1x128.size a
  hwx22_4 : ∀ i : grid22.Coords, EltTy.bits .f32 = 32 ∨ (Rect.block (s := S1x128) S1x128.size (cc22_transform_4 i) (hinb22_4 i)).WholeWords (EltTy.packing .f32)
  hstage22_5 : ∀ j, (stage22_5 j).IsWhole
  nbuf22_5 : grid22.bufCount reads22_5 false = 2
  hreads22_5 : ∀ i i' : grid22.Coords, (∀ a, reads22_5 a = true → i a = i' a) → cc22_transform_5 i = cc22_transform_5 i'
  hinb22_5 : ∀ (i : grid22.Coords) a, (cc22_transform_5 i a + 1) * S512x192.size a ≤ S8192x192.size a
  hwx22_5 : ∀ i : grid22.Coords, EltTy.bits .f32 = 32 ∨ (Rect.block (s := S8192x192) S512x192.size (cc22_transform_5 i) (hinb22_5 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S2048x192.size a ≤ S8192x192.size a
  hwx23_0 : ∀ i : grid23.Coords, EltTy.bits .f32 = 32 ∨ (Rect.block (s := S8192x192) S2048x192.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S192x192.size a ≤ S192x192.size a
  hwx23_1 : ∀ i : grid23.Coords, EltTy.bits .f32 = 32 ∨ (Rect.block (s := S192x192) S192x192.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S2048x64.size a ≤ S8192x64.size a
  hwx23_2 : ∀ i : grid23.Coords, EltTy.bits .bf16 = 32 ∨ (Rect.block (s := S8192x64) S2048x64.size (cc23_transform_2 i) (hinb23_2 i)).WholeWords (EltTy.packing .bf16)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S2048x128.size a ≤ S8192x128.size a
  hwx23_3 : ∀ i : grid23.Coords, EltTy.bits .f32 = 32 ∨ (Rect.block (s := S8192x128) S2048x128.size (cc23_transform_3 i) (hinb23_3 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S512x8192.size a ≤ S8192x8192.size a
  hwx24_0 : ∀ i : grid24.Coords, EltTy.bits .bf16 = 32 ∨ (Rect.block (s := S8192x8192) S512x8192.size (cc24_transform_0 i) (hinb24_0 i)).WholeWords (EltTy.packing .bf16)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S8192x64.size a ≤ S8192x64.size a
  hwx24_1 : ∀ i : grid24.Coords, EltTy.bits .bf16 = 32 ∨ (Rect.block (s := S8192x64) S8192x64.size (cc24_transform_1 i) (hinb24_1 i)).WholeWords (EltTy.packing .bf16)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S512x128.size a ≤ S8192x128.size a
  hwx24_2 : ∀ i : grid24.Coords, EltTy.bits .f32 = 32 ∨ (Rect.block (s := S8192x128) S512x128.size (cc24_transform_2 i) (hinb24_2 i)).WholeWords (EltTy.packing .f32)
  hstage24_3 : ∀ j, (stage24_3 j).IsWhole
  nbuf24_3 : grid24.bufCount reads24_3 true = 1
  hreads24_3 : ∀ i i' : grid24.Coords, (∀ a, reads24_3 a = true → i a = i' a) → cc24_transform_3 i = cc24_transform_3 i'
  hinb24_3 : ∀ (i : grid24.Coords) a, (cc24_transform_3 i a + 1) * S1x64.size a ≤ S1x64.size a
  hwx24_3 : ∀ i : grid24.Coords, EltTy.bits .f32 = 32 ∨ (Rect.block (s := S1x64) S1x64.size (cc24_transform_3 i) (hinb24_3 i)).WholeWords (EltTy.packing .f32)
  hstage24_4 : ∀ j, (stage24_4 j).IsWhole
  nbuf24_4 : grid24.bufCount reads24_4 true = 1
  hreads24_4 : ∀ i i' : grid24.Coords, (∀ a, reads24_4 a = true → i a = i' a) → cc24_transform_4 i = cc24_transform_4 i'
  hinb24_4 : ∀ (i : grid24.Coords) a, (cc24_transform_4 i a + 1) * S1x128.size a ≤ S1x128.size a
  hwx24_4 : ∀ i : grid24.Coords, EltTy.bits .f32 = 32 ∨ (Rect.block (s := S1x128) S1x128.size (cc24_transform_4 i) (hinb24_4 i)).WholeWords (EltTy.packing .f32)
  hstage24_5 : ∀ j, (stage24_5 j).IsWhole
  nbuf24_5 : grid24.bufCount reads24_5 false = 2
  hreads24_5 : ∀ i i' : grid24.Coords, (∀ a, reads24_5 a = true → i a = i' a) → cc24_transform_5 i = cc24_transform_5 i'
  hinb24_5 : ∀ (i : grid24.Coords) a, (cc24_transform_5 i a + 1) * S512x192.size a ≤ S8192x192.size a
  hwx24_5 : ∀ i : grid24.Coords, EltTy.bits .f32 = 32 ∨ (Rect.block (s := S8192x192) S512x192.size (cc24_transform_5 i) (hinb24_5 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S2048x192.size a ≤ S8192x192.size a
  hwx25_0 : ∀ i : grid25.Coords, EltTy.bits .f32 = 32 ∨ (Rect.block (s := S8192x192) S2048x192.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S192x192.size a ≤ S192x192.size a
  hwx25_1 : ∀ i : grid25.Coords, EltTy.bits .f32 = 32 ∨ (Rect.block (s := S192x192) S192x192.size (cc25_transform_1 i) (hinb25_1 i)).WholeWords (EltTy.packing .f32)
  hstage25_2 : ∀ j, (stage25_2 j).IsWhole
  nbuf25_2 : grid25.bufCount reads25_2 false = 2
  hreads25_2 : ∀ i i' : grid25.Coords, (∀ a, reads25_2 a = true → i a = i' a) → cc25_transform_2 i = cc25_transform_2 i'
  hinb25_2 : ∀ (i : grid25.Coords) a, (cc25_transform_2 i a + 1) * S2048x64.size a ≤ S8192x64.size a
  hwx25_2 : ∀ i : grid25.Coords, EltTy.bits .bf16 = 32 ∨ (Rect.block (s := S8192x64) S2048x64.size (cc25_transform_2 i) (hinb25_2 i)).WholeWords (EltTy.packing .bf16)
  hstage25_3 : ∀ j, (stage25_3 j).IsWhole
  nbuf25_3 : grid25.bufCount reads25_3 false = 2
  hreads25_3 : ∀ i i' : grid25.Coords, (∀ a, reads25_3 a = true → i a = i' a) → cc25_transform_3 i = cc25_transform_3 i'
  hinb25_3 : ∀ (i : grid25.Coords) a, (cc25_transform_3 i a + 1) * S2048x128.size a ≤ S8192x128.size a
  hwx25_3 : ∀ i : grid25.Coords, EltTy.bits .f32 = 32 ∨ (Rect.block (s := S8192x128) S2048x128.size (cc25_transform_3 i) (hinb25_3 i)).WholeWords (EltTy.packing .f32)
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S512x8192.size a ≤ S8192x8192.size a
  hwx26_0 : ∀ i : grid26.Coords, EltTy.bits .bf16 = 32 ∨ (Rect.block (s := S8192x8192) S512x8192.size (cc26_transform_0 i) (hinb26_0 i)).WholeWords (EltTy.packing .bf16)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S8192x64.size a ≤ S8192x64.size a
  hwx26_1 : ∀ i : grid26.Coords, EltTy.bits .bf16 = 32 ∨ (Rect.block (s := S8192x64) S8192x64.size (cc26_transform_1 i) (hinb26_1 i)).WholeWords (EltTy.packing .bf16)
  hstage26_2 : ∀ j, (stage26_2 j).IsWhole
  nbuf26_2 : grid26.bufCount reads26_2 false = 2
  hreads26_2 : ∀ i i' : grid26.Coords, (∀ a, reads26_2 a = true → i a = i' a) → cc26_transform_2 i = cc26_transform_2 i'
  hinb26_2 : ∀ (i : grid26.Coords) a, (cc26_transform_2 i a + 1) * S512x128.size a ≤ S8192x128.size a
  hwx26_2 : ∀ i : grid26.Coords, EltTy.bits .f32 = 32 ∨ (Rect.block (s := S8192x128) S512x128.size (cc26_transform_2 i) (hinb26_2 i)).WholeWords (EltTy.packing .f32)
  hstage26_3 : ∀ j, (stage26_3 j).IsWhole
  nbuf26_3 : grid26.bufCount reads26_3 true = 1
  hreads26_3 : ∀ i i' : grid26.Coords, (∀ a, reads26_3 a = true → i a = i' a) → cc26_transform_3 i = cc26_transform_3 i'
  hinb26_3 : ∀ (i : grid26.Coords) a, (cc26_transform_3 i a + 1) * S1x64.size a ≤ S1x64.size a
  hwx26_3 : ∀ i : grid26.Coords, EltTy.bits .f32 = 32 ∨ (Rect.block (s := S1x64) S1x64.size (cc26_transform_3 i) (hinb26_3 i)).WholeWords (EltTy.packing .f32)
  hstage26_4 : ∀ j, (stage26_4 j).IsWhole
  nbuf26_4 : grid26.bufCount reads26_4 true = 1
  hreads26_4 : ∀ i i' : grid26.Coords, (∀ a, reads26_4 a = true → i a = i' a) → cc26_transform_4 i = cc26_transform_4 i'
  hinb26_4 : ∀ (i : grid26.Coords) a, (cc26_transform_4 i a + 1) * S1x128.size a ≤ S1x128.size a
  hwx26_4 : ∀ i : grid26.Coords, EltTy.bits .f32 = 32 ∨ (Rect.block (s := S1x128) S1x128.size (cc26_transform_4 i) (hinb26_4 i)).WholeWords (EltTy.packing .f32)
  hstage26_5 : ∀ j, (stage26_5 j).IsWhole
  nbuf26_5 : grid26.bufCount reads26_5 false = 2
  hreads26_5 : ∀ i i' : grid26.Coords, (∀ a, reads26_5 a = true → i a = i' a) → cc26_transform_5 i = cc26_transform_5 i'
  hinb26_5 : ∀ (i : grid26.Coords) a, (cc26_transform_5 i a + 1) * S512x192.size a ≤ S8192x192.size a
  hwx26_5 : ∀ i : grid26.Coords, EltTy.bits .f32 = 32 ∨ (Rect.block (s := S8192x192) S512x192.size (cc26_transform_5 i) (hinb26_5 i)).WholeWords (EltTy.packing .f32)
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S2048x192.size a ≤ S8192x192.size a
  hwx27_0 : ∀ i : grid27.Coords, EltTy.bits .f32 = 32 ∨ (Rect.block (s := S8192x192) S2048x192.size (cc27_transform_0 i) (hinb27_0 i)).WholeWords (EltTy.packing .f32)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S192x3.size a ≤ S192x3.size a
  hwx27_1 : ∀ i : grid27.Coords, EltTy.bits .f32 = 32 ∨ (Rect.block (s := S192x3) S192x3.size (cc27_transform_1 i) (hinb27_1 i)).WholeWords (EltTy.packing .f32)
  hstage27_2 : ∀ j, (stage27_2 j).IsWhole
  nbuf27_2 : grid27.bufCount reads27_2 false = 2
  hreads27_2 : ∀ i i' : grid27.Coords, (∀ a, reads27_2 a = true → i a = i' a) → cc27_transform_2 i = cc27_transform_2 i'
  hinb27_2 : ∀ (i : grid27.Coords) a, (cc27_transform_2 i a + 1) * S2048x2.size a ≤ S8192x2.size a
  hwx27_2 : ∀ i : grid27.Coords, EltTy.bits .bf16 = 32 ∨ (Rect.block (s := S8192x2) S2048x2.size (cc27_transform_2 i) (hinb27_2 i)).WholeWords (EltTy.packing .bf16)
  hstage27_3 : ∀ j, (stage27_3 j).IsWhole
  nbuf27_3 : grid27.bufCount reads27_3 false = 2
  hreads27_3 : ∀ i i' : grid27.Coords, (∀ a, reads27_3 a = true → i a = i' a) → cc27_transform_3 i = cc27_transform_3 i'
  hinb27_3 : ∀ (i : grid27.Coords) a, (cc27_transform_3 i a + 1) * S2048x1.size a ≤ S8192x1.size a
  hwx27_3 : ∀ i : grid27.Coords, EltTy.bits .f32 = 32 ∨ (Rect.block (s := S8192x1) S2048x1.size (cc27_transform_3 i) (hinb27_3 i)).WholeWords (EltTy.packing .f32)
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S512x8192.size a ≤ S8192x8192.size a
  hwx28_0 : ∀ i : grid28.Coords, EltTy.bits .bf16 = 32 ∨ (Rect.block (s := S8192x8192) S512x8192.size (cc28_transform_0 i) (hinb28_0 i)).WholeWords (EltTy.packing .bf16)
  hstage28_1 : ∀ j, (stage28_1 j).IsWhole
  nbuf28_1 : grid28.bufCount reads28_1 true = 1
  hreads28_1 : ∀ i i' : grid28.Coords, (∀ a, reads28_1 a = true → i a = i' a) → cc28_transform_1 i = cc28_transform_1 i'
  hinb28_1 : ∀ (i : grid28.Coords) a, (cc28_transform_1 i a + 1) * S8192x2.size a ≤ S8192x2.size a
  hwx28_1 : ∀ i : grid28.Coords, EltTy.bits .bf16 = 32 ∨ (Rect.block (s := S8192x2) S8192x2.size (cc28_transform_1 i) (hinb28_1 i)).WholeWords (EltTy.packing .bf16)
  hstage28_2 : ∀ j, (stage28_2 j).IsWhole
  nbuf28_2 : grid28.bufCount reads28_2 false = 2
  hreads28_2 : ∀ i i' : grid28.Coords, (∀ a, reads28_2 a = true → i a = i' a) → cc28_transform_2 i = cc28_transform_2 i'
  hinb28_2 : ∀ (i : grid28.Coords) a, (cc28_transform_2 i a + 1) * S512x1.size a ≤ S8192x1.size a
  hwx28_2 : ∀ i : grid28.Coords, EltTy.bits .f32 = 32 ∨ (Rect.block (s := S8192x1) S512x1.size (cc28_transform_2 i) (hinb28_2 i)).WholeWords (EltTy.packing .f32)
  hstage28_3 : ∀ j, (stage28_3 j).IsWhole
  nbuf28_3 : grid28.bufCount reads28_3 true = 1
  hreads28_3 : ∀ i i' : grid28.Coords, (∀ a, reads28_3 a = true → i a = i' a) → cc28_transform_3 i = cc28_transform_3 i'
  hinb28_3 : ∀ (i : grid28.Coords) a, (cc28_transform_3 i a + 1) * S1x2.size a ≤ S1x2.size a
  hwx28_3 : ∀ i : grid28.Coords, EltTy.bits .f32 = 32 ∨ (Rect.block (s := S1x2) S1x2.size (cc28_transform_3 i) (hinb28_3 i)).WholeWords (EltTy.packing .f32)
  hstage28_4 : ∀ j, (stage28_4 j).IsWhole
  nbuf28_4 : grid28.bufCount reads28_4 true = 1
  hreads28_4 : ∀ i i' : grid28.Coords, (∀ a, reads28_4 a = true → i a = i' a) → cc28_transform_4 i = cc28_transform_4 i'
  hinb28_4 : ∀ (i : grid28.Coords) a, (cc28_transform_4 i a + 1) * S1x1.size a ≤ S1x1.size a
  hwx28_4 : ∀ i : grid28.Coords, EltTy.bits .f32 = 32 ∨ (Rect.block (s := S1x1) S1x1.size (cc28_transform_4 i) (hinb28_4 i)).WholeWords (EltTy.packing .f32)
  hstage28_5 : ∀ j, (stage28_5 j).IsWhole
  nbuf28_5 : grid28.bufCount reads28_5 false = 2
  hreads28_5 : ∀ i i' : grid28.Coords, (∀ a, reads28_5 a = true → i a = i' a) → cc28_transform_5 i = cc28_transform_5 i'
  hinb28_5 : ∀ (i : grid28.Coords) a, (cc28_transform_5 i a + 1) * S512x3.size a ≤ S8192x3.size a
  hwx28_5 : ∀ i : grid28.Coords, EltTy.bits .f32 = 32 ∨ (Rect.block (s := S8192x3) S512x3.size (cc28_transform_5 i) (hinb28_5 i)).WholeWords (EltTy.packing .f32)

variable [Facts₀]

def dot_S2048x256_S256x192_S2048x192_1_0_0_1_n_n : DotDims S2048x256 S256x192 S2048x192 where
  lhsContracting := [1]
  rhsContracting := [0]
  lhsNonContracting := [0]
  rhsNonContracting := [1]
  lhsBatch := []
  rhsBatch := []
  wf := dot_S2048x256_S256x192_S2048x192_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S2048x192_S192x192_S2048x192_1_0_0_1_n_n : DotDims S2048x192 S192x192 S2048x192 where
  lhsContracting := [1]
  rhsContracting := [0]
  lhsNonContracting := [0]
  rhsNonContracting := [1]
  lhsBatch := []
  rhsBatch := []
  wf := dot_S2048x192_S192x192_S2048x192_1_0_0_1_n_n_wf
def dot_S2048x192_S192x3_S2048x3_1_0_0_1_n_n : DotDims S2048x192 S192x3 S2048x3 where
  lhsContracting := [1]
  rhsContracting := [0]
  lhsNonContracting := [0]
  rhsNonContracting := [1]
  lhsBatch := []
  rhsBatch := []
  wf := dot_S2048x192_S192x3_S2048x3_1_0_0_1_n_n_wf
def dot_S512x8192_S8192x2_S512x2_1_0_0_1_n_n : DotDims S512x8192 S8192x2 S512x2 where
  lhsContracting := [1]
  rhsContracting := [0]
  lhsNonContracting := [0]
  rhsNonContracting := [1]
  lhsBatch := []
  rhsBatch := []
  wf := dot_S512x8192_S8192x2_S512x2_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S2048x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S512x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S512x192.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v6) S2048x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S192x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11_0) S2048x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11_1) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v0) S512x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11_0) S8192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11_1) S512x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v13) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v15) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v16) S512x192.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v20) S2048x192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v22) S192x192.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v25_0) S2048x64.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v25_1) S2048x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v0) S512x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v25_0) S8192x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v25_1) S512x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v27) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v29) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v30) S512x192.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v30) S2048x192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S192x192.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v35_0) S2048x64.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v35_1) S2048x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v0) S512x8192.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v35_0) S8192x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v35_1) S512x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v37) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v39) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v40) S512x192.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v43) S2048x192.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v45) S192x192.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v48_0) S2048x64.size cc9_transform_2 reads9_2 true false 2 stage9_2 sem9_2
    hrank9 hreads9_2 hinb9_2 nbuf9_2 (Memref.isWhole_whole _) hwx9_2 hstage9_2

abbrev win9_3 : Pipeline.Window sig grid9 :=
  Pipeline.Window.ofSpec (Memref.whole main_v48_1) S2048x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v0) S512x8192.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v48_0) S8192x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v48_1) S512x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v50) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v52) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v53) S512x192.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v53) S2048x192.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v55) S192x192.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v58_0) S2048x64.size cc11_transform_2 reads11_2 true false 2 stage11_2 sem11_2
    hrank11 hreads11_2 hinb11_2 nbuf11_2 (Memref.isWhole_whole _) hwx11_2 hstage11_2

abbrev win11_3 : Pipeline.Window sig grid11 :=
  Pipeline.Window.ofSpec (Memref.whole main_v58_1) S2048x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v0) S512x8192.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v58_0) S8192x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v58_1) S512x128.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v60) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v62) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v63) S512x192.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v66) S2048x192.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v68) S192x192.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v71_0) S2048x64.size cc13_transform_2 reads13_2 true false 2 stage13_2 sem13_2
    hrank13 hreads13_2 hinb13_2 nbuf13_2 (Memref.isWhole_whole _) hwx13_2 hstage13_2

abbrev win13_3 : Pipeline.Window sig grid13 :=
  Pipeline.Window.ofSpec (Memref.whole main_v71_1) S2048x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v0) S512x8192.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v71_0) S8192x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v71_1) S512x128.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v73) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v75) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v76) S512x192.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v76) S2048x192.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v78) S192x192.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v81_0) S2048x64.size cc15_transform_2 reads15_2 true false 2 stage15_2 sem15_2
    hrank15 hreads15_2 hinb15_2 nbuf15_2 (Memref.isWhole_whole _) hwx15_2 hstage15_2

abbrev win15_3 : Pipeline.Window sig grid15 :=
  Pipeline.Window.ofSpec (Memref.whole main_v81_1) S2048x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v0) S512x8192.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v81_0) S8192x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v81_1) S512x128.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v83) S1x64.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v85) S1x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v86) S512x192.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v89) S2048x192.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v91) S192x192.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v94_0) S2048x64.size cc17_transform_2 reads17_2 true false 2 stage17_2 sem17_2
    hrank17 hreads17_2 hinb17_2 nbuf17_2 (Memref.isWhole_whole _) hwx17_2 hstage17_2

abbrev win17_3 : Pipeline.Window sig grid17 :=
  Pipeline.Window.ofSpec (Memref.whole main_v94_1) S2048x128.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v0) S512x8192.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v94_0) S8192x64.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v94_1) S512x128.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v96) S1x64.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v98) S1x128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v99) S512x192.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_v99) S2048x192.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v101) S192x192.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v104_0) S2048x64.size cc19_transform_2 reads19_2 true false 2 stage19_2 sem19_2
    hrank19 hreads19_2 hinb19_2 nbuf19_2 (Memref.isWhole_whole _) hwx19_2 hstage19_2

abbrev win19_3 : Pipeline.Window sig grid19 :=
  Pipeline.Window.ofSpec (Memref.whole main_v104_1) S2048x128.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_v0) S512x8192.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v104_0) S8192x64.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v104_1) S512x128.size cc20_transform_2 reads20_2 false false 2 stage20_2 sem20_2
    hrank20 hreads20_2 hinb20_2 nbuf20_2 (Memref.isWhole_whole _) hwx20_2 hstage20_2

abbrev win20_3 : Pipeline.Window sig grid20 :=
  Pipeline.Window.ofSpec (Memref.whole main_v106) S1x64.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v108) S1x128.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v109) S512x192.size cc20_transform_5 reads20_5 true false 2 stage20_5 sem20_5
    hrank20 hreads20_5 hinb20_5 nbuf20_5 (Memref.isWhole_whole _) hwx20_5 hstage20_5

abbrev win20 : Fin 6 → Pipeline.Window sig grid20 := fun | 0 => win20_0 | 1 => win20_1 | 2 => win20_2 | 3 => win20_3 | 4 => win20_4 | 5 => win20_5 | ⟨_ + 6, h⟩ => absurd h (Nat.not_lt.2 (Nat.le_add_left _ _))
abbrev spec20 : Fin 6 → Pipeline.WinSpec sig grid20.rank := fun w => (win20 w).toWinSpec

abbrev win21_0 : Pipeline.Window sig grid21 :=
  Pipeline.Window.ofSpec (Memref.whole main_v112) S2048x192.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v114) S192x192.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v117_0) S2048x64.size cc21_transform_2 reads21_2 true false 2 stage21_2 sem21_2
    hrank21 hreads21_2 hinb21_2 nbuf21_2 (Memref.isWhole_whole _) hwx21_2 hstage21_2

abbrev win21_3 : Pipeline.Window sig grid21 :=
  Pipeline.Window.ofSpec (Memref.whole main_v117_1) S2048x128.size cc21_transform_3 reads21_3 true false 2 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

abbrev win22_0 : Pipeline.Window sig grid22 :=
  Pipeline.Window.ofSpec (Memref.whole main_v0) S512x8192.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v117_0) S8192x64.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v117_1) S512x128.size cc22_transform_2 reads22_2 false false 2 stage22_2 sem22_2
    hrank22 hreads22_2 hinb22_2 nbuf22_2 (Memref.isWhole_whole _) hwx22_2 hstage22_2

abbrev win22_3 : Pipeline.Window sig grid22 :=
  Pipeline.Window.ofSpec (Memref.whole main_v119) S1x64.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v121) S1x128.size cc22_transform_4 reads22_4 false true 1 stage22_4 sem22_4
    hrank22 hreads22_4 hinb22_4 nbuf22_4 (Memref.isWhole_whole _) hwx22_4 hstage22_4

abbrev win22_5 : Pipeline.Window sig grid22 :=
  Pipeline.Window.ofSpec (Memref.whole main_v122) S512x192.size cc22_transform_5 reads22_5 true false 2 stage22_5 sem22_5
    hrank22 hreads22_5 hinb22_5 nbuf22_5 (Memref.isWhole_whole _) hwx22_5 hstage22_5

abbrev win22 : Fin 6 → Pipeline.Window sig grid22 := fun | 0 => win22_0 | 1 => win22_1 | 2 => win22_2 | 3 => win22_3 | 4 => win22_4 | 5 => win22_5 | ⟨_ + 6, h⟩ => absurd h (Nat.not_lt.2 (Nat.le_add_left _ _))
abbrev spec22 : Fin 6 → Pipeline.WinSpec sig grid22.rank := fun w => (win22 w).toWinSpec

abbrev win23_0 : Pipeline.Window sig grid23 :=
  Pipeline.Window.ofSpec (Memref.whole main_v122) S2048x192.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v124) S192x192.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v127_0) S2048x64.size cc23_transform_2 reads23_2 true false 2 stage23_2 sem23_2
    hrank23 hreads23_2 hinb23_2 nbuf23_2 (Memref.isWhole_whole _) hwx23_2 hstage23_2

abbrev win23_3 : Pipeline.Window sig grid23 :=
  Pipeline.Window.ofSpec (Memref.whole main_v127_1) S2048x128.size cc23_transform_3 reads23_3 true false 2 stage23_3 sem23_3
    hrank23 hreads23_3 hinb23_3 nbuf23_3 (Memref.isWhole_whole _) hwx23_3 hstage23_3

abbrev win23 : Fin 4 → Pipeline.Window sig grid23 := fun | 0 => win23_0 | 1 => win23_1 | 2 => win23_2 | 3 => win23_3 | ⟨_ + 4, h⟩ => absurd h (Nat.not_lt.2 (Nat.le_add_left _ _))
abbrev spec23 : Fin 4 → Pipeline.WinSpec sig grid23.rank := fun w => (win23 w).toWinSpec

abbrev win24_0 : Pipeline.Window sig grid24 :=
  Pipeline.Window.ofSpec (Memref.whole main_v0) S512x8192.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v127_0) S8192x64.size cc24_transform_1 reads24_1 false true 1 stage24_1 sem24_1
    hrank24 hreads24_1 hinb24_1 nbuf24_1 (Memref.isWhole_whole _) hwx24_1 hstage24_1

abbrev win24_2 : Pipeline.Window sig grid24 :=
  Pipeline.Window.ofSpec (Memref.whole main_v127_1) S512x128.size cc24_transform_2 reads24_2 false false 2 stage24_2 sem24_2
    hrank24 hreads24_2 hinb24_2 nbuf24_2 (Memref.isWhole_whole _) hwx24_2 hstage24_2

abbrev win24_3 : Pipeline.Window sig grid24 :=
  Pipeline.Window.ofSpec (Memref.whole main_v129) S1x64.size cc24_transform_3 reads24_3 false true 1 stage24_3 sem24_3
    hrank24 hreads24_3 hinb24_3 nbuf24_3 (Memref.isWhole_whole _) hwx24_3 hstage24_3

abbrev win24_4 : Pipeline.Window sig grid24 :=
  Pipeline.Window.ofSpec (Memref.whole main_v131) S1x128.size cc24_transform_4 reads24_4 false true 1 stage24_4 sem24_4
    hrank24 hreads24_4 hinb24_4 nbuf24_4 (Memref.isWhole_whole _) hwx24_4 hstage24_4

abbrev win24_5 : Pipeline.Window sig grid24 :=
  Pipeline.Window.ofSpec (Memref.whole main_v132) S512x192.size cc24_transform_5 reads24_5 true false 2 stage24_5 sem24_5
    hrank24 hreads24_5 hinb24_5 nbuf24_5 (Memref.isWhole_whole _) hwx24_5 hstage24_5

abbrev win24 : Fin 6 → Pipeline.Window sig grid24 := fun | 0 => win24_0 | 1 => win24_1 | 2 => win24_2 | 3 => win24_3 | 4 => win24_4 | 5 => win24_5 | ⟨_ + 6, h⟩ => absurd h (Nat.not_lt.2 (Nat.le_add_left _ _))
abbrev spec24 : Fin 6 → Pipeline.WinSpec sig grid24.rank := fun w => (win24 w).toWinSpec

abbrev win25_0 : Pipeline.Window sig grid25 :=
  Pipeline.Window.ofSpec (Memref.whole main_v135) S2048x192.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v137) S192x192.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v140_0) S2048x64.size cc25_transform_2 reads25_2 true false 2 stage25_2 sem25_2
    hrank25 hreads25_2 hinb25_2 nbuf25_2 (Memref.isWhole_whole _) hwx25_2 hstage25_2

abbrev win25_3 : Pipeline.Window sig grid25 :=
  Pipeline.Window.ofSpec (Memref.whole main_v140_1) S2048x128.size cc25_transform_3 reads25_3 true false 2 stage25_3 sem25_3
    hrank25 hreads25_3 hinb25_3 nbuf25_3 (Memref.isWhole_whole _) hwx25_3 hstage25_3

abbrev win25 : Fin 4 → Pipeline.Window sig grid25 := fun | 0 => win25_0 | 1 => win25_1 | 2 => win25_2 | 3 => win25_3 | ⟨_ + 4, h⟩ => absurd h (Nat.not_lt.2 (Nat.le_add_left _ _))
abbrev spec25 : Fin 4 → Pipeline.WinSpec sig grid25.rank := fun w => (win25 w).toWinSpec

abbrev win26_0 : Pipeline.Window sig grid26 :=
  Pipeline.Window.ofSpec (Memref.whole main_v0) S512x8192.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v140_0) S8192x64.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_v140_1) S512x128.size cc26_transform_2 reads26_2 false false 2 stage26_2 sem26_2
    hrank26 hreads26_2 hinb26_2 nbuf26_2 (Memref.isWhole_whole _) hwx26_2 hstage26_2

abbrev win26_3 : Pipeline.Window sig grid26 :=
  Pipeline.Window.ofSpec (Memref.whole main_v142) S1x64.size cc26_transform_3 reads26_3 false true 1 stage26_3 sem26_3
    hrank26 hreads26_3 hinb26_3 nbuf26_3 (Memref.isWhole_whole _) hwx26_3 hstage26_3

abbrev win26_4 : Pipeline.Window sig grid26 :=
  Pipeline.Window.ofSpec (Memref.whole main_v144) S1x128.size cc26_transform_4 reads26_4 false true 1 stage26_4 sem26_4
    hrank26 hreads26_4 hinb26_4 nbuf26_4 (Memref.isWhole_whole _) hwx26_4 hstage26_4

abbrev win26_5 : Pipeline.Window sig grid26 :=
  Pipeline.Window.ofSpec (Memref.whole main_v145) S512x192.size cc26_transform_5 reads26_5 true false 2 stage26_5 sem26_5
    hrank26 hreads26_5 hinb26_5 nbuf26_5 (Memref.isWhole_whole _) hwx26_5 hstage26_5

abbrev win26 : Fin 6 → Pipeline.Window sig grid26 := fun | 0 => win26_0 | 1 => win26_1 | 2 => win26_2 | 3 => win26_3 | 4 => win26_4 | 5 => win26_5 | ⟨_ + 6, h⟩ => absurd h (Nat.not_lt.2 (Nat.le_add_left _ _))
abbrev spec26 : Fin 6 → Pipeline.WinSpec sig grid26.rank := fun w => (win26 w).toWinSpec

abbrev win27_0 : Pipeline.Window sig grid27 :=
  Pipeline.Window.ofSpec (Memref.whole main_v148) S2048x192.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_arg6) S192x3.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_v149_0) S2048x2.size cc27_transform_2 reads27_2 true false 2 stage27_2 sem27_2
    hrank27 hreads27_2 hinb27_2 nbuf27_2 (Memref.isWhole_whole _) hwx27_2 hstage27_2

abbrev win27_3 : Pipeline.Window sig grid27 :=
  Pipeline.Window.ofSpec (Memref.whole main_v149_1) S2048x1.size cc27_transform_3 reads27_3 true false 2 stage27_3 sem27_3
    hrank27 hreads27_3 hinb27_3 nbuf27_3 (Memref.isWhole_whole _) hwx27_3 hstage27_3

abbrev win27 : Fin 4 → Pipeline.Window sig grid27 := fun | 0 => win27_0 | 1 => win27_1 | 2 => win27_2 | 3 => win27_3 | ⟨_ + 4, h⟩ => absurd h (Nat.not_lt.2 (Nat.le_add_left _ _))
abbrev spec27 : Fin 4 → Pipeline.WinSpec sig grid27.rank := fun w => (win27 w).toWinSpec

abbrev win28_0 : Pipeline.Window sig grid28 :=
  Pipeline.Window.ofSpec (Memref.whole main_v0) S512x8192.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_v149_0) S8192x2.size cc28_transform_1 reads28_1 false true 1 stage28_1 sem28_1
    hrank28 hreads28_1 hinb28_1 nbuf28_1 (Memref.isWhole_whole _) hwx28_1 hstage28_1

abbrev win28_2 : Pipeline.Window sig grid28 :=
  Pipeline.Window.ofSpec (Memref.whole main_v149_1) S512x1.size cc28_transform_2 reads28_2 false false 2 stage28_2 sem28_2
    hrank28 hreads28_2 hinb28_2 nbuf28_2 (Memref.isWhole_whole _) hwx28_2 hstage28_2

abbrev win28_3 : Pipeline.Window sig grid28 :=
  Pipeline.Window.ofSpec (Memref.whole main_v151) S1x2.size cc28_transform_3 reads28_3 false true 1 stage28_3 sem28_3
    hrank28 hreads28_3 hinb28_3 nbuf28_3 (Memref.isWhole_whole _) hwx28_3 hstage28_3

abbrev win28_4 : Pipeline.Window sig grid28 :=
  Pipeline.Window.ofSpec (Memref.whole main_v153) S1x1.size cc28_transform_4 reads28_4 false true 1 stage28_4 sem28_4
    hrank28 hreads28_4 hinb28_4 nbuf28_4 (Memref.isWhole_whole _) hwx28_4 hstage28_4

abbrev win28_5 : Pipeline.Window sig grid28 :=
  Pipeline.Window.ofSpec (Memref.whole main_v154) S512x3.size cc28_transform_5 reads28_5 true false 2 stage28_5 sem28_5
    hrank28 hreads28_5 hinb28_5 nbuf28_5 (Memref.isWhole_whole _) hwx28_5 hstage28_5

abbrev win28 : Fin 6 → Pipeline.Window sig grid28 := fun | 0 => win28_0 | 1 => win28_1 | 2 => win28_2 | 3 => win28_3 | 4 => win28_4 | 5 => win28_5 | ⟨_ + 6, h⟩ => absurd h (Nat.not_lt.2 (Nat.le_add_left _ _))
abbrev spec28 : Fin 6 → Pipeline.WinSpec sig grid28.rank := fun w => (win28 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x192 : Shape := ⟨2, ![256, 192]⟩
abbrev S192 : Shape := ⟨1, ![192]⟩
abbrev S12x192x192 : Shape := ⟨3, ![12, 192, 192]⟩
abbrev S12x192 : Shape := ⟨2, ![12, 192]⟩
abbrev S192x3 : Shape := ⟨2, ![192, 3]⟩
abbrev S3 : Shape := ⟨1, ![3]⟩
abbrev S8192x192 : Shape := ⟨2, ![8192, 192]⟩
abbrev S8192x64 : Shape := ⟨2, ![8192, 64]⟩
abbrev S8192x128 : Shape := ⟨2, ![8192, 128]⟩
abbrev S1x192 : Shape := ⟨2, ![1, 192]⟩
abbrev S_ : Shape := ⟨0, ![]⟩
abbrev S1x192x192 : Shape := ⟨3, ![1, 192, 192]⟩
abbrev S192x192 : Shape := ⟨2, ![192, 192]⟩
abbrev S8192x3 : Shape := ⟨2, ![8192, 3]⟩
abbrev S8192x2 : Shape := ⟨2, ![8192, 2]⟩
abbrev S8192x1 : Shape := ⟨2, ![8192, 1]⟩
abbrev S1x3 : Shape := ⟨2, ![1, 3]⟩

abbrev nBuf : Space → Nat
  | .hbm => 236
  | .vmem => 0
  | .smem => 0
  | _ => 0

abbrev hbmTy0_0 (i : Nat) : BufTy := match i % 128 with
  | 0 => ⟨S8192x256, .f32⟩
  | 1 => ⟨S8192x8192, .f32⟩
  | 2 => ⟨S256x192, .f32⟩
  | 3 => ⟨S192, .f32⟩
  | 4 => ⟨S12x192x192, .f32⟩
  | 5 => ⟨S12x192, .f32⟩
  | 6 => ⟨S192x3, .f32⟩
  | 7 => ⟨S3, .f32⟩
  | 8 => ⟨S8192x192, .f32⟩
  | 9 => ⟨S8192x64, .f32⟩
  | 10 => ⟨S8192x64, .f32⟩
  | 11 => ⟨S8192x128, .f32⟩
  | 12 => ⟨S8192x192, .f32⟩
  | 13 => ⟨S1x192, .f32⟩
  | 14 => ⟨S8192x192, .f32⟩
  | 15 => ⟨S8192x192, .f32⟩
  | 16 => ⟨S_, .f32⟩
  | 17 => ⟨S8192x192, .f32⟩
  | 18 => ⟨S8192x192, .f32⟩
  | 19 => ⟨S1x192x192, .f32⟩
  | 20 => ⟨S192x192, .f32⟩
  | 21 => ⟨S1x192, .f32⟩
  | 22 => ⟨S192, .f32⟩
  | 23 => ⟨S8192x192, .f32⟩
  | 24 => ⟨S8192x64, .f32⟩
  | 25 => ⟨S8192x64, .f32⟩
  | 26 => ⟨S8192x128, .f32⟩
  | 27 => ⟨S8192x192, .f32⟩
  | 28 => ⟨S1x192, .f32⟩
  | 29 => ⟨S8192x192, .f32⟩
  | 30 => ⟨S8192x192, .f32⟩
  | 31 => ⟨S_, .f32⟩
  | 32 => ⟨S8192x192, .f32⟩
  | 33 => ⟨S8192x192, .f32⟩
  | 34 => ⟨S8192x192, .f32⟩
  | 35 => ⟨S8192x192, .f32⟩
  | 36 => ⟨S_, .f32⟩
  | 37 => ⟨S8192x192, .f32⟩
  | 38 => ⟨S8192x192, .f32⟩
  | 39 => ⟨S1x192x192, .f32⟩
  | 40 => ⟨S192x192, .f32⟩
  | 41 => ⟨S1x192, .f32⟩
  | 42 => ⟨S192, .f32⟩
  | 43 => ⟨S8192x192, .f32⟩
  | 44 => ⟨S8192x64, .f32⟩
  | 45 => ⟨S8192x64, .f32⟩
  | 46 => ⟨S8192x128, .f32⟩
  | 47 => ⟨S8192x192, .f32⟩
  | 48 => ⟨S1x192, .f32⟩
  | 49 => ⟨S8192x192, .f32⟩
  | 50 => ⟨S8192x192, .f32⟩
  | 51 => ⟨S_, .f32⟩
  | 52 => ⟨S8192x192, .f32⟩
  | 53 => ⟨S8192x192, .f32⟩
  | 54 => ⟨S1x192x192, .f32⟩
  | 55 => ⟨S192x192, .f32⟩
  | 56 => ⟨S1x192, .f32⟩
  | 57 => ⟨S192, .f32⟩
  | 58 => ⟨S8192x192, .f32⟩
  | 59 => ⟨S8192x64, .f32⟩
  | 60 => ⟨S8192x64, .f32⟩
  | 61 => ⟨S8192x128, .f32⟩
  | 62 => ⟨S8192x192, .f32⟩
  | 63 => ⟨S1x192, .f32⟩
  | 64 => ⟨S8192x192, .f32⟩
  | 65 => ⟨S8192x192, .f32⟩
  | 66 => ⟨S_, .f32⟩
  | 67 => ⟨S8192x192, .f32⟩
  | 68 => ⟨S8192x192, .f32⟩
  | 69 => ⟨S8192x192, .f32⟩
  | 70 => ⟨S_, .f32⟩
  | 71 => ⟨S8192x192, .f32⟩
  | 72 => ⟨S8192x192, .f32⟩
  | 73 => ⟨S1x192x192, .f32⟩
  | 74 => ⟨S192x192, .f32⟩
  | 75 => ⟨S1x192, .f32⟩
  | 76 => ⟨S192, .f32⟩
  | 77 => ⟨S8192x192, .f32⟩
  | 78 => ⟨S8192x64, .f32⟩
  | 79 => ⟨S8192x64, .f32⟩
  | 80 => ⟨S8192x128, .f32⟩
  | 81 => ⟨S8192x192, .f32⟩
  | 82 => ⟨S1x192, .f32⟩
  | 83 => ⟨S8192x192, .f32⟩
  | 84 => ⟨S8192x192, .f32⟩
  | 85 => ⟨S_, .f32⟩
  | 86 => ⟨S8192x192, .f32⟩
  | 87 => ⟨S8192x192, .f32⟩
  | 88 => ⟨S1x192x192, .f32⟩
  | 89 => ⟨S192x192, .f32⟩
  | 90 => ⟨S1x192, .f32⟩
  | 91 => ⟨S192, .f32⟩
  | 92 => ⟨S8192x192, .f32⟩
  | 93 => ⟨S8192x64, .f32⟩
  | 94 => ⟨S8192x64, .f32⟩
  | 95 => ⟨S8192x128, .f32⟩
  | 96 => ⟨S8192x192, .f32⟩
  | 97 => ⟨S1x192, .f32⟩
  | 98 => ⟨S8192x192, .f32⟩
  | 99 => ⟨S8192x192, .f32⟩
  | 100 => ⟨S_, .f32⟩
  | 101 => ⟨S8192x192, .f32⟩
  | 102 => ⟨S8192x192, .f32⟩
  | 103 => ⟨S8192x192, .f32⟩
  | 104 => ⟨S_, .f32⟩
  | 105 => ⟨S8192x192, .f32⟩
  | 106 => ⟨S8192x192, .f32⟩
  | 107 => ⟨S1x192x192, .f32⟩
  | 108 => ⟨S192x192, .f32⟩
  | 109 => ⟨S1x192, .f32⟩
  | 110 => ⟨S192, .f32⟩
  | 111 => ⟨S8192x192, .f32⟩
  | 112 => ⟨S8192x64, .f32⟩
  | 113 => ⟨S8192x64, .f32⟩
  | 114 => ⟨S8192x128, .f32⟩
  | 115 => ⟨S8192x192, .f32⟩
  | 116 => ⟨S1x192, .f32⟩
  | 117 => ⟨S8192x192, .f32⟩
  | 118 => ⟨S8192x192, .f32⟩
  | 119 => ⟨S_, .f32⟩
  | 120 => ⟨S8192x192, .f32⟩
  | 121 => ⟨S8192x192, .f32⟩
  | 122 => ⟨S1x192x192, .f32⟩
  | 123 => ⟨S192x192, .f32⟩
  | 124 => ⟨S1x192, .f32⟩
  | 125 => ⟨S192, .f32⟩
  | 126 => ⟨S8192x192, .f32⟩
  | 127 => ⟨S8192x64, .f32⟩
  | _ => ⟨S8192x256, .f32⟩

abbrev hbmTy0_1 (i : Nat) : BufTy := match i % 128 with
  | 0 => ⟨S8192x64, .f32⟩
  | 1 => ⟨S8192x128, .f32⟩
  | 2 => ⟨S8192x192, .f32⟩
  | 3 => ⟨S1x192, .f32⟩
  | 4 => ⟨S8192x192, .f32⟩
  | 5 => ⟨S8192x192, .f32⟩
  | 6 => ⟨S_, .f32⟩
  | 7 => ⟨S8192x192, .f32⟩
  | 8 => ⟨S8192x192, .f32⟩
  | 9 => ⟨S8192x192, .f32⟩
  | 10 => ⟨S_, .f32⟩
  | 11 => ⟨S8192x192, .f32⟩
  | 12 => ⟨S8192x192, .f32⟩
  | 13 => ⟨S1x192x192, .f32⟩
  | 14 => ⟨S192x192, .f32⟩
  | 15 => ⟨S1x192, .f32⟩
  | 16 => ⟨S192, .f32⟩
  | 17 => ⟨S8192x192, .f32⟩
  | 18 => ⟨S8192x64, .f32⟩
  | 19 => ⟨S8192x64, .f32⟩
  | 20 => ⟨S8192x128, .f32⟩
  | 21 => ⟨S8192x192, .f32⟩
  | 22 => ⟨S1x192, .f32⟩
  | 23 => ⟨S8192x192, .f32⟩
  | 24 => ⟨S8192x192, .f32⟩
  | 25 => ⟨S_, .f32⟩
  | 26 => ⟨S8192x192, .f32⟩
  | 27 => ⟨S8192x192, .f32⟩
  | 28 => ⟨S1x192x192, .f32⟩
  | 29 => ⟨S192x192, .f32⟩
  | 30 => ⟨S1x192, .f32⟩
  | 31 => ⟨S192, .f32⟩
  | 32 => ⟨S8192x192, .f32⟩
  | 33 => ⟨S8192x64, .f32⟩
  | 34 => ⟨S8192x64, .f32⟩
  | 35 => ⟨S8192x128, .f32⟩
  | 36 => ⟨S8192x192, .f32⟩
  | 37 => ⟨S1x192, .f32⟩
  | 38 => ⟨S8192x192, .f32⟩
  | 39 => ⟨S8192x192, .f32⟩
  | 40 => ⟨S_, .f32⟩
  | 41 => ⟨S8192x192, .f32⟩
  | 42 => ⟨S8192x192, .f32⟩
  | 43 => ⟨S8192x192, .f32⟩
  | 44 => ⟨S_, .f32⟩
  | 45 => ⟨S8192x192, .f32⟩
  | 46 => ⟨S8192x192, .f32⟩
  | 47 => ⟨S1x192x192, .f32⟩
  | 48 => ⟨S192x192, .f32⟩
  | 49 => ⟨S1x192, .f32⟩
  | 50 => ⟨S192, .f32⟩
  | 51 => ⟨S8192x192, .f32⟩
  | 52 => ⟨S8192x64, .f32⟩
  | 53 => ⟨S8192x64, .f32⟩
  | 54 => ⟨S8192x128, .f32⟩
  | 55 => ⟨S8192x192, .f32⟩
  | 56 => ⟨S1x192, .f32⟩
  | 57 => ⟨S8192x192, .f32⟩
  | 58 => ⟨S8192x192, .f32⟩
  | 59 => ⟨S_, .f32⟩
  | 60 => ⟨S8192x192, .f32⟩
  | 61 => ⟨S8192x192, .f32⟩
  | 62 => ⟨S1x192x192, .f32⟩
  | 63 => ⟨S192x192, .f32⟩
  | 64 => ⟨S1x192, .f32⟩
  | 65 => ⟨S192, .f32⟩
  | 66 => ⟨S8192x192, .f32⟩
  | 67 => ⟨S8192x64, .f32⟩
  | 68 => ⟨S8192x64, .f32⟩
  | 69 => ⟨S8192x128, .f32⟩
  | 70 => ⟨S8192x192, .f32⟩
  | 71 => ⟨S1x192, .f32⟩
  | 72 => ⟨S8192x192, .f32⟩
  | 73 => ⟨S8192x192, .f32⟩
  | 74 => ⟨S_, .f32⟩
  | 75 => ⟨S8192x192, .f32⟩
  | 76 => ⟨S8192x192, .f32⟩
  | 77 => ⟨S8192x192, .f32⟩
  | 78 => ⟨S_, .f32⟩
  | 79 => ⟨S8192x192, .f32⟩
  | 80 => ⟨S8192x192, .f32⟩
  | 81 => ⟨S1x192x192, .f32⟩
  | 82 => ⟨S192x192, .f32⟩
  | 83 => ⟨S1x192, .f32⟩
  | 84 => ⟨S192, .f32⟩
  | 85 => ⟨S8192x192, .f32⟩
  | 86 => ⟨S8192x64, .f32⟩
  | 87 => ⟨S8192x64, .f32⟩
  | 88 => ⟨S8192x128, .f32⟩
  | 89 => ⟨S8192x192, .f32⟩
  | 90 => ⟨S1x192, .f32⟩
  | 91 => ⟨S8192x192, .f32⟩
  | 92 => ⟨S8192x192, .f32⟩
  | 93 => ⟨S_, .f32⟩
  | 94 => ⟨S8192x192, .f32⟩
  | 95 => ⟨S8192x192, .f32⟩
  | 96 => ⟨S8192x192, .f32⟩
  | 97 => ⟨S_, .f32⟩
  | 98 => ⟨S8192x192, .f32⟩
  | 99 => ⟨S8192x192, .f32⟩
  | 100 => ⟨S8192x3, .f32⟩
  | 101 => ⟨S8192x2, .f32⟩
  | 102 => ⟨S8192x2, .f32⟩
  | 103 => ⟨S8192x1, .f32⟩
  | 104 => ⟨S8192x3, .f32⟩
  | 105 => ⟨S1x3, .f32⟩
  | 106 => ⟨S8192x3, .f32⟩
  | 107 => ⟨S8192x3, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call2_cst : Ref sig .tc := ⟨.hbm, 51, rfl⟩
abbrev main_call2_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call3_cst : Ref sig .tc := ⟨.hbm, 66, rfl⟩
abbrev main_call3_v0 : Ref sig .tc := ⟨.hbm, 67, rfl⟩
abbrev main_v51 : Ref sig .tc := ⟨.hbm, 68, rfl⟩
abbrev main_v52 : Ref sig .tc := ⟨.hbm, 69, rfl⟩
abbrev main_cst_0 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call4_cst : Ref sig .tc := ⟨.hbm, 85, rfl⟩
abbrev main_call4_v0 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_call5_cst : Ref sig .tc := ⟨.hbm, 100, rfl⟩
abbrev main_call5_v0 : Ref sig .tc := ⟨.hbm, 101, rfl⟩
abbrev main_v80 : Ref sig .tc := ⟨.hbm, 102, rfl⟩
abbrev main_v81 : Ref sig .tc := ⟨.hbm, 103, rfl⟩
abbrev main_cst_1 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_call6_cst : Ref sig .tc := ⟨.hbm, 119, rfl⟩
abbrev main_call6_v0 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_call7_cst : Ref sig .tc := ⟨.hbm, 134, rfl⟩
abbrev main_call7_v0 : Ref sig .tc := ⟨.hbm, 135, rfl⟩
abbrev main_v109 : Ref sig .tc := ⟨.hbm, 136, rfl⟩
abbrev main_v110 : Ref sig .tc := ⟨.hbm, 137, rfl⟩
abbrev main_cst_2 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_call8_cst : Ref sig .tc := ⟨.hbm, 153, rfl⟩
abbrev main_call8_v0 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_call9_cst : Ref sig .tc := ⟨.hbm, 168, rfl⟩
abbrev main_call9_v0 : Ref sig .tc := ⟨.hbm, 169, rfl⟩
abbrev main_v138 : Ref sig .tc := ⟨.hbm, 170, rfl⟩
abbrev main_v139 : Ref sig .tc := ⟨.hbm, 171, rfl⟩
abbrev main_cst_3 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_call10_cst : Ref sig .tc := ⟨.hbm, 187, rfl⟩
abbrev main_call10_v0 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_call11_cst : Ref sig .tc := ⟨.hbm, 202, rfl⟩
abbrev main_call11_v0 : Ref sig .tc := ⟨.hbm, 203, rfl⟩
abbrev main_v167 : Ref sig .tc := ⟨.hbm, 204, rfl⟩
abbrev main_v168 : Ref sig .tc := ⟨.hbm, 205, rfl⟩
abbrev main_cst_4 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_call12_cst : Ref sig .tc := ⟨.hbm, 221, rfl⟩
abbrev main_call12_v0 : Ref sig .tc := ⟨.hbm, 222, rfl⟩
abbrev main_v183 : Ref sig .tc := ⟨.hbm, 223, rfl⟩
abbrev main_v184 : Ref sig .tc := ⟨.hbm, 224, rfl⟩
abbrev main_cst_5 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩

abbrev nD : Nat := 1
abbrev τ : Topo := Topo.v7x

variable {F : FTy → Type} [FloatOps F]

class Facts₀ : Prop where
  slices_S8192x192_S8192x64_0_0 : S8192x192.Slices ![0, 0] S8192x64
  slices_S8192x192_S8192x128_0_64 : S8192x192.Slices ![0, 64] S8192x128
  concatenates_S8192x64_S8192x128_S8192x192_d1 : Shape.Concatenates [S8192x64, S8192x128] S8192x192 1
  bcast_S192_S1x192_1 : S192.BroadcastsInDim S1x192 (![1] : Fin 1 → Fin S1x192.rank)
  bcast_S1x192_S8192x192_0_1 : S1x192.BroadcastsInDim S8192x192 (![0, 1] : Fin 2 → Fin S8192x192.rank)
  bcast_S_S8192x192 : S_.BroadcastsInDim S8192x192 (![] : Fin 0 → Fin S8192x192.rank)
  slices_S12x192x192_S1x192x192_0_0_0 : S12x192x192.Slices ![0, 0, 0] S1x192x192
  shapeCasts_S1x192x192_S192x192 : S1x192x192.ShapeCasts S192x192
  slices_S12x192_S1x192_0_0 : S12x192.Slices ![0, 0] S1x192
  shapeCasts_S1x192_S192 : S1x192.ShapeCasts S192
  slices_S8192x256_S8192x192_0_0 : S8192x256.Slices ![0, 0] S8192x192
  slices_S12x192x192_S1x192x192_1_0_0 : S12x192x192.Slices ![1, 0, 0] S1x192x192
  slices_S12x192_S1x192_1_0 : S12x192.Slices ![1, 0] S1x192
  slices_S12x192x192_S1x192x192_2_0_0 : S12x192x192.Slices ![2, 0, 0] S1x192x192
  slices_S12x192_S1x192_2_0 : S12x192.Slices ![2, 0] S1x192
  slices_S12x192x192_S1x192x192_3_0_0 : S12x192x192.Slices ![3, 0, 0] S1x192x192
  slices_S12x192_S1x192_3_0 : S12x192.Slices ![3, 0] S1x192
  slices_S12x192x192_S1x192x192_4_0_0 : S12x192x192.Slices ![4, 0, 0] S1x192x192
  slices_S12x192_S1x192_4_0 : S12x192.Slices ![4, 0] S1x192
  slices_S12x192x192_S1x192x192_5_0_0 : S12x192x192.Slices ![5, 0, 0] S1x192x192
  slices_S12x192_S1x192_5_0 : S12x192.Slices ![5, 0] S1x192
  slices_S12x192x192_S1x192x192_6_0_0 : S12x192x192.Slices ![6, 0, 0] S1x192x192
  slices_S12x192_S1x192_6_0 : S12x192.Slices ![6, 0] S1x192
  slices_S12x192x192_S1x192x192_7_0_0 : S12x192x192.Slices ![7, 0, 0] S1x192x192
  slices_S12x192_S1x192_7_0 : S12x192.Slices ![7, 0] S1x192
  slices_S12x192x192_S1x192x192_8_0_0 : S12x192x192.Slices ![8, 0, 0] S1x192x192
  slices_S12x192_S1x192_8_0 : S12x192.Slices ![8, 0] S1x192
  slices_S12x192x192_S1x192x192_9_0_0 : S12x192x192.Slices ![9, 0, 0] S1x192x192
  slices_S12x192_S1x192_9_0 : S12x192.Slices ![9, 0] S1x192
  slices_S12x192x192_S1x192x192_10_0_0 : S12x192x192.Slices ![10, 0, 0] S1x192x192
  slices_S12x192_S1x192_10_0 : S12x192.Slices ![10, 0] S1x192
  slices_S12x192x192_S1x192x192_11_0_0 : S12x192x192.Slices ![11, 0, 0] S1x192x192
  slices_S12x192_S1x192_11_0 : S12x192.Slices ![11, 0] S1x192
  slices_S8192x3_S8192x2_0_0 : S8192x3.Slices ![0, 0] S8192x2
  slices_S8192x3_S8192x1_0_2 : S8192x3.Slices ![0, 2] S8192x1
  concatenates_S8192x2_S8192x1_S8192x3_d1 : Shape.Concatenates [S8192x2, S8192x1] S8192x3 1
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  dot_S8192x256_S256x192_S8192x192_1_0_0_1_n_n_wf : DotDims.WF S8192x256 S256x192 S8192x192 [1] [0] [0] [1] [] []
  dot_S8192x8192_S8192x64_S8192x64_1_0_0_1_n_n_wf : DotDims.WF S8192x8192 S8192x64 S8192x64 [1] [0] [0] [1] [] []
  dot_S8192x192_S192x192_S8192x192_1_0_0_1_n_n_wf : DotDims.WF S8192x192 S192x192 S8192x192 [1] [0] [0] [1] [] []
  dot_S8192x192_S192x3_S8192x3_1_0_0_1_n_n_wf : DotDims.WF S8192x192 S192x3 S8192x3 [1] [0] [0] [1] [] []
  dot_S8192x8192_S8192x2_S8192x2_1_0_0_1_n_n_wf : DotDims.WF S8192x8192 S8192x2 S8192x2 [1] [0] [0] [1] [] []

variable [Facts₀]

def dot_S8192x256_S256x192_S8192x192_1_0_0_1_n_n : DotDims S8192x256 S256x192 S8192x192 where
  lhsContracting := [1]
  rhsContracting := [0]
  lhsNonContracting := [0]
  rhsNonContracting := [1]
  lhsBatch := []
  rhsBatch := []
  wf := dot_S8192x256_S256x192_S8192x192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x192_S192x192_S8192x192_1_0_0_1_n_n : DotDims S8192x192 S192x192 S8192x192 where
  lhsContracting := [1]
  rhsContracting := [0]
  lhsNonContracting := [0]
  rhsNonContracting := [1]
  lhsBatch := []
  rhsBatch := []
  wf := dot_S8192x192_S192x192_S8192x192_1_0_0_1_n_n_wf
def dot_S8192x192_S192x3_S8192x3_1_0_0_1_n_n : DotDims S8192x192 S192x3 S8192x3 where
  lhsContracting := [1]
  rhsContracting := [0]
  lhsNonContracting := [0]
  rhsNonContracting := [1]
  lhsBatch := []
  rhsBatch := []
  wf := dot_S8192x192_S192x3_S8192x3_1_0_0_1_n_n_wf
def dot_S8192x8192_S8192x2_S8192x2_1_0_0_1_n_n : DotDims S8192x8192 S8192x2 S8192x2 where
  lhsContracting := [1]
  rhsContracting := [0]
  lhsNonContracting := [0]
  rhsNonContracting := [1]
  lhsBatch := []
  rhsBatch := []
  wf := dot_S8192x8192_S8192x2_S8192x2_1_0_0_1_n_n_wf

class Facts : Prop extends Facts₀ where

variable [Facts]
-- ==== Proof.Spec.lean ====
/-
  The network both programs compute, as whole-array functions on the extended reals.

  A layer takes node features x [M, K], the adjacency A [M, M], weights w [K, N] and a bias b [N]. With
  s = x · w (the support), the first S columns of the result are A · s (neighbour aggregation) and the remaining
  columns are s itself; the bias is added to every row, and (except in the last layer) the result is cut at zero.
  Between layers the features are averaged with a running value: (a + b) · ½.

  Every array is read through natural-number coordinates (`rd1`, `rd2`, `rd3`; zero outside the array), so that a
  block of an array, a column range of it, and the whole array are compared by arithmetic on coordinates alone.
-/
import Idealize.ShloMosaic.Lib.ValueIdx
import Idealize.ShloMosaic.PureOps.Ideal.Laws

noncomputable section

open scoped BigOperators

namespace Cert.Gcn

open Idealize.ShloMosaic Idealize.ShloMosaic.ValueIdx

abbrev Arr1 (A : ℕ) : Type := (⟨1, ![A]⟩ : Shape).Idx → EReal
abbrev Arr2 (A B : ℕ) : Type := (⟨2, ![A, B]⟩ : Shape).Idx → EReal
abbrev Arr3 (A B C : ℕ) : Type := (⟨3, ![A, B, C]⟩ : Shape).Idx → EReal

/-- Entry p of a vector, zero past its end. -/
def rd1 {A : ℕ} (a : Arr1 A) (p : ℕ) : EReal := if h : p < A then a (ix1 ⟨p, h⟩) else 0
/-- Entry (p, q) of a matrix, zero outside it. -/
def rd2 {A B : ℕ} (a : Arr2 A B) (p q : ℕ) : EReal := if h : p < A ∧ q < B then a (ix2 ⟨p, h.1⟩ ⟨q, h.2⟩) else 0
/-- Entry (p, q, r) of a rank-three array, zero outside it. -/
def rd3 {A B C : ℕ} (a : Arr3 A B C) (p q r : ℕ) : EReal :=
  if h : p < A ∧ q < B ∧ r < C then a (ix3 ⟨p, h.1⟩ ⟨q, h.2.1⟩ ⟨r, h.2.2⟩) else 0

theorem rd1_ix1 {A : ℕ} (a : Arr1 A) (p : Fin A) : rd1 a p.val = a (ix1 p) := by
  unfold rd1; rw [dif_pos p.isLt]
theorem rd2_ix2 {A B : ℕ} (a : Arr2 A B) (p : Fin A) (q : Fin B) : rd2 a p.val q.val = a (ix2 p q) := by
  unfold rd2; rw [dif_pos ⟨p.isLt, q.isLt⟩]
theorem rd3_ix3 {A B C : ℕ} (a : Arr3 A B C) (p : Fin A) (q : Fin B) (r : Fin C) :
    rd3 a p.val q.val r.val = a (ix3 p q r) := by
  unfold rd3; rw [dif_pos ⟨p.isLt, q.isLt, r.isLt⟩]
theorem rd1_of_lt {A : ℕ} (a : Arr1 A) {p : ℕ} (h : p < A) : rd1 a p = a (ix1 ⟨p, h⟩) := by
  unfold rd1; rw [dif_pos h]
theorem rd2_of_lt {A B : ℕ} (a : Arr2 A B) {p q : ℕ} (hp : p < A) (hq : q < B) : rd2 a p q = a (ix2 ⟨p, hp⟩ ⟨q, hq⟩) := by
  unfold rd2; rw [dif_pos ⟨hp, hq⟩]
/-- Two matrices with the same entries are equal. -/
theorem arr2_ext {A B : ℕ} {a b : Arr2 A B} (h : ∀ (p : Fin A) (q : Fin B), a (ix2 p q) = b (ix2 p q)) : a = b :=
  funext fun i => by rw [eq_ix2 i]; exact h _ _

variable {M K N : ℕ}

/-- The support x · w at (p, j): the sum over k of x (p, k) · w (k, j). -/
def supp (x : Arr2 M K) (w : Arr2 K N) (p j : ℕ) : EReal := ∑ k : Fin K, rd2 x p k.val * rd2 w k.val j

/-- The first S columns of the support, as an [M, S] array. -/
def supAgg (S : ℕ) (x : Arr2 M K) (w : Arr2 K N) : Arr2 M S := fun i => supp x w (i 0).val (i 1).val
/-- The P columns of the support from column S on, as an [M, P] array. -/
def supPass (S P : ℕ) (x : Arr2 M K) (w : Arr2 K N) : Arr2 M P := fun i => supp x w (i 0).val (S + (i 1).val)

theorem supAgg_ix2 (S : ℕ) (x : Arr2 M K) (w : Arr2 K N) (p : Fin M) (j : Fin S) :
    supAgg S x w (ix2 p j) = supp x w p.val j.val := rfl
theorem supPass_ix2 (S P : ℕ) (x : Arr2 M K) (w : Arr2 K N) (p : Fin M) (j : Fin P) :
    supPass S P x w (ix2 p j) = supp x w p.val (S + j.val) := rfl

/-- What the aggregation step leaves before the cut at zero, from the two pieces of the support and the two pieces of the
    bias: column j < S holds (A · sa)(p, j) + ba j, column j ≥ S holds sp (p, j − S) + bp (j − S). -/
def aggPre {P : ℕ} (S : ℕ) (A : Arr2 M M) (sa : Arr2 M S) (sp : Arr2 M P) (ba : Arr2 1 S) (bp : Arr2 1 P) : Arr2 M N :=
  fun i => if (i 1).val < S then (∑ r : Fin M, rd2 A (i 0).val r.val * rd2 sa r.val (i 1).val) + rd2 ba 0 (i 1).val
    else rd2 sp (i 0).val ((i 1).val - S) + rd2 bp 0 ((i 1).val - S)
/-- The same, cut at zero. -/
def aggRelu {P : ℕ} (S : ℕ) (A : Arr2 M M) (sa : Arr2 M S) (sp : Arr2 M P) (ba : Arr2 1 S) (bp : Arr2 1 P) : Arr2 M N :=
  fun i => max (aggPre (N := N) S A sa sp ba bp i) 0

/-- One layer before the cut at zero, from the layer's inputs. -/
def layerPre (S : ℕ) (x : Arr2 M K) (A : Arr2 M M) (w : Arr2 K N) (b : Arr1 N) : Arr2 M N :=
  fun i => (if (i 1).val < S then ∑ r : Fin M, rd2 A (i 0).val r.val * supp x w r.val (i 1).val
    else supp x w (i 0).val (i 1).val) + rd1 b (i 1).val
/-- One layer. -/
def layer (S : ℕ) (x : Arr2 M K) (A : Arr2 M M) (w : Arr2 K N) (b : Arr1 N) : Arr2 M N :=
  fun i => max (layerPre S x A w b i) 0

/-- The aggregation step on the two pieces of x · w, with the two pieces of the bias, IS the layer. -/
theorem aggPre_eq_layerPre {P : ℕ} (S : ℕ) (hN : S + P = N) (x : Arr2 M K) (A : Arr2 M M) (w : Arr2 K N) (b : Arr1 N)
    (ba : Arr2 1 S) (bp : Arr2 1 P) (hba : ∀ j, j < S → rd2 ba 0 j = rd1 b j) (hbp : ∀ j, j < P → rd2 bp 0 j = rd1 b (S + j)) :
    aggPre (N := N) S A (supAgg S x w) (supPass S P x w) ba bp = layerPre S x A w b := by
  funext i
  have hi1 : (i 1).val < N := (i 1).isLt
  have hi0 : (i 0).val < M := (i 0).isLt
  unfold aggPre layerPre
  by_cases h : (i 1).val < S
  · rw [if_pos h, if_pos h, hba _ h]
    refine congrArg (· + rd1 b (i 1).val) (Finset.sum_congr rfl fun r _ => ?_)
    rw [rd2_of_lt (supAgg S x w) r.isLt h]; rfl
  · rw [if_neg h, if_neg h, hbp _ (by omega), rd2_of_lt (supPass S P x w) hi0 (show (i 1).val - S < P by omega)]
    have e : S + ((i 1).val - S) = (i 1).val := by omega
    show supp x w (i 0).val (S + ((i 1).val - S)) + rd1 b (S + ((i 1).val - S)) = _
    rw [e]

theorem aggRelu_eq_layer {P : ℕ} (S : ℕ) (hN : S + P = N) (x : Arr2 M K) (A : Arr2 M M) (w : Arr2 K N) (b : Arr1 N)
    (ba : Arr2 1 S) (bp : Arr2 1 P) (hba : ∀ j, j < S → rd2 ba 0 j = rd1 b j) (hbp : ∀ j, j < P → rd2 bp 0 j = rd1 b (S + j)) :
    aggRelu (N := N) S A (supAgg S x w) (supPass S P x w) ba bp = layer S x A w b := by
  funext i
  show max (aggPre (N := N) S A (supAgg S x w) (supPass S P x w) ba bp i) 0 = max (layerPre S x A w b i) 0
  rw [aggPre_eq_layerPre S hN x A w b ba bp hba hbp]

/-- The averaging step between layers: (a + b) · ½, entry by entry (½ kept as the float word both programs print). -/
def resid {A B : ℕ} (a b : Arr2 A B) : Arr2 A B := fun i => (a i + b i) * Ideal.ofBits .f32 0x3F000000#32

/-- The first B' columns of a matrix. -/
def cols {A B : ℕ} (B' : ℕ) (a : Arr2 A B) : Arr2 A B' := fun i => rd2 a (i 0).val (i 1).val

/-- Slab i of a stack of matrices, and row i of a stack of vectors. -/
def slab {A B C : ℕ} (a : Arr3 A B C) (i : ℕ) : Arr2 B C := fun j => rd3 a i (j 0).val (j 1).val
def row {A B : ℕ} (a : Arr2 A B) (i : ℕ) : Arr1 B := fun j => rd2 a i (j 0).val

/-- The whole network: the two results (the coordinates [8192, 3] and the last running features [8192, 192]) from the eight
    inputs. Thirteen layers cut at zero, seven averaging steps, and a last layer without the cut. -/
def net (f : Arr2 8192 256) (A : Arr2 8192 8192) (W1 : Arr2 256 192) (b1 : Arr1 192) (Wm : Arr3 12 192 192) (bm : Arr2 12 192)
    (Wo : Arr2 192 3) (bo : Arr1 3) : Arr2 8192 3 × Arr2 8192 192 :=
  let x1 : Arr2 8192 192 := layer 64 f A W1 b1
  let x2 : Arr2 8192 192 := layer 64 x1 A (slab Wm 0) (row bm 0)
  let f1 : Arr2 8192 192 := resid (cols 192 f) x2
  let x3 : Arr2 8192 192 := layer 64 f1 A (slab Wm 1) (row bm 1)
  let x4 : Arr2 8192 192 := layer 64 x3 A (slab Wm 2) (row bm 2)
  let f2 : Arr2 8192 192 := resid f1 x4
  let x5 : Arr2 8192 192 := layer 64 f2 A (slab Wm 3) (row bm 3)
  let x6 : Arr2 8192 192 := layer 64 x5 A (slab Wm 4) (row bm 4)
  let f3 : Arr2 8192 192 := resid f2 x6
  let x7 : Arr2 8192 192 := layer 64 f3 A (slab Wm 5) (row bm 5)
  let x8 : Arr2 8192 192 := layer 64 x7 A (slab Wm 6) (row bm 6)
  let f4 : Arr2 8192 192 := resid f3 x8
  let x9 : Arr2 8192 192 := layer 64 f4 A (slab Wm 7) (row bm 7)
  let x10 : Arr2 8192 192 := layer 64 x9 A (slab Wm 8) (row bm 8)
  let f5 : Arr2 8192 192 := resid f4 x10
  let x11 : Arr2 8192 192 := layer 64 f5 A (slab Wm 9) (row bm 9)
  let x12 : Arr2 8192 192 := layer 64 x11 A (slab Wm 10) (row bm 10)
  let f6 : Arr2 8192 192 := resid f5 x12
  let x13 : Arr2 8192 192 := layer 64 f6 A (slab Wm 11) (row bm 11)
  let f7 : Arr2 8192 192 := resid f6 x13
  (layerPre 2 f7 A Wo bo, f7)

end Cert.Gcn

end
-- ==== Proof.KRun.lean ====
/-
  The kernel program's run with its two results named: every weakly fair execution of the program terminates, nothing
  faulting, with the coordinates buffer and the running-features buffer holding what the last segment boundary's contents
  give them (the fold of the host stretches and of the regions' write-backs through the whole program), and the eight
  argument arrays as launched.
-/
import proofs.«108744_j27797028339962_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with both results read at the last boundary's contents. -/
theorem run : θ_run defs (onTc (τ := τ) (main (F := F))) ⟨m, fun _ => 0, ρ⟩ (fun r => ∀ c : Dev nD,
      r.2.mem ((c.tc : Thread nD τ).loc main_v154) = W56 m ρ c (Proc.devRef .tc main_v154)
      ∧ r.2.mem ((c.tc : Thread nD τ).loc main_v148) = W56 m ρ c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W56 m ρ c b)
    (hfin := fun c s' => by
      iintro ⟨⟨Hh, -⟩, HSI⟩
      unfold StableHlo.held
      imodintro
      iapply (pointsTo_read_all (Pipeline.ucRefs τ sig) (fun b => (((c : Thread nD τ)).1, b)) (W56 m ρ c) s')
      isplitl [Hh] <;> iassumption)
    (hQ := fun s h c =>
      ⟨h c _ (mem_uc main_v154 (by decide)),
       h c _ (mem_uc main_v148 (by decide)),
       (h c _ (mem_uc main_arg0 (by decide))).trans (W56_main_arg0 m ρ c),
       (h c _ (mem_uc main_arg1 (by decide))).trans (W56_main_arg1 m ρ c),
       (h c _ (mem_uc main_arg2 (by decide))).trans (W56_main_arg2 m ρ c),
       (h c _ (mem_uc main_arg3 (by decide))).trans (W56_main_arg3 m ρ c),
       (h c _ (mem_uc main_arg4 (by decide))).trans (W56_main_arg4 m ρ c),
       (h c _ (mem_uc main_arg5 (by decide))).trans (W56_main_arg5 m ρ c),
       (h c _ (mem_uc main_arg6 (by decide))).trans (W56_main_arg6 m ρ c),
       (h c _ (mem_uc main_arg7 (by decide))).trans (W56_main_arg7 m ρ c)⟩)

end Cert.KernelIdeal.Results

end
-- ==== Proof.KFinals.lean ====
/-
  What each of the 29 kernel regions leaves in its output arrays, as a function of the arrays the region reads when it is
  entered: the statements only, gathered in one structure. The aggregation regions read the adjacency copy, the two pieces
  of the support and the two pieces of the bias; the projection regions read the features and the weights.
-/
import proofs.«108744_j27797028339962_2_alg».proof.Proof.Gen.KernelIdeal.Frame
import proofs.«108744_j27797028339962_2_alg».proof.Proof.Spec

noncomputable section

namespace Cert.KernelIdeal.Reg

open Cert.KernelIdeal Cert.KernelIdeal.Gen Idealize.ShloMosaic Idealize.ShloMosaic.TcCoe Idealize.SL.Sem Cert.Gcn

set_option maxHeartbeats 16000000 in
/-- Every region's output arrays after the region, from the contents `V` the region is entered with. -/
structure Finals : Prop where
  /-- Region 0 copies the adjacency (the change of float format is the identity on the extended reals). -/
  cast0 : ∀ (V : (c : Dev nD) → (b : Ref sig .tc) → Buf (Elt Ideal) ((c : Thread nD τ).loc b)) (c : Dev nD),
    (dat0 (F := Ideal) V c).arrAt 1 cfg0.N = (fun i => V c main_arg1 i)
  /-- Region 1: the first 64 columns of the support of main_arg0 and main_arg2. -/
  split1a : ∀ (V : (c : Dev nD) → (b : Ref sig .tc) → Buf (Elt Ideal) ((c : Thread nD τ).loc b)) (c : Dev nD),
    (dat1 (F := Ideal) V c).arrAt 2 cfg1.N = supAgg (M := 8192) (K := 256) (N := 192) 64 (V c main_arg0) (V c main_arg2)
  /-- Region 1: the remaining 128 columns of that support. -/
  split1p : ∀ (V : (c : Dev nD) → (b : Ref sig .tc) → Buf (Elt Ideal) ((c : Thread nD τ).loc b)) (c : Dev nD),
    (dat1 (F := Ideal) V c).arrAt 3 cfg1.N = supPass (M := 8192) (K := 256) (N := 192) 64 128 (V c main_arg0) (V c main_arg2)
  /-- Region 2: the aggregation step on the two support pieces main_v1_0, main_v1_1 with the bias pieces main_v3, main_v5. -/
  agg2 : ∀ (V : (c : Dev nD) → (b : Ref sig .tc) → Buf (Elt Ideal) ((c : Thread nD τ).loc b)) (c : Dev nD),
    (dat2 (F := Ideal) V c).arrAt 5 cfg2.N = aggRelu (M := 8192) (N := 192) (P := 128) 64 (V c main_v0) (V c main_v1_0) (V c main_v1_1) (V c main_v3) (V c main_v5)
  /-- Region 3: the first 64 columns of the support of main_v6 and main_v8. -/
  split3a : ∀ (V : (c : Dev nD) → (b : Ref sig .tc) → Buf (Elt Ideal) ((c : Thread nD τ).loc b)) (c : Dev nD),
    (dat3 (F := Ideal) V c).arrAt 2 cfg3.N = supAgg (M := 8192) (K := 192) (N := 192) 64 (V c main_v6) (V c main_v8)
  /-- Region 3: the remaining 128 columns of that support. -/
  split3p : ∀ (V : (c : Dev nD) → (b : Ref sig .tc) → Buf (Elt Ideal) ((c : Thread nD τ).loc b)) (c : Dev nD),
    (dat3 (F := Ideal) V c).arrAt 3 cfg3.N = supPass (M := 8192) (K := 192) (N := 192) 64 128 (V c main_v6) (V c main_v8)
  /-- Region 4: the aggregation step on the two support pieces main_v11_0, main_v11_1 with the bias pieces main_v13, main_v15. -/
  agg4 : ∀ (V : (c : Dev nD) → (b : Ref sig .tc) → Buf (Elt Ideal) ((c : Thread nD τ).loc b)) (c : Dev nD),
    (dat4 (F := Ideal) V c).arrAt 5 cfg4.N = aggRelu (M := 8192) (N := 192) (P := 128) 64 (V c main_v0) (V c main_v11_0) (V c main_v11_1) (V c main_v13) (V c main_v15)
  /-- Region 5: the first 64 columns of the support of main_v20 and main_v22. -/
  split5a : ∀ (V : (c : Dev nD) → (b : Ref sig .tc) → Buf (Elt Ideal) ((c : Thread nD τ).loc b)) (c : Dev nD),
    (dat5 (F := Ideal) V c).arrAt 2 cfg5.N = supAgg (M := 8192) (K := 192) (N := 192) 64 (V c main_v20) (V c main_v22)
  /-- Region 5: the remaining 128 columns of that support. -/
  split5p : ∀ (V : (c : Dev nD) → (b : Ref sig .tc) → Buf (Elt Ideal) ((c : Thread nD τ).loc b)) (c : Dev nD),
    (dat5 (F := Ideal) V c).arrAt 3 cfg5.N = supPass (M := 8192) (K := 192) (N := 192) 64 128 (V c main_v20) (V c main_v22)
  /-- Region 6: the aggregation step on the two support pieces main_v25_0, main_v25_1 with the bias pieces main_v27, main_v29. -/
  agg6 : ∀ (V : (c : Dev nD) → (b : Ref sig .tc) → Buf (Elt Ideal) ((c : Thread nD τ).loc b)) (c : Dev nD),
    (dat6 (F := Ideal) V c).arrAt 5 cfg6.N = aggRelu (M := 8192) (N := 192) (P := 128) 64 (V c main_v0) (V c main_v25_0) (V c main_v25_1) (V c main_v27) (V c main_v29)
  /-- Region 7: the first 64 columns of the support of main_v30 and main_v32. -/
  split7a : ∀ (V : (c : Dev nD) → (b : Ref sig .tc) → Buf (Elt Ideal) ((c : Thread nD τ).loc b)) (c : Dev nD),
    (dat7 (F := Ideal) V c).arrAt 2 cfg7.N = supAgg (M := 8192) (K := 192) (N := 192) 64 (V c main_v30) (V c main_v32)
  /-- Region 7: the remaining 128 columns of that support. -/
  split7p : ∀ (V : (c : Dev nD) → (b : Ref sig .tc) → Buf (Elt Ideal) ((c : Thread nD τ).loc b)) (c : Dev nD),
    (dat7 (F := Ideal) V c).arrAt 3 cfg7.N = supPass (M := 8192) (K := 192) (N := 192) 64 128 (V c main_v30) (V c main_v32)
  /-- Region 8: the aggregation step on the two support pieces main_v35_0, main_v35_1 with the bias pieces main_v37, main_v39. -/
  agg8 : ∀ (V : (c : Dev nD) → (b : Ref sig .tc) → Buf (Elt Ideal) ((c : Thread nD τ).loc b)) (c : Dev nD),
    (dat8 (F := Ideal) V c).arrAt 5 cfg8.N = aggRelu (M := 8192) (N := 192) (P := 128) 64 (V c main_v0) (V c main_v35_0) (V c main_v35_1) (V c main_v37) (V c main_v39)
  /-- Region 9: the first 64 columns of the support of main_v43 and main_v45. -/
  split9a : ∀ (V : (c : Dev nD) → (b : Ref sig .tc) → Buf (Elt Ideal) ((c : Thread nD τ).loc b)) (c : Dev nD),
    (dat9 (F := Ideal) V c).arrAt 2 cfg9.N = supAgg (M := 8192) (K := 192) (N := 192) 64 (V c main_v43) (V c main_v45)
  /-- Region 9: the remaining 128 columns of that support. -/
  split9p : ∀ (V : (c : Dev nD) → (b : Ref sig .tc) → Buf (Elt Ideal) ((c : Thread nD τ).loc b)) (c : Dev nD),
    (dat9 (F := Ideal) V c).arrAt 3 cfg9.N = supPass (M := 8192) (K := 192) (N := 192) 64 128 (V c main_v43) (V c main_v45)
  /-- Region 10: the aggregation step on the two support pieces main_v48_0, main_v48_1 with the bias pieces main_v50, main_v52. -/
  agg10 : ∀ (V : (c : Dev nD) → (b : Ref sig .tc) → Buf (Elt Ideal) ((c : Thread nD τ).loc b)) (c : Dev nD),
    (dat10 (F := Ideal) V c).arrAt 5 cfg10.N = aggRelu (M := 8192) (N := 192) (P := 128) 64 (V c main_v0) (V c main_v48_0) (V c main_v48_1) (V c main_v50) (V c main_v52)
  /-- Region 11: the first 64 columns of the support of main_v53 and main_v55. -/
  split11a : ∀ (V : (c : Dev nD) → (b : Ref sig .tc) → Buf (Elt Ideal) ((c : Thread nD τ).loc b)) (c : Dev nD),
    (dat11 (F := Ideal) V c).arrAt 2 cfg11.N = supAgg (M := 8192) (K := 192) (N := 192) 64 (V c main_v53) (V c main_v55)
  /-- Region 11: the remaining 128 columns of that support. -/
  split11p : ∀ (V : (c : Dev nD) → (b : Ref sig .tc) → Buf (Elt Ideal) ((c : Thread nD τ).loc b)) (c : Dev nD),
    (dat11 (F := Ideal) V c).arrAt 3 cfg11.N = supPass (M := 8192) (K := 192) (N := 192) 64 128 (V c main_v53) (V c main_v55)
  /-- Region 12: the aggregation step on the two support pieces main_v58_0, main_v58_1 with the bias pieces main_v60, main_v62. -/
  agg12 : ∀ (V : (c : Dev nD) → (b : Ref sig .tc) → Buf (Elt Ideal) ((c : Thread nD τ).loc b)) (c : Dev nD),
    (dat12 (F := Ideal) V c).arrAt 5 cfg12.N = aggRelu (M := 8192) (N := 192) (P := 128) 64 (V c main_v0) (V c main_v58_0) (V c main_v58_1) (V c main_v60) (V c main_v62)
  /-- Region 13: the first 64 columns of the support of main_v66 and main_v68. -/
  split13a : ∀ (V : (c : Dev nD) → (b : Ref sig .tc) → Buf (Elt Ideal) ((c : Thread nD τ).loc b)) (c : Dev nD),
    (dat13 (F := Ideal) V c).arrAt 2 cfg13.N = supAgg (M := 8192) (K := 192) (N := 192) 64 (V c main_v66) (V c main_v68)
  /-- Region 13: the remaining 128 columns of that support. -/
  split13p : ∀ (V : (c : Dev nD) → (b : Ref sig .tc) → Buf (Elt Ideal) ((c : Thread nD τ).loc b)) (c : Dev nD),
    (dat13 (F := Ideal) V c).arrAt 3 cfg13.N = supPass (M := 8192) (K := 192) (N := 192) 64 128 (V c main_v66) (V c main_v68)
  /-- Region 14: the aggregation step on the two support pieces main_v71_0, main_v71_1 with the bias pieces main_v73, main_v75. -/
  agg14 : ∀ (V : (c : Dev nD) → (b : Ref sig .tc) → Buf (Elt Ideal) ((c : Thread nD τ).loc b)) (c : Dev nD),
    (dat14 (F := Ideal) V c).arrAt 5 cfg14.N = aggRelu (M := 8192) (N := 192) (P := 128) 64 (V c main_v0) (V c main_v71_0) (V c main_v71_1) (V c main_v73) (V c main_v75)
  /-- Region 15: the first 64 columns of the support of main_v76 and main_v78. -/
  split15a : ∀ (V : (c : Dev nD) → (b : Ref sig .tc) → Buf (Elt Ideal) ((c : Thread nD τ).loc b)) (c : Dev nD),
    (dat15 (F := Ideal) V c).arrAt 2 cfg15.N = supAgg (M := 8192) (K := 192) (N := 192) 64 (V c main_v76) (V c main_v78)
  /-- Region 15: the remaining 128 columns of that support. -/
  split15p : ∀ (V : (c : Dev nD) → (b : Ref sig .tc) → Buf (Elt Ideal) ((c : Thread nD τ).loc b)) (c : Dev nD),
    (dat15 (F := Ideal) V c).arrAt 3 cfg15.N = supPass (M := 8192) (K := 192) (N := 192) 64 128 (V c main_v76) (V c main_v78)
  /-- Region 16: the aggregation step on the two support pieces main_v81_0, main_v81_1 with the bias pieces main_v83, main_v85. -/
  agg16 : ∀ (V : (c : Dev nD) → (b : Ref sig .tc) → Buf (Elt Ideal) ((c : Thread nD τ).loc b)) (c : Dev nD),
    (dat16 (F := Ideal) V c).arrAt 5 cfg16.N = aggRelu (M := 8192) (N := 192) (P := 128) 64 (V c main_v0) (V c main_v81_0) (V c main_v81_1) (V c main_v83) (V c main_v85)
  /-- Region 17: the first 64 columns of the support of main_v89 and main_v91. -/
  split17a : ∀ (V : (c : Dev nD) → (b : Ref sig .tc) → Buf (Elt Ideal) ((c : Thread nD τ).loc b)) (c : Dev nD),
    (dat17 (F := Ideal) V c).arrAt 2 cfg17.N = supAgg (M := 8192) (K := 192) (N := 192) 64 (V c main_v89) (V c main_v91)
  /-- Region 17: the remaining 128 columns of that support. -/
  split17p : ∀ (V : (c : Dev nD) → (b : Ref sig .tc) → Buf (Elt Ideal) ((c : Thread nD τ).loc b)) (c : Dev nD),
    (dat17 (F := Ideal) V c).arrAt 3 cfg17.N = supPass (M := 8192) (K := 192) (N := 192) 64 128 (V c main_v89) (V c main_v91)
  /-- Region 18: the aggregation step on the two support pieces main_v94_0, main_v94_1 with the bias pieces main_v96, main_v98. -/
  agg18 : ∀ (V : (c : Dev nD) → (b : Ref sig .tc) → Buf (Elt Ideal) ((c : Thread nD τ).loc b)) (c : Dev nD),
    (dat18 (F := Ideal) V c).arrAt 5 cfg18.N = aggRelu (M := 8192) (N := 192) (P := 128) 64 (V c main_v0) (V c main_v94_0) (V c main_v94_1) (V c main_v96) (V c main_v98)
  /-- Region 19: the first 64 columns of the support of main_v99 and main_v101. -/
  split19a : ∀ (V : (c : Dev nD) → (b : Ref sig .tc) → Buf (Elt Ideal) ((c : Thread nD τ).loc b)) (c : Dev nD),
    (dat19 (F := Ideal) V c).arrAt 2 cfg19.N = supAgg (M := 8192) (K := 192) (N := 192) 64 (V c main_v99) (V c main_v101)
  /-- Region 19: the remaining 128 columns of that support. -/
  split19p : ∀ (V : (c : Dev nD) → (b : Ref sig .tc) → Buf (Elt Ideal) ((c : Thread nD τ).loc b)) (c : Dev nD),
    (dat19 (F := Ideal) V c).arrAt 3 cfg19.N = supPass (M := 8192) (K := 192) (N := 192) 64 128 (V c main_v99) (V c main_v101)
  /-- Region 20: the aggregation step on the two support pieces main_v104_0, main_v104_1 with the bias pieces main_v106, main_v108. -/
  agg20 : ∀ (V : (c : Dev nD) → (b : Ref sig .tc) → Buf (Elt Ideal) ((c : Thread nD τ).loc b)) (c : Dev nD),
    (dat20 (F := Ideal) V c).arrAt 5 cfg20.N = aggRelu (M := 8192) (N := 192) (P := 128) 64 (V c main_v0) (V c main_v104_0) (V c main_v104_1) (V c main_v106) (V c main_v108)
  /-- Region 21: the first 64 columns of the support of main_v112 and main_v114. -/
  split21a : ∀ (V : (c : Dev nD) → (b : Ref sig .tc) → Buf (Elt Ideal) ((c : Thread nD τ).loc b)) (c : Dev nD),
    (dat21 (F := Ideal) V c).arrAt 2 cfg21.N = supAgg (M := 8192) (K := 192) (N := 192) 64 (V c main_v112) (V c main_v114)
  /-- Region 21: the remaining 128 columns of that support. -/
  split21p : ∀ (V : (c : Dev nD) → (b : Ref sig .tc) → Buf (Elt Ideal) ((c : Thread nD τ).loc b)) (c : Dev nD),
    (dat21 (F := Ideal) V c).arrAt 3 cfg21.N = supPass (M := 8192) (K := 192) (N := 192) 64 128 (V c main_v112) (V c main_v114)
  /-- Region 22: the aggregation step on the two support pieces main_v117_0, main_v117_1 with the bias pieces main_v119, main_v121. -/
  agg22 : ∀ (V : (c : Dev nD) → (b : Ref sig .tc) → Buf (Elt Ideal) ((c : Thread nD τ).loc b)) (c : Dev nD),
    (dat22 (F := Ideal) V c).arrAt 5 cfg22.N = aggRelu (M := 8192) (N := 192) (P := 128) 64 (V c main_v0) (V c main_v117_0) (V c main_v117_1) (V c main_v119) (V c main_v121)
  /-- Region 23: the first 64 columns of the support of main_v122 and main_v124. -/
  split23a : ∀ (V : (c : Dev nD) → (b : Ref sig .tc) → Buf (Elt Ideal) ((c : Thread nD τ).loc b)) (c : Dev nD),
    (dat23 (F := Ideal) V c).arrAt 2 cfg23.N = supAgg (M := 8192) (K := 192) (N := 192) 64 (V c main_v122) (V c main_v124)
  /-- Region 23: the remaining 128 columns of that support. -/
  split23p : ∀ (V : (c : Dev nD) → (b : Ref sig .tc) → Buf (Elt Ideal) ((c : Thread nD τ).loc b)) (c : Dev nD),
    (dat23 (F := Ideal) V c).arrAt 3 cfg23.N = supPass (M := 8192) (K := 192) (N := 192) 64 128 (V c main_v122) (V c main_v124)
  /-- Region 24: the aggregation step on the two support pieces main_v127_0, main_v127_1 with the bias pieces main_v129, main_v131. -/
  agg24 : ∀ (V : (c : Dev nD) → (b : Ref sig .tc) → Buf (Elt Ideal) ((c : Thread nD τ).loc b)) (c : Dev nD),
    (dat24 (F := Ideal) V c).arrAt 5 cfg24.N = aggRelu (M := 8192) (N := 192) (P := 128) 64 (V c main_v0) (V c main_v127_0) (V c main_v127_1) (V c main_v129) (V c main_v131)
  /-- Region 25: the first 64 columns of the support of main_v135 and main_v137. -/
  split25a : ∀ (V : (c : Dev nD) → (b : Ref sig .tc) → Buf (Elt Ideal) ((c : Thread nD τ).loc b)) (c : Dev nD),
    (dat25 (F := Ideal) V c).arrAt 2 cfg25.N = supAgg (M := 8192) (K := 192) (N := 192) 64 (V c main_v135) (V c main_v137)
  /-- Region 25: the remaining 128 columns of that support. -/
  split25p : ∀ (V : (c : Dev nD) → (b : Ref sig .tc) → Buf (Elt Ideal) ((c : Thread nD τ).loc b)) (c : Dev nD),
    (dat25 (F := Ideal) V c).arrAt 3 cfg25.N = supPass (M := 8192) (K := 192) (N := 192) 64 128 (V c main_v135) (V c main_v137)
  /-- Region 26: the aggregation step on the two support pieces main_v140_0, main_v140_1 with the bias pieces main_v142, main_v144. -/
  agg26 : ∀ (V : (c : Dev nD) → (b : Ref sig .tc) → Buf (Elt Ideal) ((c : Thread nD τ).loc b)) (c : Dev nD),
    (dat26 (F := Ideal) V c).arrAt 5 cfg26.N = aggRelu (M := 8192) (N := 192) (P := 128) 64 (V c main_v0) (V c main_v140_0) (V c main_v140_1) (V c main_v142) (V c main_v144)
  /-- Region 27: the first 2 columns of the support of main_v148 and main_arg6. -/
  split27a : ∀ (V : (c : Dev nD) → (b : Ref sig .tc) → Buf (Elt Ideal) ((c : Thread nD τ).loc b)) (c : Dev nD),
    (dat27 (F := Ideal) V c).arrAt 2 cfg27.N = supAgg (M := 8192) (K := 192) (N := 3) 2 (V c main_v148) (V c main_arg6)
  /-- Region 27: the remaining 1 columns of that support. -/
  split27p : ∀ (V : (c : Dev nD) → (b : Ref sig .tc) → Buf (Elt Ideal) ((c : Thread nD τ).loc b)) (c : Dev nD),
    (dat27 (F := Ideal) V c).arrAt 3 cfg27.N = supPass (M := 8192) (K := 192) (N := 3) 2 1 (V c main_v148) (V c main_arg6)
  /-- Region 28: the aggregation step on the two support pieces main_v149_0, main_v149_1 with the bias pieces main_v151, main_v153. -/
  agg28 : ∀ (V : (c : Dev nD) → (b : Ref sig .tc) → Buf (Elt Ideal) ((c : Thread nD τ).loc b)) (c : Dev nD),
    (dat28 (F := Ideal) V c).arrAt 5 cfg28.N = aggPre (M := 8192) (N := 3) (P := 1) 2 (V c main_v0) (V c main_v149_0) (V c main_v149_1) (V c main_v151) (V c main_v153)

end Cert.KernelIdeal.Reg

end
-- ==== Proof.KReg0.lean ====
/-
  Region 0: the change of float format of the adjacency. Each of the 32 grid points reads 256 rows of the adjacency
  [8192, 8192] and writes them, narrowed, to the same rows of the copy. On the extended reals narrowing is the identity,
  and row 256 t + p of either array is row p of its block t, so the copy ends holding the adjacency.
-/
import proofs.«108744_j27797028339962_2_alg».proof.Proof.Gen.KernelIdeal.Frame
import Idealize.ShloMosaic.Lib.Pipeline.Value
import Idealize.ShloMosaic.Lib.ValueIdx

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of the two windows at grid point t: both are at block (t, 0). -/
theorem block_index : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What point t writes back to the copy is block t of the adjacency. -/
theorem flushed_cast (c : Dev nD) (t : Fin cfg0.N) :
    (dat0 (F := Ideal) V c).flushed 1 t = ((cfg0.win 1).blk t).view.read (Elt Ideal) (fun i => V c main_arg1 i) := by
  show (cfg0.win 1).cut (grid0.coords t) ((dat0 V c).after 1 t) = _
  rw [after0_1]
  unfold out0_1
  rw [View.canon_unit_zero zero_offsets]
  simp only [View.ld_unit_zero (S := S256x8192) zero_offsets]
  unfold k0_pay1
  obtain ⟨e0, e1, -⟩ := block_index t
  funext j
  show V c main_arg1 (((cfg0.win 0).blk t).view.emb j) = V c main_arg1 (((cfg0.win 1).blk t).view.emb j)
  refine congrArg (V c main_arg1) (funext fun a => Fin.ext ?_)
  match a with
  | ⟨0, _⟩ => show win0_0.index t (0 : Fin 2) * 256 + 1 * (j 0).val = win0_1.index t (0 : Fin 2) * 256 + 1 * (j 0).val; rw [e0]
  | ⟨1, _⟩ => show win0_0.index t (1 : Fin 2) * 8192 + 1 * (j 1).val = win0_1.index t (1 : Fin 2) * 8192 + 1 * (j 1).val; rw [e1]

/-- An index is in point t's block of the copy iff each coordinate is in the block's range on its axis. -/
theorem mem_block (t : Fin cfg0.N) (i : S8192x8192.Idx) :
    i ∈ ((cfg0.win 1).blk t).view.set ↔ ∀ a : Fin 2, win0_1.index t a * S256x8192.size a ≤ (i a).val ∧ (i a).val < win0_1.index t a * S256x8192.size a + S256x8192.size a := by
  show i ∈ ((View.whole main_v0).slice (win0_1.rect t)).set ↔ _
  rw [View.set_slice_whole, Rect.mem_set_unit]
  exact Iff.rfl

/-- Row r of the copy is in the block of point r / 256. -/
theorem cover (i : S8192x8192.Idx) : ∃ t : Fin cfg0.N, (cfg0.win 1).flush t = true ∧ i ∈ ((cfg0.win 1).blk t).view.set := by
  have hi0 : (i 0).val < 8192 := (i 0).isLt
  have hi1 : (i 1).val < 8192 := (i 1).isLt
  have hN : cfg0.N = 32 := N_0
  have hlt : (i 0).val / 256 < cfg0.N := by rw [hN]; omega
  obtain ⟨-, -, e2, e3⟩ := block_index ⟨(i 0).val / 256, hlt⟩
  refine ⟨⟨(i 0).val / 256, hlt⟩, flush0_1 _, ?_⟩
  rw [mem_block]
  intro a
  match a with
  | ⟨0, _⟩ =>
    show win0_1.index ⟨(i 0).val / 256, hlt⟩ (0 : Fin 2) * 256 ≤ (i 0).val ∧ (i 0).val < win0_1.index ⟨(i 0).val / 256, hlt⟩ (0 : Fin 2) * 256 + 256
    rw [e2]; show (i 0).val / 256 * 256 ≤ (i 0).val ∧ (i 0).val < (i 0).val / 256 * 256 + 256; omega
  | ⟨1, _⟩ =>
    show win0_1.index ⟨(i 0).val / 256, hlt⟩ (1 : Fin 2) * 8192 ≤ (i 1).val ∧ (i 1).val < win0_1.index ⟨(i 0).val / 256, hlt⟩ (1 : Fin 2) * 8192 + 8192
    rw [e3]; omega

/-- The copy after the region: the adjacency. -/
theorem final (c : Dev nD) : (dat0 (F := Ideal) V c).arrAt 1 cfg0.N = (fun i => V c main_arg1 i) :=
  (dat0 (F := Ideal) V c).arrAt_eq_of_cover 1 (fun i => V c main_arg1 i) (fun t _ => flushed_cast V c t) cover

end Cert.KernelIdeal.Reg0

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«108744_j27797028339962_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«108744_j27797028339962_2_alg».proof.Proof.LibDenseRows
import proofs.«108744_j27797028339962_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.KPay.lean ====
/-
  What a projection body computes, one entry at a time, on the extended reals.

  The body multiplies a block of feature rows by the whole weight matrix and keeps two column ranges of the product:
  entry (p, j) of the product is the sum over k of features (p, k) times weights (k, j); the change of float format
  before and after the product is the identity on the extended reals.
-/
import proofs.«108744_j27797028339962_2_alg».proof.Proof.Gen.KernelIdeal.Skeleton
import proofs.«108744_j27797028339962_2_alg».proof.Proof.LibPlainLayers
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The projection body on [2048, 192] rows and [192, 192] weights -/

/-- The product at (p, j): the sum over k of features (p, k) times weights (k, j). -/
theorem k3_pay1_apply (x0 : FVec Ideal S2048x192 .f32) (x1 : FVec Ideal S192x192 .f32) (p : Fin 2048) (j : Fin 192) :
    k3_pay1 (F := Ideal) x0 x1 (ix2 p j) = ∑ k : Fin 192, x0 (ix2 p k) * x1 (ix2 k j) := by
  unfold k3_pay1
  rw [shapeCast_self, shapeCast_self]
  exact Cert.PlainLayers.plainMM_of_eq dot_S2048x192_S192x192_S2048x192_1_0_0_1_n_n rfl none _ _ p j

/-- The first 64 columns of the product. -/
theorem k3_pay2_apply (x0 : FVec Ideal S2048x192 .f32) (x1 : FVec Ideal S192x192 .f32) (p : Fin 2048) (j : Fin 64)
    (j' : Fin 192) (hj : j'.val = j.val) :
    k3_pay2 (F := Ideal) x0 x1 (ix2 p j) = ∑ k : Fin 192, x0 (ix2 p k) * x1 (ix2 k j') := by
  unfold k3_pay2
  refine Eq.trans ?_ (k3_pay1_apply x0 x1 p j')
  refine (truncf_apply (ψ := .bf16) _ bitsLt_bf16_f32 _).trans ?_
  refine extractStridedSlice_apply _ _ _ (ix2 p j) (ix2 p j') fun a => ?_
  match a with
  | ⟨0, _⟩ => show p.val = 0 + p.val; omega
  | ⟨1, _⟩ => show j'.val = 0 + j.val; omega

/-- The remaining 128 columns of the product. -/
theorem k3_pay3_apply (x0 : FVec Ideal S2048x192 .f32) (x1 : FVec Ideal S192x192 .f32) (p : Fin 2048) (j : Fin 128)
    (j' : Fin 192) (hj : j'.val = 64 + j.val) :
    k3_pay3 (F := Ideal) x0 x1 (ix2 p j) = ∑ k : Fin 192, x0 (ix2 p k) * x1 (ix2 k j') := by
  unfold k3_pay3
  refine Eq.trans ?_ (k3_pay1_apply x0 x1 p j')
  refine extractStridedSlice_apply _ _ _ (ix2 p j) (ix2 p j') fun a => ?_
  match a with
  | ⟨0, _⟩ => show p.val = 0 + p.val; omega
  | ⟨1, _⟩ => show j'.val = 64 + j.val; omega

/-! ## The projection body on [2048, 256] rows and [256, 192] weights -/

/-- The product at (p, j): the sum over k of features (p, k) times weights (k, j). -/
theorem k1_pay1_apply (x0 : FVec Ideal S2048x256 .f32) (x1 : FVec Ideal S256x192 .f32) (p : Fin 2048) (j : Fin 192) :
    k1_pay1 (F := Ideal) x0 x1 (ix2 p j) = ∑ k : Fin 256, x0 (ix2 p k) * x1 (ix2 k j) := by
  unfold k1_pay1
  exact Cert.PlainLayers.plainMM_of_eq dot_S2048x256_S256x192_S2048x192_1_0_0_1_n_n rfl none _ _ p j

/-- The first 64 columns of the product. -/
theorem k1_pay2_apply (x0 : FVec Ideal S2048x256 .f32) (x1 : FVec Ideal S256x192 .f32) (p : Fin 2048) (j : Fin 64)
    (j' : Fin 192) (hj : j'.val = j.val) :
    k1_pay2 (F := Ideal) x0 x1 (ix2 p j) = ∑ k : Fin 256, x0 (ix2 p k) * x1 (ix2 k j') := by
  unfold k1_pay2
  refine Eq.trans ?_ (k1_pay1_apply x0 x1 p j')
  refine (truncf_apply (ψ := .bf16) _ bitsLt_bf16_f32 _).trans ?_
  refine extractStridedSlice_apply _ _ _ (ix2 p j) (ix2 p j') fun a => ?_
  match a with
  | ⟨0, _⟩ => show p.val = 0 + p.val; omega
  | ⟨1, _⟩ => show j'.val = 0 + j.val; omega

/-- The remaining 128 columns of the product. -/
theorem k1_pay3_apply (x0 : FVec Ideal S2048x256 .f32) (x1 : FVec Ideal S256x192 .f32) (p : Fin 2048) (j : Fin 128)
    (j' : Fin 192) (hj : j'.val = 64 + j.val) :
    k1_pay3 (F := Ideal) x0 x1 (ix2 p j) = ∑ k : Fin 256, x0 (ix2 p k) * x1 (ix2 k j') := by
  unfold k1_pay3
  refine Eq.trans ?_ (k1_pay1_apply x0 x1 p j')
  refine extractStridedSlice_apply _ _ _ (ix2 p j) (ix2 p j') fun a => ?_
  match a with
  | ⟨0, _⟩ => show p.val = 0 + p.val; omega
  | ⟨1, _⟩ => show j'.val = 64 + j.val; omega

/-! ## The projection body on [2048, 192] rows and [192, 3] weights -/

/-- The product at (p, j): the sum over k of features (p, k) times weights (k, j). -/
theorem k27_pay1_apply (x0 : FVec Ideal S2048x192 .f32) (x1 : FVec Ideal S192x3 .f32) (p : Fin 2048) (j : Fin 3) :
    k27_pay1 (F := Ideal) x0 x1 (ix2 p j) = ∑ k : Fin 192, x0 (ix2 p k) * x1 (ix2 k j) := by
  unfold k27_pay1
  rw [shapeCast_self]
  exact Cert.PlainLayers.plainMM_of_eq dot_S2048x192_S192x3_S2048x3_1_0_0_1_n_n rfl none _ _ p j

/-- The first 2 columns of the product. -/
theorem k27_pay2_apply (x0 : FVec Ideal S2048x192 .f32) (x1 : FVec Ideal S192x3 .f32) (p : Fin 2048) (j : Fin 2)
    (j' : Fin 3) (hj : j'.val = j.val) :
    k27_pay2 (F := Ideal) x0 x1 (ix2 p j) = ∑ k : Fin 192, x0 (ix2 p k) * x1 (ix2 k j') := by
  unfold k27_pay2
  refine Eq.trans ?_ (k27_pay1_apply x0 x1 p j')
  refine (truncf_apply (ψ := .bf16) _ bitsLt_bf16_f32 _).trans ?_
  refine extractStridedSlice_apply _ _ _ (ix2 p j) (ix2 p j') fun a => ?_
  match a with
  | ⟨0, _⟩ => show p.val = 0 + p.val; omega
  | ⟨1, _⟩ => show j'.val = 0 + j.val; omega

/-- The remaining 1 columns of the product. -/
theorem k27_pay3_apply (x0 : FVec Ideal S2048x192 .f32) (x1 : FVec Ideal S192x3 .f32) (p : Fin 2048) (j : Fin 1)
    (j' : Fin 3) (hj : j'.val = 2 + j.val) :
    k27_pay3 (F := Ideal) x0 x1 (ix2 p j) = ∑ k : Fin 192, x0 (ix2 p k) * x1 (ix2 k j') := by
  unfold k27_pay3
  refine Eq.trans ?_ (k27_pay1_apply x0 x1 p j')
  refine extractStridedSlice_apply _ _ _ (ix2 p j) (ix2 p j') fun a => ?_
  match a with
  | ⟨0, _⟩ => show p.val = 0 + p.val; omega
  | ⟨1, _⟩ => show j'.val = 2 + j.val; omega

/-! ## The twelve projection regions on [2048, 192] rows share one body -/

/-- Region 5's body is the same term. -/
theorem k5_pay2_apply (x0 : FVec Ideal S2048x192 .f32) (x1 : FVec Ideal S192x192 .f32) (p : Fin 2048) (j : Fin 64)
    (j' : Fin 192) (hj : j'.val = j.val) :
    k5_pay2 (F := Ideal) x0 x1 (ix2 p j) = ∑ k : Fin 192, x0 (ix2 p k) * x1 (ix2 k j') :=
  k3_pay2_apply x0 x1 p j j' hj
theorem k5_pay3_apply (x0 : FVec Ideal S2048x192 .f32) (x1 : FVec Ideal S192x192 .f32) (p : Fin 2048) (j : Fin 128)
    (j' : Fin 192) (hj : j'.val = 64 + j.val) :
    k5_pay3 (F := Ideal) x0 x1 (ix2 p j) = ∑ k : Fin 192, x0 (ix2 p k) * x1 (ix2 k j') :=
  k3_pay3_apply x0 x1 p j j' hj

/-- Region 7's body is the same term. -/
theorem k7_pay2_apply (x0 : FVec Ideal S2048x192 .f32) (x1 : FVec Ideal S192x192 .f32) (p : Fin 2048) (j : Fin 64)
    (j' : Fin 192) (hj : j'.val = j.val) :
    k7_pay2 (F := Ideal) x0 x1 (ix2 p j) = ∑ k : Fin 192, x0 (ix2 p k) * x1 (ix2 k j') :=
  k3_pay2_apply x0 x1 p j j' hj
theorem k7_pay3_apply (x0 : FVec Ideal S2048x192 .f32) (x1 : FVec Ideal S192x192 .f32) (p : Fin 2048) (j : Fin 128)
    (j' : Fin 192) (hj : j'.val = 64 + j.val) :
    k7_pay3 (F := Ideal) x0 x1 (ix2 p j) = ∑ k : Fin 192, x0 (ix2 p k) * x1 (ix2 k j') :=
  k3_pay3_apply x0 x1 p j j' hj

/-- Region 9's body is the same term. -/
theorem k9_pay2_apply (x0 : FVec Ideal S2048x192 .f32) (x1 : FVec Ideal S192x192 .f32) (p : Fin 2048) (j : Fin 64)
    (j' : Fin 192) (hj : j'.val = j.val) :
    k9_pay2 (F := Ideal) x0 x1 (ix2 p j) = ∑ k : Fin 192, x0 (ix2 p k) * x1 (ix2 k j') :=
  k3_pay2_apply x0 x1 p j j' hj
theorem k9_pay3_apply (x0 : FVec Ideal S2048x192 .f32) (x1 : FVec Ideal S192x192 .f32) (p : Fin 2048) (j : Fin 128)
    (j' : Fin 192) (hj : j'.val = 64 + j.val) :
    k9_pay3 (F := Ideal) x0 x1 (ix2 p j) = ∑ k : Fin 192, x0 (ix2 p k) * x1 (ix2 k j') :=
  k3_pay3_apply x0 x1 p j j' hj

/-- Region 11's body is the same term. -/
theorem k11_pay2_apply (x0 : FVec Ideal S2048x192 .f32) (x1 : FVec Ideal S192x192 .f32) (p : Fin 2048) (j : Fin 64)
    (j' : Fin 192) (hj : j'.val = j.val) :
    k11_pay2 (F := Ideal) x0 x1 (ix2 p j) = ∑ k : Fin 192, x0 (ix2 p k) * x1 (ix2 k j') :=
  k3_pay2_apply x0 x1 p j j' hj
theorem k11_pay3_apply (x0 : FVec Ideal S2048x192 .f32) (x1 : FVec Ideal S192x192 .f32) (p : Fin 2048) (j : Fin 128)
    (j' : Fin 192) (hj : j'.val = 64 + j.val) :
    k11_pay3 (F := Ideal) x0 x1 (ix2 p j) = ∑ k : Fin 192, x0 (ix2 p k) * x1 (ix2 k j') :=
  k3_pay3_apply x0 x1 p j j' hj

/-- Region 13's body is the same term. -/
theorem k13_pay2_apply (x0 : FVec Ideal S2048x192 .f32) (x1 : FVec Ideal S192x192 .f32) (p : Fin 2048) (j : Fin 64)
    (j' : Fin 192) (hj : j'.val = j.val) :
    k13_pay2 (F := Ideal) x0 x1 (ix2 p j) = ∑ k : Fin 192, x0 (ix2 p k) * x1 (ix2 k j') :=
  k3_pay2_apply x0 x1 p j j' hj
theorem k13_pay3_apply (x0 : FVec Ideal S2048x192 .f32) (x1 : FVec Ideal S192x192 .f32) (p : Fin 2048) (j : Fin 128)
    (j' : Fin 192) (hj : j'.val = 64 + j.val) :
    k13_pay3 (F := Ideal) x0 x1 (ix2 p j) = ∑ k : Fin 192, x0 (ix2 p k) * x1 (ix2 k j') :=
  k3_pay3_apply x0 x1 p j j' hj

/-- Region 15's body is the same term. -/
theorem k15_pay2_apply (x0 : FVec Ideal S2048x192 .f32) (x1 : FVec Ideal S192x192 .f32) (p : Fin 2048) (j : Fin 64)
    (j' : Fin 192) (hj : j'.val = j.val) :
    k15_pay2 (F := Ideal) x0 x1 (ix2 p j) = ∑ k : Fin 192, x0 (ix2 p k) * x1 (ix2 k j') :=
  k3_pay2_apply x0 x1 p j j' hj
theorem k15_pay3_apply (x0 : FVec Ideal S2048x192 .f32) (x1 : FVec Ideal S192x192 .f32) (p : Fin 2048) (j : Fin 128)
    (j' : Fin 192) (hj : j'.val = 64 + j.val) :
    k15_pay3 (F := Ideal) x0 x1 (ix2 p j) = ∑ k : Fin 192, x0 (ix2 p k) * x1 (ix2 k j') :=
  k3_pay3_apply x0 x1 p j j' hj

/-- Region 17's body is the same term. -/
theorem k17_pay2_apply (x0 : FVec Ideal S2048x192 .f32) (x1 : FVec Ideal S192x192 .f32) (p : Fin 2048) (j : Fin 64)
    (j' : Fin 192) (hj : j'.val = j.val) :
    k17_pay2 (F := Ideal) x0 x1 (ix2 p j) = ∑ k : Fin 192, x0 (ix2 p k) * x1 (ix2 k j') :=
  k3_pay2_apply x0 x1 p j j' hj
theorem k17_pay3_apply (x0 : FVec Ideal S2048x192 .f32) (x1 : FVec Ideal S192x192 .f32) (p : Fin 2048) (j : Fin 128)
    (j' : Fin 192) (hj : j'.val = 64 + j.val) :
    k17_pay3 (F := Ideal) x0 x1 (ix2 p j) = ∑ k : Fin 192, x0 (ix2 p k) * x1 (ix2 k j') :=
  k3_pay3_apply x0 x1 p j j' hj

/-- Region 19's body is the same term. -/
theorem k19_pay2_apply (x0 : FVec Ideal S2048x192 .f32) (x1 : FVec Ideal S192x192 .f32) (p : Fin 2048) (j : Fin 64)
    (j' : Fin 192) (hj : j'.val = j.val) :
    k19_pay2 (F := Ideal) x0 x1 (ix2 p j) = ∑ k : Fin 192, x0 (ix2 p k) * x1 (ix2 k j') :=
  k3_pay2_apply x0 x1 p j j' hj
theorem k19_pay3_apply (x0 : FVec Ideal S2048x192 .f32) (x1 : FVec Ideal S192x192 .f32) (p : Fin 2048) (j : Fin 128)
    (j' : Fin 192) (hj : j'.val = 64 + j.val) :
    k19_pay3 (F := Ideal) x0 x1 (ix2 p j) = ∑ k : Fin 192, x0 (ix2 p k) * x1 (ix2 k j') :=
  k3_pay3_apply x0 x1 p j j' hj

/-- Region 21's body is the same term. -/
theorem k21_pay2_apply (x0 : FVec Ideal S2048x192 .f32) (x1 : FVec Ideal S192x192 .f32) (p : Fin 2048) (j : Fin 64)
    (j' : Fin 192) (hj : j'.val = j.val) :
    k21_pay2 (F := Ideal) x0 x1 (ix2 p j) = ∑ k : Fin 192, x0 (ix2 p k) * x1 (ix2 k j') :=
  k3_pay2_apply x0 x1 p j j' hj
theorem k21_pay3_apply (x0 : FVec Ideal S2048x192 .f32) (x1 : FVec Ideal S192x192 .f32) (p : Fin 2048) (j : Fin 128)
    (j' : Fin 192) (hj : j'.val = 64 + j.val) :
    k21_pay3 (F := Ideal) x0 x1 (ix2 p j) = ∑ k : Fin 192, x0 (ix2 p k) * x1 (ix2 k j') :=
  k3_pay3_apply x0 x1 p j j' hj

/-- Region 23's body is the same term. -/
theorem k23_pay2_apply (x0 : FVec Ideal S2048x192 .f32) (x1 : FVec Ideal S192x192 .f32) (p : Fin 2048) (j : Fin 64)
    (j' : Fin 192) (hj : j'.val = j.val) :
    k23_pay2 (F := Ideal) x0 x1 (ix2 p j) = ∑ k : Fin 192, x0 (ix2 p k) * x1 (ix2 k j') :=
  k3_pay2_apply x0 x1 p j j' hj
theorem k23_pay3_apply (x0 : FVec Ideal S2048x192 .f32) (x1 : FVec Ideal S192x192 .f32) (p : Fin 2048) (j : Fin 128)
    (j' : Fin 192) (hj : j'.val = 64 + j.val) :
    k23_pay3 (F := Ideal) x0 x1 (ix2 p j) = ∑ k : Fin 192, x0 (ix2 p k) * x1 (ix2 k j') :=
  k3_pay3_apply x0 x1 p j j' hj

/-- Region 25's body is the same term. -/
theorem k25_pay2_apply (x0 : FVec Ideal S2048x192 .f32) (x1 : FVec Ideal S192x192 .f32) (p : Fin 2048) (j : Fin 64)
    (j' : Fin 192) (hj : j'.val = j.val) :
    k25_pay2 (F := Ideal) x0 x1 (ix2 p j) = ∑ k : Fin 192, x0 (ix2 p k) * x1 (ix2 k j') :=
  k3_pay2_apply x0 x1 p j j' hj
theorem k25_pay3_apply (x0 : FVec Ideal S2048x192 .f32) (x1 : FVec Ideal S192x192 .f32) (p : Fin 2048) (j : Fin 128)
    (j' : Fin 192) (hj : j'.val = 64 + j.val) :
    k25_pay3 (F := Ideal) x0 x1 (ix2 p j) = ∑ k : Fin 192, x0 (ix2 p k) * x1 (ix2 k j') :=
  k3_pay3_apply x0 x1 p j j' hj

end Cert.KernelIdeal.Pay

end
-- ==== Proof.KReg1.lean ====
/-
  Region 1: the projection. Each of the 4 grid points multiplies 2048 rows of the features [8192, 256] by the whole
  weight matrix [256, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg1

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row p of the feature block at point t is row 2048 t + p of the features. -/
theorem features_block (c : Dev nD) (t : Fin cfg1.N) (p : Fin 2048) (k : Fin 256) :
    (iblk1 V c 0 t : FVec Ideal S2048x256 .f32) (ix2 p k) = rd2 (V c main_arg0 : Arr2 8192 256) (t.val * 2048 + p.val) k.val := by
  obtain ⟨e0, e1, -⟩ := block_index t
  have hN : cfg1.N = 4 := N_1
  have ht : t.val < cfg1.N := t.isLt
  have hp : t.val * 2048 + p.val < 8192 := by omega
  rw [rd2_of_lt _ hp k.isLt]
  unfold iblk1
  rw [View.read_apply]
  show V c main_arg0 _ = V c main_arg0 _
  congr 1
  funext a
  apply Fin.ext
  match a with
  | ⟨0, _⟩ => show win1_0.index t (0 : Fin 2) * 2048 + 1 * p.val = t.val * 2048 + p.val; rw [e0]; omega
  | ⟨1, _⟩ => show win1_0.index t (1 : Fin 2) * 256 + 1 * k.val = k.val; rw [e1]; omega

/-- The weight block at every point is the whole weight matrix. -/
theorem weights_block (c : Dev nD) (t : Fin cfg1.N) (k : Fin 256) (j : Fin 192) :
    (iblk1 V c 1 t : FVec Ideal S256x192 .f32) (ix2 k j) = rd2 (V c main_arg2 : Arr2 256 192) k.val j.val := by
  obtain ⟨-, -, e2, e3, -⟩ := block_index t
  rw [rd2_ix2]
  unfold iblk1
  rw [View.read_apply]
  show V c main_arg2 _ = V c main_arg2 _
  congr 1
  funext a
  apply Fin.ext
  match a with
  | ⟨0, _⟩ => show win1_1.index t (0 : Fin 2) * 256 + 1 * k.val = k.val; rw [e2]; omega
  | ⟨1, _⟩ => show win1_1.index t (1 : Fin 2) * 192 + 1 * j.val = j.val; rw [e3]; omega

/-! ## The first 64 columns -/

/-- One entry of what a point computes for the first result, against the support's entry it lands on. -/
theorem agg_point (X : Arr2 8192 256) (W : Arr2 256 192) (x0 : FVec Ideal S2048x256 .f32) (x1 : FVec Ideal S256x192 .f32) (T : ℕ)
    (h0 : ∀ (p : Fin 2048) (k : Fin 256), x0 (ix2 p k) = rd2 X (T * 2048 + p.val) k.val)
    (h1 : ∀ (k : Fin 256) (j : Fin 192), x1 (ix2 k j) = rd2 W k.val j.val)
    (j : S2048x64.Idx) (i : S8192x64.Idx) (hi0 : (i 0).val = T * 2048 + (j 0).val) (hi1 : (i 1).val = (j 1).val) :
    k1_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k1_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg1.N) :
    (dat1 (F := Ideal) V c).flushed 2 t
      = ((cfg1.win 2).blk t).view.read (Elt Ideal) (supAgg (M := 8192) (K := 256) (N := 192) 64 (V c main_arg0) (V c main_arg2)) := by
  show (cfg1.win 2).cut (grid1.coords t) ((dat1 V c).after 2 t) = _
  rw [after1_2]
  unfold out1_2
  rw [View.canon_unit_zero zero_offsets]
  simp only [View.ld_unit_zero (S := S2048x256) zero_offsets, View.ld_unit_zero (S := S256x192) zero_offsets]
  obtain ⟨-, -, -, -, e4, e5, -⟩ := block_index t
  funext j
  refine agg_point (V c main_arg0) (V c main_arg2) (iblk1 V c 0 t) (iblk1 V c 1 t) t.val
    (features_block V c t) (weights_block V c t) j (((cfg1.win 2).blk t).view.emb j) ?_ ?_
  · show win1_2.index t (0 : Fin 2) * 2048 + 1 * (j 0).val = t.val * 2048 + (j 0).val; rw [e4]; omega
  · show win1_2.index t (1 : Fin 2) * 64 + 1 * (j 1).val = (j 1).val; rw [e5]; omega

/-- An index is in point t's block of the first result iff each coordinate is in the block's range on its axis. -/
theorem mem_block_agg (t : Fin cfg1.N) (i : S8192x64.Idx) :
    i ∈ ((cfg1.win 2).blk t).view.set ↔ ∀ a : Fin 2, win1_2.index t a * S2048x64.size a ≤ (i a).val ∧ (i a).val < win1_2.index t a * S2048x64.size a + S2048x64.size a := by
  show i ∈ ((View.whole main_v1_0).slice (win1_2.rect t)).set ↔ _
  rw [View.set_slice_whole, Rect.mem_set_unit]
  exact Iff.rfl

/-- Row r of the first result is in the block of point r / 2048. -/
theorem cover_agg (i : S8192x64.Idx) : ∃ t : Fin cfg1.N, (cfg1.win 2).flush t = true ∧ i ∈ ((cfg1.win 2).blk t).view.set := by
  have hi0 : (i 0).val < 8192 := (i 0).isLt
  have hi1 : (i 1).val < 64 := (i 1).isLt
  have hN : cfg1.N = 4 := N_1
  have hlt : (i 0).val / 2048 < cfg1.N := by rw [hN]; omega
  obtain ⟨-, -, -, -, e4, e5, -⟩ := block_index ⟨(i 0).val / 2048, hlt⟩
  refine ⟨⟨(i 0).val / 2048, hlt⟩, flush1_2 _, ?_⟩
  rw [mem_block_agg]
  intro a
  match a with
  | ⟨0, _⟩ =>
    show win1_2.index ⟨(i 0).val / 2048, hlt⟩ (0 : Fin 2) * 2048 ≤ (i 0).val ∧ (i 0).val < win1_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win1_2.index ⟨(i 0).val / 2048, hlt⟩ (1 : Fin 2) * 64 ≤ (i 1).val ∧ (i 1).val < win1_2.index ⟨(i 0).val / 2048, hlt⟩ (1 : Fin 2) * 64 + 64
    rw [e5]; omega

/-- The first result after the region: the first 64 columns of the support. -/
theorem final_agg (c : Dev nD) :
    (dat1 (F := Ideal) V c).arrAt 2 cfg1.N = supAgg (M := 8192) (K := 256) (N := 192) 64 (V c main_arg0) (V c main_arg2) :=
  (dat1 (F := Ideal) V c).arrAt_eq_of_cover 2 _ (fun t _ => flushed_agg V c t) cover_agg

/-! ## The remaining 128 columns -/

/-- One entry of what a point computes for the second result, against the support's entry it lands on. -/
theorem pass_point (X : Arr2 8192 256) (W : Arr2 256 192) (x0 : FVec Ideal S2048x256 .f32) (x1 : FVec Ideal S256x192 .f32) (T : ℕ)
    (h0 : ∀ (p : Fin 2048) (k : Fin 256), x0 (ix2 p k) = rd2 X (T * 2048 + p.val) k.val)
    (h1 : ∀ (k : Fin 256) (j : Fin 192), x1 (ix2 k j) = rd2 W k.val j.val)
    (j : S2048x128.Idx) (i : S8192x128.Idx) (hi0 : (i 0).val = T * 2048 + (j 0).val) (hi1 : (i 1).val = (j 1).val) :
    k1_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k1_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg1.N) :
    (dat1 (F := Ideal) V c).flushed 3 t
      = ((cfg1.win 3).blk t).view.read (Elt Ideal) (supPass (M := 8192) (K := 256) (N := 192) 64 128 (V c main_arg0) (V c main_arg2)) := by
  show (cfg1.win 3).cut (grid1.coords t) ((dat1 V c).after 3 t) = _
  rw [after1_3]
  unfold out1_3
  rw [View.canon_unit_zero zero_offsets]
  simp only [View.ld_unit_zero (S := S2048x256) zero_offsets, View.ld_unit_zero (S := S256x192) zero_offsets]
  obtain ⟨-, -, -, -, -, -, e6, e7⟩ := block_index t
  funext j
  refine pass_point (V c main_arg0) (V c main_arg2) (iblk1 V c 0 t) (iblk1 V c 1 t) t.val
    (features_block V c t) (weights_block V c t) j (((cfg1.win 3).blk t).view.emb j) ?_ ?_
  · show win1_3.index t (0 : Fin 2) * 2048 + 1 * (j 0).val = t.val * 2048 + (j 0).val; rw [e6]; omega
  · show win1_3.index t (1 : Fin 2) * 128 + 1 * (j 1).val = (j 1).val; rw [e7]; omega

/-- An index is in point t's block of the second result iff each coordinate is in the block's range on its axis. -/
theorem mem_block_pass (t : Fin cfg1.N) (i : S8192x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v1_1).slice (win1_3.rect t)).set ↔ _
  rw [View.set_slice_whole, Rect.mem_set_unit]
  exact Iff.rfl

/-- Row r of the second result is in the block of point r / 2048. -/
theorem cover_pass (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  have hN : cfg1.N = 4 := N_1
  have hlt : (i 0).val / 2048 < cfg1.N := by rw [hN]; omega
  obtain ⟨-, -, -, -, -, -, e6, e7⟩ := block_index ⟨(i 0).val / 2048, hlt⟩
  refine ⟨⟨(i 0).val / 2048, hlt⟩, flush1_3 _, ?_⟩
  rw [mem_block_pass]
  intro a
  match a with
  | ⟨0, _⟩ =>
    show win1_3.index ⟨(i 0).val / 2048, hlt⟩ (0 : Fin 2) * 2048 ≤ (i 0).val ∧ (i 0).val < win1_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win1_3.index ⟨(i 0).val / 2048, hlt⟩ (1 : Fin 2) * 128 ≤ (i 1).val ∧ (i 1).val < win1_3.index ⟨(i 0).val / 2048, hlt⟩ (1 : Fin 2) * 128 + 128
    rw [e7]; omega

/-- The second result after the region: the remaining 128 columns of the support. -/
theorem final_pass (c : Dev nD) :
    (dat1 (F := Ideal) V c).arrAt 3 cfg1.N = supPass (M := 8192) (K := 256) (N := 192) 64 128 (V c main_arg0) (V c main_arg2) :=
  (dat1 (F := Ideal) V c).arrAt_eq_of_cover 3 _ (fun t _ => flushed_pass V c t) cover_pass

end Cert.KernelIdeal.Reg1

end
-- ==== Proof.KReg3.lean ====
/-
  Region 3: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg3

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row p of the feature block at point t is row 2048 t + p of the features. -/
theorem features_block (c : Dev nD) (t : Fin cfg3.N) (p : Fin 2048) (k : Fin 192) :
    (iblk3 V c 0 t : FVec Ideal S2048x192 .f32) (ix2 p k) = rd2 (V c main_v6 : Arr2 8192 192) (t.val * 2048 + p.val) k.val := by
  obtain ⟨e0, e1, -⟩ := block_index t
  have hN : cfg3.N = 4 := N_3
  have ht : t.val < cfg3.N := t.isLt
  have hp : t.val * 2048 + p.val < 8192 := by omega
  rw [rd2_of_lt _ hp k.isLt]
  unfold iblk3
  rw [View.read_apply]
  show V c main_v6 _ = V c main_v6 _
  congr 1
  funext a
  apply Fin.ext
  match a with
  | ⟨0, _⟩ => show win3_0.index t (0 : Fin 2) * 2048 + 1 * p.val = t.val * 2048 + p.val; rw [e0]; omega
  | ⟨1, _⟩ => show win3_0.index t (1 : Fin 2) * 192 + 1 * k.val = k.val; rw [e1]; omega

/-- The weight block at every point is the whole weight matrix. -/
theorem weights_block (c : Dev nD) (t : Fin cfg3.N) (k : Fin 192) (j : Fin 192) :
    (iblk3 V c 1 t : FVec Ideal S192x192 .f32) (ix2 k j) = rd2 (V c main_v8 : Arr2 192 192) k.val j.val := by
  obtain ⟨-, -, e2, e3, -⟩ := block_index t
  rw [rd2_ix2]
  unfold iblk3
  rw [View.read_apply]
  show V c main_v8 _ = V c main_v8 _
  congr 1
  funext a
  apply Fin.ext
  match a with
  | ⟨0, _⟩ => show win3_1.index t (0 : Fin 2) * 192 + 1 * k.val = k.val; rw [e2]; omega
  | ⟨1, _⟩ => show win3_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k3_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k3_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg3.N) :
    (dat3 (F := Ideal) V c).flushed 2 t
      = ((cfg3.win 2).blk t).view.read (Elt Ideal) (supAgg (M := 8192) (K := 192) (N := 192) 64 (V c main_v6) (V c main_v8)) := by
  show (cfg3.win 2).cut (grid3.coords t) ((dat3 V c).after 2 t) = _
  rw [after3_2]
  unfold out3_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v6) (V c main_v8) (iblk3 V c 0 t) (iblk3 V c 1 t) t.val
    (features_block V c t) (weights_block V c t) j (((cfg3.win 2).blk t).view.emb j) ?_ ?_
  · show win3_2.index t (0 : Fin 2) * 2048 + 1 * (j 0).val = t.val * 2048 + (j 0).val; rw [e4]; omega
  · show win3_2.index t (1 : Fin 2) * 64 + 1 * (j 1).val = (j 1).val; rw [e5]; omega

/-- An index is in point t's block of the first result iff each coordinate is in the block's range on its axis. -/
theorem mem_block_agg (t : Fin cfg3.N) (i : S8192x64.Idx) :
    i ∈ ((cfg3.win 2).blk t).view.set ↔ ∀ a : Fin 2, win3_2.index t a * S2048x64.size a ≤ (i a).val ∧ (i a).val < win3_2.index t a * S2048x64.size a + S2048x64.size a := by
  show i ∈ ((View.whole main_v11_0).slice (win3_2.rect t)).set ↔ _
  rw [View.set_slice_whole, Rect.mem_set_unit]
  exact Iff.rfl

/-- Row r of the first result is in the block of point r / 2048. -/
theorem cover_agg (i : S8192x64.Idx) : ∃ t : Fin cfg3.N, (cfg3.win 2).flush t = true ∧ i ∈ ((cfg3.win 2).blk t).view.set := by
  have hi0 : (i 0).val < 8192 := (i 0).isLt
  have hi1 : (i 1).val < 64 := (i 1).isLt
  have hN : cfg3.N = 4 := N_3
  have hlt : (i 0).val / 2048 < cfg3.N := by rw [hN]; omega
  obtain ⟨-, -, -, -, e4, e5, -⟩ := block_index ⟨(i 0).val / 2048, hlt⟩
  refine ⟨⟨(i 0).val / 2048, hlt⟩, flush3_2 _, ?_⟩
  rw [mem_block_agg]
  intro a
  match a with
  | ⟨0, _⟩ =>
    show win3_2.index ⟨(i 0).val / 2048, hlt⟩ (0 : Fin 2) * 2048 ≤ (i 0).val ∧ (i 0).val < win3_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win3_2.index ⟨(i 0).val / 2048, hlt⟩ (1 : Fin 2) * 64 ≤ (i 1).val ∧ (i 1).val < win3_2.index ⟨(i 0).val / 2048, hlt⟩ (1 : Fin 2) * 64 + 64
    rw [e5]; omega

/-- The first result after the region: the first 64 columns of the support. -/
theorem final_agg (c : Dev nD) :
    (dat3 (F := Ideal) V c).arrAt 2 cfg3.N = supAgg (M := 8192) (K := 192) (N := 192) 64 (V c main_v6) (V c main_v8) :=
  (dat3 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k3_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k3_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg3.N) :
    (dat3 (F := Ideal) V c).flushed 3 t
      = ((cfg3.win 3).blk t).view.read (Elt Ideal) (supPass (M := 8192) (K := 192) (N := 192) 64 128 (V c main_v6) (V c main_v8)) := by
  show (cfg3.win 3).cut (grid3.coords t) ((dat3 V c).after 3 t) = _
  rw [after3_3]
  unfold out3_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v6) (V c main_v8) (iblk3 V c 0 t) (iblk3 V c 1 t) t.val
    (features_block V c t) (weights_block V c t) j (((cfg3.win 3).blk t).view.emb j) ?_ ?_
  · show win3_3.index t (0 : Fin 2) * 2048 + 1 * (j 0).val = t.val * 2048 + (j 0).val; rw [e6]; omega
  · show win3_3.index t (1 : Fin 2) * 128 + 1 * (j 1).val = (j 1).val; rw [e7]; omega

/-- An index is in point t's block of the second result iff each coordinate is in the block's range on its axis. -/
theorem mem_block_pass (t : Fin cfg3.N) (i : S8192x128.Idx) :
    i ∈ ((cfg3.win 3).blk t).view.set ↔ ∀ a : Fin 2, win3_3.index t a * S2048x128.size a ≤ (i a).val ∧ (i a).val < win3_3.index t a * S2048x128.size a + S2048x128.size a := by
  show i ∈ ((View.whole main_v11_1).slice (win3_3.rect t)).set ↔ _
  rw [View.set_slice_whole, Rect.mem_set_unit]
  exact Iff.rfl

/-- Row r of the second result is in the block of point r / 2048. -/
theorem cover_pass (i : S8192x128.Idx) : ∃ t : Fin cfg3.N, (cfg3.win 3).flush t = true ∧ i ∈ ((cfg3.win 3).blk t).view.set := by
  have hi0 : (i 0).val < 8192 := (i 0).isLt
  have hi1 : (i 1).val < 128 := (i 1).isLt
  have hN : cfg3.N = 4 := N_3
  have hlt : (i 0).val / 2048 < cfg3.N := by rw [hN]; omega
  obtain ⟨-, -, -, -, -, -, e6, e7⟩ := block_index ⟨(i 0).val / 2048, hlt⟩
  refine ⟨⟨(i 0).val / 2048, hlt⟩, flush3_3 _, ?_⟩
  rw [mem_block_pass]
  intro a
  match a with
  | ⟨0, _⟩ =>
    show win3_3.index ⟨(i 0).val / 2048, hlt⟩ (0 : Fin 2) * 2048 ≤ (i 0).val ∧ (i 0).val < win3_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win3_3.index ⟨(i 0).val / 2048, hlt⟩ (1 : Fin 2) * 128 ≤ (i 1).val ∧ (i 1).val < win3_3.index ⟨(i 0).val / 2048, hlt⟩ (1 : Fin 2) * 128 + 128
    rw [e7]; omega

/-- The second result after the region: the remaining 128 columns of the support. -/
theorem final_pass (c : Dev nD) :
    (dat3 (F := Ideal) V c).arrAt 3 cfg3.N = supPass (M := 8192) (K := 192) (N := 192) 64 128 (V c main_v6) (V c main_v8) :=
  (dat3 (F := Ideal) V c).arrAt_eq_of_cover 3 _ (fun t _ => flushed_pass V c t) cover_pass

end Cert.KernelIdeal.Reg3

end
-- ==== Proof.KReg5.lean ====
/-
  Region 5: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg5

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- Row p of the feature block at point t is row 2048 t + p of the features. -/
theorem features_block (c : Dev nD) (t : Fin cfg5.N) (p : Fin 2048) (k : Fin 192) :
    (iblk5 V c 0 t : FVec Ideal S2048x192 .f32) (ix2 p k) = rd2 (V c main_v20 : Arr2 8192 192) (t.val * 2048 + p.val) k.val := by
  obtain ⟨e0, e1, -⟩ := block_index t
  have hN : cfg5.N = 4 := N_5
  have ht : t.val < cfg5.N := t.isLt
  have hp : t.val * 2048 + p.val < 8192 := by omega
  rw [rd2_of_lt _ hp k.isLt]
  unfold iblk5
  rw [View.read_apply]
  show V c main_v20 _ = V c main_v20 _
  congr 1
  funext a
  apply Fin.ext
  match a with
  | ⟨0, _⟩ => show win5_0.index t (0 : Fin 2) * 2048 + 1 * p.val = t.val * 2048 + p.val; rw [e0]; omega
  | ⟨1, _⟩ => show win5_0.index t (1 : Fin 2) * 192 + 1 * k.val = k.val; rw [e1]; omega

/-- The weight block at every point is the whole weight matrix. -/
theorem weights_block (c : Dev nD) (t : Fin cfg5.N) (k : Fin 192) (j : Fin 192) :
    (iblk5 V c 1 t : FVec Ideal S192x192 .f32) (ix2 k j) = rd2 (V c main_v22 : Arr2 192 192) k.val j.val := by
  obtain ⟨-, -, e2, e3, -⟩ := block_index t
  rw [rd2_ix2]
  unfold iblk5
  rw [View.read_apply]
  show V c main_v22 _ = V c main_v22 _
  congr 1
  funext a
  apply Fin.ext
  match a with
  | ⟨0, _⟩ => show win5_1.index t (0 : Fin 2) * 192 + 1 * k.val = k.val; rw [e2]; omega
  | ⟨1, _⟩ => show win5_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k5_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k5_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg5.N) :
    (dat5 (F := Ideal) V c).flushed 2 t
      = ((cfg5.win 2).blk t).view.read (Elt Ideal) (supAgg (M := 8192) (K := 192) (N := 192) 64 (V c main_v20) (V c main_v22)) := by
  show (cfg5.win 2).cut (grid5.coords t) ((dat5 V c).after 2 t) = _
  rw [after5_2]
  unfold out5_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v20) (V c main_v22) (iblk5 V c 0 t) (iblk5 V c 1 t) t.val
    (features_block V c t) (weights_block V c t) j (((cfg5.win 2).blk t).view.emb j) ?_ ?_
  · show win5_2.index t (0 : Fin 2) * 2048 + 1 * (j 0).val = t.val * 2048 + (j 0).val; rw [e4]; omega
  · show win5_2.index t (1 : Fin 2) * 64 + 1 * (j 1).val = (j 1).val; rw [e5]; omega

/-- An index is in point t's block of the first result iff each coordinate is in the block's range on its axis. -/
theorem mem_block_agg (t : Fin cfg5.N) (i : S8192x64.Idx) :
    i ∈ ((cfg5.win 2).blk t).view.set ↔ ∀ a : Fin 2, win5_2.index t a * S2048x64.size a ≤ (i a).val ∧ (i a).val < win5_2.index t a * S2048x64.size a + S2048x64.size a := by
  show i ∈ ((View.whole main_v25_0).slice (win5_2.rect t)).set ↔ _
  rw [View.set_slice_whole, Rect.mem_set_unit]
  exact Iff.rfl

/-- Row r of the first result is in the block of point r / 2048. -/
theorem cover_agg (i : S8192x64.Idx) : ∃ t : Fin cfg5.N, (cfg5.win 2).flush t = true ∧ i ∈ ((cfg5.win 2).blk t).view.set := by
  have hi0 : (i 0).val < 8192 := (i 0).isLt
  have hi1 : (i 1).val < 64 := (i 1).isLt
  have hN : cfg5.N = 4 := N_5
  have hlt : (i 0).val / 2048 < cfg5.N := by rw [hN]; omega
  obtain ⟨-, -, -, -, e4, e5, -⟩ := block_index ⟨(i 0).val / 2048, hlt⟩
  refine ⟨⟨(i 0).val / 2048, hlt⟩, flush5_2 _, ?_⟩
  rw [mem_block_agg]
  intro a
  match a with
  | ⟨0, _⟩ =>
    show win5_2.index ⟨(i 0).val / 2048, hlt⟩ (0 : Fin 2) * 2048 ≤ (i 0).val ∧ (i 0).val < win5_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win5_2.index ⟨(i 0).val / 2048, hlt⟩ (1 : Fin 2) * 64 ≤ (i 1).val ∧ (i 1).val < win5_2.index ⟨(i 0).val / 2048, hlt⟩ (1 : Fin 2) * 64 + 64
    rw [e5]; omega

/-- The first result after the region: the first 64 columns of the support. -/
theorem final_agg (c : Dev nD) :
    (dat5 (F := Ideal) V c).arrAt 2 cfg5.N = supAgg (M := 8192) (K := 192) (N := 192) 64 (V c main_v20) (V c main_v22) :=
  (dat5 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k5_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k5_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg5.N) :
    (dat5 (F := Ideal) V c).flushed 3 t
      = ((cfg5.win 3).blk t).view.read (Elt Ideal) (supPass (M := 8192) (K := 192) (N := 192) 64 128 (V c main_v20) (V c main_v22)) := by
  show (cfg5.win 3).cut (grid5.coords t) ((dat5 V c).after 3 t) = _
  rw [after5_3]
  unfold out5_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v20) (V c main_v22) (iblk5 V c 0 t) (iblk5 V c 1 t) t.val
    (features_block V c t) (weights_block V c t) j (((cfg5.win 3).blk t).view.emb j) ?_ ?_
  · show win5_3.index t (0 : Fin 2) * 2048 + 1 * (j 0).val = t.val * 2048 + (j 0).val; rw [e6]; omega
  · show win5_3.index t (1 : Fin 2) * 128 + 1 * (j 1).val = (j 1).val; rw [e7]; omega

/-- An index is in point t's block of the second result iff each coordinate is in the block's range on its axis. -/
theorem mem_block_pass (t : Fin cfg5.N) (i : S8192x128.Idx) :
    i ∈ ((cfg5.win 3).blk t).view.set ↔ ∀ a : Fin 2, win5_3.index t a * S2048x128.size a ≤ (i a).val ∧ (i a).val < win5_3.index t a * S2048x128.size a + S2048x128.size a := by
  show i ∈ ((View.whole main_v25_1).slice (win5_3.rect t)).set ↔ _
  rw [View.set_slice_whole, Rect.mem_set_unit]
  exact Iff.rfl

/-- Row r of the second result is in the block of point r / 2048. -/
theorem cover_pass (i : S8192x128.Idx) : ∃ t : Fin cfg5.N, (cfg5.win 3).flush t = true ∧ i ∈ ((cfg5.win 3).blk t).view.set := by
  have hi0 : (i 0).val < 8192 := (i 0).isLt
  have hi1 : (i 1).val < 128 := (i 1).isLt
  have hN : cfg5.N = 4 := N_5
  have hlt : (i 0).val / 2048 < cfg5.N := by rw [hN]; omega
  obtain ⟨-, -, -, -, -, -, e6, e7⟩ := block_index ⟨(i 0).val / 2048, hlt⟩
  refine ⟨⟨(i 0).val / 2048, hlt⟩, flush5_3 _, ?_⟩
  rw [mem_block_pass]
  intro a
  match a with
  | ⟨0, _⟩ =>
    show win5_3.index ⟨(i 0).val / 2048, hlt⟩ (0 : Fin 2) * 2048 ≤ (i 0).val ∧ (i 0).val < win5_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win5_3.index ⟨(i 0).val / 2048, hlt⟩ (1 : Fin 2) * 128 ≤ (i 1).val ∧ (i 1).val < win5_3.index ⟨(i 0).val / 2048, hlt⟩ (1 : Fin 2) * 128 + 128
    rw [e7]; omega

/-- The second result after the region: the remaining 128 columns of the support. -/
theorem final_pass (c : Dev nD) :
    (dat5 (F := Ideal) V c).arrAt 3 cfg5.N = supPass (M := 8192) (K := 192) (N := 192) 64 128 (V c main_v20) (V c main_v22) :=
  (dat5 (F := Ideal) V c).arrAt_eq_of_cover 3 _ (fun t _ => flushed_pass V c t) cover_pass

end Cert.KernelIdeal.Reg5

end
-- ==== Proof.KReg7.lean ====
/-
  Region 7: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg7

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- Row p of the feature block at point t is row 2048 t + p of the features. -/
theorem features_block (c : Dev nD) (t : Fin cfg7.N) (p : Fin 2048) (k : Fin 192) :
    (iblk7 V c 0 t : FVec Ideal S2048x192 .f32) (ix2 p k) = rd2 (V c main_v30 : Arr2 8192 192) (t.val * 2048 + p.val) k.val := by
  obtain ⟨e0, e1, -⟩ := block_index t
  have hN : cfg7.N = 4 := N_7
  have ht : t.val < cfg7.N := t.isLt
  have hp : t.val * 2048 + p.val < 8192 := by omega
  rw [rd2_of_lt _ hp k.isLt]
  unfold iblk7
  rw [View.read_apply]
  show V c main_v30 _ = V c main_v30 _
  congr 1
  funext a
  apply Fin.ext
  match a with
  | ⟨0, _⟩ => show win7_0.index t (0 : Fin 2) * 2048 + 1 * p.val = t.val * 2048 + p.val; rw [e0]; omega
  | ⟨1, _⟩ => show win7_0.index t (1 : Fin 2) * 192 + 1 * k.val = k.val; rw [e1]; omega

/-- The weight block at every point is the whole weight matrix. -/
theorem weights_block (c : Dev nD) (t : Fin cfg7.N) (k : Fin 192) (j : Fin 192) :
    (iblk7 V c 1 t : FVec Ideal S192x192 .f32) (ix2 k j) = rd2 (V c main_v32 : Arr2 192 192) k.val j.val := by
  obtain ⟨-, -, e2, e3, -⟩ := block_index t
  rw [rd2_ix2]
  unfold iblk7
  rw [View.read_apply]
  show V c main_v32 _ = V c main_v32 _
  congr 1
  funext a
  apply Fin.ext
  match a with
  | ⟨0, _⟩ => show win7_1.index t (0 : Fin 2) * 192 + 1 * k.val = k.val; rw [e2]; omega
  | ⟨1, _⟩ => show win7_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k7_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k7_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg7.N) :
    (dat7 (F := Ideal) V c).flushed 2 t
      = ((cfg7.win 2).blk t).view.read (Elt Ideal) (supAgg (M := 8192) (K := 192) (N := 192) 64 (V c main_v30) (V c main_v32)) := by
  show (cfg7.win 2).cut (grid7.coords t) ((dat7 V c).after 2 t) = _
  rw [after7_2]
  unfold out7_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v30) (V c main_v32) (iblk7 V c 0 t) (iblk7 V c 1 t) t.val
    (features_block V c t) (weights_block V c t) j (((cfg7.win 2).blk t).view.emb j) ?_ ?_
  · show win7_2.index t (0 : Fin 2) * 2048 + 1 * (j 0).val = t.val * 2048 + (j 0).val; rw [e4]; omega
  · show win7_2.index t (1 : Fin 2) * 64 + 1 * (j 1).val = (j 1).val; rw [e5]; omega

/-- An index is in point t's block of the first result iff each coordinate is in the block's range on its axis. -/
theorem mem_block_agg (t : Fin cfg7.N) (i : S8192x64.Idx) :
    i ∈ ((cfg7.win 2).blk t).view.set ↔ ∀ a : Fin 2, win7_2.index t a * S2048x64.size a ≤ (i a).val ∧ (i a).val < win7_2.index t a * S2048x64.size a + S2048x64.size a := by
  show i ∈ ((View.whole main_v35_0).slice (win7_2.rect t)).set ↔ _
  rw [View.set_slice_whole, Rect.mem_set_unit]
  exact Iff.rfl

/-- Row r of the first result is in the block of point r / 2048. -/
theorem cover_agg (i : S8192x64.Idx) : ∃ t : Fin cfg7.N, (cfg7.win 2).flush t = true ∧ i ∈ ((cfg7.win 2).blk t).view.set := by
  have hi0 : (i 0).val < 8192 := (i 0).isLt
  have hi1 : (i 1).val < 64 := (i 1).isLt
  have hN : cfg7.N = 4 := N_7
  have hlt : (i 0).val / 2048 < cfg7.N := by rw [hN]; omega
  obtain ⟨-, -, -, -, e4, e5, -⟩ := block_index ⟨(i 0).val / 2048, hlt⟩
  refine ⟨⟨(i 0).val / 2048, hlt⟩, flush7_2 _, ?_⟩
  rw [mem_block_agg]
  intro a
  match a with
  | ⟨0, _⟩ =>
    show win7_2.index ⟨(i 0).val / 2048, hlt⟩ (0 : Fin 2) * 2048 ≤ (i 0).val ∧ (i 0).val < win7_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win7_2.index ⟨(i 0).val / 2048, hlt⟩ (1 : Fin 2) * 64 ≤ (i 1).val ∧ (i 1).val < win7_2.index ⟨(i 0).val / 2048, hlt⟩ (1 : Fin 2) * 64 + 64
    rw [e5]; omega

/-- The first result after the region: the first 64 columns of the support. -/
theorem final_agg (c : Dev nD) :
    (dat7 (F := Ideal) V c).arrAt 2 cfg7.N = supAgg (M := 8192) (K := 192) (N := 192) 64 (V c main_v30) (V c main_v32) :=
  (dat7 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k7_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k7_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg7.N) :
    (dat7 (F := Ideal) V c).flushed 3 t
      = ((cfg7.win 3).blk t).view.read (Elt Ideal) (supPass (M := 8192) (K := 192) (N := 192) 64 128 (V c main_v30) (V c main_v32)) := by
  show (cfg7.win 3).cut (grid7.coords t) ((dat7 V c).after 3 t) = _
  rw [after7_3]
  unfold out7_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v30) (V c main_v32) (iblk7 V c 0 t) (iblk7 V c 1 t) t.val
    (features_block V c t) (weights_block V c t) j (((cfg7.win 3).blk t).view.emb j) ?_ ?_
  · show win7_3.index t (0 : Fin 2) * 2048 + 1 * (j 0).val = t.val * 2048 + (j 0).val; rw [e6]; omega
  · show win7_3.index t (1 : Fin 2) * 128 + 1 * (j 1).val = (j 1).val; rw [e7]; omega

/-- An index is in point t's block of the second result iff each coordinate is in the block's range on its axis. -/
theorem mem_block_pass (t : Fin cfg7.N) (i : S8192x128.Idx) :
    i ∈ ((cfg7.win 3).blk t).view.set ↔ ∀ a : Fin 2, win7_3.index t a * S2048x128.size a ≤ (i a).val ∧ (i a).val < win7_3.index t a * S2048x128.size a + S2048x128.size a := by
  show i ∈ ((View.whole main_v35_1).slice (win7_3.rect t)).set ↔ _
  rw [View.set_slice_whole, Rect.mem_set_unit]
  exact Iff.rfl

/-- Row r of the second result is in the block of point r / 2048. -/
theorem cover_pass (i : S8192x128.Idx) : ∃ t : Fin cfg7.N, (cfg7.win 3).flush t = true ∧ i ∈ ((cfg7.win 3).blk t).view.set := by
  have hi0 : (i 0).val < 8192 := (i 0).isLt
  have hi1 : (i 1).val < 128 := (i 1).isLt
  have hN : cfg7.N = 4 := N_7
  have hlt : (i 0).val / 2048 < cfg7.N := by rw [hN]; omega
  obtain ⟨-, -, -, -, -, -, e6, e7⟩ := block_index ⟨(i 0).val / 2048, hlt⟩
  refine ⟨⟨(i 0).val / 2048, hlt⟩, flush7_3 _, ?_⟩
  rw [mem_block_pass]
  intro a
  match a with
  | ⟨0, _⟩ =>
    show win7_3.index ⟨(i 0).val / 2048, hlt⟩ (0 : Fin 2) * 2048 ≤ (i 0).val ∧ (i 0).val < win7_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win7_3.index ⟨(i 0).val / 2048, hlt⟩ (1 : Fin 2) * 128 ≤ (i 1).val ∧ (i 1).val < win7_3.index ⟨(i 0).val / 2048, hlt⟩ (1 : Fin 2) * 128 + 128
    rw [e7]; omega

/-- The second result after the region: the remaining 128 columns of the support. -/
theorem final_pass (c : Dev nD) :
    (dat7 (F := Ideal) V c).arrAt 3 cfg7.N = supPass (M := 8192) (K := 192) (N := 192) 64 128 (V c main_v30) (V c main_v32) :=
  (dat7 (F := Ideal) V c).arrAt_eq_of_cover 3 _ (fun t _ => flushed_pass V c t) cover_pass

end Cert.KernelIdeal.Reg7

end
-- ==== Proof.KReg9.lean ====
/-
  Region 9: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg9

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

/-- Row p of the feature block at point t is row 2048 t + p of the features. -/
theorem features_block (c : Dev nD) (t : Fin cfg9.N) (p : Fin 2048) (k : Fin 192) :
    (iblk9 V c 0 t : FVec Ideal S2048x192 .f32) (ix2 p k) = rd2 (V c main_v43 : Arr2 8192 192) (t.val * 2048 + p.val) k.val := by
  obtain ⟨e0, e1, -⟩ := block_index t
  have hN : cfg9.N = 4 := N_9
  have ht : t.val < cfg9.N := t.isLt
  have hp : t.val * 2048 + p.val < 8192 := by omega
  rw [rd2_of_lt _ hp k.isLt]
  unfold iblk9
  rw [View.read_apply]
  show V c main_v43 _ = V c main_v43 _
  congr 1
  funext a
  apply Fin.ext
  match a with
  | ⟨0, _⟩ => show win9_0.index t (0 : Fin 2) * 2048 + 1 * p.val = t.val * 2048 + p.val; rw [e0]; omega
  | ⟨1, _⟩ => show win9_0.index t (1 : Fin 2) * 192 + 1 * k.val = k.val; rw [e1]; omega

/-- The weight block at every point is the whole weight matrix. -/
theorem weights_block (c : Dev nD) (t : Fin cfg9.N) (k : Fin 192) (j : Fin 192) :
    (iblk9 V c 1 t : FVec Ideal S192x192 .f32) (ix2 k j) = rd2 (V c main_v45 : Arr2 192 192) k.val j.val := by
  obtain ⟨-, -, e2, e3, -⟩ := block_index t
  rw [rd2_ix2]
  unfold iblk9
  rw [View.read_apply]
  show V c main_v45 _ = V c main_v45 _
  congr 1
  funext a
  apply Fin.ext
  match a with
  | ⟨0, _⟩ => show win9_1.index t (0 : Fin 2) * 192 + 1 * k.val = k.val; rw [e2]; omega
  | ⟨1, _⟩ => show win9_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k9_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k9_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg9.N) :
    (dat9 (F := Ideal) V c).flushed 2 t
      = ((cfg9.win 2).blk t).view.read (Elt Ideal) (supAgg (M := 8192) (K := 192) (N := 192) 64 (V c main_v43) (V c main_v45)) := by
  show (cfg9.win 2).cut (grid9.coords t) ((dat9 V c).after 2 t) = _
  rw [after9_2]
  unfold out9_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v43) (V c main_v45) (iblk9 V c 0 t) (iblk9 V c 1 t) t.val
    (features_block V c t) (weights_block V c t) j (((cfg9.win 2).blk t).view.emb j) ?_ ?_
  · show win9_2.index t (0 : Fin 2) * 2048 + 1 * (j 0).val = t.val * 2048 + (j 0).val; rw [e4]; omega
  · show win9_2.index t (1 : Fin 2) * 64 + 1 * (j 1).val = (j 1).val; rw [e5]; omega

/-- An index is in point t's block of the first result iff each coordinate is in the block's range on its axis. -/
theorem mem_block_agg (t : Fin cfg9.N) (i : S8192x64.Idx) :
    i ∈ ((cfg9.win 2).blk t).view.set ↔ ∀ a : Fin 2, win9_2.index t a * S2048x64.size a ≤ (i a).val ∧ (i a).val < win9_2.index t a * S2048x64.size a + S2048x64.size a := by
  show i ∈ ((View.whole main_v48_0).slice (win9_2.rect t)).set ↔ _
  rw [View.set_slice_whole, Rect.mem_set_unit]
  exact Iff.rfl

/-- Row r of the first result is in the block of point r / 2048. -/
theorem cover_agg (i : S8192x64.Idx) : ∃ t : Fin cfg9.N, (cfg9.win 2).flush t = true ∧ i ∈ ((cfg9.win 2).blk t).view.set := by
  have hi0 : (i 0).val < 8192 := (i 0).isLt
  have hi1 : (i 1).val < 64 := (i 1).isLt
  have hN : cfg9.N = 4 := N_9
  have hlt : (i 0).val / 2048 < cfg9.N := by rw [hN]; omega
  obtain ⟨-, -, -, -, e4, e5, -⟩ := block_index ⟨(i 0).val / 2048, hlt⟩
  refine ⟨⟨(i 0).val / 2048, hlt⟩, flush9_2 _, ?_⟩
  rw [mem_block_agg]
  intro a
  match a with
  | ⟨0, _⟩ =>
    show win9_2.index ⟨(i 0).val / 2048, hlt⟩ (0 : Fin 2) * 2048 ≤ (i 0).val ∧ (i 0).val < win9_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win9_2.index ⟨(i 0).val / 2048, hlt⟩ (1 : Fin 2) * 64 ≤ (i 1).val ∧ (i 1).val < win9_2.index ⟨(i 0).val / 2048, hlt⟩ (1 : Fin 2) * 64 + 64
    rw [e5]; omega

/-- The first result after the region: the first 64 columns of the support. -/
theorem final_agg (c : Dev nD) :
    (dat9 (F := Ideal) V c).arrAt 2 cfg9.N = supAgg (M := 8192) (K := 192) (N := 192) 64 (V c main_v43) (V c main_v45) :=
  (dat9 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k9_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k9_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg9.N) :
    (dat9 (F := Ideal) V c).flushed 3 t
      = ((cfg9.win 3).blk t).view.read (Elt Ideal) (supPass (M := 8192) (K := 192) (N := 192) 64 128 (V c main_v43) (V c main_v45)) := by
  show (cfg9.win 3).cut (grid9.coords t) ((dat9 V c).after 3 t) = _
  rw [after9_3]
  unfold out9_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v43) (V c main_v45) (iblk9 V c 0 t) (iblk9 V c 1 t) t.val
    (features_block V c t) (weights_block V c t) j (((cfg9.win 3).blk t).view.emb j) ?_ ?_
  · show win9_3.index t (0 : Fin 2) * 2048 + 1 * (j 0).val = t.val * 2048 + (j 0).val; rw [e6]; omega
  · show win9_3.index t (1 : Fin 2) * 128 + 1 * (j 1).val = (j 1).val; rw [e7]; omega

/-- An index is in point t's block of the second result iff each coordinate is in the block's range on its axis. -/
theorem mem_block_pass (t : Fin cfg9.N) (i : S8192x128.Idx) :
    i ∈ ((cfg9.win 3).blk t).view.set ↔ ∀ a : Fin 2, win9_3.index t a * S2048x128.size a ≤ (i a).val ∧ (i a).val < win9_3.index t a * S2048x128.size a + S2048x128.size a := by
  show i ∈ ((View.whole main_v48_1).slice (win9_3.rect t)).set ↔ _
  rw [View.set_slice_whole, Rect.mem_set_unit]
  exact Iff.rfl

/-- Row r of the second result is in the block of point r / 2048. -/
theorem cover_pass (i : S8192x128.Idx) : ∃ t : Fin cfg9.N, (cfg9.win 3).flush t = true ∧ i ∈ ((cfg9.win 3).blk t).view.set := by
  have hi0 : (i 0).val < 8192 := (i 0).isLt
  have hi1 : (i 1).val < 128 := (i 1).isLt
  have hN : cfg9.N = 4 := N_9
  have hlt : (i 0).val / 2048 < cfg9.N := by rw [hN]; omega
  obtain ⟨-, -, -, -, -, -, e6, e7⟩ := block_index ⟨(i 0).val / 2048, hlt⟩
  refine ⟨⟨(i 0).val / 2048, hlt⟩, flush9_3 _, ?_⟩
  rw [mem_block_pass]
  intro a
  match a with
  | ⟨0, _⟩ =>
    show win9_3.index ⟨(i 0).val / 2048, hlt⟩ (0 : Fin 2) * 2048 ≤ (i 0).val ∧ (i 0).val < win9_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win9_3.index ⟨(i 0).val / 2048, hlt⟩ (1 : Fin 2) * 128 ≤ (i 1).val ∧ (i 1).val < win9_3.index ⟨(i 0).val / 2048, hlt⟩ (1 : Fin 2) * 128 + 128
    rw [e7]; omega

/-- The second result after the region: the remaining 128 columns of the support. -/
theorem final_pass (c : Dev nD) :
    (dat9 (F := Ideal) V c).arrAt 3 cfg9.N = supPass (M := 8192) (K := 192) (N := 192) 64 128 (V c main_v43) (V c main_v45) :=
  (dat9 (F := Ideal) V c).arrAt_eq_of_cover 3 _ (fun t _ => flushed_pass V c t) cover_pass

end Cert.KernelIdeal.Reg9

end
-- ==== Proof.KReg11.lean ====
/-
  Region 11: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg11

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0 :=
  (by decide +kernel : ∀ t : Fin grid11.N, _)

/-- Row p of the feature block at point t is row 2048 t + p of the features. -/
theorem features_block (c : Dev nD) (t : Fin cfg11.N) (p : Fin 2048) (k : Fin 192) :
    (iblk11 V c 0 t : FVec Ideal S2048x192 .f32) (ix2 p k) = rd2 (V c main_v53 : Arr2 8192 192) (t.val * 2048 + p.val) k.val := by
  obtain ⟨e0, e1, -⟩ := block_index t
  have hN : cfg11.N = 4 := N_11
  have ht : t.val < cfg11.N := t.isLt
  have hp : t.val * 2048 + p.val < 8192 := by omega
  rw [rd2_of_lt _ hp k.isLt]
  unfold iblk11
  rw [View.read_apply]
  show V c main_v53 _ = V c main_v53 _
  congr 1
  funext a
  apply Fin.ext
  match a with
  | ⟨0, _⟩ => show win11_0.index t (0 : Fin 2) * 2048 + 1 * p.val = t.val * 2048 + p.val; rw [e0]; omega
  | ⟨1, _⟩ => show win11_0.index t (1 : Fin 2) * 192 + 1 * k.val = k.val; rw [e1]; omega

/-- The weight block at every point is the whole weight matrix. -/
theorem weights_block (c : Dev nD) (t : Fin cfg11.N) (k : Fin 192) (j : Fin 192) :
    (iblk11 V c 1 t : FVec Ideal S192x192 .f32) (ix2 k j) = rd2 (V c main_v55 : Arr2 192 192) k.val j.val := by
  obtain ⟨-, -, e2, e3, -⟩ := block_index t
  rw [rd2_ix2]
  unfold iblk11
  rw [View.read_apply]
  show V c main_v55 _ = V c main_v55 _
  congr 1
  funext a
  apply Fin.ext
  match a with
  | ⟨0, _⟩ => show win11_1.index t (0 : Fin 2) * 192 + 1 * k.val = k.val; rw [e2]; omega
  | ⟨1, _⟩ => show win11_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k11_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k11_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg11.N) :
    (dat11 (F := Ideal) V c).flushed 2 t
      = ((cfg11.win 2).blk t).view.read (Elt Ideal) (supAgg (M := 8192) (K := 192) (N := 192) 64 (V c main_v53) (V c main_v55)) := by
  show (cfg11.win 2).cut (grid11.coords t) ((dat11 V c).after 2 t) = _
  rw [after11_2]
  unfold out11_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v53) (V c main_v55) (iblk11 V c 0 t) (iblk11 V c 1 t) t.val
    (features_block V c t) (weights_block V c t) j (((cfg11.win 2).blk t).view.emb j) ?_ ?_
  · show win11_2.index t (0 : Fin 2) * 2048 + 1 * (j 0).val = t.val * 2048 + (j 0).val; rw [e4]; omega
  · show win11_2.index t (1 : Fin 2) * 64 + 1 * (j 1).val = (j 1).val; rw [e5]; omega

/-- An index is in point t's block of the first result iff each coordinate is in the block's range on its axis. -/
theorem mem_block_agg (t : Fin cfg11.N) (i : S8192x64.Idx) :
    i ∈ ((cfg11.win 2).blk t).view.set ↔ ∀ a : Fin 2, win11_2.index t a * S2048x64.size a ≤ (i a).val ∧ (i a).val < win11_2.index t a * S2048x64.size a + S2048x64.size a := by
  show i ∈ ((View.whole main_v58_0).slice (win11_2.rect t)).set ↔ _
  rw [View.set_slice_whole, Rect.mem_set_unit]
  exact Iff.rfl

/-- Row r of the first result is in the block of point r / 2048. -/
theorem cover_agg (i : S8192x64.Idx) : ∃ t : Fin cfg11.N, (cfg11.win 2).flush t = true ∧ i ∈ ((cfg11.win 2).blk t).view.set := by
  have hi0 : (i 0).val < 8192 := (i 0).isLt
  have hi1 : (i 1).val < 64 := (i 1).isLt
  have hN : cfg11.N = 4 := N_11
  have hlt : (i 0).val / 2048 < cfg11.N := by rw [hN]; omega
  obtain ⟨-, -, -, -, e4, e5, -⟩ := block_index ⟨(i 0).val / 2048, hlt⟩
  refine ⟨⟨(i 0).val / 2048, hlt⟩, flush11_2 _, ?_⟩
  rw [mem_block_agg]
  intro a
  match a with
  | ⟨0, _⟩ =>
    show win11_2.index ⟨(i 0).val / 2048, hlt⟩ (0 : Fin 2) * 2048 ≤ (i 0).val ∧ (i 0).val < win11_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win11_2.index ⟨(i 0).val / 2048, hlt⟩ (1 : Fin 2) * 64 ≤ (i 1).val ∧ (i 1).val < win11_2.index ⟨(i 0).val / 2048, hlt⟩ (1 : Fin 2) * 64 + 64
    rw [e5]; omega

/-- The first result after the region: the first 64 columns of the support. -/
theorem final_agg (c : Dev nD) :
    (dat11 (F := Ideal) V c).arrAt 2 cfg11.N = supAgg (M := 8192) (K := 192) (N := 192) 64 (V c main_v53) (V c main_v55) :=
  (dat11 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k11_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k11_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg11.N) :
    (dat11 (F := Ideal) V c).flushed 3 t
      = ((cfg11.win 3).blk t).view.read (Elt Ideal) (supPass (M := 8192) (K := 192) (N := 192) 64 128 (V c main_v53) (V c main_v55)) := by
  show (cfg11.win 3).cut (grid11.coords t) ((dat11 V c).after 3 t) = _
  rw [after11_3]
  unfold out11_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v53) (V c main_v55) (iblk11 V c 0 t) (iblk11 V c 1 t) t.val
    (features_block V c t) (weights_block V c t) j (((cfg11.win 3).blk t).view.emb j) ?_ ?_
  · show win11_3.index t (0 : Fin 2) * 2048 + 1 * (j 0).val = t.val * 2048 + (j 0).val; rw [e6]; omega
  · show win11_3.index t (1 : Fin 2) * 128 + 1 * (j 1).val = (j 1).val; rw [e7]; omega

/-- An index is in point t's block of the second result iff each coordinate is in the block's range on its axis. -/
theorem mem_block_pass (t : Fin cfg11.N) (i : S8192x128.Idx) :
    i ∈ ((cfg11.win 3).blk t).view.set ↔ ∀ a : Fin 2, win11_3.index t a * S2048x128.size a ≤ (i a).val ∧ (i a).val < win11_3.index t a * S2048x128.size a + S2048x128.size a := by
  show i ∈ ((View.whole main_v58_1).slice (win11_3.rect t)).set ↔ _
  rw [View.set_slice_whole, Rect.mem_set_unit]
  exact Iff.rfl

/-- Row r of the second result is in the block of point r / 2048. -/
theorem cover_pass (i : S8192x128.Idx) : ∃ t : Fin cfg11.N, (cfg11.win 3).flush t = true ∧ i ∈ ((cfg11.win 3).blk t).view.set := by
  have hi0 : (i 0).val < 8192 := (i 0).isLt
  have hi1 : (i 1).val < 128 := (i 1).isLt
  have hN : cfg11.N = 4 := N_11
  have hlt : (i 0).val / 2048 < cfg11.N := by rw [hN]; omega
  obtain ⟨-, -, -, -, -, -, e6, e7⟩ := block_index ⟨(i 0).val / 2048, hlt⟩
  refine ⟨⟨(i 0).val / 2048, hlt⟩, flush11_3 _, ?_⟩
  rw [mem_block_pass]
  intro a
  match a with
  | ⟨0, _⟩ =>
    show win11_3.index ⟨(i 0).val / 2048, hlt⟩ (0 : Fin 2) * 2048 ≤ (i 0).val ∧ (i 0).val < win11_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win11_3.index ⟨(i 0).val / 2048, hlt⟩ (1 : Fin 2) * 128 ≤ (i 1).val ∧ (i 1).val < win11_3.index ⟨(i 0).val / 2048, hlt⟩ (1 : Fin 2) * 128 + 128
    rw [e7]; omega

/-- The second result after the region: the remaining 128 columns of the support. -/
theorem final_pass (c : Dev nD) :
    (dat11 (F := Ideal) V c).arrAt 3 cfg11.N = supPass (M := 8192) (K := 192) (N := 192) 64 128 (V c main_v53) (V c main_v55) :=
  (dat11 (F := Ideal) V c).arrAt_eq_of_cover 3 _ (fun t _ => flushed_pass V c t) cover_pass

end Cert.KernelIdeal.Reg11

end
-- ==== Proof.KReg13.lean ====
/-
  Region 13: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg13

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0 :=
  (by decide +kernel : ∀ t : Fin grid13.N, _)

/-- Row p of the feature block at point t is row 2048 t + p of the features. -/
theorem features_block (c : Dev nD) (t : Fin cfg13.N) (p : Fin 2048) (k : Fin 192) :
    (iblk13 V c 0 t : FVec Ideal S2048x192 .f32) (ix2 p k) = rd2 (V c main_v66 : Arr2 8192 192) (t.val * 2048 + p.val) k.val := by
  obtain ⟨e0, e1, -⟩ := block_index t
  have hN : cfg13.N = 4 := N_13
  have ht : t.val < cfg13.N := t.isLt
  have hp : t.val * 2048 + p.val < 8192 := by omega
  rw [rd2_of_lt _ hp k.isLt]
  unfold iblk13
  rw [View.read_apply]
  show V c main_v66 _ = V c main_v66 _
  congr 1
  funext a
  apply Fin.ext
  match a with
  | ⟨0, _⟩ => show win13_0.index t (0 : Fin 2) * 2048 + 1 * p.val = t.val * 2048 + p.val; rw [e0]; omega
  | ⟨1, _⟩ => show win13_0.index t (1 : Fin 2) * 192 + 1 * k.val = k.val; rw [e1]; omega

/-- The weight block at every point is the whole weight matrix. -/
theorem weights_block (c : Dev nD) (t : Fin cfg13.N) (k : Fin 192) (j : Fin 192) :
    (iblk13 V c 1 t : FVec Ideal S192x192 .f32) (ix2 k j) = rd2 (V c main_v68 : Arr2 192 192) k.val j.val := by
  obtain ⟨-, -, e2, e3, -⟩ := block_index t
  rw [rd2_ix2]
  unfold iblk13
  rw [View.read_apply]
  show V c main_v68 _ = V c main_v68 _
  congr 1
  funext a
  apply Fin.ext
  match a with
  | ⟨0, _⟩ => show win13_1.index t (0 : Fin 2) * 192 + 1 * k.val = k.val; rw [e2]; omega
  | ⟨1, _⟩ => show win13_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k13_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k13_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg13.N) :
    (dat13 (F := Ideal) V c).flushed 2 t
      = ((cfg13.win 2).blk t).view.read (Elt Ideal) (supAgg (M := 8192) (K := 192) (N := 192) 64 (V c main_v66) (V c main_v68)) := by
  show (cfg13.win 2).cut (grid13.coords t) ((dat13 V c).after 2 t) = _
  rw [after13_2]
  unfold out13_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v66) (V c main_v68) (iblk13 V c 0 t) (iblk13 V c 1 t) t.val
    (features_block V c t) (weights_block V c t) j (((cfg13.win 2).blk t).view.emb j) ?_ ?_
  · show win13_2.index t (0 : Fin 2) * 2048 + 1 * (j 0).val = t.val * 2048 + (j 0).val; rw [e4]; omega
  · show win13_2.index t (1 : Fin 2) * 64 + 1 * (j 1).val = (j 1).val; rw [e5]; omega

/-- An index is in point t's block of the first result iff each coordinate is in the block's range on its axis. -/
theorem mem_block_agg (t : Fin cfg13.N) (i : S8192x64.Idx) :
    i ∈ ((cfg13.win 2).blk t).view.set ↔ ∀ a : Fin 2, win13_2.index t a * S2048x64.size a ≤ (i a).val ∧ (i a).val < win13_2.index t a * S2048x64.size a + S2048x64.size a := by
  show i ∈ ((View.whole main_v71_0).slice (win13_2.rect t)).set ↔ _
  rw [View.set_slice_whole, Rect.mem_set_unit]
  exact Iff.rfl

/-- Row r of the first result is in the block of point r / 2048. -/
theorem cover_agg (i : S8192x64.Idx) : ∃ t : Fin cfg13.N, (cfg13.win 2).flush t = true ∧ i ∈ ((cfg13.win 2).blk t).view.set := by
  have hi0 : (i 0).val < 8192 := (i 0).isLt
  have hi1 : (i 1).val < 64 := (i 1).isLt
  have hN : cfg13.N = 4 := N_13
  have hlt : (i 0).val / 2048 < cfg13.N := by rw [hN]; omega
  obtain ⟨-, -, -, -, e4, e5, -⟩ := block_index ⟨(i 0).val / 2048, hlt⟩
  refine ⟨⟨(i 0).val / 2048, hlt⟩, flush13_2 _, ?_⟩
  rw [mem_block_agg]
  intro a
  match a with
  | ⟨0, _⟩ =>
    show win13_2.index ⟨(i 0).val / 2048, hlt⟩ (0 : Fin 2) * 2048 ≤ (i 0).val ∧ (i 0).val < win13_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win13_2.index ⟨(i 0).val / 2048, hlt⟩ (1 : Fin 2) * 64 ≤ (i 1).val ∧ (i 1).val < win13_2.index ⟨(i 0).val / 2048, hlt⟩ (1 : Fin 2) * 64 + 64
    rw [e5]; omega

/-- The first result after the region: the first 64 columns of the support. -/
theorem final_agg (c : Dev nD) :
    (dat13 (F := Ideal) V c).arrAt 2 cfg13.N = supAgg (M := 8192) (K := 192) (N := 192) 64 (V c main_v66) (V c main_v68) :=
  (dat13 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k13_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k13_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg13.N) :
    (dat13 (F := Ideal) V c).flushed 3 t
      = ((cfg13.win 3).blk t).view.read (Elt Ideal) (supPass (M := 8192) (K := 192) (N := 192) 64 128 (V c main_v66) (V c main_v68)) := by
  show (cfg13.win 3).cut (grid13.coords t) ((dat13 V c).after 3 t) = _
  rw [after13_3]
  unfold out13_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v66) (V c main_v68) (iblk13 V c 0 t) (iblk13 V c 1 t) t.val
    (features_block V c t) (weights_block V c t) j (((cfg13.win 3).blk t).view.emb j) ?_ ?_
  · show win13_3.index t (0 : Fin 2) * 2048 + 1 * (j 0).val = t.val * 2048 + (j 0).val; rw [e6]; omega
  · show win13_3.index t (1 : Fin 2) * 128 + 1 * (j 1).val = (j 1).val; rw [e7]; omega

/-- An index is in point t's block of the second result iff each coordinate is in the block's range on its axis. -/
theorem mem_block_pass (t : Fin cfg13.N) (i : S8192x128.Idx) :
    i ∈ ((cfg13.win 3).blk t).view.set ↔ ∀ a : Fin 2, win13_3.index t a * S2048x128.size a ≤ (i a).val ∧ (i a).val < win13_3.index t a * S2048x128.size a + S2048x128.size a := by
  show i ∈ ((View.whole main_v71_1).slice (win13_3.rect t)).set ↔ _
  rw [View.set_slice_whole, Rect.mem_set_unit]
  exact Iff.rfl

/-- Row r of the second result is in the block of point r / 2048. -/
theorem cover_pass (i : S8192x128.Idx) : ∃ t : Fin cfg13.N, (cfg13.win 3).flush t = true ∧ i ∈ ((cfg13.win 3).blk t).view.set := by
  have hi0 : (i 0).val < 8192 := (i 0).isLt
  have hi1 : (i 1).val < 128 := (i 1).isLt
  have hN : cfg13.N = 4 := N_13
  have hlt : (i 0).val / 2048 < cfg13.N := by rw [hN]; omega
  obtain ⟨-, -, -, -, -, -, e6, e7⟩ := block_index ⟨(i 0).val / 2048, hlt⟩
  refine ⟨⟨(i 0).val / 2048, hlt⟩, flush13_3 _, ?_⟩
  rw [mem_block_pass]
  intro a
  match a with
  | ⟨0, _⟩ =>
    show win13_3.index ⟨(i 0).val / 2048, hlt⟩ (0 : Fin 2) * 2048 ≤ (i 0).val ∧ (i 0).val < win13_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win13_3.index ⟨(i 0).val / 2048, hlt⟩ (1 : Fin 2) * 128 ≤ (i 1).val ∧ (i 1).val < win13_3.index ⟨(i 0).val / 2048, hlt⟩ (1 : Fin 2) * 128 + 128
    rw [e7]; omega

/-- The second result after the region: the remaining 128 columns of the support. -/
theorem final_pass (c : Dev nD) :
    (dat13 (F := Ideal) V c).arrAt 3 cfg13.N = supPass (M := 8192) (K := 192) (N := 192) 64 128 (V c main_v66) (V c main_v68) :=
  (dat13 (F := Ideal) V c).arrAt_eq_of_cover 3 _ (fun t _ => flushed_pass V c t) cover_pass

end Cert.KernelIdeal.Reg13

end
-- ==== Proof.KReg15.lean ====
/-
  Region 15: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg15

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0
    ∧ win15_3.index t (0 : Fin 2) = t.val ∧ win15_3.index t (1 : Fin 2) = 0 :=
  (by decide +kernel : ∀ t : Fin grid15.N, _)

/-- Row p of the feature block at point t is row 2048 t + p of the features. -/
theorem features_block (c : Dev nD) (t : Fin cfg15.N) (p : Fin 2048) (k : Fin 192) :
    (iblk15 V c 0 t : FVec Ideal S2048x192 .f32) (ix2 p k) = rd2 (V c main_v76 : Arr2 8192 192) (t.val * 2048 + p.val) k.val := by
  obtain ⟨e0, e1, -⟩ := block_index t
  have hN : cfg15.N = 4 := N_15
  have ht : t.val < cfg15.N := t.isLt
  have hp : t.val * 2048 + p.val < 8192 := by omega
  rw [rd2_of_lt _ hp k.isLt]
  unfold iblk15
  rw [View.read_apply]
  show V c main_v76 _ = V c main_v76 _
  congr 1
  funext a
  apply Fin.ext
  match a with
  | ⟨0, _⟩ => show win15_0.index t (0 : Fin 2) * 2048 + 1 * p.val = t.val * 2048 + p.val; rw [e0]; omega
  | ⟨1, _⟩ => show win15_0.index t (1 : Fin 2) * 192 + 1 * k.val = k.val; rw [e1]; omega

/-- The weight block at every point is the whole weight matrix. -/
theorem weights_block (c : Dev nD) (t : Fin cfg15.N) (k : Fin 192) (j : Fin 192) :
    (iblk15 V c 1 t : FVec Ideal S192x192 .f32) (ix2 k j) = rd2 (V c main_v78 : Arr2 192 192) k.val j.val := by
  obtain ⟨-, -, e2, e3, -⟩ := block_index t
  rw [rd2_ix2]
  unfold iblk15
  rw [View.read_apply]
  show V c main_v78 _ = V c main_v78 _
  congr 1
  funext a
  apply Fin.ext
  match a with
  | ⟨0, _⟩ => show win15_1.index t (0 : Fin 2) * 192 + 1 * k.val = k.val; rw [e2]; omega
  | ⟨1, _⟩ => show win15_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k15_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k15_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg15.N) :
    (dat15 (F := Ideal) V c).flushed 2 t
      = ((cfg15.win 2).blk t).view.read (Elt Ideal) (supAgg (M := 8192) (K := 192) (N := 192) 64 (V c main_v76) (V c main_v78)) := by
  show (cfg15.win 2).cut (grid15.coords t) ((dat15 V c).after 2 t) = _
  rw [after15_2]
  unfold out15_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v76) (V c main_v78) (iblk15 V c 0 t) (iblk15 V c 1 t) t.val
    (features_block V c t) (weights_block V c t) j (((cfg15.win 2).blk t).view.emb j) ?_ ?_
  · show win15_2.index t (0 : Fin 2) * 2048 + 1 * (j 0).val = t.val * 2048 + (j 0).val; rw [e4]; omega
  · show win15_2.index t (1 : Fin 2) * 64 + 1 * (j 1).val = (j 1).val; rw [e5]; omega

/-- An index is in point t's block of the first result iff each coordinate is in the block's range on its axis. -/
theorem mem_block_agg (t : Fin cfg15.N) (i : S8192x64.Idx) :
    i ∈ ((cfg15.win 2).blk t).view.set ↔ ∀ a : Fin 2, win15_2.index t a * S2048x64.size a ≤ (i a).val ∧ (i a).val < win15_2.index t a * S2048x64.size a + S2048x64.size a := by
  show i ∈ ((View.whole main_v81_0).slice (win15_2.rect t)).set ↔ _
  rw [View.set_slice_whole, Rect.mem_set_unit]
  exact Iff.rfl

/-- Row r of the first result is in the block of point r / 2048. -/
theorem cover_agg (i : S8192x64.Idx) : ∃ t : Fin cfg15.N, (cfg15.win 2).flush t = true ∧ i ∈ ((cfg15.win 2).blk t).view.set := by
  have hi0 : (i 0).val < 8192 := (i 0).isLt
  have hi1 : (i 1).val < 64 := (i 1).isLt
  have hN : cfg15.N = 4 := N_15
  have hlt : (i 0).val / 2048 < cfg15.N := by rw [hN]; omega
  obtain ⟨-, -, -, -, e4, e5, -⟩ := block_index ⟨(i 0).val / 2048, hlt⟩
  refine ⟨⟨(i 0).val / 2048, hlt⟩, flush15_2 _, ?_⟩
  rw [mem_block_agg]
  intro a
  match a with
  | ⟨0, _⟩ =>
    show win15_2.index ⟨(i 0).val / 2048, hlt⟩ (0 : Fin 2) * 2048 ≤ (i 0).val ∧ (i 0).val < win15_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win15_2.index ⟨(i 0).val / 2048, hlt⟩ (1 : Fin 2) * 64 ≤ (i 1).val ∧ (i 1).val < win15_2.index ⟨(i 0).val / 2048, hlt⟩ (1 : Fin 2) * 64 + 64
    rw [e5]; omega

/-- The first result after the region: the first 64 columns of the support. -/
theorem final_agg (c : Dev nD) :
    (dat15 (F := Ideal) V c).arrAt 2 cfg15.N = supAgg (M := 8192) (K := 192) (N := 192) 64 (V c main_v76) (V c main_v78) :=
  (dat15 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k15_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k15_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg15.N) :
    (dat15 (F := Ideal) V c).flushed 3 t
      = ((cfg15.win 3).blk t).view.read (Elt Ideal) (supPass (M := 8192) (K := 192) (N := 192) 64 128 (V c main_v76) (V c main_v78)) := by
  show (cfg15.win 3).cut (grid15.coords t) ((dat15 V c).after 3 t) = _
  rw [after15_3]
  unfold out15_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v76) (V c main_v78) (iblk15 V c 0 t) (iblk15 V c 1 t) t.val
    (features_block V c t) (weights_block V c t) j (((cfg15.win 3).blk t).view.emb j) ?_ ?_
  · show win15_3.index t (0 : Fin 2) * 2048 + 1 * (j 0).val = t.val * 2048 + (j 0).val; rw [e6]; omega
  · show win15_3.index t (1 : Fin 2) * 128 + 1 * (j 1).val = (j 1).val; rw [e7]; omega

/-- An index is in point t's block of the second result iff each coordinate is in the block's range on its axis. -/
theorem mem_block_pass (t : Fin cfg15.N) (i : S8192x128.Idx) :
    i ∈ ((cfg15.win 3).blk t).view.set ↔ ∀ a : Fin 2, win15_3.index t a * S2048x128.size a ≤ (i a).val ∧ (i a).val < win15_3.index t a * S2048x128.size a + S2048x128.size a := by
  show i ∈ ((View.whole main_v81_1).slice (win15_3.rect t)).set ↔ _
  rw [View.set_slice_whole, Rect.mem_set_unit]
  exact Iff.rfl

/-- Row r of the second result is in the block of point r / 2048. -/
theorem cover_pass (i : S8192x128.Idx) : ∃ t : Fin cfg15.N, (cfg15.win 3).flush t = true ∧ i ∈ ((cfg15.win 3).blk t).view.set := by
  have hi0 : (i 0).val < 8192 := (i 0).isLt
  have hi1 : (i 1).val < 128 := (i 1).isLt
  have hN : cfg15.N = 4 := N_15
  have hlt : (i 0).val / 2048 < cfg15.N := by rw [hN]; omega
  obtain ⟨-, -, -, -, -, -, e6, e7⟩ := block_index ⟨(i 0).val / 2048, hlt⟩
  refine ⟨⟨(i 0).val / 2048, hlt⟩, flush15_3 _, ?_⟩
  rw [mem_block_pass]
  intro a
  match a with
  | ⟨0, _⟩ =>
    show win15_3.index ⟨(i 0).val / 2048, hlt⟩ (0 : Fin 2) * 2048 ≤ (i 0).val ∧ (i 0).val < win15_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win15_3.index ⟨(i 0).val / 2048, hlt⟩ (1 : Fin 2) * 128 ≤ (i 1).val ∧ (i 1).val < win15_3.index ⟨(i 0).val / 2048, hlt⟩ (1 : Fin 2) * 128 + 128
    rw [e7]; omega

/-- The second result after the region: the remaining 128 columns of the support. -/
theorem final_pass (c : Dev nD) :
    (dat15 (F := Ideal) V c).arrAt 3 cfg15.N = supPass (M := 8192) (K := 192) (N := 192) 64 128 (V c main_v76) (V c main_v78) :=
  (dat15 (F := Ideal) V c).arrAt_eq_of_cover 3 _ (fun t _ => flushed_pass V c t) cover_pass

end Cert.KernelIdeal.Reg15

end
-- ==== Proof.KReg17.lean ====
/-
  Region 17: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg17

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0
    ∧ win17_3.index t (0 : Fin 2) = t.val ∧ win17_3.index t (1 : Fin 2) = 0 :=
  (by decide +kernel : ∀ t : Fin grid17.N, _)

/-- Row p of the feature block at point t is row 2048 t + p of the features. -/
theorem features_block (c : Dev nD) (t : Fin cfg17.N) (p : Fin 2048) (k : Fin 192) :
    (iblk17 V c 0 t : FVec Ideal S2048x192 .f32) (ix2 p k) = rd2 (V c main_v89 : Arr2 8192 192) (t.val * 2048 + p.val) k.val := by
  obtain ⟨e0, e1, -⟩ := block_index t
  have hN : cfg17.N = 4 := N_17
  have ht : t.val < cfg17.N := t.isLt
  have hp : t.val * 2048 + p.val < 8192 := by omega
  rw [rd2_of_lt _ hp k.isLt]
  unfold iblk17
  rw [View.read_apply]
  show V c main_v89 _ = V c main_v89 _
  congr 1
  funext a
  apply Fin.ext
  match a with
  | ⟨0, _⟩ => show win17_0.index t (0 : Fin 2) * 2048 + 1 * p.val = t.val * 2048 + p.val; rw [e0]; omega
  | ⟨1, _⟩ => show win17_0.index t (1 : Fin 2) * 192 + 1 * k.val = k.val; rw [e1]; omega

/-- The weight block at every point is the whole weight matrix. -/
theorem weights_block (c : Dev nD) (t : Fin cfg17.N) (k : Fin 192) (j : Fin 192) :
    (iblk17 V c 1 t : FVec Ideal S192x192 .f32) (ix2 k j) = rd2 (V c main_v91 : Arr2 192 192) k.val j.val := by
  obtain ⟨-, -, e2, e3, -⟩ := block_index t
  rw [rd2_ix2]
  unfold iblk17
  rw [View.read_apply]
  show V c main_v91 _ = V c main_v91 _
  congr 1
  funext a
  apply Fin.ext
  match a with
  | ⟨0, _⟩ => show win17_1.index t (0 : Fin 2) * 192 + 1 * k.val = k.val; rw [e2]; omega
  | ⟨1, _⟩ => show win17_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k17_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k17_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg17.N) :
    (dat17 (F := Ideal) V c).flushed 2 t
      = ((cfg17.win 2).blk t).view.read (Elt Ideal) (supAgg (M := 8192) (K := 192) (N := 192) 64 (V c main_v89) (V c main_v91)) := by
  show (cfg17.win 2).cut (grid17.coords t) ((dat17 V c).after 2 t) = _
  rw [after17_2]
  unfold out17_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v89) (V c main_v91) (iblk17 V c 0 t) (iblk17 V c 1 t) t.val
    (features_block V c t) (weights_block V c t) j (((cfg17.win 2).blk t).view.emb j) ?_ ?_
  · show win17_2.index t (0 : Fin 2) * 2048 + 1 * (j 0).val = t.val * 2048 + (j 0).val; rw [e4]; omega
  · show win17_2.index t (1 : Fin 2) * 64 + 1 * (j 1).val = (j 1).val; rw [e5]; omega

/-- An index is in point t's block of the first result iff each coordinate is in the block's range on its axis. -/
theorem mem_block_agg (t : Fin cfg17.N) (i : S8192x64.Idx) :
    i ∈ ((cfg17.win 2).blk t).view.set ↔ ∀ a : Fin 2, win17_2.index t a * S2048x64.size a ≤ (i a).val ∧ (i a).val < win17_2.index t a * S2048x64.size a + S2048x64.size a := by
  show i ∈ ((View.whole main_v94_0).slice (win17_2.rect t)).set ↔ _
  rw [View.set_slice_whole, Rect.mem_set_unit]
  exact Iff.rfl

/-- Row r of the first result is in the block of point r / 2048. -/
theorem cover_agg (i : S8192x64.Idx) : ∃ t : Fin cfg17.N, (cfg17.win 2).flush t = true ∧ i ∈ ((cfg17.win 2).blk t).view.set := by
  have hi0 : (i 0).val < 8192 := (i 0).isLt
  have hi1 : (i 1).val < 64 := (i 1).isLt
  have hN : cfg17.N = 4 := N_17
  have hlt : (i 0).val / 2048 < cfg17.N := by rw [hN]; omega
  obtain ⟨-, -, -, -, e4, e5, -⟩ := block_index ⟨(i 0).val / 2048, hlt⟩
  refine ⟨⟨(i 0).val / 2048, hlt⟩, flush17_2 _, ?_⟩
  rw [mem_block_agg]
  intro a
  match a with
  | ⟨0, _⟩ =>
    show win17_2.index ⟨(i 0).val / 2048, hlt⟩ (0 : Fin 2) * 2048 ≤ (i 0).val ∧ (i 0).val < win17_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win17_2.index ⟨(i 0).val / 2048, hlt⟩ (1 : Fin 2) * 64 ≤ (i 1).val ∧ (i 1).val < win17_2.index ⟨(i 0).val / 2048, hlt⟩ (1 : Fin 2) * 64 + 64
    rw [e5]; omega

/-- The first result after the region: the first 64 columns of the support. -/
theorem final_agg (c : Dev nD) :
    (dat17 (F := Ideal) V c).arrAt 2 cfg17.N = supAgg (M := 8192) (K := 192) (N := 192) 64 (V c main_v89) (V c main_v91) :=
  (dat17 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k17_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k17_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg17.N) :
    (dat17 (F := Ideal) V c).flushed 3 t
      = ((cfg17.win 3).blk t).view.read (Elt Ideal) (supPass (M := 8192) (K := 192) (N := 192) 64 128 (V c main_v89) (V c main_v91)) := by
  show (cfg17.win 3).cut (grid17.coords t) ((dat17 V c).after 3 t) = _
  rw [after17_3]
  unfold out17_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v89) (V c main_v91) (iblk17 V c 0 t) (iblk17 V c 1 t) t.val
    (features_block V c t) (weights_block V c t) j (((cfg17.win 3).blk t).view.emb j) ?_ ?_
  · show win17_3.index t (0 : Fin 2) * 2048 + 1 * (j 0).val = t.val * 2048 + (j 0).val; rw [e6]; omega
  · show win17_3.index t (1 : Fin 2) * 128 + 1 * (j 1).val = (j 1).val; rw [e7]; omega

/-- An index is in point t's block of the second result iff each coordinate is in the block's range on its axis. -/
theorem mem_block_pass (t : Fin cfg17.N) (i : S8192x128.Idx) :
    i ∈ ((cfg17.win 3).blk t).view.set ↔ ∀ a : Fin 2, win17_3.index t a * S2048x128.size a ≤ (i a).val ∧ (i a).val < win17_3.index t a * S2048x128.size a + S2048x128.size a := by
  show i ∈ ((View.whole main_v94_1).slice (win17_3.rect t)).set ↔ _
  rw [View.set_slice_whole, Rect.mem_set_unit]
  exact Iff.rfl

/-- Row r of the second result is in the block of point r / 2048. -/
theorem cover_pass (i : S8192x128.Idx) : ∃ t : Fin cfg17.N, (cfg17.win 3).flush t = true ∧ i ∈ ((cfg17.win 3).blk t).view.set := by
  have hi0 : (i 0).val < 8192 := (i 0).isLt
  have hi1 : (i 1).val < 128 := (i 1).isLt
  have hN : cfg17.N = 4 := N_17
  have hlt : (i 0).val / 2048 < cfg17.N := by rw [hN]; omega
  obtain ⟨-, -, -, -, -, -, e6, e7⟩ := block_index ⟨(i 0).val / 2048, hlt⟩
  refine ⟨⟨(i 0).val / 2048, hlt⟩, flush17_3 _, ?_⟩
  rw [mem_block_pass]
  intro a
  match a with
  | ⟨0, _⟩ =>
    show win17_3.index ⟨(i 0).val / 2048, hlt⟩ (0 : Fin 2) * 2048 ≤ (i 0).val ∧ (i 0).val < win17_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win17_3.index ⟨(i 0).val / 2048, hlt⟩ (1 : Fin 2) * 128 ≤ (i 1).val ∧ (i 1).val < win17_3.index ⟨(i 0).val / 2048, hlt⟩ (1 : Fin 2) * 128 + 128
    rw [e7]; omega

/-- The second result after the region: the remaining 128 columns of the support. -/
theorem final_pass (c : Dev nD) :
    (dat17 (F := Ideal) V c).arrAt 3 cfg17.N = supPass (M := 8192) (K := 192) (N := 192) 64 128 (V c main_v89) (V c main_v91) :=
  (dat17 (F := Ideal) V c).arrAt_eq_of_cover 3 _ (fun t _ => flushed_pass V c t) cover_pass

end Cert.KernelIdeal.Reg17

end
-- ==== Proof.KReg19.lean ====
/-
  Region 19: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg19

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg19.N, win19_0.index t (0 : Fin 2) = t.val ∧ win19_0.index t (1 : Fin 2) = 0
    ∧ win19_1.index t (0 : Fin 2) = 0 ∧ win19_1.index t (1 : Fin 2) = 0
    ∧ win19_2.index t (0 : Fin 2) = t.val ∧ win19_2.index t (1 : Fin 2) = 0
    ∧ win19_3.index t (0 : Fin 2) = t.val ∧ win19_3.index t (1 : Fin 2) = 0 :=
  (by decide +kernel : ∀ t : Fin grid19.N, _)

/-- Row p of the feature block at point t is row 2048 t + p of the features. -/
theorem features_block (c : Dev nD) (t : Fin cfg19.N) (p : Fin 2048) (k : Fin 192) :
    (iblk19 V c 0 t : FVec Ideal S2048x192 .f32) (ix2 p k) = rd2 (V c main_v99 : Arr2 8192 192) (t.val * 2048 + p.val) k.val := by
  obtain ⟨e0, e1, -⟩ := block_index t
  have hN : cfg19.N = 4 := N_19
  have ht : t.val < cfg19.N := t.isLt
  have hp : t.val * 2048 + p.val < 8192 := by omega
  rw [rd2_of_lt _ hp k.isLt]
  unfold iblk19
  rw [View.read_apply]
  show V c main_v99 _ = V c main_v99 _
  congr 1
  funext a
  apply Fin.ext
  match a with
  | ⟨0, _⟩ => show win19_0.index t (0 : Fin 2) * 2048 + 1 * p.val = t.val * 2048 + p.val; rw [e0]; omega
  | ⟨1, _⟩ => show win19_0.index t (1 : Fin 2) * 192 + 1 * k.val = k.val; rw [e1]; omega

/-- The weight block at every point is the whole weight matrix. -/
theorem weights_block (c : Dev nD) (t : Fin cfg19.N) (k : Fin 192) (j : Fin 192) :
    (iblk19 V c 1 t : FVec Ideal S192x192 .f32) (ix2 k j) = rd2 (V c main_v101 : Arr2 192 192) k.val j.val := by
  obtain ⟨-, -, e2, e3, -⟩ := block_index t
  rw [rd2_ix2]
  unfold iblk19
  rw [View.read_apply]
  show V c main_v101 _ = V c main_v101 _
  congr 1
  funext a
  apply Fin.ext
  match a with
  | ⟨0, _⟩ => show win19_1.index t (0 : Fin 2) * 192 + 1 * k.val = k.val; rw [e2]; omega
  | ⟨1, _⟩ => show win19_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k19_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k19_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg19.N) :
    (dat19 (F := Ideal) V c).flushed 2 t
      = ((cfg19.win 2).blk t).view.read (Elt Ideal) (supAgg (M := 8192) (K := 192) (N := 192) 64 (V c main_v99) (V c main_v101)) := by
  show (cfg19.win 2).cut (grid19.coords t) ((dat19 V c).after 2 t) = _
  rw [after19_2]
  unfold out19_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v99) (V c main_v101) (iblk19 V c 0 t) (iblk19 V c 1 t) t.val
    (features_block V c t) (weights_block V c t) j (((cfg19.win 2).blk t).view.emb j) ?_ ?_
  · show win19_2.index t (0 : Fin 2) * 2048 + 1 * (j 0).val = t.val * 2048 + (j 0).val; rw [e4]; omega
  · show win19_2.index t (1 : Fin 2) * 64 + 1 * (j 1).val = (j 1).val; rw [e5]; omega

/-- An index is in point t's block of the first result iff each coordinate is in the block's range on its axis. -/
theorem mem_block_agg (t : Fin cfg19.N) (i : S8192x64.Idx) :
    i ∈ ((cfg19.win 2).blk t).view.set ↔ ∀ a : Fin 2, win19_2.index t a * S2048x64.size a ≤ (i a).val ∧ (i a).val < win19_2.index t a * S2048x64.size a + S2048x64.size a := by
  show i ∈ ((View.whole main_v104_0).slice (win19_2.rect t)).set ↔ _
  rw [View.set_slice_whole, Rect.mem_set_unit]
  exact Iff.rfl

/-- Row r of the first result is in the block of point r / 2048. -/
theorem cover_agg (i : S8192x64.Idx) : ∃ t : Fin cfg19.N, (cfg19.win 2).flush t = true ∧ i ∈ ((cfg19.win 2).blk t).view.set := by
  have hi0 : (i 0).val < 8192 := (i 0).isLt
  have hi1 : (i 1).val < 64 := (i 1).isLt
  have hN : cfg19.N = 4 := N_19
  have hlt : (i 0).val / 2048 < cfg19.N := by rw [hN]; omega
  obtain ⟨-, -, -, -, e4, e5, -⟩ := block_index ⟨(i 0).val / 2048, hlt⟩
  refine ⟨⟨(i 0).val / 2048, hlt⟩, flush19_2 _, ?_⟩
  rw [mem_block_agg]
  intro a
  match a with
  | ⟨0, _⟩ =>
    show win19_2.index ⟨(i 0).val / 2048, hlt⟩ (0 : Fin 2) * 2048 ≤ (i 0).val ∧ (i 0).val < win19_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win19_2.index ⟨(i 0).val / 2048, hlt⟩ (1 : Fin 2) * 64 ≤ (i 1).val ∧ (i 1).val < win19_2.index ⟨(i 0).val / 2048, hlt⟩ (1 : Fin 2) * 64 + 64
    rw [e5]; omega

/-- The first result after the region: the first 64 columns of the support. -/
theorem final_agg (c : Dev nD) :
    (dat19 (F := Ideal) V c).arrAt 2 cfg19.N = supAgg (M := 8192) (K := 192) (N := 192) 64 (V c main_v99) (V c main_v101) :=
  (dat19 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k19_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k19_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg19.N) :
    (dat19 (F := Ideal) V c).flushed 3 t
      = ((cfg19.win 3).blk t).view.read (Elt Ideal) (supPass (M := 8192) (K := 192) (N := 192) 64 128 (V c main_v99) (V c main_v101)) := by
  show (cfg19.win 3).cut (grid19.coords t) ((dat19 V c).after 3 t) = _
  rw [after19_3]
  unfold out19_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v99) (V c main_v101) (iblk19 V c 0 t) (iblk19 V c 1 t) t.val
    (features_block V c t) (weights_block V c t) j (((cfg19.win 3).blk t).view.emb j) ?_ ?_
  · show win19_3.index t (0 : Fin 2) * 2048 + 1 * (j 0).val = t.val * 2048 + (j 0).val; rw [e6]; omega
  · show win19_3.index t (1 : Fin 2) * 128 + 1 * (j 1).val = (j 1).val; rw [e7]; omega

/-- An index is in point t's block of the second result iff each coordinate is in the block's range on its axis. -/
theorem mem_block_pass (t : Fin cfg19.N) (i : S8192x128.Idx) :
    i ∈ ((cfg19.win 3).blk t).view.set ↔ ∀ a : Fin 2, win19_3.index t a * S2048x128.size a ≤ (i a).val ∧ (i a).val < win19_3.index t a * S2048x128.size a + S2048x128.size a := by
  show i ∈ ((View.whole main_v104_1).slice (win19_3.rect t)).set ↔ _
  rw [View.set_slice_whole, Rect.mem_set_unit]
  exact Iff.rfl

/-- Row r of the second result is in the block of point r / 2048. -/
theorem cover_pass (i : S8192x128.Idx) : ∃ t : Fin cfg19.N, (cfg19.win 3).flush t = true ∧ i ∈ ((cfg19.win 3).blk t).view.set := by
  have hi0 : (i 0).val < 8192 := (i 0).isLt
  have hi1 : (i 1).val < 128 := (i 1).isLt
  have hN : cfg19.N = 4 := N_19
  have hlt : (i 0).val / 2048 < cfg19.N := by rw [hN]; omega
  obtain ⟨-, -, -, -, -, -, e6, e7⟩ := block_index ⟨(i 0).val / 2048, hlt⟩
  refine ⟨⟨(i 0).val / 2048, hlt⟩, flush19_3 _, ?_⟩
  rw [mem_block_pass]
  intro a
  match a with
  | ⟨0, _⟩ =>
    show win19_3.index ⟨(i 0).val / 2048, hlt⟩ (0 : Fin 2) * 2048 ≤ (i 0).val ∧ (i 0).val < win19_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win19_3.index ⟨(i 0).val / 2048, hlt⟩ (1 : Fin 2) * 128 ≤ (i 1).val ∧ (i 1).val < win19_3.index ⟨(i 0).val / 2048, hlt⟩ (1 : Fin 2) * 128 + 128
    rw [e7]; omega

/-- The second result after the region: the remaining 128 columns of the support. -/
theorem final_pass (c : Dev nD) :
    (dat19 (F := Ideal) V c).arrAt 3 cfg19.N = supPass (M := 8192) (K := 192) (N := 192) 64 128 (V c main_v99) (V c main_v101) :=
  (dat19 (F := Ideal) V c).arrAt_eq_of_cover 3 _ (fun t _ => flushed_pass V c t) cover_pass

end Cert.KernelIdeal.Reg19

end
-- ==== Proof.KReg21.lean ====
/-
  Region 21: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg21

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg21.N, win21_0.index t (0 : Fin 2) = t.val ∧ win21_0.index t (1 : Fin 2) = 0
    ∧ win21_1.index t (0 : Fin 2) = 0 ∧ win21_1.index t (1 : Fin 2) = 0
    ∧ win21_2.index t (0 : Fin 2) = t.val ∧ win21_2.index t (1 : Fin 2) = 0
    ∧ win21_3.index t (0 : Fin 2) = t.val ∧ win21_3.index t (1 : Fin 2) = 0 :=
  (by decide +kernel : ∀ t : Fin grid21.N, _)

/-- Row p of the feature block at point t is row 2048 t + p of the features. -/
theorem features_block (c : Dev nD) (t : Fin cfg21.N) (p : Fin 2048) (k : Fin 192) :
    (iblk21 V c 0 t : FVec Ideal S2048x192 .f32) (ix2 p k) = rd2 (V c main_v112 : Arr2 8192 192) (t.val * 2048 + p.val) k.val := by
  obtain ⟨e0, e1, -⟩ := block_index t
  have hN : cfg21.N = 4 := N_21
  have ht : t.val < cfg21.N := t.isLt
  have hp : t.val * 2048 + p.val < 8192 := by omega
  rw [rd2_of_lt _ hp k.isLt]
  unfold iblk21
  rw [View.read_apply]
  show V c main_v112 _ = V c main_v112 _
  congr 1
  funext a
  apply Fin.ext
  match a with
  | ⟨0, _⟩ => show win21_0.index t (0 : Fin 2) * 2048 + 1 * p.val = t.val * 2048 + p.val; rw [e0]; omega
  | ⟨1, _⟩ => show win21_0.index t (1 : Fin 2) * 192 + 1 * k.val = k.val; rw [e1]; omega

/-- The weight block at every point is the whole weight matrix. -/
theorem weights_block (c : Dev nD) (t : Fin cfg21.N) (k : Fin 192) (j : Fin 192) :
    (iblk21 V c 1 t : FVec Ideal S192x192 .f32) (ix2 k j) = rd2 (V c main_v114 : Arr2 192 192) k.val j.val := by
  obtain ⟨-, -, e2, e3, -⟩ := block_index t
  rw [rd2_ix2]
  unfold iblk21
  rw [View.read_apply]
  show V c main_v114 _ = V c main_v114 _
  congr 1
  funext a
  apply Fin.ext
  match a with
  | ⟨0, _⟩ => show win21_1.index t (0 : Fin 2) * 192 + 1 * k.val = k.val; rw [e2]; omega
  | ⟨1, _⟩ => show win21_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k21_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k21_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg21.N) :
    (dat21 (F := Ideal) V c).flushed 2 t
      = ((cfg21.win 2).blk t).view.read (Elt Ideal) (supAgg (M := 8192) (K := 192) (N := 192) 64 (V c main_v112) (V c main_v114)) := by
  show (cfg21.win 2).cut (grid21.coords t) ((dat21 V c).after 2 t) = _
  rw [after21_2]
  unfold out21_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v112) (V c main_v114) (iblk21 V c 0 t) (iblk21 V c 1 t) t.val
    (features_block V c t) (weights_block V c t) j (((cfg21.win 2).blk t).view.emb j) ?_ ?_
  · show win21_2.index t (0 : Fin 2) * 2048 + 1 * (j 0).val = t.val * 2048 + (j 0).val; rw [e4]; omega
  · show win21_2.index t (1 : Fin 2) * 64 + 1 * (j 1).val = (j 1).val; rw [e5]; omega

/-- An index is in point t's block of the first result iff each coordinate is in the block's range on its axis. -/
theorem mem_block_agg (t : Fin cfg21.N) (i : S8192x64.Idx) :
    i ∈ ((cfg21.win 2).blk t).view.set ↔ ∀ a : Fin 2, win21_2.index t a * S2048x64.size a ≤ (i a).val ∧ (i a).val < win21_2.index t a * S2048x64.size a + S2048x64.size a := by
  show i ∈ ((View.whole main_v117_0).slice (win21_2.rect t)).set ↔ _
  rw [View.set_slice_whole, Rect.mem_set_unit]
  exact Iff.rfl

/-- Row r of the first result is in the block of point r / 2048. -/
theorem cover_agg (i : S8192x64.Idx) : ∃ t : Fin cfg21.N, (cfg21.win 2).flush t = true ∧ i ∈ ((cfg21.win 2).blk t).view.set := by
  have hi0 : (i 0).val < 8192 := (i 0).isLt
  have hi1 : (i 1).val < 64 := (i 1).isLt
  have hN : cfg21.N = 4 := N_21
  have hlt : (i 0).val / 2048 < cfg21.N := by rw [hN]; omega
  obtain ⟨-, -, -, -, e4, e5, -⟩ := block_index ⟨(i 0).val / 2048, hlt⟩
  refine ⟨⟨(i 0).val / 2048, hlt⟩, flush21_2 _, ?_⟩
  rw [mem_block_agg]
  intro a
  match a with
  | ⟨0, _⟩ =>
    show win21_2.index ⟨(i 0).val / 2048, hlt⟩ (0 : Fin 2) * 2048 ≤ (i 0).val ∧ (i 0).val < win21_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win21_2.index ⟨(i 0).val / 2048, hlt⟩ (1 : Fin 2) * 64 ≤ (i 1).val ∧ (i 1).val < win21_2.index ⟨(i 0).val / 2048, hlt⟩ (1 : Fin 2) * 64 + 64
    rw [e5]; omega

/-- The first result after the region: the first 64 columns of the support. -/
theorem final_agg (c : Dev nD) :
    (dat21 (F := Ideal) V c).arrAt 2 cfg21.N = supAgg (M := 8192) (K := 192) (N := 192) 64 (V c main_v112) (V c main_v114) :=
  (dat21 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k21_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k21_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg21.N) :
    (dat21 (F := Ideal) V c).flushed 3 t
      = ((cfg21.win 3).blk t).view.read (Elt Ideal) (supPass (M := 8192) (K := 192) (N := 192) 64 128 (V c main_v112) (V c main_v114)) := by
  show (cfg21.win 3).cut (grid21.coords t) ((dat21 V c).after 3 t) = _
  rw [after21_3]
  unfold out21_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v112) (V c main_v114) (iblk21 V c 0 t) (iblk21 V c 1 t) t.val
    (features_block V c t) (weights_block V c t) j (((cfg21.win 3).blk t).view.emb j) ?_ ?_
  · show win21_3.index t (0 : Fin 2) * 2048 + 1 * (j 0).val = t.val * 2048 + (j 0).val; rw [e6]; omega
  · show win21_3.index t (1 : Fin 2) * 128 + 1 * (j 1).val = (j 1).val; rw [e7]; omega

/-- An index is in point t's block of the second result iff each coordinate is in the block's range on its axis. -/
theorem mem_block_pass (t : Fin cfg21.N) (i : S8192x128.Idx) :
    i ∈ ((cfg21.win 3).blk t).view.set ↔ ∀ a : Fin 2, win21_3.index t a * S2048x128.size a ≤ (i a).val ∧ (i a).val < win21_3.index t a * S2048x128.size a + S2048x128.size a := by
  show i ∈ ((View.whole main_v117_1).slice (win21_3.rect t)).set ↔ _
  rw [View.set_slice_whole, Rect.mem_set_unit]
  exact Iff.rfl

/-- Row r of the second result is in the block of point r / 2048. -/
theorem cover_pass (i : S8192x128.Idx) : ∃ t : Fin cfg21.N, (cfg21.win 3).flush t = true ∧ i ∈ ((cfg21.win 3).blk t).view.set := by
  have hi0 : (i 0).val < 8192 := (i 0).isLt
  have hi1 : (i 1).val < 128 := (i 1).isLt
  have hN : cfg21.N = 4 := N_21
  have hlt : (i 0).val / 2048 < cfg21.N := by rw [hN]; omega
  obtain ⟨-, -, -, -, -, -, e6, e7⟩ := block_index ⟨(i 0).val / 2048, hlt⟩
  refine ⟨⟨(i 0).val / 2048, hlt⟩, flush21_3 _, ?_⟩
  rw [mem_block_pass]
  intro a
  match a with
  | ⟨0, _⟩ =>
    show win21_3.index ⟨(i 0).val / 2048, hlt⟩ (0 : Fin 2) * 2048 ≤ (i 0).val ∧ (i 0).val < win21_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win21_3.index ⟨(i 0).val / 2048, hlt⟩ (1 : Fin 2) * 128 ≤ (i 1).val ∧ (i 1).val < win21_3.index ⟨(i 0).val / 2048, hlt⟩ (1 : Fin 2) * 128 + 128
    rw [e7]; omega

/-- The second result after the region: the remaining 128 columns of the support. -/
theorem final_pass (c : Dev nD) :
    (dat21 (F := Ideal) V c).arrAt 3 cfg21.N = supPass (M := 8192) (K := 192) (N := 192) 64 128 (V c main_v112) (V c main_v114) :=
  (dat21 (F := Ideal) V c).arrAt_eq_of_cover 3 _ (fun t _ => flushed_pass V c t) cover_pass

end Cert.KernelIdeal.Reg21

end
-- ==== Proof.KReg23.lean ====
/-
  Region 23: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg23

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg23.N, win23_0.index t (0 : Fin 2) = t.val ∧ win23_0.index t (1 : Fin 2) = 0
    ∧ win23_1.index t (0 : Fin 2) = 0 ∧ win23_1.index t (1 : Fin 2) = 0
    ∧ win23_2.index t (0 : Fin 2) = t.val ∧ win23_2.index t (1 : Fin 2) = 0
    ∧ win23_3.index t (0 : Fin 2) = t.val ∧ win23_3.index t (1 : Fin 2) = 0 :=
  (by decide +kernel : ∀ t : Fin grid23.N, _)

/-- Row p of the feature block at point t is row 2048 t + p of the features. -/
theorem features_block (c : Dev nD) (t : Fin cfg23.N) (p : Fin 2048) (k : Fin 192) :
    (iblk23 V c 0 t : FVec Ideal S2048x192 .f32) (ix2 p k) = rd2 (V c main_v122 : Arr2 8192 192) (t.val * 2048 + p.val) k.val := by
  obtain ⟨e0, e1, -⟩ := block_index t
  have hN : cfg23.N = 4 := N_23
  have ht : t.val < cfg23.N := t.isLt
  have hp : t.val * 2048 + p.val < 8192 := by omega
  rw [rd2_of_lt _ hp k.isLt]
  unfold iblk23
  rw [View.read_apply]
  show V c main_v122 _ = V c main_v122 _
  congr 1
  funext a
  apply Fin.ext
  match a with
  | ⟨0, _⟩ => show win23_0.index t (0 : Fin 2) * 2048 + 1 * p.val = t.val * 2048 + p.val; rw [e0]; omega
  | ⟨1, _⟩ => show win23_0.index t (1 : Fin 2) * 192 + 1 * k.val = k.val; rw [e1]; omega

/-- The weight block at every point is the whole weight matrix. -/
theorem weights_block (c : Dev nD) (t : Fin cfg23.N) (k : Fin 192) (j : Fin 192) :
    (iblk23 V c 1 t : FVec Ideal S192x192 .f32) (ix2 k j) = rd2 (V c main_v124 : Arr2 192 192) k.val j.val := by
  obtain ⟨-, -, e2, e3, -⟩ := block_index t
  rw [rd2_ix2]
  unfold iblk23
  rw [View.read_apply]
  show V c main_v124 _ = V c main_v124 _
  congr 1
  funext a
  apply Fin.ext
  match a with
  | ⟨0, _⟩ => show win23_1.index t (0 : Fin 2) * 192 + 1 * k.val = k.val; rw [e2]; omega
  | ⟨1, _⟩ => show win23_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k23_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k23_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg23.N) :
    (dat23 (F := Ideal) V c).flushed 2 t
      = ((cfg23.win 2).blk t).view.read (Elt Ideal) (supAgg (M := 8192) (K := 192) (N := 192) 64 (V c main_v122) (V c main_v124)) := by
  show (cfg23.win 2).cut (grid23.coords t) ((dat23 V c).after 2 t) = _
  rw [after23_2]
  unfold out23_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v122) (V c main_v124) (iblk23 V c 0 t) (iblk23 V c 1 t) t.val
    (features_block V c t) (weights_block V c t) j (((cfg23.win 2).blk t).view.emb j) ?_ ?_
  · show win23_2.index t (0 : Fin 2) * 2048 + 1 * (j 0).val = t.val * 2048 + (j 0).val; rw [e4]; omega
  · show win23_2.index t (1 : Fin 2) * 64 + 1 * (j 1).val = (j 1).val; rw [e5]; omega

/-- An index is in point t's block of the first result iff each coordinate is in the block's range on its axis. -/
theorem mem_block_agg (t : Fin cfg23.N) (i : S8192x64.Idx) :
    i ∈ ((cfg23.win 2).blk t).view.set ↔ ∀ a : Fin 2, win23_2.index t a * S2048x64.size a ≤ (i a).val ∧ (i a).val < win23_2.index t a * S2048x64.size a + S2048x64.size a := by
  show i ∈ ((View.whole main_v127_0).slice (win23_2.rect t)).set ↔ _
  rw [View.set_slice_whole, Rect.mem_set_unit]
  exact Iff.rfl

/-- Row r of the first result is in the block of point r / 2048. -/
theorem cover_agg (i : S8192x64.Idx) : ∃ t : Fin cfg23.N, (cfg23.win 2).flush t = true ∧ i ∈ ((cfg23.win 2).blk t).view.set := by
  have hi0 : (i 0).val < 8192 := (i 0).isLt
  have hi1 : (i 1).val < 64 := (i 1).isLt
  have hN : cfg23.N = 4 := N_23
  have hlt : (i 0).val / 2048 < cfg23.N := by rw [hN]; omega
  obtain ⟨-, -, -, -, e4, e5, -⟩ := block_index ⟨(i 0).val / 2048, hlt⟩
  refine ⟨⟨(i 0).val / 2048, hlt⟩, flush23_2 _, ?_⟩
  rw [mem_block_agg]
  intro a
  match a with
  | ⟨0, _⟩ =>
    show win23_2.index ⟨(i 0).val / 2048, hlt⟩ (0 : Fin 2) * 2048 ≤ (i 0).val ∧ (i 0).val < win23_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win23_2.index ⟨(i 0).val / 2048, hlt⟩ (1 : Fin 2) * 64 ≤ (i 1).val ∧ (i 1).val < win23_2.index ⟨(i 0).val / 2048, hlt⟩ (1 : Fin 2) * 64 + 64
    rw [e5]; omega

/-- The first result after the region: the first 64 columns of the support. -/
theorem final_agg (c : Dev nD) :
    (dat23 (F := Ideal) V c).arrAt 2 cfg23.N = supAgg (M := 8192) (K := 192) (N := 192) 64 (V c main_v122) (V c main_v124) :=
  (dat23 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k23_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k23_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg23.N) :
    (dat23 (F := Ideal) V c).flushed 3 t
      = ((cfg23.win 3).blk t).view.read (Elt Ideal) (supPass (M := 8192) (K := 192) (N := 192) 64 128 (V c main_v122) (V c main_v124)) := by
  show (cfg23.win 3).cut (grid23.coords t) ((dat23 V c).after 3 t) = _
  rw [after23_3]
  unfold out23_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v122) (V c main_v124) (iblk23 V c 0 t) (iblk23 V c 1 t) t.val
    (features_block V c t) (weights_block V c t) j (((cfg23.win 3).blk t).view.emb j) ?_ ?_
  · show win23_3.index t (0 : Fin 2) * 2048 + 1 * (j 0).val = t.val * 2048 + (j 0).val; rw [e6]; omega
  · show win23_3.index t (1 : Fin 2) * 128 + 1 * (j 1).val = (j 1).val; rw [e7]; omega

/-- An index is in point t's block of the second result iff each coordinate is in the block's range on its axis. -/
theorem mem_block_pass (t : Fin cfg23.N) (i : S8192x128.Idx) :
    i ∈ ((cfg23.win 3).blk t).view.set ↔ ∀ a : Fin 2, win23_3.index t a * S2048x128.size a ≤ (i a).val ∧ (i a).val < win23_3.index t a * S2048x128.size a + S2048x128.size a := by
  show i ∈ ((View.whole main_v127_1).slice (win23_3.rect t)).set ↔ _
  rw [View.set_slice_whole, Rect.mem_set_unit]
  exact Iff.rfl

/-- Row r of the second result is in the block of point r / 2048. -/
theorem cover_pass (i : S8192x128.Idx) : ∃ t : Fin cfg23.N, (cfg23.win 3).flush t = true ∧ i ∈ ((cfg23.win 3).blk t).view.set := by
  have hi0 : (i 0).val < 8192 := (i 0).isLt
  have hi1 : (i 1).val < 128 := (i 1).isLt
  have hN : cfg23.N = 4 := N_23
  have hlt : (i 0).val / 2048 < cfg23.N := by rw [hN]; omega
  obtain ⟨-, -, -, -, -, -, e6, e7⟩ := block_index ⟨(i 0).val / 2048, hlt⟩
  refine ⟨⟨(i 0).val / 2048, hlt⟩, flush23_3 _, ?_⟩
  rw [mem_block_pass]
  intro a
  match a with
  | ⟨0, _⟩ =>
    show win23_3.index ⟨(i 0).val / 2048, hlt⟩ (0 : Fin 2) * 2048 ≤ (i 0).val ∧ (i 0).val < win23_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win23_3.index ⟨(i 0).val / 2048, hlt⟩ (1 : Fin 2) * 128 ≤ (i 1).val ∧ (i 1).val < win23_3.index ⟨(i 0).val / 2048, hlt⟩ (1 : Fin 2) * 128 + 128
    rw [e7]; omega

/-- The second result after the region: the remaining 128 columns of the support. -/
theorem final_pass (c : Dev nD) :
    (dat23 (F := Ideal) V c).arrAt 3 cfg23.N = supPass (M := 8192) (K := 192) (N := 192) 64 128 (V c main_v122) (V c main_v124) :=
  (dat23 (F := Ideal) V c).arrAt_eq_of_cover 3 _ (fun t _ => flushed_pass V c t) cover_pass

end Cert.KernelIdeal.Reg23

end
-- ==== Proof.KReg25.lean ====
/-
  Region 25: the projection. Each of the 4 grid points multiplies 2048 rows of the features [8192, 192] by the whole
  weight matrix [192, 192] and writes the first 64 columns of the product to one array and the remaining 128 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg25

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg25.N, win25_0.index t (0 : Fin 2) = t.val ∧ win25_0.index t (1 : Fin 2) = 0
    ∧ win25_1.index t (0 : Fin 2) = 0 ∧ win25_1.index t (1 : Fin 2) = 0
    ∧ win25_2.index t (0 : Fin 2) = t.val ∧ win25_2.index t (1 : Fin 2) = 0
    ∧ win25_3.index t (0 : Fin 2) = t.val ∧ win25_3.index t (1 : Fin 2) = 0 :=
  (by decide +kernel : ∀ t : Fin grid25.N, _)

/-- Row p of the feature block at point t is row 2048 t + p of the features. -/
theorem features_block (c : Dev nD) (t : Fin cfg25.N) (p : Fin 2048) (k : Fin 192) :
    (iblk25 V c 0 t : FVec Ideal S2048x192 .f32) (ix2 p k) = rd2 (V c main_v135 : Arr2 8192 192) (t.val * 2048 + p.val) k.val := by
  obtain ⟨e0, e1, -⟩ := block_index t
  have hN : cfg25.N = 4 := N_25
  have ht : t.val < cfg25.N := t.isLt
  have hp : t.val * 2048 + p.val < 8192 := by omega
  rw [rd2_of_lt _ hp k.isLt]
  unfold iblk25
  rw [View.read_apply]
  show V c main_v135 _ = V c main_v135 _
  congr 1
  funext a
  apply Fin.ext
  match a with
  | ⟨0, _⟩ => show win25_0.index t (0 : Fin 2) * 2048 + 1 * p.val = t.val * 2048 + p.val; rw [e0]; omega
  | ⟨1, _⟩ => show win25_0.index t (1 : Fin 2) * 192 + 1 * k.val = k.val; rw [e1]; omega

/-- The weight block at every point is the whole weight matrix. -/
theorem weights_block (c : Dev nD) (t : Fin cfg25.N) (k : Fin 192) (j : Fin 192) :
    (iblk25 V c 1 t : FVec Ideal S192x192 .f32) (ix2 k j) = rd2 (V c main_v137 : Arr2 192 192) k.val j.val := by
  obtain ⟨-, -, e2, e3, -⟩ := block_index t
  rw [rd2_ix2]
  unfold iblk25
  rw [View.read_apply]
  show V c main_v137 _ = V c main_v137 _
  congr 1
  funext a
  apply Fin.ext
  match a with
  | ⟨0, _⟩ => show win25_1.index t (0 : Fin 2) * 192 + 1 * k.val = k.val; rw [e2]; omega
  | ⟨1, _⟩ => show win25_1.index t (1 : Fin 2) * 192 + 1 * j.val = j.val; rw [e3]; omega

/-! ## The first 64 columns -/

/-- One entry of what a point computes for the first result, against the support's entry it lands on. -/
theorem agg_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x64.Idx) (i : S8192x64.Idx) (hi0 : (i 0).val = T * 2048 + (j 0).val) (hi1 : (i 1).val = (j 1).val) :
    k25_pay2 (F := Ideal) x0 x1 j = supAgg 64 X W i := by
  obtain ⟨p, q, rfl⟩ : ∃ (p : Fin 2048) (q : Fin 64), j = ix2 p q := ⟨j 0, j 1, eq_ix2 j⟩
  obtain ⟨p', q', rfl⟩ : ∃ (p' : Fin 8192) (q' : Fin 64), i = ix2 p' q' := ⟨i 0, i 1, eq_ix2 i⟩
  have hp : p'.val = T * 2048 + p.val := hi0
  have hq : q'.val = q.val := hi1
  rw [Cert.KernelIdeal.Pay.k25_pay2_apply x0 x1 p q ⟨q.val, by have := q.isLt; omega⟩ rfl, supAgg_ix2]
  unfold supp
  refine Finset.sum_congr rfl fun k _ => ?_
  rw [h0, h1, hp, hq]

/-- What point t writes back to the first result is block t of the support's first 64 columns. -/
theorem flushed_agg (c : Dev nD) (t : Fin cfg25.N) :
    (dat25 (F := Ideal) V c).flushed 2 t
      = ((cfg25.win 2).blk t).view.read (Elt Ideal) (supAgg (M := 8192) (K := 192) (N := 192) 64 (V c main_v135) (V c main_v137)) := by
  show (cfg25.win 2).cut (grid25.coords t) ((dat25 V c).after 2 t) = _
  rw [after25_2]
  unfold out25_2
  rw [View.canon_unit_zero zero_offsets]
  simp only [View.ld_unit_zero (S := S2048x192) zero_offsets, View.ld_unit_zero (S := S192x192) zero_offsets]
  obtain ⟨-, -, -, -, e4, e5, -⟩ := block_index t
  funext j
  refine agg_point (V c main_v135) (V c main_v137) (iblk25 V c 0 t) (iblk25 V c 1 t) t.val
    (features_block V c t) (weights_block V c t) j (((cfg25.win 2).blk t).view.emb j) ?_ ?_
  · show win25_2.index t (0 : Fin 2) * 2048 + 1 * (j 0).val = t.val * 2048 + (j 0).val; rw [e4]; omega
  · show win25_2.index t (1 : Fin 2) * 64 + 1 * (j 1).val = (j 1).val; rw [e5]; omega

/-- An index is in point t's block of the first result iff each coordinate is in the block's range on its axis. -/
theorem mem_block_agg (t : Fin cfg25.N) (i : S8192x64.Idx) :
    i ∈ ((cfg25.win 2).blk t).view.set ↔ ∀ a : Fin 2, win25_2.index t a * S2048x64.size a ≤ (i a).val ∧ (i a).val < win25_2.index t a * S2048x64.size a + S2048x64.size a := by
  show i ∈ ((View.whole main_v140_0).slice (win25_2.rect t)).set ↔ _
  rw [View.set_slice_whole, Rect.mem_set_unit]
  exact Iff.rfl

/-- Row r of the first result is in the block of point r / 2048. -/
theorem cover_agg (i : S8192x64.Idx) : ∃ t : Fin cfg25.N, (cfg25.win 2).flush t = true ∧ i ∈ ((cfg25.win 2).blk t).view.set := by
  have hi0 : (i 0).val < 8192 := (i 0).isLt
  have hi1 : (i 1).val < 64 := (i 1).isLt
  have hN : cfg25.N = 4 := N_25
  have hlt : (i 0).val / 2048 < cfg25.N := by rw [hN]; omega
  obtain ⟨-, -, -, -, e4, e5, -⟩ := block_index ⟨(i 0).val / 2048, hlt⟩
  refine ⟨⟨(i 0).val / 2048, hlt⟩, flush25_2 _, ?_⟩
  rw [mem_block_agg]
  intro a
  match a with
  | ⟨0, _⟩ =>
    show win25_2.index ⟨(i 0).val / 2048, hlt⟩ (0 : Fin 2) * 2048 ≤ (i 0).val ∧ (i 0).val < win25_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win25_2.index ⟨(i 0).val / 2048, hlt⟩ (1 : Fin 2) * 64 ≤ (i 1).val ∧ (i 1).val < win25_2.index ⟨(i 0).val / 2048, hlt⟩ (1 : Fin 2) * 64 + 64
    rw [e5]; omega

/-- The first result after the region: the first 64 columns of the support. -/
theorem final_agg (c : Dev nD) :
    (dat25 (F := Ideal) V c).arrAt 2 cfg25.N = supAgg (M := 8192) (K := 192) (N := 192) 64 (V c main_v135) (V c main_v137) :=
  (dat25 (F := Ideal) V c).arrAt_eq_of_cover 2 _ (fun t _ => flushed_agg V c t) cover_agg

/-! ## The remaining 128 columns -/

/-- One entry of what a point computes for the second result, against the support's entry it lands on. -/
theorem pass_point (X : Arr2 8192 192) (W : Arr2 192 192) (x0 : FVec Ideal S2048x192 .f32) (x1 : FVec Ideal S192x192 .f32) (T : ℕ)
    (h0 : ∀ (p : Fin 2048) (k : Fin 192), x0 (ix2 p k) = rd2 X (T * 2048 + p.val) k.val)
    (h1 : ∀ (k : Fin 192) (j : Fin 192), x1 (ix2 k j) = rd2 W k.val j.val)
    (j : S2048x128.Idx) (i : S8192x128.Idx) (hi0 : (i 0).val = T * 2048 + (j 0).val) (hi1 : (i 1).val = (j 1).val) :
    k25_pay3 (F := Ideal) x0 x1 j = supPass 64 128 X W i := by
  obtain ⟨p, q, rfl⟩ : ∃ (p : Fin 2048) (q : Fin 128), j = ix2 p q := ⟨j 0, j 1, eq_ix2 j⟩
  obtain ⟨p', q', rfl⟩ : ∃ (p' : Fin 8192) (q' : Fin 128), i = ix2 p' q' := ⟨i 0, i 1, eq_ix2 i⟩
  have hp : p'.val = T * 2048 + p.val := hi0
  have hq : q'.val = q.val := hi1
  rw [Cert.KernelIdeal.Pay.k25_pay3_apply x0 x1 p q ⟨64 + q.val, by have := q.isLt; omega⟩ rfl, supPass_ix2]
  unfold supp
  refine Finset.sum_congr rfl fun k _ => ?_
  rw [h0, h1, hp, hq]

/-- What point t writes back to the second result is block t of the support's remaining 128 columns. -/
theorem flushed_pass (c : Dev nD) (t : Fin cfg25.N) :
    (dat25 (F := Ideal) V c).flushed 3 t
      = ((cfg25.win 3).blk t).view.read (Elt Ideal) (supPass (M := 8192) (K := 192) (N := 192) 64 128 (V c main_v135) (V c main_v137)) := by
  show (cfg25.win 3).cut (grid25.coords t) ((dat25 V c).after 3 t) = _
  rw [after25_3]
  unfold out25_3
  rw [View.canon_unit_zero zero_offsets]
  simp only [View.ld_unit_zero (S := S2048x192) zero_offsets, View.ld_unit_zero (S := S192x192) zero_offsets]
  obtain ⟨-, -, -, -, -, -, e6, e7⟩ := block_index t
  funext j
  refine pass_point (V c main_v135) (V c main_v137) (iblk25 V c 0 t) (iblk25 V c 1 t) t.val
    (features_block V c t) (weights_block V c t) j (((cfg25.win 3).blk t).view.emb j) ?_ ?_
  · show win25_3.index t (0 : Fin 2) * 2048 + 1 * (j 0).val = t.val * 2048 + (j 0).val; rw [e6]; omega
  · show win25_3.index t (1 : Fin 2) * 128 + 1 * (j 1).val = (j 1).val; rw [e7]; omega

/-- An index is in point t's block of the second result iff each coordinate is in the block's range on its axis. -/
theorem mem_block_pass (t : Fin cfg25.N) (i : S8192x128.Idx) :
    i ∈ ((cfg25.win 3).blk t).view.set ↔ ∀ a : Fin 2, win25_3.index t a * S2048x128.size a ≤ (i a).val ∧ (i a).val < win25_3.index t a * S2048x128.size a + S2048x128.size a := by
  show i ∈ ((View.whole main_v140_1).slice (win25_3.rect t)).set ↔ _
  rw [View.set_slice_whole, Rect.mem_set_unit]
  exact Iff.rfl

/-- Row r of the second result is in the block of point r / 2048. -/
theorem cover_pass (i : S8192x128.Idx) : ∃ t : Fin cfg25.N, (cfg25.win 3).flush t = true ∧ i ∈ ((cfg25.win 3).blk t).view.set := by
  have hi0 : (i 0).val < 8192 := (i 0).isLt
  have hi1 : (i 1).val < 128 := (i 1).isLt
  have hN : cfg25.N = 4 := N_25
  have hlt : (i 0).val / 2048 < cfg25.N := by rw [hN]; omega
  obtain ⟨-, -, -, -, -, -, e6, e7⟩ := block_index ⟨(i 0).val / 2048, hlt⟩
  refine ⟨⟨(i 0).val / 2048, hlt⟩, flush25_3 _, ?_⟩
  rw [mem_block_pass]
  intro a
  match a with
  | ⟨0, _⟩ =>
    show win25_3.index ⟨(i 0).val / 2048, hlt⟩ (0 : Fin 2) * 2048 ≤ (i 0).val ∧ (i 0).val < win25_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win25_3.index ⟨(i 0).val / 2048, hlt⟩ (1 : Fin 2) * 128 ≤ (i 1).val ∧ (i 1).val < win25_3.index ⟨(i 0).val / 2048, hlt⟩ (1 : Fin 2) * 128 + 128
    rw [e7]; omega

/-- The second result after the region: the remaining 128 columns of the support. -/
theorem final_pass (c : Dev nD) :
    (dat25 (F := Ideal) V c).arrAt 3 cfg25.N = supPass (M := 8192) (K := 192) (N := 192) 64 128 (V c main_v135) (V c main_v137) :=
  (dat25 (F := Ideal) V c).arrAt_eq_of_cover 3 _ (fun t _ => flushed_pass V c t) cover_pass

end Cert.KernelIdeal.Reg25

end
-- ==== Proof.KReg27.lean ====
/-
  Region 27: the projection. Each of the 4 grid points multiplies 2048 rows of the features [8192, 192] by the whole
  weight matrix [192, 3] and writes the first 2 columns of the product to one array and the remaining 1 to another.
  Row 2048 t + p of an array is row p of its block t, so the two arrays end holding the two column ranges of the
  support of the features and the weights the region is entered with.
-/
import proofs.«108744_j27797028339962_2_alg».proof.Proof.Gen.KernelIdeal.Frame
import proofs.«108744_j27797028339962_2_alg».proof.Proof.Spec
import proofs.«108744_j27797028339962_2_alg».proof.Proof.KPay
import Idealize.ShloMosaic.Lib.Pipeline.Value

set_option maxRecDepth 16384

noncomputable section

open scoped BigOperators

namespace Cert.KernelIdeal.Reg27

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the feature and the two result windows are at block (t, 0), the
    weight window at block (0, 0). -/
theorem block_index : ∀ t : Fin cfg27.N, win27_0.index t (0 : Fin 2) = t.val ∧ win27_0.index t (1 : Fin 2) = 0
    ∧ win27_1.index t (0 : Fin 2) = 0 ∧ win27_1.index t (1 : Fin 2) = 0
    ∧ win27_2.index t (0 : Fin 2) = t.val ∧ win27_2.index t (1 : Fin 2) = 0
    ∧ win27_3.index t (0 : Fin 2) = t.val ∧ win27_3.index t (1 : Fin 2) = 0 :=
  (by decide +kernel : ∀ t : Fin grid27.N, _)

/-- Row p of the feature block at point t is row 2048 t + p of the features. -/
theorem features_block (c : Dev nD) (t : Fin cfg27.N) (p : Fin 2048) (k : Fin 192) :
    (iblk27 V c 0 t : FVec Ideal S2048x192 .f32) (ix2 p k) = rd2 (V c main_v148 : Arr2 8192 192) (t.val * 2048 + p.val) k.val := by
  obtain ⟨e0, e1, -⟩ := block_index t
  have hN : cfg27.N = 4 := N_27
  have ht : t.val < cfg27.N := t.isLt
  have hp : t.val * 2048 + p.val < 8192 := by omega
  rw [rd2_of_lt _ hp k.isLt]
  unfold iblk27
  rw [View.read_apply]
  show V c main_v148 _ = V c main_v148 _
  congr 1
  funext a
  apply Fin.ext
  match a with
  | ⟨0, _⟩ => show win27_0.index t (0 : Fin 2) * 2048 + 1 * p.val = t.val * 2048 + p.val; rw [e0]; omega
  | ⟨1, _⟩ => show win27_0.index t (1 : Fin 2) * 192 + 1 * k.val = k.val; rw [e1]; omega

/-- The weight block at every point is the whole weight matrix. -/
theorem weights_block (c : Dev nD) (t : Fin cfg27.N) (k : Fin 192) (j : Fin 3) :
    (iblk27 V c 1 t : FVec Ideal S192x3 .f32) (ix2 k j) = rd2 (V c main_arg6 : Arr2 192 3) k.val j.val := by
  obtain ⟨-, -, e2, e3, -⟩ := block_index t
  rw [rd2_ix2]
  unfold iblk27
  rw [View.read_apply]
  show V c main_arg6 _ = V c main_arg6 _
  congr 1
  funext a
  apply Fin.ext
  match a with
  | ⟨0, _⟩ => show win27_1.index t (0 : Fin 2) * 192 + 1 * k.val = k.val; rw [e2]; omega
  | ⟨1, _⟩ => show win27_1.index t (1 : Fin 2) * 3 + 1 * j.val = j.val; rw [e3]; omega

/-! ## The first 2 columns -/

/-- One entry of what a point computes for the first result, against the support's entry it lands on. -/
theorem agg_point (X : Arr2 8192 192) (W : Arr2 192 3) (x0 : FVec Ideal S2048x192 .f32) (x1 : FVec Ideal S192x3 .f32) (T : ℕ)
    (h0 : ∀ (p : Fin 2048) (k : Fin 192), x0 (ix2 p k) = rd2 X (T * 2048 + p.val) k.val)
    (h1 : ∀ (k : Fin 192) (j : Fin 3), x1 (ix2 k j) = rd2 W k.val j.val)
    (j : S2048x2.Idx) (i : S8192x2.Idx) (hi0 : (i 0).val = T * 2048 + (j 0).val) (hi1 : (i 1).val = (j 1).val) :
    k27_pay2 (F := Ideal) x0 x1 j = supAgg 2 X W i := by
  obtain ⟨p, q, rfl⟩ : ∃ (p : Fin 2048) (q : Fin 2), j = ix2 p q := ⟨j 0, j 1, eq_ix2 j⟩
  obtain ⟨p', q', rfl⟩ : ∃ (p' : Fin 8192) (q' : Fin 2), i = ix2 p' q' := ⟨i 0, i 1, eq_ix2 i⟩
  have hp : p'.val = T * 2048 + p.val := hi0
  have hq : q'.val = q.val := hi1
  rw [Cert.KernelIdeal.Pay.k27_pay2_apply x0 x1 p q ⟨q.val, by have := q.isLt; omega⟩ rfl, supAgg_ix2]
  unfold supp
  refine Finset.sum_congr rfl fun k _ => ?_
  rw [h0, h1, hp, hq]

/-- What point t writes back to the first result is block t of the support's first 2 columns. -/
theorem flushed_agg (c : Dev nD) (t : Fin cfg27.N) :
    (dat27 (F := Ideal) V c).flushed 2 t
      = ((cfg27.win 2).blk t).view.read (Elt Ideal) (supAgg (M := 8192) (K := 192) (N := 3) 2 (V c main_v148) (V c main_arg6)) := by
  show (cfg27.win 2).cut (grid27.coords t) ((dat27 V c).after 2 t) = _
  rw [after27_2]
  unfold out27_2
  rw [View.canon_unit_zero zero_offsets]
  simp only [View.ld_unit_zero (S := S2048x192) zero_offsets, View.ld_unit_zero (S := S192x3) zero_offsets]
  obtain ⟨-, -, -, -, e4, e5, -⟩ := block_index t
  funext j
  refine agg_point (V c main_v148) (V c main_arg6) (iblk27 V c 0 t) (iblk27 V c 1 t) t.val
    (features_block V c t) (weights_block V c t) j (((cfg27.win 2).blk t).view.emb j) ?_ ?_
  · show win27_2.index t (0 : Fin 2) * 2048 + 1 * (j 0).val = t.val * 2048 + (j 0).val; rw [e4]; omega
  · show win27_2.index t (1 : Fin 2) * 2 + 1 * (j 1).val = (j 1).val; rw [e5]; omega

/-- An index is in point t's block of the first result iff each coordinate is in the block's range on its axis. -/
theorem mem_block_agg (t : Fin cfg27.N) (i : S8192x2.Idx) :
    i ∈ ((cfg27.win 2).blk t).view.set ↔ ∀ a : Fin 2, win27_2.index t a * S2048x2.size a ≤ (i a).val ∧ (i a).val < win27_2.index t a * S2048x2.size a + S2048x2.size a := by
  show i ∈ ((View.whole main_v149_0).slice (win27_2.rect t)).set ↔ _
  rw [View.set_slice_whole, Rect.mem_set_unit]
  exact Iff.rfl

/-- Row r of the first result is in the block of point r / 2048. -/
theorem cover_agg (i : S8192x2.Idx) : ∃ t : Fin cfg27.N, (cfg27.win 2).flush t = true ∧ i ∈ ((cfg27.win 2).blk t).view.set := by
  have hi0 : (i 0).val < 8192 := (i 0).isLt
  have hi1 : (i 1).val < 2 := (i 1).isLt
  have hN : cfg27.N = 4 := N_27
  have hlt : (i 0).val / 2048 < cfg27.N := by rw [hN]; omega
  obtain ⟨-, -, -, -, e4, e5, -⟩ := block_index ⟨(i 0).val / 2048, hlt⟩
  refine ⟨⟨(i 0).val / 2048, hlt⟩, flush27_2 _, ?_⟩
  rw [mem_block_agg]
  intro a
  match a with
  | ⟨0, _⟩ =>
    show win27_2.index ⟨(i 0).val / 2048, hlt⟩ (0 : Fin 2) * 2048 ≤ (i 0).val ∧ (i 0).val < win27_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win27_2.index ⟨(i 0).val / 2048, hlt⟩ (1 : Fin 2) * 2 ≤ (i 1).val ∧ (i 1).val < win27_2.index ⟨(i 0).val / 2048, hlt⟩ (1 : Fin 2) * 2 + 2
    rw [e5]; omega

/-- The first result after the region: the first 2 columns of the support. -/
theorem final_agg (c : Dev nD) :
    (dat27 (F := Ideal) V c).arrAt 2 cfg27.N = supAgg (M := 8192) (K := 192) (N := 3) 2 (V c main_v148) (V c main_arg6) :=
  (dat27 (F := Ideal) V c).arrAt_eq_of_cover 2 _ (fun t _ => flushed_agg V c t) cover_agg

/-! ## The remaining 1 columns -/

/-- One entry of what a point computes for the second result, against the support's entry it lands on. -/
theorem pass_point (X : Arr2 8192 192) (W : Arr2 192 3) (x0 : FVec Ideal S2048x192 .f32) (x1 : FVec Ideal S192x3 .f32) (T : ℕ)
    (h0 : ∀ (p : Fin 2048) (k : Fin 192), x0 (ix2 p k) = rd2 X (T * 2048 + p.val) k.val)
    (h1 : ∀ (k : Fin 192) (j : Fin 3), x1 (ix2 k j) = rd2 W k.val j.val)
    (j : S2048x1.Idx) (i : S8192x1.Idx) (hi0 : (i 0).val = T * 2048 + (j 0).val) (hi1 : (i 1).val = (j 1).val) :
    k27_pay3 (F := Ideal) x0 x1 j = supPass 2 1 X W i := by
  obtain ⟨p, q, rfl⟩ : ∃ (p : Fin 2048) (q : Fin 1), j = ix2 p q := ⟨j 0, j 1, eq_ix2 j⟩
  obtain ⟨p', q', rfl⟩ : ∃ (p' : Fin 8192) (q' : Fin 1), i = ix2 p' q' := ⟨i 0, i 1, eq_ix2 i⟩
  have hp : p'.val = T * 2048 + p.val := hi0
  have hq : q'.val = q.val := hi1
  rw [Cert.KernelIdeal.Pay.k27_pay3_apply x0 x1 p q ⟨2 + q.val, by have := q.isLt; omega⟩ rfl, supPass_ix2]
  unfold supp
  refine Finset.sum_congr rfl fun k _ => ?_
  rw [h0, h1, hp, hq]

/-- What point t writes back to the second result is block t of the support's remaining 1 columns. -/
theorem flushed_pass (c : Dev nD) (t : Fin cfg27.N) :
    (dat27 (F := Ideal) V c).flushed 3 t
      = ((cfg27.win 3).blk t).view.read (Elt Ideal) (supPass (M := 8192) (K := 192) (N := 3) 2 1 (V c main_v148) (V c main_arg6)) := by
  show (cfg27.win 3).cut (grid27.coords t) ((dat27 V c).after 3 t) = _
  rw [after27_3]
  unfold out27_3
  rw [View.canon_unit_zero zero_offsets]
  simp only [View.ld_unit_zero (S := S2048x192) zero_offsets, View.ld_unit_zero (S := S192x3) zero_offsets]
  obtain ⟨-, -, -, -, -, -, e6, e7⟩ := block_index t
  funext j
  refine pass_point (V c main_v148) (V c main_arg6) (iblk27 V c 0 t) (iblk27 V c 1 t) t.val
    (features_block V c t) (weights_block V c t) j (((cfg27.win 3).blk t).view.emb j) ?_ ?_
  · show win27_3.index t (0 : Fin 2) * 2048 + 1 * (j 0).val = t.val * 2048 + (j 0).val; rw [e6]; omega
  · show win27_3.index t (1 : Fin 2) * 1 + 1 * (j 1).val = (j 1).val; rw [e7]; omega

/-- An index is in point t's block of the second result iff each coordinate is in the block's range on its axis. -/
theorem mem_block_pass (t : Fin cfg27.N) (i : S8192x1.Idx) :
    i ∈ ((cfg27.win 3).blk t).view.set ↔ ∀ a : Fin 2, win27_3.index t a * S2048x1.size a ≤ (i a).val ∧ (i a).val < win27_3.index t a * S2048x1.size a + S2048x1.size a := by
  show i ∈ ((View.whole main_v149_1).slice (win27_3.rect t)).set ↔ _
  rw [View.set_slice_whole, Rect.mem_set_unit]
  exact Iff.rfl

/-- Row r of the second result is in the block of point r / 2048. -/
theorem cover_pass (i : S8192x1.Idx) : ∃ t : Fin cfg27.N, (cfg27.win 3).flush t = true ∧ i ∈ ((cfg27.win 3).blk t).view.set := by
  have hi0 : (i 0).val < 8192 := (i 0).isLt
  have hi1 : (i 1).val < 1 := (i 1).isLt
  have hN : cfg27.N = 4 := N_27
  have hlt : (i 0).val / 2048 < cfg27.N := by rw [hN]; omega
  obtain ⟨-, -, -, -, -, -, e6, e7⟩ := block_index ⟨(i 0).val / 2048, hlt⟩
  refine ⟨⟨(i 0).val / 2048, hlt⟩, flush27_3 _, ?_⟩
  rw [mem_block_pass]
  intro a
  match a with
  | ⟨0, _⟩ =>
    show win27_3.index ⟨(i 0).val / 2048, hlt⟩ (0 : Fin 2) * 2048 ≤ (i 0).val ∧ (i 0).val < win27_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win27_3.index ⟨(i 0).val / 2048, hlt⟩ (1 : Fin 2) * 1 ≤ (i 1).val ∧ (i 1).val < win27_3.index ⟨(i 0).val / 2048, hlt⟩ (1 : Fin 2) * 1 + 1
    rw [e7]; omega

/-- The second result after the region: the remaining 1 columns of the support. -/
theorem final_pass (c : Dev nD) :
    (dat27 (F := Ideal) V c).arrAt 3 cfg27.N = supPass (M := 8192) (K := 192) (N := 3) 2 1 (V c main_v148) (V c main_arg6) :=
  (dat27 (F := Ideal) V c).arrAt_eq_of_cover 3 _ (fun t _ => flushed_pass V c t) cover_pass

end Cert.KernelIdeal.Reg27

end
-- ==== Proof.KPayAgg.lean ====
/-
  What an aggregation body computes, one entry at a time, on the extended reals.

  The body joins two pieces side by side. Entry (p, j) with j among the first columns is the product of the adjacency
  rows by the first support piece at (p, j), plus the first bias piece at j, cut at zero; entry (p, S + j) is the second
  support piece at (p, j) plus the second bias piece at j, cut at zero. The last layer's body does not cut.
-/
import proofs.«108744_j27797028339962_2_alg».proof.Proof.Gen.KernelIdeal.Skeleton
import proofs.«108744_j27797028339962_2_alg».proof.Proof.LibPlainLayers
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-! ## The aggregation body on 512 adjacency rows, support pieces of 64 and 128 columns -/

/-- A column among the first 64: neighbours' sum plus bias, cut at zero. -/
theorem k2_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k2_pay1 (F := Ideal) v0 v2 v5 v9 v11 (ix2 p j')
      = max ((∑ r : Fin 8192, v0 (ix2 p r) * v2 (ix2 r j)) + v5 (ix2 (0 : Fin 1) j)) 0 := by
  unfold k2_pay1
  refine (concatenate_pair_apply_left (t := S512x192) (s₁ := S512x64) (s₂ := S512x128) (1 : Fin 2) _ _ concatenates_S512x64_S512x128_S512x192_d1 (ix2 p j') rfl (ix2 p j) ?_).trans ?_
  · intro b
    match b with
    | ⟨0, _⟩ => rfl
    | ⟨1, _⟩ => exact hj.symm
  · refine congrArg₂ max (congrArg₂ (· + ·) ?_ ?_) Ideal.ofBits_zero_f32
    · rw [shapeCast_self v0, shapeCast_self v2]
      exact Cert.PlainLayers.plainMM_of_eq dot_S512x8192_S8192x64_S512x64_1_0_0_1_n_n rfl none v0 v2 p j
    · exact (broadcastTo_1b_ab_apply _ broadcasts_S1x64_S512x64 p j).trans (congrFun (shapeCast_self v5 _) _)

/-- A column past the first 64: the second support piece plus its bias, cut at zero. -/
theorem k2_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k2_pay1 (F := Ideal) v0 v2 v5 v9 v11 (ix2 p j') = max (v9 (ix2 p j) + v11 (ix2 (0 : Fin 1) j)) 0 := by
  unfold k2_pay1
  refine (concatenate_pair_apply_right (t := S512x192) (s₁ := S512x64) (s₂ := S512x128) (1 : Fin 2) _ _ concatenates_S512x64_S512x128_S512x192_d1 (ix2 p j') rfl rfl (ix2 p j) ?_ ?_).trans ?_
  · intro b hb
    match b with
    | ⟨0, _⟩ => rfl
    | ⟨1, _⟩ => exact absurd rfl hb
  · show j.val + 64 = j'.val; omega
  · refine congrArg₂ max (congrArg₂ (· + ·) ?_ ?_) Ideal.ofBits_zero_f32
    · exact congrFun (shapeCast_self v9 _) _
    · exact (broadcastTo_1b_ab_apply _ broadcasts_S1x128_S512x128 p j).trans (congrFun (shapeCast_self v11 _) _)

/-! ## The aggregation body on 512 adjacency rows, support pieces of 2 and 1 columns, without the cut at zero -/

/-- A column among the first 2: neighbours' sum plus bias. -/
theorem k28_pay1_left (v0 : FVec Ideal S512x8192 .bf16) (v2 : FVec Ideal S8192x2 .bf16) (v5 : FVec Ideal S1x2 .f32)
    (v9 : FVec Ideal S512x1 .f32) (v11 : FVec Ideal S1x1 .f32) (p : Fin 512) (j : Fin 2) (j' : Fin 3) (hj : j'.val = j.val) :
    k28_pay1 (F := Ideal) v0 v2 v5 v9 v11 (ix2 p j')
      = (∑ r : Fin 8192, v0 (ix2 p r) * v2 (ix2 r j)) + v5 (ix2 (0 : Fin 1) j) := by
  unfold k28_pay1
  refine (concatenate_pair_apply_left (t := S512x3) (s₁ := S512x2) (s₂ := S512x1) (1 : Fin 2) _ _ concatenates_S512x2_S512x1_S512x3_d1 (ix2 p j') rfl (ix2 p j) ?_).trans ?_
  · intro b
    match b with
    | ⟨0, _⟩ => rfl
    | ⟨1, _⟩ => exact hj.symm
  · refine congrArg₂ (· + ·) ?_ ?_
    · rw [shapeCast_self v0, shapeCast_self v2]
      exact Cert.PlainLayers.plainMM_of_eq dot_S512x8192_S8192x2_S512x2_1_0_0_1_n_n rfl none v0 v2 p j
    · exact (broadcastTo_1b_ab_apply _ broadcasts_S1x2_S512x2 p j).trans (congrFun (shapeCast_self v5 _) _)

/-- A column past the first 2: the second support piece plus its bias. -/
theorem k28_pay1_right (v0 : FVec Ideal S512x8192 .bf16) (v2 : FVec Ideal S8192x2 .bf16) (v5 : FVec Ideal S1x2 .f32)
    (v9 : FVec Ideal S512x1 .f32) (v11 : FVec Ideal S1x1 .f32) (p : Fin 512) (j : Fin 1) (j' : Fin 3) (hj : j'.val = 2 + j.val) :
    k28_pay1 (F := Ideal) v0 v2 v5 v9 v11 (ix2 p j') = v9 (ix2 p j) + v11 (ix2 (0 : Fin 1) j) := by
  unfold k28_pay1
  refine (concatenate_pair_apply_right (t := S512x3) (s₁ := S512x2) (s₂ := S512x1) (1 : Fin 2) _ _ concatenates_S512x2_S512x1_S512x3_d1 (ix2 p j') rfl rfl (ix2 p j) ?_ ?_).trans ?_
  · intro b hb
    match b with
    | ⟨0, _⟩ => rfl
    | ⟨1, _⟩ => exact absurd rfl hb
  · show j.val + 2 = j'.val; omega
  · refine congrArg₂ (· + ·) ?_ ?_
    · exact congrFun (shapeCast_self v9 _) _
    · exact (broadcastTo_1b_ab_apply _ broadcasts_S1x1_S512x1 p j).trans (congrFun (shapeCast_self v11 _) _)

/-! ## The thirteen aggregation regions that cut at zero share one body -/

/-- Region 4's body is the same term. -/
theorem k4_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k4_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k4_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k4_pay1 (F := Ideal) v0 v2 v5 v9 v11 (ix2 p j') = max (v9 (ix2 p j) + v11 (ix2 (0 : Fin 1) j)) 0 :=
  k2_pay1_right v0 v2 v5 v9 v11 p j j' hj

/-- Region 6's body is the same term. -/
theorem k6_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k6_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k6_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k6_pay1 (F := Ideal) v0 v2 v5 v9 v11 (ix2 p j') = max (v9 (ix2 p j) + v11 (ix2 (0 : Fin 1) j)) 0 :=
  k2_pay1_right v0 v2 v5 v9 v11 p j j' hj

/-- Region 8's body is the same term. -/
theorem k8_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k8_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k8_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k8_pay1 (F := Ideal) v0 v2 v5 v9 v11 (ix2 p j') = max (v9 (ix2 p j) + v11 (ix2 (0 : Fin 1) j)) 0 :=
  k2_pay1_right v0 v2 v5 v9 v11 p j j' hj

/-- Region 10's body is the same term. -/
theorem k10_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k10_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k10_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k10_pay1 (F := Ideal) v0 v2 v5 v9 v11 (ix2 p j') = max (v9 (ix2 p j) + v11 (ix2 (0 : Fin 1) j)) 0 :=
  k2_pay1_right v0 v2 v5 v9 v11 p j j' hj

/-- Region 12's body is the same term. -/
theorem k12_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k12_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k12_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k12_pay1 (F := Ideal) v0 v2 v5 v9 v11 (ix2 p j') = max (v9 (ix2 p j) + v11 (ix2 (0 : Fin 1) j)) 0 :=
  k2_pay1_right v0 v2 v5 v9 v11 p j j' hj

/-- Region 14's body is the same term. -/
theorem k14_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k14_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k14_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k14_pay1 (F := Ideal) v0 v2 v5 v9 v11 (ix2 p j') = max (v9 (ix2 p j) + v11 (ix2 (0 : Fin 1) j)) 0 :=
  k2_pay1_right v0 v2 v5 v9 v11 p j j' hj

/-- Region 16's body is the same term. -/
theorem k16_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k16_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k16_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k16_pay1 (F := Ideal) v0 v2 v5 v9 v11 (ix2 p j') = max (v9 (ix2 p j) + v11 (ix2 (0 : Fin 1) j)) 0 :=
  k2_pay1_right v0 v2 v5 v9 v11 p j j' hj

/-- Region 18's body is the same term. -/
theorem k18_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k18_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k18_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k18_pay1 (F := Ideal) v0 v2 v5 v9 v11 (ix2 p j') = max (v9 (ix2 p j) + v11 (ix2 (0 : Fin 1) j)) 0 :=
  k2_pay1_right v0 v2 v5 v9 v11 p j j' hj

/-- Region 20's body is the same term. -/
theorem k20_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k20_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k20_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k20_pay1 (F := Ideal) v0 v2 v5 v9 v11 (ix2 p j') = max (v9 (ix2 p j) + v11 (ix2 (0 : Fin 1) j)) 0 :=
  k2_pay1_right v0 v2 v5 v9 v11 p j j' hj

/-- Region 22's body is the same term. -/
theorem k22_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k22_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k22_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k22_pay1 (F := Ideal) v0 v2 v5 v9 v11 (ix2 p j') = max (v9 (ix2 p j) + v11 (ix2 (0 : Fin 1) j)) 0 :=
  k2_pay1_right v0 v2 v5 v9 v11 p j j' hj

/-- Region 24's body is the same term. -/
theorem k24_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k24_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k24_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k24_pay1 (F := Ideal) v0 v2 v5 v9 v11 (ix2 p j') = max (v9 (ix2 p j) + v11 (ix2 (0 : Fin 1) j)) 0 :=
  k2_pay1_right v0 v2 v5 v9 v11 p j j' hj

/-- Region 26's body is the same term. -/
theorem k26_pay1_left (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 64) (j' : Fin 192) (hj : j'.val = j.val) :
    k26_pay1 (F := Ideal) v0 v2 v5 v9 v11 (ix2 p j')
      = max ((∑ r : Fin 8192, v0 (ix2 p r) * v2 (ix2 r j)) + v5 (ix2 (0 : Fin 1) j)) 0 :=
  k2_pay1_left v0 v2 v5 v9 v11 p j j' hj
theorem k26_pay1_right (v0 : FVec Ideal S512x8192 .bf16) (v2 : FVec Ideal S8192x64 .bf16) (v5 : FVec Ideal S1x64 .f32)
    (v9 : FVec Ideal S512x128 .f32) (v11 : FVec Ideal S1x128 .f32) (p : Fin 512) (j : Fin 128) (j' : Fin 192) (hj : j'.val = 64 + j.val) :
    k26_pay1 (F := Ideal) v0 v2 v5 v9 v11 (ix2 p j') = max (v9 (ix2 p j) + v11 (ix2 (0 : Fin 1) j)) 0 :=
  k2_pay1_right v0 v2 v5 v9 v11 p j j' hj

end Cert.KernelIdeal.Pay

end
-- ==== Proof.KReg2.lean ====
/-
  Region 2: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg2

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the adjacency block at point t is row 512 t + p of the adjacency. -/
theorem adjacency_block (c : Dev nD) (t : Fin cfg2.N) (p : Fin 512) (r : Fin 8192) :
    (iblk2 V c 0 t : FVec Ideal S512x8192 .bf16) (ix2 p r) = rd2 (V c main_v0 : Arr2 8192 8192) (t.val * 512 + p.val) r.val := by
  obtain ⟨e0, e1, -⟩ := block_index t
  have hN : cfg2.N = 16 := N_2
  have ht : t.val < cfg2.N := t.isLt
  have hp : t.val * 512 + p.val < 8192 := by omega
  rw [rd2_of_lt _ hp r.isLt]
  unfold iblk2
  rw [View.read_apply]
  show V c main_v0 _ = V c main_v0 _
  congr 1
  funext a
  apply Fin.ext
  match a with
  | ⟨0, _⟩ => show win2_0.index t (0 : Fin 2) * 512 + 1 * p.val = t.val * 512 + p.val; rw [e0]; omega
  | ⟨1, _⟩ => show win2_0.index t (1 : Fin 2) * 8192 + 1 * r.val = r.val; rw [e1]; omega

/-- The first support piece's block at every point is the whole piece. -/
theorem support_agg_block (c : Dev nD) (t : Fin cfg2.N) (r : Fin 8192) (j : Fin 64) :
    (iblk2 V c 1 t : FVec Ideal S8192x64 .bf16) (ix2 r j) = rd2 (V c main_v1_0 : Arr2 8192 64) r.val j.val := by
  obtain ⟨-, -, e2, e3, -⟩ := block_index t
  rw [rd2_ix2]
  unfold iblk2
  rw [View.read_apply]
  show V c main_v1_0 _ = V c main_v1_0 _
  congr 1
  funext a
  apply Fin.ext
  match a with
  | ⟨0, _⟩ => show win2_1.index t (0 : Fin 2) * 8192 + 1 * r.val = r.val; rw [e2]; omega
  | ⟨1, _⟩ => show win2_1.index t (1 : Fin 2) * 64 + 1 * j.val = j.val; rw [e3]; omega

/-- Row p of the second support piece's block at point t is row 512 t + p of the piece. -/
theorem support_pass_block (c : Dev nD) (t : Fin cfg2.N) (p : Fin 512) (j : Fin 128) :
    (iblk2 V c 2 t : FVec Ideal S512x128 .f32) (ix2 p j) = rd2 (V c main_v1_1 : Arr2 8192 128) (t.val * 512 + p.val) j.val := by
  obtain ⟨-, -, -, -, e4, e5, -⟩ := block_index t
  have hN : cfg2.N = 16 := N_2
  have ht : t.val < cfg2.N := t.isLt
  have hp : t.val * 512 + p.val < 8192 := by omega
  rw [rd2_of_lt _ hp j.isLt]
  unfold iblk2
  rw [View.read_apply]
  show V c main_v1_1 _ = V c main_v1_1 _
  congr 1
  funext a
  apply Fin.ext
  match a with
  | ⟨0, _⟩ => show win2_2.index t (0 : Fin 2) * 512 + 1 * p.val = t.val * 512 + p.val; rw [e4]; omega
  | ⟨1, _⟩ => show win2_2.index t (1 : Fin 2) * 128 + 1 * j.val = j.val; rw [e5]; omega

/-- The first bias piece's block at every point is the whole one-row piece. -/
theorem bias_agg_block (c : Dev nD) (t : Fin cfg2.N) (u : Fin 1) (j : Fin 64) :
    (iblk2 V c 3 t : FVec Ideal S1x64 .f32) (ix2 u j) = rd2 (V c main_v3 : Arr2 1 64) 0 j.val := by
  obtain ⟨-, -, -, -, -, -, e6, e7, -⟩ := block_index t
  have hu : u.val = 0 := by have := u.isLt; omega
  rw [rd2_of_lt _ Nat.one_pos j.isLt]
  unfold iblk2
  rw [View.read_apply]
  show V c main_v3 _ = V c main_v3 _
  congr 1
  funext a
  apply Fin.ext
  match a with
  | ⟨0, _⟩ => show win2_3.index t (0 : Fin 2) * 1 + 1 * u.val = 0; rw [e6]; omega
  | ⟨1, _⟩ => show win2_3.index t (1 : Fin 2) * 64 + 1 * j.val = j.val; rw [e7]; omega

/-- The second bias piece's block at every point is the whole one-row piece. -/
theorem bias_pass_block (c : Dev nD) (t : Fin cfg2.N) (u : Fin 1) (j : Fin 128) :
    (iblk2 V c 4 t : FVec Ideal S1x128 .f32) (ix2 u j) = rd2 (V c main_v5 : Arr2 1 128) 0 j.val := by
  obtain ⟨-, -, -, -, -, -, -, -, e8, e9, -⟩ := block_index t
  have hu : u.val = 0 := by have := u.isLt; omega
  rw [rd2_of_lt _ Nat.one_pos j.isLt]
  unfold iblk2
  rw [View.read_apply]
  show V c main_v5 _ = V c main_v5 _
  congr 1
  funext a
  apply Fin.ext
  match a with
  | ⟨0, _⟩ => show win2_4.index t (0 : Fin 2) * 1 + 1 * u.val = 0; rw [e8]; omega
  | ⟨1, _⟩ => show win2_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k2_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k2_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k2_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg2.N) :
    (dat2 (F := Ideal) V c).flushed 5 t
      = ((cfg2.win 5).blk t).view.read (Elt Ideal)
          (aggRelu (M := 8192) (N := 192) (P := 128) 64 (V c main_v0) (V c main_v1_0) (V c main_v1_1) (V c main_v3) (V c main_v5)) := by
  show (cfg2.win 5).cut (grid2.coords t) ((dat2 V c).after 5 t) = _
  rw [after2_5]
  unfold out2_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v1_0) (V c main_v1_1) (V c main_v3) (V c main_v5)
    (iblk2 V c 0 t) (iblk2 V c 1 t) (iblk2 V c 2 t) (iblk2 V c 3 t) (iblk2 V c 4 t) t.val
    (adjacency_block V c t) (support_agg_block V c t) (support_pass_block V c t) (bias_agg_block V c t) (bias_pass_block V c t)
    j (((cfg2.win 5).blk t).view.emb j) ?_ ?_
  · show win2_5.index t (0 : Fin 2) * 512 + 1 * (j 0).val = t.val * 512 + (j 0).val; rw [e10]; omega
  · show win2_5.index t (1 : Fin 2) * 192 + 1 * (j 1).val = (j 1).val; rw [e11]; omega

/-- An index is in point t's block of the result iff each coordinate is in the block's range on its axis. -/
theorem mem_block (t : Fin cfg2.N) (i : S8192x192.Idx) :
    i ∈ ((cfg2.win 5).blk t).view.set ↔ ∀ a : Fin 2, win2_5.index t a * S512x192.size a ≤ (i a).val ∧ (i a).val < win2_5.index t a * S512x192.size a + S512x192.size a := by
  show i ∈ ((View.whole main_v6).slice (win2_5.rect t)).set ↔ _
  rw [View.set_slice_whole, Rect.mem_set_unit]
  exact Iff.rfl

/-- Row r of the result is in the block of point r / 512. -/
theorem cover (i : S8192x192.Idx) : ∃ t : Fin cfg2.N, (cfg2.win 5).flush t = true ∧ i ∈ ((cfg2.win 5).blk t).view.set := by
  have hi0 : (i 0).val < 8192 := (i 0).isLt
  have hi1 : (i 1).val < 192 := (i 1).isLt
  have hN : cfg2.N = 16 := N_2
  have hlt : (i 0).val / 512 < cfg2.N := by rw [hN]; omega
  obtain ⟨-, -, -, -, -, -, -, -, -, -, e10, e11⟩ := block_index ⟨(i 0).val / 512, hlt⟩
  refine ⟨⟨(i 0).val / 512, hlt⟩, flush2_5 _, ?_⟩
  rw [mem_block]
  intro a
  match a with
  | ⟨0, _⟩ =>
    show win2_5.index ⟨(i 0).val / 512, hlt⟩ (0 : Fin 2) * 512 ≤ (i 0).val ∧ (i 0).val < win2_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win2_5.index ⟨(i 0).val / 512, hlt⟩ (1 : Fin 2) * 192 ≤ (i 1).val ∧ (i 1).val < win2_5.index ⟨(i 0).val / 512, hlt⟩ (1 : Fin 2) * 192 + 192
    rw [e11]; omega

/-- The result after the region: the aggregation step of the five arrays the region is entered with. -/
theorem final (c : Dev nD) :
    (dat2 (F := Ideal) V c).arrAt 5 cfg2.N
      = aggRelu (M := 8192) (N := 192) (P := 128) 64 (V c main_v0) (V c main_v1_0) (V c main_v1_1) (V c main_v3) (V c main_v5) :=
  (dat2 (F := Ideal) V c).arrAt_eq_of_cover 5 _ (fun t _ => flushed_agg V c t) cover

end Cert.KernelIdeal.Reg2

end
-- ==== Proof.KReg4.lean ====
/-
  Region 4: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg4

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of the adjacency block at point t is row 512 t + p of the adjacency. -/
theorem adjacency_block (c : Dev nD) (t : Fin cfg4.N) (p : Fin 512) (r : Fin 8192) :
    (iblk4 V c 0 t : FVec Ideal S512x8192 .bf16) (ix2 p r) = rd2 (V c main_v0 : Arr2 8192 8192) (t.val * 512 + p.val) r.val := by
  obtain ⟨e0, e1, -⟩ := block_index t
  have hN : cfg4.N = 16 := N_4
  have ht : t.val < cfg4.N := t.isLt
  have hp : t.val * 512 + p.val < 8192 := by omega
  rw [rd2_of_lt _ hp r.isLt]
  unfold iblk4
  rw [View.read_apply]
  show V c main_v0 _ = V c main_v0 _
  congr 1
  funext a
  apply Fin.ext
  match a with
  | ⟨0, _⟩ => show win4_0.index t (0 : Fin 2) * 512 + 1 * p.val = t.val * 512 + p.val; rw [e0]; omega
  | ⟨1, _⟩ => show win4_0.index t (1 : Fin 2) * 8192 + 1 * r.val = r.val; rw [e1]; omega

/-- The first support piece's block at every point is the whole piece. -/
theorem support_agg_block (c : Dev nD) (t : Fin cfg4.N) (r : Fin 8192) (j : Fin 64) :
    (iblk4 V c 1 t : FVec Ideal S8192x64 .bf16) (ix2 r j) = rd2 (V c main_v11_0 : Arr2 8192 64) r.val j.val := by
  obtain ⟨-, -, e2, e3, -⟩ := block_index t
  rw [rd2_ix2]
  unfold iblk4
  rw [View.read_apply]
  show V c main_v11_0 _ = V c main_v11_0 _
  congr 1
  funext a
  apply Fin.ext
  match a with
  | ⟨0, _⟩ => show win4_1.index t (0 : Fin 2) * 8192 + 1 * r.val = r.val; rw [e2]; omega
  | ⟨1, _⟩ => show win4_1.index t (1 : Fin 2) * 64 + 1 * j.val = j.val; rw [e3]; omega

/-- Row p of the second support piece's block at point t is row 512 t + p of the piece. -/
theorem support_pass_block (c : Dev nD) (t : Fin cfg4.N) (p : Fin 512) (j : Fin 128) :
    (iblk4 V c 2 t : FVec Ideal S512x128 .f32) (ix2 p j) = rd2 (V c main_v11_1 : Arr2 8192 128) (t.val * 512 + p.val) j.val := by
  obtain ⟨-, -, -, -, e4, e5, -⟩ := block_index t
  have hN : cfg4.N = 16 := N_4
  have ht : t.val < cfg4.N := t.isLt
  have hp : t.val * 512 + p.val < 8192 := by omega
  rw [rd2_of_lt _ hp j.isLt]
  unfold iblk4
  rw [View.read_apply]
  show V c main_v11_1 _ = V c main_v11_1 _
  congr 1
  funext a
  apply Fin.ext
  match a with
  | ⟨0, _⟩ => show win4_2.index t (0 : Fin 2) * 512 + 1 * p.val = t.val * 512 + p.val; rw [e4]; omega
  | ⟨1, _⟩ => show win4_2.index t (1 : Fin 2) * 128 + 1 * j.val = j.val; rw [e5]; omega

/-- The first bias piece's block at every point is the whole one-row piece. -/
theorem bias_agg_block (c : Dev nD) (t : Fin cfg4.N) (u : Fin 1) (j : Fin 64) :
    (iblk4 V c 3 t : FVec Ideal S1x64 .f32) (ix2 u j) = rd2 (V c main_v13 : Arr2 1 64) 0 j.val := by
  obtain ⟨-, -, -, -, -, -, e6, e7, -⟩ := block_index t
  have hu : u.val = 0 := by have := u.isLt; omega
  rw [rd2_of_lt _ Nat.one_pos j.isLt]
  unfold iblk4
  rw [View.read_apply]
  show V c main_v13 _ = V c main_v13 _
  congr 1
  funext a
  apply Fin.ext
  match a with
  | ⟨0, _⟩ => show win4_3.index t (0 : Fin 2) * 1 + 1 * u.val = 0; rw [e6]; omega
  | ⟨1, _⟩ => show win4_3.index t (1 : Fin 2) * 64 + 1 * j.val = j.val; rw [e7]; omega

/-- The second bias piece's block at every point is the whole one-row piece. -/
theorem bias_pass_block (c : Dev nD) (t : Fin cfg4.N) (u : Fin 1) (j : Fin 128) :
    (iblk4 V c 4 t : FVec Ideal S1x128 .f32) (ix2 u j) = rd2 (V c main_v15 : Arr2 1 128) 0 j.val := by
  obtain ⟨-, -, -, -, -, -, -, -, e8, e9, -⟩ := block_index t
  have hu : u.val = 0 := by have := u.isLt; omega
  rw [rd2_of_lt _ Nat.one_pos j.isLt]
  unfold iblk4
  rw [View.read_apply]
  show V c main_v15 _ = V c main_v15 _
  congr 1
  funext a
  apply Fin.ext
  match a with
  | ⟨0, _⟩ => show win4_4.index t (0 : Fin 2) * 1 + 1 * u.val = 0; rw [e8]; omega
  | ⟨1, _⟩ => show win4_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k4_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k4_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k4_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg4.N) :
    (dat4 (F := Ideal) V c).flushed 5 t
      = ((cfg4.win 5).blk t).view.read (Elt Ideal)
          (aggRelu (M := 8192) (N := 192) (P := 128) 64 (V c main_v0) (V c main_v11_0) (V c main_v11_1) (V c main_v13) (V c main_v15)) := by
  show (cfg4.win 5).cut (grid4.coords t) ((dat4 V c).after 5 t) = _
  rw [after4_5]
  unfold out4_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v11_0) (V c main_v11_1) (V c main_v13) (V c main_v15)
    (iblk4 V c 0 t) (iblk4 V c 1 t) (iblk4 V c 2 t) (iblk4 V c 3 t) (iblk4 V c 4 t) t.val
    (adjacency_block V c t) (support_agg_block V c t) (support_pass_block V c t) (bias_agg_block V c t) (bias_pass_block V c t)
    j (((cfg4.win 5).blk t).view.emb j) ?_ ?_
  · show win4_5.index t (0 : Fin 2) * 512 + 1 * (j 0).val = t.val * 512 + (j 0).val; rw [e10]; omega
  · show win4_5.index t (1 : Fin 2) * 192 + 1 * (j 1).val = (j 1).val; rw [e11]; omega

/-- An index is in point t's block of the result iff each coordinate is in the block's range on its axis. -/
theorem mem_block (t : Fin cfg4.N) (i : S8192x192.Idx) :
    i ∈ ((cfg4.win 5).blk t).view.set ↔ ∀ a : Fin 2, win4_5.index t a * S512x192.size a ≤ (i a).val ∧ (i a).val < win4_5.index t a * S512x192.size a + S512x192.size a := by
  show i ∈ ((View.whole main_v16).slice (win4_5.rect t)).set ↔ _
  rw [View.set_slice_whole, Rect.mem_set_unit]
  exact Iff.rfl

/-- Row r of the result is in the block of point r / 512. -/
theorem cover (i : S8192x192.Idx) : ∃ t : Fin cfg4.N, (cfg4.win 5).flush t = true ∧ i ∈ ((cfg4.win 5).blk t).view.set := by
  have hi0 : (i 0).val < 8192 := (i 0).isLt
  have hi1 : (i 1).val < 192 := (i 1).isLt
  have hN : cfg4.N = 16 := N_4
  have hlt : (i 0).val / 512 < cfg4.N := by rw [hN]; omega
  obtain ⟨-, -, -, -, -, -, -, -, -, -, e10, e11⟩ := block_index ⟨(i 0).val / 512, hlt⟩
  refine ⟨⟨(i 0).val / 512, hlt⟩, flush4_5 _, ?_⟩
  rw [mem_block]
  intro a
  match a with
  | ⟨0, _⟩ =>
    show win4_5.index ⟨(i 0).val / 512, hlt⟩ (0 : Fin 2) * 512 ≤ (i 0).val ∧ (i 0).val < win4_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win4_5.index ⟨(i 0).val / 512, hlt⟩ (1 : Fin 2) * 192 ≤ (i 1).val ∧ (i 1).val < win4_5.index ⟨(i 0).val / 512, hlt⟩ (1 : Fin 2) * 192 + 192
    rw [e11]; omega

/-- The result after the region: the aggregation step of the five arrays the region is entered with. -/
theorem final (c : Dev nD) :
    (dat4 (F := Ideal) V c).arrAt 5 cfg4.N
      = aggRelu (M := 8192) (N := 192) (P := 128) 64 (V c main_v0) (V c main_v11_0) (V c main_v11_1) (V c main_v13) (V c main_v15) :=
  (dat4 (F := Ideal) V c).arrAt_eq_of_cover 5 _ (fun t _ => flushed_agg V c t) cover

end Cert.KernelIdeal.Reg4

end
-- ==== Proof.KReg6.lean ====
/-
  Region 6: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg6

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row p of the adjacency block at point t is row 512 t + p of the adjacency. -/
theorem adjacency_block (c : Dev nD) (t : Fin cfg6.N) (p : Fin 512) (r : Fin 8192) :
    (iblk6 V c 0 t : FVec Ideal S512x8192 .bf16) (ix2 p r) = rd2 (V c main_v0 : Arr2 8192 8192) (t.val * 512 + p.val) r.val := by
  obtain ⟨e0, e1, -⟩ := block_index t
  have hN : cfg6.N = 16 := N_6
  have ht : t.val < cfg6.N := t.isLt
  have hp : t.val * 512 + p.val < 8192 := by omega
  rw [rd2_of_lt _ hp r.isLt]
  unfold iblk6
  rw [View.read_apply]
  show V c main_v0 _ = V c main_v0 _
  congr 1
  funext a
  apply Fin.ext
  match a with
  | ⟨0, _⟩ => show win6_0.index t (0 : Fin 2) * 512 + 1 * p.val = t.val * 512 + p.val; rw [e0]; omega
  | ⟨1, _⟩ => show win6_0.index t (1 : Fin 2) * 8192 + 1 * r.val = r.val; rw [e1]; omega

/-- The first support piece's block at every point is the whole piece. -/
theorem support_agg_block (c : Dev nD) (t : Fin cfg6.N) (r : Fin 8192) (j : Fin 64) :
    (iblk6 V c 1 t : FVec Ideal S8192x64 .bf16) (ix2 r j) = rd2 (V c main_v25_0 : Arr2 8192 64) r.val j.val := by
  obtain ⟨-, -, e2, e3, -⟩ := block_index t
  rw [rd2_ix2]
  unfold iblk6
  rw [View.read_apply]
  show V c main_v25_0 _ = V c main_v25_0 _
  congr 1
  funext a
  apply Fin.ext
  match a with
  | ⟨0, _⟩ => show win6_1.index t (0 : Fin 2) * 8192 + 1 * r.val = r.val; rw [e2]; omega
  | ⟨1, _⟩ => show win6_1.index t (1 : Fin 2) * 64 + 1 * j.val = j.val; rw [e3]; omega

/-- Row p of the second support piece's block at point t is row 512 t + p of the piece. -/
theorem support_pass_block (c : Dev nD) (t : Fin cfg6.N) (p : Fin 512) (j : Fin 128) :
    (iblk6 V c 2 t : FVec Ideal S512x128 .f32) (ix2 p j) = rd2 (V c main_v25_1 : Arr2 8192 128) (t.val * 512 + p.val) j.val := by
  obtain ⟨-, -, -, -, e4, e5, -⟩ := block_index t
  have hN : cfg6.N = 16 := N_6
  have ht : t.val < cfg6.N := t.isLt
  have hp : t.val * 512 + p.val < 8192 := by omega
  rw [rd2_of_lt _ hp j.isLt]
  unfold iblk6
  rw [View.read_apply]
  show V c main_v25_1 _ = V c main_v25_1 _
  congr 1
  funext a
  apply Fin.ext
  match a with
  | ⟨0, _⟩ => show win6_2.index t (0 : Fin 2) * 512 + 1 * p.val = t.val * 512 + p.val; rw [e4]; omega
  | ⟨1, _⟩ => show win6_2.index t (1 : Fin 2) * 128 + 1 * j.val = j.val; rw [e5]; omega

/-- The first bias piece's block at every point is the whole one-row piece. -/
theorem bias_agg_block (c : Dev nD) (t : Fin cfg6.N) (u : Fin 1) (j : Fin 64) :
    (iblk6 V c 3 t : FVec Ideal S1x64 .f32) (ix2 u j) = rd2 (V c main_v27 : Arr2 1 64) 0 j.val := by
  obtain ⟨-, -, -, -, -, -, e6, e7, -⟩ := block_index t
  have hu : u.val = 0 := by have := u.isLt; omega
  rw [rd2_of_lt _ Nat.one_pos j.isLt]
  unfold iblk6
  rw [View.read_apply]
  show V c main_v27 _ = V c main_v27 _
  congr 1
  funext a
  apply Fin.ext
  match a with
  | ⟨0, _⟩ => show win6_3.index t (0 : Fin 2) * 1 + 1 * u.val = 0; rw [e6]; omega
  | ⟨1, _⟩ => show win6_3.index t (1 : Fin 2) * 64 + 1 * j.val = j.val; rw [e7]; omega

/-- The second bias piece's block at every point is the whole one-row piece. -/
theorem bias_pass_block (c : Dev nD) (t : Fin cfg6.N) (u : Fin 1) (j : Fin 128) :
    (iblk6 V c 4 t : FVec Ideal S1x128 .f32) (ix2 u j) = rd2 (V c main_v29 : Arr2 1 128) 0 j.val := by
  obtain ⟨-, -, -, -, -, -, -, -, e8, e9, -⟩ := block_index t
  have hu : u.val = 0 := by have := u.isLt; omega
  rw [rd2_of_lt _ Nat.one_pos j.isLt]
  unfold iblk6
  rw [View.read_apply]
  show V c main_v29 _ = V c main_v29 _
  congr 1
  funext a
  apply Fin.ext
  match a with
  | ⟨0, _⟩ => show win6_4.index t (0 : Fin 2) * 1 + 1 * u.val = 0; rw [e8]; omega
  | ⟨1, _⟩ => show win6_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k6_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k6_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k6_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg6.N) :
    (dat6 (F := Ideal) V c).flushed 5 t
      = ((cfg6.win 5).blk t).view.read (Elt Ideal)
          (aggRelu (M := 8192) (N := 192) (P := 128) 64 (V c main_v0) (V c main_v25_0) (V c main_v25_1) (V c main_v27) (V c main_v29)) := by
  show (cfg6.win 5).cut (grid6.coords t) ((dat6 V c).after 5 t) = _
  rw [after6_5]
  unfold out6_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v25_0) (V c main_v25_1) (V c main_v27) (V c main_v29)
    (iblk6 V c 0 t) (iblk6 V c 1 t) (iblk6 V c 2 t) (iblk6 V c 3 t) (iblk6 V c 4 t) t.val
    (adjacency_block V c t) (support_agg_block V c t) (support_pass_block V c t) (bias_agg_block V c t) (bias_pass_block V c t)
    j (((cfg6.win 5).blk t).view.emb j) ?_ ?_
  · show win6_5.index t (0 : Fin 2) * 512 + 1 * (j 0).val = t.val * 512 + (j 0).val; rw [e10]; omega
  · show win6_5.index t (1 : Fin 2) * 192 + 1 * (j 1).val = (j 1).val; rw [e11]; omega

/-- An index is in point t's block of the result iff each coordinate is in the block's range on its axis. -/
theorem mem_block (t : Fin cfg6.N) (i : S8192x192.Idx) :
    i ∈ ((cfg6.win 5).blk t).view.set ↔ ∀ a : Fin 2, win6_5.index t a * S512x192.size a ≤ (i a).val ∧ (i a).val < win6_5.index t a * S512x192.size a + S512x192.size a := by
  show i ∈ ((View.whole main_v30).slice (win6_5.rect t)).set ↔ _
  rw [View.set_slice_whole, Rect.mem_set_unit]
  exact Iff.rfl

/-- Row r of the result is in the block of point r / 512. -/
theorem cover (i : S8192x192.Idx) : ∃ t : Fin cfg6.N, (cfg6.win 5).flush t = true ∧ i ∈ ((cfg6.win 5).blk t).view.set := by
  have hi0 : (i 0).val < 8192 := (i 0).isLt
  have hi1 : (i 1).val < 192 := (i 1).isLt
  have hN : cfg6.N = 16 := N_6
  have hlt : (i 0).val / 512 < cfg6.N := by rw [hN]; omega
  obtain ⟨-, -, -, -, -, -, -, -, -, -, e10, e11⟩ := block_index ⟨(i 0).val / 512, hlt⟩
  refine ⟨⟨(i 0).val / 512, hlt⟩, flush6_5 _, ?_⟩
  rw [mem_block]
  intro a
  match a with
  | ⟨0, _⟩ =>
    show win6_5.index ⟨(i 0).val / 512, hlt⟩ (0 : Fin 2) * 512 ≤ (i 0).val ∧ (i 0).val < win6_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win6_5.index ⟨(i 0).val / 512, hlt⟩ (1 : Fin 2) * 192 ≤ (i 1).val ∧ (i 1).val < win6_5.index ⟨(i 0).val / 512, hlt⟩ (1 : Fin 2) * 192 + 192
    rw [e11]; omega

/-- The result after the region: the aggregation step of the five arrays the region is entered with. -/
theorem final (c : Dev nD) :
    (dat6 (F := Ideal) V c).arrAt 5 cfg6.N
      = aggRelu (M := 8192) (N := 192) (P := 128) 64 (V c main_v0) (V c main_v25_0) (V c main_v25_1) (V c main_v27) (V c main_v29) :=
  (dat6 (F := Ideal) V c).arrAt_eq_of_cover 5 _ (fun t _ => flushed_agg V c t) cover

end Cert.KernelIdeal.Reg6

end
-- ==== Proof.KReg8.lean ====
/-
  Region 8: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg8

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Row p of the adjacency block at point t is row 512 t + p of the adjacency. -/
theorem adjacency_block (c : Dev nD) (t : Fin cfg8.N) (p : Fin 512) (r : Fin 8192) :
    (iblk8 V c 0 t : FVec Ideal S512x8192 .bf16) (ix2 p r) = rd2 (V c main_v0 : Arr2 8192 8192) (t.val * 512 + p.val) r.val := by
  obtain ⟨e0, e1, -⟩ := block_index t
  have hN : cfg8.N = 16 := N_8
  have ht : t.val < cfg8.N := t.isLt
  have hp : t.val * 512 + p.val < 8192 := by omega
  rw [rd2_of_lt _ hp r.isLt]
  unfold iblk8
  rw [View.read_apply]
  show V c main_v0 _ = V c main_v0 _
  congr 1
  funext a
  apply Fin.ext
  match a with
  | ⟨0, _⟩ => show win8_0.index t (0 : Fin 2) * 512 + 1 * p.val = t.val * 512 + p.val; rw [e0]; omega
  | ⟨1, _⟩ => show win8_0.index t (1 : Fin 2) * 8192 + 1 * r.val = r.val; rw [e1]; omega

/-- The first support piece's block at every point is the whole piece. -/
theorem support_agg_block (c : Dev nD) (t : Fin cfg8.N) (r : Fin 8192) (j : Fin 64) :
    (iblk8 V c 1 t : FVec Ideal S8192x64 .bf16) (ix2 r j) = rd2 (V c main_v35_0 : Arr2 8192 64) r.val j.val := by
  obtain ⟨-, -, e2, e3, -⟩ := block_index t
  rw [rd2_ix2]
  unfold iblk8
  rw [View.read_apply]
  show V c main_v35_0 _ = V c main_v35_0 _
  congr 1
  funext a
  apply Fin.ext
  match a with
  | ⟨0, _⟩ => show win8_1.index t (0 : Fin 2) * 8192 + 1 * r.val = r.val; rw [e2]; omega
  | ⟨1, _⟩ => show win8_1.index t (1 : Fin 2) * 64 + 1 * j.val = j.val; rw [e3]; omega

/-- Row p of the second support piece's block at point t is row 512 t + p of the piece. -/
theorem support_pass_block (c : Dev nD) (t : Fin cfg8.N) (p : Fin 512) (j : Fin 128) :
    (iblk8 V c 2 t : FVec Ideal S512x128 .f32) (ix2 p j) = rd2 (V c main_v35_1 : Arr2 8192 128) (t.val * 512 + p.val) j.val := by
  obtain ⟨-, -, -, -, e4, e5, -⟩ := block_index t
  have hN : cfg8.N = 16 := N_8
  have ht : t.val < cfg8.N := t.isLt
  have hp : t.val * 512 + p.val < 8192 := by omega
  rw [rd2_of_lt _ hp j.isLt]
  unfold iblk8
  rw [View.read_apply]
  show V c main_v35_1 _ = V c main_v35_1 _
  congr 1
  funext a
  apply Fin.ext
  match a with
  | ⟨0, _⟩ => show win8_2.index t (0 : Fin 2) * 512 + 1 * p.val = t.val * 512 + p.val; rw [e4]; omega
  | ⟨1, _⟩ => show win8_2.index t (1 : Fin 2) * 128 + 1 * j.val = j.val; rw [e5]; omega

/-- The first bias piece's block at every point is the whole one-row piece. -/
theorem bias_agg_block (c : Dev nD) (t : Fin cfg8.N) (u : Fin 1) (j : Fin 64) :
    (iblk8 V c 3 t : FVec Ideal S1x64 .f32) (ix2 u j) = rd2 (V c main_v37 : Arr2 1 64) 0 j.val := by
  obtain ⟨-, -, -, -, -, -, e6, e7, -⟩ := block_index t
  have hu : u.val = 0 := by have := u.isLt; omega
  rw [rd2_of_lt _ Nat.one_pos j.isLt]
  unfold iblk8
  rw [View.read_apply]
  show V c main_v37 _ = V c main_v37 _
  congr 1
  funext a
  apply Fin.ext
  match a with
  | ⟨0, _⟩ => show win8_3.index t (0 : Fin 2) * 1 + 1 * u.val = 0; rw [e6]; omega
  | ⟨1, _⟩ => show win8_3.index t (1 : Fin 2) * 64 + 1 * j.val = j.val; rw [e7]; omega

/-- The second bias piece's block at every point is the whole one-row piece. -/
theorem bias_pass_block (c : Dev nD) (t : Fin cfg8.N) (u : Fin 1) (j : Fin 128) :
    (iblk8 V c 4 t : FVec Ideal S1x128 .f32) (ix2 u j) = rd2 (V c main_v39 : Arr2 1 128) 0 j.val := by
  obtain ⟨-, -, -, -, -, -, -, -, e8, e9, -⟩ := block_index t
  have hu : u.val = 0 := by have := u.isLt; omega
  rw [rd2_of_lt _ Nat.one_pos j.isLt]
  unfold iblk8
  rw [View.read_apply]
  show V c main_v39 _ = V c main_v39 _
  congr 1
  funext a
  apply Fin.ext
  match a with
  | ⟨0, _⟩ => show win8_4.index t (0 : Fin 2) * 1 + 1 * u.val = 0; rw [e8]; omega
  | ⟨1, _⟩ => show win8_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k8_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k8_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k8_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg8.N) :
    (dat8 (F := Ideal) V c).flushed 5 t
      = ((cfg8.win 5).blk t).view.read (Elt Ideal)
          (aggRelu (M := 8192) (N := 192) (P := 128) 64 (V c main_v0) (V c main_v35_0) (V c main_v35_1) (V c main_v37) (V c main_v39)) := by
  show (cfg8.win 5).cut (grid8.coords t) ((dat8 V c).after 5 t) = _
  rw [after8_5]
  unfold out8_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v35_0) (V c main_v35_1) (V c main_v37) (V c main_v39)
    (iblk8 V c 0 t) (iblk8 V c 1 t) (iblk8 V c 2 t) (iblk8 V c 3 t) (iblk8 V c 4 t) t.val
    (adjacency_block V c t) (support_agg_block V c t) (support_pass_block V c t) (bias_agg_block V c t) (bias_pass_block V c t)
    j (((cfg8.win 5).blk t).view.emb j) ?_ ?_
  · show win8_5.index t (0 : Fin 2) * 512 + 1 * (j 0).val = t.val * 512 + (j 0).val; rw [e10]; omega
  · show win8_5.index t (1 : Fin 2) * 192 + 1 * (j 1).val = (j 1).val; rw [e11]; omega

/-- An index is in point t's block of the result iff each coordinate is in the block's range on its axis. -/
theorem mem_block (t : Fin cfg8.N) (i : S8192x192.Idx) :
    i ∈ ((cfg8.win 5).blk t).view.set ↔ ∀ a : Fin 2, win8_5.index t a * S512x192.size a ≤ (i a).val ∧ (i a).val < win8_5.index t a * S512x192.size a + S512x192.size a := by
  show i ∈ ((View.whole main_v40).slice (win8_5.rect t)).set ↔ _
  rw [View.set_slice_whole, Rect.mem_set_unit]
  exact Iff.rfl

/-- Row r of the result is in the block of point r / 512. -/
theorem cover (i : S8192x192.Idx) : ∃ t : Fin cfg8.N, (cfg8.win 5).flush t = true ∧ i ∈ ((cfg8.win 5).blk t).view.set := by
  have hi0 : (i 0).val < 8192 := (i 0).isLt
  have hi1 : (i 1).val < 192 := (i 1).isLt
  have hN : cfg8.N = 16 := N_8
  have hlt : (i 0).val / 512 < cfg8.N := by rw [hN]; omega
  obtain ⟨-, -, -, -, -, -, -, -, -, -, e10, e11⟩ := block_index ⟨(i 0).val / 512, hlt⟩
  refine ⟨⟨(i 0).val / 512, hlt⟩, flush8_5 _, ?_⟩
  rw [mem_block]
  intro a
  match a with
  | ⟨0, _⟩ =>
    show win8_5.index ⟨(i 0).val / 512, hlt⟩ (0 : Fin 2) * 512 ≤ (i 0).val ∧ (i 0).val < win8_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win8_5.index ⟨(i 0).val / 512, hlt⟩ (1 : Fin 2) * 192 ≤ (i 1).val ∧ (i 1).val < win8_5.index ⟨(i 0).val / 512, hlt⟩ (1 : Fin 2) * 192 + 192
    rw [e11]; omega

/-- The result after the region: the aggregation step of the five arrays the region is entered with. -/
theorem final (c : Dev nD) :
    (dat8 (F := Ideal) V c).arrAt 5 cfg8.N
      = aggRelu (M := 8192) (N := 192) (P := 128) 64 (V c main_v0) (V c main_v35_0) (V c main_v35_1) (V c main_v37) (V c main_v39) :=
  (dat8 (F := Ideal) V c).arrAt_eq_of_cover 5 _ (fun t _ => flushed_agg V c t) cover

end Cert.KernelIdeal.Reg8

end
-- ==== Proof.KReg10.lean ====
/-
  Region 10: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg10

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Row p of the adjacency block at point t is row 512 t + p of the adjacency. -/
theorem adjacency_block (c : Dev nD) (t : Fin cfg10.N) (p : Fin 512) (r : Fin 8192) :
    (iblk10 V c 0 t : FVec Ideal S512x8192 .bf16) (ix2 p r) = rd2 (V c main_v0 : Arr2 8192 8192) (t.val * 512 + p.val) r.val := by
  obtain ⟨e0, e1, -⟩ := block_index t
  have hN : cfg10.N = 16 := N_10
  have ht : t.val < cfg10.N := t.isLt
  have hp : t.val * 512 + p.val < 8192 := by omega
  rw [rd2_of_lt _ hp r.isLt]
  unfold iblk10
  rw [View.read_apply]
  show V c main_v0 _ = V c main_v0 _
  congr 1
  funext a
  apply Fin.ext
  match a with
  | ⟨0, _⟩ => show win10_0.index t (0 : Fin 2) * 512 + 1 * p.val = t.val * 512 + p.val; rw [e0]; omega
  | ⟨1, _⟩ => show win10_0.index t (1 : Fin 2) * 8192 + 1 * r.val = r.val; rw [e1]; omega

/-- The first support piece's block at every point is the whole piece. -/
theorem support_agg_block (c : Dev nD) (t : Fin cfg10.N) (r : Fin 8192) (j : Fin 64) :
    (iblk10 V c 1 t : FVec Ideal S8192x64 .bf16) (ix2 r j) = rd2 (V c main_v48_0 : Arr2 8192 64) r.val j.val := by
  obtain ⟨-, -, e2, e3, -⟩ := block_index t
  rw [rd2_ix2]
  unfold iblk10
  rw [View.read_apply]
  show V c main_v48_0 _ = V c main_v48_0 _
  congr 1
  funext a
  apply Fin.ext
  match a with
  | ⟨0, _⟩ => show win10_1.index t (0 : Fin 2) * 8192 + 1 * r.val = r.val; rw [e2]; omega
  | ⟨1, _⟩ => show win10_1.index t (1 : Fin 2) * 64 + 1 * j.val = j.val; rw [e3]; omega

/-- Row p of the second support piece's block at point t is row 512 t + p of the piece. -/
theorem support_pass_block (c : Dev nD) (t : Fin cfg10.N) (p : Fin 512) (j : Fin 128) :
    (iblk10 V c 2 t : FVec Ideal S512x128 .f32) (ix2 p j) = rd2 (V c main_v48_1 : Arr2 8192 128) (t.val * 512 + p.val) j.val := by
  obtain ⟨-, -, -, -, e4, e5, -⟩ := block_index t
  have hN : cfg10.N = 16 := N_10
  have ht : t.val < cfg10.N := t.isLt
  have hp : t.val * 512 + p.val < 8192 := by omega
  rw [rd2_of_lt _ hp j.isLt]
  unfold iblk10
  rw [View.read_apply]
  show V c main_v48_1 _ = V c main_v48_1 _
  congr 1
  funext a
  apply Fin.ext
  match a with
  | ⟨0, _⟩ => show win10_2.index t (0 : Fin 2) * 512 + 1 * p.val = t.val * 512 + p.val; rw [e4]; omega
  | ⟨1, _⟩ => show win10_2.index t (1 : Fin 2) * 128 + 1 * j.val = j.val; rw [e5]; omega

/-- The first bias piece's block at every point is the whole one-row piece. -/
theorem bias_agg_block (c : Dev nD) (t : Fin cfg10.N) (u : Fin 1) (j : Fin 64) :
    (iblk10 V c 3 t : FVec Ideal S1x64 .f32) (ix2 u j) = rd2 (V c main_v50 : Arr2 1 64) 0 j.val := by
  obtain ⟨-, -, -, -, -, -, e6, e7, -⟩ := block_index t
  have hu : u.val = 0 := by have := u.isLt; omega
  rw [rd2_of_lt _ Nat.one_pos j.isLt]
  unfold iblk10
  rw [View.read_apply]
  show V c main_v50 _ = V c main_v50 _
  congr 1
  funext a
  apply Fin.ext
  match a with
  | ⟨0, _⟩ => show win10_3.index t (0 : Fin 2) * 1 + 1 * u.val = 0; rw [e6]; omega
  | ⟨1, _⟩ => show win10_3.index t (1 : Fin 2) * 64 + 1 * j.val = j.val; rw [e7]; omega

/-- The second bias piece's block at every point is the whole one-row piece. -/
theorem bias_pass_block (c : Dev nD) (t : Fin cfg10.N) (u : Fin 1) (j : Fin 128) :
    (iblk10 V c 4 t : FVec Ideal S1x128 .f32) (ix2 u j) = rd2 (V c main_v52 : Arr2 1 128) 0 j.val := by
  obtain ⟨-, -, -, -, -, -, -, -, e8, e9, -⟩ := block_index t
  have hu : u.val = 0 := by have := u.isLt; omega
  rw [rd2_of_lt _ Nat.one_pos j.isLt]
  unfold iblk10
  rw [View.read_apply]
  show V c main_v52 _ = V c main_v52 _
  congr 1
  funext a
  apply Fin.ext
  match a with
  | ⟨0, _⟩ => show win10_4.index t (0 : Fin 2) * 1 + 1 * u.val = 0; rw [e8]; omega
  | ⟨1, _⟩ => show win10_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k10_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k10_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k10_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg10.N) :
    (dat10 (F := Ideal) V c).flushed 5 t
      = ((cfg10.win 5).blk t).view.read (Elt Ideal)
          (aggRelu (M := 8192) (N := 192) (P := 128) 64 (V c main_v0) (V c main_v48_0) (V c main_v48_1) (V c main_v50) (V c main_v52)) := by
  show (cfg10.win 5).cut (grid10.coords t) ((dat10 V c).after 5 t) = _
  rw [after10_5]
  unfold out10_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v48_0) (V c main_v48_1) (V c main_v50) (V c main_v52)
    (iblk10 V c 0 t) (iblk10 V c 1 t) (iblk10 V c 2 t) (iblk10 V c 3 t) (iblk10 V c 4 t) t.val
    (adjacency_block V c t) (support_agg_block V c t) (support_pass_block V c t) (bias_agg_block V c t) (bias_pass_block V c t)
    j (((cfg10.win 5).blk t).view.emb j) ?_ ?_
  · show win10_5.index t (0 : Fin 2) * 512 + 1 * (j 0).val = t.val * 512 + (j 0).val; rw [e10]; omega
  · show win10_5.index t (1 : Fin 2) * 192 + 1 * (j 1).val = (j 1).val; rw [e11]; omega

/-- An index is in point t's block of the result iff each coordinate is in the block's range on its axis. -/
theorem mem_block (t : Fin cfg10.N) (i : S8192x192.Idx) :
    i ∈ ((cfg10.win 5).blk t).view.set ↔ ∀ a : Fin 2, win10_5.index t a * S512x192.size a ≤ (i a).val ∧ (i a).val < win10_5.index t a * S512x192.size a + S512x192.size a := by
  show i ∈ ((View.whole main_v53).slice (win10_5.rect t)).set ↔ _
  rw [View.set_slice_whole, Rect.mem_set_unit]
  exact Iff.rfl

/-- Row r of the result is in the block of point r / 512. -/
theorem cover (i : S8192x192.Idx) : ∃ t : Fin cfg10.N, (cfg10.win 5).flush t = true ∧ i ∈ ((cfg10.win 5).blk t).view.set := by
  have hi0 : (i 0).val < 8192 := (i 0).isLt
  have hi1 : (i 1).val < 192 := (i 1).isLt
  have hN : cfg10.N = 16 := N_10
  have hlt : (i 0).val / 512 < cfg10.N := by rw [hN]; omega
  obtain ⟨-, -, -, -, -, -, -, -, -, -, e10, e11⟩ := block_index ⟨(i 0).val / 512, hlt⟩
  refine ⟨⟨(i 0).val / 512, hlt⟩, flush10_5 _, ?_⟩
  rw [mem_block]
  intro a
  match a with
  | ⟨0, _⟩ =>
    show win10_5.index ⟨(i 0).val / 512, hlt⟩ (0 : Fin 2) * 512 ≤ (i 0).val ∧ (i 0).val < win10_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win10_5.index ⟨(i 0).val / 512, hlt⟩ (1 : Fin 2) * 192 ≤ (i 1).val ∧ (i 1).val < win10_5.index ⟨(i 0).val / 512, hlt⟩ (1 : Fin 2) * 192 + 192
    rw [e11]; omega

/-- The result after the region: the aggregation step of the five arrays the region is entered with. -/
theorem final (c : Dev nD) :
    (dat10 (F := Ideal) V c).arrAt 5 cfg10.N
      = aggRelu (M := 8192) (N := 192) (P := 128) 64 (V c main_v0) (V c main_v48_0) (V c main_v48_1) (V c main_v50) (V c main_v52) :=
  (dat10 (F := Ideal) V c).arrAt_eq_of_cover 5 _ (fun t _ => flushed_agg V c t) cover

end Cert.KernelIdeal.Reg10

end
-- ==== Proof.KReg12.lean ====
/-
  Region 12: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg12

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- Row p of the adjacency block at point t is row 512 t + p of the adjacency. -/
theorem adjacency_block (c : Dev nD) (t : Fin cfg12.N) (p : Fin 512) (r : Fin 8192) :
    (iblk12 V c 0 t : FVec Ideal S512x8192 .bf16) (ix2 p r) = rd2 (V c main_v0 : Arr2 8192 8192) (t.val * 512 + p.val) r.val := by
  obtain ⟨e0, e1, -⟩ := block_index t
  have hN : cfg12.N = 16 := N_12
  have ht : t.val < cfg12.N := t.isLt
  have hp : t.val * 512 + p.val < 8192 := by omega
  rw [rd2_of_lt _ hp r.isLt]
  unfold iblk12
  rw [View.read_apply]
  show V c main_v0 _ = V c main_v0 _
  congr 1
  funext a
  apply Fin.ext
  match a with
  | ⟨0, _⟩ => show win12_0.index t (0 : Fin 2) * 512 + 1 * p.val = t.val * 512 + p.val; rw [e0]; omega
  | ⟨1, _⟩ => show win12_0.index t (1 : Fin 2) * 8192 + 1 * r.val = r.val; rw [e1]; omega

/-- The first support piece's block at every point is the whole piece. -/
theorem support_agg_block (c : Dev nD) (t : Fin cfg12.N) (r : Fin 8192) (j : Fin 64) :
    (iblk12 V c 1 t : FVec Ideal S8192x64 .bf16) (ix2 r j) = rd2 (V c main_v58_0 : Arr2 8192 64) r.val j.val := by
  obtain ⟨-, -, e2, e3, -⟩ := block_index t
  rw [rd2_ix2]
  unfold iblk12
  rw [View.read_apply]
  show V c main_v58_0 _ = V c main_v58_0 _
  congr 1
  funext a
  apply Fin.ext
  match a with
  | ⟨0, _⟩ => show win12_1.index t (0 : Fin 2) * 8192 + 1 * r.val = r.val; rw [e2]; omega
  | ⟨1, _⟩ => show win12_1.index t (1 : Fin 2) * 64 + 1 * j.val = j.val; rw [e3]; omega

/-- Row p of the second support piece's block at point t is row 512 t + p of the piece. -/
theorem support_pass_block (c : Dev nD) (t : Fin cfg12.N) (p : Fin 512) (j : Fin 128) :
    (iblk12 V c 2 t : FVec Ideal S512x128 .f32) (ix2 p j) = rd2 (V c main_v58_1 : Arr2 8192 128) (t.val * 512 + p.val) j.val := by
  obtain ⟨-, -, -, -, e4, e5, -⟩ := block_index t
  have hN : cfg12.N = 16 := N_12
  have ht : t.val < cfg12.N := t.isLt
  have hp : t.val * 512 + p.val < 8192 := by omega
  rw [rd2_of_lt _ hp j.isLt]
  unfold iblk12
  rw [View.read_apply]
  show V c main_v58_1 _ = V c main_v58_1 _
  congr 1
  funext a
  apply Fin.ext
  match a with
  | ⟨0, _⟩ => show win12_2.index t (0 : Fin 2) * 512 + 1 * p.val = t.val * 512 + p.val; rw [e4]; omega
  | ⟨1, _⟩ => show win12_2.index t (1 : Fin 2) * 128 + 1 * j.val = j.val; rw [e5]; omega

/-- The first bias piece's block at every point is the whole one-row piece. -/
theorem bias_agg_block (c : Dev nD) (t : Fin cfg12.N) (u : Fin 1) (j : Fin 64) :
    (iblk12 V c 3 t : FVec Ideal S1x64 .f32) (ix2 u j) = rd2 (V c main_v60 : Arr2 1 64) 0 j.val := by
  obtain ⟨-, -, -, -, -, -, e6, e7, -⟩ := block_index t
  have hu : u.val = 0 := by have := u.isLt; omega
  rw [rd2_of_lt _ Nat.one_pos j.isLt]
  unfold iblk12
  rw [View.read_apply]
  show V c main_v60 _ = V c main_v60 _
  congr 1
  funext a
  apply Fin.ext
  match a with
  | ⟨0, _⟩ => show win12_3.index t (0 : Fin 2) * 1 + 1 * u.val = 0; rw [e6]; omega
  | ⟨1, _⟩ => show win12_3.index t (1 : Fin 2) * 64 + 1 * j.val = j.val; rw [e7]; omega

/-- The second bias piece's block at every point is the whole one-row piece. -/
theorem bias_pass_block (c : Dev nD) (t : Fin cfg12.N) (u : Fin 1) (j : Fin 128) :
    (iblk12 V c 4 t : FVec Ideal S1x128 .f32) (ix2 u j) = rd2 (V c main_v62 : Arr2 1 128) 0 j.val := by
  obtain ⟨-, -, -, -, -, -, -, -, e8, e9, -⟩ := block_index t
  have hu : u.val = 0 := by have := u.isLt; omega
  rw [rd2_of_lt _ Nat.one_pos j.isLt]
  unfold iblk12
  rw [View.read_apply]
  show V c main_v62 _ = V c main_v62 _
  congr 1
  funext a
  apply Fin.ext
  match a with
  | ⟨0, _⟩ => show win12_4.index t (0 : Fin 2) * 1 + 1 * u.val = 0; rw [e8]; omega
  | ⟨1, _⟩ => show win12_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k12_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k12_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k12_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg12.N) :
    (dat12 (F := Ideal) V c).flushed 5 t
      = ((cfg12.win 5).blk t).view.read (Elt Ideal)
          (aggRelu (M := 8192) (N := 192) (P := 128) 64 (V c main_v0) (V c main_v58_0) (V c main_v58_1) (V c main_v60) (V c main_v62)) := by
  show (cfg12.win 5).cut (grid12.coords t) ((dat12 V c).after 5 t) = _
  rw [after12_5]
  unfold out12_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v58_0) (V c main_v58_1) (V c main_v60) (V c main_v62)
    (iblk12 V c 0 t) (iblk12 V c 1 t) (iblk12 V c 2 t) (iblk12 V c 3 t) (iblk12 V c 4 t) t.val
    (adjacency_block V c t) (support_agg_block V c t) (support_pass_block V c t) (bias_agg_block V c t) (bias_pass_block V c t)
    j (((cfg12.win 5).blk t).view.emb j) ?_ ?_
  · show win12_5.index t (0 : Fin 2) * 512 + 1 * (j 0).val = t.val * 512 + (j 0).val; rw [e10]; omega
  · show win12_5.index t (1 : Fin 2) * 192 + 1 * (j 1).val = (j 1).val; rw [e11]; omega

/-- An index is in point t's block of the result iff each coordinate is in the block's range on its axis. -/
theorem mem_block (t : Fin cfg12.N) (i : S8192x192.Idx) :
    i ∈ ((cfg12.win 5).blk t).view.set ↔ ∀ a : Fin 2, win12_5.index t a * S512x192.size a ≤ (i a).val ∧ (i a).val < win12_5.index t a * S512x192.size a + S512x192.size a := by
  show i ∈ ((View.whole main_v63).slice (win12_5.rect t)).set ↔ _
  rw [View.set_slice_whole, Rect.mem_set_unit]
  exact Iff.rfl

/-- Row r of the result is in the block of point r / 512. -/
theorem cover (i : S8192x192.Idx) : ∃ t : Fin cfg12.N, (cfg12.win 5).flush t = true ∧ i ∈ ((cfg12.win 5).blk t).view.set := by
  have hi0 : (i 0).val < 8192 := (i 0).isLt
  have hi1 : (i 1).val < 192 := (i 1).isLt
  have hN : cfg12.N = 16 := N_12
  have hlt : (i 0).val / 512 < cfg12.N := by rw [hN]; omega
  obtain ⟨-, -, -, -, -, -, -, -, -, -, e10, e11⟩ := block_index ⟨(i 0).val / 512, hlt⟩
  refine ⟨⟨(i 0).val / 512, hlt⟩, flush12_5 _, ?_⟩
  rw [mem_block]
  intro a
  match a with
  | ⟨0, _⟩ =>
    show win12_5.index ⟨(i 0).val / 512, hlt⟩ (0 : Fin 2) * 512 ≤ (i 0).val ∧ (i 0).val < win12_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win12_5.index ⟨(i 0).val / 512, hlt⟩ (1 : Fin 2) * 192 ≤ (i 1).val ∧ (i 1).val < win12_5.index ⟨(i 0).val / 512, hlt⟩ (1 : Fin 2) * 192 + 192
    rw [e11]; omega

/-- The result after the region: the aggregation step of the five arrays the region is entered with. -/
theorem final (c : Dev nD) :
    (dat12 (F := Ideal) V c).arrAt 5 cfg12.N
      = aggRelu (M := 8192) (N := 192) (P := 128) 64 (V c main_v0) (V c main_v58_0) (V c main_v58_1) (V c main_v60) (V c main_v62) :=
  (dat12 (F := Ideal) V c).arrAt_eq_of_cover 5 _ (fun t _ => flushed_agg V c t) cover

end Cert.KernelIdeal.Reg12

end
-- ==== Proof.KReg14.lean ====
/-
  Region 14: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg14

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- Row p of the adjacency block at point t is row 512 t + p of the adjacency. -/
theorem adjacency_block (c : Dev nD) (t : Fin cfg14.N) (p : Fin 512) (r : Fin 8192) :
    (iblk14 V c 0 t : FVec Ideal S512x8192 .bf16) (ix2 p r) = rd2 (V c main_v0 : Arr2 8192 8192) (t.val * 512 + p.val) r.val := by
  obtain ⟨e0, e1, -⟩ := block_index t
  have hN : cfg14.N = 16 := N_14
  have ht : t.val < cfg14.N := t.isLt
  have hp : t.val * 512 + p.val < 8192 := by omega
  rw [rd2_of_lt _ hp r.isLt]
  unfold iblk14
  rw [View.read_apply]
  show V c main_v0 _ = V c main_v0 _
  congr 1
  funext a
  apply Fin.ext
  match a with
  | ⟨0, _⟩ => show win14_0.index t (0 : Fin 2) * 512 + 1 * p.val = t.val * 512 + p.val; rw [e0]; omega
  | ⟨1, _⟩ => show win14_0.index t (1 : Fin 2) * 8192 + 1 * r.val = r.val; rw [e1]; omega

/-- The first support piece's block at every point is the whole piece. -/
theorem support_agg_block (c : Dev nD) (t : Fin cfg14.N) (r : Fin 8192) (j : Fin 64) :
    (iblk14 V c 1 t : FVec Ideal S8192x64 .bf16) (ix2 r j) = rd2 (V c main_v71_0 : Arr2 8192 64) r.val j.val := by
  obtain ⟨-, -, e2, e3, -⟩ := block_index t
  rw [rd2_ix2]
  unfold iblk14
  rw [View.read_apply]
  show V c main_v71_0 _ = V c main_v71_0 _
  congr 1
  funext a
  apply Fin.ext
  match a with
  | ⟨0, _⟩ => show win14_1.index t (0 : Fin 2) * 8192 + 1 * r.val = r.val; rw [e2]; omega
  | ⟨1, _⟩ => show win14_1.index t (1 : Fin 2) * 64 + 1 * j.val = j.val; rw [e3]; omega

/-- Row p of the second support piece's block at point t is row 512 t + p of the piece. -/
theorem support_pass_block (c : Dev nD) (t : Fin cfg14.N) (p : Fin 512) (j : Fin 128) :
    (iblk14 V c 2 t : FVec Ideal S512x128 .f32) (ix2 p j) = rd2 (V c main_v71_1 : Arr2 8192 128) (t.val * 512 + p.val) j.val := by
  obtain ⟨-, -, -, -, e4, e5, -⟩ := block_index t
  have hN : cfg14.N = 16 := N_14
  have ht : t.val < cfg14.N := t.isLt
  have hp : t.val * 512 + p.val < 8192 := by omega
  rw [rd2_of_lt _ hp j.isLt]
  unfold iblk14
  rw [View.read_apply]
  show V c main_v71_1 _ = V c main_v71_1 _
  congr 1
  funext a
  apply Fin.ext
  match a with
  | ⟨0, _⟩ => show win14_2.index t (0 : Fin 2) * 512 + 1 * p.val = t.val * 512 + p.val; rw [e4]; omega
  | ⟨1, _⟩ => show win14_2.index t (1 : Fin 2) * 128 + 1 * j.val = j.val; rw [e5]; omega

/-- The first bias piece's block at every point is the whole one-row piece. -/
theorem bias_agg_block (c : Dev nD) (t : Fin cfg14.N) (u : Fin 1) (j : Fin 64) :
    (iblk14 V c 3 t : FVec Ideal S1x64 .f32) (ix2 u j) = rd2 (V c main_v73 : Arr2 1 64) 0 j.val := by
  obtain ⟨-, -, -, -, -, -, e6, e7, -⟩ := block_index t
  have hu : u.val = 0 := by have := u.isLt; omega
  rw [rd2_of_lt _ Nat.one_pos j.isLt]
  unfold iblk14
  rw [View.read_apply]
  show V c main_v73 _ = V c main_v73 _
  congr 1
  funext a
  apply Fin.ext
  match a with
  | ⟨0, _⟩ => show win14_3.index t (0 : Fin 2) * 1 + 1 * u.val = 0; rw [e6]; omega
  | ⟨1, _⟩ => show win14_3.index t (1 : Fin 2) * 64 + 1 * j.val = j.val; rw [e7]; omega

/-- The second bias piece's block at every point is the whole one-row piece. -/
theorem bias_pass_block (c : Dev nD) (t : Fin cfg14.N) (u : Fin 1) (j : Fin 128) :
    (iblk14 V c 4 t : FVec Ideal S1x128 .f32) (ix2 u j) = rd2 (V c main_v75 : Arr2 1 128) 0 j.val := by
  obtain ⟨-, -, -, -, -, -, -, -, e8, e9, -⟩ := block_index t
  have hu : u.val = 0 := by have := u.isLt; omega
  rw [rd2_of_lt _ Nat.one_pos j.isLt]
  unfold iblk14
  rw [View.read_apply]
  show V c main_v75 _ = V c main_v75 _
  congr 1
  funext a
  apply Fin.ext
  match a with
  | ⟨0, _⟩ => show win14_4.index t (0 : Fin 2) * 1 + 1 * u.val = 0; rw [e8]; omega
  | ⟨1, _⟩ => show win14_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k14_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k14_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k14_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg14.N) :
    (dat14 (F := Ideal) V c).flushed 5 t
      = ((cfg14.win 5).blk t).view.read (Elt Ideal)
          (aggRelu (M := 8192) (N := 192) (P := 128) 64 (V c main_v0) (V c main_v71_0) (V c main_v71_1) (V c main_v73) (V c main_v75)) := by
  show (cfg14.win 5).cut (grid14.coords t) ((dat14 V c).after 5 t) = _
  rw [after14_5]
  unfold out14_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v71_0) (V c main_v71_1) (V c main_v73) (V c main_v75)
    (iblk14 V c 0 t) (iblk14 V c 1 t) (iblk14 V c 2 t) (iblk14 V c 3 t) (iblk14 V c 4 t) t.val
    (adjacency_block V c t) (support_agg_block V c t) (support_pass_block V c t) (bias_agg_block V c t) (bias_pass_block V c t)
    j (((cfg14.win 5).blk t).view.emb j) ?_ ?_
  · show win14_5.index t (0 : Fin 2) * 512 + 1 * (j 0).val = t.val * 512 + (j 0).val; rw [e10]; omega
  · show win14_5.index t (1 : Fin 2) * 192 + 1 * (j 1).val = (j 1).val; rw [e11]; omega

/-- An index is in point t's block of the result iff each coordinate is in the block's range on its axis. -/
theorem mem_block (t : Fin cfg14.N) (i : S8192x192.Idx) :
    i ∈ ((cfg14.win 5).blk t).view.set ↔ ∀ a : Fin 2, win14_5.index t a * S512x192.size a ≤ (i a).val ∧ (i a).val < win14_5.index t a * S512x192.size a + S512x192.size a := by
  show i ∈ ((View.whole main_v76).slice (win14_5.rect t)).set ↔ _
  rw [View.set_slice_whole, Rect.mem_set_unit]
  exact Iff.rfl

/-- Row r of the result is in the block of point r / 512. -/
theorem cover (i : S8192x192.Idx) : ∃ t : Fin cfg14.N, (cfg14.win 5).flush t = true ∧ i ∈ ((cfg14.win 5).blk t).view.set := by
  have hi0 : (i 0).val < 8192 := (i 0).isLt
  have hi1 : (i 1).val < 192 := (i 1).isLt
  have hN : cfg14.N = 16 := N_14
  have hlt : (i 0).val / 512 < cfg14.N := by rw [hN]; omega
  obtain ⟨-, -, -, -, -, -, -, -, -, -, e10, e11⟩ := block_index ⟨(i 0).val / 512, hlt⟩
  refine ⟨⟨(i 0).val / 512, hlt⟩, flush14_5 _, ?_⟩
  rw [mem_block]
  intro a
  match a with
  | ⟨0, _⟩ =>
    show win14_5.index ⟨(i 0).val / 512, hlt⟩ (0 : Fin 2) * 512 ≤ (i 0).val ∧ (i 0).val < win14_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win14_5.index ⟨(i 0).val / 512, hlt⟩ (1 : Fin 2) * 192 ≤ (i 1).val ∧ (i 1).val < win14_5.index ⟨(i 0).val / 512, hlt⟩ (1 : Fin 2) * 192 + 192
    rw [e11]; omega

/-- The result after the region: the aggregation step of the five arrays the region is entered with. -/
theorem final (c : Dev nD) :
    (dat14 (F := Ideal) V c).arrAt 5 cfg14.N
      = aggRelu (M := 8192) (N := 192) (P := 128) 64 (V c main_v0) (V c main_v71_0) (V c main_v71_1) (V c main_v73) (V c main_v75) :=
  (dat14 (F := Ideal) V c).arrAt_eq_of_cover 5 _ (fun t _ => flushed_agg V c t) cover

end Cert.KernelIdeal.Reg14

end
-- ==== Proof.KReg16.lean ====
/-
  Region 16: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg16

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = t.val ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = t.val ∧ win16_5.index t (1 : Fin 2) = 0 :=
  (by decide +kernel : ∀ t : Fin grid16.N, _)

/-- Row p of the adjacency block at point t is row 512 t + p of the adjacency. -/
theorem adjacency_block (c : Dev nD) (t : Fin cfg16.N) (p : Fin 512) (r : Fin 8192) :
    (iblk16 V c 0 t : FVec Ideal S512x8192 .bf16) (ix2 p r) = rd2 (V c main_v0 : Arr2 8192 8192) (t.val * 512 + p.val) r.val := by
  obtain ⟨e0, e1, -⟩ := block_index t
  have hN : cfg16.N = 16 := N_16
  have ht : t.val < cfg16.N := t.isLt
  have hp : t.val * 512 + p.val < 8192 := by omega
  rw [rd2_of_lt _ hp r.isLt]
  unfold iblk16
  rw [View.read_apply]
  show V c main_v0 _ = V c main_v0 _
  congr 1
  funext a
  apply Fin.ext
  match a with
  | ⟨0, _⟩ => show win16_0.index t (0 : Fin 2) * 512 + 1 * p.val = t.val * 512 + p.val; rw [e0]; omega
  | ⟨1, _⟩ => show win16_0.index t (1 : Fin 2) * 8192 + 1 * r.val = r.val; rw [e1]; omega

/-- The first support piece's block at every point is the whole piece. -/
theorem support_agg_block (c : Dev nD) (t : Fin cfg16.N) (r : Fin 8192) (j : Fin 64) :
    (iblk16 V c 1 t : FVec Ideal S8192x64 .bf16) (ix2 r j) = rd2 (V c main_v81_0 : Arr2 8192 64) r.val j.val := by
  obtain ⟨-, -, e2, e3, -⟩ := block_index t
  rw [rd2_ix2]
  unfold iblk16
  rw [View.read_apply]
  show V c main_v81_0 _ = V c main_v81_0 _
  congr 1
  funext a
  apply Fin.ext
  match a with
  | ⟨0, _⟩ => show win16_1.index t (0 : Fin 2) * 8192 + 1 * r.val = r.val; rw [e2]; omega
  | ⟨1, _⟩ => show win16_1.index t (1 : Fin 2) * 64 + 1 * j.val = j.val; rw [e3]; omega

/-- Row p of the second support piece's block at point t is row 512 t + p of the piece. -/
theorem support_pass_block (c : Dev nD) (t : Fin cfg16.N) (p : Fin 512) (j : Fin 128) :
    (iblk16 V c 2 t : FVec Ideal S512x128 .f32) (ix2 p j) = rd2 (V c main_v81_1 : Arr2 8192 128) (t.val * 512 + p.val) j.val := by
  obtain ⟨-, -, -, -, e4, e5, -⟩ := block_index t
  have hN : cfg16.N = 16 := N_16
  have ht : t.val < cfg16.N := t.isLt
  have hp : t.val * 512 + p.val < 8192 := by omega
  rw [rd2_of_lt _ hp j.isLt]
  unfold iblk16
  rw [View.read_apply]
  show V c main_v81_1 _ = V c main_v81_1 _
  congr 1
  funext a
  apply Fin.ext
  match a with
  | ⟨0, _⟩ => show win16_2.index t (0 : Fin 2) * 512 + 1 * p.val = t.val * 512 + p.val; rw [e4]; omega
  | ⟨1, _⟩ => show win16_2.index t (1 : Fin 2) * 128 + 1 * j.val = j.val; rw [e5]; omega

/-- The first bias piece's block at every point is the whole one-row piece. -/
theorem bias_agg_block (c : Dev nD) (t : Fin cfg16.N) (u : Fin 1) (j : Fin 64) :
    (iblk16 V c 3 t : FVec Ideal S1x64 .f32) (ix2 u j) = rd2 (V c main_v83 : Arr2 1 64) 0 j.val := by
  obtain ⟨-, -, -, -, -, -, e6, e7, -⟩ := block_index t
  have hu : u.val = 0 := by have := u.isLt; omega
  rw [rd2_of_lt _ Nat.one_pos j.isLt]
  unfold iblk16
  rw [View.read_apply]
  show V c main_v83 _ = V c main_v83 _
  congr 1
  funext a
  apply Fin.ext
  match a with
  | ⟨0, _⟩ => show win16_3.index t (0 : Fin 2) * 1 + 1 * u.val = 0; rw [e6]; omega
  | ⟨1, _⟩ => show win16_3.index t (1 : Fin 2) * 64 + 1 * j.val = j.val; rw [e7]; omega

/-- The second bias piece's block at every point is the whole one-row piece. -/
theorem bias_pass_block (c : Dev nD) (t : Fin cfg16.N) (u : Fin 1) (j : Fin 128) :
    (iblk16 V c 4 t : FVec Ideal S1x128 .f32) (ix2 u j) = rd2 (V c main_v85 : Arr2 1 128) 0 j.val := by
  obtain ⟨-, -, -, -, -, -, -, -, e8, e9, -⟩ := block_index t
  have hu : u.val = 0 := by have := u.isLt; omega
  rw [rd2_of_lt _ Nat.one_pos j.isLt]
  unfold iblk16
  rw [View.read_apply]
  show V c main_v85 _ = V c main_v85 _
  congr 1
  funext a
  apply Fin.ext
  match a with
  | ⟨0, _⟩ => show win16_4.index t (0 : Fin 2) * 1 + 1 * u.val = 0; rw [e8]; omega
  | ⟨1, _⟩ => show win16_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k16_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k16_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k16_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg16.N) :
    (dat16 (F := Ideal) V c).flushed 5 t
      = ((cfg16.win 5).blk t).view.read (Elt Ideal)
          (aggRelu (M := 8192) (N := 192) (P := 128) 64 (V c main_v0) (V c main_v81_0) (V c main_v81_1) (V c main_v83) (V c main_v85)) := by
  show (cfg16.win 5).cut (grid16.coords t) ((dat16 V c).after 5 t) = _
  rw [after16_5]
  unfold out16_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v81_0) (V c main_v81_1) (V c main_v83) (V c main_v85)
    (iblk16 V c 0 t) (iblk16 V c 1 t) (iblk16 V c 2 t) (iblk16 V c 3 t) (iblk16 V c 4 t) t.val
    (adjacency_block V c t) (support_agg_block V c t) (support_pass_block V c t) (bias_agg_block V c t) (bias_pass_block V c t)
    j (((cfg16.win 5).blk t).view.emb j) ?_ ?_
  · show win16_5.index t (0 : Fin 2) * 512 + 1 * (j 0).val = t.val * 512 + (j 0).val; rw [e10]; omega
  · show win16_5.index t (1 : Fin 2) * 192 + 1 * (j 1).val = (j 1).val; rw [e11]; omega

/-- An index is in point t's block of the result iff each coordinate is in the block's range on its axis. -/
theorem mem_block (t : Fin cfg16.N) (i : S8192x192.Idx) :
    i ∈ ((cfg16.win 5).blk t).view.set ↔ ∀ a : Fin 2, win16_5.index t a * S512x192.size a ≤ (i a).val ∧ (i a).val < win16_5.index t a * S512x192.size a + S512x192.size a := by
  show i ∈ ((View.whole main_v86).slice (win16_5.rect t)).set ↔ _
  rw [View.set_slice_whole, Rect.mem_set_unit]
  exact Iff.rfl

/-- Row r of the result is in the block of point r / 512. -/
theorem cover (i : S8192x192.Idx) : ∃ t : Fin cfg16.N, (cfg16.win 5).flush t = true ∧ i ∈ ((cfg16.win 5).blk t).view.set := by
  have hi0 : (i 0).val < 8192 := (i 0).isLt
  have hi1 : (i 1).val < 192 := (i 1).isLt
  have hN : cfg16.N = 16 := N_16
  have hlt : (i 0).val / 512 < cfg16.N := by rw [hN]; omega
  obtain ⟨-, -, -, -, -, -, -, -, -, -, e10, e11⟩ := block_index ⟨(i 0).val / 512, hlt⟩
  refine ⟨⟨(i 0).val / 512, hlt⟩, flush16_5 _, ?_⟩
  rw [mem_block]
  intro a
  match a with
  | ⟨0, _⟩ =>
    show win16_5.index ⟨(i 0).val / 512, hlt⟩ (0 : Fin 2) * 512 ≤ (i 0).val ∧ (i 0).val < win16_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win16_5.index ⟨(i 0).val / 512, hlt⟩ (1 : Fin 2) * 192 ≤ (i 1).val ∧ (i 1).val < win16_5.index ⟨(i 0).val / 512, hlt⟩ (1 : Fin 2) * 192 + 192
    rw [e11]; omega

/-- The result after the region: the aggregation step of the five arrays the region is entered with. -/
theorem final (c : Dev nD) :
    (dat16 (F := Ideal) V c).arrAt 5 cfg16.N
      = aggRelu (M := 8192) (N := 192) (P := 128) 64 (V c main_v0) (V c main_v81_0) (V c main_v81_1) (V c main_v83) (V c main_v85) :=
  (dat16 (F := Ideal) V c).arrAt_eq_of_cover 5 _ (fun t _ => flushed_agg V c t) cover

end Cert.KernelIdeal.Reg16

end
-- ==== Proof.KReg18.lean ====
/-
  Region 18: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg18

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = t.val ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = t.val ∧ win18_5.index t (1 : Fin 2) = 0 :=
  (by decide +kernel : ∀ t : Fin grid18.N, _)

/-- Row p of the adjacency block at point t is row 512 t + p of the adjacency. -/
theorem adjacency_block (c : Dev nD) (t : Fin cfg18.N) (p : Fin 512) (r : Fin 8192) :
    (iblk18 V c 0 t : FVec Ideal S512x8192 .bf16) (ix2 p r) = rd2 (V c main_v0 : Arr2 8192 8192) (t.val * 512 + p.val) r.val := by
  obtain ⟨e0, e1, -⟩ := block_index t
  have hN : cfg18.N = 16 := N_18
  have ht : t.val < cfg18.N := t.isLt
  have hp : t.val * 512 + p.val < 8192 := by omega
  rw [rd2_of_lt _ hp r.isLt]
  unfold iblk18
  rw [View.read_apply]
  show V c main_v0 _ = V c main_v0 _
  congr 1
  funext a
  apply Fin.ext
  match a with
  | ⟨0, _⟩ => show win18_0.index t (0 : Fin 2) * 512 + 1 * p.val = t.val * 512 + p.val; rw [e0]; omega
  | ⟨1, _⟩ => show win18_0.index t (1 : Fin 2) * 8192 + 1 * r.val = r.val; rw [e1]; omega

/-- The first support piece's block at every point is the whole piece. -/
theorem support_agg_block (c : Dev nD) (t : Fin cfg18.N) (r : Fin 8192) (j : Fin 64) :
    (iblk18 V c 1 t : FVec Ideal S8192x64 .bf16) (ix2 r j) = rd2 (V c main_v94_0 : Arr2 8192 64) r.val j.val := by
  obtain ⟨-, -, e2, e3, -⟩ := block_index t
  rw [rd2_ix2]
  unfold iblk18
  rw [View.read_apply]
  show V c main_v94_0 _ = V c main_v94_0 _
  congr 1
  funext a
  apply Fin.ext
  match a with
  | ⟨0, _⟩ => show win18_1.index t (0 : Fin 2) * 8192 + 1 * r.val = r.val; rw [e2]; omega
  | ⟨1, _⟩ => show win18_1.index t (1 : Fin 2) * 64 + 1 * j.val = j.val; rw [e3]; omega

/-- Row p of the second support piece's block at point t is row 512 t + p of the piece. -/
theorem support_pass_block (c : Dev nD) (t : Fin cfg18.N) (p : Fin 512) (j : Fin 128) :
    (iblk18 V c 2 t : FVec Ideal S512x128 .f32) (ix2 p j) = rd2 (V c main_v94_1 : Arr2 8192 128) (t.val * 512 + p.val) j.val := by
  obtain ⟨-, -, -, -, e4, e5, -⟩ := block_index t
  have hN : cfg18.N = 16 := N_18
  have ht : t.val < cfg18.N := t.isLt
  have hp : t.val * 512 + p.val < 8192 := by omega
  rw [rd2_of_lt _ hp j.isLt]
  unfold iblk18
  rw [View.read_apply]
  show V c main_v94_1 _ = V c main_v94_1 _
  congr 1
  funext a
  apply Fin.ext
  match a with
  | ⟨0, _⟩ => show win18_2.index t (0 : Fin 2) * 512 + 1 * p.val = t.val * 512 + p.val; rw [e4]; omega
  | ⟨1, _⟩ => show win18_2.index t (1 : Fin 2) * 128 + 1 * j.val = j.val; rw [e5]; omega

/-- The first bias piece's block at every point is the whole one-row piece. -/
theorem bias_agg_block (c : Dev nD) (t : Fin cfg18.N) (u : Fin 1) (j : Fin 64) :
    (iblk18 V c 3 t : FVec Ideal S1x64 .f32) (ix2 u j) = rd2 (V c main_v96 : Arr2 1 64) 0 j.val := by
  obtain ⟨-, -, -, -, -, -, e6, e7, -⟩ := block_index t
  have hu : u.val = 0 := by have := u.isLt; omega
  rw [rd2_of_lt _ Nat.one_pos j.isLt]
  unfold iblk18
  rw [View.read_apply]
  show V c main_v96 _ = V c main_v96 _
  congr 1
  funext a
  apply Fin.ext
  match a with
  | ⟨0, _⟩ => show win18_3.index t (0 : Fin 2) * 1 + 1 * u.val = 0; rw [e6]; omega
  | ⟨1, _⟩ => show win18_3.index t (1 : Fin 2) * 64 + 1 * j.val = j.val; rw [e7]; omega

/-- The second bias piece's block at every point is the whole one-row piece. -/
theorem bias_pass_block (c : Dev nD) (t : Fin cfg18.N) (u : Fin 1) (j : Fin 128) :
    (iblk18 V c 4 t : FVec Ideal S1x128 .f32) (ix2 u j) = rd2 (V c main_v98 : Arr2 1 128) 0 j.val := by
  obtain ⟨-, -, -, -, -, -, -, -, e8, e9, -⟩ := block_index t
  have hu : u.val = 0 := by have := u.isLt; omega
  rw [rd2_of_lt _ Nat.one_pos j.isLt]
  unfold iblk18
  rw [View.read_apply]
  show V c main_v98 _ = V c main_v98 _
  congr 1
  funext a
  apply Fin.ext
  match a with
  | ⟨0, _⟩ => show win18_4.index t (0 : Fin 2) * 1 + 1 * u.val = 0; rw [e8]; omega
  | ⟨1, _⟩ => show win18_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k18_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k18_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k18_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg18.N) :
    (dat18 (F := Ideal) V c).flushed 5 t
      = ((cfg18.win 5).blk t).view.read (Elt Ideal)
          (aggRelu (M := 8192) (N := 192) (P := 128) 64 (V c main_v0) (V c main_v94_0) (V c main_v94_1) (V c main_v96) (V c main_v98)) := by
  show (cfg18.win 5).cut (grid18.coords t) ((dat18 V c).after 5 t) = _
  rw [after18_5]
  unfold out18_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v94_0) (V c main_v94_1) (V c main_v96) (V c main_v98)
    (iblk18 V c 0 t) (iblk18 V c 1 t) (iblk18 V c 2 t) (iblk18 V c 3 t) (iblk18 V c 4 t) t.val
    (adjacency_block V c t) (support_agg_block V c t) (support_pass_block V c t) (bias_agg_block V c t) (bias_pass_block V c t)
    j (((cfg18.win 5).blk t).view.emb j) ?_ ?_
  · show win18_5.index t (0 : Fin 2) * 512 + 1 * (j 0).val = t.val * 512 + (j 0).val; rw [e10]; omega
  · show win18_5.index t (1 : Fin 2) * 192 + 1 * (j 1).val = (j 1).val; rw [e11]; omega

/-- An index is in point t's block of the result iff each coordinate is in the block's range on its axis. -/
theorem mem_block (t : Fin cfg18.N) (i : S8192x192.Idx) :
    i ∈ ((cfg18.win 5).blk t).view.set ↔ ∀ a : Fin 2, win18_5.index t a * S512x192.size a ≤ (i a).val ∧ (i a).val < win18_5.index t a * S512x192.size a + S512x192.size a := by
  show i ∈ ((View.whole main_v99).slice (win18_5.rect t)).set ↔ _
  rw [View.set_slice_whole, Rect.mem_set_unit]
  exact Iff.rfl

/-- Row r of the result is in the block of point r / 512. -/
theorem cover (i : S8192x192.Idx) : ∃ t : Fin cfg18.N, (cfg18.win 5).flush t = true ∧ i ∈ ((cfg18.win 5).blk t).view.set := by
  have hi0 : (i 0).val < 8192 := (i 0).isLt
  have hi1 : (i 1).val < 192 := (i 1).isLt
  have hN : cfg18.N = 16 := N_18
  have hlt : (i 0).val / 512 < cfg18.N := by rw [hN]; omega
  obtain ⟨-, -, -, -, -, -, -, -, -, -, e10, e11⟩ := block_index ⟨(i 0).val / 512, hlt⟩
  refine ⟨⟨(i 0).val / 512, hlt⟩, flush18_5 _, ?_⟩
  rw [mem_block]
  intro a
  match a with
  | ⟨0, _⟩ =>
    show win18_5.index ⟨(i 0).val / 512, hlt⟩ (0 : Fin 2) * 512 ≤ (i 0).val ∧ (i 0).val < win18_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win18_5.index ⟨(i 0).val / 512, hlt⟩ (1 : Fin 2) * 192 ≤ (i 1).val ∧ (i 1).val < win18_5.index ⟨(i 0).val / 512, hlt⟩ (1 : Fin 2) * 192 + 192
    rw [e11]; omega

/-- The result after the region: the aggregation step of the five arrays the region is entered with. -/
theorem final (c : Dev nD) :
    (dat18 (F := Ideal) V c).arrAt 5 cfg18.N
      = aggRelu (M := 8192) (N := 192) (P := 128) 64 (V c main_v0) (V c main_v94_0) (V c main_v94_1) (V c main_v96) (V c main_v98) :=
  (dat18 (F := Ideal) V c).arrAt_eq_of_cover 5 _ (fun t _ => flushed_agg V c t) cover

end Cert.KernelIdeal.Reg18

end
-- ==== Proof.KReg20.lean ====
/-
  Region 20: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg20

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg20.N, win20_0.index t (0 : Fin 2) = t.val ∧ win20_0.index t (1 : Fin 2) = 0
    ∧ win20_1.index t (0 : Fin 2) = 0 ∧ win20_1.index t (1 : Fin 2) = 0
    ∧ win20_2.index t (0 : Fin 2) = t.val ∧ win20_2.index t (1 : Fin 2) = 0
    ∧ win20_3.index t (0 : Fin 2) = 0 ∧ win20_3.index t (1 : Fin 2) = 0
    ∧ win20_4.index t (0 : Fin 2) = 0 ∧ win20_4.index t (1 : Fin 2) = 0
    ∧ win20_5.index t (0 : Fin 2) = t.val ∧ win20_5.index t (1 : Fin 2) = 0 :=
  (by decide +kernel : ∀ t : Fin grid20.N, _)

/-- Row p of the adjacency block at point t is row 512 t + p of the adjacency. -/
theorem adjacency_block (c : Dev nD) (t : Fin cfg20.N) (p : Fin 512) (r : Fin 8192) :
    (iblk20 V c 0 t : FVec Ideal S512x8192 .bf16) (ix2 p r) = rd2 (V c main_v0 : Arr2 8192 8192) (t.val * 512 + p.val) r.val := by
  obtain ⟨e0, e1, -⟩ := block_index t
  have hN : cfg20.N = 16 := N_20
  have ht : t.val < cfg20.N := t.isLt
  have hp : t.val * 512 + p.val < 8192 := by omega
  rw [rd2_of_lt _ hp r.isLt]
  unfold iblk20
  rw [View.read_apply]
  show V c main_v0 _ = V c main_v0 _
  congr 1
  funext a
  apply Fin.ext
  match a with
  | ⟨0, _⟩ => show win20_0.index t (0 : Fin 2) * 512 + 1 * p.val = t.val * 512 + p.val; rw [e0]; omega
  | ⟨1, _⟩ => show win20_0.index t (1 : Fin 2) * 8192 + 1 * r.val = r.val; rw [e1]; omega

/-- The first support piece's block at every point is the whole piece. -/
theorem support_agg_block (c : Dev nD) (t : Fin cfg20.N) (r : Fin 8192) (j : Fin 64) :
    (iblk20 V c 1 t : FVec Ideal S8192x64 .bf16) (ix2 r j) = rd2 (V c main_v104_0 : Arr2 8192 64) r.val j.val := by
  obtain ⟨-, -, e2, e3, -⟩ := block_index t
  rw [rd2_ix2]
  unfold iblk20
  rw [View.read_apply]
  show V c main_v104_0 _ = V c main_v104_0 _
  congr 1
  funext a
  apply Fin.ext
  match a with
  | ⟨0, _⟩ => show win20_1.index t (0 : Fin 2) * 8192 + 1 * r.val = r.val; rw [e2]; omega
  | ⟨1, _⟩ => show win20_1.index t (1 : Fin 2) * 64 + 1 * j.val = j.val; rw [e3]; omega

/-- Row p of the second support piece's block at point t is row 512 t + p of the piece. -/
theorem support_pass_block (c : Dev nD) (t : Fin cfg20.N) (p : Fin 512) (j : Fin 128) :
    (iblk20 V c 2 t : FVec Ideal S512x128 .f32) (ix2 p j) = rd2 (V c main_v104_1 : Arr2 8192 128) (t.val * 512 + p.val) j.val := by
  obtain ⟨-, -, -, -, e4, e5, -⟩ := block_index t
  have hN : cfg20.N = 16 := N_20
  have ht : t.val < cfg20.N := t.isLt
  have hp : t.val * 512 + p.val < 8192 := by omega
  rw [rd2_of_lt _ hp j.isLt]
  unfold iblk20
  rw [View.read_apply]
  show V c main_v104_1 _ = V c main_v104_1 _
  congr 1
  funext a
  apply Fin.ext
  match a with
  | ⟨0, _⟩ => show win20_2.index t (0 : Fin 2) * 512 + 1 * p.val = t.val * 512 + p.val; rw [e4]; omega
  | ⟨1, _⟩ => show win20_2.index t (1 : Fin 2) * 128 + 1 * j.val = j.val; rw [e5]; omega

/-- The first bias piece's block at every point is the whole one-row piece. -/
theorem bias_agg_block (c : Dev nD) (t : Fin cfg20.N) (u : Fin 1) (j : Fin 64) :
    (iblk20 V c 3 t : FVec Ideal S1x64 .f32) (ix2 u j) = rd2 (V c main_v106 : Arr2 1 64) 0 j.val := by
  obtain ⟨-, -, -, -, -, -, e6, e7, -⟩ := block_index t
  have hu : u.val = 0 := by have := u.isLt; omega
  rw [rd2_of_lt _ Nat.one_pos j.isLt]
  unfold iblk20
  rw [View.read_apply]
  show V c main_v106 _ = V c main_v106 _
  congr 1
  funext a
  apply Fin.ext
  match a with
  | ⟨0, _⟩ => show win20_3.index t (0 : Fin 2) * 1 + 1 * u.val = 0; rw [e6]; omega
  | ⟨1, _⟩ => show win20_3.index t (1 : Fin 2) * 64 + 1 * j.val = j.val; rw [e7]; omega

/-- The second bias piece's block at every point is the whole one-row piece. -/
theorem bias_pass_block (c : Dev nD) (t : Fin cfg20.N) (u : Fin 1) (j : Fin 128) :
    (iblk20 V c 4 t : FVec Ideal S1x128 .f32) (ix2 u j) = rd2 (V c main_v108 : Arr2 1 128) 0 j.val := by
  obtain ⟨-, -, -, -, -, -, -, -, e8, e9, -⟩ := block_index t
  have hu : u.val = 0 := by have := u.isLt; omega
  rw [rd2_of_lt _ Nat.one_pos j.isLt]
  unfold iblk20
  rw [View.read_apply]
  show V c main_v108 _ = V c main_v108 _
  congr 1
  funext a
  apply Fin.ext
  match a with
  | ⟨0, _⟩ => show win20_4.index t (0 : Fin 2) * 1 + 1 * u.val = 0; rw [e8]; omega
  | ⟨1, _⟩ => show win20_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k20_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k20_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k20_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg20.N) :
    (dat20 (F := Ideal) V c).flushed 5 t
      = ((cfg20.win 5).blk t).view.read (Elt Ideal)
          (aggRelu (M := 8192) (N := 192) (P := 128) 64 (V c main_v0) (V c main_v104_0) (V c main_v104_1) (V c main_v106) (V c main_v108)) := by
  show (cfg20.win 5).cut (grid20.coords t) ((dat20 V c).after 5 t) = _
  rw [after20_5]
  unfold out20_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v104_0) (V c main_v104_1) (V c main_v106) (V c main_v108)
    (iblk20 V c 0 t) (iblk20 V c 1 t) (iblk20 V c 2 t) (iblk20 V c 3 t) (iblk20 V c 4 t) t.val
    (adjacency_block V c t) (support_agg_block V c t) (support_pass_block V c t) (bias_agg_block V c t) (bias_pass_block V c t)
    j (((cfg20.win 5).blk t).view.emb j) ?_ ?_
  · show win20_5.index t (0 : Fin 2) * 512 + 1 * (j 0).val = t.val * 512 + (j 0).val; rw [e10]; omega
  · show win20_5.index t (1 : Fin 2) * 192 + 1 * (j 1).val = (j 1).val; rw [e11]; omega

/-- An index is in point t's block of the result iff each coordinate is in the block's range on its axis. -/
theorem mem_block (t : Fin cfg20.N) (i : S8192x192.Idx) :
    i ∈ ((cfg20.win 5).blk t).view.set ↔ ∀ a : Fin 2, win20_5.index t a * S512x192.size a ≤ (i a).val ∧ (i a).val < win20_5.index t a * S512x192.size a + S512x192.size a := by
  show i ∈ ((View.whole main_v109).slice (win20_5.rect t)).set ↔ _
  rw [View.set_slice_whole, Rect.mem_set_unit]
  exact Iff.rfl

/-- Row r of the result is in the block of point r / 512. -/
theorem cover (i : S8192x192.Idx) : ∃ t : Fin cfg20.N, (cfg20.win 5).flush t = true ∧ i ∈ ((cfg20.win 5).blk t).view.set := by
  have hi0 : (i 0).val < 8192 := (i 0).isLt
  have hi1 : (i 1).val < 192 := (i 1).isLt
  have hN : cfg20.N = 16 := N_20
  have hlt : (i 0).val / 512 < cfg20.N := by rw [hN]; omega
  obtain ⟨-, -, -, -, -, -, -, -, -, -, e10, e11⟩ := block_index ⟨(i 0).val / 512, hlt⟩
  refine ⟨⟨(i 0).val / 512, hlt⟩, flush20_5 _, ?_⟩
  rw [mem_block]
  intro a
  match a with
  | ⟨0, _⟩ =>
    show win20_5.index ⟨(i 0).val / 512, hlt⟩ (0 : Fin 2) * 512 ≤ (i 0).val ∧ (i 0).val < win20_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win20_5.index ⟨(i 0).val / 512, hlt⟩ (1 : Fin 2) * 192 ≤ (i 1).val ∧ (i 1).val < win20_5.index ⟨(i 0).val / 512, hlt⟩ (1 : Fin 2) * 192 + 192
    rw [e11]; omega

/-- The result after the region: the aggregation step of the five arrays the region is entered with. -/
theorem final (c : Dev nD) :
    (dat20 (F := Ideal) V c).arrAt 5 cfg20.N
      = aggRelu (M := 8192) (N := 192) (P := 128) 64 (V c main_v0) (V c main_v104_0) (V c main_v104_1) (V c main_v106) (V c main_v108) :=
  (dat20 (F := Ideal) V c).arrAt_eq_of_cover 5 _ (fun t _ => flushed_agg V c t) cover

end Cert.KernelIdeal.Reg20

end
-- ==== Proof.KReg22.lean ====
/-
  Region 22: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg22

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg22.N, win22_0.index t (0 : Fin 2) = t.val ∧ win22_0.index t (1 : Fin 2) = 0
    ∧ win22_1.index t (0 : Fin 2) = 0 ∧ win22_1.index t (1 : Fin 2) = 0
    ∧ win22_2.index t (0 : Fin 2) = t.val ∧ win22_2.index t (1 : Fin 2) = 0
    ∧ win22_3.index t (0 : Fin 2) = 0 ∧ win22_3.index t (1 : Fin 2) = 0
    ∧ win22_4.index t (0 : Fin 2) = 0 ∧ win22_4.index t (1 : Fin 2) = 0
    ∧ win22_5.index t (0 : Fin 2) = t.val ∧ win22_5.index t (1 : Fin 2) = 0 :=
  (by decide +kernel : ∀ t : Fin grid22.N, _)

/-- Row p of the adjacency block at point t is row 512 t + p of the adjacency. -/
theorem adjacency_block (c : Dev nD) (t : Fin cfg22.N) (p : Fin 512) (r : Fin 8192) :
    (iblk22 V c 0 t : FVec Ideal S512x8192 .bf16) (ix2 p r) = rd2 (V c main_v0 : Arr2 8192 8192) (t.val * 512 + p.val) r.val := by
  obtain ⟨e0, e1, -⟩ := block_index t
  have hN : cfg22.N = 16 := N_22
  have ht : t.val < cfg22.N := t.isLt
  have hp : t.val * 512 + p.val < 8192 := by omega
  rw [rd2_of_lt _ hp r.isLt]
  unfold iblk22
  rw [View.read_apply]
  show V c main_v0 _ = V c main_v0 _
  congr 1
  funext a
  apply Fin.ext
  match a with
  | ⟨0, _⟩ => show win22_0.index t (0 : Fin 2) * 512 + 1 * p.val = t.val * 512 + p.val; rw [e0]; omega
  | ⟨1, _⟩ => show win22_0.index t (1 : Fin 2) * 8192 + 1 * r.val = r.val; rw [e1]; omega

/-- The first support piece's block at every point is the whole piece. -/
theorem support_agg_block (c : Dev nD) (t : Fin cfg22.N) (r : Fin 8192) (j : Fin 64) :
    (iblk22 V c 1 t : FVec Ideal S8192x64 .bf16) (ix2 r j) = rd2 (V c main_v117_0 : Arr2 8192 64) r.val j.val := by
  obtain ⟨-, -, e2, e3, -⟩ := block_index t
  rw [rd2_ix2]
  unfold iblk22
  rw [View.read_apply]
  show V c main_v117_0 _ = V c main_v117_0 _
  congr 1
  funext a
  apply Fin.ext
  match a with
  | ⟨0, _⟩ => show win22_1.index t (0 : Fin 2) * 8192 + 1 * r.val = r.val; rw [e2]; omega
  | ⟨1, _⟩ => show win22_1.index t (1 : Fin 2) * 64 + 1 * j.val = j.val; rw [e3]; omega

/-- Row p of the second support piece's block at point t is row 512 t + p of the piece. -/
theorem support_pass_block (c : Dev nD) (t : Fin cfg22.N) (p : Fin 512) (j : Fin 128) :
    (iblk22 V c 2 t : FVec Ideal S512x128 .f32) (ix2 p j) = rd2 (V c main_v117_1 : Arr2 8192 128) (t.val * 512 + p.val) j.val := by
  obtain ⟨-, -, -, -, e4, e5, -⟩ := block_index t
  have hN : cfg22.N = 16 := N_22
  have ht : t.val < cfg22.N := t.isLt
  have hp : t.val * 512 + p.val < 8192 := by omega
  rw [rd2_of_lt _ hp j.isLt]
  unfold iblk22
  rw [View.read_apply]
  show V c main_v117_1 _ = V c main_v117_1 _
  congr 1
  funext a
  apply Fin.ext
  match a with
  | ⟨0, _⟩ => show win22_2.index t (0 : Fin 2) * 512 + 1 * p.val = t.val * 512 + p.val; rw [e4]; omega
  | ⟨1, _⟩ => show win22_2.index t (1 : Fin 2) * 128 + 1 * j.val = j.val; rw [e5]; omega

/-- The first bias piece's block at every point is the whole one-row piece. -/
theorem bias_agg_block (c : Dev nD) (t : Fin cfg22.N) (u : Fin 1) (j : Fin 64) :
    (iblk22 V c 3 t : FVec Ideal S1x64 .f32) (ix2 u j) = rd2 (V c main_v119 : Arr2 1 64) 0 j.val := by
  obtain ⟨-, -, -, -, -, -, e6, e7, -⟩ := block_index t
  have hu : u.val = 0 := by have := u.isLt; omega
  rw [rd2_of_lt _ Nat.one_pos j.isLt]
  unfold iblk22
  rw [View.read_apply]
  show V c main_v119 _ = V c main_v119 _
  congr 1
  funext a
  apply Fin.ext
  match a with
  | ⟨0, _⟩ => show win22_3.index t (0 : Fin 2) * 1 + 1 * u.val = 0; rw [e6]; omega
  | ⟨1, _⟩ => show win22_3.index t (1 : Fin 2) * 64 + 1 * j.val = j.val; rw [e7]; omega

/-- The second bias piece's block at every point is the whole one-row piece. -/
theorem bias_pass_block (c : Dev nD) (t : Fin cfg22.N) (u : Fin 1) (j : Fin 128) :
    (iblk22 V c 4 t : FVec Ideal S1x128 .f32) (ix2 u j) = rd2 (V c main_v121 : Arr2 1 128) 0 j.val := by
  obtain ⟨-, -, -, -, -, -, -, -, e8, e9, -⟩ := block_index t
  have hu : u.val = 0 := by have := u.isLt; omega
  rw [rd2_of_lt _ Nat.one_pos j.isLt]
  unfold iblk22
  rw [View.read_apply]
  show V c main_v121 _ = V c main_v121 _
  congr 1
  funext a
  apply Fin.ext
  match a with
  | ⟨0, _⟩ => show win22_4.index t (0 : Fin 2) * 1 + 1 * u.val = 0; rw [e8]; omega
  | ⟨1, _⟩ => show win22_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k22_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k22_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k22_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg22.N) :
    (dat22 (F := Ideal) V c).flushed 5 t
      = ((cfg22.win 5).blk t).view.read (Elt Ideal)
          (aggRelu (M := 8192) (N := 192) (P := 128) 64 (V c main_v0) (V c main_v117_0) (V c main_v117_1) (V c main_v119) (V c main_v121)) := by
  show (cfg22.win 5).cut (grid22.coords t) ((dat22 V c).after 5 t) = _
  rw [after22_5]
  unfold out22_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v117_0) (V c main_v117_1) (V c main_v119) (V c main_v121)
    (iblk22 V c 0 t) (iblk22 V c 1 t) (iblk22 V c 2 t) (iblk22 V c 3 t) (iblk22 V c 4 t) t.val
    (adjacency_block V c t) (support_agg_block V c t) (support_pass_block V c t) (bias_agg_block V c t) (bias_pass_block V c t)
    j (((cfg22.win 5).blk t).view.emb j) ?_ ?_
  · show win22_5.index t (0 : Fin 2) * 512 + 1 * (j 0).val = t.val * 512 + (j 0).val; rw [e10]; omega
  · show win22_5.index t (1 : Fin 2) * 192 + 1 * (j 1).val = (j 1).val; rw [e11]; omega

/-- An index is in point t's block of the result iff each coordinate is in the block's range on its axis. -/
theorem mem_block (t : Fin cfg22.N) (i : S8192x192.Idx) :
    i ∈ ((cfg22.win 5).blk t).view.set ↔ ∀ a : Fin 2, win22_5.index t a * S512x192.size a ≤ (i a).val ∧ (i a).val < win22_5.index t a * S512x192.size a + S512x192.size a := by
  show i ∈ ((View.whole main_v122).slice (win22_5.rect t)).set ↔ _
  rw [View.set_slice_whole, Rect.mem_set_unit]
  exact Iff.rfl

/-- Row r of the result is in the block of point r / 512. -/
theorem cover (i : S8192x192.Idx) : ∃ t : Fin cfg22.N, (cfg22.win 5).flush t = true ∧ i ∈ ((cfg22.win 5).blk t).view.set := by
  have hi0 : (i 0).val < 8192 := (i 0).isLt
  have hi1 : (i 1).val < 192 := (i 1).isLt
  have hN : cfg22.N = 16 := N_22
  have hlt : (i 0).val / 512 < cfg22.N := by rw [hN]; omega
  obtain ⟨-, -, -, -, -, -, -, -, -, -, e10, e11⟩ := block_index ⟨(i 0).val / 512, hlt⟩
  refine ⟨⟨(i 0).val / 512, hlt⟩, flush22_5 _, ?_⟩
  rw [mem_block]
  intro a
  match a with
  | ⟨0, _⟩ =>
    show win22_5.index ⟨(i 0).val / 512, hlt⟩ (0 : Fin 2) * 512 ≤ (i 0).val ∧ (i 0).val < win22_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win22_5.index ⟨(i 0).val / 512, hlt⟩ (1 : Fin 2) * 192 ≤ (i 1).val ∧ (i 1).val < win22_5.index ⟨(i 0).val / 512, hlt⟩ (1 : Fin 2) * 192 + 192
    rw [e11]; omega

/-- The result after the region: the aggregation step of the five arrays the region is entered with. -/
theorem final (c : Dev nD) :
    (dat22 (F := Ideal) V c).arrAt 5 cfg22.N
      = aggRelu (M := 8192) (N := 192) (P := 128) 64 (V c main_v0) (V c main_v117_0) (V c main_v117_1) (V c main_v119) (V c main_v121) :=
  (dat22 (F := Ideal) V c).arrAt_eq_of_cover 5 _ (fun t _ => flushed_agg V c t) cover

end Cert.KernelIdeal.Reg22

end
-- ==== Proof.KReg24.lean ====
/-
  Region 24: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg24

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg24.N, win24_0.index t (0 : Fin 2) = t.val ∧ win24_0.index t (1 : Fin 2) = 0
    ∧ win24_1.index t (0 : Fin 2) = 0 ∧ win24_1.index t (1 : Fin 2) = 0
    ∧ win24_2.index t (0 : Fin 2) = t.val ∧ win24_2.index t (1 : Fin 2) = 0
    ∧ win24_3.index t (0 : Fin 2) = 0 ∧ win24_3.index t (1 : Fin 2) = 0
    ∧ win24_4.index t (0 : Fin 2) = 0 ∧ win24_4.index t (1 : Fin 2) = 0
    ∧ win24_5.index t (0 : Fin 2) = t.val ∧ win24_5.index t (1 : Fin 2) = 0 :=
  (by decide +kernel : ∀ t : Fin grid24.N, _)

/-- Row p of the adjacency block at point t is row 512 t + p of the adjacency. -/
theorem adjacency_block (c : Dev nD) (t : Fin cfg24.N) (p : Fin 512) (r : Fin 8192) :
    (iblk24 V c 0 t : FVec Ideal S512x8192 .bf16) (ix2 p r) = rd2 (V c main_v0 : Arr2 8192 8192) (t.val * 512 + p.val) r.val := by
  obtain ⟨e0, e1, -⟩ := block_index t
  have hN : cfg24.N = 16 := N_24
  have ht : t.val < cfg24.N := t.isLt
  have hp : t.val * 512 + p.val < 8192 := by omega
  rw [rd2_of_lt _ hp r.isLt]
  unfold iblk24
  rw [View.read_apply]
  show V c main_v0 _ = V c main_v0 _
  congr 1
  funext a
  apply Fin.ext
  match a with
  | ⟨0, _⟩ => show win24_0.index t (0 : Fin 2) * 512 + 1 * p.val = t.val * 512 + p.val; rw [e0]; omega
  | ⟨1, _⟩ => show win24_0.index t (1 : Fin 2) * 8192 + 1 * r.val = r.val; rw [e1]; omega

/-- The first support piece's block at every point is the whole piece. -/
theorem support_agg_block (c : Dev nD) (t : Fin cfg24.N) (r : Fin 8192) (j : Fin 64) :
    (iblk24 V c 1 t : FVec Ideal S8192x64 .bf16) (ix2 r j) = rd2 (V c main_v127_0 : Arr2 8192 64) r.val j.val := by
  obtain ⟨-, -, e2, e3, -⟩ := block_index t
  rw [rd2_ix2]
  unfold iblk24
  rw [View.read_apply]
  show V c main_v127_0 _ = V c main_v127_0 _
  congr 1
  funext a
  apply Fin.ext
  match a with
  | ⟨0, _⟩ => show win24_1.index t (0 : Fin 2) * 8192 + 1 * r.val = r.val; rw [e2]; omega
  | ⟨1, _⟩ => show win24_1.index t (1 : Fin 2) * 64 + 1 * j.val = j.val; rw [e3]; omega

/-- Row p of the second support piece's block at point t is row 512 t + p of the piece. -/
theorem support_pass_block (c : Dev nD) (t : Fin cfg24.N) (p : Fin 512) (j : Fin 128) :
    (iblk24 V c 2 t : FVec Ideal S512x128 .f32) (ix2 p j) = rd2 (V c main_v127_1 : Arr2 8192 128) (t.val * 512 + p.val) j.val := by
  obtain ⟨-, -, -, -, e4, e5, -⟩ := block_index t
  have hN : cfg24.N = 16 := N_24
  have ht : t.val < cfg24.N := t.isLt
  have hp : t.val * 512 + p.val < 8192 := by omega
  rw [rd2_of_lt _ hp j.isLt]
  unfold iblk24
  rw [View.read_apply]
  show V c main_v127_1 _ = V c main_v127_1 _
  congr 1
  funext a
  apply Fin.ext
  match a with
  | ⟨0, _⟩ => show win24_2.index t (0 : Fin 2) * 512 + 1 * p.val = t.val * 512 + p.val; rw [e4]; omega
  | ⟨1, _⟩ => show win24_2.index t (1 : Fin 2) * 128 + 1 * j.val = j.val; rw [e5]; omega

/-- The first bias piece's block at every point is the whole one-row piece. -/
theorem bias_agg_block (c : Dev nD) (t : Fin cfg24.N) (u : Fin 1) (j : Fin 64) :
    (iblk24 V c 3 t : FVec Ideal S1x64 .f32) (ix2 u j) = rd2 (V c main_v129 : Arr2 1 64) 0 j.val := by
  obtain ⟨-, -, -, -, -, -, e6, e7, -⟩ := block_index t
  have hu : u.val = 0 := by have := u.isLt; omega
  rw [rd2_of_lt _ Nat.one_pos j.isLt]
  unfold iblk24
  rw [View.read_apply]
  show V c main_v129 _ = V c main_v129 _
  congr 1
  funext a
  apply Fin.ext
  match a with
  | ⟨0, _⟩ => show win24_3.index t (0 : Fin 2) * 1 + 1 * u.val = 0; rw [e6]; omega
  | ⟨1, _⟩ => show win24_3.index t (1 : Fin 2) * 64 + 1 * j.val = j.val; rw [e7]; omega

/-- The second bias piece's block at every point is the whole one-row piece. -/
theorem bias_pass_block (c : Dev nD) (t : Fin cfg24.N) (u : Fin 1) (j : Fin 128) :
    (iblk24 V c 4 t : FVec Ideal S1x128 .f32) (ix2 u j) = rd2 (V c main_v131 : Arr2 1 128) 0 j.val := by
  obtain ⟨-, -, -, -, -, -, -, -, e8, e9, -⟩ := block_index t
  have hu : u.val = 0 := by have := u.isLt; omega
  rw [rd2_of_lt _ Nat.one_pos j.isLt]
  unfold iblk24
  rw [View.read_apply]
  show V c main_v131 _ = V c main_v131 _
  congr 1
  funext a
  apply Fin.ext
  match a with
  | ⟨0, _⟩ => show win24_4.index t (0 : Fin 2) * 1 + 1 * u.val = 0; rw [e8]; omega
  | ⟨1, _⟩ => show win24_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k24_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k24_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k24_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg24.N) :
    (dat24 (F := Ideal) V c).flushed 5 t
      = ((cfg24.win 5).blk t).view.read (Elt Ideal)
          (aggRelu (M := 8192) (N := 192) (P := 128) 64 (V c main_v0) (V c main_v127_0) (V c main_v127_1) (V c main_v129) (V c main_v131)) := by
  show (cfg24.win 5).cut (grid24.coords t) ((dat24 V c).after 5 t) = _
  rw [after24_5]
  unfold out24_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v127_0) (V c main_v127_1) (V c main_v129) (V c main_v131)
    (iblk24 V c 0 t) (iblk24 V c 1 t) (iblk24 V c 2 t) (iblk24 V c 3 t) (iblk24 V c 4 t) t.val
    (adjacency_block V c t) (support_agg_block V c t) (support_pass_block V c t) (bias_agg_block V c t) (bias_pass_block V c t)
    j (((cfg24.win 5).blk t).view.emb j) ?_ ?_
  · show win24_5.index t (0 : Fin 2) * 512 + 1 * (j 0).val = t.val * 512 + (j 0).val; rw [e10]; omega
  · show win24_5.index t (1 : Fin 2) * 192 + 1 * (j 1).val = (j 1).val; rw [e11]; omega

/-- An index is in point t's block of the result iff each coordinate is in the block's range on its axis. -/
theorem mem_block (t : Fin cfg24.N) (i : S8192x192.Idx) :
    i ∈ ((cfg24.win 5).blk t).view.set ↔ ∀ a : Fin 2, win24_5.index t a * S512x192.size a ≤ (i a).val ∧ (i a).val < win24_5.index t a * S512x192.size a + S512x192.size a := by
  show i ∈ ((View.whole main_v132).slice (win24_5.rect t)).set ↔ _
  rw [View.set_slice_whole, Rect.mem_set_unit]
  exact Iff.rfl

/-- Row r of the result is in the block of point r / 512. -/
theorem cover (i : S8192x192.Idx) : ∃ t : Fin cfg24.N, (cfg24.win 5).flush t = true ∧ i ∈ ((cfg24.win 5).blk t).view.set := by
  have hi0 : (i 0).val < 8192 := (i 0).isLt
  have hi1 : (i 1).val < 192 := (i 1).isLt
  have hN : cfg24.N = 16 := N_24
  have hlt : (i 0).val / 512 < cfg24.N := by rw [hN]; omega
  obtain ⟨-, -, -, -, -, -, -, -, -, -, e10, e11⟩ := block_index ⟨(i 0).val / 512, hlt⟩
  refine ⟨⟨(i 0).val / 512, hlt⟩, flush24_5 _, ?_⟩
  rw [mem_block]
  intro a
  match a with
  | ⟨0, _⟩ =>
    show win24_5.index ⟨(i 0).val / 512, hlt⟩ (0 : Fin 2) * 512 ≤ (i 0).val ∧ (i 0).val < win24_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win24_5.index ⟨(i 0).val / 512, hlt⟩ (1 : Fin 2) * 192 ≤ (i 1).val ∧ (i 1).val < win24_5.index ⟨(i 0).val / 512, hlt⟩ (1 : Fin 2) * 192 + 192
    rw [e11]; omega

/-- The result after the region: the aggregation step of the five arrays the region is entered with. -/
theorem final (c : Dev nD) :
    (dat24 (F := Ideal) V c).arrAt 5 cfg24.N
      = aggRelu (M := 8192) (N := 192) (P := 128) 64 (V c main_v0) (V c main_v127_0) (V c main_v127_1) (V c main_v129) (V c main_v131) :=
  (dat24 (F := Ideal) V c).arrAt_eq_of_cover 5 _ (fun t _ => flushed_agg V c t) cover

end Cert.KernelIdeal.Reg24

end
-- ==== Proof.KReg26.lean ====
/-
  Region 26: the aggregation. Each of the 16 grid points multiplies 512 rows of the adjacency [8192, 8192] by the whole first
  support piece [8192, 64], adds the first bias piece, and sets beside it its 512 rows of the second support piece
  [8192, 128] plus the second bias piece, all cut at zero. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg26

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg26.N, win26_0.index t (0 : Fin 2) = t.val ∧ win26_0.index t (1 : Fin 2) = 0
    ∧ win26_1.index t (0 : Fin 2) = 0 ∧ win26_1.index t (1 : Fin 2) = 0
    ∧ win26_2.index t (0 : Fin 2) = t.val ∧ win26_2.index t (1 : Fin 2) = 0
    ∧ win26_3.index t (0 : Fin 2) = 0 ∧ win26_3.index t (1 : Fin 2) = 0
    ∧ win26_4.index t (0 : Fin 2) = 0 ∧ win26_4.index t (1 : Fin 2) = 0
    ∧ win26_5.index t (0 : Fin 2) = t.val ∧ win26_5.index t (1 : Fin 2) = 0 :=
  (by decide +kernel : ∀ t : Fin grid26.N, _)

/-- Row p of the adjacency block at point t is row 512 t + p of the adjacency. -/
theorem adjacency_block (c : Dev nD) (t : Fin cfg26.N) (p : Fin 512) (r : Fin 8192) :
    (iblk26 V c 0 t : FVec Ideal S512x8192 .bf16) (ix2 p r) = rd2 (V c main_v0 : Arr2 8192 8192) (t.val * 512 + p.val) r.val := by
  obtain ⟨e0, e1, -⟩ := block_index t
  have hN : cfg26.N = 16 := N_26
  have ht : t.val < cfg26.N := t.isLt
  have hp : t.val * 512 + p.val < 8192 := by omega
  rw [rd2_of_lt _ hp r.isLt]
  unfold iblk26
  rw [View.read_apply]
  show V c main_v0 _ = V c main_v0 _
  congr 1
  funext a
  apply Fin.ext
  match a with
  | ⟨0, _⟩ => show win26_0.index t (0 : Fin 2) * 512 + 1 * p.val = t.val * 512 + p.val; rw [e0]; omega
  | ⟨1, _⟩ => show win26_0.index t (1 : Fin 2) * 8192 + 1 * r.val = r.val; rw [e1]; omega

/-- The first support piece's block at every point is the whole piece. -/
theorem support_agg_block (c : Dev nD) (t : Fin cfg26.N) (r : Fin 8192) (j : Fin 64) :
    (iblk26 V c 1 t : FVec Ideal S8192x64 .bf16) (ix2 r j) = rd2 (V c main_v140_0 : Arr2 8192 64) r.val j.val := by
  obtain ⟨-, -, e2, e3, -⟩ := block_index t
  rw [rd2_ix2]
  unfold iblk26
  rw [View.read_apply]
  show V c main_v140_0 _ = V c main_v140_0 _
  congr 1
  funext a
  apply Fin.ext
  match a with
  | ⟨0, _⟩ => show win26_1.index t (0 : Fin 2) * 8192 + 1 * r.val = r.val; rw [e2]; omega
  | ⟨1, _⟩ => show win26_1.index t (1 : Fin 2) * 64 + 1 * j.val = j.val; rw [e3]; omega

/-- Row p of the second support piece's block at point t is row 512 t + p of the piece. -/
theorem support_pass_block (c : Dev nD) (t : Fin cfg26.N) (p : Fin 512) (j : Fin 128) :
    (iblk26 V c 2 t : FVec Ideal S512x128 .f32) (ix2 p j) = rd2 (V c main_v140_1 : Arr2 8192 128) (t.val * 512 + p.val) j.val := by
  obtain ⟨-, -, -, -, e4, e5, -⟩ := block_index t
  have hN : cfg26.N = 16 := N_26
  have ht : t.val < cfg26.N := t.isLt
  have hp : t.val * 512 + p.val < 8192 := by omega
  rw [rd2_of_lt _ hp j.isLt]
  unfold iblk26
  rw [View.read_apply]
  show V c main_v140_1 _ = V c main_v140_1 _
  congr 1
  funext a
  apply Fin.ext
  match a with
  | ⟨0, _⟩ => show win26_2.index t (0 : Fin 2) * 512 + 1 * p.val = t.val * 512 + p.val; rw [e4]; omega
  | ⟨1, _⟩ => show win26_2.index t (1 : Fin 2) * 128 + 1 * j.val = j.val; rw [e5]; omega

/-- The first bias piece's block at every point is the whole one-row piece. -/
theorem bias_agg_block (c : Dev nD) (t : Fin cfg26.N) (u : Fin 1) (j : Fin 64) :
    (iblk26 V c 3 t : FVec Ideal S1x64 .f32) (ix2 u j) = rd2 (V c main_v142 : Arr2 1 64) 0 j.val := by
  obtain ⟨-, -, -, -, -, -, e6, e7, -⟩ := block_index t
  have hu : u.val = 0 := by have := u.isLt; omega
  rw [rd2_of_lt _ Nat.one_pos j.isLt]
  unfold iblk26
  rw [View.read_apply]
  show V c main_v142 _ = V c main_v142 _
  congr 1
  funext a
  apply Fin.ext
  match a with
  | ⟨0, _⟩ => show win26_3.index t (0 : Fin 2) * 1 + 1 * u.val = 0; rw [e6]; omega
  | ⟨1, _⟩ => show win26_3.index t (1 : Fin 2) * 64 + 1 * j.val = j.val; rw [e7]; omega

/-- The second bias piece's block at every point is the whole one-row piece. -/
theorem bias_pass_block (c : Dev nD) (t : Fin cfg26.N) (u : Fin 1) (j : Fin 128) :
    (iblk26 V c 4 t : FVec Ideal S1x128 .f32) (ix2 u j) = rd2 (V c main_v144 : Arr2 1 128) 0 j.val := by
  obtain ⟨-, -, -, -, -, -, -, -, e8, e9, -⟩ := block_index t
  have hu : u.val = 0 := by have := u.isLt; omega
  rw [rd2_of_lt _ Nat.one_pos j.isLt]
  unfold iblk26
  rw [View.read_apply]
  show V c main_v144 _ = V c main_v144 _
  congr 1
  funext a
  apply Fin.ext
  match a with
  | ⟨0, _⟩ => show win26_4.index t (0 : Fin 2) * 1 + 1 * u.val = 0; rw [e8]; omega
  | ⟨1, _⟩ => show win26_4.index t (1 : Fin 2) * 128 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 64) (sp : Arr2 8192 128) (ba : Arr2 1 64) (bp : Arr2 1 128)
    (x0 : FVec Ideal S512x8192 .bf16) (x1 : FVec Ideal S8192x64 .bf16) (x2 : FVec Ideal S512x128 .f32)
    (x3 : FVec Ideal S1x64 .f32) (x4 : FVec Ideal S1x128 .f32) (T : ℕ)
    (h0 : ∀ (p : Fin 512) (r : Fin 8192), x0 (ix2 p r) = rd2 A (T * 512 + p.val) r.val)
    (h1 : ∀ (r : Fin 8192) (j : Fin 64), x1 (ix2 r j) = rd2 sa r.val j.val)
    (h2 : ∀ (p : Fin 512) (j : Fin 128), x2 (ix2 p j) = rd2 sp (T * 512 + p.val) j.val)
    (h3 : ∀ (u : Fin 1) (j : Fin 64), x3 (ix2 u j) = rd2 ba 0 j.val)
    (h4 : ∀ (u : Fin 1) (j : Fin 128), x4 (ix2 u j) = rd2 bp 0 j.val)
    (j : S512x192.Idx) (i : S8192x192.Idx) (hi0 : (i 0).val = T * 512 + (j 0).val) (hi1 : (i 1).val = (j 1).val) :
    k26_pay1 (F := Ideal) x0 x1 x3 x2 x4 j = aggRelu (N := 192) 64 A sa sp ba bp i := by
  obtain ⟨p, q, rfl⟩ : ∃ (p : Fin 512) (q : Fin 192), j = ix2 p q := ⟨j 0, j 1, eq_ix2 j⟩
  have hp : (i 0).val = T * 512 + p.val := hi0
  have hq : (i 1).val = q.val := hi1
  show _ = max (aggPre (N := 192) 64 A sa sp ba bp i) 0
  unfold aggPre
  by_cases h : q.val < 64
  · rw [Cert.KernelIdeal.Pay.k26_pay1_left x0 x1 x3 x2 x4 p ⟨q.val, h⟩ q rfl, if_pos (show (i 1).val < 64 by rw [hq]; exact h), hp, hq]
    refine congrArg (max · 0) (congrArg₂ (· + ·) (Finset.sum_congr rfl fun r _ => ?_) ?_)
    · rw [h0, h1]
    · rw [h3]
  · have hq' : q.val - 64 < 128 := by have := q.isLt; omega
    rw [Cert.KernelIdeal.Pay.k26_pay1_right x0 x1 x3 x2 x4 p ⟨q.val - 64, hq'⟩ q (show q.val = 64 + (q.val - 64) by omega),
      if_neg (show ¬(i 1).val < 64 by rw [hq]; exact h), hp, hq]
    refine congrArg (max · 0) (congrArg₂ (· + ·) ?_ ?_)
    · rw [h2]
    · rw [h4]

/-- What point t writes back is block t of the aggregation step of the five entry arrays. -/
theorem flushed_agg (c : Dev nD) (t : Fin cfg26.N) :
    (dat26 (F := Ideal) V c).flushed 5 t
      = ((cfg26.win 5).blk t).view.read (Elt Ideal)
          (aggRelu (M := 8192) (N := 192) (P := 128) 64 (V c main_v0) (V c main_v140_0) (V c main_v140_1) (V c main_v142) (V c main_v144)) := by
  show (cfg26.win 5).cut (grid26.coords t) ((dat26 V c).after 5 t) = _
  rw [after26_5]
  unfold out26_5
  rw [View.canon_unit_zero zero_offsets]
  simp only [View.ld_unit_zero (S := S512x8192) zero_offsets, View.ld_unit_zero (S := S8192x64) zero_offsets,
    View.ld_unit_zero (S := S512x128) zero_offsets, View.ld_unit_zero (S := S1x64) zero_offsets,
    View.ld_unit_zero (S := S1x128) zero_offsets]
  obtain ⟨-, -, -, -, -, -, -, -, -, -, e10, e11⟩ := block_index t
  funext j
  refine agg_point (V c main_v0) (V c main_v140_0) (V c main_v140_1) (V c main_v142) (V c main_v144)
    (iblk26 V c 0 t) (iblk26 V c 1 t) (iblk26 V c 2 t) (iblk26 V c 3 t) (iblk26 V c 4 t) t.val
    (adjacency_block V c t) (support_agg_block V c t) (support_pass_block V c t) (bias_agg_block V c t) (bias_pass_block V c t)
    j (((cfg26.win 5).blk t).view.emb j) ?_ ?_
  · show win26_5.index t (0 : Fin 2) * 512 + 1 * (j 0).val = t.val * 512 + (j 0).val; rw [e10]; omega
  · show win26_5.index t (1 : Fin 2) * 192 + 1 * (j 1).val = (j 1).val; rw [e11]; omega

/-- An index is in point t's block of the result iff each coordinate is in the block's range on its axis. -/
theorem mem_block (t : Fin cfg26.N) (i : S8192x192.Idx) :
    i ∈ ((cfg26.win 5).blk t).view.set ↔ ∀ a : Fin 2, win26_5.index t a * S512x192.size a ≤ (i a).val ∧ (i a).val < win26_5.index t a * S512x192.size a + S512x192.size a := by
  show i ∈ ((View.whole main_v145).slice (win26_5.rect t)).set ↔ _
  rw [View.set_slice_whole, Rect.mem_set_unit]
  exact Iff.rfl

/-- Row r of the result is in the block of point r / 512. -/
theorem cover (i : S8192x192.Idx) : ∃ t : Fin cfg26.N, (cfg26.win 5).flush t = true ∧ i ∈ ((cfg26.win 5).blk t).view.set := by
  have hi0 : (i 0).val < 8192 := (i 0).isLt
  have hi1 : (i 1).val < 192 := (i 1).isLt
  have hN : cfg26.N = 16 := N_26
  have hlt : (i 0).val / 512 < cfg26.N := by rw [hN]; omega
  obtain ⟨-, -, -, -, -, -, -, -, -, -, e10, e11⟩ := block_index ⟨(i 0).val / 512, hlt⟩
  refine ⟨⟨(i 0).val / 512, hlt⟩, flush26_5 _, ?_⟩
  rw [mem_block]
  intro a
  match a with
  | ⟨0, _⟩ =>
    show win26_5.index ⟨(i 0).val / 512, hlt⟩ (0 : Fin 2) * 512 ≤ (i 0).val ∧ (i 0).val < win26_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win26_5.index ⟨(i 0).val / 512, hlt⟩ (1 : Fin 2) * 192 ≤ (i 1).val ∧ (i 1).val < win26_5.index ⟨(i 0).val / 512, hlt⟩ (1 : Fin 2) * 192 + 192
    rw [e11]; omega

/-- The result after the region: the aggregation step of the five arrays the region is entered with. -/
theorem final (c : Dev nD) :
    (dat26 (F := Ideal) V c).arrAt 5 cfg26.N
      = aggRelu (M := 8192) (N := 192) (P := 128) 64 (V c main_v0) (V c main_v140_0) (V c main_v140_1) (V c main_v142) (V c main_v144) :=
  (dat26 (F := Ideal) V c).arrAt_eq_of_cover 5 _ (fun t _ => flushed_agg V c t) cover

end Cert.KernelIdeal.Reg26

end
-- ==== Proof.KReg28.lean ====
/-
  Region 28: the aggregation. Each of the 16 grid points multiplies 512 rows of the adjacency [8192, 8192] by the whole first
  support piece [8192, 2], adds the first bias piece, and sets beside it its 512 rows of the second support piece
  [8192, 1] plus the second bias piece. Row 512 t + p of an array is row p of its block t, so the result array
  ends holding the aggregation step of the five arrays the region is entered with.
-/
import proofs.«108744_j27797028339962_2_alg».proof.Proof.Gen.KernelIdeal.Frame
import proofs.«108744_j27797028339962_2_alg».proof.Proof.Spec
import proofs.«108744_j27797028339962_2_alg».proof.Proof.KPayAgg
import Idealize.ShloMosaic.Lib.Pipeline.Value

set_option maxRecDepth 16384

noncomputable section

open scoped BigOperators

namespace Cert.KernelIdeal.Reg28

open Cert.KernelIdeal Cert.KernelIdeal.Gen Idealize.ShloMosaic Idealize.ShloMosaic.TcCoe Idealize.SL.Sem Cert.Gcn
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at grid point t: the adjacency, the second support piece and the result are at block
    (t, 0); the first support piece and the two bias pieces at block (0, 0). -/
theorem block_index : ∀ t : Fin cfg28.N, win28_0.index t (0 : Fin 2) = t.val ∧ win28_0.index t (1 : Fin 2) = 0
    ∧ win28_1.index t (0 : Fin 2) = 0 ∧ win28_1.index t (1 : Fin 2) = 0
    ∧ win28_2.index t (0 : Fin 2) = t.val ∧ win28_2.index t (1 : Fin 2) = 0
    ∧ win28_3.index t (0 : Fin 2) = 0 ∧ win28_3.index t (1 : Fin 2) = 0
    ∧ win28_4.index t (0 : Fin 2) = 0 ∧ win28_4.index t (1 : Fin 2) = 0
    ∧ win28_5.index t (0 : Fin 2) = t.val ∧ win28_5.index t (1 : Fin 2) = 0 :=
  (by decide +kernel : ∀ t : Fin grid28.N, _)

/-- Row p of the adjacency block at point t is row 512 t + p of the adjacency. -/
theorem adjacency_block (c : Dev nD) (t : Fin cfg28.N) (p : Fin 512) (r : Fin 8192) :
    (iblk28 V c 0 t : FVec Ideal S512x8192 .bf16) (ix2 p r) = rd2 (V c main_v0 : Arr2 8192 8192) (t.val * 512 + p.val) r.val := by
  obtain ⟨e0, e1, -⟩ := block_index t
  have hN : cfg28.N = 16 := N_28
  have ht : t.val < cfg28.N := t.isLt
  have hp : t.val * 512 + p.val < 8192 := by omega
  rw [rd2_of_lt _ hp r.isLt]
  unfold iblk28
  rw [View.read_apply]
  show V c main_v0 _ = V c main_v0 _
  congr 1
  funext a
  apply Fin.ext
  match a with
  | ⟨0, _⟩ => show win28_0.index t (0 : Fin 2) * 512 + 1 * p.val = t.val * 512 + p.val; rw [e0]; omega
  | ⟨1, _⟩ => show win28_0.index t (1 : Fin 2) * 8192 + 1 * r.val = r.val; rw [e1]; omega

/-- The first support piece's block at every point is the whole piece. -/
theorem support_agg_block (c : Dev nD) (t : Fin cfg28.N) (r : Fin 8192) (j : Fin 2) :
    (iblk28 V c 1 t : FVec Ideal S8192x2 .bf16) (ix2 r j) = rd2 (V c main_v149_0 : Arr2 8192 2) r.val j.val := by
  obtain ⟨-, -, e2, e3, -⟩ := block_index t
  rw [rd2_ix2]
  unfold iblk28
  rw [View.read_apply]
  show V c main_v149_0 _ = V c main_v149_0 _
  congr 1
  funext a
  apply Fin.ext
  match a with
  | ⟨0, _⟩ => show win28_1.index t (0 : Fin 2) * 8192 + 1 * r.val = r.val; rw [e2]; omega
  | ⟨1, _⟩ => show win28_1.index t (1 : Fin 2) * 2 + 1 * j.val = j.val; rw [e3]; omega

/-- Row p of the second support piece's block at point t is row 512 t + p of the piece. -/
theorem support_pass_block (c : Dev nD) (t : Fin cfg28.N) (p : Fin 512) (j : Fin 1) :
    (iblk28 V c 2 t : FVec Ideal S512x1 .f32) (ix2 p j) = rd2 (V c main_v149_1 : Arr2 8192 1) (t.val * 512 + p.val) j.val := by
  obtain ⟨-, -, -, -, e4, e5, -⟩ := block_index t
  have hN : cfg28.N = 16 := N_28
  have ht : t.val < cfg28.N := t.isLt
  have hp : t.val * 512 + p.val < 8192 := by omega
  rw [rd2_of_lt _ hp j.isLt]
  unfold iblk28
  rw [View.read_apply]
  show V c main_v149_1 _ = V c main_v149_1 _
  congr 1
  funext a
  apply Fin.ext
  match a with
  | ⟨0, _⟩ => show win28_2.index t (0 : Fin 2) * 512 + 1 * p.val = t.val * 512 + p.val; rw [e4]; omega
  | ⟨1, _⟩ => show win28_2.index t (1 : Fin 2) * 1 + 1 * j.val = j.val; rw [e5]; omega

/-- The first bias piece's block at every point is the whole one-row piece. -/
theorem bias_agg_block (c : Dev nD) (t : Fin cfg28.N) (u : Fin 1) (j : Fin 2) :
    (iblk28 V c 3 t : FVec Ideal S1x2 .f32) (ix2 u j) = rd2 (V c main_v151 : Arr2 1 2) 0 j.val := by
  obtain ⟨-, -, -, -, -, -, e6, e7, -⟩ := block_index t
  have hu : u.val = 0 := by have := u.isLt; omega
  rw [rd2_of_lt _ Nat.one_pos j.isLt]
  unfold iblk28
  rw [View.read_apply]
  show V c main_v151 _ = V c main_v151 _
  congr 1
  funext a
  apply Fin.ext
  match a with
  | ⟨0, _⟩ => show win28_3.index t (0 : Fin 2) * 1 + 1 * u.val = 0; rw [e6]; omega
  | ⟨1, _⟩ => show win28_3.index t (1 : Fin 2) * 2 + 1 * j.val = j.val; rw [e7]; omega

/-- The second bias piece's block at every point is the whole one-row piece. -/
theorem bias_pass_block (c : Dev nD) (t : Fin cfg28.N) (u : Fin 1) (j : Fin 1) :
    (iblk28 V c 4 t : FVec Ideal S1x1 .f32) (ix2 u j) = rd2 (V c main_v153 : Arr2 1 1) 0 j.val := by
  obtain ⟨-, -, -, -, -, -, -, -, e8, e9, -⟩ := block_index t
  have hu : u.val = 0 := by have := u.isLt; omega
  rw [rd2_of_lt _ Nat.one_pos j.isLt]
  unfold iblk28
  rw [View.read_apply]
  show V c main_v153 _ = V c main_v153 _
  congr 1
  funext a
  apply Fin.ext
  match a with
  | ⟨0, _⟩ => show win28_4.index t (0 : Fin 2) * 1 + 1 * u.val = 0; rw [e8]; omega
  | ⟨1, _⟩ => show win28_4.index t (1 : Fin 2) * 1 + 1 * j.val = j.val; rw [e9]; omega

/-- One entry of what a point computes, against the aggregation step's entry it lands on. The body takes its five
    operands in the order adjacency, first support piece, first bias piece, second support piece, second bias piece. -/
theorem agg_point (A : Arr2 8192 8192) (sa : Arr2 8192 2) (sp : Arr2 8192 1) (ba : Arr2 1 2) (bp : Arr2 1 1)
    (x0 : FVec Ideal S512x8192 .bf16) (x1 : FVec Ideal S8192x2 .bf16) (x2 : FVec Ideal S512x1 .f32)
    (x3 : FVec Ideal S1x2 .f32) (x4 : FVec Ideal S1x1 .f32) (T : ℕ)
    (h0 : ∀ (p : Fin 512) (r : Fin 8192), x0 (ix2 p r) = rd2 A (T * 512 + p.val) r.val)
    (h1 : ∀ (r : Fin 8192) (j : Fin 2), x1 (ix2 r j) = rd2 sa r.val j.val)
    (h2 : ∀ (p : Fin 512) (j : Fin 1), x2 (ix2 p j) = rd2 sp (T * 512 + p.val) j.val)
    (h3 : ∀ (u : Fin 1) (j : Fin 2), x3 (ix2 u j) = rd2 ba 0 j.val)
    (h4 : ∀ (u : Fin 1) (j : Fin 1), x4 (ix2 u j) = rd2 bp 0 j.val)
    (j : S512x3.Idx) (i : S8192x3.Idx) (hi0 : (i 0).val = T * 512 + (j 0).val) (hi1 : (i 1).val = (j 1).val) :
    k28_pay1 (F := Ideal) x0 x1 x3 x2 x4 j = aggPre (N := 3) 2 A sa sp ba bp i := by
  obtain ⟨p, q, rfl⟩ : ∃ (p : Fin 512) (q : Fin 3), j = ix2 p q := ⟨j 0, j 1, eq_ix2 j⟩
  have hp : (i 0).val = T * 512 + p.val := hi0
  have hq : (i 1).val = q.val := hi1
  unfold aggPre
  by_cases h : q.val < 2
  · rw [Cert.KernelIdeal.Pay.k28_pay1_left x0 x1 x3 x2 x4 p ⟨q.val, h⟩ q rfl, if_pos (show (i 1).val < 2 by rw [hq]; exact h), hp, hq]
    refine (congrArg₂ (· + ·) (Finset.sum_congr rfl fun r _ => ?_) ?_)
    · rw [h0, h1]
    · rw [h3]
  · have hq' : q.val - 2 < 1 := by have := q.isLt; omega
    rw [Cert.KernelIdeal.Pay.k28_pay1_right x0 x1 x3 x2 x4 p ⟨q.val - 2, hq'⟩ q (show q.val = 2 + (q.val - 2) by omega),
      if_neg (show ¬(i 1).val < 2 by rw [hq]; exact h), hp, hq]
    refine (congrArg₂ (· + ·) ?_ ?_)
    · rw [h2]
    · rw [h4]

/-- What point t writes back is block t of the aggregation step of the five entry arrays. -/
theorem flushed_agg (c : Dev nD) (t : Fin cfg28.N) :
    (dat28 (F := Ideal) V c).flushed 5 t
      = ((cfg28.win 5).blk t).view.read (Elt Ideal)
          (aggPre (M := 8192) (N := 3) (P := 1) 2 (V c main_v0) (V c main_v149_0) (V c main_v149_1) (V c main_v151) (V c main_v153)) := by
  show (cfg28.win 5).cut (grid28.coords t) ((dat28 V c).after 5 t) = _
  rw [after28_5]
  unfold out28_5
  rw [View.canon_unit_zero zero_offsets]
  simp only [View.ld_unit_zero (S := S512x8192) zero_offsets, View.ld_unit_zero (S := S8192x2) zero_offsets,
    View.ld_unit_zero (S := S512x1) zero_offsets, View.ld_unit_zero (S := S1x2) zero_offsets,
    View.ld_unit_zero (S := S1x1) zero_offsets]
  obtain ⟨-, -, -, -, -, -, -, -, -, -, e10, e11⟩ := block_index t
  funext j
  refine agg_point (V c main_v0) (V c main_v149_0) (V c main_v149_1) (V c main_v151) (V c main_v153)
    (iblk28 V c 0 t) (iblk28 V c 1 t) (iblk28 V c 2 t) (iblk28 V c 3 t) (iblk28 V c 4 t) t.val
    (adjacency_block V c t) (support_agg_block V c t) (support_pass_block V c t) (bias_agg_block V c t) (bias_pass_block V c t)
    j (((cfg28.win 5).blk t).view.emb j) ?_ ?_
  · show win28_5.index t (0 : Fin 2) * 512 + 1 * (j 0).val = t.val * 512 + (j 0).val; rw [e10]; omega
  · show win28_5.index t (1 : Fin 2) * 3 + 1 * (j 1).val = (j 1).val; rw [e11]; omega

/-- An index is in point t's block of the result iff each coordinate is in the block's range on its axis. -/
theorem mem_block (t : Fin cfg28.N) (i : S8192x3.Idx) :
    i ∈ ((cfg28.win 5).blk t).view.set ↔ ∀ a : Fin 2, win28_5.index t a * S512x3.size a ≤ (i a).val ∧ (i a).val < win28_5.index t a * S512x3.size a + S512x3.size a := by
  show i ∈ ((View.whole main_v154).slice (win28_5.rect t)).set ↔ _
  rw [View.set_slice_whole, Rect.mem_set_unit]
  exact Iff.rfl

/-- Row r of the result is in the block of point r / 512. -/
theorem cover (i : S8192x3.Idx) : ∃ t : Fin cfg28.N, (cfg28.win 5).flush t = true ∧ i ∈ ((cfg28.win 5).blk t).view.set := by
  have hi0 : (i 0).val < 8192 := (i 0).isLt
  have hi1 : (i 1).val < 3 := (i 1).isLt
  have hN : cfg28.N = 16 := N_28
  have hlt : (i 0).val / 512 < cfg28.N := by rw [hN]; omega
  obtain ⟨-, -, -, -, -, -, -, -, -, -, e10, e11⟩ := block_index ⟨(i 0).val / 512, hlt⟩
  refine ⟨⟨(i 0).val / 512, hlt⟩, flush28_5 _, ?_⟩
  rw [mem_block]
  intro a
  match a with
  | ⟨0, _⟩ =>
    show win28_5.index ⟨(i 0).val / 512, hlt⟩ (0 : Fin 2) * 512 ≤ (i 0).val ∧ (i 0).val < win28_5.index ⟨(i 0).val / 512, hlt⟩ (0 : Fin 2) * 512 + 512
    rw [e10]; show (i 0).val / 512 * 512 ≤ (i 0).val ∧ (i 0).val < (i 0).val / 512 * 512 + 512; omega
  | ⟨1, _⟩ =>
    show win28_5.index ⟨(i 0).val / 512, hlt⟩ (1 : Fin 2) * 3 ≤ (i 1).val ∧ (i 1).val < win28_5.index ⟨(i 0).val / 512, hlt⟩ (1 : Fin 2) * 3 + 3
    rw [e11]; omega

/-- The result after the region: the aggregation step of the five arrays the region is entered with. -/
theorem final (c : Dev nD) :
    (dat28 (F := Ideal) V c).arrAt 5 cfg28.N
      = aggPre (M := 8192) (N := 3) (P := 1) 2 (V c main_v0) (V c main_v149_0) (V c main_v149_1) (V c main_v151) (V c main_v153) :=
  (dat28 (F := Ideal) V c).arrAt_eq_of_cover 5 _ (fun t _ => flushed_agg V c t) cover

end Cert.KernelIdeal.Reg28

end
-- ==== Proof.KRegions.lean ====
/-
  What each of the 29 kernel regions leaves in its output arrays: the 43 statements, one per output array, gathered from
  the regions' own modules. Region 0 copies the adjacency; the odd regions are projections (two column ranges of a
  support); the even regions are aggregation steps.
-/
import proofs.«108744_j27797028339962_2_alg».proof.Proof.KFinals
import proofs.«108744_j27797028339962_2_alg».proof.Proof.KReg0
import proofs.«108744_j27797028339962_2_alg».proof.Proof.KReg1
import proofs.«108744_j27797028339962_2_alg».proof.Proof.KReg3
import proofs.«108744_j27797028339962_2_alg».proof.Proof.KReg5
import proofs.«108744_j27797028339962_2_alg».proof.Proof.KReg7
import proofs.«108744_j27797028339962_2_alg».proof.Proof.KReg9
import proofs.«108744_j27797028339962_2_alg».proof.Proof.KReg11
import proofs.«108744_j27797028339962_2_alg».proof.Proof.KReg13
import proofs.«108744_j27797028339962_2_alg».proof.Proof.KReg15
import proofs.«108744_j27797028339962_2_alg».proof.Proof.KReg17
import proofs.«108744_j27797028339962_2_alg».proof.Proof.KReg19
import proofs.«108744_j27797028339962_2_alg».proof.Proof.KReg21
import proofs.«108744_j27797028339962_2_alg».proof.Proof.KReg23
import proofs.«108744_j27797028339962_2_alg».proof.Proof.KReg25
import proofs.«108744_j27797028339962_2_alg».proof.Proof.KReg27
import proofs.«108744_j27797028339962_2_alg».proof.Proof.KReg2
import proofs.«108744_j27797028339962_2_alg».proof.Proof.KReg4
import proofs.«108744_j27797028339962_2_alg».proof.Proof.KReg6
import proofs.«108744_j27797028339962_2_alg».proof.Proof.KReg8
import proofs.«108744_j27797028339962_2_alg».proof.Proof.KReg10
import proofs.«108744_j27797028339962_2_alg».proof.Proof.KReg12
import proofs.«108744_j27797028339962_2_alg».proof.Proof.KReg14
import proofs.«108744_j27797028339962_2_alg».proof.Proof.KReg16
import proofs.«108744_j27797028339962_2_alg».proof.Proof.KReg18
import proofs.«108744_j27797028339962_2_alg».proof.Proof.KReg20
import proofs.«108744_j27797028339962_2_alg».proof.Proof.KReg22
import proofs.«108744_j27797028339962_2_alg».proof.Proof.KReg24
import proofs.«108744_j27797028339962_2_alg».proof.Proof.KReg26
import proofs.«108744_j27797028339962_2_alg».proof.Proof.KReg28

noncomputable section

namespace Cert.KernelIdeal.Reg

theorem finals : Finals where
  cast0 := fun V c => Cert.KernelIdeal.Reg0.final V c
  split1a := fun V c => Cert.KernelIdeal.Reg1.final_agg V c
  split1p := fun V c => Cert.KernelIdeal.Reg1.final_pass V c
  split3a := fun V c => Cert.KernelIdeal.Reg3.final_agg V c
  split3p := fun V c => Cert.KernelIdeal.Reg3.final_pass V c
  split5a := fun V c => Cert.KernelIdeal.Reg5.final_agg V c
  split5p := fun V c => Cert.KernelIdeal.Reg5.final_pass V c
  split7a := fun V c => Cert.KernelIdeal.Reg7.final_agg V c
  split7p := fun V c => Cert.KernelIdeal.Reg7.final_pass V c
  split9a := fun V c => Cert.KernelIdeal.Reg9.final_agg V c
  split9p := fun V c => Cert.KernelIdeal.Reg9.final_pass V c
  split11a := fun V c => Cert.KernelIdeal.Reg11.final_agg V c
  split11p := fun V c => Cert.KernelIdeal.Reg11.final_pass V c
  split13a := fun V c => Cert.KernelIdeal.Reg13.final_agg V c
  split13p := fun V c => Cert.KernelIdeal.Reg13.final_pass V c
  split15a := fun V c => Cert.KernelIdeal.Reg15.final_agg V c
  split15p := fun V c => Cert.KernelIdeal.Reg15.final_pass V c
  split17a := fun V c => Cert.KernelIdeal.Reg17.final_agg V c
  split17p := fun V c => Cert.KernelIdeal.Reg17.final_pass V c
  split19a := fun V c => Cert.KernelIdeal.Reg19.final_agg V c
  split19p := fun V c => Cert.KernelIdeal.Reg19.final_pass V c
  split21a := fun V c => Cert.KernelIdeal.Reg21.final_agg V c
  split21p := fun V c => Cert.KernelIdeal.Reg21.final_pass V c
  split23a := fun V c => Cert.KernelIdeal.Reg23.final_agg V c
  split23p := fun V c => Cert.KernelIdeal.Reg23.final_pass V c
  split25a := fun V c => Cert.KernelIdeal.Reg25.final_agg V c
  split25p := fun V c => Cert.KernelIdeal.Reg25.final_pass V c
  split27a := fun V c => Cert.KernelIdeal.Reg27.final_agg V c
  split27p := fun V c => Cert.KernelIdeal.Reg27.final_pass V c
  agg2 := fun V c => Cert.KernelIdeal.Reg2.final V c
  agg4 := fun V c => Cert.KernelIdeal.Reg4.final V c
  agg6 := fun V c => Cert.KernelIdeal.Reg6.final V c
  agg8 := fun V c => Cert.KernelIdeal.Reg8.final V c
  agg10 := fun V c => Cert.KernelIdeal.Reg10.final V c
  agg12 := fun V c => Cert.KernelIdeal.Reg12.final V c
  agg14 := fun V c => Cert.KernelIdeal.Reg14.final V c
  agg16 := fun V c => Cert.KernelIdeal.Reg16.final V c
  agg18 := fun V c => Cert.KernelIdeal.Reg18.final V c
  agg20 := fun V c => Cert.KernelIdeal.Reg20.final V c
  agg22 := fun V c => Cert.KernelIdeal.Reg22.final V c
  agg24 := fun V c => Cert.KernelIdeal.Reg24.final V c
  agg26 := fun V c => Cert.KernelIdeal.Reg26.final V c
  agg28 := fun V c => Cert.KernelIdeal.Reg28.final V c

end Cert.KernelIdeal.Reg

end
-- ==== Proof.KChainDefs.lean ====
/-
  The network's stage values on the launch contents of the eight argument arrays, each under a name of its own: the
  thirteen layers cut at zero (x1 … x13), the seven running averages (f1 … f7), and the last layer without the cut
  (out). The chain of definitions is the chain of `net`, so the pair (out, f7) is `net` of the eight arrays.
-/
import proofs.«108744_j27797028339962_2_alg».proof.KernelIdeal
import proofs.«108744_j27797028339962_2_alg».proof.Proof.Spec

noncomputable section

namespace Cert.KernelIdeal.Chain

open Cert.KernelIdeal Cert.Gcn Idealize.ShloMosaic Idealize.ShloMosaic.TcCoe Idealize.SL.Sem

variable (m : (ℓ : Loc nD τ sig) → Buf (Elt Ideal) ℓ) (c : Dev nD)

/-- Argument 0 at launch: the node features. -/
def a0 : Arr2 8192 256 := m ((c : Thread nD τ).loc main_arg0)
/-- Argument 1 at launch: the adjacency. -/
def a1 : Arr2 8192 8192 := m ((c : Thread nD τ).loc main_arg1)
/-- Argument 2 at launch: the first layer's weights. -/
def a2 : Arr2 256 192 := m ((c : Thread nD τ).loc main_arg2)
/-- Argument 3 at launch: the first layer's bias. -/
def a3 : Arr1 192 := m ((c : Thread nD τ).loc main_arg3)
/-- Argument 4 at launch: the twelve middle layers' weights, stacked. -/
def a4 : Arr3 12 192 192 := m ((c : Thread nD τ).loc main_arg4)
/-- Argument 5 at launch: the twelve middle layers' biases, stacked. -/
def a5 : Arr2 12 192 := m ((c : Thread nD τ).loc main_arg5)
/-- Argument 6 at launch: the last layer's weights. -/
def a6 : Arr2 192 3 := m ((c : Thread nD τ).loc main_arg6)
/-- Argument 7 at launch: the last layer's bias. -/
def a7 : Arr1 3 := m ((c : Thread nD τ).loc main_arg7)

def x1 : Arr2 8192 192 := layer 64 (a0 m c) (a1 m c) (a2 m c) (a3 m c)
def x2 : Arr2 8192 192 := layer 64 (x1 m c) (a1 m c) (slab (a4 m c) 0) (row (a5 m c) 0)
def f1 : Arr2 8192 192 := resid (cols 192 (a0 m c)) (x2 m c)
def x3 : Arr2 8192 192 := layer 64 (f1 m c) (a1 m c) (slab (a4 m c) 1) (row (a5 m c) 1)
def x4 : Arr2 8192 192 := layer 64 (x3 m c) (a1 m c) (slab (a4 m c) 2) (row (a5 m c) 2)
def f2 : Arr2 8192 192 := resid (f1 m c) (x4 m c)
def x5 : Arr2 8192 192 := layer 64 (f2 m c) (a1 m c) (slab (a4 m c) 3) (row (a5 m c) 3)
def x6 : Arr2 8192 192 := layer 64 (x5 m c) (a1 m c) (slab (a4 m c) 4) (row (a5 m c) 4)
def f3 : Arr2 8192 192 := resid (f2 m c) (x6 m c)
def x7 : Arr2 8192 192 := layer 64 (f3 m c) (a1 m c) (slab (a4 m c) 5) (row (a5 m c) 5)
def x8 : Arr2 8192 192 := layer 64 (x7 m c) (a1 m c) (slab (a4 m c) 6) (row (a5 m c) 6)
def f4 : Arr2 8192 192 := resid (f3 m c) (x8 m c)
def x9 : Arr2 8192 192 := layer 64 (f4 m c) (a1 m c) (slab (a4 m c) 7) (row (a5 m c) 7)
def x10 : Arr2 8192 192 := layer 64 (x9 m c) (a1 m c) (slab (a4 m c) 8) (row (a5 m c) 8)
def f5 : Arr2 8192 192 := resid (f4 m c) (x10 m c)
def x11 : Arr2 8192 192 := layer 64 (f5 m c) (a1 m c) (slab (a4 m c) 9) (row (a5 m c) 9)
def x12 : Arr2 8192 192 := layer 64 (x11 m c) (a1 m c) (slab (a4 m c) 10) (row (a5 m c) 10)
def f6 : Arr2 8192 192 := resid (f5 m c) (x12 m c)
def x13 : Arr2 8192 192 := layer 64 (f6 m c) (a1 m c) (slab (a4 m c) 11) (row (a5 m c) 11)
def f7 : Arr2 8192 192 := resid (f6 m c) (x13 m c)
/-- The last layer, without the cut at zero. -/
def out : Arr2 8192 3 := layerPre 2 (f7 m c) (a1 m c) (a6 m c) (a7 m c)

/-- The named chain is the network. -/
theorem net_eq : net (a0 m c) (a1 m c) (a2 m c) (a3 m c) (a4 m c) (a5 m c) (a6 m c) (a7 m c) = (out m c, f7 m c) := rfl

end Cert.KernelIdeal.Chain

end
-- ==== Proof.HostForms.lean ====
/-
  The host's spellings of the small array operations around the layers, read as the specification's functions:
  a slab of the stacked weights (a one-slab slice, then the leading unit axis dropped), a row of the stacked biases,
  a piece of a bias vector laid out as a one-row matrix, the averaging step (a + b) · ½ with ½ a broadcast constant,
  and the leading columns of a matrix.
-/
import Idealize.ShloMosaic.Lib.ValueIdx
import Idealize.ShloMosaic.Lib.ValueLayout
import Idealize.ShloMosaic.Lib.Pipeline.Value
import Idealize.ShloMosaic.PureOps.Ideal.Laws
import proofs.«108744_j27797028339962_2_alg».proof.Proof.Spec

noncomputable section

namespace Cert.Gcn.Forms

open Idealize.ShloMosaic Idealize.ShloMosaic.ValueIdx Cert.Gcn

/-- Slab i of a stack of B × C matrices: the slice [i, i+1) along the leading axis with that unit axis dropped. -/
theorem slab_host {A B C : ℕ} (a : Arr3 A B C) (i : ℕ) (hi : i < A)
    (hs : (⟨3, ![A, B, C]⟩ : Shape).Slices ![i, 0, 0] ⟨3, ![1, B, C]⟩)
    (hc : (⟨3, ![1, B, C]⟩ : Shape).ShapeCasts ⟨2, ![B, C]⟩) :
    shapeCast ⟨2, ![B, C]⟩ (extractStridedSlice ⟨3, ![1, B, C]⟩ ![i, 0, 0] a hs) hc = slab a i := by
  funext j
  refine (shapeCast_dropUnit_apply ![B, C] _ hc j).trans ?_
  refine (extractStridedSlice_apply ![i, 0, 0] a hs _ (ix3 ⟨i, hi⟩ (j 0) (j 1)) fun ax => ?_).trans ?_
  · match ax with
    | ⟨0, _⟩ => rfl
    | ⟨1, _⟩ => exact (Nat.zero_add _).symm
    | ⟨2, _⟩ => exact (Nat.zero_add _).symm
  · exact (rd3_ix3 a ⟨i, hi⟩ (j 0) (j 1)).symm

/-- Row i of a stack of vectors: the slice [i, i+1) along the leading axis with that unit axis dropped. -/
theorem row_host {A B : ℕ} (a : Arr2 A B) (i : ℕ) (hi : i < A)
    (hs : (⟨2, ![A, B]⟩ : Shape).Slices ![i, 0] ⟨2, ![1, B]⟩)
    (hc : (⟨2, ![1, B]⟩ : Shape).ShapeCasts ⟨1, ![B]⟩) :
    shapeCast ⟨1, ![B]⟩ (extractStridedSlice ⟨2, ![1, B]⟩ ![i, 0] a hs) hc = row a i := by
  funext j
  refine (shapeCast_dropUnit_apply ![B] _ hc j).trans ?_
  refine (extractStridedSlice_apply ![i, 0] a hs _ (ix2 ⟨i, hi⟩ (j 0)) fun ax => ?_).trans ?_
  · match ax with
    | ⟨0, _⟩ => rfl
    | ⟨1, _⟩ => exact (Nat.zero_add _).symm
  · exact (rd2_ix2 a ⟨i, hi⟩ (j 0)).symm

/-- The piece [o, o+S) of a bias vector, laid out as a one-row matrix, holds at (0, j) the vector's entry o + j. -/
theorem biasPiece_host {N S : ℕ} (b : Arr1 N) (o : ℕ) (hN : o + S ≤ N)
    (hs : (⟨1, ![N]⟩ : Shape).Slices ![o] ⟨1, ![S]⟩)
    (hc : (⟨1, ![S]⟩ : Shape).ShapeCasts ⟨2, ![1, S]⟩) (j : ℕ) (hj : j < S) :
    rd2 (shapeCast ⟨2, ![1, S]⟩ (extractStridedSlice ⟨1, ![S]⟩ ![o] b hs) hc) 0 j = rd1 b (o + j) := by
  rw [rd2_of_lt _ Nat.one_pos hj, rd1_of_lt b (show o + j < N by omega)]
  refine (shapeCast_addUnit_apply ![S] _ hc _).trans ?_
  refine extractStridedSlice_apply ![o] b hs _ (ix1 ⟨o + j, by omega⟩) fun ax => ?_
  match ax with
  | ⟨0, _⟩ => rfl

/-- The averaging step as the host spells it: the sum times the broadcast of the constant ½. -/
theorem resid_host {A B : ℕ} (a b : Arr2 A B) (dims : Fin (⟨0, ![]⟩ : Shape).rank → Fin (⟨2, ![A, B]⟩ : Shape).rank)
    (hb : (⟨0, ![]⟩ : Shape).BroadcastsInDim ⟨2, ![A, B]⟩ dims) :
    mulf (F := Ideal) (φ := .f32) (addf (F := Ideal) (φ := .f32) a b)
        (broadcastInDim ⟨2, ![A, B]⟩ dims hb (constant (F := Ideal) ⟨0, ![]⟩ .f32 0x3F000000#32)) = resid a b := by
  funext i
  rfl

/-- The leading B' columns of a matrix, as the host slices them. -/
theorem cols_host {A B : ℕ} (B' : ℕ) (hB : B' ≤ B) (a : Arr2 A B)
    (hs : (⟨2, ![A, B]⟩ : Shape).Slices ![0, 0] ⟨2, ![A, B']⟩) :
    extractStridedSlice ⟨2, ![A, B']⟩ ![0, 0] a hs = cols B' a := by
  funext j
  have h0 : (j 0).val < A := (j 0).isLt
  have h1 : (j 1).val < B' := (j 1).isLt
  refine (extractStridedSlice_apply ![0, 0] a hs j (ix2 ⟨(j 0).val, h0⟩ ⟨(j 1).val, by omega⟩) fun ax => ?_).trans ?_
  · match ax with
    | ⟨0, _⟩ => exact (Nat.zero_add _).symm
    | ⟨1, _⟩ => exact (Nat.zero_add _).symm
  · exact (rd2_of_lt a h0 (by omega)).symm

end Cert.Gcn.Forms

end
-- ==== Proof.KChainSteps.lean ====
/-
  The steps of the chain that do not depend on the program: a piece of a bias vector as a one-row matrix, the
  aggregation step recognised as a layer once its five inputs are known, and the averaging step as the host spells it.
-/
import proofs.«108744_j27797028339962_2_alg».proof.Proof.HostForms

noncomputable section

namespace Cert.Gcn

open Idealize.ShloMosaic Idealize.ShloMosaic.ValueIdx

/-- The piece [o, o+S) of a vector, as a one-row matrix. -/
def piece {N : ℕ} (S o : ℕ) (b : Arr1 N) : Arr2 1 S := fun i => rd1 b (o + (i 1).val)

theorem piece_rd {N : ℕ} (S o : ℕ) (b : Arr1 N) (j : ℕ) (hj : j < S) : rd2 (piece S o b) 0 j = rd1 b (o + j) := by
  rw [rd2_of_lt _ Nat.one_pos hj]; rfl

namespace Forms

/-- The host's spelling of a piece: the slice [o, o+S), then a leading unit axis. -/
theorem piece_host {N S : ℕ} (b : Arr1 N) (o : ℕ) (hN : o + S ≤ N)
    (hs : (⟨1, ![N]⟩ : Shape).Slices ![o] ⟨1, ![S]⟩)
    (hc : (⟨1, ![S]⟩ : Shape).ShapeCasts ⟨2, ![1, S]⟩) :
    shapeCast ⟨2, ![1, S]⟩ (extractStridedSlice ⟨1, ![S]⟩ ![o] b hs) hc = piece S o b := by
  funext i
  have hi0 : (i 0).val < 1 := (i 0).isLt
  have hi1 : (i 1).val < S := (i 1).isLt
  have h := biasPiece_host b o hN hs hc (i 1).val hi1
  rw [rd2_of_lt _ Nat.one_pos hi1] at h
  refine (congrArg _ ?_).trans h
  funext d
  match d with
  | ⟨0, _⟩ => exact Fin.ext (show (i 0).val = 0 by omega)
  | ⟨1, _⟩ => rfl

/-- The aggregation step on the two pieces of x · w, with the two pieces of the bias, is the layer: the five inputs
    given by equations. -/
theorem agg_step {M K N P : ℕ} (S : ℕ) (hN : S + P = N) (x : Arr2 M K) (A : Arr2 M M) (w : Arr2 K N) (b : Arr1 N)
    {A' : Arr2 M M} {sa : Arr2 M S} {sp : Arr2 M P} {ba : Arr2 1 S} {bp : Arr2 1 P}
    (hA : A' = A) (hsa : sa = supAgg S x w) (hsp : sp = supPass S P x w) (hba : ba = piece S 0 b) (hbp : bp = piece P S b) :
    aggRelu (N := N) S A' sa sp ba bp = layer S x A w b := by
  subst hA hsa hsp hba hbp
  exact aggRelu_eq_layer S hN x _ w b _ _ (fun j hj => (piece_rd S 0 b j hj).trans (by rw [Nat.zero_add])) (fun j hj => piece_rd P S b j hj)

/-- The same for the last layer, which is not cut at zero. -/
theorem aggPre_step {M K N P : ℕ} (S : ℕ) (hN : S + P = N) (x : Arr2 M K) (A : Arr2 M M) (w : Arr2 K N) (b : Arr1 N)
    {A' : Arr2 M M} {sa : Arr2 M S} {sp : Arr2 M P} {ba : Arr2 1 S} {bp : Arr2 1 P}
    (hA : A' = A) (hsa : sa = supAgg S x w) (hsp : sp = supPass S P x w) (hba : ba = piece S 0 b) (hbp : bp = piece P S b) :
    aggPre (N := N) S A' sa sp ba bp = layerPre S x A w b := by
  subst hA hsa hsp hba hbp
  exact aggPre_eq_layerPre S hN x _ w b _ _ (fun j hj => (piece_rd S 0 b j hj).trans (by rw [Nat.zero_add])) (fun j hj => piece_rd P S b j hj)

/-- The averaging step as the host spells it, its two operands given by equations. -/
theorem resid_step {A B : ℕ} (a b : Arr2 A B) {a' b' : Arr2 A B} (ha : a' = a) (hb' : b' = b)
    (dims : Fin (⟨0, ![]⟩ : Shape).rank → Fin (⟨2, ![A, B]⟩ : Shape).rank)
    (hb : (⟨0, ![]⟩ : Shape).BroadcastsInDim ⟨2, ![A, B]⟩ dims) :
    mulf (F := Ideal) (φ := .f32) (addf (F := Ideal) (φ := .f32) a' b')
        (broadcastInDim ⟨2, ![A, B]⟩ dims hb (constant (F := Ideal) ⟨0, ![]⟩ .f32 0x3F000000#32)) = resid a b := by
  subst ha hb'
  exact resid_host _ _ dims hb

end Forms

end Cert.Gcn

end
-- ==== Proof.KChainWrites.lean ====
/-
  What each stretch of host operations writes, as a list of references: a reference outside the list keeps its contents
  across the stretch.
-/
import proofs.«108744_j27797028339962_2_alg».proof.Proof.Gen.KernelIdeal.Launch

noncomputable section

namespace Cert.KernelIdeal.Chain

open Cert.KernelIdeal Cert.KernelIdeal.Gen Idealize.ShloMosaic Idealize.ShloMosaic.TcCoe Idealize.SL.Sem

variable {F : FTy → Type} [FloatOps F]

/-- The references `hostOps2` writes. -/
abbrev hostOps2_W : List (Ref sig .tc) := [main_v2, main_v3, main_v4, main_v5]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps3` writes. -/
abbrev hostOps3_W : List (Ref sig .tc) := [main_v7, main_v8, main_v9, main_v10]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps4` writes. -/
abbrev hostOps4_W : List (Ref sig .tc) := [main_v12, main_v13, main_v14, main_v15]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps5` writes. -/
abbrev hostOps5_W : List (Ref sig .tc) := [main_v17, main_v18, main_cst, main_v19, main_v20, main_v21, main_v22, main_v23, main_v24]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps6` writes. -/
abbrev hostOps6_W : List (Ref sig .tc) := [main_v26, main_v27, main_v28, main_v29]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps7` writes. -/
abbrev hostOps7_W : List (Ref sig .tc) := [main_v31, main_v32, main_v33, main_v34]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps8` writes. -/
abbrev hostOps8_W : List (Ref sig .tc) := [main_v36, main_v37, main_v38, main_v39]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps9` writes. -/
abbrev hostOps9_W : List (Ref sig .tc) := [main_v41, main_cst_0, main_v42, main_v43, main_v44, main_v45, main_v46, main_v47]
theorem hostOps9_writes : (hostOps9 : List (HloOp τ sig (Elt F))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps10` writes. -/
abbrev hostOps10_W : List (Ref sig .tc) := [main_v49, main_v50, main_v51, main_v52]
theorem hostOps10_writes : (hostOps10 : List (HloOp τ sig (Elt F))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps11` writes. -/
abbrev hostOps11_W : List (Ref sig .tc) := [main_v54, main_v55, main_v56, main_v57]
theorem hostOps11_writes : (hostOps11 : List (HloOp τ sig (Elt F))).Forall fun op => op.writes ⊆ (hostOps11_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps12` writes. -/
abbrev hostOps12_W : List (Ref sig .tc) := [main_v59, main_v60, main_v61, main_v62]
theorem hostOps12_writes : (hostOps12 : List (HloOp τ sig (Elt F))).Forall fun op => op.writes ⊆ (hostOps12_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps13` writes. -/
abbrev hostOps13_W : List (Ref sig .tc) := [main_v64, main_cst_1, main_v65, main_v66, main_v67, main_v68, main_v69, main_v70]
theorem hostOps13_writes : (hostOps13 : List (HloOp τ sig (Elt F))).Forall fun op => op.writes ⊆ (hostOps13_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps14` writes. -/
abbrev hostOps14_W : List (Ref sig .tc) := [main_v72, main_v73, main_v74, main_v75]
theorem hostOps14_writes : (hostOps14 : List (HloOp τ sig (Elt F))).Forall fun op => op.writes ⊆ (hostOps14_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps15` writes. -/
abbrev hostOps15_W : List (Ref sig .tc) := [main_v77, main_v78, main_v79, main_v80]
theorem hostOps15_writes : (hostOps15 : List (HloOp τ sig (Elt F))).Forall fun op => op.writes ⊆ (hostOps15_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps16` writes. -/
abbrev hostOps16_W : List (Ref sig .tc) := [main_v82, main_v83, main_v84, main_v85]
theorem hostOps16_writes : (hostOps16 : List (HloOp τ sig (Elt F))).Forall fun op => op.writes ⊆ (hostOps16_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps17` writes. -/
abbrev hostOps17_W : List (Ref sig .tc) := [main_v87, main_cst_2, main_v88, main_v89, main_v90, main_v91, main_v92, main_v93]
theorem hostOps17_writes : (hostOps17 : List (HloOp τ sig (Elt F))).Forall fun op => op.writes ⊆ (hostOps17_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps18` writes. -/
abbrev hostOps18_W : List (Ref sig .tc) := [main_v95, main_v96, main_v97, main_v98]
theorem hostOps18_writes : (hostOps18 : List (HloOp τ sig (Elt F))).Forall fun op => op.writes ⊆ (hostOps18_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps19` writes. -/
abbrev hostOps19_W : List (Ref sig .tc) := [main_v100, main_v101, main_v102, main_v103]
theorem hostOps19_writes : (hostOps19 : List (HloOp τ sig (Elt F))).Forall fun op => op.writes ⊆ (hostOps19_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps20` writes. -/
abbrev hostOps20_W : List (Ref sig .tc) := [main_v105, main_v106, main_v107, main_v108]
theorem hostOps20_writes : (hostOps20 : List (HloOp τ sig (Elt F))).Forall fun op => op.writes ⊆ (hostOps20_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps21` writes. -/
abbrev hostOps21_W : List (Ref sig .tc) := [main_v110, main_cst_3, main_v111, main_v112, main_v113, main_v114, main_v115, main_v116]
theorem hostOps21_writes : (hostOps21 : List (HloOp τ sig (Elt F))).Forall fun op => op.writes ⊆ (hostOps21_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps22` writes. -/
abbrev hostOps22_W : List (Ref sig .tc) := [main_v118, main_v119, main_v120, main_v121]
theorem hostOps22_writes : (hostOps22 : List (HloOp τ sig (Elt F))).Forall fun op => op.writes ⊆ (hostOps22_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps23` writes. -/
abbrev hostOps23_W : List (Ref sig .tc) := [main_v123, main_v124, main_v125, main_v126]
theorem hostOps23_writes : (hostOps23 : List (HloOp τ sig (Elt F))).Forall fun op => op.writes ⊆ (hostOps23_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps24` writes. -/
abbrev hostOps24_W : List (Ref sig .tc) := [main_v128, main_v129, main_v130, main_v131]
theorem hostOps24_writes : (hostOps24 : List (HloOp τ sig (Elt F))).Forall fun op => op.writes ⊆ (hostOps24_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps25` writes. -/
abbrev hostOps25_W : List (Ref sig .tc) := [main_v133, main_cst_4, main_v134, main_v135, main_v136, main_v137, main_v138, main_v139]
theorem hostOps25_writes : (hostOps25 : List (HloOp τ sig (Elt F))).Forall fun op => op.writes ⊆ (hostOps25_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps26` writes. -/
abbrev hostOps26_W : List (Ref sig .tc) := [main_v141, main_v142, main_v143, main_v144]
theorem hostOps26_writes : (hostOps26 : List (HloOp τ sig (Elt F))).Forall fun op => op.writes ⊆ (hostOps26_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps27` writes. -/
abbrev hostOps27_W : List (Ref sig .tc) := [main_v146, main_cst_5, main_v147, main_v148]
theorem hostOps27_writes : (hostOps27 : List (HloOp τ sig (Elt F))).Forall fun op => op.writes ⊆ (hostOps27_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))
/-- The references `hostOps28` writes. -/
abbrev hostOps28_W : List (Ref sig .tc) := [main_v150, main_v151, main_v152, main_v153]
theorem hostOps28_writes : (hostOps28 : List (HloOp τ sig (Elt F))).Forall fun op => op.writes ⊆ (hostOps28_W.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))

end Cert.KernelIdeal.Chain

end
-- ==== Proof.KChainA.lean ====
/-
  What the live buffers hold at the first boundaries of the kernel program's run: from the launch to the exit of region 4
  (the first two layers). Each buffer is written once; from then on it is carried, boundary by boundary, to where it is
  read. A region's output is the specification's function of what the region read (the assumed structure of the regions'
  results); a host operation's result is read off the operations.
-/
import proofs.«108744_j27797028339962_2_alg».proof.Proof.KFinals
import proofs.«108744_j27797028339962_2_alg».proof.Proof.KChainDefs
import proofs.«108744_j27797028339962_2_alg».proof.Proof.KChainSteps
import proofs.«108744_j27797028339962_2_alg».proof.Proof.KChainWrites

noncomputable section

namespace Cert.KernelIdeal.Chain

open Cert.KernelIdeal Cert.KernelIdeal.Gen Cert.Gcn Cert.Gcn.Forms Idealize.ShloMosaic Idealize.ShloMosaic.TcCoe Idealize.SL.Sem

variable (m : (ℓ : Loc nD τ sig) → Buf (Elt Ideal) ℓ) (ρ : Dev nD → PrngReg) (c : Dev nD)

/-! ## At launch -/

theorem w0_arg0 (hF : Reg.Finals) : W0 (F := Ideal) m ρ c (Proc.devRef .tc main_arg0) = a0 m c := rfl
theorem w0_arg1 (hF : Reg.Finals) : W0 (F := Ideal) m ρ c (Proc.devRef .tc main_arg1) = a1 m c := rfl
theorem w0_arg2 (hF : Reg.Finals) : W0 (F := Ideal) m ρ c (Proc.devRef .tc main_arg2) = a2 m c := rfl
theorem w0_arg3 (hF : Reg.Finals) : W0 (F := Ideal) m ρ c (Proc.devRef .tc main_arg3) = a3 m c := rfl
theorem w0_arg4 (hF : Reg.Finals) : W0 (F := Ideal) m ρ c (Proc.devRef .tc main_arg4) = a4 m c := rfl
theorem w0_arg5 (hF : Reg.Finals) : W0 (F := Ideal) m ρ c (Proc.devRef .tc main_arg5) = a5 m c := rfl
theorem w0_arg6 (hF : Reg.Finals) : W0 (F := Ideal) m ρ c (Proc.devRef .tc main_arg6) = a6 m c := rfl
theorem w0_arg7 (hF : Reg.Finals) : W0 (F := Ideal) m ρ c (Proc.devRef .tc main_arg7) = a7 m c := rfl

/-! ## After region 0 -/

theorem w1_arg0 (hF : Reg.Finals) : W1 (F := Ideal) m ρ c (Proc.devRef .tc main_arg0) = a0 m c :=
  (W1_of_ne m ρ c main_arg0 (by decide)).trans (w0_arg0 m ρ c hF)
theorem w1_arg2 (hF : Reg.Finals) : W1 (F := Ideal) m ρ c (Proc.devRef .tc main_arg2) = a2 m c :=
  (W1_of_ne m ρ c main_arg2 (by decide)).trans (w0_arg2 m ρ c hF)
theorem w1_arg3 (hF : Reg.Finals) : W1 (F := Ideal) m ρ c (Proc.devRef .tc main_arg3) = a3 m c :=
  (W1_of_ne m ρ c main_arg3 (by decide)).trans (w0_arg3 m ρ c hF)
theorem w1_arg4 (hF : Reg.Finals) : W1 (F := Ideal) m ρ c (Proc.devRef .tc main_arg4) = a4 m c :=
  (W1_of_ne m ρ c main_arg4 (by decide)).trans (w0_arg4 m ρ c hF)
theorem w1_arg5 (hF : Reg.Finals) : W1 (F := Ideal) m ρ c (Proc.devRef .tc main_arg5) = a5 m c :=
  (W1_of_ne m ρ c main_arg5 (by decide)).trans (w0_arg5 m ρ c hF)
theorem w1_arg6 (hF : Reg.Finals) : W1 (F := Ideal) m ρ c (Proc.devRef .tc main_arg6) = a6 m c :=
  (W1_of_ne m ρ c main_arg6 (by decide)).trans (w0_arg6 m ρ c hF)
theorem w1_arg7 (hF : Reg.Finals) : W1 (F := Ideal) m ρ c (Proc.devRef .tc main_arg7) = a7 m c :=
  (W1_of_ne m ρ c main_arg7 (by decide)).trans (w0_arg7 m ρ c hF)
theorem w1_v0 (hF : Reg.Finals) : W1 (F := Ideal) m ρ c (Proc.devRef .tc main_v0) = a1 m c :=
  (W1_arr m ρ c 1).trans ((hF.cast0 (V0 m ρ) c).trans (w0_arg1 m ρ c hF))

/-! ## After region 1 -/

theorem w2_arg0 (hF : Reg.Finals) : W2 (F := Ideal) m ρ c (Proc.devRef .tc main_arg0) = a0 m c :=
  ((W2_arr m ρ c 0).trans (((dat1 (V1 m ρ) c).arrAt_in 0 rfl _).trans (A_eq1 (V1 m ρ) c 0))).trans (w1_arg0 m ρ c hF)
theorem w2_arg3 (hF : Reg.Finals) : W2 (F := Ideal) m ρ c (Proc.devRef .tc main_arg3) = a3 m c :=
  (W2_of_ne m ρ c main_arg3 (by decide)).trans (w1_arg3 m ρ c hF)
theorem w2_arg4 (hF : Reg.Finals) : W2 (F := Ideal) m ρ c (Proc.devRef .tc main_arg4) = a4 m c :=
  (W2_of_ne m ρ c main_arg4 (by decide)).trans (w1_arg4 m ρ c hF)
theorem w2_arg5 (hF : Reg.Finals) : W2 (F := Ideal) m ρ c (Proc.devRef .tc main_arg5) = a5 m c :=
  (W2_of_ne m ρ c main_arg5 (by decide)).trans (w1_arg5 m ρ c hF)
theorem w2_arg6 (hF : Reg.Finals) : W2 (F := Ideal) m ρ c (Proc.devRef .tc main_arg6) = a6 m c :=
  (W2_of_ne m ρ c main_arg6 (by decide)).trans (w1_arg6 m ρ c hF)
theorem w2_arg7 (hF : Reg.Finals) : W2 (F := Ideal) m ρ c (Proc.devRef .tc main_arg7) = a7 m c :=
  (W2_of_ne m ρ c main_arg7 (by decide)).trans (w1_arg7 m ρ c hF)
theorem w2_v0 (hF : Reg.Finals) : W2 (F := Ideal) m ρ c (Proc.devRef .tc main_v0) = a1 m c :=
  (W2_of_ne m ρ c main_v0 (by decide)).trans (w1_v0 m ρ c hF)
theorem w2_v1_0 (hF : Reg.Finals) : W2 (F := Ideal) m ρ c (Proc.devRef .tc main_v1_0) = supAgg 64 (a0 m c) (a2 m c) :=
  (W2_arr m ρ c 2).trans ((hF.split1a (V1 m ρ) c).trans
    (congrArg₂ (supAgg (M := 8192) (K := 256) (N := 192) 64) (w1_arg0 m ρ c hF) (w1_arg2 m ρ c hF)))
theorem w2_v1_1 (hF : Reg.Finals) : W2 (F := Ideal) m ρ c (Proc.devRef .tc main_v1_1) = supPass 64 128 (a0 m c) (a2 m c) :=
  (W2_arr m ρ c 3).trans ((hF.split1p (V1 m ρ) c).trans
    (congrArg₂ (supPass (M := 8192) (K := 256) (N := 192) 64 128) (w1_arg0 m ρ c hF) (w1_arg2 m ρ c hF)))

/-! ## After the host operations before region 2 -/

theorem w3_arg0 (hF : Reg.Finals) : W3 (F := Ideal) m ρ c (Proc.devRef .tc main_arg0) = a0 m c :=
  (StableHlo.after_of_writes_sub (r := main_arg0) hostOps2 _ hostOps2_writes (by decide)).trans (w2_arg0 m ρ c hF)
theorem w3_arg4 (hF : Reg.Finals) : W3 (F := Ideal) m ρ c (Proc.devRef .tc main_arg4) = a4 m c :=
  (StableHlo.after_of_writes_sub (r := main_arg4) hostOps2 _ hostOps2_writes (by decide)).trans (w2_arg4 m ρ c hF)
theorem w3_arg5 (hF : Reg.Finals) : W3 (F := Ideal) m ρ c (Proc.devRef .tc main_arg5) = a5 m c :=
  (StableHlo.after_of_writes_sub (r := main_arg5) hostOps2 _ hostOps2_writes (by decide)).trans (w2_arg5 m ρ c hF)
theorem w3_arg6 (hF : Reg.Finals) : W3 (F := Ideal) m ρ c (Proc.devRef .tc main_arg6) = a6 m c :=
  (StableHlo.after_of_writes_sub (r := main_arg6) hostOps2 _ hostOps2_writes (by decide)).trans (w2_arg6 m ρ c hF)
theorem w3_arg7 (hF : Reg.Finals) : W3 (F := Ideal) m ρ c (Proc.devRef .tc main_arg7) = a7 m c :=
  (StableHlo.after_of_writes_sub (r := main_arg7) hostOps2 _ hostOps2_writes (by decide)).trans (w2_arg7 m ρ c hF)
theorem w3_v0 (hF : Reg.Finals) : W3 (F := Ideal) m ρ c (Proc.devRef .tc main_v0) = a1 m c :=
  (StableHlo.after_of_writes_sub (r := main_v0) hostOps2 _ hostOps2_writes (by decide)).trans (w2_v0 m ρ c hF)
theorem w3_v1_0 (hF : Reg.Finals) : W3 (F := Ideal) m ρ c (Proc.devRef .tc main_v1_0) = supAgg 64 (a0 m c) (a2 m c) :=
  (StableHlo.after_of_writes_sub (r := main_v1_0) hostOps2 _ hostOps2_writes (by decide)).trans (w2_v1_0 m ρ c hF)
theorem w3_v1_1 (hF : Reg.Finals) : W3 (F := Ideal) m ρ c (Proc.devRef .tc main_v1_1) = supPass 64 128 (a0 m c) (a2 m c) :=
  (StableHlo.after_of_writes_sub (r := main_v1_1) hostOps2 _ hostOps2_writes (by decide)).trans (w2_v1_1 m ρ c hF)
theorem w3_v3 (hF : Reg.Finals) : W3 (F := Ideal) m ρ c (Proc.devRef .tc main_v3) = piece 64 0 (a3 m c) := by
  show StableHlo.after hostOps2 (W2 m ρ c) (Proc.devRef .tc main_v3) = _
  after_results
  rw [w2_arg3 m ρ c hF]
  exact piece_host (a3 m c) 0 (by decide) _ _
theorem w3_v5 (hF : Reg.Finals) : W3 (F := Ideal) m ρ c (Proc.devRef .tc main_v5) = piece 128 64 (a3 m c) := by
  show StableHlo.after hostOps2 (W2 m ρ c) (Proc.devRef .tc main_v5) = _
  after_results
  rw [w2_arg3 m ρ c hF]
  exact piece_host (a3 m c) 64 (by decide) _ _

/-! ## After region 2 -/

theorem w4_arg0 (hF : Reg.Finals) : W4 (F := Ideal) m ρ c (Proc.devRef .tc main_arg0) = a0 m c :=
  (W4_of_ne m ρ c main_arg0 (by decide)).trans (w3_arg0 m ρ c hF)
theorem w4_arg4 (hF : Reg.Finals) : W4 (F := Ideal) m ρ c (Proc.devRef .tc main_arg4) = a4 m c :=
  (W4_of_ne m ρ c main_arg4 (by decide)).trans (w3_arg4 m ρ c hF)
theorem w4_arg5 (hF : Reg.Finals) : W4 (F := Ideal) m ρ c (Proc.devRef .tc main_arg5) = a5 m c :=
  (W4_of_ne m ρ c main_arg5 (by decide)).trans (w3_arg5 m ρ c hF)
theorem w4_arg6 (hF : Reg.Finals) : W4 (F := Ideal) m ρ c (Proc.devRef .tc main_arg6) = a6 m c :=
  (W4_of_ne m ρ c main_arg6 (by decide)).trans (w3_arg6 m ρ c hF)
theorem w4_arg7 (hF : Reg.Finals) : W4 (F := Ideal) m ρ c (Proc.devRef .tc main_arg7) = a7 m c :=
  (W4_of_ne m ρ c main_arg7 (by decide)).trans (w3_arg7 m ρ c hF)
theorem w4_v0 (hF : Reg.Finals) : W4 (F := Ideal) m ρ c (Proc.devRef .tc main_v0) = a1 m c :=
  ((W4_arr m ρ c 0).trans (((dat2 (V3 m ρ) c).arrAt_in 0 rfl _).trans (A_eq2 (V3 m ρ) c 0))).trans (w3_v0 m ρ c hF)
theorem w4_v6 (hF : Reg.Finals) : W4 (F := Ideal) m ρ c (Proc.devRef .tc main_v6) = x1 m c :=
  (W4_arr m ρ c 5).trans ((hF.agg2 (V3 m ρ) c).trans
    (agg_step (M := 8192) (K := 256) (N := 192) (P := 128) 64 rfl (a0 m c) (a1 m c) (a2 m c) (a3 m c)
      (w3_v0 m ρ c hF) (w3_v1_0 m ρ c hF) (w3_v1_1 m ρ c hF) (w3_v3 m ρ c hF) (w3_v5 m ρ c hF)))

/-! ## After the host operations before region 3 -/

theorem w5_arg0 (hF : Reg.Finals) : W5 (F := Ideal) m ρ c (Proc.devRef .tc main_arg0) = a0 m c :=
  (StableHlo.after_of_writes_sub (r := main_arg0) hostOps3 _ hostOps3_writes (by decide)).trans (w4_arg0 m ρ c hF)
theorem w5_arg4 (hF : Reg.Finals) : W5 (F := Ideal) m ρ c (Proc.devRef .tc main_arg4) = a4 m c :=
  (StableHlo.after_of_writes_sub (r := main_arg4) hostOps3 _ hostOps3_writes (by decide)).trans (w4_arg4 m ρ c hF)
theorem w5_arg5 (hF : Reg.Finals) : W5 (F := Ideal) m ρ c (Proc.devRef .tc main_arg5) = a5 m c :=
  (StableHlo.after_of_writes_sub (r := main_arg5) hostOps3 _ hostOps3_writes (by decide)).trans (w4_arg5 m ρ c hF)
theorem w5_arg6 (hF : Reg.Finals) : W5 (F := Ideal) m ρ c (Proc.devRef .tc main_arg6) = a6 m c :=
  (StableHlo.after_of_writes_sub (r := main_arg6) hostOps3 _ hostOps3_writes (by decide)).trans (w4_arg6 m ρ c hF)
theorem w5_arg7 (hF : Reg.Finals) : W5 (F := Ideal) m ρ c (Proc.devRef .tc main_arg7) = a7 m c :=
  (StableHlo.after_of_writes_sub (r := main_arg7) hostOps3 _ hostOps3_writes (by decide)).trans (w4_arg7 m ρ c hF)
theorem w5_v0 (hF : Reg.Finals) : W5 (F := Ideal) m ρ c (Proc.devRef .tc main_v0) = a1 m c :=
  (StableHlo.after_of_writes_sub (r := main_v0) hostOps3 _ hostOps3_writes (by decide)).trans (w4_v0 m ρ c hF)
theorem w5_v6 (hF : Reg.Finals) : W5 (F := Ideal) m ρ c (Proc.devRef .tc main_v6) = x1 m c :=
  (StableHlo.after_of_writes_sub (r := main_v6) hostOps3 _ hostOps3_writes (by decide)).trans (w4_v6 m ρ c hF)
theorem w5_v8 (hF : Reg.Finals) : W5 (F := Ideal) m ρ c (Proc.devRef .tc main_v8) = slab (a4 m c) 0 := by
  show StableHlo.after hostOps3 (W4 m ρ c) (Proc.devRef .tc main_v8) = _
  after_results
  rw [w4_arg4 m ρ c hF]
  exact slab_host (a4 m c) 0 (by decide) _ _
theorem w5_v10 (hF : Reg.Finals) : W5 (F := Ideal) m ρ c (Proc.devRef .tc main_v10) = row (a5 m c) 0 := by
  show StableHlo.after hostOps3 (W4 m ρ c) (Proc.devRef .tc main_v10) = _
  after_results
  rw [w4_arg5 m ρ c hF]
  exact row_host (a5 m c) 0 (by decide) _ _

/-! ## After region 3 -/

theorem w6_arg0 (hF : Reg.Finals) : W6 (F := Ideal) m ρ c (Proc.devRef .tc main_arg0) = a0 m c :=
  (W6_of_ne m ρ c main_arg0 (by decide)).trans (w5_arg0 m ρ c hF)
theorem w6_arg4 (hF : Reg.Finals) : W6 (F := Ideal) m ρ c (Proc.devRef .tc main_arg4) = a4 m c :=
  (W6_of_ne m ρ c main_arg4 (by decide)).trans (w5_arg4 m ρ c hF)
theorem w6_arg5 (hF : Reg.Finals) : W6 (F := Ideal) m ρ c (Proc.devRef .tc main_arg5) = a5 m c :=
  (W6_of_ne m ρ c main_arg5 (by decide)).trans (w5_arg5 m ρ c hF)
theorem w6_arg6 (hF : Reg.Finals) : W6 (F := Ideal) m ρ c (Proc.devRef .tc main_arg6) = a6 m c :=
  (W6_of_ne m ρ c main_arg6 (by decide)).trans (w5_arg6 m ρ c hF)
theorem w6_arg7 (hF : Reg.Finals) : W6 (F := Ideal) m ρ c (Proc.devRef .tc main_arg7) = a7 m c :=
  (W6_of_ne m ρ c main_arg7 (by decide)).trans (w5_arg7 m ρ c hF)
theorem w6_v0 (hF : Reg.Finals) : W6 (F := Ideal) m ρ c (Proc.devRef .tc main_v0) = a1 m c :=
  (W6_of_ne m ρ c main_v0 (by decide)).trans (w5_v0 m ρ c hF)
theorem w6_v10 (hF : Reg.Finals) : W6 (F := Ideal) m ρ c (Proc.devRef .tc main_v10) = row (a5 m c) 0 :=
  (W6_of_ne m ρ c main_v10 (by decide)).trans (w5_v10 m ρ c hF)
theorem w6_v11_0 (hF : Reg.Finals) : W6 (F := Ideal) m ρ c (Proc.devRef .tc main_v11_0) = supAgg 64 (x1 m c) (slab (a4 m c) 0) :=
  (W6_arr m ρ c 2).trans ((hF.split3a (V5 m ρ) c).trans
    (congrArg₂ (supAgg (M := 8192) (K := 192) (N := 192) 64) (w5_v6 m ρ c hF) (w5_v8 m ρ c hF)))
theorem w6_v11_1 (hF : Reg.Finals) : W6 (F := Ideal) m ρ c (Proc.devRef .tc main_v11_1) = supPass 64 128 (x1 m c) (slab (a4 m c) 0) :=
  (W6_arr m ρ c 3).trans ((hF.split3p (V5 m ρ) c).trans
    (congrArg₂ (supPass (M := 8192) (K := 192) (N := 192) 64 128) (w5_v6 m ρ c hF) (w5_v8 m ρ c hF)))

/-! ## After the host operations before region 4 -/

theorem w7_arg0 (hF : Reg.Finals) : W7 (F := Ideal) m ρ c (Proc.devRef .tc main_arg0) = a0 m c :=
  (StableHlo.after_of_writes_sub (r := main_arg0) hostOps4 _ hostOps4_writes (by decide)).trans (w6_arg0 m ρ c hF)
theorem w7_arg4 (hF : Reg.Finals) : W7 (F := Ideal) m ρ c (Proc.devRef .tc main_arg4) = a4 m c :=
  (StableHlo.after_of_writes_sub (r := main_arg4) hostOps4 _ hostOps4_writes (by decide)).trans (w6_arg4 m ρ c hF)
theorem w7_arg5 (hF : Reg.Finals) : W7 (F := Ideal) m ρ c (Proc.devRef .tc main_arg5) = a5 m c :=
  (StableHlo.after_of_writes_sub (r := main_arg5) hostOps4 _ hostOps4_writes (by decide)).trans (w6_arg5 m ρ c hF)
theorem w7_arg6 (hF : Reg.Finals) : W7 (F := Ideal) m ρ c (Proc.devRef .tc main_arg6) = a6 m c :=
  (StableHlo.after_of_writes_sub (r := main_arg6) hostOps4 _ hostOps4_writes (by decide)).trans (w6_arg6 m ρ c hF)
theorem w7_arg7 (hF : Reg.Finals) : W7 (F := Ideal) m ρ c (Proc.devRef .tc main_arg7) = a7 m c :=
  (StableHlo.after_of_writes_sub (r := main_arg7) hostOps4 _ hostOps4_writes (by decide)).trans (w6_arg7 m ρ c hF)
theorem w7_v0 (hF : Reg.Finals) : W7 (F := Ideal) m ρ c (Proc.devRef .tc main_v0) = a1 m c :=
  (StableHlo.after_of_writes_sub (r := main_v0) hostOps4 _ hostOps4_writes (by decide)).trans (w6_v0 m ρ c hF)
theorem w7_v11_0 (hF : Reg.Finals) : W7 (F := Ideal) m ρ c (Proc.devRef .tc main_v11_0) = supAgg 64 (x1 m c) (slab (a4 m c) 0) :=
  (StableHlo.after_of_writes_sub (r := main_v11_0) hostOps4 _ hostOps4_writes (by decide)).trans (w6_v11_0 m ρ c hF)
theorem w7_v11_1 (hF : Reg.Finals) : W7 (F := Ideal) m ρ c (Proc.devRef .tc main_v11_1) = supPass 64 128 (x1 m c) (slab (a4 m c) 0) :=
  (StableHlo.after_of_writes_sub (r := main_v11_1) hostOps4 _ hostOps4_writes (by decide)).trans (w6_v11_1 m ρ c hF)
theorem w7_v13 (hF : Reg.Finals) : W7 (F := Ideal) m ρ c (Proc.devRef .tc main_v13) = piece 64 0 (row (a5 m c) 0) := by
  show StableHlo.after hostOps4 (W6 m ρ c) (Proc.devRef .tc main_v13) = _
  after_results
  rw [w6_v10 m ρ c hF]
  exact piece_host (row (a5 m c) 0) 0 (by decide) _ _
theorem w7_v15 (hF : Reg.Finals) : W7 (F := Ideal) m ρ c (Proc.devRef .tc main_v15) = piece 128 64 (row (a5 m c) 0) := by
  show StableHlo.after hostOps4 (W6 m ρ c) (Proc.devRef .tc main_v15) = _
  after_results
  rw [w6_v10 m ρ c hF]
  exact piece_host (row (a5 m c) 0) 64 (by decide) _ _

/-! ## After region 4 -/

theorem w8_arg0 (hF : Reg.Finals) : W8 (F := Ideal) m ρ c (Proc.devRef .tc main_arg0) = a0 m c :=
  (W8_of_ne m ρ c main_arg0 (by decide)).trans (w7_arg0 m ρ c hF)
theorem w8_arg4 (hF : Reg.Finals) : W8 (F := Ideal) m ρ c (Proc.devRef .tc main_arg4) = a4 m c :=
  (W8_of_ne m ρ c main_arg4 (by decide)).trans (w7_arg4 m ρ c hF)
theorem w8_arg5 (hF : Reg.Finals) : W8 (F := Ideal) m ρ c (Proc.devRef .tc main_arg5) = a5 m c :=
  (W8_of_ne m ρ c main_arg5 (by decide)).trans (w7_arg5 m ρ c hF)
theorem w8_arg6 (hF : Reg.Finals) : W8 (F := Ideal) m ρ c (Proc.devRef .tc main_arg6) = a6 m c :=
  (W8_of_ne m ρ c main_arg6 (by decide)).trans (w7_arg6 m ρ c hF)
theorem w8_arg7 (hF : Reg.Finals) : W8 (F := Ideal) m ρ c (Proc.devRef .tc main_arg7) = a7 m c :=
  (W8_of_ne m ρ c main_arg7 (by decide)).trans (w7_arg7 m ρ c hF)
theorem w8_v0 (hF : Reg.Finals) : W8 (F := Ideal) m ρ c (Proc.devRef .tc main_v0) = a1 m c :=
  ((W8_arr m ρ c 0).trans (((dat4 (V7 m ρ) c).arrAt_in 0 rfl _).trans (A_eq4 (V7 m ρ) c 0))).trans (w7_v0 m ρ c hF)
theorem w8_v16 (hF : Reg.Finals) : W8 (F := Ideal) m ρ c (Proc.devRef .tc main_v16) = x2 m c :=
  (W8_arr m ρ c 5).trans ((hF.agg4 (V7 m ρ) c).trans
    (agg_step (M := 8192) (K := 192) (N := 192) (P := 128) 64 rfl (x1 m c) (a1 m c) (slab (a4 m c) 0) (row (a5 m c) 0)
      (w7_v0 m ρ c hF) (w7_v11_0 m ρ c hF) (w7_v11_1 m ρ c hF) (w7_v13 m ρ c hF) (w7_v15 m ρ c hF)))

end Cert.KernelIdeal.Chain

end
-- ==== Proof.KChainB.lean ====
/-
  What the live buffers hold at the boundaries of the kernel program's run, continued: the second pair of layers and the averaging step before it (regions 5 to 8).
  The same four kinds of step as before: a buffer carried across a region or across a stretch of host operations, a
  region's output, a host operation's result.
-/
import proofs.«108744_j27797028339962_2_alg».proof.Proof.KChainA

noncomputable section

namespace Cert.KernelIdeal.Chain

open Cert.KernelIdeal Cert.KernelIdeal.Gen Cert.Gcn Cert.Gcn.Forms Idealize.ShloMosaic Idealize.ShloMosaic.TcCoe Idealize.SL.Sem

variable (m : (ℓ : Loc nD τ sig) → Buf (Elt Ideal) ℓ) (ρ : Dev nD → PrngReg) (c : Dev nD)

/-! ## After the host operations before region 5 -/

theorem w9_arg4 (hF : Reg.Finals) : W9 (F := Ideal) m ρ c (Proc.devRef .tc main_arg4) = a4 m c :=
  (StableHlo.after_of_writes_sub (r := main_arg4) hostOps5 _ hostOps5_writes (by decide)).trans (w8_arg4 m ρ c hF)
theorem w9_arg5 (hF : Reg.Finals) : W9 (F := Ideal) m ρ c (Proc.devRef .tc main_arg5) = a5 m c :=
  (StableHlo.after_of_writes_sub (r := main_arg5) hostOps5 _ hostOps5_writes (by decide)).trans (w8_arg5 m ρ c hF)
theorem w9_arg6 (hF : Reg.Finals) : W9 (F := Ideal) m ρ c (Proc.devRef .tc main_arg6) = a6 m c :=
  (StableHlo.after_of_writes_sub (r := main_arg6) hostOps5 _ hostOps5_writes (by decide)).trans (w8_arg6 m ρ c hF)
theorem w9_arg7 (hF : Reg.Finals) : W9 (F := Ideal) m ρ c (Proc.devRef .tc main_arg7) = a7 m c :=
  (StableHlo.after_of_writes_sub (r := main_arg7) hostOps5 _ hostOps5_writes (by decide)).trans (w8_arg7 m ρ c hF)
theorem w9_v0 (hF : Reg.Finals) : W9 (F := Ideal) m ρ c (Proc.devRef .tc main_v0) = a1 m c :=
  (StableHlo.after_of_writes_sub (r := main_v0) hostOps5 _ hostOps5_writes (by decide)).trans (w8_v0 m ρ c hF)
theorem w9_v20 (hF : Reg.Finals) : W9 (F := Ideal) m ρ c (Proc.devRef .tc main_v20) = f1 m c := by
  show StableHlo.after hostOps5 (W8 m ρ c) (Proc.devRef .tc main_v20) = _
  after_results
  rw [w8_arg0 m ρ c hF, w8_v16 m ρ c hF, cols_host 192 (by decide) (a0 m c)]
  exact resid_host _ _ _ _
theorem w9_v22 (hF : Reg.Finals) : W9 (F := Ideal) m ρ c (Proc.devRef .tc main_v22) = slab (a4 m c) 1 := by
  show StableHlo.after hostOps5 (W8 m ρ c) (Proc.devRef .tc main_v22) = _
  after_results
  rw [w8_arg4 m ρ c hF]
  exact slab_host (a4 m c) 1 (by decide) _ _
theorem w9_v24 (hF : Reg.Finals) : W9 (F := Ideal) m ρ c (Proc.devRef .tc main_v24) = row (a5 m c) 1 := by
  show StableHlo.after hostOps5 (W8 m ρ c) (Proc.devRef .tc main_v24) = _
  after_results
  rw [w8_arg5 m ρ c hF]
  exact row_host (a5 m c) 1 (by decide) _ _

/-! ## After region 5 -/

theorem w10_arg4 (hF : Reg.Finals) : W10 (F := Ideal) m ρ c (Proc.devRef .tc main_arg4) = a4 m c :=
  (W10_of_ne m ρ c main_arg4 (by decide)).trans (w9_arg4 m ρ c hF)
theorem w10_arg5 (hF : Reg.Finals) : W10 (F := Ideal) m ρ c (Proc.devRef .tc main_arg5) = a5 m c :=
  (W10_of_ne m ρ c main_arg5 (by decide)).trans (w9_arg5 m ρ c hF)
theorem w10_arg6 (hF : Reg.Finals) : W10 (F := Ideal) m ρ c (Proc.devRef .tc main_arg6) = a6 m c :=
  (W10_of_ne m ρ c main_arg6 (by decide)).trans (w9_arg6 m ρ c hF)
theorem w10_arg7 (hF : Reg.Finals) : W10 (F := Ideal) m ρ c (Proc.devRef .tc main_arg7) = a7 m c :=
  (W10_of_ne m ρ c main_arg7 (by decide)).trans (w9_arg7 m ρ c hF)
theorem w10_v0 (hF : Reg.Finals) : W10 (F := Ideal) m ρ c (Proc.devRef .tc main_v0) = a1 m c :=
  (W10_of_ne m ρ c main_v0 (by decide)).trans (w9_v0 m ρ c hF)
theorem w10_v20 (hF : Reg.Finals) : W10 (F := Ideal) m ρ c (Proc.devRef .tc main_v20) = f1 m c :=
  ((W10_arr m ρ c 0).trans (((dat5 (V9 m ρ) c).arrAt_in 0 rfl _).trans (A_eq5 (V9 m ρ) c 0))).trans (w9_v20 m ρ c hF)
theorem w10_v24 (hF : Reg.Finals) : W10 (F := Ideal) m ρ c (Proc.devRef .tc main_v24) = row (a5 m c) 1 :=
  (W10_of_ne m ρ c main_v24 (by decide)).trans (w9_v24 m ρ c hF)
set_option maxHeartbeats 16000000 in
theorem w10_v25_0 (hF : Reg.Finals) : W10 (F := Ideal) m ρ c (Proc.devRef .tc main_v25_0) = supAgg 64 (f1 m c) (slab (a4 m c) 1) :=
  (W10_arr m ρ c 2).trans ((hF.split5a (V9 m ρ) c).trans
    (congrArg₂ (supAgg (M := 8192) (K := 192) (N := 192) 64) (w9_v20 m ρ c hF) (w9_v22 m ρ c hF)))
set_option maxHeartbeats 16000000 in
theorem w10_v25_1 (hF : Reg.Finals) : W10 (F := Ideal) m ρ c (Proc.devRef .tc main_v25_1) = supPass 64 128 (f1 m c) (slab (a4 m c) 1) :=
  (W10_arr m ρ c 3).trans ((hF.split5p (V9 m ρ) c).trans
    (congrArg₂ (supPass (M := 8192) (K := 192) (N := 192) 64 128) (w9_v20 m ρ c hF) (w9_v22 m ρ c hF)))

/-! ## After the host operations before region 6 -/

theorem w11_arg4 (hF : Reg.Finals) : W11 (F := Ideal) m ρ c (Proc.devRef .tc main_arg4) = a4 m c :=
  (StableHlo.after_of_writes_sub (r := main_arg4) hostOps6 _ hostOps6_writes (by decide)).trans (w10_arg4 m ρ c hF)
theorem w11_arg5 (hF : Reg.Finals) : W11 (F := Ideal) m ρ c (Proc.devRef .tc main_arg5) = a5 m c :=
  (StableHlo.after_of_writes_sub (r := main_arg5) hostOps6 _ hostOps6_writes (by decide)).trans (w10_arg5 m ρ c hF)
theorem w11_arg6 (hF : Reg.Finals) : W11 (F := Ideal) m ρ c (Proc.devRef .tc main_arg6) = a6 m c :=
  (StableHlo.after_of_writes_sub (r := main_arg6) hostOps6 _ hostOps6_writes (by decide)).trans (w10_arg6 m ρ c hF)
theorem w11_arg7 (hF : Reg.Finals) : W11 (F := Ideal) m ρ c (Proc.devRef .tc main_arg7) = a7 m c :=
  (StableHlo.after_of_writes_sub (r := main_arg7) hostOps6 _ hostOps6_writes (by decide)).trans (w10_arg7 m ρ c hF)
theorem w11_v0 (hF : Reg.Finals) : W11 (F := Ideal) m ρ c (Proc.devRef .tc main_v0) = a1 m c :=
  (StableHlo.after_of_writes_sub (r := main_v0) hostOps6 _ hostOps6_writes (by decide)).trans (w10_v0 m ρ c hF)
theorem w11_v20 (hF : Reg.Finals) : W11 (F := Ideal) m ρ c (Proc.devRef .tc main_v20) = f1 m c :=
  (StableHlo.after_of_writes_sub (r := main_v20) hostOps6 _ hostOps6_writes (by decide)).trans (w10_v20 m ρ c hF)
theorem w11_v25_0 (hF : Reg.Finals) : W11 (F := Ideal) m ρ c (Proc.devRef .tc main_v25_0) = supAgg 64 (f1 m c) (slab (a4 m c) 1) :=
  (StableHlo.after_of_writes_sub (r := main_v25_0) hostOps6 _ hostOps6_writes (by decide)).trans (w10_v25_0 m ρ c hF)
theorem w11_v25_1 (hF : Reg.Finals) : W11 (F := Ideal) m ρ c (Proc.devRef .tc main_v25_1) = supPass 64 128 (f1 m c) (slab (a4 m c) 1) :=
  (StableHlo.after_of_writes_sub (r := main_v25_1) hostOps6 _ hostOps6_writes (by decide)).trans (w10_v25_1 m ρ c hF)
theorem w11_v27 (hF : Reg.Finals) : W11 (F := Ideal) m ρ c (Proc.devRef .tc main_v27) = piece 64 0 (row (a5 m c) 1) := by
  show StableHlo.after hostOps6 (W10 m ρ c) (Proc.devRef .tc main_v27) = _
  after_results
  rw [w10_v24 m ρ c hF]
  exact piece_host (row (a5 m c) 1) 0 (by decide) _ _
theorem w11_v29 (hF : Reg.Finals) : W11 (F := Ideal) m ρ c (Proc.devRef .tc main_v29) = piece 128 64 (row (a5 m c) 1) := by
  show StableHlo.after hostOps6 (W10 m ρ c) (Proc.devRef .tc main_v29) = _
  after_results
  rw [w10_v24 m ρ c hF]
  exact piece_host (row (a5 m c) 1) 64 (by decide) _ _

/-! ## After region 6 -/

theorem w12_arg4 (hF : Reg.Finals) : W12 (F := Ideal) m ρ c (Proc.devRef .tc main_arg4) = a4 m c :=
  (W12_of_ne m ρ c main_arg4 (by decide)).trans (w11_arg4 m ρ c hF)
theorem w12_arg5 (hF : Reg.Finals) : W12 (F := Ideal) m ρ c (Proc.devRef .tc main_arg5) = a5 m c :=
  (W12_of_ne m ρ c main_arg5 (by decide)).trans (w11_arg5 m ρ c hF)
theorem w12_arg6 (hF : Reg.Finals) : W12 (F := Ideal) m ρ c (Proc.devRef .tc main_arg6) = a6 m c :=
  (W12_of_ne m ρ c main_arg6 (by decide)).trans (w11_arg6 m ρ c hF)
theorem w12_arg7 (hF : Reg.Finals) : W12 (F := Ideal) m ρ c (Proc.devRef .tc main_arg7) = a7 m c :=
  (W12_of_ne m ρ c main_arg7 (by decide)).trans (w11_arg7 m ρ c hF)
theorem w12_v0 (hF : Reg.Finals) : W12 (F := Ideal) m ρ c (Proc.devRef .tc main_v0) = a1 m c :=
  ((W12_arr m ρ c 0).trans (((dat6 (V11 m ρ) c).arrAt_in 0 rfl _).trans (A_eq6 (V11 m ρ) c 0))).trans (w11_v0 m ρ c hF)
theorem w12_v20 (hF : Reg.Finals) : W12 (F := Ideal) m ρ c (Proc.devRef .tc main_v20) = f1 m c :=
  (W12_of_ne m ρ c main_v20 (by decide)).trans (w11_v20 m ρ c hF)
set_option maxHeartbeats 16000000 in
theorem w12_v30 (hF : Reg.Finals) : W12 (F := Ideal) m ρ c (Proc.devRef .tc main_v30) = x3 m c :=
  (W12_arr m ρ c 5).trans ((hF.agg6 (V11 m ρ) c).trans
    (agg_step (M := 8192) (K := 192) (N := 192) (P := 128) 64 rfl (f1 m c) (a1 m c) (slab (a4 m c) 1) (row (a5 m c) 1)
      (w11_v0 m ρ c hF) (w11_v25_0 m ρ c hF) (w11_v25_1 m ρ c hF) (w11_v27 m ρ c hF) (w11_v29 m ρ c hF)))

/-! ## After the host operations before region 7 -/

theorem w13_arg4 (hF : Reg.Finals) : W13 (F := Ideal) m ρ c (Proc.devRef .tc main_arg4) = a4 m c :=
  (StableHlo.after_of_writes_sub (r := main_arg4) hostOps7 _ hostOps7_writes (by decide)).trans (w12_arg4 m ρ c hF)
theorem w13_arg5 (hF : Reg.Finals) : W13 (F := Ideal) m ρ c (Proc.devRef .tc main_arg5) = a5 m c :=
  (StableHlo.after_of_writes_sub (r := main_arg5) hostOps7 _ hostOps7_writes (by decide)).trans (w12_arg5 m ρ c hF)
theorem w13_arg6 (hF : Reg.Finals) : W13 (F := Ideal) m ρ c (Proc.devRef .tc main_arg6) = a6 m c :=
  (StableHlo.after_of_writes_sub (r := main_arg6) hostOps7 _ hostOps7_writes (by decide)).trans (w12_arg6 m ρ c hF)
theorem w13_arg7 (hF : Reg.Finals) : W13 (F := Ideal) m ρ c (Proc.devRef .tc main_arg7) = a7 m c :=
  (StableHlo.after_of_writes_sub (r := main_arg7) hostOps7 _ hostOps7_writes (by decide)).trans (w12_arg7 m ρ c hF)
theorem w13_v0 (hF : Reg.Finals) : W13 (F := Ideal) m ρ c (Proc.devRef .tc main_v0) = a1 m c :=
  (StableHlo.after_of_writes_sub (r := main_v0) hostOps7 _ hostOps7_writes (by decide)).trans (w12_v0 m ρ c hF)
theorem w13_v20 (hF : Reg.Finals) : W13 (F := Ideal) m ρ c (Proc.devRef .tc main_v20) = f1 m c :=
  (StableHlo.after_of_writes_sub (r := main_v20) hostOps7 _ hostOps7_writes (by decide)).trans (w12_v20 m ρ c hF)
theorem w13_v30 (hF : Reg.Finals) : W13 (F := Ideal) m ρ c (Proc.devRef .tc main_v30) = x3 m c :=
  (StableHlo.after_of_writes_sub (r := main_v30) hostOps7 _ hostOps7_writes (by decide)).trans (w12_v30 m ρ c hF)
theorem w13_v32 (hF : Reg.Finals) : W13 (F := Ideal) m ρ c (Proc.devRef .tc main_v32) = slab (a4 m c) 2 := by
  show StableHlo.after hostOps7 (W12 m ρ c) (Proc.devRef .tc main_v32) = _
  after_results
  rw [w12_arg4 m ρ c hF]
  exact slab_host (a4 m c) 2 (by decide) _ _
theorem w13_v34 (hF : Reg.Finals) : W13 (F := Ideal) m ρ c (Proc.devRef .tc main_v34) = row (a5 m c) 2 := by
  show StableHlo.after hostOps7 (W12 m ρ c) (Proc.devRef .tc main_v34) = _
  after_results
  rw [w12_arg5 m ρ c hF]
  exact row_host (a5 m c) 2 (by decide) _ _

/-! ## After region 7 -/

theorem w14_arg4 (hF : Reg.Finals) : W14 (F := Ideal) m ρ c (Proc.devRef .tc main_arg4) = a4 m c :=
  (W14_of_ne m ρ c main_arg4 (by decide)).trans (w13_arg4 m ρ c hF)
theorem w14_arg5 (hF : Reg.Finals) : W14 (F := Ideal) m ρ c (Proc.devRef .tc main_arg5) = a5 m c :=
  (W14_of_ne m ρ c main_arg5 (by decide)).trans (w13_arg5 m ρ c hF)
theorem w14_arg6 (hF : Reg.Finals) : W14 (F := Ideal) m ρ c (Proc.devRef .tc main_arg6) = a6 m c :=
  (W14_of_ne m ρ c main_arg6 (by decide)).trans (w13_arg6 m ρ c hF)
theorem w14_arg7 (hF : Reg.Finals) : W14 (F := Ideal) m ρ c (Proc.devRef .tc main_arg7) = a7 m c :=
  (W14_of_ne m ρ c main_arg7 (by decide)).trans (w13_arg7 m ρ c hF)
theorem w14_v0 (hF : Reg.Finals) : W14 (F := Ideal) m ρ c (Proc.devRef .tc main_v0) = a1 m c :=
  (W14_of_ne m ρ c main_v0 (by decide)).trans (w13_v0 m ρ c hF)
theorem w14_v20 (hF : Reg.Finals) : W14 (F := Ideal) m ρ c (Proc.devRef .tc main_v20) = f1 m c :=
  (W14_of_ne m ρ c main_v20 (by decide)).trans (w13_v20 m ρ c hF)
theorem w14_v34 (hF : Reg.Finals) : W14 (F := Ideal) m ρ c (Proc.devRef .tc main_v34) = row (a5 m c) 2 :=
  (W14_of_ne m ρ c main_v34 (by decide)).trans (w13_v34 m ρ c hF)
set_option maxHeartbeats 16000000 in
theorem w14_v35_0 (hF : Reg.Finals) : W14 (F := Ideal) m ρ c (Proc.devRef .tc main_v35_0) = supAgg 64 (x3 m c) (slab (a4 m c) 2) :=
  (W14_arr m ρ c 2).trans ((hF.split7a (V13 m ρ) c).trans
    (congrArg₂ (supAgg (M := 8192) (K := 192) (N := 192) 64) (w13_v30 m ρ c hF) (w13_v32 m ρ c hF)))
set_option maxHeartbeats 16000000 in
theorem w14_v35_1 (hF : Reg.Finals) : W14 (F := Ideal) m ρ c (Proc.devRef .tc main_v35_1) = supPass 64 128 (x3 m c) (slab (a4 m c) 2) :=
  (W14_arr m ρ c 3).trans ((hF.split7p (V13 m ρ) c).trans
    (congrArg₂ (supPass (M := 8192) (K := 192) (N := 192) 64 128) (w13_v30 m ρ c hF) (w13_v32 m ρ c hF)))

/-! ## After the host operations before region 8 -/

theorem w15_arg4 (hF : Reg.Finals) : W15 (F := Ideal) m ρ c (Proc.devRef .tc main_arg4) = a4 m c :=
  (StableHlo.after_of_writes_sub (r := main_arg4) hostOps8 _ hostOps8_writes (by decide)).trans (w14_arg4 m ρ c hF)
theorem w15_arg5 (hF : Reg.Finals) : W15 (F := Ideal) m ρ c (Proc.devRef .tc main_arg5) = a5 m c :=
  (StableHlo.after_of_writes_sub (r := main_arg5) hostOps8 _ hostOps8_writes (by decide)).trans (w14_arg5 m ρ c hF)
theorem w15_arg6 (hF : Reg.Finals) : W15 (F := Ideal) m ρ c (Proc.devRef .tc main_arg6) = a6 m c :=
  (StableHlo.after_of_writes_sub (r := main_arg6) hostOps8 _ hostOps8_writes (by decide)).trans (w14_arg6 m ρ c hF)
theorem w15_arg7 (hF : Reg.Finals) : W15 (F := Ideal) m ρ c (Proc.devRef .tc main_arg7) = a7 m c :=
  (StableHlo.after_of_writes_sub (r := main_arg7) hostOps8 _ hostOps8_writes (by decide)).trans (w14_arg7 m ρ c hF)
theorem w15_v0 (hF : Reg.Finals) : W15 (F := Ideal) m ρ c (Proc.devRef .tc main_v0) = a1 m c :=
  (StableHlo.after_of_writes_sub (r := main_v0) hostOps8 _ hostOps8_writes (by decide)).trans (w14_v0 m ρ c hF)
theorem w15_v20 (hF : Reg.Finals) : W15 (F := Ideal) m ρ c (Proc.devRef .tc main_v20) = f1 m c :=
  (StableHlo.after_of_writes_sub (r := main_v20) hostOps8 _ hostOps8_writes (by decide)).trans (w14_v20 m ρ c hF)
theorem w15_v35_0 (hF : Reg.Finals) : W15 (F := Ideal) m ρ c (Proc.devRef .tc main_v35_0) = supAgg 64 (x3 m c) (slab (a4 m c) 2) :=
  (StableHlo.after_of_writes_sub (r := main_v35_0) hostOps8 _ hostOps8_writes (by decide)).trans (w14_v35_0 m ρ c hF)
theorem w15_v35_1 (hF : Reg.Finals) : W15 (F := Ideal) m ρ c (Proc.devRef .tc main_v35_1) = supPass 64 128 (x3 m c) (slab (a4 m c) 2) :=
  (StableHlo.after_of_writes_sub (r := main_v35_1) hostOps8 _ hostOps8_writes (by decide)).trans (w14_v35_1 m ρ c hF)
theorem w15_v37 (hF : Reg.Finals) : W15 (F := Ideal) m ρ c (Proc.devRef .tc main_v37) = piece 64 0 (row (a5 m c) 2) := by
  show StableHlo.after hostOps8 (W14 m ρ c) (Proc.devRef .tc main_v37) = _
  after_results
  rw [w14_v34 m ρ c hF]
  exact piece_host (row (a5 m c) 2) 0 (by decide) _ _
theorem w15_v39 (hF : Reg.Finals) : W15 (F := Ideal) m ρ c (Proc.devRef .tc main_v39) = piece 128 64 (row (a5 m c) 2) := by
  show StableHlo.after hostOps8 (W14 m ρ c) (Proc.devRef .tc main_v39) = _
  after_results
  rw [w14_v34 m ρ c hF]
  exact piece_host (row (a5 m c) 2) 64 (by decide) _ _

/-! ## After region 8 -/

theorem w16_arg4 (hF : Reg.Finals) : W16 (F := Ideal) m ρ c (Proc.devRef .tc main_arg4) = a4 m c :=
  (W16_of_ne m ρ c main_arg4 (by decide)).trans (w15_arg4 m ρ c hF)
theorem w16_arg5 (hF : Reg.Finals) : W16 (F := Ideal) m ρ c (Proc.devRef .tc main_arg5) = a5 m c :=
  (W16_of_ne m ρ c main_arg5 (by decide)).trans (w15_arg5 m ρ c hF)
theorem w16_arg6 (hF : Reg.Finals) : W16 (F := Ideal) m ρ c (Proc.devRef .tc main_arg6) = a6 m c :=
  (W16_of_ne m ρ c main_arg6 (by decide)).trans (w15_arg6 m ρ c hF)
theorem w16_arg7 (hF : Reg.Finals) : W16 (F := Ideal) m ρ c (Proc.devRef .tc main_arg7) = a7 m c :=
  (W16_of_ne m ρ c main_arg7 (by decide)).trans (w15_arg7 m ρ c hF)
theorem w16_v0 (hF : Reg.Finals) : W16 (F := Ideal) m ρ c (Proc.devRef .tc main_v0) = a1 m c :=
  ((W16_arr m ρ c 0).trans (((dat8 (V15 m ρ) c).arrAt_in 0 rfl _).trans (A_eq8 (V15 m ρ) c 0))).trans (w15_v0 m ρ c hF)
theorem w16_v20 (hF : Reg.Finals) : W16 (F := Ideal) m ρ c (Proc.devRef .tc main_v20) = f1 m c :=
  (W16_of_ne m ρ c main_v20 (by decide)).trans (w15_v20 m ρ c hF)
set_option maxHeartbeats 16000000 in
theorem w16_v40 (hF : Reg.Finals) : W16 (F := Ideal) m ρ c (Proc.devRef .tc main_v40) = x4 m c :=
  (W16_arr m ρ c 5).trans ((hF.agg8 (V15 m ρ) c).trans
    (agg_step (M := 8192) (K := 192) (N := 192) (P := 128) 64 rfl (x3 m c) (a1 m c) (slab (a4 m c) 2) (row (a5 m c) 2)
      (w15_v0 m ρ c hF) (w15_v35_0 m ρ c hF) (w15_v35_1 m ρ c hF) (w15_v37 m ρ c hF) (w15_v39 m ρ c hF)))

end Cert.KernelIdeal.Chain

end
-- ==== Proof.KChainC.lean ====
/-
  What the live buffers hold at the boundaries of the kernel program's run, continued: the third pair of layers and the averaging step before it (regions 9 to 12).
  The same four kinds of step as before: a buffer carried across a region or across a stretch of host operations, a
  region's output, a host operation's result.
-/
import proofs.«108744_j27797028339962_2_alg».proof.Proof.KChainB

noncomputable section

namespace Cert.KernelIdeal.Chain

open Cert.KernelIdeal Cert.KernelIdeal.Gen Cert.Gcn Cert.Gcn.Forms Idealize.ShloMosaic Idealize.ShloMosaic.TcCoe Idealize.SL.Sem

variable (m : (ℓ : Loc nD τ sig) → Buf (Elt Ideal) ℓ) (ρ : Dev nD → PrngReg) (c : Dev nD)

/-! ## After the host operations before region 9 -/

theorem w17_arg4 (hF : Reg.Finals) : W17 (F := Ideal) m ρ c (Proc.devRef .tc main_arg4) = a4 m c :=
  (StableHlo.after_of_writes_sub (r := main_arg4) hostOps9 _ hostOps9_writes (by decide)).trans (w16_arg4 m ρ c hF)
theorem w17_arg5 (hF : Reg.Finals) : W17 (F := Ideal) m ρ c (Proc.devRef .tc main_arg5) = a5 m c :=
  (StableHlo.after_of_writes_sub (r := main_arg5) hostOps9 _ hostOps9_writes (by decide)).trans (w16_arg5 m ρ c hF)
theorem w17_arg6 (hF : Reg.Finals) : W17 (F := Ideal) m ρ c (Proc.devRef .tc main_arg6) = a6 m c :=
  (StableHlo.after_of_writes_sub (r := main_arg6) hostOps9 _ hostOps9_writes (by decide)).trans (w16_arg6 m ρ c hF)
theorem w17_arg7 (hF : Reg.Finals) : W17 (F := Ideal) m ρ c (Proc.devRef .tc main_arg7) = a7 m c :=
  (StableHlo.after_of_writes_sub (r := main_arg7) hostOps9 _ hostOps9_writes (by decide)).trans (w16_arg7 m ρ c hF)
theorem w17_v0 (hF : Reg.Finals) : W17 (F := Ideal) m ρ c (Proc.devRef .tc main_v0) = a1 m c :=
  (StableHlo.after_of_writes_sub (r := main_v0) hostOps9 _ hostOps9_writes (by decide)).trans (w16_v0 m ρ c hF)
theorem w17_v43 (hF : Reg.Finals) : W17 (F := Ideal) m ρ c (Proc.devRef .tc main_v43) = f2 m c := by
  show StableHlo.after hostOps9 (W16 m ρ c) (Proc.devRef .tc main_v43) = _
  after_results
  rw [w16_v20 m ρ c hF, w16_v40 m ρ c hF]
  exact resid_host _ _ _ _
theorem w17_v45 (hF : Reg.Finals) : W17 (F := Ideal) m ρ c (Proc.devRef .tc main_v45) = slab (a4 m c) 3 := by
  show StableHlo.after hostOps9 (W16 m ρ c) (Proc.devRef .tc main_v45) = _
  after_results
  rw [w16_arg4 m ρ c hF]
  exact slab_host (a4 m c) 3 (by decide) _ _
theorem w17_v47 (hF : Reg.Finals) : W17 (F := Ideal) m ρ c (Proc.devRef .tc main_v47) = row (a5 m c) 3 := by
  show StableHlo.after hostOps9 (W16 m ρ c) (Proc.devRef .tc main_v47) = _
  after_results
  rw [w16_arg5 m ρ c hF]
  exact row_host (a5 m c) 3 (by decide) _ _

/-! ## After region 9 -/

theorem w18_arg4 (hF : Reg.Finals) : W18 (F := Ideal) m ρ c (Proc.devRef .tc main_arg4) = a4 m c :=
  (W18_of_ne m ρ c main_arg4 (by decide)).trans (w17_arg4 m ρ c hF)
theorem w18_arg5 (hF : Reg.Finals) : W18 (F := Ideal) m ρ c (Proc.devRef .tc main_arg5) = a5 m c :=
  (W18_of_ne m ρ c main_arg5 (by decide)).trans (w17_arg5 m ρ c hF)
theorem w18_arg6 (hF : Reg.Finals) : W18 (F := Ideal) m ρ c (Proc.devRef .tc main_arg6) = a6 m c :=
  (W18_of_ne m ρ c main_arg6 (by decide)).trans (w17_arg6 m ρ c hF)
theorem w18_arg7 (hF : Reg.Finals) : W18 (F := Ideal) m ρ c (Proc.devRef .tc main_arg7) = a7 m c :=
  (W18_of_ne m ρ c main_arg7 (by decide)).trans (w17_arg7 m ρ c hF)
theorem w18_v0 (hF : Reg.Finals) : W18 (F := Ideal) m ρ c (Proc.devRef .tc main_v0) = a1 m c :=
  (W18_of_ne m ρ c main_v0 (by decide)).trans (w17_v0 m ρ c hF)
theorem w18_v43 (hF : Reg.Finals) : W18 (F := Ideal) m ρ c (Proc.devRef .tc main_v43) = f2 m c :=
  ((W18_arr m ρ c 0).trans (((dat9 (V17 m ρ) c).arrAt_in 0 rfl _).trans (A_eq9 (V17 m ρ) c 0))).trans (w17_v43 m ρ c hF)
theorem w18_v47 (hF : Reg.Finals) : W18 (F := Ideal) m ρ c (Proc.devRef .tc main_v47) = row (a5 m c) 3 :=
  (W18_of_ne m ρ c main_v47 (by decide)).trans (w17_v47 m ρ c hF)
set_option maxHeartbeats 16000000 in
theorem w18_v48_0 (hF : Reg.Finals) : W18 (F := Ideal) m ρ c (Proc.devRef .tc main_v48_0) = supAgg 64 (f2 m c) (slab (a4 m c) 3) :=
  (W18_arr m ρ c 2).trans ((hF.split9a (V17 m ρ) c).trans
    (congrArg₂ (supAgg (M := 8192) (K := 192) (N := 192) 64) (w17_v43 m ρ c hF) (w17_v45 m ρ c hF)))
set_option maxHeartbeats 16000000 in
theorem w18_v48_1 (hF : Reg.Finals) : W18 (F := Ideal) m ρ c (Proc.devRef .tc main_v48_1) = supPass 64 128 (f2 m c) (slab (a4 m c) 3) :=
  (W18_arr m ρ c 3).trans ((hF.split9p (V17 m ρ) c).trans
    (congrArg₂ (supPass (M := 8192) (K := 192) (N := 192) 64 128) (w17_v43 m ρ c hF) (w17_v45 m ρ c hF)))

/-! ## After the host operations before region 10 -/

theorem w19_arg4 (hF : Reg.Finals) : W19 (F := Ideal) m ρ c (Proc.devRef .tc main_arg4) = a4 m c :=
  (StableHlo.after_of_writes_sub (r := main_arg4) hostOps10 _ hostOps10_writes (by decide)).trans (w18_arg4 m ρ c hF)
theorem w19_arg5 (hF : Reg.Finals) : W19 (F := Ideal) m ρ c (Proc.devRef .tc main_arg5) = a5 m c :=
  (StableHlo.after_of_writes_sub (r := main_arg5) hostOps10 _ hostOps10_writes (by decide)).trans (w18_arg5 m ρ c hF)
theorem w19_arg6 (hF : Reg.Finals) : W19 (F := Ideal) m ρ c (Proc.devRef .tc main_arg6) = a6 m c :=
  (StableHlo.after_of_writes_sub (r := main_arg6) hostOps10 _ hostOps10_writes (by decide)).trans (w18_arg6 m ρ c hF)
theorem w19_arg7 (hF : Reg.Finals) : W19 (F := Ideal) m ρ c (Proc.devRef .tc main_arg7) = a7 m c :=
  (StableHlo.after_of_writes_sub (r := main_arg7) hostOps10 _ hostOps10_writes (by decide)).trans (w18_arg7 m ρ c hF)
theorem w19_v0 (hF : Reg.Finals) : W19 (F := Ideal) m ρ c (Proc.devRef .tc main_v0) = a1 m c :=
  (StableHlo.after_of_writes_sub (r := main_v0) hostOps10 _ hostOps10_writes (by decide)).trans (w18_v0 m ρ c hF)
theorem w19_v43 (hF : Reg.Finals) : W19 (F := Ideal) m ρ c (Proc.devRef .tc main_v43) = f2 m c :=
  (StableHlo.after_of_writes_sub (r := main_v43) hostOps10 _ hostOps10_writes (by decide)).trans (w18_v43 m ρ c hF)
theorem w19_v48_0 (hF : Reg.Finals) : W19 (F := Ideal) m ρ c (Proc.devRef .tc main_v48_0) = supAgg 64 (f2 m c) (slab (a4 m c) 3) :=
  (StableHlo.after_of_writes_sub (r := main_v48_0) hostOps10 _ hostOps10_writes (by decide)).trans (w18_v48_0 m ρ c hF)
theorem w19_v48_1 (hF : Reg.Finals) : W19 (F := Ideal) m ρ c (Proc.devRef .tc main_v48_1) = supPass 64 128 (f2 m c) (slab (a4 m c) 3) :=
  (StableHlo.after_of_writes_sub (r := main_v48_1) hostOps10 _ hostOps10_writes (by decide)).trans (w18_v48_1 m ρ c hF)
theorem w19_v50 (hF : Reg.Finals) : W19 (F := Ideal) m ρ c (Proc.devRef .tc main_v50) = piece 64 0 (row (a5 m c) 3) := by
  show StableHlo.after hostOps10 (W18 m ρ c) (Proc.devRef .tc main_v50) = _
  after_results
  rw [w18_v47 m ρ c hF]
  exact piece_host (row (a5 m c) 3) 0 (by decide) _ _
theorem w19_v52 (hF : Reg.Finals) : W19 (F := Ideal) m ρ c (Proc.devRef .tc main_v52) = piece 128 64 (row (a5 m c) 3) := by
  show StableHlo.after hostOps10 (W18 m ρ c) (Proc.devRef .tc main_v52) = _
  after_results
  rw [w18_v47 m ρ c hF]
  exact piece_host (row (a5 m c) 3) 64 (by decide) _ _

/-! ## After region 10 -/

theorem w20_arg4 (hF : Reg.Finals) : W20 (F := Ideal) m ρ c (Proc.devRef .tc main_arg4) = a4 m c :=
  (W20_of_ne m ρ c main_arg4 (by decide)).trans (w19_arg4 m ρ c hF)
theorem w20_arg5 (hF : Reg.Finals) : W20 (F := Ideal) m ρ c (Proc.devRef .tc main_arg5) = a5 m c :=
  (W20_of_ne m ρ c main_arg5 (by decide)).trans (w19_arg5 m ρ c hF)
theorem w20_arg6 (hF : Reg.Finals) : W20 (F := Ideal) m ρ c (Proc.devRef .tc main_arg6) = a6 m c :=
  (W20_of_ne m ρ c main_arg6 (by decide)).trans (w19_arg6 m ρ c hF)
theorem w20_arg7 (hF : Reg.Finals) : W20 (F := Ideal) m ρ c (Proc.devRef .tc main_arg7) = a7 m c :=
  (W20_of_ne m ρ c main_arg7 (by decide)).trans (w19_arg7 m ρ c hF)
theorem w20_v0 (hF : Reg.Finals) : W20 (F := Ideal) m ρ c (Proc.devRef .tc main_v0) = a1 m c :=
  ((W20_arr m ρ c 0).trans (((dat10 (V19 m ρ) c).arrAt_in 0 rfl _).trans (A_eq10 (V19 m ρ) c 0))).trans (w19_v0 m ρ c hF)
theorem w20_v43 (hF : Reg.Finals) : W20 (F := Ideal) m ρ c (Proc.devRef .tc main_v43) = f2 m c :=
  (W20_of_ne m ρ c main_v43 (by decide)).trans (w19_v43 m ρ c hF)
set_option maxHeartbeats 16000000 in
theorem w20_v53 (hF : Reg.Finals) : W20 (F := Ideal) m ρ c (Proc.devRef .tc main_v53) = x5 m c :=
  (W20_arr m ρ c 5).trans ((hF.agg10 (V19 m ρ) c).trans
    (agg_step (M := 8192) (K := 192) (N := 192) (P := 128) 64 rfl (f2 m c) (a1 m c) (slab (a4 m c) 3) (row (a5 m c) 3)
      (w19_v0 m ρ c hF) (w19_v48_0 m ρ c hF) (w19_v48_1 m ρ c hF) (w19_v50 m ρ c hF) (w19_v52 m ρ c hF)))

/-! ## After the host operations before region 11 -/

theorem w21_arg4 (hF : Reg.Finals) : W21 (F := Ideal) m ρ c (Proc.devRef .tc main_arg4) = a4 m c :=
  (StableHlo.after_of_writes_sub (r := main_arg4) hostOps11 _ hostOps11_writes (by decide)).trans (w20_arg4 m ρ c hF)
theorem w21_arg5 (hF : Reg.Finals) : W21 (F := Ideal) m ρ c (Proc.devRef .tc main_arg5) = a5 m c :=
  (StableHlo.after_of_writes_sub (r := main_arg5) hostOps11 _ hostOps11_writes (by decide)).trans (w20_arg5 m ρ c hF)
theorem w21_arg6 (hF : Reg.Finals) : W21 (F := Ideal) m ρ c (Proc.devRef .tc main_arg6) = a6 m c :=
  (StableHlo.after_of_writes_sub (r := main_arg6) hostOps11 _ hostOps11_writes (by decide)).trans (w20_arg6 m ρ c hF)
theorem w21_arg7 (hF : Reg.Finals) : W21 (F := Ideal) m ρ c (Proc.devRef .tc main_arg7) = a7 m c :=
  (StableHlo.after_of_writes_sub (r := main_arg7) hostOps11 _ hostOps11_writes (by decide)).trans (w20_arg7 m ρ c hF)
theorem w21_v0 (hF : Reg.Finals) : W21 (F := Ideal) m ρ c (Proc.devRef .tc main_v0) = a1 m c :=
  (StableHlo.after_of_writes_sub (r := main_v0) hostOps11 _ hostOps11_writes (by decide)).trans (w20_v0 m ρ c hF)
theorem w21_v43 (hF : Reg.Finals) : W21 (F := Ideal) m ρ c (Proc.devRef .tc main_v43) = f2 m c :=
  (StableHlo.after_of_writes_sub (r := main_v43) hostOps11 _ hostOps11_writes (by decide)).trans (w20_v43 m ρ c hF)
theorem w21_v53 (hF : Reg.Finals) : W21 (F := Ideal) m ρ c (Proc.devRef .tc main_v53) = x5 m c :=
  (StableHlo.after_of_writes_sub (r := main_v53) hostOps11 _ hostOps11_writes (by decide)).trans (w20_v53 m ρ c hF)
theorem w21_v55 (hF : Reg.Finals) : W21 (F := Ideal) m ρ c (Proc.devRef .tc main_v55) = slab (a4 m c) 4 := by
  show StableHlo.after hostOps11 (W20 m ρ c) (Proc.devRef .tc main_v55) = _
  after_results
  rw [w20_arg4 m ρ c hF]
  exact slab_host (a4 m c) 4 (by decide) _ _
theorem w21_v57 (hF : Reg.Finals) : W21 (F := Ideal) m ρ c (Proc.devRef .tc main_v57) = row (a5 m c) 4 := by
  show StableHlo.after hostOps11 (W20 m ρ c) (Proc.devRef .tc main_v57) = _
  after_results
  rw [w20_arg5 m ρ c hF]
  exact row_host (a5 m c) 4 (by decide) _ _

/-! ## After region 11 -/

theorem w22_arg4 (hF : Reg.Finals) : W22 (F := Ideal) m ρ c (Proc.devRef .tc main_arg4) = a4 m c :=
  (W22_of_ne m ρ c main_arg4 (by decide)).trans (w21_arg4 m ρ c hF)
theorem w22_arg5 (hF : Reg.Finals) : W22 (F := Ideal) m ρ c (Proc.devRef .tc main_arg5) = a5 m c :=
  (W22_of_ne m ρ c main_arg5 (by decide)).trans (w21_arg5 m ρ c hF)
theorem w22_arg6 (hF : Reg.Finals) : W22 (F := Ideal) m ρ c (Proc.devRef .tc main_arg6) = a6 m c :=
  (W22_of_ne m ρ c main_arg6 (by decide)).trans (w21_arg6 m ρ c hF)
theorem w22_arg7 (hF : Reg.Finals) : W22 (F := Ideal) m ρ c (Proc.devRef .tc main_arg7) = a7 m c :=
  (W22_of_ne m ρ c main_arg7 (by decide)).trans (w21_arg7 m ρ c hF)
theorem w22_v0 (hF : Reg.Finals) : W22 (F := Ideal) m ρ c (Proc.devRef .tc main_v0) = a1 m c :=
  (W22_of_ne m ρ c main_v0 (by decide)).trans (w21_v0 m ρ c hF)
theorem w22_v43 (hF : Reg.Finals) : W22 (F := Ideal) m ρ c (Proc.devRef .tc main_v43) = f2 m c :=
  (W22_of_ne m ρ c main_v43 (by decide)).trans (w21_v43 m ρ c hF)
theorem w22_v57 (hF : Reg.Finals) : W22 (F := Ideal) m ρ c (Proc.devRef .tc main_v57) = row (a5 m c) 4 :=
  (W22_of_ne m ρ c main_v57 (by decide)).trans (w21_v57 m ρ c hF)
set_option maxHeartbeats 16000000 in
theorem w22_v58_0 (hF : Reg.Finals) : W22 (F := Ideal) m ρ c (Proc.devRef .tc main_v58_0) = supAgg 64 (x5 m c) (slab (a4 m c) 4) :=
  (W22_arr m ρ c 2).trans ((hF.split11a (V21 m ρ) c).trans
    (congrArg₂ (supAgg (M := 8192) (K := 192) (N := 192) 64) (w21_v53 m ρ c hF) (w21_v55 m ρ c hF)))
set_option maxHeartbeats 16000000 in
theorem w22_v58_1 (hF : Reg.Finals) : W22 (F := Ideal) m ρ c (Proc.devRef .tc main_v58_1) = supPass 64 128 (x5 m c) (slab (a4 m c) 4) :=
  (W22_arr m ρ c 3).trans ((hF.split11p (V21 m ρ) c).trans
    (congrArg₂ (supPass (M := 8192) (K := 192) (N := 192) 64 128) (w21_v53 m ρ c hF) (w21_v55 m ρ c hF)))

/-! ## After the host operations before region 12 -/

theorem w23_arg4 (hF : Reg.Finals) : W23 (F := Ideal) m ρ c (Proc.devRef .tc main_arg4) = a4 m c :=
  (StableHlo.after_of_writes_sub (r := main_arg4) hostOps12 _ hostOps12_writes (by decide)).trans (w22_arg4 m ρ c hF)
theorem w23_arg5 (hF : Reg.Finals) : W23 (F := Ideal) m ρ c (Proc.devRef .tc main_arg5) = a5 m c :=
  (StableHlo.after_of_writes_sub (r := main_arg5) hostOps12 _ hostOps12_writes (by decide)).trans (w22_arg5 m ρ c hF)
theorem w23_arg6 (hF : Reg.Finals) : W23 (F := Ideal) m ρ c (Proc.devRef .tc main_arg6) = a6 m c :=
  (StableHlo.after_of_writes_sub (r := main_arg6) hostOps12 _ hostOps12_writes (by decide)).trans (w22_arg6 m ρ c hF)
theorem w23_arg7 (hF : Reg.Finals) : W23 (F := Ideal) m ρ c (Proc.devRef .tc main_arg7) = a7 m c :=
  (StableHlo.after_of_writes_sub (r := main_arg7) hostOps12 _ hostOps12_writes (by decide)).trans (w22_arg7 m ρ c hF)
theorem w23_v0 (hF : Reg.Finals) : W23 (F := Ideal) m ρ c (Proc.devRef .tc main_v0) = a1 m c :=
  (StableHlo.after_of_writes_sub (r := main_v0) hostOps12 _ hostOps12_writes (by decide)).trans (w22_v0 m ρ c hF)
theorem w23_v43 (hF : Reg.Finals) : W23 (F := Ideal) m ρ c (Proc.devRef .tc main_v43) = f2 m c :=
  (StableHlo.after_of_writes_sub (r := main_v43) hostOps12 _ hostOps12_writes (by decide)).trans (w22_v43 m ρ c hF)
theorem w23_v58_0 (hF : Reg.Finals) : W23 (F := Ideal) m ρ c (Proc.devRef .tc main_v58_0) = supAgg 64 (x5 m c) (slab (a4 m c) 4) :=
  (StableHlo.after_of_writes_sub (r := main_v58_0) hostOps12 _ hostOps12_writes (by decide)).trans (w22_v58_0 m ρ c hF)
theorem w23_v58_1 (hF : Reg.Finals) : W23 (F := Ideal) m ρ c (Proc.devRef .tc main_v58_1) = supPass 64 128 (x5 m c) (slab (a4 m c) 4) :=
  (StableHlo.after_of_writes_sub (r := main_v58_1) hostOps12 _ hostOps12_writes (by decide)).trans (w22_v58_1 m ρ c hF)
theorem w23_v60 (hF : Reg.Finals) : W23 (F := Ideal) m ρ c (Proc.devRef .tc main_v60) = piece 64 0 (row (a5 m c) 4) := by
  show StableHlo.after hostOps12 (W22 m ρ c) (Proc.devRef .tc main_v60) = _
  after_results
  rw [w22_v57 m ρ c hF]
  exact piece_host (row (a5 m c) 4) 0 (by decide) _ _
theorem w23_v62 (hF : Reg.Finals) : W23 (F := Ideal) m ρ c (Proc.devRef .tc main_v62) = piece 128 64 (row (a5 m c) 4) := by
  show StableHlo.after hostOps12 (W22 m ρ c) (Proc.devRef .tc main_v62) = _
  after_results
  rw [w22_v57 m ρ c hF]
  exact piece_host (row (a5 m c) 4) 64 (by decide) _ _

/-! ## After region 12 -/

theorem w24_arg4 (hF : Reg.Finals) : W24 (F := Ideal) m ρ c (Proc.devRef .tc main_arg4) = a4 m c :=
  (W24_of_ne m ρ c main_arg4 (by decide)).trans (w23_arg4 m ρ c hF)
theorem w24_arg5 (hF : Reg.Finals) : W24 (F := Ideal) m ρ c (Proc.devRef .tc main_arg5) = a5 m c :=
  (W24_of_ne m ρ c main_arg5 (by decide)).trans (w23_arg5 m ρ c hF)
theorem w24_arg6 (hF : Reg.Finals) : W24 (F := Ideal) m ρ c (Proc.devRef .tc main_arg6) = a6 m c :=
  (W24_of_ne m ρ c main_arg6 (by decide)).trans (w23_arg6 m ρ c hF)
theorem w24_arg7 (hF : Reg.Finals) : W24 (F := Ideal) m ρ c (Proc.devRef .tc main_arg7) = a7 m c :=
  (W24_of_ne m ρ c main_arg7 (by decide)).trans (w23_arg7 m ρ c hF)
theorem w24_v0 (hF : Reg.Finals) : W24 (F := Ideal) m ρ c (Proc.devRef .tc main_v0) = a1 m c :=
  ((W24_arr m ρ c 0).trans (((dat12 (V23 m ρ) c).arrAt_in 0 rfl _).trans (A_eq12 (V23 m ρ) c 0))).trans (w23_v0 m ρ c hF)
theorem w24_v43 (hF : Reg.Finals) : W24 (F := Ideal) m ρ c (Proc.devRef .tc main_v43) = f2 m c :=
  (W24_of_ne m ρ c main_v43 (by decide)).trans (w23_v43 m ρ c hF)
set_option maxHeartbeats 16000000 in
theorem w24_v63 (hF : Reg.Finals) : W24 (F := Ideal) m ρ c (Proc.devRef .tc main_v63) = x6 m c :=
  (W24_arr m ρ c 5).trans ((hF.agg12 (V23 m ρ) c).trans
    (agg_step (M := 8192) (K := 192) (N := 192) (P := 128) 64 rfl (x5 m c) (a1 m c) (slab (a4 m c) 4) (row (a5 m c) 4)
      (w23_v0 m ρ c hF) (w23_v58_0 m ρ c hF) (w23_v58_1 m ρ c hF) (w23_v60 m ρ c hF) (w23_v62 m ρ c hF)))

end Cert.KernelIdeal.Chain

end
-- ==== Proof.KChainD.lean ====
/-
  What the live buffers hold at the boundaries of the kernel program's run, continued: the fourth pair of layers and the averaging step before it (regions 13 to 16).
  The same four kinds of step as before: a buffer carried across a region or across a stretch of host operations, a
  region's output, a host operation's result.
-/
import proofs.«108744_j27797028339962_2_alg».proof.Proof.KChainC

noncomputable section

namespace Cert.KernelIdeal.Chain

open Cert.KernelIdeal Cert.KernelIdeal.Gen Cert.Gcn Cert.Gcn.Forms Idealize.ShloMosaic Idealize.ShloMosaic.TcCoe Idealize.SL.Sem

variable (m : (ℓ : Loc nD τ sig) → Buf (Elt Ideal) ℓ) (ρ : Dev nD → PrngReg) (c : Dev nD)

/-! ## After the host operations before region 13 -/

theorem w25_arg4 (hF : Reg.Finals) : W25 (F := Ideal) m ρ c (Proc.devRef .tc main_arg4) = a4 m c :=
  (StableHlo.after_of_writes_sub (r := main_arg4) hostOps13 _ hostOps13_writes (by decide)).trans (w24_arg4 m ρ c hF)
theorem w25_arg5 (hF : Reg.Finals) : W25 (F := Ideal) m ρ c (Proc.devRef .tc main_arg5) = a5 m c :=
  (StableHlo.after_of_writes_sub (r := main_arg5) hostOps13 _ hostOps13_writes (by decide)).trans (w24_arg5 m ρ c hF)
theorem w25_arg6 (hF : Reg.Finals) : W25 (F := Ideal) m ρ c (Proc.devRef .tc main_arg6) = a6 m c :=
  (StableHlo.after_of_writes_sub (r := main_arg6) hostOps13 _ hostOps13_writes (by decide)).trans (w24_arg6 m ρ c hF)
theorem w25_arg7 (hF : Reg.Finals) : W25 (F := Ideal) m ρ c (Proc.devRef .tc main_arg7) = a7 m c :=
  (StableHlo.after_of_writes_sub (r := main_arg7) hostOps13 _ hostOps13_writes (by decide)).trans (w24_arg7 m ρ c hF)
theorem w25_v0 (hF : Reg.Finals) : W25 (F := Ideal) m ρ c (Proc.devRef .tc main_v0) = a1 m c :=
  (StableHlo.after_of_writes_sub (r := main_v0) hostOps13 _ hostOps13_writes (by decide)).trans (w24_v0 m ρ c hF)
theorem w25_v66 (hF : Reg.Finals) : W25 (F := Ideal) m ρ c (Proc.devRef .tc main_v66) = f3 m c := by
  show StableHlo.after hostOps13 (W24 m ρ c) (Proc.devRef .tc main_v66) = _
  after_results
  rw [w24_v43 m ρ c hF, w24_v63 m ρ c hF]
  exact resid_host _ _ _ _
theorem w25_v68 (hF : Reg.Finals) : W25 (F := Ideal) m ρ c (Proc.devRef .tc main_v68) = slab (a4 m c) 5 := by
  show StableHlo.after hostOps13 (W24 m ρ c) (Proc.devRef .tc main_v68) = _
  after_results
  rw [w24_arg4 m ρ c hF]
  exact slab_host (a4 m c) 5 (by decide) _ _
theorem w25_v70 (hF : Reg.Finals) : W25 (F := Ideal) m ρ c (Proc.devRef .tc main_v70) = row (a5 m c) 5 := by
  show StableHlo.after hostOps13 (W24 m ρ c) (Proc.devRef .tc main_v70) = _
  after_results
  rw [w24_arg5 m ρ c hF]
  exact row_host (a5 m c) 5 (by decide) _ _

/-! ## After region 13 -/

theorem w26_arg4 (hF : Reg.Finals) : W26 (F := Ideal) m ρ c (Proc.devRef .tc main_arg4) = a4 m c :=
  (W26_of_ne m ρ c main_arg4 (by decide)).trans (w25_arg4 m ρ c hF)
theorem w26_arg5 (hF : Reg.Finals) : W26 (F := Ideal) m ρ c (Proc.devRef .tc main_arg5) = a5 m c :=
  (W26_of_ne m ρ c main_arg5 (by decide)).trans (w25_arg5 m ρ c hF)
theorem w26_arg6 (hF : Reg.Finals) : W26 (F := Ideal) m ρ c (Proc.devRef .tc main_arg6) = a6 m c :=
  (W26_of_ne m ρ c main_arg6 (by decide)).trans (w25_arg6 m ρ c hF)
theorem w26_arg7 (hF : Reg.Finals) : W26 (F := Ideal) m ρ c (Proc.devRef .tc main_arg7) = a7 m c :=
  (W26_of_ne m ρ c main_arg7 (by decide)).trans (w25_arg7 m ρ c hF)
theorem w26_v0 (hF : Reg.Finals) : W26 (F := Ideal) m ρ c (Proc.devRef .tc main_v0) = a1 m c :=
  (W26_of_ne m ρ c main_v0 (by decide)).trans (w25_v0 m ρ c hF)
theorem w26_v66 (hF : Reg.Finals) : W26 (F := Ideal) m ρ c (Proc.devRef .tc main_v66) = f3 m c :=
  ((W26_arr m ρ c 0).trans (((dat13 (V25 m ρ) c).arrAt_in 0 rfl _).trans (A_eq13 (V25 m ρ) c 0))).trans (w25_v66 m ρ c hF)
theorem w26_v70 (hF : Reg.Finals) : W26 (F := Ideal) m ρ c (Proc.devRef .tc main_v70) = row (a5 m c) 5 :=
  (W26_of_ne m ρ c main_v70 (by decide)).trans (w25_v70 m ρ c hF)
set_option maxHeartbeats 16000000 in
theorem w26_v71_0 (hF : Reg.Finals) : W26 (F := Ideal) m ρ c (Proc.devRef .tc main_v71_0) = supAgg 64 (f3 m c) (slab (a4 m c) 5) :=
  (W26_arr m ρ c 2).trans ((hF.split13a (V25 m ρ) c).trans
    (congrArg₂ (supAgg (M := 8192) (K := 192) (N := 192) 64) (w25_v66 m ρ c hF) (w25_v68 m ρ c hF)))
set_option maxHeartbeats 16000000 in
theorem w26_v71_1 (hF : Reg.Finals) : W26 (F := Ideal) m ρ c (Proc.devRef .tc main_v71_1) = supPass 64 128 (f3 m c) (slab (a4 m c) 5) :=
  (W26_arr m ρ c 3).trans ((hF.split13p (V25 m ρ) c).trans
    (congrArg₂ (supPass (M := 8192) (K := 192) (N := 192) 64 128) (w25_v66 m ρ c hF) (w25_v68 m ρ c hF)))

/-! ## After the host operations before region 14 -/

theorem w27_arg4 (hF : Reg.Finals) : W27 (F := Ideal) m ρ c (Proc.devRef .tc main_arg4) = a4 m c :=
  (StableHlo.after_of_writes_sub (r := main_arg4) hostOps14 _ hostOps14_writes (by decide)).trans (w26_arg4 m ρ c hF)
theorem w27_arg5 (hF : Reg.Finals) : W27 (F := Ideal) m ρ c (Proc.devRef .tc main_arg5) = a5 m c :=
  (StableHlo.after_of_writes_sub (r := main_arg5) hostOps14 _ hostOps14_writes (by decide)).trans (w26_arg5 m ρ c hF)
theorem w27_arg6 (hF : Reg.Finals) : W27 (F := Ideal) m ρ c (Proc.devRef .tc main_arg6) = a6 m c :=
  (StableHlo.after_of_writes_sub (r := main_arg6) hostOps14 _ hostOps14_writes (by decide)).trans (w26_arg6 m ρ c hF)
theorem w27_arg7 (hF : Reg.Finals) : W27 (F := Ideal) m ρ c (Proc.devRef .tc main_arg7) = a7 m c :=
  (StableHlo.after_of_writes_sub (r := main_arg7) hostOps14 _ hostOps14_writes (by decide)).trans (w26_arg7 m ρ c hF)
theorem w27_v0 (hF : Reg.Finals) : W27 (F := Ideal) m ρ c (Proc.devRef .tc main_v0) = a1 m c :=
  (StableHlo.after_of_writes_sub (r := main_v0) hostOps14 _ hostOps14_writes (by decide)).trans (w26_v0 m ρ c hF)
theorem w27_v66 (hF : Reg.Finals) : W27 (F := Ideal) m ρ c (Proc.devRef .tc main_v66) = f3 m c :=
  (StableHlo.after_of_writes_sub (r := main_v66) hostOps14 _ hostOps14_writes (by decide)).trans (w26_v66 m ρ c hF)
theorem w27_v71_0 (hF : Reg.Finals) : W27 (F := Ideal) m ρ c (Proc.devRef .tc main_v71_0) = supAgg 64 (f3 m c) (slab (a4 m c) 5) :=
  (StableHlo.after_of_writes_sub (r := main_v71_0) hostOps14 _ hostOps14_writes (by decide)).trans (w26_v71_0 m ρ c hF)
theorem w27_v71_1 (hF : Reg.Finals) : W27 (F := Ideal) m ρ c (Proc.devRef .tc main_v71_1) = supPass 64 128 (f3 m c) (slab (a4 m c) 5) :=
  (StableHlo.after_of_writes_sub (r := main_v71_1) hostOps14 _ hostOps14_writes (by decide)).trans (w26_v71_1 m ρ c hF)
theorem w27_v73 (hF : Reg.Finals) : W27 (F := Ideal) m ρ c (Proc.devRef .tc main_v73) = piece 64 0 (row (a5 m c) 5) := by
  show StableHlo.after hostOps14 (W26 m ρ c) (Proc.devRef .tc main_v73) = _
  after_results
  rw [w26_v70 m ρ c hF]
  exact piece_host (row (a5 m c) 5) 0 (by decide) _ _
theorem w27_v75 (hF : Reg.Finals) : W27 (F := Ideal) m ρ c (Proc.devRef .tc main_v75) = piece 128 64 (row (a5 m c) 5) := by
  show StableHlo.after hostOps14 (W26 m ρ c) (Proc.devRef .tc main_v75) = _
  after_results
  rw [w26_v70 m ρ c hF]
  exact piece_host (row (a5 m c) 5) 64 (by decide) _ _

/-! ## After region 14 -/

theorem w28_arg4 (hF : Reg.Finals) : W28 (F := Ideal) m ρ c (Proc.devRef .tc main_arg4) = a4 m c :=
  (W28_of_ne m ρ c main_arg4 (by decide)).trans (w27_arg4 m ρ c hF)
theorem w28_arg5 (hF : Reg.Finals) : W28 (F := Ideal) m ρ c (Proc.devRef .tc main_arg5) = a5 m c :=
  (W28_of_ne m ρ c main_arg5 (by decide)).trans (w27_arg5 m ρ c hF)
theorem w28_arg6 (hF : Reg.Finals) : W28 (F := Ideal) m ρ c (Proc.devRef .tc main_arg6) = a6 m c :=
  (W28_of_ne m ρ c main_arg6 (by decide)).trans (w27_arg6 m ρ c hF)
theorem w28_arg7 (hF : Reg.Finals) : W28 (F := Ideal) m ρ c (Proc.devRef .tc main_arg7) = a7 m c :=
  (W28_of_ne m ρ c main_arg7 (by decide)).trans (w27_arg7 m ρ c hF)
theorem w28_v0 (hF : Reg.Finals) : W28 (F := Ideal) m ρ c (Proc.devRef .tc main_v0) = a1 m c :=
  ((W28_arr m ρ c 0).trans (((dat14 (V27 m ρ) c).arrAt_in 0 rfl _).trans (A_eq14 (V27 m ρ) c 0))).trans (w27_v0 m ρ c hF)
theorem w28_v66 (hF : Reg.Finals) : W28 (F := Ideal) m ρ c (Proc.devRef .tc main_v66) = f3 m c :=
  (W28_of_ne m ρ c main_v66 (by decide)).trans (w27_v66 m ρ c hF)
set_option maxHeartbeats 16000000 in
theorem w28_v76 (hF : Reg.Finals) : W28 (F := Ideal) m ρ c (Proc.devRef .tc main_v76) = x7 m c :=
  (W28_arr m ρ c 5).trans ((hF.agg14 (V27 m ρ) c).trans
    (agg_step (M := 8192) (K := 192) (N := 192) (P := 128) 64 rfl (f3 m c) (a1 m c) (slab (a4 m c) 5) (row (a5 m c) 5)
      (w27_v0 m ρ c hF) (w27_v71_0 m ρ c hF) (w27_v71_1 m ρ c hF) (w27_v73 m ρ c hF) (w27_v75 m ρ c hF)))

/-! ## After the host operations before region 15 -/

theorem w29_arg4 (hF : Reg.Finals) : W29 (F := Ideal) m ρ c (Proc.devRef .tc main_arg4) = a4 m c :=
  (StableHlo.after_of_writes_sub (r := main_arg4) hostOps15 _ hostOps15_writes (by decide)).trans (w28_arg4 m ρ c hF)
theorem w29_arg5 (hF : Reg.Finals) : W29 (F := Ideal) m ρ c (Proc.devRef .tc main_arg5) = a5 m c :=
  (StableHlo.after_of_writes_sub (r := main_arg5) hostOps15 _ hostOps15_writes (by decide)).trans (w28_arg5 m ρ c hF)
theorem w29_arg6 (hF : Reg.Finals) : W29 (F := Ideal) m ρ c (Proc.devRef .tc main_arg6) = a6 m c :=
  (StableHlo.after_of_writes_sub (r := main_arg6) hostOps15 _ hostOps15_writes (by decide)).trans (w28_arg6 m ρ c hF)
theorem w29_arg7 (hF : Reg.Finals) : W29 (F := Ideal) m ρ c (Proc.devRef .tc main_arg7) = a7 m c :=
  (StableHlo.after_of_writes_sub (r := main_arg7) hostOps15 _ hostOps15_writes (by decide)).trans (w28_arg7 m ρ c hF)
theorem w29_v0 (hF : Reg.Finals) : W29 (F := Ideal) m ρ c (Proc.devRef .tc main_v0) = a1 m c :=
  (StableHlo.after_of_writes_sub (r := main_v0) hostOps15 _ hostOps15_writes (by decide)).trans (w28_v0 m ρ c hF)
theorem w29_v66 (hF : Reg.Finals) : W29 (F := Ideal) m ρ c (Proc.devRef .tc main_v66) = f3 m c :=
  (StableHlo.after_of_writes_sub (r := main_v66) hostOps15 _ hostOps15_writes (by decide)).trans (w28_v66 m ρ c hF)
theorem w29_v76 (hF : Reg.Finals) : W29 (F := Ideal) m ρ c (Proc.devRef .tc main_v76) = x7 m c :=
  (StableHlo.after_of_writes_sub (r := main_v76) hostOps15 _ hostOps15_writes (by decide)).trans (w28_v76 m ρ c hF)
theorem w29_v78 (hF : Reg.Finals) : W29 (F := Ideal) m ρ c (Proc.devRef .tc main_v78) = slab (a4 m c) 6 := by
  show StableHlo.after hostOps15 (W28 m ρ c) (Proc.devRef .tc main_v78) = _
  after_results
  rw [w28_arg4 m ρ c hF]
  exact slab_host (a4 m c) 6 (by decide) _ _
theorem w29_v80 (hF : Reg.Finals) : W29 (F := Ideal) m ρ c (Proc.devRef .tc main_v80) = row (a5 m c) 6 := by
  show StableHlo.after hostOps15 (W28 m ρ c) (Proc.devRef .tc main_v80) = _
  after_results
  rw [w28_arg5 m ρ c hF]
  exact row_host (a5 m c) 6 (by decide) _ _

/-! ## After region 15 -/

theorem w30_arg4 (hF : Reg.Finals) : W30 (F := Ideal) m ρ c (Proc.devRef .tc main_arg4) = a4 m c :=
  (W30_of_ne m ρ c main_arg4 (by decide)).trans (w29_arg4 m ρ c hF)
theorem w30_arg5 (hF : Reg.Finals) : W30 (F := Ideal) m ρ c (Proc.devRef .tc main_arg5) = a5 m c :=
  (W30_of_ne m ρ c main_arg5 (by decide)).trans (w29_arg5 m ρ c hF)
theorem w30_arg6 (hF : Reg.Finals) : W30 (F := Ideal) m ρ c (Proc.devRef .tc main_arg6) = a6 m c :=
  (W30_of_ne m ρ c main_arg6 (by decide)).trans (w29_arg6 m ρ c hF)
theorem w30_arg7 (hF : Reg.Finals) : W30 (F := Ideal) m ρ c (Proc.devRef .tc main_arg7) = a7 m c :=
  (W30_of_ne m ρ c main_arg7 (by decide)).trans (w29_arg7 m ρ c hF)
theorem w30_v0 (hF : Reg.Finals) : W30 (F := Ideal) m ρ c (Proc.devRef .tc main_v0) = a1 m c :=
  (W30_of_ne m ρ c main_v0 (by decide)).trans (w29_v0 m ρ c hF)
theorem w30_v66 (hF : Reg.Finals) : W30 (F := Ideal) m ρ c (Proc.devRef .tc main_v66) = f3 m c :=
  (W30_of_ne m ρ c main_v66 (by decide)).trans (w29_v66 m ρ c hF)
theorem w30_v80 (hF : Reg.Finals) : W30 (F := Ideal) m ρ c (Proc.devRef .tc main_v80) = row (a5 m c) 6 :=
  (W30_of_ne m ρ c main_v80 (by decide)).trans (w29_v80 m ρ c hF)
set_option maxHeartbeats 16000000 in
theorem w30_v81_0 (hF : Reg.Finals) : W30 (F := Ideal) m ρ c (Proc.devRef .tc main_v81_0) = supAgg 64 (x7 m c) (slab (a4 m c) 6) :=
  (W30_arr m ρ c 2).trans ((hF.split15a (V29 m ρ) c).trans
    (congrArg₂ (supAgg (M := 8192) (K := 192) (N := 192) 64) (w29_v76 m ρ c hF) (w29_v78 m ρ c hF)))
set_option maxHeartbeats 16000000 in
theorem w30_v81_1 (hF : Reg.Finals) : W30 (F := Ideal) m ρ c (Proc.devRef .tc main_v81_1) = supPass 64 128 (x7 m c) (slab (a4 m c) 6) :=
  (W30_arr m ρ c 3).trans ((hF.split15p (V29 m ρ) c).trans
    (congrArg₂ (supPass (M := 8192) (K := 192) (N := 192) 64 128) (w29_v76 m ρ c hF) (w29_v78 m ρ c hF)))

/-! ## After the host operations before region 16 -/

theorem w31_arg4 (hF : Reg.Finals) : W31 (F := Ideal) m ρ c (Proc.devRef .tc main_arg4) = a4 m c :=
  (StableHlo.after_of_writes_sub (r := main_arg4) hostOps16 _ hostOps16_writes (by decide)).trans (w30_arg4 m ρ c hF)
theorem w31_arg5 (hF : Reg.Finals) : W31 (F := Ideal) m ρ c (Proc.devRef .tc main_arg5) = a5 m c :=
  (StableHlo.after_of_writes_sub (r := main_arg5) hostOps16 _ hostOps16_writes (by decide)).trans (w30_arg5 m ρ c hF)
theorem w31_arg6 (hF : Reg.Finals) : W31 (F := Ideal) m ρ c (Proc.devRef .tc main_arg6) = a6 m c :=
  (StableHlo.after_of_writes_sub (r := main_arg6) hostOps16 _ hostOps16_writes (by decide)).trans (w30_arg6 m ρ c hF)
theorem w31_arg7 (hF : Reg.Finals) : W31 (F := Ideal) m ρ c (Proc.devRef .tc main_arg7) = a7 m c :=
  (StableHlo.after_of_writes_sub (r := main_arg7) hostOps16 _ hostOps16_writes (by decide)).trans (w30_arg7 m ρ c hF)
theorem w31_v0 (hF : Reg.Finals) : W31 (F := Ideal) m ρ c (Proc.devRef .tc main_v0) = a1 m c :=
  (StableHlo.after_of_writes_sub (r := main_v0) hostOps16 _ hostOps16_writes (by decide)).trans (w30_v0 m ρ c hF)
theorem w31_v66 (hF : Reg.Finals) : W31 (F := Ideal) m ρ c (Proc.devRef .tc main_v66) = f3 m c :=
  (StableHlo.after_of_writes_sub (r := main_v66) hostOps16 _ hostOps16_writes (by decide)).trans (w30_v66 m ρ c hF)
theorem w31_v81_0 (hF : Reg.Finals) : W31 (F := Ideal) m ρ c (Proc.devRef .tc main_v81_0) = supAgg 64 (x7 m c) (slab (a4 m c) 6) :=
  (StableHlo.after_of_writes_sub (r := main_v81_0) hostOps16 _ hostOps16_writes (by decide)).trans (w30_v81_0 m ρ c hF)
theorem w31_v81_1 (hF : Reg.Finals) : W31 (F := Ideal) m ρ c (Proc.devRef .tc main_v81_1) = supPass 64 128 (x7 m c) (slab (a4 m c) 6) :=
  (StableHlo.after_of_writes_sub (r := main_v81_1) hostOps16 _ hostOps16_writes (by decide)).trans (w30_v81_1 m ρ c hF)
theorem w31_v83 (hF : Reg.Finals) : W31 (F := Ideal) m ρ c (Proc.devRef .tc main_v83) = piece 64 0 (row (a5 m c) 6) := by
  show StableHlo.after hostOps16 (W30 m ρ c) (Proc.devRef .tc main_v83) = _
  after_results
  rw [w30_v80 m ρ c hF]
  exact piece_host (row (a5 m c) 6) 0 (by decide) _ _
theorem w31_v85 (hF : Reg.Finals) : W31 (F := Ideal) m ρ c (Proc.devRef .tc main_v85) = piece 128 64 (row (a5 m c) 6) := by
  show StableHlo.after hostOps16 (W30 m ρ c) (Proc.devRef .tc main_v85) = _
  after_results
  rw [w30_v80 m ρ c hF]
  exact piece_host (row (a5 m c) 6) 64 (by decide) _ _

/-! ## After region 16 -/

theorem w32_arg4 (hF : Reg.Finals) : W32 (F := Ideal) m ρ c (Proc.devRef .tc main_arg4) = a4 m c :=
  (W32_of_ne m ρ c main_arg4 (by decide)).trans (w31_arg4 m ρ c hF)
theorem w32_arg5 (hF : Reg.Finals) : W32 (F := Ideal) m ρ c (Proc.devRef .tc main_arg5) = a5 m c :=
  (W32_of_ne m ρ c main_arg5 (by decide)).trans (w31_arg5 m ρ c hF)
theorem w32_arg6 (hF : Reg.Finals) : W32 (F := Ideal) m ρ c (Proc.devRef .tc main_arg6) = a6 m c :=
  (W32_of_ne m ρ c main_arg6 (by decide)).trans (w31_arg6 m ρ c hF)
theorem w32_arg7 (hF : Reg.Finals) : W32 (F := Ideal) m ρ c (Proc.devRef .tc main_arg7) = a7 m c :=
  (W32_of_ne m ρ c main_arg7 (by decide)).trans (w31_arg7 m ρ c hF)
theorem w32_v0 (hF : Reg.Finals) : W32 (F := Ideal) m ρ c (Proc.devRef .tc main_v0) = a1 m c :=
  ((W32_arr m ρ c 0).trans (((dat16 (V31 m ρ) c).arrAt_in 0 rfl _).trans (A_eq16 (V31 m ρ) c 0))).trans (w31_v0 m ρ c hF)
theorem w32_v66 (hF : Reg.Finals) : W32 (F := Ideal) m ρ c (Proc.devRef .tc main_v66) = f3 m c :=
  (W32_of_ne m ρ c main_v66 (by decide)).trans (w31_v66 m ρ c hF)
set_option maxHeartbeats 16000000 in
theorem w32_v86 (hF : Reg.Finals) : W32 (F := Ideal) m ρ c (Proc.devRef .tc main_v86) = x8 m c :=
  (W32_arr m ρ c 5).trans ((hF.agg16 (V31 m ρ) c).trans
    (agg_step (M := 8192) (K := 192) (N := 192) (P := 128) 64 rfl (x7 m c) (a1 m c) (slab (a4 m c) 6) (row (a5 m c) 6)
      (w31_v0 m ρ c hF) (w31_v81_0 m ρ c hF) (w31_v81_1 m ρ c hF) (w31_v83 m ρ c hF) (w31_v85 m ρ c hF)))

end Cert.KernelIdeal.Chain

end
-- ==== Proof.KChainE.lean ====
/-
  What the live buffers hold at the boundaries of the kernel program's run, continued: the fifth pair of layers and the averaging step before it (regions 17 to 20).
  The same four kinds of step as before: a buffer carried across a region or across a stretch of host operations, a
  region's output, a host operation's result.
-/
import proofs.«108744_j27797028339962_2_alg».proof.Proof.KChainD

noncomputable section

namespace Cert.KernelIdeal.Chain

open Cert.KernelIdeal Cert.KernelIdeal.Gen Cert.Gcn Cert.Gcn.Forms Idealize.ShloMosaic Idealize.ShloMosaic.TcCoe Idealize.SL.Sem

variable (m : (ℓ : Loc nD τ sig) → Buf (Elt Ideal) ℓ) (ρ : Dev nD → PrngReg) (c : Dev nD)

/-! ## After the host operations before region 17 -/

theorem w33_arg4 (hF : Reg.Finals) : W33 (F := Ideal) m ρ c (Proc.devRef .tc main_arg4) = a4 m c :=
  (StableHlo.after_of_writes_sub (r := main_arg4) hostOps17 _ hostOps17_writes (by decide)).trans (w32_arg4 m ρ c hF)
theorem w33_arg5 (hF : Reg.Finals) : W33 (F := Ideal) m ρ c (Proc.devRef .tc main_arg5) = a5 m c :=
  (StableHlo.after_of_writes_sub (r := main_arg5) hostOps17 _ hostOps17_writes (by decide)).trans (w32_arg5 m ρ c hF)
theorem w33_arg6 (hF : Reg.Finals) : W33 (F := Ideal) m ρ c (Proc.devRef .tc main_arg6) = a6 m c :=
  (StableHlo.after_of_writes_sub (r := main_arg6) hostOps17 _ hostOps17_writes (by decide)).trans (w32_arg6 m ρ c hF)
theorem w33_arg7 (hF : Reg.Finals) : W33 (F := Ideal) m ρ c (Proc.devRef .tc main_arg7) = a7 m c :=
  (StableHlo.after_of_writes_sub (r := main_arg7) hostOps17 _ hostOps17_writes (by decide)).trans (w32_arg7 m ρ c hF)
theorem w33_v0 (hF : Reg.Finals) : W33 (F := Ideal) m ρ c (Proc.devRef .tc main_v0) = a1 m c :=
  (StableHlo.after_of_writes_sub (r := main_v0) hostOps17 _ hostOps17_writes (by decide)).trans (w32_v0 m ρ c hF)
theorem w33_v89 (hF : Reg.Finals) : W33 (F := Ideal) m ρ c (Proc.devRef .tc main_v89) = f4 m c := by
  show StableHlo.after hostOps17 (W32 m ρ c) (Proc.devRef .tc main_v89) = _
  after_results
  rw [w32_v66 m ρ c hF, w32_v86 m ρ c hF]
  exact resid_host _ _ _ _
theorem w33_v91 (hF : Reg.Finals) : W33 (F := Ideal) m ρ c (Proc.devRef .tc main_v91) = slab (a4 m c) 7 := by
  show StableHlo.after hostOps17 (W32 m ρ c) (Proc.devRef .tc main_v91) = _
  after_results
  rw [w32_arg4 m ρ c hF]
  exact slab_host (a4 m c) 7 (by decide) _ _
theorem w33_v93 (hF : Reg.Finals) : W33 (F := Ideal) m ρ c (Proc.devRef .tc main_v93) = row (a5 m c) 7 := by
  show StableHlo.after hostOps17 (W32 m ρ c) (Proc.devRef .tc main_v93) = _
  after_results
  rw [w32_arg5 m ρ c hF]
  exact row_host (a5 m c) 7 (by decide) _ _

/-! ## After region 17 -/

theorem w34_arg4 (hF : Reg.Finals) : W34 (F := Ideal) m ρ c (Proc.devRef .tc main_arg4) = a4 m c :=
  (W34_of_ne m ρ c main_arg4 (by decide)).trans (w33_arg4 m ρ c hF)
theorem w34_arg5 (hF : Reg.Finals) : W34 (F := Ideal) m ρ c (Proc.devRef .tc main_arg5) = a5 m c :=
  (W34_of_ne m ρ c main_arg5 (by decide)).trans (w33_arg5 m ρ c hF)
theorem w34_arg6 (hF : Reg.Finals) : W34 (F := Ideal) m ρ c (Proc.devRef .tc main_arg6) = a6 m c :=
  (W34_of_ne m ρ c main_arg6 (by decide)).trans (w33_arg6 m ρ c hF)
theorem w34_arg7 (hF : Reg.Finals) : W34 (F := Ideal) m ρ c (Proc.devRef .tc main_arg7) = a7 m c :=
  (W34_of_ne m ρ c main_arg7 (by decide)).trans (w33_arg7 m ρ c hF)
theorem w34_v0 (hF : Reg.Finals) : W34 (F := Ideal) m ρ c (Proc.devRef .tc main_v0) = a1 m c :=
  (W34_of_ne m ρ c main_v0 (by decide)).trans (w33_v0 m ρ c hF)
theorem w34_v89 (hF : Reg.Finals) : W34 (F := Ideal) m ρ c (Proc.devRef .tc main_v89) = f4 m c :=
  ((W34_arr m ρ c 0).trans (((dat17 (V33 m ρ) c).arrAt_in 0 rfl _).trans (A_eq17 (V33 m ρ) c 0))).trans (w33_v89 m ρ c hF)
theorem w34_v93 (hF : Reg.Finals) : W34 (F := Ideal) m ρ c (Proc.devRef .tc main_v93) = row (a5 m c) 7 :=
  (W34_of_ne m ρ c main_v93 (by decide)).trans (w33_v93 m ρ c hF)
set_option maxHeartbeats 16000000 in
theorem w34_v94_0 (hF : Reg.Finals) : W34 (F := Ideal) m ρ c (Proc.devRef .tc main_v94_0) = supAgg 64 (f4 m c) (slab (a4 m c) 7) :=
  (W34_arr m ρ c 2).trans ((hF.split17a (V33 m ρ) c).trans
    (congrArg₂ (supAgg (M := 8192) (K := 192) (N := 192) 64) (w33_v89 m ρ c hF) (w33_v91 m ρ c hF)))
set_option maxHeartbeats 16000000 in
theorem w34_v94_1 (hF : Reg.Finals) : W34 (F := Ideal) m ρ c (Proc.devRef .tc main_v94_1) = supPass 64 128 (f4 m c) (slab (a4 m c) 7) :=
  (W34_arr m ρ c 3).trans ((hF.split17p (V33 m ρ) c).trans
    (congrArg₂ (supPass (M := 8192) (K := 192) (N := 192) 64 128) (w33_v89 m ρ c hF) (w33_v91 m ρ c hF)))

/-! ## After the host operations before region 18 -/

theorem w35_arg4 (hF : Reg.Finals) : W35 (F := Ideal) m ρ c (Proc.devRef .tc main_arg4) = a4 m c :=
  (StableHlo.after_of_writes_sub (r := main_arg4) hostOps18 _ hostOps18_writes (by decide)).trans (w34_arg4 m ρ c hF)
theorem w35_arg5 (hF : Reg.Finals) : W35 (F := Ideal) m ρ c (Proc.devRef .tc main_arg5) = a5 m c :=
  (StableHlo.after_of_writes_sub (r := main_arg5) hostOps18 _ hostOps18_writes (by decide)).trans (w34_arg5 m ρ c hF)
theorem w35_arg6 (hF : Reg.Finals) : W35 (F := Ideal) m ρ c (Proc.devRef .tc main_arg6) = a6 m c :=
  (StableHlo.after_of_writes_sub (r := main_arg6) hostOps18 _ hostOps18_writes (by decide)).trans (w34_arg6 m ρ c hF)
theorem w35_arg7 (hF : Reg.Finals) : W35 (F := Ideal) m ρ c (Proc.devRef .tc main_arg7) = a7 m c :=
  (StableHlo.after_of_writes_sub (r := main_arg7) hostOps18 _ hostOps18_writes (by decide)).trans (w34_arg7 m ρ c hF)
theorem w35_v0 (hF : Reg.Finals) : W35 (F := Ideal) m ρ c (Proc.devRef .tc main_v0) = a1 m c :=
  (StableHlo.after_of_writes_sub (r := main_v0) hostOps18 _ hostOps18_writes (by decide)).trans (w34_v0 m ρ c hF)
theorem w35_v89 (hF : Reg.Finals) : W35 (F := Ideal) m ρ c (Proc.devRef .tc main_v89) = f4 m c :=
  (StableHlo.after_of_writes_sub (r := main_v89) hostOps18 _ hostOps18_writes (by decide)).trans (w34_v89 m ρ c hF)
theorem w35_v94_0 (hF : Reg.Finals) : W35 (F := Ideal) m ρ c (Proc.devRef .tc main_v94_0) = supAgg 64 (f4 m c) (slab (a4 m c) 7) :=
  (StableHlo.after_of_writes_sub (r := main_v94_0) hostOps18 _ hostOps18_writes (by decide)).trans (w34_v94_0 m ρ c hF)
theorem w35_v94_1 (hF : Reg.Finals) : W35 (F := Ideal) m ρ c (Proc.devRef .tc main_v94_1) = supPass 64 128 (f4 m c) (slab (a4 m c) 7) :=
  (StableHlo.after_of_writes_sub (r := main_v94_1) hostOps18 _ hostOps18_writes (by decide)).trans (w34_v94_1 m ρ c hF)
theorem w35_v96 (hF : Reg.Finals) : W35 (F := Ideal) m ρ c (Proc.devRef .tc main_v96) = piece 64 0 (row (a5 m c) 7) := by
  show StableHlo.after hostOps18 (W34 m ρ c) (Proc.devRef .tc main_v96) = _
  after_results
  rw [w34_v93 m ρ c hF]
  exact piece_host (row (a5 m c) 7) 0 (by decide) _ _
theorem w35_v98 (hF : Reg.Finals) : W35 (F := Ideal) m ρ c (Proc.devRef .tc main_v98) = piece 128 64 (row (a5 m c) 7) := by
  show StableHlo.after hostOps18 (W34 m ρ c) (Proc.devRef .tc main_v98) = _
  after_results
  rw [w34_v93 m ρ c hF]
  exact piece_host (row (a5 m c) 7) 64 (by decide) _ _

/-! ## After region 18 -/

theorem w36_arg4 (hF : Reg.Finals) : W36 (F := Ideal) m ρ c (Proc.devRef .tc main_arg4) = a4 m c :=
  (W36_of_ne m ρ c main_arg4 (by decide)).trans (w35_arg4 m ρ c hF)
theorem w36_arg5 (hF : Reg.Finals) : W36 (F := Ideal) m ρ c (Proc.devRef .tc main_arg5) = a5 m c :=
  (W36_of_ne m ρ c main_arg5 (by decide)).trans (w35_arg5 m ρ c hF)
theorem w36_arg6 (hF : Reg.Finals) : W36 (F := Ideal) m ρ c (Proc.devRef .tc main_arg6) = a6 m c :=
  (W36_of_ne m ρ c main_arg6 (by decide)).trans (w35_arg6 m ρ c hF)
theorem w36_arg7 (hF : Reg.Finals) : W36 (F := Ideal) m ρ c (Proc.devRef .tc main_arg7) = a7 m c :=
  (W36_of_ne m ρ c main_arg7 (by decide)).trans (w35_arg7 m ρ c hF)
theorem w36_v0 (hF : Reg.Finals) : W36 (F := Ideal) m ρ c (Proc.devRef .tc main_v0) = a1 m c :=
  ((W36_arr m ρ c 0).trans (((dat18 (V35 m ρ) c).arrAt_in 0 rfl _).trans (A_eq18 (V35 m ρ) c 0))).trans (w35_v0 m ρ c hF)
theorem w36_v89 (hF : Reg.Finals) : W36 (F := Ideal) m ρ c (Proc.devRef .tc main_v89) = f4 m c :=
  (W36_of_ne m ρ c main_v89 (by decide)).trans (w35_v89 m ρ c hF)
set_option maxHeartbeats 16000000 in
theorem w36_v99 (hF : Reg.Finals) : W36 (F := Ideal) m ρ c (Proc.devRef .tc main_v99) = x9 m c :=
  (W36_arr m ρ c 5).trans ((hF.agg18 (V35 m ρ) c).trans
    (agg_step (M := 8192) (K := 192) (N := 192) (P := 128) 64 rfl (f4 m c) (a1 m c) (slab (a4 m c) 7) (row (a5 m c) 7)
      (w35_v0 m ρ c hF) (w35_v94_0 m ρ c hF) (w35_v94_1 m ρ c hF) (w35_v96 m ρ c hF) (w35_v98 m ρ c hF)))

/-! ## After the host operations before region 19 -/

theorem w37_arg4 (hF : Reg.Finals) : W37 (F := Ideal) m ρ c (Proc.devRef .tc main_arg4) = a4 m c :=
  (StableHlo.after_of_writes_sub (r := main_arg4) hostOps19 _ hostOps19_writes (by decide)).trans (w36_arg4 m ρ c hF)
theorem w37_arg5 (hF : Reg.Finals) : W37 (F := Ideal) m ρ c (Proc.devRef .tc main_arg5) = a5 m c :=
  (StableHlo.after_of_writes_sub (r := main_arg5) hostOps19 _ hostOps19_writes (by decide)).trans (w36_arg5 m ρ c hF)
theorem w37_arg6 (hF : Reg.Finals) : W37 (F := Ideal) m ρ c (Proc.devRef .tc main_arg6) = a6 m c :=
  (StableHlo.after_of_writes_sub (r := main_arg6) hostOps19 _ hostOps19_writes (by decide)).trans (w36_arg6 m ρ c hF)
theorem w37_arg7 (hF : Reg.Finals) : W37 (F := Ideal) m ρ c (Proc.devRef .tc main_arg7) = a7 m c :=
  (StableHlo.after_of_writes_sub (r := main_arg7) hostOps19 _ hostOps19_writes (by decide)).trans (w36_arg7 m ρ c hF)
theorem w37_v0 (hF : Reg.Finals) : W37 (F := Ideal) m ρ c (Proc.devRef .tc main_v0) = a1 m c :=
  (StableHlo.after_of_writes_sub (r := main_v0) hostOps19 _ hostOps19_writes (by decide)).trans (w36_v0 m ρ c hF)
theorem w37_v89 (hF : Reg.Finals) : W37 (F := Ideal) m ρ c (Proc.devRef .tc main_v89) = f4 m c :=
  (StableHlo.after_of_writes_sub (r := main_v89) hostOps19 _ hostOps19_writes (by decide)).trans (w36_v89 m ρ c hF)
theorem w37_v99 (hF : Reg.Finals) : W37 (F := Ideal) m ρ c (Proc.devRef .tc main_v99) = x9 m c :=
  (StableHlo.after_of_writes_sub (r := main_v99) hostOps19 _ hostOps19_writes (by decide)).trans (w36_v99 m ρ c hF)
theorem w37_v101 (hF : Reg.Finals) : W37 (F := Ideal) m ρ c (Proc.devRef .tc main_v101) = slab (a4 m c) 8 := by
  show StableHlo.after hostOps19 (W36 m ρ c) (Proc.devRef .tc main_v101) = _
  after_results
  rw [w36_arg4 m ρ c hF]
  exact slab_host (a4 m c) 8 (by decide) _ _
theorem w37_v103 (hF : Reg.Finals) : W37 (F := Ideal) m ρ c (Proc.devRef .tc main_v103) = row (a5 m c) 8 := by
  show StableHlo.after hostOps19 (W36 m ρ c) (Proc.devRef .tc main_v103) = _
  after_results
  rw [w36_arg5 m ρ c hF]
  exact row_host (a5 m c) 8 (by decide) _ _

/-! ## After region 19 -/

theorem w38_arg4 (hF : Reg.Finals) : W38 (F := Ideal) m ρ c (Proc.devRef .tc main_arg4) = a4 m c :=
  (W38_of_ne m ρ c main_arg4 (by decide)).trans (w37_arg4 m ρ c hF)
theorem w38_arg5 (hF : Reg.Finals) : W38 (F := Ideal) m ρ c (Proc.devRef .tc main_arg5) = a5 m c :=
  (W38_of_ne m ρ c main_arg5 (by decide)).trans (w37_arg5 m ρ c hF)
theorem w38_arg6 (hF : Reg.Finals) : W38 (F := Ideal) m ρ c (Proc.devRef .tc main_arg6) = a6 m c :=
  (W38_of_ne m ρ c main_arg6 (by decide)).trans (w37_arg6 m ρ c hF)
theorem w38_arg7 (hF : Reg.Finals) : W38 (F := Ideal) m ρ c (Proc.devRef .tc main_arg7) = a7 m c :=
  (W38_of_ne m ρ c main_arg7 (by decide)).trans (w37_arg7 m ρ c hF)
theorem w38_v0 (hF : Reg.Finals) : W38 (F := Ideal) m ρ c (Proc.devRef .tc main_v0) = a1 m c :=
  (W38_of_ne m ρ c main_v0 (by decide)).trans (w37_v0 m ρ c hF)
theorem w38_v89 (hF : Reg.Finals) : W38 (F := Ideal) m ρ c (Proc.devRef .tc main_v89) = f4 m c :=
  (W38_of_ne m ρ c main_v89 (by decide)).trans (w37_v89 m ρ c hF)
theorem w38_v103 (hF : Reg.Finals) : W38 (F := Ideal) m ρ c (Proc.devRef .tc main_v103) = row (a5 m c) 8 :=
  (W38_of_ne m ρ c main_v103 (by decide)).trans (w37_v103 m ρ c hF)
set_option maxHeartbeats 16000000 in
theorem w38_v104_0 (hF : Reg.Finals) : W38 (F := Ideal) m ρ c (Proc.devRef .tc main_v104_0) = supAgg 64 (x9 m c) (slab (a4 m c) 8) :=
  (W38_arr m ρ c 2).trans ((hF.split19a (V37 m ρ) c).trans
    (congrArg₂ (supAgg (M := 8192) (K := 192) (N := 192) 64) (w37_v99 m ρ c hF) (w37_v101 m ρ c hF)))
set_option maxHeartbeats 16000000 in
theorem w38_v104_1 (hF : Reg.Finals) : W38 (F := Ideal) m ρ c (Proc.devRef .tc main_v104_1) = supPass 64 128 (x9 m c) (slab (a4 m c) 8) :=
  (W38_arr m ρ c 3).trans ((hF.split19p (V37 m ρ) c).trans
    (congrArg₂ (supPass (M := 8192) (K := 192) (N := 192) 64 128) (w37_v99 m ρ c hF) (w37_v101 m ρ c hF)))

/-! ## After the host operations before region 20 -/

theorem w39_arg4 (hF : Reg.Finals) : W39 (F := Ideal) m ρ c (Proc.devRef .tc main_arg4) = a4 m c :=
  (StableHlo.after_of_writes_sub (r := main_arg4) hostOps20 _ hostOps20_writes (by decide)).trans (w38_arg4 m ρ c hF)
theorem w39_arg5 (hF : Reg.Finals) : W39 (F := Ideal) m ρ c (Proc.devRef .tc main_arg5) = a5 m c :=
  (StableHlo.after_of_writes_sub (r := main_arg5) hostOps20 _ hostOps20_writes (by decide)).trans (w38_arg5 m ρ c hF)
theorem w39_arg6 (hF : Reg.Finals) : W39 (F := Ideal) m ρ c (Proc.devRef .tc main_arg6) = a6 m c :=
  (StableHlo.after_of_writes_sub (r := main_arg6) hostOps20 _ hostOps20_writes (by decide)).trans (w38_arg6 m ρ c hF)
theorem w39_arg7 (hF : Reg.Finals) : W39 (F := Ideal) m ρ c (Proc.devRef .tc main_arg7) = a7 m c :=
  (StableHlo.after_of_writes_sub (r := main_arg7) hostOps20 _ hostOps20_writes (by decide)).trans (w38_arg7 m ρ c hF)
theorem w39_v0 (hF : Reg.Finals) : W39 (F := Ideal) m ρ c (Proc.devRef .tc main_v0) = a1 m c :=
  (StableHlo.after_of_writes_sub (r := main_v0) hostOps20 _ hostOps20_writes (by decide)).trans (w38_v0 m ρ c hF)
theorem w39_v89 (hF : Reg.Finals) : W39 (F := Ideal) m ρ c (Proc.devRef .tc main_v89) = f4 m c :=
  (StableHlo.after_of_writes_sub (r := main_v89) hostOps20 _ hostOps20_writes (by decide)).trans (w38_v89 m ρ c hF)
theorem w39_v104_0 (hF : Reg.Finals) : W39 (F := Ideal) m ρ c (Proc.devRef .tc main_v104_0) = supAgg 64 (x9 m c) (slab (a4 m c) 8) :=
  (StableHlo.after_of_writes_sub (r := main_v104_0) hostOps20 _ hostOps20_writes (by decide)).trans (w38_v104_0 m ρ c hF)
theorem w39_v104_1 (hF : Reg.Finals) : W39 (F := Ideal) m ρ c (Proc.devRef .tc main_v104_1) = supPass 64 128 (x9 m c) (slab (a4 m c) 8) :=
  (StableHlo.after_of_writes_sub (r := main_v104_1) hostOps20 _ hostOps20_writes (by decide)).trans (w38_v104_1 m ρ c hF)
theorem w39_v106 (hF : Reg.Finals) : W39 (F := Ideal) m ρ c (Proc.devRef .tc main_v106) = piece 64 0 (row (a5 m c) 8) := by
  show StableHlo.after hostOps20 (W38 m ρ c) (Proc.devRef .tc main_v106) = _
  after_results
  rw [w38_v103 m ρ c hF]
  exact piece_host (row (a5 m c) 8) 0 (by decide) _ _
theorem w39_v108 (hF : Reg.Finals) : W39 (F := Ideal) m ρ c (Proc.devRef .tc main_v108) = piece 128 64 (row (a5 m c) 8) := by
  show StableHlo.after hostOps20 (W38 m ρ c) (Proc.devRef .tc main_v108) = _
  after_results
  rw [w38_v103 m ρ c hF]
  exact piece_host (row (a5 m c) 8) 64 (by decide) _ _

/-! ## After region 20 -/

theorem w40_arg4 (hF : Reg.Finals) : W40 (F := Ideal) m ρ c (Proc.devRef .tc main_arg4) = a4 m c :=
  (W40_of_ne m ρ c main_arg4 (by decide)).trans (w39_arg4 m ρ c hF)
theorem w40_arg5 (hF : Reg.Finals) : W40 (F := Ideal) m ρ c (Proc.devRef .tc main_arg5) = a5 m c :=
  (W40_of_ne m ρ c main_arg5 (by decide)).trans (w39_arg5 m ρ c hF)
theorem w40_arg6 (hF : Reg.Finals) : W40 (F := Ideal) m ρ c (Proc.devRef .tc main_arg6) = a6 m c :=
  (W40_of_ne m ρ c main_arg6 (by decide)).trans (w39_arg6 m ρ c hF)
theorem w40_arg7 (hF : Reg.Finals) : W40 (F := Ideal) m ρ c (Proc.devRef .tc main_arg7) = a7 m c :=
  (W40_of_ne m ρ c main_arg7 (by decide)).trans (w39_arg7 m ρ c hF)
theorem w40_v0 (hF : Reg.Finals) : W40 (F := Ideal) m ρ c (Proc.devRef .tc main_v0) = a1 m c :=
  ((W40_arr m ρ c 0).trans (((dat20 (V39 m ρ) c).arrAt_in 0 rfl _).trans (A_eq20 (V39 m ρ) c 0))).trans (w39_v0 m ρ c hF)
theorem w40_v89 (hF : Reg.Finals) : W40 (F := Ideal) m ρ c (Proc.devRef .tc main_v89) = f4 m c :=
  (W40_of_ne m ρ c main_v89 (by decide)).trans (w39_v89 m ρ c hF)
set_option maxHeartbeats 16000000 in
theorem w40_v109 (hF : Reg.Finals) : W40 (F := Ideal) m ρ c (Proc.devRef .tc main_v109) = x10 m c :=
  (W40_arr m ρ c 5).trans ((hF.agg20 (V39 m ρ) c).trans
    (agg_step (M := 8192) (K := 192) (N := 192) (P := 128) 64 rfl (x9 m c) (a1 m c) (slab (a4 m c) 8) (row (a5 m c) 8)
      (w39_v0 m ρ c hF) (w39_v104_0 m ρ c hF) (w39_v104_1 m ρ c hF) (w39_v106 m ρ c hF) (w39_v108 m ρ c hF)))

end Cert.KernelIdeal.Chain

end
-- ==== Proof.KChainF.lean ====
/-
  What the live buffers hold at the boundaries of the kernel program's run, continued: the sixth pair of layers and the averaging step before it (regions 21 to 24).
  The same four kinds of step as before: a buffer carried across a region or across a stretch of host operations, a
  region's output, a host operation's result.
-/
import proofs.«108744_j27797028339962_2_alg».proof.Proof.KChainE

noncomputable section

namespace Cert.KernelIdeal.Chain

open Cert.KernelIdeal Cert.KernelIdeal.Gen Cert.Gcn Cert.Gcn.Forms Idealize.ShloMosaic Idealize.ShloMosaic.TcCoe Idealize.SL.Sem

variable (m : (ℓ : Loc nD τ sig) → Buf (Elt Ideal) ℓ) (ρ : Dev nD → PrngReg) (c : Dev nD)

/-! ## After the host operations before region 21 -/

theorem w41_arg4 (hF : Reg.Finals) : W41 (F := Ideal) m ρ c (Proc.devRef .tc main_arg4) = a4 m c :=
  (StableHlo.after_of_writes_sub (r := main_arg4) hostOps21 _ hostOps21_writes (by decide)).trans (w40_arg4 m ρ c hF)
theorem w41_arg5 (hF : Reg.Finals) : W41 (F := Ideal) m ρ c (Proc.devRef .tc main_arg5) = a5 m c :=
  (StableHlo.after_of_writes_sub (r := main_arg5) hostOps21 _ hostOps21_writes (by decide)).trans (w40_arg5 m ρ c hF)
theorem w41_arg6 (hF : Reg.Finals) : W41 (F := Ideal) m ρ c (Proc.devRef .tc main_arg6) = a6 m c :=
  (StableHlo.after_of_writes_sub (r := main_arg6) hostOps21 _ hostOps21_writes (by decide)).trans (w40_arg6 m ρ c hF)
theorem w41_arg7 (hF : Reg.Finals) : W41 (F := Ideal) m ρ c (Proc.devRef .tc main_arg7) = a7 m c :=
  (StableHlo.after_of_writes_sub (r := main_arg7) hostOps21 _ hostOps21_writes (by decide)).trans (w40_arg7 m ρ c hF)
theorem w41_v0 (hF : Reg.Finals) : W41 (F := Ideal) m ρ c (Proc.devRef .tc main_v0) = a1 m c :=
  (StableHlo.after_of_writes_sub (r := main_v0) hostOps21 _ hostOps21_writes (by decide)).trans (w40_v0 m ρ c hF)
theorem w41_v112 (hF : Reg.Finals) : W41 (F := Ideal) m ρ c (Proc.devRef .tc main_v112) = f5 m c := by
  show StableHlo.after hostOps21 (W40 m ρ c) (Proc.devRef .tc main_v112) = _
  after_results
  rw [w40_v89 m ρ c hF, w40_v109 m ρ c hF]
  exact resid_host _ _ _ _
theorem w41_v114 (hF : Reg.Finals) : W41 (F := Ideal) m ρ c (Proc.devRef .tc main_v114) = slab (a4 m c) 9 := by
  show StableHlo.after hostOps21 (W40 m ρ c) (Proc.devRef .tc main_v114) = _
  after_results
  rw [w40_arg4 m ρ c hF]
  exact slab_host (a4 m c) 9 (by decide) _ _
theorem w41_v116 (hF : Reg.Finals) : W41 (F := Ideal) m ρ c (Proc.devRef .tc main_v116) = row (a5 m c) 9 := by
  show StableHlo.after hostOps21 (W40 m ρ c) (Proc.devRef .tc main_v116) = _
  after_results
  rw [w40_arg5 m ρ c hF]
  exact row_host (a5 m c) 9 (by decide) _ _

/-! ## After region 21 -/

theorem w42_arg4 (hF : Reg.Finals) : W42 (F := Ideal) m ρ c (Proc.devRef .tc main_arg4) = a4 m c :=
  (W42_of_ne m ρ c main_arg4 (by decide)).trans (w41_arg4 m ρ c hF)
theorem w42_arg5 (hF : Reg.Finals) : W42 (F := Ideal) m ρ c (Proc.devRef .tc main_arg5) = a5 m c :=
  (W42_of_ne m ρ c main_arg5 (by decide)).trans (w41_arg5 m ρ c hF)
theorem w42_arg6 (hF : Reg.Finals) : W42 (F := Ideal) m ρ c (Proc.devRef .tc main_arg6) = a6 m c :=
  (W42_of_ne m ρ c main_arg6 (by decide)).trans (w41_arg6 m ρ c hF)
theorem w42_arg7 (hF : Reg.Finals) : W42 (F := Ideal) m ρ c (Proc.devRef .tc main_arg7) = a7 m c :=
  (W42_of_ne m ρ c main_arg7 (by decide)).trans (w41_arg7 m ρ c hF)
theorem w42_v0 (hF : Reg.Finals) : W42 (F := Ideal) m ρ c (Proc.devRef .tc main_v0) = a1 m c :=
  (W42_of_ne m ρ c main_v0 (by decide)).trans (w41_v0 m ρ c hF)
theorem w42_v112 (hF : Reg.Finals) : W42 (F := Ideal) m ρ c (Proc.devRef .tc main_v112) = f5 m c :=
  ((W42_arr m ρ c 0).trans (((dat21 (V41 m ρ) c).arrAt_in 0 rfl _).trans (A_eq21 (V41 m ρ) c 0))).trans (w41_v112 m ρ c hF)
theorem w42_v116 (hF : Reg.Finals) : W42 (F := Ideal) m ρ c (Proc.devRef .tc main_v116) = row (a5 m c) 9 :=
  (W42_of_ne m ρ c main_v116 (by decide)).trans (w41_v116 m ρ c hF)
set_option maxHeartbeats 16000000 in
theorem w42_v117_0 (hF : Reg.Finals) : W42 (F := Ideal) m ρ c (Proc.devRef .tc main_v117_0) = supAgg 64 (f5 m c) (slab (a4 m c) 9) :=
  (W42_arr m ρ c 2).trans ((hF.split21a (V41 m ρ) c).trans
    (congrArg₂ (supAgg (M := 8192) (K := 192) (N := 192) 64) (w41_v112 m ρ c hF) (w41_v114 m ρ c hF)))
set_option maxHeartbeats 16000000 in
theorem w42_v117_1 (hF : Reg.Finals) : W42 (F := Ideal) m ρ c (Proc.devRef .tc main_v117_1) = supPass 64 128 (f5 m c) (slab (a4 m c) 9) :=
  (W42_arr m ρ c 3).trans ((hF.split21p (V41 m ρ) c).trans
    (congrArg₂ (supPass (M := 8192) (K := 192) (N := 192) 64 128) (w41_v112 m ρ c hF) (w41_v114 m ρ c hF)))

/-! ## After the host operations before region 22 -/

theorem w43_arg4 (hF : Reg.Finals) : W43 (F := Ideal) m ρ c (Proc.devRef .tc main_arg4) = a4 m c :=
  (StableHlo.after_of_writes_sub (r := main_arg4) hostOps22 _ hostOps22_writes (by decide)).trans (w42_arg4 m ρ c hF)
theorem w43_arg5 (hF : Reg.Finals) : W43 (F := Ideal) m ρ c (Proc.devRef .tc main_arg5) = a5 m c :=
  (StableHlo.after_of_writes_sub (r := main_arg5) hostOps22 _ hostOps22_writes (by decide)).trans (w42_arg5 m ρ c hF)
theorem w43_arg6 (hF : Reg.Finals) : W43 (F := Ideal) m ρ c (Proc.devRef .tc main_arg6) = a6 m c :=
  (StableHlo.after_of_writes_sub (r := main_arg6) hostOps22 _ hostOps22_writes (by decide)).trans (w42_arg6 m ρ c hF)
theorem w43_arg7 (hF : Reg.Finals) : W43 (F := Ideal) m ρ c (Proc.devRef .tc main_arg7) = a7 m c :=
  (StableHlo.after_of_writes_sub (r := main_arg7) hostOps22 _ hostOps22_writes (by decide)).trans (w42_arg7 m ρ c hF)
theorem w43_v0 (hF : Reg.Finals) : W43 (F := Ideal) m ρ c (Proc.devRef .tc main_v0) = a1 m c :=
  (StableHlo.after_of_writes_sub (r := main_v0) hostOps22 _ hostOps22_writes (by decide)).trans (w42_v0 m ρ c hF)
theorem w43_v112 (hF : Reg.Finals) : W43 (F := Ideal) m ρ c (Proc.devRef .tc main_v112) = f5 m c :=
  (StableHlo.after_of_writes_sub (r := main_v112) hostOps22 _ hostOps22_writes (by decide)).trans (w42_v112 m ρ c hF)
theorem w43_v117_0 (hF : Reg.Finals) : W43 (F := Ideal) m ρ c (Proc.devRef .tc main_v117_0) = supAgg 64 (f5 m c) (slab (a4 m c) 9) :=
  (StableHlo.after_of_writes_sub (r := main_v117_0) hostOps22 _ hostOps22_writes (by decide)).trans (w42_v117_0 m ρ c hF)
theorem w43_v117_1 (hF : Reg.Finals) : W43 (F := Ideal) m ρ c (Proc.devRef .tc main_v117_1) = supPass 64 128 (f5 m c) (slab (a4 m c) 9) :=
  (StableHlo.after_of_writes_sub (r := main_v117_1) hostOps22 _ hostOps22_writes (by decide)).trans (w42_v117_1 m ρ c hF)
theorem w43_v119 (hF : Reg.Finals) : W43 (F := Ideal) m ρ c (Proc.devRef .tc main_v119) = piece 64 0 (row (a5 m c) 9) := by
  show StableHlo.after hostOps22 (W42 m ρ c) (Proc.devRef .tc main_v119) = _
  after_results
  rw [w42_v116 m ρ c hF]
  exact piece_host (row (a5 m c) 9) 0 (by decide) _ _
theorem w43_v121 (hF : Reg.Finals) : W43 (F := Ideal) m ρ c (Proc.devRef .tc main_v121) = piece 128 64 (row (a5 m c) 9) := by
  show StableHlo.after hostOps22 (W42 m ρ c) (Proc.devRef .tc main_v121) = _
  after_results
  rw [w42_v116 m ρ c hF]
  exact piece_host (row (a5 m c) 9) 64 (by decide) _ _

/-! ## After region 22 -/

theorem w44_arg4 (hF : Reg.Finals) : W44 (F := Ideal) m ρ c (Proc.devRef .tc main_arg4) = a4 m c :=
  (W44_of_ne m ρ c main_arg4 (by decide)).trans (w43_arg4 m ρ c hF)
theorem w44_arg5 (hF : Reg.Finals) : W44 (F := Ideal) m ρ c (Proc.devRef .tc main_arg5) = a5 m c :=
  (W44_of_ne m ρ c main_arg5 (by decide)).trans (w43_arg5 m ρ c hF)
theorem w44_arg6 (hF : Reg.Finals) : W44 (F := Ideal) m ρ c (Proc.devRef .tc main_arg6) = a6 m c :=
  (W44_of_ne m ρ c main_arg6 (by decide)).trans (w43_arg6 m ρ c hF)
theorem w44_arg7 (hF : Reg.Finals) : W44 (F := Ideal) m ρ c (Proc.devRef .tc main_arg7) = a7 m c :=
  (W44_of_ne m ρ c main_arg7 (by decide)).trans (w43_arg7 m ρ c hF)
theorem w44_v0 (hF : Reg.Finals) : W44 (F := Ideal) m ρ c (Proc.devRef .tc main_v0) = a1 m c :=
  ((W44_arr m ρ c 0).trans (((dat22 (V43 m ρ) c).arrAt_in 0 rfl _).trans (A_eq22 (V43 m ρ) c 0))).trans (w43_v0 m ρ c hF)
theorem w44_v112 (hF : Reg.Finals) : W44 (F := Ideal) m ρ c (Proc.devRef .tc main_v112) = f5 m c :=
  (W44_of_ne m ρ c main_v112 (by decide)).trans (w43_v112 m ρ c hF)
set_option maxHeartbeats 16000000 in
theorem w44_v122 (hF : Reg.Finals) : W44 (F := Ideal) m ρ c (Proc.devRef .tc main_v122) = x11 m c :=
  (W44_arr m ρ c 5).trans ((hF.agg22 (V43 m ρ) c).trans
    (agg_step (M := 8192) (K := 192) (N := 192) (P := 128) 64 rfl (f5 m c) (a1 m c) (slab (a4 m c) 9) (row (a5 m c) 9)
      (w43_v0 m ρ c hF) (w43_v117_0 m ρ c hF) (w43_v117_1 m ρ c hF) (w43_v119 m ρ c hF) (w43_v121 m ρ c hF)))

/-! ## After the host operations before region 23 -/

theorem w45_arg4 (hF : Reg.Finals) : W45 (F := Ideal) m ρ c (Proc.devRef .tc main_arg4) = a4 m c :=
  (StableHlo.after_of_writes_sub (r := main_arg4) hostOps23 _ hostOps23_writes (by decide)).trans (w44_arg4 m ρ c hF)
theorem w45_arg5 (hF : Reg.Finals) : W45 (F := Ideal) m ρ c (Proc.devRef .tc main_arg5) = a5 m c :=
  (StableHlo.after_of_writes_sub (r := main_arg5) hostOps23 _ hostOps23_writes (by decide)).trans (w44_arg5 m ρ c hF)
theorem w45_arg6 (hF : Reg.Finals) : W45 (F := Ideal) m ρ c (Proc.devRef .tc main_arg6) = a6 m c :=
  (StableHlo.after_of_writes_sub (r := main_arg6) hostOps23 _ hostOps23_writes (by decide)).trans (w44_arg6 m ρ c hF)
theorem w45_arg7 (hF : Reg.Finals) : W45 (F := Ideal) m ρ c (Proc.devRef .tc main_arg7) = a7 m c :=
  (StableHlo.after_of_writes_sub (r := main_arg7) hostOps23 _ hostOps23_writes (by decide)).trans (w44_arg7 m ρ c hF)
theorem w45_v0 (hF : Reg.Finals) : W45 (F := Ideal) m ρ c (Proc.devRef .tc main_v0) = a1 m c :=
  (StableHlo.after_of_writes_sub (r := main_v0) hostOps23 _ hostOps23_writes (by decide)).trans (w44_v0 m ρ c hF)
theorem w45_v112 (hF : Reg.Finals) : W45 (F := Ideal) m ρ c (Proc.devRef .tc main_v112) = f5 m c :=
  (StableHlo.after_of_writes_sub (r := main_v112) hostOps23 _ hostOps23_writes (by decide)).trans (w44_v112 m ρ c hF)
theorem w45_v122 (hF : Reg.Finals) : W45 (F := Ideal) m ρ c (Proc.devRef .tc main_v122) = x11 m c :=
  (StableHlo.after_of_writes_sub (r := main_v122) hostOps23 _ hostOps23_writes (by decide)).trans (w44_v122 m ρ c hF)
theorem w45_v124 (hF : Reg.Finals) : W45 (F := Ideal) m ρ c (Proc.devRef .tc main_v124) = slab (a4 m c) 10 := by
  show StableHlo.after hostOps23 (W44 m ρ c) (Proc.devRef .tc main_v124) = _
  after_results
  rw [w44_arg4 m ρ c hF]
  exact slab_host (a4 m c) 10 (by decide) _ _
theorem w45_v126 (hF : Reg.Finals) : W45 (F := Ideal) m ρ c (Proc.devRef .tc main_v126) = row (a5 m c) 10 := by
  show StableHlo.after hostOps23 (W44 m ρ c) (Proc.devRef .tc main_v126) = _
  after_results
  rw [w44_arg5 m ρ c hF]
  exact row_host (a5 m c) 10 (by decide) _ _

/-! ## After region 23 -/

theorem w46_arg4 (hF : Reg.Finals) : W46 (F := Ideal) m ρ c (Proc.devRef .tc main_arg4) = a4 m c :=
  (W46_of_ne m ρ c main_arg4 (by decide)).trans (w45_arg4 m ρ c hF)
theorem w46_arg5 (hF : Reg.Finals) : W46 (F := Ideal) m ρ c (Proc.devRef .tc main_arg5) = a5 m c :=
  (W46_of_ne m ρ c main_arg5 (by decide)).trans (w45_arg5 m ρ c hF)
theorem w46_arg6 (hF : Reg.Finals) : W46 (F := Ideal) m ρ c (Proc.devRef .tc main_arg6) = a6 m c :=
  (W46_of_ne m ρ c main_arg6 (by decide)).trans (w45_arg6 m ρ c hF)
theorem w46_arg7 (hF : Reg.Finals) : W46 (F := Ideal) m ρ c (Proc.devRef .tc main_arg7) = a7 m c :=
  (W46_of_ne m ρ c main_arg7 (by decide)).trans (w45_arg7 m ρ c hF)
theorem w46_v0 (hF : Reg.Finals) : W46 (F := Ideal) m ρ c (Proc.devRef .tc main_v0) = a1 m c :=
  (W46_of_ne m ρ c main_v0 (by decide)).trans (w45_v0 m ρ c hF)
theorem w46_v112 (hF : Reg.Finals) : W46 (F := Ideal) m ρ c (Proc.devRef .tc main_v112) = f5 m c :=
  (W46_of_ne m ρ c main_v112 (by decide)).trans (w45_v112 m ρ c hF)
theorem w46_v126 (hF : Reg.Finals) : W46 (F := Ideal) m ρ c (Proc.devRef .tc main_v126) = row (a5 m c) 10 :=
  (W46_of_ne m ρ c main_v126 (by decide)).trans (w45_v126 m ρ c hF)
set_option maxHeartbeats 16000000 in
theorem w46_v127_0 (hF : Reg.Finals) : W46 (F := Ideal) m ρ c (Proc.devRef .tc main_v127_0) = supAgg 64 (x11 m c) (slab (a4 m c) 10) :=
  (W46_arr m ρ c 2).trans ((hF.split23a (V45 m ρ) c).trans
    (congrArg₂ (supAgg (M := 8192) (K := 192) (N := 192) 64) (w45_v122 m ρ c hF) (w45_v124 m ρ c hF)))
set_option maxHeartbeats 16000000 in
theorem w46_v127_1 (hF : Reg.Finals) : W46 (F := Ideal) m ρ c (Proc.devRef .tc main_v127_1) = supPass 64 128 (x11 m c) (slab (a4 m c) 10) :=
  (W46_arr m ρ c 3).trans ((hF.split23p (V45 m ρ) c).trans
    (congrArg₂ (supPass (M := 8192) (K := 192) (N := 192) 64 128) (w45_v122 m ρ c hF) (w45_v124 m ρ c hF)))

/-! ## After the host operations before region 24 -/

theorem w47_arg4 (hF : Reg.Finals) : W47 (F := Ideal) m ρ c (Proc.devRef .tc main_arg4) = a4 m c :=
  (StableHlo.after_of_writes_sub (r := main_arg4) hostOps24 _ hostOps24_writes (by decide)).trans (w46_arg4 m ρ c hF)
theorem w47_arg5 (hF : Reg.Finals) : W47 (F := Ideal) m ρ c (Proc.devRef .tc main_arg5) = a5 m c :=
  (StableHlo.after_of_writes_sub (r := main_arg5) hostOps24 _ hostOps24_writes (by decide)).trans (w46_arg5 m ρ c hF)
theorem w47_arg6 (hF : Reg.Finals) : W47 (F := Ideal) m ρ c (Proc.devRef .tc main_arg6) = a6 m c :=
  (StableHlo.after_of_writes_sub (r := main_arg6) hostOps24 _ hostOps24_writes (by decide)).trans (w46_arg6 m ρ c hF)
theorem w47_arg7 (hF : Reg.Finals) : W47 (F := Ideal) m ρ c (Proc.devRef .tc main_arg7) = a7 m c :=
  (StableHlo.after_of_writes_sub (r := main_arg7) hostOps24 _ hostOps24_writes (by decide)).trans (w46_arg7 m ρ c hF)
theorem w47_v0 (hF : Reg.Finals) : W47 (F := Ideal) m ρ c (Proc.devRef .tc main_v0) = a1 m c :=
  (StableHlo.after_of_writes_sub (r := main_v0) hostOps24 _ hostOps24_writes (by decide)).trans (w46_v0 m ρ c hF)
theorem w47_v112 (hF : Reg.Finals) : W47 (F := Ideal) m ρ c (Proc.devRef .tc main_v112) = f5 m c :=
  (StableHlo.after_of_writes_sub (r := main_v112) hostOps24 _ hostOps24_writes (by decide)).trans (w46_v112 m ρ c hF)
theorem w47_v127_0 (hF : Reg.Finals) : W47 (F := Ideal) m ρ c (Proc.devRef .tc main_v127_0) = supAgg 64 (x11 m c) (slab (a4 m c) 10) :=
  (StableHlo.after_of_writes_sub (r := main_v127_0) hostOps24 _ hostOps24_writes (by decide)).trans (w46_v127_0 m ρ c hF)
theorem w47_v127_1 (hF : Reg.Finals) : W47 (F := Ideal) m ρ c (Proc.devRef .tc main_v127_1) = supPass 64 128 (x11 m c) (slab (a4 m c) 10) :=
  (StableHlo.after_of_writes_sub (r := main_v127_1) hostOps24 _ hostOps24_writes (by decide)).trans (w46_v127_1 m ρ c hF)
theorem w47_v129 (hF : Reg.Finals) : W47 (F := Ideal) m ρ c (Proc.devRef .tc main_v129) = piece 64 0 (row (a5 m c) 10) := by
  show StableHlo.after hostOps24 (W46 m ρ c) (Proc.devRef .tc main_v129) = _
  after_results
  rw [w46_v126 m ρ c hF]
  exact piece_host (row (a5 m c) 10) 0 (by decide) _ _
theorem w47_v131 (hF : Reg.Finals) : W47 (F := Ideal) m ρ c (Proc.devRef .tc main_v131) = piece 128 64 (row (a5 m c) 10) := by
  show StableHlo.after hostOps24 (W46 m ρ c) (Proc.devRef .tc main_v131) = _
  after_results
  rw [w46_v126 m ρ c hF]
  exact piece_host (row (a5 m c) 10) 64 (by decide) _ _

/-! ## After region 24 -/

theorem w48_arg4 (hF : Reg.Finals) : W48 (F := Ideal) m ρ c (Proc.devRef .tc main_arg4) = a4 m c :=
  (W48_of_ne m ρ c main_arg4 (by decide)).trans (w47_arg4 m ρ c hF)
theorem w48_arg5 (hF : Reg.Finals) : W48 (F := Ideal) m ρ c (Proc.devRef .tc main_arg5) = a5 m c :=
  (W48_of_ne m ρ c main_arg5 (by decide)).trans (w47_arg5 m ρ c hF)
theorem w48_arg6 (hF : Reg.Finals) : W48 (F := Ideal) m ρ c (Proc.devRef .tc main_arg6) = a6 m c :=
  (W48_of_ne m ρ c main_arg6 (by decide)).trans (w47_arg6 m ρ c hF)
theorem w48_arg7 (hF : Reg.Finals) : W48 (F := Ideal) m ρ c (Proc.devRef .tc main_arg7) = a7 m c :=
  (W48_of_ne m ρ c main_arg7 (by decide)).trans (w47_arg7 m ρ c hF)
theorem w48_v0 (hF : Reg.Finals) : W48 (F := Ideal) m ρ c (Proc.devRef .tc main_v0) = a1 m c :=
  ((W48_arr m ρ c 0).trans (((dat24 (V47 m ρ) c).arrAt_in 0 rfl _).trans (A_eq24 (V47 m ρ) c 0))).trans (w47_v0 m ρ c hF)
theorem w48_v112 (hF : Reg.Finals) : W48 (F := Ideal) m ρ c (Proc.devRef .tc main_v112) = f5 m c :=
  (W48_of_ne m ρ c main_v112 (by decide)).trans (w47_v112 m ρ c hF)
set_option maxHeartbeats 16000000 in
theorem w48_v132 (hF : Reg.Finals) : W48 (F := Ideal) m ρ c (Proc.devRef .tc main_v132) = x12 m c :=
  (W48_arr m ρ c 5).trans ((hF.agg24 (V47 m ρ) c).trans
    (agg_step (M := 8192) (K := 192) (N := 192) (P := 128) 64 rfl (x11 m c) (a1 m c) (slab (a4 m c) 10) (row (a5 m c) 10)
      (w47_v0 m ρ c hF) (w47_v127_0 m ρ c hF) (w47_v127_1 m ρ c hF) (w47_v129 m ρ c hF) (w47_v131 m ρ c hF)))

end Cert.KernelIdeal.Chain

end
-- ==== Proof.KChainG.lean ====
/-
  What the live buffers hold at the boundaries of the kernel program's run, continued: the thirteenth layer, the last averaging step and the last layer (regions 25 to 28).
  The same four kinds of step as before: a buffer carried across a region or across a stretch of host operations, a
  region's output, a host operation's result.
-/
import proofs.«108744_j27797028339962_2_alg».proof.Proof.KChainF

noncomputable section

namespace Cert.KernelIdeal.Chain

open Cert.KernelIdeal Cert.KernelIdeal.Gen Cert.Gcn Cert.Gcn.Forms Idealize.ShloMosaic Idealize.ShloMosaic.TcCoe Idealize.SL.Sem

variable (m : (ℓ : Loc nD τ sig) → Buf (Elt Ideal) ℓ) (ρ : Dev nD → PrngReg) (c : Dev nD)

/-! ## After the host operations before region 25 -/

theorem w49_arg6 (hF : Reg.Finals) : W49 (F := Ideal) m ρ c (Proc.devRef .tc main_arg6) = a6 m c :=
  (StableHlo.after_of_writes_sub (r := main_arg6) hostOps25 _ hostOps25_writes (by decide)).trans (w48_arg6 m ρ c hF)
theorem w49_arg7 (hF : Reg.Finals) : W49 (F := Ideal) m ρ c (Proc.devRef .tc main_arg7) = a7 m c :=
  (StableHlo.after_of_writes_sub (r := main_arg7) hostOps25 _ hostOps25_writes (by decide)).trans (w48_arg7 m ρ c hF)
theorem w49_v0 (hF : Reg.Finals) : W49 (F := Ideal) m ρ c (Proc.devRef .tc main_v0) = a1 m c :=
  (StableHlo.after_of_writes_sub (r := main_v0) hostOps25 _ hostOps25_writes (by decide)).trans (w48_v0 m ρ c hF)
theorem w49_v135 (hF : Reg.Finals) : W49 (F := Ideal) m ρ c (Proc.devRef .tc main_v135) = f6 m c := by
  show StableHlo.after hostOps25 (W48 m ρ c) (Proc.devRef .tc main_v135) = _
  after_results
  rw [w48_v112 m ρ c hF, w48_v132 m ρ c hF]
  exact resid_host _ _ _ _
theorem w49_v137 (hF : Reg.Finals) : W49 (F := Ideal) m ρ c (Proc.devRef .tc main_v137) = slab (a4 m c) 11 := by
  show StableHlo.after hostOps25 (W48 m ρ c) (Proc.devRef .tc main_v137) = _
  after_results
  rw [w48_arg4 m ρ c hF]
  exact slab_host (a4 m c) 11 (by decide) _ _
theorem w49_v139 (hF : Reg.Finals) : W49 (F := Ideal) m ρ c (Proc.devRef .tc main_v139) = row (a5 m c) 11 := by
  show StableHlo.after hostOps25 (W48 m ρ c) (Proc.devRef .tc main_v139) = _
  after_results
  rw [w48_arg5 m ρ c hF]
  exact row_host (a5 m c) 11 (by decide) _ _

/-! ## After region 25 -/

theorem w50_arg6 (hF : Reg.Finals) : W50 (F := Ideal) m ρ c (Proc.devRef .tc main_arg6) = a6 m c :=
  (W50_of_ne m ρ c main_arg6 (by decide)).trans (w49_arg6 m ρ c hF)
theorem w50_arg7 (hF : Reg.Finals) : W50 (F := Ideal) m ρ c (Proc.devRef .tc main_arg7) = a7 m c :=
  (W50_of_ne m ρ c main_arg7 (by decide)).trans (w49_arg7 m ρ c hF)
theorem w50_v0 (hF : Reg.Finals) : W50 (F := Ideal) m ρ c (Proc.devRef .tc main_v0) = a1 m c :=
  (W50_of_ne m ρ c main_v0 (by decide)).trans (w49_v0 m ρ c hF)
theorem w50_v135 (hF : Reg.Finals) : W50 (F := Ideal) m ρ c (Proc.devRef .tc main_v135) = f6 m c :=
  ((W50_arr m ρ c 0).trans (((dat25 (V49 m ρ) c).arrAt_in 0 rfl _).trans (A_eq25 (V49 m ρ) c 0))).trans (w49_v135 m ρ c hF)
theorem w50_v139 (hF : Reg.Finals) : W50 (F := Ideal) m ρ c (Proc.devRef .tc main_v139) = row (a5 m c) 11 :=
  (W50_of_ne m ρ c main_v139 (by decide)).trans (w49_v139 m ρ c hF)
set_option maxHeartbeats 16000000 in
theorem w50_v140_0 (hF : Reg.Finals) : W50 (F := Ideal) m ρ c (Proc.devRef .tc main_v140_0) = supAgg 64 (f6 m c) (slab (a4 m c) 11) :=
  (W50_arr m ρ c 2).trans ((hF.split25a (V49 m ρ) c).trans
    (congrArg₂ (supAgg (M := 8192) (K := 192) (N := 192) 64) (w49_v135 m ρ c hF) (w49_v137 m ρ c hF)))
set_option maxHeartbeats 16000000 in
theorem w50_v140_1 (hF : Reg.Finals) : W50 (F := Ideal) m ρ c (Proc.devRef .tc main_v140_1) = supPass 64 128 (f6 m c) (slab (a4 m c) 11) :=
  (W50_arr m ρ c 3).trans ((hF.split25p (V49 m ρ) c).trans
    (congrArg₂ (supPass (M := 8192) (K := 192) (N := 192) 64 128) (w49_v135 m ρ c hF) (w49_v137 m ρ c hF)))

/-! ## After the host operations before region 26 -/

theorem w51_arg6 (hF : Reg.Finals) : W51 (F := Ideal) m ρ c (Proc.devRef .tc main_arg6) = a6 m c :=
  (StableHlo.after_of_writes_sub (r := main_arg6) hostOps26 _ hostOps26_writes (by decide)).trans (w50_arg6 m ρ c hF)
theorem w51_arg7 (hF : Reg.Finals) : W51 (F := Ideal) m ρ c (Proc.devRef .tc main_arg7) = a7 m c :=
  (StableHlo.after_of_writes_sub (r := main_arg7) hostOps26 _ hostOps26_writes (by decide)).trans (w50_arg7 m ρ c hF)
theorem w51_v0 (hF : Reg.Finals) : W51 (F := Ideal) m ρ c (Proc.devRef .tc main_v0) = a1 m c :=
  (StableHlo.after_of_writes_sub (r := main_v0) hostOps26 _ hostOps26_writes (by decide)).trans (w50_v0 m ρ c hF)
theorem w51_v135 (hF : Reg.Finals) : W51 (F := Ideal) m ρ c (Proc.devRef .tc main_v135) = f6 m c :=
  (StableHlo.after_of_writes_sub (r := main_v135) hostOps26 _ hostOps26_writes (by decide)).trans (w50_v135 m ρ c hF)
theorem w51_v140_0 (hF : Reg.Finals) : W51 (F := Ideal) m ρ c (Proc.devRef .tc main_v140_0) = supAgg 64 (f6 m c) (slab (a4 m c) 11) :=
  (StableHlo.after_of_writes_sub (r := main_v140_0) hostOps26 _ hostOps26_writes (by decide)).trans (w50_v140_0 m ρ c hF)
theorem w51_v140_1 (hF : Reg.Finals) : W51 (F := Ideal) m ρ c (Proc.devRef .tc main_v140_1) = supPass 64 128 (f6 m c) (slab (a4 m c) 11) :=
  (StableHlo.after_of_writes_sub (r := main_v140_1) hostOps26 _ hostOps26_writes (by decide)).trans (w50_v140_1 m ρ c hF)
theorem w51_v142 (hF : Reg.Finals) : W51 (F := Ideal) m ρ c (Proc.devRef .tc main_v142) = piece 64 0 (row (a5 m c) 11) := by
  show StableHlo.after hostOps26 (W50 m ρ c) (Proc.devRef .tc main_v142) = _
  after_results
  rw [w50_v139 m ρ c hF]
  exact piece_host (row (a5 m c) 11) 0 (by decide) _ _
theorem w51_v144 (hF : Reg.Finals) : W51 (F := Ideal) m ρ c (Proc.devRef .tc main_v144) = piece 128 64 (row (a5 m c) 11) := by
  show StableHlo.after hostOps26 (W50 m ρ c) (Proc.devRef .tc main_v144) = _
  after_results
  rw [w50_v139 m ρ c hF]
  exact piece_host (row (a5 m c) 11) 64 (by decide) _ _

/-! ## After region 26 -/

theorem w52_arg6 (hF : Reg.Finals) : W52 (F := Ideal) m ρ c (Proc.devRef .tc main_arg6) = a6 m c :=
  (W52_of_ne m ρ c main_arg6 (by decide)).trans (w51_arg6 m ρ c hF)
theorem w52_arg7 (hF : Reg.Finals) : W52 (F := Ideal) m ρ c (Proc.devRef .tc main_arg7) = a7 m c :=
  (W52_of_ne m ρ c main_arg7 (by decide)).trans (w51_arg7 m ρ c hF)
theorem w52_v0 (hF : Reg.Finals) : W52 (F := Ideal) m ρ c (Proc.devRef .tc main_v0) = a1 m c :=
  ((W52_arr m ρ c 0).trans (((dat26 (V51 m ρ) c).arrAt_in 0 rfl _).trans (A_eq26 (V51 m ρ) c 0))).trans (w51_v0 m ρ c hF)
theorem w52_v135 (hF : Reg.Finals) : W52 (F := Ideal) m ρ c (Proc.devRef .tc main_v135) = f6 m c :=
  (W52_of_ne m ρ c main_v135 (by decide)).trans (w51_v135 m ρ c hF)
set_option maxHeartbeats 16000000 in
theorem w52_v145 (hF : Reg.Finals) : W52 (F := Ideal) m ρ c (Proc.devRef .tc main_v145) = x13 m c :=
  (W52_arr m ρ c 5).trans ((hF.agg26 (V51 m ρ) c).trans
    (agg_step (M := 8192) (K := 192) (N := 192) (P := 128) 64 rfl (f6 m c) (a1 m c) (slab (a4 m c) 11) (row (a5 m c) 11)
      (w51_v0 m ρ c hF) (w51_v140_0 m ρ c hF) (w51_v140_1 m ρ c hF) (w51_v142 m ρ c hF) (w51_v144 m ρ c hF)))

/-! ## After the host operations before region 27 -/

theorem w53_arg6 (hF : Reg.Finals) : W53 (F := Ideal) m ρ c (Proc.devRef .tc main_arg6) = a6 m c :=
  (StableHlo.after_of_writes_sub (r := main_arg6) hostOps27 _ hostOps27_writes (by decide)).trans (w52_arg6 m ρ c hF)
theorem w53_arg7 (hF : Reg.Finals) : W53 (F := Ideal) m ρ c (Proc.devRef .tc main_arg7) = a7 m c :=
  (StableHlo.after_of_writes_sub (r := main_arg7) hostOps27 _ hostOps27_writes (by decide)).trans (w52_arg7 m ρ c hF)
theorem w53_v0 (hF : Reg.Finals) : W53 (F := Ideal) m ρ c (Proc.devRef .tc main_v0) = a1 m c :=
  (StableHlo.after_of_writes_sub (r := main_v0) hostOps27 _ hostOps27_writes (by decide)).trans (w52_v0 m ρ c hF)
theorem w53_v148 (hF : Reg.Finals) : W53 (F := Ideal) m ρ c (Proc.devRef .tc main_v148) = f7 m c := by
  show StableHlo.after hostOps27 (W52 m ρ c) (Proc.devRef .tc main_v148) = _
  after_results
  rw [w52_v135 m ρ c hF, w52_v145 m ρ c hF]
  exact resid_host _ _ _ _

/-! ## After region 27 -/

theorem w54_arg7 (hF : Reg.Finals) : W54 (F := Ideal) m ρ c (Proc.devRef .tc main_arg7) = a7 m c :=
  (W54_of_ne m ρ c main_arg7 (by decide)).trans (w53_arg7 m ρ c hF)
theorem w54_v0 (hF : Reg.Finals) : W54 (F := Ideal) m ρ c (Proc.devRef .tc main_v0) = a1 m c :=
  (W54_of_ne m ρ c main_v0 (by decide)).trans (w53_v0 m ρ c hF)
theorem w54_v148 (hF : Reg.Finals) : W54 (F := Ideal) m ρ c (Proc.devRef .tc main_v148) = f7 m c :=
  ((W54_arr m ρ c 0).trans (((dat27 (V53 m ρ) c).arrAt_in 0 rfl _).trans (A_eq27 (V53 m ρ) c 0))).trans (w53_v148 m ρ c hF)
set_option maxHeartbeats 16000000 in
theorem w54_v149_0 (hF : Reg.Finals) : W54 (F := Ideal) m ρ c (Proc.devRef .tc main_v149_0) = supAgg 2 (f7 m c) (a6 m c) :=
  (W54_arr m ρ c 2).trans ((hF.split27a (V53 m ρ) c).trans
    (congrArg₂ (supAgg (M := 8192) (K := 192) (N := 3) 2) (w53_v148 m ρ c hF) (w53_arg6 m ρ c hF)))
set_option maxHeartbeats 16000000 in
theorem w54_v149_1 (hF : Reg.Finals) : W54 (F := Ideal) m ρ c (Proc.devRef .tc main_v149_1) = supPass 2 1 (f7 m c) (a6 m c) :=
  (W54_arr m ρ c 3).trans ((hF.split27p (V53 m ρ) c).trans
    (congrArg₂ (supPass (M := 8192) (K := 192) (N := 3) 2 1) (w53_v148 m ρ c hF) (w53_arg6 m ρ c hF)))

/-! ## After the host operations before region 28 -/

theorem w55_v0 (hF : Reg.Finals) : W55 (F := Ideal) m ρ c (Proc.devRef .tc main_v0) = a1 m c :=
  (StableHlo.after_of_writes_sub (r := main_v0) hostOps28 _ hostOps28_writes (by decide)).trans (w54_v0 m ρ c hF)
theorem w55_v148 (hF : Reg.Finals) : W55 (F := Ideal) m ρ c (Proc.devRef .tc main_v148) = f7 m c :=
  (StableHlo.after_of_writes_sub (r := main_v148) hostOps28 _ hostOps28_writes (by decide)).trans (w54_v148 m ρ c hF)
theorem w55_v149_0 (hF : Reg.Finals) : W55 (F := Ideal) m ρ c (Proc.devRef .tc main_v149_0) = supAgg 2 (f7 m c) (a6 m c) :=
  (StableHlo.after_of_writes_sub (r := main_v149_0) hostOps28 _ hostOps28_writes (by decide)).trans (w54_v149_0 m ρ c hF)
theorem w55_v149_1 (hF : Reg.Finals) : W55 (F := Ideal) m ρ c (Proc.devRef .tc main_v149_1) = supPass 2 1 (f7 m c) (a6 m c) :=
  (StableHlo.after_of_writes_sub (r := main_v149_1) hostOps28 _ hostOps28_writes (by decide)).trans (w54_v149_1 m ρ c hF)
theorem w55_v151 (hF : Reg.Finals) : W55 (F := Ideal) m ρ c (Proc.devRef .tc main_v151) = piece 2 0 (a7 m c) := by
  show StableHlo.after hostOps28 (W54 m ρ c) (Proc.devRef .tc main_v151) = _
  after_results
  rw [w54_arg7 m ρ c hF]
  exact piece_host (a7 m c) 0 (by decide) _ _
theorem w55_v153 (hF : Reg.Finals) : W55 (F := Ideal) m ρ c (Proc.devRef .tc main_v153) = piece 1 2 (a7 m c) := by
  show StableHlo.after hostOps28 (W54 m ρ c) (Proc.devRef .tc main_v153) = _
  after_results
  rw [w54_arg7 m ρ c hF]
  exact piece_host (a7 m c) 2 (by decide) _ _

/-! ## After region 28 -/

theorem w56_v148 (hF : Reg.Finals) : W56 (F := Ideal) m ρ c (Proc.devRef .tc main_v148) = f7 m c :=
  (W56_of_ne m ρ c main_v148 (by decide)).trans (w55_v148 m ρ c hF)
set_option maxHeartbeats 16000000 in
theorem w56_v154 (hF : Reg.Finals) : W56 (F := Ideal) m ρ c (Proc.devRef .tc main_v154) = out m c :=
  (W56_arr m ρ c 5).trans ((hF.agg28 (V55 m ρ) c).trans
    (aggPre_step (M := 8192) (K := 192) (N := 3) (P := 1) 2 rfl (f7 m c) (a1 m c) (a6 m c) (a7 m c)
      (w55_v0 m ρ c hF) (w55_v149_0 m ρ c hF) (w55_v149_1 m ρ c hF) (w55_v151 m ρ c hF) (w55_v153 m ρ c hF)))

end Cert.KernelIdeal.Chain

end
-- ==== Proof.KChain.lean ====
/-
  The kernel program's two results, read through the 56 segments of its run: the coordinates are the first component
  of the network on the launch contents of the eight arguments, the last running features the second.
-/
import proofs.«108744_j27797028339962_2_alg».proof.Proof.KChainG

noncomputable section

namespace Cert.KernelIdeal.Chain

open Cert.KernelIdeal Cert.KernelIdeal.Gen Cert.Gcn Idealize.ShloMosaic Idealize.ShloMosaic.TcCoe Idealize.SL.Sem

theorem value (hF : Cert.KernelIdeal.Reg.Finals) (m : (ℓ : Loc nD τ sig) → Buf (Elt Ideal) ℓ) (ρ : Dev nD → PrngReg) (c : Dev nD) :
    W56 (F := Ideal) m ρ c (Proc.devRef .tc main_v154) = (net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1
      ∧ W56 (F := Ideal) m ρ c (Proc.devRef .tc main_v148) = (net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 :=
  ⟨(w56_v154 m ρ c hF).trans (congrArg Prod.fst (net_eq m c)).symm,
   (w56_v148 m ρ c hF).trans (congrArg Prod.snd (net_eq m c)).symm⟩

end Cert.KernelIdeal.Chain

end
-- ==== Proof.RPieces.lean ====
/-
  The reference program's 228 host operations, in order, cut into 21 consecutive pieces: one per layer (a middle layer's
  piece begins with the slices and reshapes that fetch its weights and bias) and one per averaging step. Each piece is the
  literal list of its operations, for any float values; their concatenation is the whole program.
-/
import proofs.«108744_j27797028339962_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's eight arguments. -/
abbrev argRefs : List (Ref sig .tc) :=
  [main_arg0, main_arg1, main_arg2, main_arg3, main_arg4, main_arg5, main_arg6, main_arg7]

/-- The first layer: the product of the input features with the first weights, its two column pieces, the adjacency product of the first piece, the pieces side by side, the bias, the cut at zero. -/
def pieceL1 : List (HloOp τ sig (Elt F)) :=
  [
    binary main_arg0 main_arg2 main_v0 ((fun l r => Host.dotGeneral dot_S8192x256_S256x192_S8192x192_1_0_0_1_n_n none l r) : (⟨S8192x256, .f32⟩ : BufTy).Contents (Elt F) → (⟨S256x192, .f32⟩ : BufTy).Contents (Elt F) → (⟨S8192x192, .f32⟩ : BufTy).Contents (Elt F)),
    unary main_v0 main_v1 ((extractStridedSlice S8192x64 ![0, 0] · slices_S8192x192_S8192x64_0_0) : (⟨S8192x192, .f32⟩ : BufTy).Contents (Elt F) → (⟨S8192x64, .f32⟩ : BufTy).Contents (Elt F)),
    binary main_arg1 main_v1 main_v2 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v0 main_v3 ((extractStridedSlice S8192x128 ![0, 64] · slices_S8192x192_S8192x128_0_64) : (⟨S8192x192, .f32⟩ : BufTy).Contents (Elt F) → (⟨S8192x128, .f32⟩ : BufTy).Contents (Elt F)),
    binary main_v2 main_v3 main_v4 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_arg3 main_v5 (broadcastInDim S1x192 ![1] bcast_S192_S1x192_1 : (⟨S192, .f32⟩ : BufTy).Contents (Elt F) → (⟨S1x192, .f32⟩ : BufTy).Contents (Elt F)),
    unary main_v5 main_v6 (broadcastInDim S8192x192 ![0, 1] bcast_S1x192_S8192x192_0_1 : (⟨S1x192, .f32⟩ : BufTy).Contents (Elt F) → (⟨S8192x192, .f32⟩ : BufTy).Contents (Elt F)),
    binary main_v4 main_v6 main_v7 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x192, .f32⟩) main_call0_v0) (broadcastInDim S8192x192 ![] bcast_S_S8192x192),
    TRef.binary (TRef.of (T := ⟨S8192x192, .f32⟩) main_v7) (TRef.of (T := ⟨S8192x192, .f32⟩) main_call0_v0) (TRef.of (T := ⟨S8192x192, .f32⟩) main_v8) maximumf ]

/-- Layer 2: slab 0 of the stacked weights and row 0 of the stacked biases, then the layer's product, pieces, adjacency product, bias and cut at zero. -/
def pieceA2 : List (HloOp τ sig (Elt F)) :=
  [
    unary main_arg4 main_v9 ((extractStridedSlice S1x192x192 ![0, 0, 0] · slices_S12x192x192_S1x192x192_0_0_0) : (⟨S12x192x192, .f32⟩ : BufTy).Contents (Elt F) → (⟨S1x192x192, .f32⟩ : BufTy).Contents (Elt F)),
    reshape main_v9 main_v10 rfl shapeCasts_S1x192x192_S192x192,
    unary main_arg5 main_v11 ((extractStridedSlice S1x192 ![0, 0] · slices_S12x192_S1x192_0_0) : (⟨S12x192, .f32⟩ : BufTy).Contents (Elt F) → (⟨S1x192, .f32⟩ : BufTy).Contents (Elt F)),
    reshape main_v11 main_v12 rfl shapeCasts_S1x192_S192,
    binary main_v8 main_v10 main_v13 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v13 main_v14 ((extractStridedSlice S8192x64 ![0, 0] · slices_S8192x192_S8192x64_0_0) : (⟨S8192x192, .f32⟩ : BufTy).Contents (Elt F) → (⟨S8192x64, .f32⟩ : BufTy).Contents (Elt F)),
    binary main_arg1 main_v14 main_v15 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v13 main_v16 ((extractStridedSlice S8192x128 ![0, 64] · slices_S8192x192_S8192x128_0_64) : (⟨S8192x192, .f32⟩ : BufTy).Contents (Elt F) → (⟨S8192x128, .f32⟩ : BufTy).Contents (Elt F)),
    binary main_v15 main_v16 main_v17 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v12 main_v18 (broadcastInDim S1x192 ![1] bcast_S192_S1x192_1 : (⟨S192, .f32⟩ : BufTy).Contents (Elt F) → (⟨S1x192, .f32⟩ : BufTy).Contents (Elt F)),
    unary main_v18 main_v19 (broadcastInDim S8192x192 ![0, 1] bcast_S1x192_S8192x192_0_1 : (⟨S1x192, .f32⟩ : BufTy).Contents (Elt F) → (⟨S8192x192, .f32⟩ : BufTy).Contents (Elt F)),
    binary main_v17 main_v19 main_v20 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x192, .f32⟩) main_call1_v0) (broadcastInDim S8192x192 ![] bcast_S_S8192x192),
    TRef.binary (TRef.of (T := ⟨S8192x192, .f32⟩) main_v20) (TRef.of (T := ⟨S8192x192, .f32⟩) main_call1_v0) (TRef.of (T := ⟨S8192x192, .f32⟩) main_v21) maximumf ]

/-- Averaging step 1: the sum of the running features and the last layer's output, times the constant one half repeated everywhere. -/
def pieceR1 : List (HloOp τ sig (Elt F)) :=
  [
    unary main_arg0 main_v22 ((extractStridedSlice S8192x192 ![0, 0] · slices_S8192x256_S8192x192_0_0) : (⟨S8192x256, .f32⟩ : BufTy).Contents (Elt F) → (⟨S8192x192, .f32⟩ : BufTy).Contents (Elt F)),
    binary main_v22 main_v21 main_v23 (addf : (⟨S8192x192, .f32⟩ : BufTy).Contents (Elt F) → (⟨S8192x192, .f32⟩ : BufTy).Contents (Elt F) → (⟨S8192x192, .f32⟩ : BufTy).Contents (Elt F)),
    nullary main_cst (constant S_ .f32 0x3F000000#32),
    unary main_cst main_v24 (broadcastInDim S8192x192 ![] bcast_S_S8192x192 : (⟨S_, .f32⟩ : BufTy).Contents (Elt F) → (⟨S8192x192, .f32⟩ : BufTy).Contents (Elt F)),
    binary main_v23 main_v24 main_v25 (mulf : (⟨S8192x192, .f32⟩ : BufTy).Contents (Elt F) → (⟨S8192x192, .f32⟩ : BufTy).Contents (Elt F) → (⟨S8192x192, .f32⟩ : BufTy).Contents (Elt F)) ]

/-- Layer 3: slab 1 of the stacked weights and row 1 of the stacked biases, then the layer's product, pieces, adjacency product, bias and cut at zero. -/
def pieceA3 : List (HloOp τ sig (Elt F)) :=
  [
    unary main_arg4 main_v26 ((extractStridedSlice S1x192x192 ![1, 0, 0] · slices_S12x192x192_S1x192x192_1_0_0) : (⟨S12x192x192, .f32⟩ : BufTy).Contents (Elt F) → (⟨S1x192x192, .f32⟩ : BufTy).Contents (Elt F)),
    reshape main_v26 main_v27 rfl shapeCasts_S1x192x192_S192x192,
    unary main_arg5 main_v28 ((extractStridedSlice S1x192 ![1, 0] · slices_S12x192_S1x192_1_0) : (⟨S12x192, .f32⟩ : BufTy).Contents (Elt F) → (⟨S1x192, .f32⟩ : BufTy).Contents (Elt F)),
    reshape main_v28 main_v29 rfl shapeCasts_S1x192_S192,
    binary main_v25 main_v27 main_v30 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v30 main_v31 ((extractStridedSlice S8192x64 ![0, 0] · slices_S8192x192_S8192x64_0_0) : (⟨S8192x192, .f32⟩ : BufTy).Contents (Elt F) → (⟨S8192x64, .f32⟩ : BufTy).Contents (Elt F)),
    binary main_arg1 main_v31 main_v32 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v30 main_v33 ((extractStridedSlice S8192x128 ![0, 64] · slices_S8192x192_S8192x128_0_64) : (⟨S8192x192, .f32⟩ : BufTy).Contents (Elt F) → (⟨S8192x128, .f32⟩ : BufTy).Contents (Elt F)),
    binary main_v32 main_v33 main_v34 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v29 main_v35 (broadcastInDim S1x192 ![1] bcast_S192_S1x192_1 : (⟨S192, .f32⟩ : BufTy).Contents (Elt F) → (⟨S1x192, .f32⟩ : BufTy).Contents (Elt F)),
    unary main_v35 main_v36 (broadcastInDim S8192x192 ![0, 1] bcast_S1x192_S8192x192_0_1 : (⟨S1x192, .f32⟩ : BufTy).Contents (Elt F) → (⟨S8192x192, .f32⟩ : BufTy).Contents (Elt F)),
    binary main_v34 main_v36 main_v37 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x192, .f32⟩) main_call2_v0) (broadcastInDim S8192x192 ![] bcast_S_S8192x192),
    TRef.binary (TRef.of (T := ⟨S8192x192, .f32⟩) main_v37) (TRef.of (T := ⟨S8192x192, .f32⟩) main_call2_v0) (TRef.of (T := ⟨S8192x192, .f32⟩) main_v38) maximumf ]

/-- Layer 4: slab 2 of the stacked weights and row 2 of the stacked biases, then the layer's product, pieces, adjacency product, bias and cut at zero. -/
def pieceA4 : List (HloOp τ sig (Elt F)) :=
  [
    unary main_arg4 main_v39 ((extractStridedSlice S1x192x192 ![2, 0, 0] · slices_S12x192x192_S1x192x192_2_0_0) : (⟨S12x192x192, .f32⟩ : BufTy).Contents (Elt F) → (⟨S1x192x192, .f32⟩ : BufTy).Contents (Elt F)),
    reshape main_v39 main_v40 rfl shapeCasts_S1x192x192_S192x192,
    unary main_arg5 main_v41 ((extractStridedSlice S1x192 ![2, 0] · slices_S12x192_S1x192_2_0) : (⟨S12x192, .f32⟩ : BufTy).Contents (Elt F) → (⟨S1x192, .f32⟩ : BufTy).Contents (Elt F)),
    reshape main_v41 main_v42 rfl shapeCasts_S1x192_S192,
    binary main_v38 main_v40 main_v43 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v43 main_v44 ((extractStridedSlice S8192x64 ![0, 0] · slices_S8192x192_S8192x64_0_0) : (⟨S8192x192, .f32⟩ : BufTy).Contents (Elt F) → (⟨S8192x64, .f32⟩ : BufTy).Contents (Elt F)),
    binary main_arg1 main_v44 main_v45 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v43 main_v46 ((extractStridedSlice S8192x128 ![0, 64] · slices_S8192x192_S8192x128_0_64) : (⟨S8192x192, .f32⟩ : BufTy).Contents (Elt F) → (⟨S8192x128, .f32⟩ : BufTy).Contents (Elt F)),
    binary main_v45 main_v46 main_v47 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v42 main_v48 (broadcastInDim S1x192 ![1] bcast_S192_S1x192_1 : (⟨S192, .f32⟩ : BufTy).Contents (Elt F) → (⟨S1x192, .f32⟩ : BufTy).Contents (Elt F)),
    unary main_v48 main_v49 (broadcastInDim S8192x192 ![0, 1] bcast_S1x192_S8192x192_0_1 : (⟨S1x192, .f32⟩ : BufTy).Contents (Elt F) → (⟨S8192x192, .f32⟩ : BufTy).Contents (Elt F)),
    binary main_v47 main_v49 main_v50 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x192, .f32⟩) main_call3_v0) (broadcastInDim S8192x192 ![] bcast_S_S8192x192),
    TRef.binary (TRef.of (T := ⟨S8192x192, .f32⟩) main_v50) (TRef.of (T := ⟨S8192x192, .f32⟩) main_call3_v0) (TRef.of (T := ⟨S8192x192, .f32⟩) main_v51) maximumf ]

/-- Averaging step 2: the sum of the running features and the last layer's output, times the constant one half repeated everywhere. -/
def pieceR2 : List (HloOp τ sig (Elt F)) :=
  [
    binary main_v25 main_v51 main_v52 (addf : (⟨S8192x192, .f32⟩ : BufTy).Contents (Elt F) → (⟨S8192x192, .f32⟩ : BufTy).Contents (Elt F) → (⟨S8192x192, .f32⟩ : BufTy).Contents (Elt F)),
    nullary main_cst_0 (constant S_ .f32 0x3F000000#32),
    unary main_cst_0 main_v53 (broadcastInDim S8192x192 ![] bcast_S_S8192x192 : (⟨S_, .f32⟩ : BufTy).Contents (Elt F) → (⟨S8192x192, .f32⟩ : BufTy).Contents (Elt F)),
    binary main_v52 main_v53 main_v54 (mulf : (⟨S8192x192, .f32⟩ : BufTy).Contents (Elt F) → (⟨S8192x192, .f32⟩ : BufTy).Contents (Elt F) → (⟨S8192x192, .f32⟩ : BufTy).Contents (Elt F)) ]

/-- Layer 5: slab 3 of the stacked weights and row 3 of the stacked biases, then the layer's product, pieces, adjacency product, bias and cut at zero. -/
def pieceA5 : List (HloOp τ sig (Elt F)) :=
  [
    unary main_arg4 main_v55 ((extractStridedSlice S1x192x192 ![3, 0, 0] · slices_S12x192x192_S1x192x192_3_0_0) : (⟨S12x192x192, .f32⟩ : BufTy).Contents (Elt F) → (⟨S1x192x192, .f32⟩ : BufTy).Contents (Elt F)),
    reshape main_v55 main_v56 rfl shapeCasts_S1x192x192_S192x192,
    unary main_arg5 main_v57 ((extractStridedSlice S1x192 ![3, 0] · slices_S12x192_S1x192_3_0) : (⟨S12x192, .f32⟩ : BufTy).Contents (Elt F) → (⟨S1x192, .f32⟩ : BufTy).Contents (Elt F)),
    reshape main_v57 main_v58 rfl shapeCasts_S1x192_S192,
    binary main_v54 main_v56 main_v59 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v59 main_v60 ((extractStridedSlice S8192x64 ![0, 0] · slices_S8192x192_S8192x64_0_0) : (⟨S8192x192, .f32⟩ : BufTy).Contents (Elt F) → (⟨S8192x64, .f32⟩ : BufTy).Contents (Elt F)),
    binary main_arg1 main_v60 main_v61 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v59 main_v62 ((extractStridedSlice S8192x128 ![0, 64] · slices_S8192x192_S8192x128_0_64) : (⟨S8192x192, .f32⟩ : BufTy).Contents (Elt F) → (⟨S8192x128, .f32⟩ : BufTy).Contents (Elt F)),
    binary main_v61 main_v62 main_v63 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v58 main_v64 (broadcastInDim S1x192 ![1] bcast_S192_S1x192_1 : (⟨S192, .f32⟩ : BufTy).Contents (Elt F) → (⟨S1x192, .f32⟩ : BufTy).Contents (Elt F)),
    unary main_v64 main_v65 (broadcastInDim S8192x192 ![0, 1] bcast_S1x192_S8192x192_0_1 : (⟨S1x192, .f32⟩ : BufTy).Contents (Elt F) → (⟨S8192x192, .f32⟩ : BufTy).Contents (Elt F)),
    binary main_v63 main_v65 main_v66 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192x192, .f32⟩) main_call4_v0) (broadcastInDim S8192x192 ![] bcast_S_S8192x192),
    TRef.binary (TRef.of (T := ⟨S8192x192, .f32⟩) main_v66) (TRef.of (T := ⟨S8192x192, .f32⟩) main_call4_v0) (TRef.of (T := ⟨S8192x192, .f32⟩) main_v67) maximumf ]

/-- Layer 6: slab 4 of the stacked weights and row 4 of the stacked biases, then the layer's product, pieces, adjacency product, bias and cut at zero. -/
def pieceA6 : List (HloOp τ sig (Elt F)) :=
  [
    unary main_arg4 main_v68 ((extractStridedSlice S1x192x192 ![4, 0, 0] · slices_S12x192x192_S1x192x192_4_0_0) : (⟨S12x192x192, .f32⟩ : BufTy).Contents (Elt F) → (⟨S1x192x192, .f32⟩ : BufTy).Contents (Elt F)),
    reshape main_v68 main_v69 rfl shapeCasts_S1x192x192_S192x192,
    unary main_arg5 main_v70 ((extractStridedSlice S1x192 ![4, 0] · slices_S12x192_S1x192_4_0) : (⟨S12x192, .f32⟩ : BufTy).Contents (Elt F) → (⟨S1x192, .f32⟩ : BufTy).Contents (Elt F)),
    reshape main_v70 main_v71 rfl shapeCasts_S1x192_S192,
    binary main_v67 main_v69 main_v72 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v72 main_v73 ((extractStridedSlice S8192x64 ![0, 0] · slices_S8192x192_S8192x64_0_0) : (⟨S8192x192, .f32⟩ : BufTy).Contents (Elt F) → (⟨S8192x64, .f32⟩ : BufTy).Contents (Elt F)),
    binary main_arg1 main_v73 main_v74 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v72 main_v75 ((extractStridedSlice S8192x128 ![0, 64] · slices_S8192x192_S8192x128_0_64) : (⟨S8192x192, .f32⟩ : BufTy).Contents (Elt F) → (⟨S8192x128, .f32⟩ : BufTy).Contents (Elt F)),
    binary main_v74 main_v75 main_v76 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v71 main_v77 (broadcastInDim S1x192 ![1] bcast_S192_S1x192_1 : (⟨S192, .f32⟩ : BufTy).Contents (Elt F) → (⟨S1x192, .f32⟩ : BufTy).Contents (Elt F)),
    unary main_v77 main_v78 (broadcastInDim S8192x192 ![0, 1] bcast_S1x192_S8192x192_0_1 : (⟨S1x192, .f32⟩ : BufTy).Contents (Elt F) → (⟨S8192x192, .f32⟩ : BufTy).Contents (Elt F)),
    binary main_v76 main_v78 main_v79 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192x192, .f32⟩) main_call5_v0) (broadcastInDim S8192x192 ![] bcast_S_S8192x192),
    TRef.binary (TRef.of (T := ⟨S8192x192, .f32⟩) main_v79) (TRef.of (T := ⟨S8192x192, .f32⟩) main_call5_v0) (TRef.of (T := ⟨S8192x192, .f32⟩) main_v80) maximumf ]

/-- Averaging step 3: the sum of the running features and the last layer's output, times the constant one half repeated everywhere. -/
def pieceR3 : List (HloOp τ sig (Elt F)) :=
  [
    binary main_v54 main_v80 main_v81 (addf : (⟨S8192x192, .f32⟩ : BufTy).Contents (Elt F) → (⟨S8192x192, .f32⟩ : BufTy).Contents (Elt F) → (⟨S8192x192, .f32⟩ : BufTy).Contents (Elt F)),
    nullary main_cst_1 (constant S_ .f32 0x3F000000#32),
    unary main_cst_1 main_v82 (broadcastInDim S8192x192 ![] bcast_S_S8192x192 : (⟨S_, .f32⟩ : BufTy).Contents (Elt F) → (⟨S8192x192, .f32⟩ : BufTy).Contents (Elt F)),
    binary main_v81 main_v82 main_v83 (mulf : (⟨S8192x192, .f32⟩ : BufTy).Contents (Elt F) → (⟨S8192x192, .f32⟩ : BufTy).Contents (Elt F) → (⟨S8192x192, .f32⟩ : BufTy).Contents (Elt F)) ]

/-- Layer 7: slab 5 of the stacked weights and row 5 of the stacked biases, then the layer's product, pieces, adjacency product, bias and cut at zero. -/
def pieceA7 : List (HloOp τ sig (Elt F)) :=
  [
    unary main_arg4 main_v84 ((extractStridedSlice S1x192x192 ![5, 0, 0] · slices_S12x192x192_S1x192x192_5_0_0) : (⟨S12x192x192, .f32⟩ : BufTy).Contents (Elt F) → (⟨S1x192x192, .f32⟩ : BufTy).Contents (Elt F)),
    reshape main_v84 main_v85 rfl shapeCasts_S1x192x192_S192x192,
    unary main_arg5 main_v86 ((extractStridedSlice S1x192 ![5, 0] · slices_S12x192_S1x192_5_0) : (⟨S12x192, .f32⟩ : BufTy).Contents (Elt F) → (⟨S1x192, .f32⟩ : BufTy).Contents (Elt F)),
    reshape main_v86 main_v87 rfl shapeCasts_S1x192_S192,
    binary main_v83 main_v85 main_v88 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v88 main_v89 ((extractStridedSlice S8192x64 ![0, 0] · slices_S8192x192_S8192x64_0_0) : (⟨S8192x192, .f32⟩ : BufTy).Contents (Elt F) → (⟨S8192x64, .f32⟩ : BufTy).Contents (Elt F)),
    binary main_arg1 main_v89 main_v90 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v88 main_v91 ((extractStridedSlice S8192x128 ![0, 64] · slices_S8192x192_S8192x128_0_64) : (⟨S8192x192, .f32⟩ : BufTy).Contents (Elt F) → (⟨S8192x128, .f32⟩ : BufTy).Contents (Elt F)),
    binary main_v90 main_v91 main_v92 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v87 main_v93 (broadcastInDim S1x192 ![1] bcast_S192_S1x192_1 : (⟨S192, .f32⟩ : BufTy).Contents (Elt F) → (⟨S1x192, .f32⟩ : BufTy).Contents (Elt F)),
    unary main_v93 main_v94 (broadcastInDim S8192x192 ![0, 1] bcast_S1x192_S8192x192_0_1 : (⟨S1x192, .f32⟩ : BufTy).Contents (Elt F) → (⟨S8192x192, .f32⟩ : BufTy).Contents (Elt F)),
    binary main_v92 main_v94 main_v95 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8192x192, .f32⟩) main_call6_v0) (broadcastInDim S8192x192 ![] bcast_S_S8192x192),
    TRef.binary (TRef.of (T := ⟨S8192x192, .f32⟩) main_v95) (TRef.of (T := ⟨S8192x192, .f32⟩) main_call6_v0) (TRef.of (T := ⟨S8192x192, .f32⟩) main_v96) maximumf ]

/-- Layer 8: slab 6 of the stacked weights and row 6 of the stacked biases, then the layer's product, pieces, adjacency product, bias and cut at zero. -/
def pieceA8 : List (HloOp τ sig (Elt F)) :=
  [
    unary main_arg4 main_v97 ((extractStridedSlice S1x192x192 ![6, 0, 0] · slices_S12x192x192_S1x192x192_6_0_0) : (⟨S12x192x192, .f32⟩ : BufTy).Contents (Elt F) → (⟨S1x192x192, .f32⟩ : BufTy).Contents (Elt F)),
    reshape main_v97 main_v98 rfl shapeCasts_S1x192x192_S192x192,
    unary main_arg5 main_v99 ((extractStridedSlice S1x192 ![6, 0] · slices_S12x192_S1x192_6_0) : (⟨S12x192, .f32⟩ : BufTy).Contents (Elt F) → (⟨S1x192, .f32⟩ : BufTy).Contents (Elt F)),
    reshape main_v99 main_v100 rfl shapeCasts_S1x192_S192,
    binary main_v96 main_v98 main_v101 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v101 main_v102 ((extractStridedSlice S8192x64 ![0, 0] · slices_S8192x192_S8192x64_0_0) : (⟨S8192x192, .f32⟩ : BufTy).Contents (Elt F) → (⟨S8192x64, .f32⟩ : BufTy).Contents (Elt F)),
    binary main_arg1 main_v102 main_v103 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v101 main_v104 ((extractStridedSlice S8192x128 ![0, 64] · slices_S8192x192_S8192x128_0_64) : (⟨S8192x192, .f32⟩ : BufTy).Contents (Elt F) → (⟨S8192x128, .f32⟩ : BufTy).Contents (Elt F)),
    binary main_v103 main_v104 main_v105 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v100 main_v106 (broadcastInDim S1x192 ![1] bcast_S192_S1x192_1 : (⟨S192, .f32⟩ : BufTy).Contents (Elt F) → (⟨S1x192, .f32⟩ : BufTy).Contents (Elt F)),
    unary main_v106 main_v107 (broadcastInDim S8192x192 ![0, 1] bcast_S1x192_S8192x192_0_1 : (⟨S1x192, .f32⟩ : BufTy).Contents (Elt F) → (⟨S8192x192, .f32⟩ : BufTy).Contents (Elt F)),
    binary main_v105 main_v107 main_v108 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192x192, .f32⟩) main_call7_v0) (broadcastInDim S8192x192 ![] bcast_S_S8192x192),
    TRef.binary (TRef.of (T := ⟨S8192x192, .f32⟩) main_v108) (TRef.of (T := ⟨S8192x192, .f32⟩) main_call7_v0) (TRef.of (T := ⟨S8192x192, .f32⟩) main_v109) maximumf ]

/-- Averaging step 4: the sum of the running features and the last layer's output, times the constant one half repeated everywhere. -/
def pieceR4 : List (HloOp τ sig (Elt F)) :=
  [
    binary main_v83 main_v109 main_v110 (addf : (⟨S8192x192, .f32⟩ : BufTy).Contents (Elt F) → (⟨S8192x192, .f32⟩ : BufTy).Contents (Elt F) → (⟨S8192x192, .f32⟩ : BufTy).Contents (Elt F)),
    nullary main_cst_2 (constant S_ .f32 0x3F000000#32),
    unary main_cst_2 main_v111 (broadcastInDim S8192x192 ![] bcast_S_S8192x192 : (⟨S_, .f32⟩ : BufTy).Contents (Elt F) → (⟨S8192x192, .f32⟩ : BufTy).Contents (Elt F)),
    binary main_v110 main_v111 main_v112 (mulf : (⟨S8192x192, .f32⟩ : BufTy).Contents (Elt F) → (⟨S8192x192, .f32⟩ : BufTy).Contents (Elt F) → (⟨S8192x192, .f32⟩ : BufTy).Contents (Elt F)) ]

/-- Layer 9: slab 7 of the stacked weights and row 7 of the stacked biases, then the layer's product, pieces, adjacency product, bias and cut at zero. -/
def pieceA9 : List (HloOp τ sig (Elt F)) :=
  [
    unary main_arg4 main_v113 ((extractStridedSlice S1x192x192 ![7, 0, 0] · slices_S12x192x192_S1x192x192_7_0_0) : (⟨S12x192x192, .f32⟩ : BufTy).Contents (Elt F) → (⟨S1x192x192, .f32⟩ : BufTy).Contents (Elt F)),
    reshape main_v113 main_v114 rfl shapeCasts_S1x192x192_S192x192,
    unary main_arg5 main_v115 ((extractStridedSlice S1x192 ![7, 0] · slices_S12x192_S1x192_7_0) : (⟨S12x192, .f32⟩ : BufTy).Contents (Elt F) → (⟨S1x192, .f32⟩ : BufTy).Contents (Elt F)),
    reshape main_v115 main_v116 rfl shapeCasts_S1x192_S192,
    binary main_v112 main_v114 main_v117 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v117 main_v118 ((extractStridedSlice S8192x64 ![0, 0] · slices_S8192x192_S8192x64_0_0) : (⟨S8192x192, .f32⟩ : BufTy).Contents (Elt F) → (⟨S8192x64, .f32⟩ : BufTy).Contents (Elt F)),
    binary main_arg1 main_v118 main_v119 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v117 main_v120 ((extractStridedSlice S8192x128 ![0, 64] · slices_S8192x192_S8192x128_0_64) : (⟨S8192x192, .f32⟩ : BufTy).Contents (Elt F) → (⟨S8192x128, .f32⟩ : BufTy).Contents (Elt F)),
    binary main_v119 main_v120 main_v121 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v116 main_v122 (broadcastInDim S1x192 ![1] bcast_S192_S1x192_1 : (⟨S192, .f32⟩ : BufTy).Contents (Elt F) → (⟨S1x192, .f32⟩ : BufTy).Contents (Elt F)),
    unary main_v122 main_v123 (broadcastInDim S8192x192 ![0, 1] bcast_S1x192_S8192x192_0_1 : (⟨S1x192, .f32⟩ : BufTy).Contents (Elt F) → (⟨S8192x192, .f32⟩ : BufTy).Contents (Elt F)),
    binary main_v121 main_v123 main_v124 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8192x192, .f32⟩) main_call8_v0) (broadcastInDim S8192x192 ![] bcast_S_S8192x192),
    TRef.binary (TRef.of (T := ⟨S8192x192, .f32⟩) main_v124) (TRef.of (T := ⟨S8192x192, .f32⟩) main_call8_v0) (TRef.of (T := ⟨S8192x192, .f32⟩) main_v125) maximumf ]

/-- Layer 10: slab 8 of the stacked weights and row 8 of the stacked biases, then the layer's product, pieces, adjacency product, bias and cut at zero. -/
def pieceA10 : List (HloOp τ sig (Elt F)) :=
  [
    unary main_arg4 main_v126 ((extractStridedSlice S1x192x192 ![8, 0, 0] · slices_S12x192x192_S1x192x192_8_0_0) : (⟨S12x192x192, .f32⟩ : BufTy).Contents (Elt F) → (⟨S1x192x192, .f32⟩ : BufTy).Contents (Elt F)),
    reshape main_v126 main_v127 rfl shapeCasts_S1x192x192_S192x192,
    unary main_arg5 main_v128 ((extractStridedSlice S1x192 ![8, 0] · slices_S12x192_S1x192_8_0) : (⟨S12x192, .f32⟩ : BufTy).Contents (Elt F) → (⟨S1x192, .f32⟩ : BufTy).Contents (Elt F)),
    reshape main_v128 main_v129 rfl shapeCasts_S1x192_S192,
    binary main_v125 main_v127 main_v130 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v130 main_v131 ((extractStridedSlice S8192x64 ![0, 0] · slices_S8192x192_S8192x64_0_0) : (⟨S8192x192, .f32⟩ : BufTy).Contents (Elt F) → (⟨S8192x64, .f32⟩ : BufTy).Contents (Elt F)),
    binary main_arg1 main_v131 main_v132 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v130 main_v133 ((extractStridedSlice S8192x128 ![0, 64] · slices_S8192x192_S8192x128_0_64) : (⟨S8192x192, .f32⟩ : BufTy).Contents (Elt F) → (⟨S8192x128, .f32⟩ : BufTy).Contents (Elt F)),
    binary main_v132 main_v133 main_v134 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v129 main_v135 (broadcastInDim S1x192 ![1] bcast_S192_S1x192_1 : (⟨S192, .f32⟩ : BufTy).Contents (Elt F) → (⟨S1x192, .f32⟩ : BufTy).Contents (Elt F)),
    unary main_v135 main_v136 (broadcastInDim S8192x192 ![0, 1] bcast_S1x192_S8192x192_0_1 : (⟨S1x192, .f32⟩ : BufTy).Contents (Elt F) → (⟨S8192x192, .f32⟩ : BufTy).Contents (Elt F)),
    binary main_v134 main_v136 main_v137 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S8192x192, .f32⟩) main_call9_v0) (broadcastInDim S8192x192 ![] bcast_S_S8192x192),
    TRef.binary (TRef.of (T := ⟨S8192x192, .f32⟩) main_v137) (TRef.of (T := ⟨S8192x192, .f32⟩) main_call9_v0) (TRef.of (T := ⟨S8192x192, .f32⟩) main_v138) maximumf ]

/-- Averaging step 5: the sum of the running features and the last layer's output, times the constant one half repeated everywhere. -/
def pieceR5 : List (HloOp τ sig (Elt F)) :=
  [
    binary main_v112 main_v138 main_v139 (addf : (⟨S8192x192, .f32⟩ : BufTy).Contents (Elt F) → (⟨S8192x192, .f32⟩ : BufTy).Contents (Elt F) → (⟨S8192x192, .f32⟩ : BufTy).Contents (Elt F)),
    nullary main_cst_3 (constant S_ .f32 0x3F000000#32),
    unary main_cst_3 main_v140 (broadcastInDim S8192x192 ![] bcast_S_S8192x192 : (⟨S_, .f32⟩ : BufTy).Contents (Elt F) → (⟨S8192x192, .f32⟩ : BufTy).Contents (Elt F)),
    binary main_v139 main_v140 main_v141 (mulf : (⟨S8192x192, .f32⟩ : BufTy).Contents (Elt F) → (⟨S8192x192, .f32⟩ : BufTy).Contents (Elt F) → (⟨S8192x192, .f32⟩ : BufTy).Contents (Elt F)) ]

/-- Layer 11: slab 9 of the stacked weights and row 9 of the stacked biases, then the layer's product, pieces, adjacency product, bias and cut at zero. -/
def pieceA11 : List (HloOp τ sig (Elt F)) :=
  [
    unary main_arg4 main_v142 ((extractStridedSlice S1x192x192 ![9, 0, 0] · slices_S12x192x192_S1x192x192_9_0_0) : (⟨S12x192x192, .f32⟩ : BufTy).Contents (Elt F) → (⟨S1x192x192, .f32⟩ : BufTy).Contents (Elt F)),
    reshape main_v142 main_v143 rfl shapeCasts_S1x192x192_S192x192,
    unary main_arg5 main_v144 ((extractStridedSlice S1x192 ![9, 0] · slices_S12x192_S1x192_9_0) : (⟨S12x192, .f32⟩ : BufTy).Contents (Elt F) → (⟨S1x192, .f32⟩ : BufTy).Contents (Elt F)),
    reshape main_v144 main_v145 rfl shapeCasts_S1x192_S192,
    binary main_v141 main_v143 main_v146 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v146 main_v147 ((extractStridedSlice S8192x64 ![0, 0] · slices_S8192x192_S8192x64_0_0) : (⟨S8192x192, .f32⟩ : BufTy).Contents (Elt F) → (⟨S8192x64, .f32⟩ : BufTy).Contents (Elt F)),
    binary main_arg1 main_v147 main_v148 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v146 main_v149 ((extractStridedSlice S8192x128 ![0, 64] · slices_S8192x192_S8192x128_0_64) : (⟨S8192x192, .f32⟩ : BufTy).Contents (Elt F) → (⟨S8192x128, .f32⟩ : BufTy).Contents (Elt F)),
    binary main_v148 main_v149 main_v150 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v145 main_v151 (broadcastInDim S1x192 ![1] bcast_S192_S1x192_1 : (⟨S192, .f32⟩ : BufTy).Contents (Elt F) → (⟨S1x192, .f32⟩ : BufTy).Contents (Elt F)),
    unary main_v151 main_v152 (broadcastInDim S8192x192 ![0, 1] bcast_S1x192_S8192x192_0_1 : (⟨S1x192, .f32⟩ : BufTy).Contents (Elt F) → (⟨S8192x192, .f32⟩ : BufTy).Contents (Elt F)),
    binary main_v150 main_v152 main_v153 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S8192x192, .f32⟩) main_call10_v0) (broadcastInDim S8192x192 ![] bcast_S_S8192x192),
    TRef.binary (TRef.of (T := ⟨S8192x192, .f32⟩) main_v153) (TRef.of (T := ⟨S8192x192, .f32⟩) main_call10_v0) (TRef.of (T := ⟨S8192x192, .f32⟩) main_v154) maximumf ]

/-- Layer 12: slab 10 of the stacked weights and row 10 of the stacked biases, then the layer's product, pieces, adjacency product, bias and cut at zero. -/
def pieceA12 : List (HloOp τ sig (Elt F)) :=
  [
    unary main_arg4 main_v155 ((extractStridedSlice S1x192x192 ![10, 0, 0] · slices_S12x192x192_S1x192x192_10_0_0) : (⟨S12x192x192, .f32⟩ : BufTy).Contents (Elt F) → (⟨S1x192x192, .f32⟩ : BufTy).Contents (Elt F)),
    reshape main_v155 main_v156 rfl shapeCasts_S1x192x192_S192x192,
    unary main_arg5 main_v157 ((extractStridedSlice S1x192 ![10, 0] · slices_S12x192_S1x192_10_0) : (⟨S12x192, .f32⟩ : BufTy).Contents (Elt F) → (⟨S1x192, .f32⟩ : BufTy).Contents (Elt F)),
    reshape main_v157 main_v158 rfl shapeCasts_S1x192_S192,
    binary main_v154 main_v156 main_v159 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v159 main_v160 ((extractStridedSlice S8192x64 ![0, 0] · slices_S8192x192_S8192x64_0_0) : (⟨S8192x192, .f32⟩ : BufTy).Contents (Elt F) → (⟨S8192x64, .f32⟩ : BufTy).Contents (Elt F)),
    binary main_arg1 main_v160 main_v161 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v159 main_v162 ((extractStridedSlice S8192x128 ![0, 64] · slices_S8192x192_S8192x128_0_64) : (⟨S8192x192, .f32⟩ : BufTy).Contents (Elt F) → (⟨S8192x128, .f32⟩ : BufTy).Contents (Elt F)),
    binary main_v161 main_v162 main_v163 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v158 main_v164 (broadcastInDim S1x192 ![1] bcast_S192_S1x192_1 : (⟨S192, .f32⟩ : BufTy).Contents (Elt F) → (⟨S1x192, .f32⟩ : BufTy).Contents (Elt F)),
    unary main_v164 main_v165 (broadcastInDim S8192x192 ![0, 1] bcast_S1x192_S8192x192_0_1 : (⟨S1x192, .f32⟩ : BufTy).Contents (Elt F) → (⟨S8192x192, .f32⟩ : BufTy).Contents (Elt F)),
    binary main_v163 main_v165 main_v166 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S8192x192, .f32⟩) main_call11_v0) (broadcastInDim S8192x192 ![] bcast_S_S8192x192),
    TRef.binary (TRef.of (T := ⟨S8192x192, .f32⟩) main_v166) (TRef.of (T := ⟨S8192x192, .f32⟩) main_call11_v0) (TRef.of (T := ⟨S8192x192, .f32⟩) main_v167) maximumf ]

/-- Averaging step 6: the sum of the running features and the last layer's output, times the constant one half repeated everywhere. -/
def pieceR6 : List (HloOp τ sig (Elt F)) :=
  [
    binary main_v141 main_v167 main_v168 (addf : (⟨S8192x192, .f32⟩ : BufTy).Contents (Elt F) → (⟨S8192x192, .f32⟩ : BufTy).Contents (Elt F) → (⟨S8192x192, .f32⟩ : BufTy).Contents (Elt F)),
    nullary main_cst_4 (constant S_ .f32 0x3F000000#32),
    unary main_cst_4 main_v169 (broadcastInDim S8192x192 ![] bcast_S_S8192x192 : (⟨S_, .f32⟩ : BufTy).Contents (Elt F) → (⟨S8192x192, .f32⟩ : BufTy).Contents (Elt F)),
    binary main_v168 main_v169 main_v170 (mulf : (⟨S8192x192, .f32⟩ : BufTy).Contents (Elt F) → (⟨S8192x192, .f32⟩ : BufTy).Contents (Elt F) → (⟨S8192x192, .f32⟩ : BufTy).Contents (Elt F)) ]

/-- Layer 13: slab 11 of the stacked weights and row 11 of the stacked biases, then the layer's product, pieces, adjacency product, bias and cut at zero. -/
def pieceA13 : List (HloOp τ sig (Elt F)) :=
  [
    unary main_arg4 main_v171 ((extractStridedSlice S1x192x192 ![11, 0, 0] · slices_S12x192x192_S1x192x192_11_0_0) : (⟨S12x192x192, .f32⟩ : BufTy).Contents (Elt F) → (⟨S1x192x192, .f32⟩ : BufTy).Contents (Elt F)),
    reshape main_v171 main_v172 rfl shapeCasts_S1x192x192_S192x192,
    unary main_arg5 main_v173 ((extractStridedSlice S1x192 ![11, 0] · slices_S12x192_S1x192_11_0) : (⟨S12x192, .f32⟩ : BufTy).Contents (Elt F) → (⟨S1x192, .f32⟩ : BufTy).Contents (Elt F)),
    reshape main_v173 main_v174 rfl shapeCasts_S1x192_S192,
    binary main_v170 main_v172 main_v175 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_v175 main_v176 ((extractStridedSlice S8192x64 ![0, 0] · slices_S8192x192_S8192x64_0_0) : (⟨S8192x192, .f32⟩ : BufTy).Contents (Elt F) → (⟨S8192x64, .f32⟩ : BufTy).Contents (Elt F)),
    binary main_arg1 main_v176 main_v177 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v175 main_v178 ((extractStridedSlice S8192x128 ![0, 64] · slices_S8192x192_S8192x128_0_64) : (⟨S8192x192, .f32⟩ : BufTy).Contents (Elt F) → (⟨S8192x128, .f32⟩ : BufTy).Contents (Elt F)),
    binary main_v177 main_v178 main_v179 ((fun a b => concatenate S8192x192 1 [⟨S8192x64, a⟩, ⟨S8192x128, b⟩] concatenates_S8192x64_S8192x128_S8192x192_d1) : (⟨S8192x64, .f32⟩ : BufTy).Contents (Elt F) → (⟨S8192x128, .f32⟩ : BufTy).Contents (Elt F) → (⟨S8192x192, .f32⟩ : BufTy).Contents (Elt F)),
    unary main_v174 main_v180 (broadcastInDim S1x192 ![1] bcast_S192_S1x192_1 : (⟨S192, .f32⟩ : BufTy).Contents (Elt F) → (⟨S1x192, .f32⟩ : BufTy).Contents (Elt F)),
    unary main_v180 main_v181 (broadcastInDim S8192x192 ![0, 1] bcast_S1x192_S8192x192_0_1 : (⟨S1x192, .f32⟩ : BufTy).Contents (Elt F) → (⟨S8192x192, .f32⟩ : BufTy).Contents (Elt F)),
    binary main_v179 main_v181 main_v182 (addf : (⟨S8192x192, .f32⟩ : BufTy).Contents (Elt F) → (⟨S8192x192, .f32⟩ : BufTy).Contents (Elt F) → (⟨S8192x192, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S8192x192, .f32⟩) main_call12_v0) (broadcastInDim S8192x192 ![] bcast_S_S8192x192),
    TRef.binary (TRef.of (T := ⟨S8192x192, .f32⟩) main_v182) (TRef.of (T := ⟨S8192x192, .f32⟩) main_call12_v0) (TRef.of (T := ⟨S8192x192, .f32⟩) main_v183) maximumf ]

/-- Averaging step 7: the sum of the running features and the last layer's output, times the constant one half repeated everywhere. -/
def pieceR7 : List (HloOp τ sig (Elt F)) :=
  [
    binary main_v170 main_v183 main_v184 (addf : (⟨S8192x192, .f32⟩ : BufTy).Contents (Elt F) → (⟨S8192x192, .f32⟩ : BufTy).Contents (Elt F) → (⟨S8192x192, .f32⟩ : BufTy).Contents (Elt F)),
    nullary main_cst_5 (constant S_ .f32 0x3F000000#32),
    unary main_cst_5 main_v185 (broadcastInDim S8192x192 ![] bcast_S_S8192x192 : (⟨S_, .f32⟩ : BufTy).Contents (Elt F) → (⟨S8192x192, .f32⟩ : BufTy).Contents (Elt F)),
    binary main_v184 main_v185 main_v186 (mulf : (⟨S8192x192, .f32⟩ : BufTy).Contents (Elt F) → (⟨S8192x192, .f32⟩ : BufTy).Contents (Elt F) → (⟨S8192x192, .f32⟩ : BufTy).Contents (Elt F)) ]

/-- The last layer: product with the output weights, pieces of two and one columns, adjacency product of the first, the bias; no cut at zero. -/
def pieceLZ : List (HloOp τ sig (Elt F)) :=
  [
    binary main_v186 main_arg6 main_v187 ((fun l r => Host.dotGeneral dot_S8192x192_S192x3_S8192x3_1_0_0_1_n_n none l r) : (⟨S8192x192, .f32⟩ : BufTy).Contents (Elt F) → (⟨S192x3, .f32⟩ : BufTy).Contents (Elt F) → (⟨S8192x3, .f32⟩ : BufTy).Contents (Elt F)),
    unary main_v187 main_v188 ((extractStridedSlice S8192x2 ![0, 0] · slices_S8192x3_S8192x2_0_0) : (⟨S8192x3, .f32⟩ : BufTy).Contents (Elt F) → (⟨S8192x2, .f32⟩ : BufTy).Contents (Elt F)),
    binary main_arg1 main_v188 main_v189 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    unary main_v187 main_v190 ((extractStridedSlice S8192x1 ![0, 2] · slices_S8192x3_S8192x1_0_2) : (⟨S8192x3, .f32⟩ : BufTy).Contents (Elt F) → (⟨S8192x1, .f32⟩ : BufTy).Contents (Elt F)),
    binary main_v189 main_v190 main_v191 ((fun a b => concatenate S8192x3 1 [⟨S8192x2, a⟩, ⟨S8192x1, b⟩] concatenates_S8192x2_S8192x1_S8192x3_d1) : (⟨S8192x2, .f32⟩ : BufTy).Contents (Elt F) → (⟨S8192x1, .f32⟩ : BufTy).Contents (Elt F) → (⟨S8192x3, .f32⟩ : BufTy).Contents (Elt F)),
    unary main_arg7 main_v192 (broadcastInDim S1x3 ![1] bcast_S3_S1x3_1 : (⟨S3, .f32⟩ : BufTy).Contents (Elt F) → (⟨S1x3, .f32⟩ : BufTy).Contents (Elt F)),
    unary main_v192 main_v193 (broadcastInDim S8192x3 ![0, 1] bcast_S1x3_S8192x3_0_1 : (⟨S1x3, .f32⟩ : BufTy).Contents (Elt F) → (⟨S8192x3, .f32⟩ : BufTy).Contents (Elt F)),
    binary main_v191 main_v193 main_v194 (addf : (⟨S8192x3, .f32⟩ : BufTy).Contents (Elt F) → (⟨S8192x3, .f32⟩ : BufTy).Contents (Elt F) → (⟨S8192x3, .f32⟩ : BufTy).Contents (Elt F)) ]

end Cert.ReferenceIdeal.RefValue

end
-- ==== Proof.RSide.lean ====
/-
  Two side conditions of the reference program's run, piece by piece and then for the whole list: every buffer an
  operation touches is one of the TensorCore's references, and no operation leaves a result undetermined (none is a bare
  allocation). The whole list of operations is the 21 pieces one after the other.
-/
import proofs.«108744_j27797028339962_2_alg».proof.Proof.RPieces

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The same for a property stated by membership. -/
theorem ball_append {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

theorem pieceL1_sub : (pieceL1 : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceL1_fresh : ∀ op ∈ (pieceL1 : List (HloOp τ sig (Elt F))), op.fresh = ∅ := by
  intro _ h; unfold pieceL1 at h; (repeat (cases h with | head => rfl | tail _ h => ?_)); exact nomatch h

theorem pieceA2_sub : (pieceA2 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA2_fresh : ∀ op ∈ (pieceA2 : List (HloOp τ sig (Elt F))), op.fresh = ∅ := by
  intro _ h; unfold pieceA2 at h; (repeat (cases h with | head => rfl | tail _ h => ?_)); exact nomatch h

theorem pieceR1_sub : (pieceR1 : List (HloOp τ sig (Elt F))).Forall fun op => op.bufs ⊆ tcRefs τ sig :=
  ⟨unary_bufs_sub .., binary_bufs_sub .., nullary_bufs_sub .., unary_bufs_sub .., binary_bufs_sub ..⟩
theorem pieceR1_fresh : ∀ op ∈ (pieceR1 : List (HloOp τ sig (Elt F))), op.fresh = ∅ := by
  intro _ h; unfold pieceR1 at h; (repeat (cases h with | head => rfl | tail _ h => ?_)); exact nomatch h

theorem pieceA3_sub : (pieceA3 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA3_fresh : ∀ op ∈ (pieceA3 : List (HloOp τ sig (Elt F))), op.fresh = ∅ := by
  intro _ h; unfold pieceA3 at h; (repeat (cases h with | head => rfl | tail _ h => ?_)); exact nomatch h

theorem pieceA4_sub : (pieceA4 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA4_fresh : ∀ op ∈ (pieceA4 : List (HloOp τ sig (Elt F))), op.fresh = ∅ := by
  intro _ h; unfold pieceA4 at h; (repeat (cases h with | head => rfl | tail _ h => ?_)); exact nomatch h

theorem pieceR2_sub : (pieceR2 : List (HloOp τ sig (Elt F))).Forall fun op => op.bufs ⊆ tcRefs τ sig :=
  ⟨binary_bufs_sub .., nullary_bufs_sub .., unary_bufs_sub .., binary_bufs_sub ..⟩
theorem pieceR2_fresh : ∀ op ∈ (pieceR2 : List (HloOp τ sig (Elt F))), op.fresh = ∅ := by
  intro _ h; unfold pieceR2 at h; (repeat (cases h with | head => rfl | tail _ h => ?_)); exact nomatch h

theorem pieceA5_sub : (pieceA5 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA5_fresh : ∀ op ∈ (pieceA5 : List (HloOp τ sig (Elt F))), op.fresh = ∅ := by
  intro _ h; unfold pieceA5 at h; (repeat (cases h with | head => rfl | tail _ h => ?_)); exact nomatch h

theorem pieceA6_sub : (pieceA6 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA6_fresh : ∀ op ∈ (pieceA6 : List (HloOp τ sig (Elt F))), op.fresh = ∅ := by
  intro _ h; unfold pieceA6 at h; (repeat (cases h with | head => rfl | tail _ h => ?_)); exact nomatch h

theorem pieceR3_sub : (pieceR3 : List (HloOp τ sig (Elt F))).Forall fun op => op.bufs ⊆ tcRefs τ sig :=
  ⟨binary_bufs_sub .., nullary_bufs_sub .., unary_bufs_sub .., binary_bufs_sub ..⟩
theorem pieceR3_fresh : ∀ op ∈ (pieceR3 : List (HloOp τ sig (Elt F))), op.fresh = ∅ := by
  intro _ h; unfold pieceR3 at h; (repeat (cases h with | head => rfl | tail _ h => ?_)); exact nomatch h

theorem pieceA7_sub : (pieceA7 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA7_fresh : ∀ op ∈ (pieceA7 : List (HloOp τ sig (Elt F))), op.fresh = ∅ := by
  intro _ h; unfold pieceA7 at h; (repeat (cases h with | head => rfl | tail _ h => ?_)); exact nomatch h

theorem pieceA8_sub : (pieceA8 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA8_fresh : ∀ op ∈ (pieceA8 : List (HloOp τ sig (Elt F))), op.fresh = ∅ := by
  intro _ h; unfold pieceA8 at h; (repeat (cases h with | head => rfl | tail _ h => ?_)); exact nomatch h

theorem pieceR4_sub : (pieceR4 : List (HloOp τ sig (Elt F))).Forall fun op => op.bufs ⊆ tcRefs τ sig :=
  ⟨binary_bufs_sub .., nullary_bufs_sub .., unary_bufs_sub .., binary_bufs_sub ..⟩
theorem pieceR4_fresh : ∀ op ∈ (pieceR4 : List (HloOp τ sig (Elt F))), op.fresh = ∅ := by
  intro _ h; unfold pieceR4 at h; (repeat (cases h with | head => rfl | tail _ h => ?_)); exact nomatch h

theorem pieceA9_sub : (pieceA9 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA9_fresh : ∀ op ∈ (pieceA9 : List (HloOp τ sig (Elt F))), op.fresh = ∅ := by
  intro _ h; unfold pieceA9 at h; (repeat (cases h with | head => rfl | tail _ h => ?_)); exact nomatch h

theorem pieceA10_sub : (pieceA10 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA10_fresh : ∀ op ∈ (pieceA10 : List (HloOp τ sig (Elt F))), op.fresh = ∅ := by
  intro _ h; unfold pieceA10 at h; (repeat (cases h with | head => rfl | tail _ h => ?_)); exact nomatch h

theorem pieceR5_sub : (pieceR5 : List (HloOp τ sig (Elt F))).Forall fun op => op.bufs ⊆ tcRefs τ sig :=
  ⟨binary_bufs_sub .., nullary_bufs_sub .., unary_bufs_sub .., binary_bufs_sub ..⟩
theorem pieceR5_fresh : ∀ op ∈ (pieceR5 : List (HloOp τ sig (Elt F))), op.fresh = ∅ := by
  intro _ h; unfold pieceR5 at h; (repeat (cases h with | head => rfl | tail _ h => ?_)); exact nomatch h

theorem pieceA11_sub : (pieceA11 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA11_fresh : ∀ op ∈ (pieceA11 : List (HloOp τ sig (Elt F))), op.fresh = ∅ := by
  intro _ h; unfold pieceA11 at h; (repeat (cases h with | head => rfl | tail _ h => ?_)); exact nomatch h

theorem pieceA12_sub : (pieceA12 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA12_fresh : ∀ op ∈ (pieceA12 : List (HloOp τ sig (Elt F))), op.fresh = ∅ := by
  intro _ h; unfold pieceA12 at h; (repeat (cases h with | head => rfl | tail _ h => ?_)); exact nomatch h

theorem pieceR6_sub : (pieceR6 : List (HloOp τ sig (Elt F))).Forall fun op => op.bufs ⊆ tcRefs τ sig :=
  ⟨binary_bufs_sub .., nullary_bufs_sub .., unary_bufs_sub .., binary_bufs_sub ..⟩
theorem pieceR6_fresh : ∀ op ∈ (pieceR6 : List (HloOp τ sig (Elt F))), op.fresh = ∅ := by
  intro _ h; unfold pieceR6 at h; (repeat (cases h with | head => rfl | tail _ h => ?_)); exact nomatch h

theorem pieceA13_sub : (pieceA13 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem pieceA13_fresh : ∀ op ∈ (pieceA13 : List (HloOp τ sig (Elt F))), op.fresh = ∅ := by
  intro _ h; unfold pieceA13 at h; (repeat (cases h with | head => rfl | tail _ h => ?_)); exact nomatch h

theorem pieceR7_sub : (pieceR7 : List (HloOp τ sig (Elt F))).Forall fun op => op.bufs ⊆ tcRefs τ sig :=
  ⟨binary_bufs_sub .., nullary_bufs_sub .., unary_bufs_sub .., binary_bufs_sub ..⟩
theorem pieceR7_fresh : ∀ op ∈ (pieceR7 : List (HloOp τ sig (Elt F))), op.fresh = ∅ := by
  intro _ h; unfold pieceR7 at h; (repeat (cases h with | head => rfl | tail _ h => ?_)); exact nomatch h

theorem pieceLZ_sub : (pieceLZ : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., binary_bufs_sub ..⟩
theorem pieceLZ_fresh : ∀ op ∈ (pieceLZ : List (HloOp τ sig (Elt F))), op.fresh = ∅ := by
  intro _ h; unfold pieceLZ at h; (repeat (cases h with | head => rfl | tail _ h => ?_)); exact nomatch h

/-- The program's 228 operations: the pieces, in order. -/
def allOps : List (HloOp τ sig (Elt F)) :=
  pieceL1 ++ (pieceA2 ++ (pieceR1 ++ (pieceA3 ++ (pieceA4 ++ (pieceR2 ++ (pieceA5 ++ (pieceA6 ++ (pieceR3 ++ (pieceA7 ++ (pieceA8 ++ (pieceR4 ++ (pieceA9 ++ (pieceA10 ++ (pieceR5 ++ (pieceA11 ++ (pieceA12 ++ (pieceR6 ++ (pieceA13 ++ (pieceR7 ++ (pieceLZ))))))))))))))))))))

theorem allOps_sub : (allOps : List (HloOp τ sig (Elt F))).Forall fun op => op.bufs ⊆ tcRefs τ sig :=
  forall_append pieceL1_sub (forall_append pieceA2_sub (forall_append pieceR1_sub (forall_append pieceA3_sub (forall_append pieceA4_sub (forall_append pieceR2_sub (forall_append pieceA5_sub (forall_append pieceA6_sub (forall_append pieceR3_sub (forall_append pieceA7_sub (forall_append pieceA8_sub (forall_append pieceR4_sub (forall_append pieceA9_sub (forall_append pieceA10_sub (forall_append pieceR5_sub (forall_append pieceA11_sub (forall_append pieceA12_sub (forall_append pieceR6_sub (forall_append pieceA13_sub (forall_append pieceR7_sub (pieceLZ_sub))))))))))))))))))))

theorem allOps_fresh : ∀ op ∈ (allOps : List (HloOp τ sig (Elt F))), op.fresh = ∅ :=
  ball_append pieceL1_fresh (ball_append pieceA2_fresh (ball_append pieceR1_fresh (ball_append pieceA3_fresh (ball_append pieceA4_fresh (ball_append pieceR2_fresh (ball_append pieceA5_fresh (ball_append pieceA6_fresh (ball_append pieceR3_fresh (ball_append pieceA7_fresh (ball_append pieceA8_fresh (ball_append pieceR4_fresh (ball_append pieceA9_fresh (ball_append pieceA10_fresh (ball_append pieceR5_fresh (ball_append pieceA11_fresh (ball_append pieceA12_fresh (ball_append pieceR6_fresh (ball_append pieceA13_fresh (ball_append pieceR7_fresh (pieceLZ_fresh))))))))))))))))))))

end Cert.ReferenceIdeal.RefValue

end
-- ==== Proof.RMain.lean ====
/-
  The reference program IS the straight line of its 228 operations. The program is printed as four windows run in order
  (operations 1 … 68, 69 … 136, 137 … 204, 205 … 228, a called function's three operations standing in its call's
  place); each window is the line of its own operations, two lines run one after the other are their concatenation run
  as one, and the four windows' operations, in order, are the 21 pieces in order (three pieces straddle a window's end).
-/
import proofs.«108744_j27797028339962_2_alg».proof.Proof.RSide

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the four windows. -/
def win0 : List (HloOp τ sig (Elt F)) := pieceL1 ++ (pieceA2 ++ (pieceR1 ++ (pieceA3 ++ (pieceA4 ++ (pieceR2 ++ (pieceA5.take 3))))))
def win1 : List (HloOp τ sig (Elt F)) := pieceA5.drop 3 ++ (pieceA6 ++ (pieceR3 ++ (pieceA7 ++ (pieceA8 ++ (pieceR4 ++ (pieceA9.take 3))))))
def win2 : List (HloOp τ sig (Elt F)) := pieceA9.drop 3 ++ (pieceA10 ++ (pieceR5 ++ (pieceA11 ++ (pieceA12 ++ (pieceR6 ++ (pieceA13.take 3))))))
def win3 : List (HloOp τ sig (Elt F)) := pieceA13.drop 3 ++ (pieceR7 ++ (pieceLZ))

set_option maxRecDepth 8192 in
set_option maxHeartbeats 4000000 in
theorem main_part0_eq (c : Dev nD) : main_part0 (F := F) c = seq win0 := rfl
set_option maxRecDepth 8192 in
set_option maxHeartbeats 4000000 in
theorem main_part1_eq (c : Dev nD) : main_part1 (F := F) c = seq win1 := rfl
set_option maxRecDepth 8192 in
set_option maxHeartbeats 4000000 in
theorem main_part2_eq (c : Dev nD) : main_part2 (F := F) c = seq win2 := rfl
set_option maxRecDepth 8192 in
set_option maxHeartbeats 4000000 in
theorem main_part3_eq (c : Dev nD) : main_part3 (F := F) c = seq win3 := rfl

set_option maxRecDepth 8192 in
/-- The windows' operations, in order, are the pieces in order. -/
theorem allOps_windows : (allOps : List (HloOp τ sig (Elt F))) = win0 ++ (win1 ++ (win2 ++ win3)) := rfl

/-- @main is the line of all the operations. -/
theorem main_eq (c : Dev nD) : main (F := F) c = seq allOps := by
  rw [allOps_windows, seq_append, seq_append, seq_append, ← main_part0_eq c, ← main_part1_eq c, ← main_part2_eq c,
    ← main_part3_eq c]
  rfl

end Cert.ReferenceIdeal.RefValue

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«108744_j27797028339962_2_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.RLayer.lean ====
/-
  One layer of the network as the reference program spells it, read at the exact (extended-real) instance.

  The program forms the support x · w, cuts it into its first S columns and the remaining P, multiplies the first piece
  by the adjacency, puts the two pieces side by side again, adds the bias (a vector laid out as one row and repeated down
  the rows) and, except in the last layer, cuts the result at zero by a maximum with the zero scalar repeated everywhere.
  Entry by entry this is the layer of the specification: column j < S holds ∑ᵣ A (p, r) · (x · w) (r, j) + b j, column
  j ≥ S holds (x · w) (p, j) + b j.

  * hostLayerPre_apply / hostLayerPre : the layer before the cut at zero, at one entry / as an array.
  * hostLayer : the layer with the cut at zero, as an array.
  All three are stated for any extents M, K, N = S + P, so the three shapes the network uses are instances.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«108744_j27797028339962_2_alg».proof.Proof.LibGraphConv
import proofs.«108744_j27797028339962_2_alg».proof.Proof.Spec

noncomputable section

open scoped BigOperators

namespace Cert.Gcn.RefLayer

open Idealize.ShloMosaic Idealize.ShloMosaic.ValueIdx Cert.Gcn

variable {M K N S P : ℕ}

/-- The host's product x · w at (r, j) is the specification's support there. -/
theorem hostMM_supp (d1 : DotDims ⟨2, ![M, K]⟩ ⟨2, ![K, N]⟩ ⟨2, ![M, N]⟩) (hd1 : d1 = DotDims.plain M K N)
    (x : FVec Ideal ⟨2, ![M, K]⟩ .f32) (w : FVec Ideal ⟨2, ![K, N]⟩ .f32) (r : Fin M) (j : Fin N) :
    Host.dotGeneral d1 none x w (ix2 r j) = supp x w r.val j.val := by
  refine (Cert.GraphConv.hostMM_apply d1 hd1 none x w r j).trans ?_
  unfold supp
  refine Finset.sum_congr rfl fun k _ => ?_
  rw [rd2_ix2 x r k, rd2_ix2 w k j]

/-- A vector laid out as one row and repeated down the rows reads, at (p, j), the vector at j. -/
theorem biasRows_apply (hb1 : (⟨1, ![N]⟩ : Shape).BroadcastsInDim ⟨2, ![1, N]⟩ ![1])
    (hb2 : (⟨2, ![1, N]⟩ : Shape).BroadcastsInDim ⟨2, ![M, N]⟩ ![0, 1]) (b : FVec Ideal ⟨1, ![N]⟩ .f32) (p : Fin M) (j : Fin N) :
    broadcastInDim ⟨2, ![M, N]⟩ ![0, 1] hb2 (broadcastInDim ⟨2, ![1, N]⟩ ![1] hb1 b) (ix2 p j) = rd1 b j.val := by
  refine (broadcastInDim_oneRow_apply hb2 _ p j).trans ?_
  rw [rd1_ix1 b j]
  refine broadcastInDim_apply ![1] hb1 b (ix2 (0 : Fin 1) j) (ix1 j) fun ax => ?_
  match ax with
  | ⟨0, _⟩ =>
    show j.val = if N = 1 then 0 else j.val
    split
    · have := j.isLt; omega
    · rfl

/-- The layer before the cut at zero, as the reference program spells it, at (p, j). -/
theorem hostLayerPre_apply (hN : S + P = N)
    (d1 : DotDims ⟨2, ![M, K]⟩ ⟨2, ![K, N]⟩ ⟨2, ![M, N]⟩) (hd1 : d1 = DotDims.plain M K N)
    (d2 : DotDims ⟨2, ![M, M]⟩ ⟨2, ![M, S]⟩ ⟨2, ![M, S]⟩) (hd2 : d2 = DotDims.plain M M S)
    (hs1 : (⟨2, ![M, N]⟩ : Shape).Slices ![0, 0] ⟨2, ![M, S]⟩)
    (hs2 : (⟨2, ![M, N]⟩ : Shape).Slices ![0, S] ⟨2, ![M, P]⟩)
    (hc : Shape.Concatenates [⟨2, ![M, S]⟩, ⟨2, ![M, P]⟩] ⟨2, ![M, N]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (x : FVec Ideal ⟨2, ![M, K]⟩ .f32) (A : FVec Ideal ⟨2, ![M, M]⟩ .f32) (w : FVec Ideal ⟨2, ![K, N]⟩ .f32)
    (b : FVec Ideal ⟨1, ![N]⟩ .f32) (p : Fin M) (j : Fin N) :
    addf (concatenate ⟨2, ![M, N]⟩ 1
          [⟨⟨2, ![M, S]⟩, Host.dotGeneral d2 none A (extractStridedSlice ⟨2, ![M, S]⟩ ![0, 0] (Host.dotGeneral d1 none x w) hs1)⟩,
           ⟨⟨2, ![M, P]⟩, extractStridedSlice ⟨2, ![M, P]⟩ ![0, S] (Host.dotGeneral d1 none x w) hs2⟩] hc)
        (broadcastInDim ⟨2, ![M, N]⟩ ![0, 1] hb2 (broadcastInDim ⟨2, ![1, N]⟩ ![1] hb1 b)) (ix2 p j)
      = layerPre S x A w b (ix2 p j) := by
  show _ = (if j.val < S then ∑ r : Fin M, rd2 A p.val r.val * supp x w r.val j.val else supp x w p.val j.val) + rd1 b j.val
  refine congrArg₂ (· + ·) ?_ (biasRows_apply hb1 hb2 b p j)
  by_cases h : j.val < S
  · rw [if_pos h]
    have hjN : j.val < N := j.isLt
    refine (concatenate_pair_apply_left 1 _ _ hc (ix2 p j) rfl (ix2 p (⟨j.val, h⟩ : Fin S)) fun ax => ?_).trans ?_
    · match ax with
      | ⟨0, _⟩ => rfl
      | ⟨1, _⟩ => rfl
    refine (Cert.GraphConv.hostMM_apply d2 hd2 none A _ p (⟨j.val, h⟩ : Fin S)).trans ?_
    refine Finset.sum_congr rfl fun r _ => ?_
    rw [rd2_ix2 A p r]
    refine congrArg (A (ix2 p r) * ·) ?_
    refine (slice2_axis1_apply 0 (Host.dotGeneral d1 none x w) hs1 r (⟨j.val, h⟩ : Fin S) j (Nat.zero_add _).symm).trans ?_
    exact hostMM_supp d1 hd1 x w r j
  · rw [if_neg h]
    have hjN : j.val < N := j.isLt
    have hP : j.val - S < P := by omega
    refine (concatenate_pair_apply_right 1 _ _ hc (ix2 p j) rfl rfl (ix2 p (⟨j.val - S, hP⟩ : Fin P)) (fun ax hax => ?_) ?_).trans ?_
    · match ax with
      | ⟨0, _⟩ => rfl
      | ⟨1, _⟩ => exact absurd rfl hax
    · show (j.val - S) + S = j.val
      omega
    refine (slice2_axis1_apply S (Host.dotGeneral d1 none x w) hs2 p (⟨j.val - S, hP⟩ : Fin P) j (by show j.val = S + (j.val - S); omega)).trans ?_
    exact hostMM_supp d1 hd1 x w p j

/-- The layer before the cut at zero, as the reference program spells it, is the specification's. -/
theorem hostLayerPre (hN : S + P = N)
    (d1 : DotDims ⟨2, ![M, K]⟩ ⟨2, ![K, N]⟩ ⟨2, ![M, N]⟩) (hd1 : d1 = DotDims.plain M K N)
    (d2 : DotDims ⟨2, ![M, M]⟩ ⟨2, ![M, S]⟩ ⟨2, ![M, S]⟩) (hd2 : d2 = DotDims.plain M M S)
    (hs1 : (⟨2, ![M, N]⟩ : Shape).Slices ![0, 0] ⟨2, ![M, S]⟩)
    (hs2 : (⟨2, ![M, N]⟩ : Shape).Slices ![0, S] ⟨2, ![M, P]⟩)
    (hc : Shape.Concatenates [⟨2, ![M, S]⟩, ⟨2, ![M, P]⟩] ⟨2, ![M, N]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (x : FVec Ideal ⟨2, ![M, K]⟩ .f32) (A : FVec Ideal ⟨2, ![M, M]⟩ .f32) (w : FVec Ideal ⟨2, ![K, N]⟩ .f32)
    (b : FVec Ideal ⟨1, ![N]⟩ .f32) :
    addf (concatenate ⟨2, ![M, N]⟩ 1
          [⟨⟨2, ![M, S]⟩, Host.dotGeneral d2 none A (extractStridedSlice ⟨2, ![M, S]⟩ ![0, 0] (Host.dotGeneral d1 none x w) hs1)⟩,
           ⟨⟨2, ![M, P]⟩, extractStridedSlice ⟨2, ![M, P]⟩ ![0, S] (Host.dotGeneral d1 none x w) hs2⟩] hc)
        (broadcastInDim ⟨2, ![M, N]⟩ ![0, 1] hb2 (broadcastInDim ⟨2, ![1, N]⟩ ![1] hb1 b))
      = layerPre S x A w b :=
  arr2_ext fun p j => hostLayerPre_apply hN d1 hd1 d2 hd2 hs1 hs2 hc hb1 hb2 x A w b p j

/-- The layer with the cut at zero (a maximum with the zero scalar repeated everywhere), as the reference program spells
    it, is the specification's. -/
theorem hostLayer (hN : S + P = N)
    (d1 : DotDims ⟨2, ![M, K]⟩ ⟨2, ![K, N]⟩ ⟨2, ![M, N]⟩) (hd1 : d1 = DotDims.plain M K N)
    (d2 : DotDims ⟨2, ![M, M]⟩ ⟨2, ![M, S]⟩ ⟨2, ![M, S]⟩) (hd2 : d2 = DotDims.plain M M S)
    (hs1 : (⟨2, ![M, N]⟩ : Shape).Slices ![0, 0] ⟨2, ![M, S]⟩)
    (hs2 : (⟨2, ![M, N]⟩ : Shape).Slices ![0, S] ⟨2, ![M, P]⟩)
    (hc : Shape.Concatenates [⟨2, ![M, S]⟩, ⟨2, ![M, P]⟩] ⟨2, ![M, N]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (hb0 : (⟨0, ![]⟩ : Shape).BroadcastsInDim ⟨2, ![M, N]⟩ ![])
    (x : FVec Ideal ⟨2, ![M, K]⟩ .f32) (A : FVec Ideal ⟨2, ![M, M]⟩ .f32) (w : FVec Ideal ⟨2, ![K, N]⟩ .f32)
    (b : FVec Ideal ⟨1, ![N]⟩ .f32) :
    maximumf (addf (concatenate ⟨2, ![M, N]⟩ 1
          [⟨⟨2, ![M, S]⟩, Host.dotGeneral d2 none A (extractStridedSlice ⟨2, ![M, S]⟩ ![0, 0] (Host.dotGeneral d1 none x w) hs1)⟩,
           ⟨⟨2, ![M, P]⟩, extractStridedSlice ⟨2, ![M, P]⟩ ![0, S] (Host.dotGeneral d1 none x w) hs2⟩] hc)
        (broadcastInDim ⟨2, ![M, N]⟩ ![0, 1] hb2 (broadcastInDim ⟨2, ![1, N]⟩ ![1] hb1 b)))
        (broadcastInDim ⟨2, ![M, N]⟩ ![] hb0 (constant (F := Ideal) ⟨0, ![]⟩ .f32 0x00000000#32))
      = layer S x A w b :=
  arr2_ext fun p j =>
    congrArg₂ max (hostLayerPre_apply hN d1 hd1 d2 hd2 hs1 hs2 hc hb1 hb2 x A w b p j) Ideal.ofBits_zero_f32

end Cert.Gcn.RefLayer

end
-- ==== Proof.RGroup1.lean ====
/-
  What three consecutive pieces of the reference program (L1, A2, R1) leave in memory, from any contents V before them:
  the value of each piece's last buffer as the specification's function (a layer, or an averaging step) of the contents
  it reads, and that every buffer it does not write — the program's arguments among them — is left as it was.
-/
import proofs.«108744_j27797028339962_2_alg».proof.Proof.RPieces
import proofs.«108744_j27797028339962_2_alg».proof.Proof.RLayer
import proofs.«108744_j27797028339962_2_alg».proof.Proof.HostForms

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Gcn Cert.Gcn.RefLayer Cert.Gcn.Forms

/-- The piece leaves, in its last buffer, the first layer of the input features. -/
theorem pieceL1_val (V : Valuation τ sig (Elt Ideal)) :
    after (pieceL1 (F := Ideal)) V (Proc.devRef .tc main_v8)
      = layer 64 (V (Proc.devRef .tc main_arg0)) (V (Proc.devRef .tc main_arg1)) (V (Proc.devRef .tc main_arg2)) (V (Proc.devRef .tc main_arg3)) := by
  unfold pieceL1
  after_results
  exact hostLayer (M := 8192) (K := 256) (N := 192) (S := 64) (P := 128) (by decide)
    dot_S8192x256_S256x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceL1_keep (V : Valuation τ sig (Elt Ideal)) {r : Ref sig .tc}
    (hr : r ∉ [main_v0, main_v1, main_v2, main_v3, main_v4, main_v5, main_v6, main_v7, main_call0_cst, main_call0_v0, main_v8]) :
    after (pieceL1 (F := Ideal)) V (Proc.devRef .tc r) = V (Proc.devRef .tc r) :=
  after_of_writes_sub _ V (by
    unfold pieceL1
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceL1_keep_arg (V : Valuation τ sig (Elt Ideal)) (r : Ref sig .tc) (hr : r ∈ argRefs) :
    after (pieceL1 (F := Ideal)) V (Proc.devRef .tc r) = V (Proc.devRef .tc r) :=
  pieceL1_keep V ((show ∀ r ∈ argRefs, r ∉ [main_v0, main_v1, main_v2, main_v3, main_v4, main_v5, main_v6, main_v7, main_call0_cst, main_call0_v0, main_v8] by decide) r hr)

/-- The piece leaves, in its last buffer, the layer of what it found in its input buffer, with slab 0 of the stacked weights
    and row 0 of the stacked biases. -/
theorem pieceA2_val (V : Valuation τ sig (Elt Ideal)) :
    after (pieceA2 (F := Ideal)) V (Proc.devRef .tc main_v21)
      = layer 64 (V (Proc.devRef .tc main_v8)) (V (Proc.devRef .tc main_arg1))
          (slab (V (Proc.devRef .tc main_arg4)) 0) (row (V (Proc.devRef .tc main_arg5)) 0) := by
  unfold pieceA2
  after_results
  rw [← slab_host (V (Proc.devRef .tc main_arg4)) 0 (by decide) slices_S12x192x192_S1x192x192_0_0_0 shapeCasts_S1x192x192_S192x192,
    ← row_host (V (Proc.devRef .tc main_arg5)) 0 (by decide) slices_S12x192_S1x192_0_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA2_keep (V : Valuation τ sig (Elt Ideal)) {r : Ref sig .tc}
    (hr : r ∉ [main_v9, main_v10, main_v11, main_v12, main_v13, main_v14, main_v15, main_v16, main_v17, main_v18, main_v19, main_v20, main_call1_cst, main_call1_v0, main_v21]) :
    after (pieceA2 (F := Ideal)) V (Proc.devRef .tc r) = V (Proc.devRef .tc r) :=
  after_of_writes_sub _ V (by
    unfold pieceA2
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA2_keep_arg (V : Valuation τ sig (Elt Ideal)) (r : Ref sig .tc) (hr : r ∈ argRefs) :
    after (pieceA2 (F := Ideal)) V (Proc.devRef .tc r) = V (Proc.devRef .tc r) :=
  pieceA2_keep V ((show ∀ r ∈ argRefs, r ∉ [main_v9, main_v10, main_v11, main_v12, main_v13, main_v14, main_v15, main_v16, main_v17, main_v18, main_v19, main_v20, main_call1_cst, main_call1_v0, main_v21] by decide) r hr)

/-- The piece leaves, in its last buffer, the average of the input features' first 192 columns and the second layer's output. -/
theorem pieceR1_val (V : Valuation τ sig (Elt Ideal)) :
    after (pieceR1 (F := Ideal)) V (Proc.devRef .tc main_v25)
      = resid (cols 192 (V (Proc.devRef .tc main_arg0))) (V (Proc.devRef .tc main_v21)) := by
  unfold pieceR1
  after_results
  rw [← cols_host 192 (by decide) (V (Proc.devRef .tc main_arg0)) slices_S8192x256_S8192x192_0_0]
  exact resid_host _ _ _ _

/-- A buffer none of the piece's operations writes holds afterwards what it held before. -/
theorem pieceR1_keep (V : Valuation τ sig (Elt Ideal)) {r : Ref sig .tc}
    (hr : r ∉ [main_v22, main_v23, main_cst, main_v24, main_v25]) :
    after (pieceR1 (F := Ideal)) V (Proc.devRef .tc r) = V (Proc.devRef .tc r) :=
  after_of_writes_sub _ V (by
    unfold pieceR1
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceR1_keep_arg (V : Valuation τ sig (Elt Ideal)) (r : Ref sig .tc) (hr : r ∈ argRefs) :
    after (pieceR1 (F := Ideal)) V (Proc.devRef .tc r) = V (Proc.devRef .tc r) :=
  pieceR1_keep V ((show ∀ r ∈ argRefs, r ∉ [main_v22, main_v23, main_cst, main_v24, main_v25] by decide) r hr)

end Cert.ReferenceIdeal.RefValue

end
-- ==== Proof.RGroup2.lean ====
/-
  What three consecutive pieces of the reference program (A3, A4, R2) leave in memory, from any contents V before them:
  the value of each piece's last buffer as the specification's function (a layer, or an averaging step) of the contents
  it reads, and that every buffer it does not write — the program's arguments among them — is left as it was.
-/
import proofs.«108744_j27797028339962_2_alg».proof.Proof.RPieces
import proofs.«108744_j27797028339962_2_alg».proof.Proof.RLayer
import proofs.«108744_j27797028339962_2_alg».proof.Proof.HostForms

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Gcn Cert.Gcn.RefLayer Cert.Gcn.Forms

/-- The piece leaves, in its last buffer, the layer of what it found in its input buffer, with slab 1 of the stacked weights
    and row 1 of the stacked biases. -/
theorem pieceA3_val (V : Valuation τ sig (Elt Ideal)) :
    after (pieceA3 (F := Ideal)) V (Proc.devRef .tc main_v38)
      = layer 64 (V (Proc.devRef .tc main_v25)) (V (Proc.devRef .tc main_arg1))
          (slab (V (Proc.devRef .tc main_arg4)) 1) (row (V (Proc.devRef .tc main_arg5)) 1) := by
  unfold pieceA3
  after_results
  rw [← slab_host (V (Proc.devRef .tc main_arg4)) 1 (by decide) slices_S12x192x192_S1x192x192_1_0_0 shapeCasts_S1x192x192_S192x192,
    ← row_host (V (Proc.devRef .tc main_arg5)) 1 (by decide) slices_S12x192_S1x192_1_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA3_keep (V : Valuation τ sig (Elt Ideal)) {r : Ref sig .tc}
    (hr : r ∉ [main_v26, main_v27, main_v28, main_v29, main_v30, main_v31, main_v32, main_v33, main_v34, main_v35, main_v36, main_v37, main_call2_cst, main_call2_v0, main_v38]) :
    after (pieceA3 (F := Ideal)) V (Proc.devRef .tc r) = V (Proc.devRef .tc r) :=
  after_of_writes_sub _ V (by
    unfold pieceA3
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA3_keep_arg (V : Valuation τ sig (Elt Ideal)) (r : Ref sig .tc) (hr : r ∈ argRefs) :
    after (pieceA3 (F := Ideal)) V (Proc.devRef .tc r) = V (Proc.devRef .tc r) :=
  pieceA3_keep V ((show ∀ r ∈ argRefs, r ∉ [main_v26, main_v27, main_v28, main_v29, main_v30, main_v31, main_v32, main_v33, main_v34, main_v35, main_v36, main_v37, main_call2_cst, main_call2_v0, main_v38] by decide) r hr)

/-- The piece leaves, in its last buffer, the layer of what it found in its input buffer, with slab 2 of the stacked weights
    and row 2 of the stacked biases. -/
theorem pieceA4_val (V : Valuation τ sig (Elt Ideal)) :
    after (pieceA4 (F := Ideal)) V (Proc.devRef .tc main_v51)
      = layer 64 (V (Proc.devRef .tc main_v38)) (V (Proc.devRef .tc main_arg1))
          (slab (V (Proc.devRef .tc main_arg4)) 2) (row (V (Proc.devRef .tc main_arg5)) 2) := by
  unfold pieceA4
  after_results
  rw [← slab_host (V (Proc.devRef .tc main_arg4)) 2 (by decide) slices_S12x192x192_S1x192x192_2_0_0 shapeCasts_S1x192x192_S192x192,
    ← row_host (V (Proc.devRef .tc main_arg5)) 2 (by decide) slices_S12x192_S1x192_2_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA4_keep (V : Valuation τ sig (Elt Ideal)) {r : Ref sig .tc}
    (hr : r ∉ [main_v39, main_v40, main_v41, main_v42, main_v43, main_v44, main_v45, main_v46, main_v47, main_v48, main_v49, main_v50, main_call3_cst, main_call3_v0, main_v51]) :
    after (pieceA4 (F := Ideal)) V (Proc.devRef .tc r) = V (Proc.devRef .tc r) :=
  after_of_writes_sub _ V (by
    unfold pieceA4
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA4_keep_arg (V : Valuation τ sig (Elt Ideal)) (r : Ref sig .tc) (hr : r ∈ argRefs) :
    after (pieceA4 (F := Ideal)) V (Proc.devRef .tc r) = V (Proc.devRef .tc r) :=
  pieceA4_keep V ((show ∀ r ∈ argRefs, r ∉ [main_v39, main_v40, main_v41, main_v42, main_v43, main_v44, main_v45, main_v46, main_v47, main_v48, main_v49, main_v50, main_call3_cst, main_call3_v0, main_v51] by decide) r hr)

/-- The piece leaves, in its last buffer, the average of the running features and the last layer's output. -/
theorem pieceR2_val (V : Valuation τ sig (Elt Ideal)) :
    after (pieceR2 (F := Ideal)) V (Proc.devRef .tc main_v54)
      = resid (V (Proc.devRef .tc main_v25)) (V (Proc.devRef .tc main_v51)) := by
  unfold pieceR2
  after_results
  exact resid_host _ _ _ _

/-- A buffer none of the piece's operations writes holds afterwards what it held before. -/
theorem pieceR2_keep (V : Valuation τ sig (Elt Ideal)) {r : Ref sig .tc}
    (hr : r ∉ [main_v52, main_cst_0, main_v53, main_v54]) :
    after (pieceR2 (F := Ideal)) V (Proc.devRef .tc r) = V (Proc.devRef .tc r) :=
  after_of_writes_sub _ V (by
    unfold pieceR2
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceR2_keep_arg (V : Valuation τ sig (Elt Ideal)) (r : Ref sig .tc) (hr : r ∈ argRefs) :
    after (pieceR2 (F := Ideal)) V (Proc.devRef .tc r) = V (Proc.devRef .tc r) :=
  pieceR2_keep V ((show ∀ r ∈ argRefs, r ∉ [main_v52, main_cst_0, main_v53, main_v54] by decide) r hr)

end Cert.ReferenceIdeal.RefValue

end
-- ==== Proof.RGroup3.lean ====
/-
  What three consecutive pieces of the reference program (A5, A6, R3) leave in memory, from any contents V before them:
  the value of each piece's last buffer as the specification's function (a layer, or an averaging step) of the contents
  it reads, and that every buffer it does not write — the program's arguments among them — is left as it was.
-/
import proofs.«108744_j27797028339962_2_alg».proof.Proof.RPieces
import proofs.«108744_j27797028339962_2_alg».proof.Proof.RLayer
import proofs.«108744_j27797028339962_2_alg».proof.Proof.HostForms

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Gcn Cert.Gcn.RefLayer Cert.Gcn.Forms

/-- The piece leaves, in its last buffer, the layer of what it found in its input buffer, with slab 3 of the stacked weights
    and row 3 of the stacked biases. -/
theorem pieceA5_val (V : Valuation τ sig (Elt Ideal)) :
    after (pieceA5 (F := Ideal)) V (Proc.devRef .tc main_v67)
      = layer 64 (V (Proc.devRef .tc main_v54)) (V (Proc.devRef .tc main_arg1))
          (slab (V (Proc.devRef .tc main_arg4)) 3) (row (V (Proc.devRef .tc main_arg5)) 3) := by
  unfold pieceA5
  after_results
  rw [← slab_host (V (Proc.devRef .tc main_arg4)) 3 (by decide) slices_S12x192x192_S1x192x192_3_0_0 shapeCasts_S1x192x192_S192x192,
    ← row_host (V (Proc.devRef .tc main_arg5)) 3 (by decide) slices_S12x192_S1x192_3_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA5_keep (V : Valuation τ sig (Elt Ideal)) {r : Ref sig .tc}
    (hr : r ∉ [main_v55, main_v56, main_v57, main_v58, main_v59, main_v60, main_v61, main_v62, main_v63, main_v64, main_v65, main_v66, main_call4_cst, main_call4_v0, main_v67]) :
    after (pieceA5 (F := Ideal)) V (Proc.devRef .tc r) = V (Proc.devRef .tc r) :=
  after_of_writes_sub _ V (by
    unfold pieceA5
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA5_keep_arg (V : Valuation τ sig (Elt Ideal)) (r : Ref sig .tc) (hr : r ∈ argRefs) :
    after (pieceA5 (F := Ideal)) V (Proc.devRef .tc r) = V (Proc.devRef .tc r) :=
  pieceA5_keep V ((show ∀ r ∈ argRefs, r ∉ [main_v55, main_v56, main_v57, main_v58, main_v59, main_v60, main_v61, main_v62, main_v63, main_v64, main_v65, main_v66, main_call4_cst, main_call4_v0, main_v67] by decide) r hr)

/-- The piece leaves, in its last buffer, the layer of what it found in its input buffer, with slab 4 of the stacked weights
    and row 4 of the stacked biases. -/
theorem pieceA6_val (V : Valuation τ sig (Elt Ideal)) :
    after (pieceA6 (F := Ideal)) V (Proc.devRef .tc main_v80)
      = layer 64 (V (Proc.devRef .tc main_v67)) (V (Proc.devRef .tc main_arg1))
          (slab (V (Proc.devRef .tc main_arg4)) 4) (row (V (Proc.devRef .tc main_arg5)) 4) := by
  unfold pieceA6
  after_results
  rw [← slab_host (V (Proc.devRef .tc main_arg4)) 4 (by decide) slices_S12x192x192_S1x192x192_4_0_0 shapeCasts_S1x192x192_S192x192,
    ← row_host (V (Proc.devRef .tc main_arg5)) 4 (by decide) slices_S12x192_S1x192_4_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA6_keep (V : Valuation τ sig (Elt Ideal)) {r : Ref sig .tc}
    (hr : r ∉ [main_v68, main_v69, main_v70, main_v71, main_v72, main_v73, main_v74, main_v75, main_v76, main_v77, main_v78, main_v79, main_call5_cst, main_call5_v0, main_v80]) :
    after (pieceA6 (F := Ideal)) V (Proc.devRef .tc r) = V (Proc.devRef .tc r) :=
  after_of_writes_sub _ V (by
    unfold pieceA6
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA6_keep_arg (V : Valuation τ sig (Elt Ideal)) (r : Ref sig .tc) (hr : r ∈ argRefs) :
    after (pieceA6 (F := Ideal)) V (Proc.devRef .tc r) = V (Proc.devRef .tc r) :=
  pieceA6_keep V ((show ∀ r ∈ argRefs, r ∉ [main_v68, main_v69, main_v70, main_v71, main_v72, main_v73, main_v74, main_v75, main_v76, main_v77, main_v78, main_v79, main_call5_cst, main_call5_v0, main_v80] by decide) r hr)

/-- The piece leaves, in its last buffer, the average of the running features and the last layer's output. -/
theorem pieceR3_val (V : Valuation τ sig (Elt Ideal)) :
    after (pieceR3 (F := Ideal)) V (Proc.devRef .tc main_v83)
      = resid (V (Proc.devRef .tc main_v54)) (V (Proc.devRef .tc main_v80)) := by
  unfold pieceR3
  after_results
  exact resid_host _ _ _ _

/-- A buffer none of the piece's operations writes holds afterwards what it held before. -/
theorem pieceR3_keep (V : Valuation τ sig (Elt Ideal)) {r : Ref sig .tc}
    (hr : r ∉ [main_v81, main_cst_1, main_v82, main_v83]) :
    after (pieceR3 (F := Ideal)) V (Proc.devRef .tc r) = V (Proc.devRef .tc r) :=
  after_of_writes_sub _ V (by
    unfold pieceR3
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceR3_keep_arg (V : Valuation τ sig (Elt Ideal)) (r : Ref sig .tc) (hr : r ∈ argRefs) :
    after (pieceR3 (F := Ideal)) V (Proc.devRef .tc r) = V (Proc.devRef .tc r) :=
  pieceR3_keep V ((show ∀ r ∈ argRefs, r ∉ [main_v81, main_cst_1, main_v82, main_v83] by decide) r hr)

end Cert.ReferenceIdeal.RefValue

end
-- ==== Proof.RGroup4.lean ====
/-
  What three consecutive pieces of the reference program (A7, A8, R4) leave in memory, from any contents V before them:
  the value of each piece's last buffer as the specification's function (a layer, or an averaging step) of the contents
  it reads, and that every buffer it does not write — the program's arguments among them — is left as it was.
-/
import proofs.«108744_j27797028339962_2_alg».proof.Proof.RPieces
import proofs.«108744_j27797028339962_2_alg».proof.Proof.RLayer
import proofs.«108744_j27797028339962_2_alg».proof.Proof.HostForms

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Gcn Cert.Gcn.RefLayer Cert.Gcn.Forms

/-- The piece leaves, in its last buffer, the layer of what it found in its input buffer, with slab 5 of the stacked weights
    and row 5 of the stacked biases. -/
theorem pieceA7_val (V : Valuation τ sig (Elt Ideal)) :
    after (pieceA7 (F := Ideal)) V (Proc.devRef .tc main_v96)
      = layer 64 (V (Proc.devRef .tc main_v83)) (V (Proc.devRef .tc main_arg1))
          (slab (V (Proc.devRef .tc main_arg4)) 5) (row (V (Proc.devRef .tc main_arg5)) 5) := by
  unfold pieceA7
  after_results
  rw [← slab_host (V (Proc.devRef .tc main_arg4)) 5 (by decide) slices_S12x192x192_S1x192x192_5_0_0 shapeCasts_S1x192x192_S192x192,
    ← row_host (V (Proc.devRef .tc main_arg5)) 5 (by decide) slices_S12x192_S1x192_5_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA7_keep (V : Valuation τ sig (Elt Ideal)) {r : Ref sig .tc}
    (hr : r ∉ [main_v84, main_v85, main_v86, main_v87, main_v88, main_v89, main_v90, main_v91, main_v92, main_v93, main_v94, main_v95, main_call6_cst, main_call6_v0, main_v96]) :
    after (pieceA7 (F := Ideal)) V (Proc.devRef .tc r) = V (Proc.devRef .tc r) :=
  after_of_writes_sub _ V (by
    unfold pieceA7
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA7_keep_arg (V : Valuation τ sig (Elt Ideal)) (r : Ref sig .tc) (hr : r ∈ argRefs) :
    after (pieceA7 (F := Ideal)) V (Proc.devRef .tc r) = V (Proc.devRef .tc r) :=
  pieceA7_keep V ((show ∀ r ∈ argRefs, r ∉ [main_v84, main_v85, main_v86, main_v87, main_v88, main_v89, main_v90, main_v91, main_v92, main_v93, main_v94, main_v95, main_call6_cst, main_call6_v0, main_v96] by decide) r hr)

/-- The piece leaves, in its last buffer, the layer of what it found in its input buffer, with slab 6 of the stacked weights
    and row 6 of the stacked biases. -/
theorem pieceA8_val (V : Valuation τ sig (Elt Ideal)) :
    after (pieceA8 (F := Ideal)) V (Proc.devRef .tc main_v109)
      = layer 64 (V (Proc.devRef .tc main_v96)) (V (Proc.devRef .tc main_arg1))
          (slab (V (Proc.devRef .tc main_arg4)) 6) (row (V (Proc.devRef .tc main_arg5)) 6) := by
  unfold pieceA8
  after_results
  rw [← slab_host (V (Proc.devRef .tc main_arg4)) 6 (by decide) slices_S12x192x192_S1x192x192_6_0_0 shapeCasts_S1x192x192_S192x192,
    ← row_host (V (Proc.devRef .tc main_arg5)) 6 (by decide) slices_S12x192_S1x192_6_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA8_keep (V : Valuation τ sig (Elt Ideal)) {r : Ref sig .tc}
    (hr : r ∉ [main_v97, main_v98, main_v99, main_v100, main_v101, main_v102, main_v103, main_v104, main_v105, main_v106, main_v107, main_v108, main_call7_cst, main_call7_v0, main_v109]) :
    after (pieceA8 (F := Ideal)) V (Proc.devRef .tc r) = V (Proc.devRef .tc r) :=
  after_of_writes_sub _ V (by
    unfold pieceA8
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA8_keep_arg (V : Valuation τ sig (Elt Ideal)) (r : Ref sig .tc) (hr : r ∈ argRefs) :
    after (pieceA8 (F := Ideal)) V (Proc.devRef .tc r) = V (Proc.devRef .tc r) :=
  pieceA8_keep V ((show ∀ r ∈ argRefs, r ∉ [main_v97, main_v98, main_v99, main_v100, main_v101, main_v102, main_v103, main_v104, main_v105, main_v106, main_v107, main_v108, main_call7_cst, main_call7_v0, main_v109] by decide) r hr)

/-- The piece leaves, in its last buffer, the average of the running features and the last layer's output. -/
theorem pieceR4_val (V : Valuation τ sig (Elt Ideal)) :
    after (pieceR4 (F := Ideal)) V (Proc.devRef .tc main_v112)
      = resid (V (Proc.devRef .tc main_v83)) (V (Proc.devRef .tc main_v109)) := by
  unfold pieceR4
  after_results
  exact resid_host _ _ _ _

/-- A buffer none of the piece's operations writes holds afterwards what it held before. -/
theorem pieceR4_keep (V : Valuation τ sig (Elt Ideal)) {r : Ref sig .tc}
    (hr : r ∉ [main_v110, main_cst_2, main_v111, main_v112]) :
    after (pieceR4 (F := Ideal)) V (Proc.devRef .tc r) = V (Proc.devRef .tc r) :=
  after_of_writes_sub _ V (by
    unfold pieceR4
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceR4_keep_arg (V : Valuation τ sig (Elt Ideal)) (r : Ref sig .tc) (hr : r ∈ argRefs) :
    after (pieceR4 (F := Ideal)) V (Proc.devRef .tc r) = V (Proc.devRef .tc r) :=
  pieceR4_keep V ((show ∀ r ∈ argRefs, r ∉ [main_v110, main_cst_2, main_v111, main_v112] by decide) r hr)

end Cert.ReferenceIdeal.RefValue

end
-- ==== Proof.RGroup5.lean ====
/-
  What three consecutive pieces of the reference program (A9, A10, R5) leave in memory, from any contents V before them:
  the value of each piece's last buffer as the specification's function (a layer, or an averaging step) of the contents
  it reads, and that every buffer it does not write — the program's arguments among them — is left as it was.
-/
import proofs.«108744_j27797028339962_2_alg».proof.Proof.RPieces
import proofs.«108744_j27797028339962_2_alg».proof.Proof.RLayer
import proofs.«108744_j27797028339962_2_alg».proof.Proof.HostForms

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Gcn Cert.Gcn.RefLayer Cert.Gcn.Forms

/-- The piece leaves, in its last buffer, the layer of what it found in its input buffer, with slab 7 of the stacked weights
    and row 7 of the stacked biases. -/
theorem pieceA9_val (V : Valuation τ sig (Elt Ideal)) :
    after (pieceA9 (F := Ideal)) V (Proc.devRef .tc main_v125)
      = layer 64 (V (Proc.devRef .tc main_v112)) (V (Proc.devRef .tc main_arg1))
          (slab (V (Proc.devRef .tc main_arg4)) 7) (row (V (Proc.devRef .tc main_arg5)) 7) := by
  unfold pieceA9
  after_results
  rw [← slab_host (V (Proc.devRef .tc main_arg4)) 7 (by decide) slices_S12x192x192_S1x192x192_7_0_0 shapeCasts_S1x192x192_S192x192,
    ← row_host (V (Proc.devRef .tc main_arg5)) 7 (by decide) slices_S12x192_S1x192_7_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA9_keep (V : Valuation τ sig (Elt Ideal)) {r : Ref sig .tc}
    (hr : r ∉ [main_v113, main_v114, main_v115, main_v116, main_v117, main_v118, main_v119, main_v120, main_v121, main_v122, main_v123, main_v124, main_call8_cst, main_call8_v0, main_v125]) :
    after (pieceA9 (F := Ideal)) V (Proc.devRef .tc r) = V (Proc.devRef .tc r) :=
  after_of_writes_sub _ V (by
    unfold pieceA9
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA9_keep_arg (V : Valuation τ sig (Elt Ideal)) (r : Ref sig .tc) (hr : r ∈ argRefs) :
    after (pieceA9 (F := Ideal)) V (Proc.devRef .tc r) = V (Proc.devRef .tc r) :=
  pieceA9_keep V ((show ∀ r ∈ argRefs, r ∉ [main_v113, main_v114, main_v115, main_v116, main_v117, main_v118, main_v119, main_v120, main_v121, main_v122, main_v123, main_v124, main_call8_cst, main_call8_v0, main_v125] by decide) r hr)

/-- The piece leaves, in its last buffer, the layer of what it found in its input buffer, with slab 8 of the stacked weights
    and row 8 of the stacked biases. -/
theorem pieceA10_val (V : Valuation τ sig (Elt Ideal)) :
    after (pieceA10 (F := Ideal)) V (Proc.devRef .tc main_v138)
      = layer 64 (V (Proc.devRef .tc main_v125)) (V (Proc.devRef .tc main_arg1))
          (slab (V (Proc.devRef .tc main_arg4)) 8) (row (V (Proc.devRef .tc main_arg5)) 8) := by
  unfold pieceA10
  after_results
  rw [← slab_host (V (Proc.devRef .tc main_arg4)) 8 (by decide) slices_S12x192x192_S1x192x192_8_0_0 shapeCasts_S1x192x192_S192x192,
    ← row_host (V (Proc.devRef .tc main_arg5)) 8 (by decide) slices_S12x192_S1x192_8_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA10_keep (V : Valuation τ sig (Elt Ideal)) {r : Ref sig .tc}
    (hr : r ∉ [main_v126, main_v127, main_v128, main_v129, main_v130, main_v131, main_v132, main_v133, main_v134, main_v135, main_v136, main_v137, main_call9_cst, main_call9_v0, main_v138]) :
    after (pieceA10 (F := Ideal)) V (Proc.devRef .tc r) = V (Proc.devRef .tc r) :=
  after_of_writes_sub _ V (by
    unfold pieceA10
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA10_keep_arg (V : Valuation τ sig (Elt Ideal)) (r : Ref sig .tc) (hr : r ∈ argRefs) :
    after (pieceA10 (F := Ideal)) V (Proc.devRef .tc r) = V (Proc.devRef .tc r) :=
  pieceA10_keep V ((show ∀ r ∈ argRefs, r ∉ [main_v126, main_v127, main_v128, main_v129, main_v130, main_v131, main_v132, main_v133, main_v134, main_v135, main_v136, main_v137, main_call9_cst, main_call9_v0, main_v138] by decide) r hr)

/-- The piece leaves, in its last buffer, the average of the running features and the last layer's output. -/
theorem pieceR5_val (V : Valuation τ sig (Elt Ideal)) :
    after (pieceR5 (F := Ideal)) V (Proc.devRef .tc main_v141)
      = resid (V (Proc.devRef .tc main_v112)) (V (Proc.devRef .tc main_v138)) := by
  unfold pieceR5
  after_results
  exact resid_host _ _ _ _

/-- A buffer none of the piece's operations writes holds afterwards what it held before. -/
theorem pieceR5_keep (V : Valuation τ sig (Elt Ideal)) {r : Ref sig .tc}
    (hr : r ∉ [main_v139, main_cst_3, main_v140, main_v141]) :
    after (pieceR5 (F := Ideal)) V (Proc.devRef .tc r) = V (Proc.devRef .tc r) :=
  after_of_writes_sub _ V (by
    unfold pieceR5
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceR5_keep_arg (V : Valuation τ sig (Elt Ideal)) (r : Ref sig .tc) (hr : r ∈ argRefs) :
    after (pieceR5 (F := Ideal)) V (Proc.devRef .tc r) = V (Proc.devRef .tc r) :=
  pieceR5_keep V ((show ∀ r ∈ argRefs, r ∉ [main_v139, main_cst_3, main_v140, main_v141] by decide) r hr)

end Cert.ReferenceIdeal.RefValue

end
-- ==== Proof.RGroup6.lean ====
/-
  What three consecutive pieces of the reference program (A11, A12, R6) leave in memory, from any contents V before them:
  the value of each piece's last buffer as the specification's function (a layer, or an averaging step) of the contents
  it reads, and that every buffer it does not write — the program's arguments among them — is left as it was.
-/
import proofs.«108744_j27797028339962_2_alg».proof.Proof.RPieces
import proofs.«108744_j27797028339962_2_alg».proof.Proof.RLayer
import proofs.«108744_j27797028339962_2_alg».proof.Proof.HostForms

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Gcn Cert.Gcn.RefLayer Cert.Gcn.Forms

/-- The piece leaves, in its last buffer, the layer of what it found in its input buffer, with slab 9 of the stacked weights
    and row 9 of the stacked biases. -/
theorem pieceA11_val (V : Valuation τ sig (Elt Ideal)) :
    after (pieceA11 (F := Ideal)) V (Proc.devRef .tc main_v154)
      = layer 64 (V (Proc.devRef .tc main_v141)) (V (Proc.devRef .tc main_arg1))
          (slab (V (Proc.devRef .tc main_arg4)) 9) (row (V (Proc.devRef .tc main_arg5)) 9) := by
  unfold pieceA11
  after_results
  rw [← slab_host (V (Proc.devRef .tc main_arg4)) 9 (by decide) slices_S12x192x192_S1x192x192_9_0_0 shapeCasts_S1x192x192_S192x192,
    ← row_host (V (Proc.devRef .tc main_arg5)) 9 (by decide) slices_S12x192_S1x192_9_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA11_keep (V : Valuation τ sig (Elt Ideal)) {r : Ref sig .tc}
    (hr : r ∉ [main_v142, main_v143, main_v144, main_v145, main_v146, main_v147, main_v148, main_v149, main_v150, main_v151, main_v152, main_v153, main_call10_cst, main_call10_v0, main_v154]) :
    after (pieceA11 (F := Ideal)) V (Proc.devRef .tc r) = V (Proc.devRef .tc r) :=
  after_of_writes_sub _ V (by
    unfold pieceA11
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA11_keep_arg (V : Valuation τ sig (Elt Ideal)) (r : Ref sig .tc) (hr : r ∈ argRefs) :
    after (pieceA11 (F := Ideal)) V (Proc.devRef .tc r) = V (Proc.devRef .tc r) :=
  pieceA11_keep V ((show ∀ r ∈ argRefs, r ∉ [main_v142, main_v143, main_v144, main_v145, main_v146, main_v147, main_v148, main_v149, main_v150, main_v151, main_v152, main_v153, main_call10_cst, main_call10_v0, main_v154] by decide) r hr)

/-- The piece leaves, in its last buffer, the layer of what it found in its input buffer, with slab 10 of the stacked weights
    and row 10 of the stacked biases. -/
theorem pieceA12_val (V : Valuation τ sig (Elt Ideal)) :
    after (pieceA12 (F := Ideal)) V (Proc.devRef .tc main_v167)
      = layer 64 (V (Proc.devRef .tc main_v154)) (V (Proc.devRef .tc main_arg1))
          (slab (V (Proc.devRef .tc main_arg4)) 10) (row (V (Proc.devRef .tc main_arg5)) 10) := by
  unfold pieceA12
  after_results
  rw [← slab_host (V (Proc.devRef .tc main_arg4)) 10 (by decide) slices_S12x192x192_S1x192x192_10_0_0 shapeCasts_S1x192x192_S192x192,
    ← row_host (V (Proc.devRef .tc main_arg5)) 10 (by decide) slices_S12x192_S1x192_10_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA12_keep (V : Valuation τ sig (Elt Ideal)) {r : Ref sig .tc}
    (hr : r ∉ [main_v155, main_v156, main_v157, main_v158, main_v159, main_v160, main_v161, main_v162, main_v163, main_v164, main_v165, main_v166, main_call11_cst, main_call11_v0, main_v167]) :
    after (pieceA12 (F := Ideal)) V (Proc.devRef .tc r) = V (Proc.devRef .tc r) :=
  after_of_writes_sub _ V (by
    unfold pieceA12
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA12_keep_arg (V : Valuation τ sig (Elt Ideal)) (r : Ref sig .tc) (hr : r ∈ argRefs) :
    after (pieceA12 (F := Ideal)) V (Proc.devRef .tc r) = V (Proc.devRef .tc r) :=
  pieceA12_keep V ((show ∀ r ∈ argRefs, r ∉ [main_v155, main_v156, main_v157, main_v158, main_v159, main_v160, main_v161, main_v162, main_v163, main_v164, main_v165, main_v166, main_call11_cst, main_call11_v0, main_v167] by decide) r hr)

/-- The piece leaves, in its last buffer, the average of the running features and the last layer's output. -/
theorem pieceR6_val (V : Valuation τ sig (Elt Ideal)) :
    after (pieceR6 (F := Ideal)) V (Proc.devRef .tc main_v170)
      = resid (V (Proc.devRef .tc main_v141)) (V (Proc.devRef .tc main_v167)) := by
  unfold pieceR6
  after_results
  exact resid_host _ _ _ _

/-- A buffer none of the piece's operations writes holds afterwards what it held before. -/
theorem pieceR6_keep (V : Valuation τ sig (Elt Ideal)) {r : Ref sig .tc}
    (hr : r ∉ [main_v168, main_cst_4, main_v169, main_v170]) :
    after (pieceR6 (F := Ideal)) V (Proc.devRef .tc r) = V (Proc.devRef .tc r) :=
  after_of_writes_sub _ V (by
    unfold pieceR6
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceR6_keep_arg (V : Valuation τ sig (Elt Ideal)) (r : Ref sig .tc) (hr : r ∈ argRefs) :
    after (pieceR6 (F := Ideal)) V (Proc.devRef .tc r) = V (Proc.devRef .tc r) :=
  pieceR6_keep V ((show ∀ r ∈ argRefs, r ∉ [main_v168, main_cst_4, main_v169, main_v170] by decide) r hr)

end Cert.ReferenceIdeal.RefValue

end
-- ==== Proof.RGroup7.lean ====
/-
  What three consecutive pieces of the reference program (A13, R7, LZ) leave in memory, from any contents V before them:
  the value of each piece's last buffer as the specification's function (a layer, or an averaging step) of the contents
  it reads, and that every buffer it does not write — the program's arguments among them — is left as it was.
-/
import proofs.«108744_j27797028339962_2_alg».proof.Proof.RPieces
import proofs.«108744_j27797028339962_2_alg».proof.Proof.RLayer
import proofs.«108744_j27797028339962_2_alg».proof.Proof.HostForms

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Gcn Cert.Gcn.RefLayer Cert.Gcn.Forms

/-- The piece leaves, in its last buffer, the layer of what it found in its input buffer, with slab 11 of the stacked weights
    and row 11 of the stacked biases. -/
theorem pieceA13_val (V : Valuation τ sig (Elt Ideal)) :
    after (pieceA13 (F := Ideal)) V (Proc.devRef .tc main_v183)
      = layer 64 (V (Proc.devRef .tc main_v170)) (V (Proc.devRef .tc main_arg1))
          (slab (V (Proc.devRef .tc main_arg4)) 11) (row (V (Proc.devRef .tc main_arg5)) 11) := by
  unfold pieceA13
  after_results
  rw [← slab_host (V (Proc.devRef .tc main_arg4)) 11 (by decide) slices_S12x192x192_S1x192x192_11_0_0 shapeCasts_S1x192x192_S192x192,
    ← row_host (V (Proc.devRef .tc main_arg5)) 11 (by decide) slices_S12x192_S1x192_11_0 shapeCasts_S1x192_S192]
  exact hostLayer (M := 8192) (K := 192) (N := 192) (S := 64) (P := 128) (by decide)
    dot_S8192x192_S192x192_S8192x192_1_0_0_1_n_n rfl dot_S8192x8192_S8192x64_S8192x64_1_0_0_1_n_n rfl
    slices_S8192x192_S8192x64_0_0 slices_S8192x192_S8192x128_0_64 concatenates_S8192x64_S8192x128_S8192x192_d1
    bcast_S192_S1x192_1 bcast_S1x192_S8192x192_0_1 bcast_S_S8192x192 _ _ _ _

/-- A buffer none of the piece's operations writes holds afterwards what it held before. -/
theorem pieceA13_keep (V : Valuation τ sig (Elt Ideal)) {r : Ref sig .tc}
    (hr : r ∉ [main_v171, main_v172, main_v173, main_v174, main_v175, main_v176, main_v177, main_v178, main_v179, main_v180, main_v181, main_v182, main_call12_cst, main_call12_v0, main_v183]) :
    after (pieceA13 (F := Ideal)) V (Proc.devRef .tc r) = V (Proc.devRef .tc r) :=
  after_of_writes_sub _ V (by
    unfold pieceA13
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceA13_keep_arg (V : Valuation τ sig (Elt Ideal)) (r : Ref sig .tc) (hr : r ∈ argRefs) :
    after (pieceA13 (F := Ideal)) V (Proc.devRef .tc r) = V (Proc.devRef .tc r) :=
  pieceA13_keep V ((show ∀ r ∈ argRefs, r ∉ [main_v171, main_v172, main_v173, main_v174, main_v175, main_v176, main_v177, main_v178, main_v179, main_v180, main_v181, main_v182, main_call12_cst, main_call12_v0, main_v183] by decide) r hr)

/-- The piece leaves, in its last buffer, the average of the running features and the last layer's output. -/
theorem pieceR7_val (V : Valuation τ sig (Elt Ideal)) :
    after (pieceR7 (F := Ideal)) V (Proc.devRef .tc main_v186)
      = resid (V (Proc.devRef .tc main_v170)) (V (Proc.devRef .tc main_v183)) := by
  unfold pieceR7
  after_results
  exact resid_host _ _ _ _

/-- A buffer none of the piece's operations writes holds afterwards what it held before. -/
theorem pieceR7_keep (V : Valuation τ sig (Elt Ideal)) {r : Ref sig .tc}
    (hr : r ∉ [main_v184, main_cst_5, main_v185, main_v186]) :
    after (pieceR7 (F := Ideal)) V (Proc.devRef .tc r) = V (Proc.devRef .tc r) :=
  after_of_writes_sub _ V (by
    unfold pieceR7
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceR7_keep_arg (V : Valuation τ sig (Elt Ideal)) (r : Ref sig .tc) (hr : r ∈ argRefs) :
    after (pieceR7 (F := Ideal)) V (Proc.devRef .tc r) = V (Proc.devRef .tc r) :=
  pieceR7_keep V ((show ∀ r ∈ argRefs, r ∉ [main_v184, main_cst_5, main_v185, main_v186] by decide) r hr)

/-- The piece leaves, in its last buffer, the last layer (no cut at zero) of the last running features. -/
theorem pieceLZ_val (V : Valuation τ sig (Elt Ideal)) :
    after (pieceLZ (F := Ideal)) V (Proc.devRef .tc main_v194)
      = layerPre 2 (V (Proc.devRef .tc main_v186)) (V (Proc.devRef .tc main_arg1)) (V (Proc.devRef .tc main_arg6)) (V (Proc.devRef .tc main_arg7)) := by
  unfold pieceLZ
  after_results
  exact hostLayerPre (M := 8192) (K := 192) (N := 3) (S := 2) (P := 1) (by decide)
    dot_S8192x192_S192x3_S8192x3_1_0_0_1_n_n rfl dot_S8192x8192_S8192x2_S8192x2_1_0_0_1_n_n rfl
    slices_S8192x3_S8192x2_0_0 slices_S8192x3_S8192x1_0_2 concatenates_S8192x2_S8192x1_S8192x3_d1
    bcast_S3_S1x3_1 bcast_S1x3_S8192x3_0_1 _ _ _ _

/-- A buffer none of the piece's operations writes holds afterwards what it held before. -/
theorem pieceLZ_keep (V : Valuation τ sig (Elt Ideal)) {r : Ref sig .tc}
    (hr : r ∉ [main_v187, main_v188, main_v189, main_v190, main_v191, main_v192, main_v193, main_v194]) :
    after (pieceLZ (F := Ideal)) V (Proc.devRef .tc r) = V (Proc.devRef .tc r) :=
  after_of_writes_sub _ V (by
    unfold pieceLZ
    simp only [List.Forall, nullary_writes, unary_writes, binary_writes, reshape_writes, Finset.singleton_subset_iff,
      List.mem_toFinset, List.map_cons, List.map_nil, List.mem_cons, true_or, or_true, and_self]) hr

/-- In particular the program's eight arguments. -/
theorem pieceLZ_keep_arg (V : Valuation τ sig (Elt Ideal)) (r : Ref sig .tc) (hr : r ∈ argRefs) :
    after (pieceLZ (F := Ideal)) V (Proc.devRef .tc r) = V (Proc.devRef .tc r) :=
  pieceLZ_keep V ((show ∀ r ∈ argRefs, r ∉ [main_v187, main_v188, main_v189, main_v190, main_v191, main_v192, main_v193, main_v194] by decide) r hr)

end Cert.ReferenceIdeal.RefValue

end
-- ==== Proof.RNet.lean ====
/-
  The network's intermediate values, each named as a function of the inputs: the outputs x1 … x13 of the thirteen layers
  cut at zero and the running features f1 … f7 after the seven averaging steps, exactly the chain of the specification's
  definition of the network; the network's two results are the last layer (no cut at zero) at f7, and f7.
-/
import proofs.«108744_j27797028339962_2_alg».proof.Proof.Spec

noncomputable section

namespace Cert.Gcn.Chain

open Cert.Gcn

/-- The first layer's output. -/
def x1 (f : Arr2 8192 256) (A : Arr2 8192 8192) (W1 : Arr2 256 192) (b1 : Arr1 192) (Wm : Arr3 12 192 192) (bm : Arr2 12 192) : Arr2 8192 192 :=
  layer 64 f A W1 b1

/-- The second layer's output. -/
def x2 (f : Arr2 8192 256) (A : Arr2 8192 8192) (W1 : Arr2 256 192) (b1 : Arr1 192) (Wm : Arr3 12 192 192) (bm : Arr2 12 192) : Arr2 8192 192 :=
  layer 64 (x1 f A W1 b1 Wm bm) A (slab Wm 0) (row bm 0)

/-- The running features after the first averaging step. -/
def f1 (f : Arr2 8192 256) (A : Arr2 8192 8192) (W1 : Arr2 256 192) (b1 : Arr1 192) (Wm : Arr3 12 192 192) (bm : Arr2 12 192) : Arr2 8192 192 :=
  resid (cols 192 f) (x2 f A W1 b1 Wm bm)

/-- Layer 3's output. -/
def x3 (f : Arr2 8192 256) (A : Arr2 8192 8192) (W1 : Arr2 256 192) (b1 : Arr1 192) (Wm : Arr3 12 192 192) (bm : Arr2 12 192) : Arr2 8192 192 :=
  layer 64 (f1 f A W1 b1 Wm bm) A (slab Wm 1) (row bm 1)

/-- Layer 4's output. -/
def x4 (f : Arr2 8192 256) (A : Arr2 8192 8192) (W1 : Arr2 256 192) (b1 : Arr1 192) (Wm : Arr3 12 192 192) (bm : Arr2 12 192) : Arr2 8192 192 :=
  layer 64 (x3 f A W1 b1 Wm bm) A (slab Wm 2) (row bm 2)

/-- The running features after averaging step 2. -/
def f2 (f : Arr2 8192 256) (A : Arr2 8192 8192) (W1 : Arr2 256 192) (b1 : Arr1 192) (Wm : Arr3 12 192 192) (bm : Arr2 12 192) : Arr2 8192 192 :=
  resid (f1 f A W1 b1 Wm bm) (x4 f A W1 b1 Wm bm)

/-- Layer 5's output. -/
def x5 (f : Arr2 8192 256) (A : Arr2 8192 8192) (W1 : Arr2 256 192) (b1 : Arr1 192) (Wm : Arr3 12 192 192) (bm : Arr2 12 192) : Arr2 8192 192 :=
  layer 64 (f2 f A W1 b1 Wm bm) A (slab Wm 3) (row bm 3)

/-- Layer 6's output. -/
def x6 (f : Arr2 8192 256) (A : Arr2 8192 8192) (W1 : Arr2 256 192) (b1 : Arr1 192) (Wm : Arr3 12 192 192) (bm : Arr2 12 192) : Arr2 8192 192 :=
  layer 64 (x5 f A W1 b1 Wm bm) A (slab Wm 4) (row bm 4)

/-- The running features after averaging step 3. -/
def f3 (f : Arr2 8192 256) (A : Arr2 8192 8192) (W1 : Arr2 256 192) (b1 : Arr1 192) (Wm : Arr3 12 192 192) (bm : Arr2 12 192) : Arr2 8192 192 :=
  resid (f2 f A W1 b1 Wm bm) (x6 f A W1 b1 Wm bm)

/-- Layer 7's output. -/
def x7 (f : Arr2 8192 256) (A : Arr2 8192 8192) (W1 : Arr2 256 192) (b1 : Arr1 192) (Wm : Arr3 12 192 192) (bm : Arr2 12 192) : Arr2 8192 192 :=
  layer 64 (f3 f A W1 b1 Wm bm) A (slab Wm 5) (row bm 5)

/-- Layer 8's output. -/
def x8 (f : Arr2 8192 256) (A : Arr2 8192 8192) (W1 : Arr2 256 192) (b1 : Arr1 192) (Wm : Arr3 12 192 192) (bm : Arr2 12 192) : Arr2 8192 192 :=
  layer 64 (x7 f A W1 b1 Wm bm) A (slab Wm 6) (row bm 6)

/-- The running features after averaging step 4. -/
def f4 (f : Arr2 8192 256) (A : Arr2 8192 8192) (W1 : Arr2 256 192) (b1 : Arr1 192) (Wm : Arr3 12 192 192) (bm : Arr2 12 192) : Arr2 8192 192 :=
  resid (f3 f A W1 b1 Wm bm) (x8 f A W1 b1 Wm bm)

/-- Layer 9's output. -/
def x9 (f : Arr2 8192 256) (A : Arr2 8192 8192) (W1 : Arr2 256 192) (b1 : Arr1 192) (Wm : Arr3 12 192 192) (bm : Arr2 12 192) : Arr2 8192 192 :=
  layer 64 (f4 f A W1 b1 Wm bm) A (slab Wm 7) (row bm 7)

/-- Layer 10's output. -/
def x10 (f : Arr2 8192 256) (A : Arr2 8192 8192) (W1 : Arr2 256 192) (b1 : Arr1 192) (Wm : Arr3 12 192 192) (bm : Arr2 12 192) : Arr2 8192 192 :=
  layer 64 (x9 f A W1 b1 Wm bm) A (slab Wm 8) (row bm 8)

/-- The running features after averaging step 5. -/
def f5 (f : Arr2 8192 256) (A : Arr2 8192 8192) (W1 : Arr2 256 192) (b1 : Arr1 192) (Wm : Arr3 12 192 192) (bm : Arr2 12 192) : Arr2 8192 192 :=
  resid (f4 f A W1 b1 Wm bm) (x10 f A W1 b1 Wm bm)

/-- Layer 11's output. -/
def x11 (f : Arr2 8192 256) (A : Arr2 8192 8192) (W1 : Arr2 256 192) (b1 : Arr1 192) (Wm : Arr3 12 192 192) (bm : Arr2 12 192) : Arr2 8192 192 :=
  layer 64 (f5 f A W1 b1 Wm bm) A (slab Wm 9) (row bm 9)

/-- Layer 12's output. -/
def x12 (f : Arr2 8192 256) (A : Arr2 8192 8192) (W1 : Arr2 256 192) (b1 : Arr1 192) (Wm : Arr3 12 192 192) (bm : Arr2 12 192) : Arr2 8192 192 :=
  layer 64 (x11 f A W1 b1 Wm bm) A (slab Wm 10) (row bm 10)

/-- The running features after averaging step 6. -/
def f6 (f : Arr2 8192 256) (A : Arr2 8192 8192) (W1 : Arr2 256 192) (b1 : Arr1 192) (Wm : Arr3 12 192 192) (bm : Arr2 12 192) : Arr2 8192 192 :=
  resid (f5 f A W1 b1 Wm bm) (x12 f A W1 b1 Wm bm)

/-- Layer 13's output. -/
def x13 (f : Arr2 8192 256) (A : Arr2 8192 8192) (W1 : Arr2 256 192) (b1 : Arr1 192) (Wm : Arr3 12 192 192) (bm : Arr2 12 192) : Arr2 8192 192 :=
  layer 64 (f6 f A W1 b1 Wm bm) A (slab Wm 11) (row bm 11)

/-- The running features after the last averaging step. -/
def f7 (f : Arr2 8192 256) (A : Arr2 8192 8192) (W1 : Arr2 256 192) (b1 : Arr1 192) (Wm : Arr3 12 192 192) (bm : Arr2 12 192) : Arr2 8192 192 :=
  resid (f6 f A W1 b1 Wm bm) (x13 f A W1 b1 Wm bm)

/-- The network is its last layer at the last running features, paired with those features. -/
theorem net_eq (f : Arr2 8192 256) (A : Arr2 8192 8192) (W1 : Arr2 256 192) (b1 : Arr1 192) (Wm : Arr3 12 192 192) (bm : Arr2 12 192) (Wo : Arr2 192 3) (bo : Arr1 3) :
    net f A W1 b1 Wm bm Wo bo = (layerPre 2 (f7 f A W1 b1 Wm bm) A Wo bo, f7 f A W1 b1 Wm bm) := rfl

end Cert.Gcn.Chain

end
-- ==== Proof.RStages.lean ====
/-
  The memory the reference program leaves, read piece by piece. W k is the memory after the first k pieces, from any
  memory V0 at the start. Stage by stage: the buffer holding the latest layer's output holds the specification's value
  x_i of the start's argument contents, the buffer holding the running features holds f_j, and the eight argument buffers
  hold what they held at the start. The last stage gives the program's two results as the network of the arguments.
-/
import proofs.«108744_j27797028339962_2_alg».proof.Proof.RGroup1
import proofs.«108744_j27797028339962_2_alg».proof.Proof.RGroup2
import proofs.«108744_j27797028339962_2_alg».proof.Proof.RGroup3
import proofs.«108744_j27797028339962_2_alg».proof.Proof.RGroup4
import proofs.«108744_j27797028339962_2_alg».proof.Proof.RGroup5
import proofs.«108744_j27797028339962_2_alg».proof.Proof.RGroup6
import proofs.«108744_j27797028339962_2_alg».proof.Proof.RGroup7
import proofs.«108744_j27797028339962_2_alg».proof.Proof.RNet

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Gcn Cert.Gcn.Chain

variable (V0 : Valuation τ sig (Elt Ideal))

/-- The memory after the first 1 piece. -/
def W1 : Valuation τ sig (Elt Ideal) := after (pieceL1 (F := Ideal)) V0

/-- The memory after the first 2 pieces. -/
def W2 : Valuation τ sig (Elt Ideal) := after (pieceA2 (F := Ideal)) (W1 V0)

/-- The memory after the first 3 pieces. -/
def W3 : Valuation τ sig (Elt Ideal) := after (pieceR1 (F := Ideal)) (W2 V0)

/-- The memory after the first 4 pieces. -/
def W4 : Valuation τ sig (Elt Ideal) := after (pieceA3 (F := Ideal)) (W3 V0)

/-- The memory after the first 5 pieces. -/
def W5 : Valuation τ sig (Elt Ideal) := after (pieceA4 (F := Ideal)) (W4 V0)

/-- The memory after the first 6 pieces. -/
def W6 : Valuation τ sig (Elt Ideal) := after (pieceR2 (F := Ideal)) (W5 V0)

/-- The memory after the first 7 pieces. -/
def W7 : Valuation τ sig (Elt Ideal) := after (pieceA5 (F := Ideal)) (W6 V0)

/-- The memory after the first 8 pieces. -/
def W8 : Valuation τ sig (Elt Ideal) := after (pieceA6 (F := Ideal)) (W7 V0)

/-- The memory after the first 9 pieces. -/
def W9 : Valuation τ sig (Elt Ideal) := after (pieceR3 (F := Ideal)) (W8 V0)

/-- The memory after the first 10 pieces. -/
def W10 : Valuation τ sig (Elt Ideal) := after (pieceA7 (F := Ideal)) (W9 V0)

/-- The memory after the first 11 pieces. -/
def W11 : Valuation τ sig (Elt Ideal) := after (pieceA8 (F := Ideal)) (W10 V0)

/-- The memory after the first 12 pieces. -/
def W12 : Valuation τ sig (Elt Ideal) := after (pieceR4 (F := Ideal)) (W11 V0)

/-- The memory after the first 13 pieces. -/
def W13 : Valuation τ sig (Elt Ideal) := after (pieceA9 (F := Ideal)) (W12 V0)

/-- The memory after the first 14 pieces. -/
def W14 : Valuation τ sig (Elt Ideal) := after (pieceA10 (F := Ideal)) (W13 V0)

/-- The memory after the first 15 pieces. -/
def W15 : Valuation τ sig (Elt Ideal) := after (pieceR5 (F := Ideal)) (W14 V0)

/-- The memory after the first 16 pieces. -/
def W16 : Valuation τ sig (Elt Ideal) := after (pieceA11 (F := Ideal)) (W15 V0)

/-- The memory after the first 17 pieces. -/
def W17 : Valuation τ sig (Elt Ideal) := after (pieceA12 (F := Ideal)) (W16 V0)

/-- The memory after the first 18 pieces. -/
def W18 : Valuation τ sig (Elt Ideal) := after (pieceR6 (F := Ideal)) (W17 V0)

/-- The memory after the first 19 pieces. -/
def W19 : Valuation τ sig (Elt Ideal) := after (pieceA13 (F := Ideal)) (W18 V0)

/-- The memory after the first 20 pieces. -/
def W20 : Valuation τ sig (Elt Ideal) := after (pieceR7 (F := Ideal)) (W19 V0)

/-- The memory after the first 21 pieces. -/
def W21 : Valuation τ sig (Elt Ideal) := after (pieceLZ (F := Ideal)) (W20 V0)

theorem W1_arg (r : Ref sig .tc) (hr : r ∈ argRefs) : W1 V0 (Proc.devRef .tc r) = V0 (Proc.devRef .tc r) :=
  pieceL1_keep_arg V0 r hr

theorem W1_x : W1 V0 (Proc.devRef .tc main_v8) = x1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  pieceL1_val V0

theorem W2_arg (r : Ref sig .tc) (hr : r ∈ argRefs) : W2 V0 (Proc.devRef .tc r) = V0 (Proc.devRef .tc r) :=
  (pieceA2_keep_arg (W1 V0) r hr).trans (W1_arg V0 r hr)

theorem W2_x : W2 V0 (Proc.devRef .tc main_v21) = x2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W2 x2
  rw [pieceA2_val,
    W1_x V0,
    W1_arg V0 main_arg1 (by decide),
    W1_arg V0 main_arg4 (by decide),
    W1_arg V0 main_arg5 (by decide)]

theorem W3_arg (r : Ref sig .tc) (hr : r ∈ argRefs) : W3 V0 (Proc.devRef .tc r) = V0 (Proc.devRef .tc r) :=
  (pieceR1_keep_arg (W2 V0) r hr).trans (W2_arg V0 r hr)

theorem W3_f : W3 V0 (Proc.devRef .tc main_v25) = f1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W3 f1
  rw [pieceR1_val,
    W2_arg V0 main_arg0 (by decide),
    W2_x V0]

theorem W4_arg (r : Ref sig .tc) (hr : r ∈ argRefs) : W4 V0 (Proc.devRef .tc r) = V0 (Proc.devRef .tc r) :=
  (pieceA3_keep_arg (W3 V0) r hr).trans (W3_arg V0 r hr)

theorem W4_x : W4 V0 (Proc.devRef .tc main_v38) = x3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W4 x3
  rw [pieceA3_val,
    W3_f V0,
    W3_arg V0 main_arg1 (by decide),
    W3_arg V0 main_arg4 (by decide),
    W3_arg V0 main_arg5 (by decide)]

theorem W4_f : W4 V0 (Proc.devRef .tc main_v25) = f1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA3_keep (W3 V0) (r := main_v25) (by decide)).trans (W3_f V0)

theorem W5_arg (r : Ref sig .tc) (hr : r ∈ argRefs) : W5 V0 (Proc.devRef .tc r) = V0 (Proc.devRef .tc r) :=
  (pieceA4_keep_arg (W4 V0) r hr).trans (W4_arg V0 r hr)

theorem W5_x : W5 V0 (Proc.devRef .tc main_v51) = x4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W5 x4
  rw [pieceA4_val,
    W4_x V0,
    W4_arg V0 main_arg1 (by decide),
    W4_arg V0 main_arg4 (by decide),
    W4_arg V0 main_arg5 (by decide)]

theorem W5_f : W5 V0 (Proc.devRef .tc main_v25) = f1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA4_keep (W4 V0) (r := main_v25) (by decide)).trans (W4_f V0)

theorem W6_arg (r : Ref sig .tc) (hr : r ∈ argRefs) : W6 V0 (Proc.devRef .tc r) = V0 (Proc.devRef .tc r) :=
  (pieceR2_keep_arg (W5 V0) r hr).trans (W5_arg V0 r hr)

theorem W6_f : W6 V0 (Proc.devRef .tc main_v54) = f2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W6 f2
  rw [pieceR2_val,
    W5_f V0,
    W5_x V0]

theorem W7_arg (r : Ref sig .tc) (hr : r ∈ argRefs) : W7 V0 (Proc.devRef .tc r) = V0 (Proc.devRef .tc r) :=
  (pieceA5_keep_arg (W6 V0) r hr).trans (W6_arg V0 r hr)

theorem W7_x : W7 V0 (Proc.devRef .tc main_v67) = x5 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W7 x5
  rw [pieceA5_val,
    W6_f V0,
    W6_arg V0 main_arg1 (by decide),
    W6_arg V0 main_arg4 (by decide),
    W6_arg V0 main_arg5 (by decide)]

theorem W7_f : W7 V0 (Proc.devRef .tc main_v54) = f2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA5_keep (W6 V0) (r := main_v54) (by decide)).trans (W6_f V0)

theorem W8_arg (r : Ref sig .tc) (hr : r ∈ argRefs) : W8 V0 (Proc.devRef .tc r) = V0 (Proc.devRef .tc r) :=
  (pieceA6_keep_arg (W7 V0) r hr).trans (W7_arg V0 r hr)

theorem W8_x : W8 V0 (Proc.devRef .tc main_v80) = x6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W8 x6
  rw [pieceA6_val,
    W7_x V0,
    W7_arg V0 main_arg1 (by decide),
    W7_arg V0 main_arg4 (by decide),
    W7_arg V0 main_arg5 (by decide)]

theorem W8_f : W8 V0 (Proc.devRef .tc main_v54) = f2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA6_keep (W7 V0) (r := main_v54) (by decide)).trans (W7_f V0)

theorem W9_arg (r : Ref sig .tc) (hr : r ∈ argRefs) : W9 V0 (Proc.devRef .tc r) = V0 (Proc.devRef .tc r) :=
  (pieceR3_keep_arg (W8 V0) r hr).trans (W8_arg V0 r hr)

theorem W9_f : W9 V0 (Proc.devRef .tc main_v83) = f3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W9 f3
  rw [pieceR3_val,
    W8_f V0,
    W8_x V0]

theorem W10_arg (r : Ref sig .tc) (hr : r ∈ argRefs) : W10 V0 (Proc.devRef .tc r) = V0 (Proc.devRef .tc r) :=
  (pieceA7_keep_arg (W9 V0) r hr).trans (W9_arg V0 r hr)

theorem W10_x : W10 V0 (Proc.devRef .tc main_v96) = x7 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W10 x7
  rw [pieceA7_val,
    W9_f V0,
    W9_arg V0 main_arg1 (by decide),
    W9_arg V0 main_arg4 (by decide),
    W9_arg V0 main_arg5 (by decide)]

theorem W10_f : W10 V0 (Proc.devRef .tc main_v83) = f3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA7_keep (W9 V0) (r := main_v83) (by decide)).trans (W9_f V0)

theorem W11_arg (r : Ref sig .tc) (hr : r ∈ argRefs) : W11 V0 (Proc.devRef .tc r) = V0 (Proc.devRef .tc r) :=
  (pieceA8_keep_arg (W10 V0) r hr).trans (W10_arg V0 r hr)

theorem W11_x : W11 V0 (Proc.devRef .tc main_v109) = x8 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W11 x8
  rw [pieceA8_val,
    W10_x V0,
    W10_arg V0 main_arg1 (by decide),
    W10_arg V0 main_arg4 (by decide),
    W10_arg V0 main_arg5 (by decide)]

theorem W11_f : W11 V0 (Proc.devRef .tc main_v83) = f3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA8_keep (W10 V0) (r := main_v83) (by decide)).trans (W10_f V0)

theorem W12_arg (r : Ref sig .tc) (hr : r ∈ argRefs) : W12 V0 (Proc.devRef .tc r) = V0 (Proc.devRef .tc r) :=
  (pieceR4_keep_arg (W11 V0) r hr).trans (W11_arg V0 r hr)

theorem W12_f : W12 V0 (Proc.devRef .tc main_v112) = f4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W12 f4
  rw [pieceR4_val,
    W11_f V0,
    W11_x V0]

theorem W13_arg (r : Ref sig .tc) (hr : r ∈ argRefs) : W13 V0 (Proc.devRef .tc r) = V0 (Proc.devRef .tc r) :=
  (pieceA9_keep_arg (W12 V0) r hr).trans (W12_arg V0 r hr)

theorem W13_x : W13 V0 (Proc.devRef .tc main_v125) = x9 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W13 x9
  rw [pieceA9_val,
    W12_f V0,
    W12_arg V0 main_arg1 (by decide),
    W12_arg V0 main_arg4 (by decide),
    W12_arg V0 main_arg5 (by decide)]

theorem W13_f : W13 V0 (Proc.devRef .tc main_v112) = f4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA9_keep (W12 V0) (r := main_v112) (by decide)).trans (W12_f V0)

theorem W14_arg (r : Ref sig .tc) (hr : r ∈ argRefs) : W14 V0 (Proc.devRef .tc r) = V0 (Proc.devRef .tc r) :=
  (pieceA10_keep_arg (W13 V0) r hr).trans (W13_arg V0 r hr)

theorem W14_x : W14 V0 (Proc.devRef .tc main_v138) = x10 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W14 x10
  rw [pieceA10_val,
    W13_x V0,
    W13_arg V0 main_arg1 (by decide),
    W13_arg V0 main_arg4 (by decide),
    W13_arg V0 main_arg5 (by decide)]

theorem W14_f : W14 V0 (Proc.devRef .tc main_v112) = f4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA10_keep (W13 V0) (r := main_v112) (by decide)).trans (W13_f V0)

theorem W15_arg (r : Ref sig .tc) (hr : r ∈ argRefs) : W15 V0 (Proc.devRef .tc r) = V0 (Proc.devRef .tc r) :=
  (pieceR5_keep_arg (W14 V0) r hr).trans (W14_arg V0 r hr)

theorem W15_f : W15 V0 (Proc.devRef .tc main_v141) = f5 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W15 f5
  rw [pieceR5_val,
    W14_f V0,
    W14_x V0]

theorem W16_arg (r : Ref sig .tc) (hr : r ∈ argRefs) : W16 V0 (Proc.devRef .tc r) = V0 (Proc.devRef .tc r) :=
  (pieceA11_keep_arg (W15 V0) r hr).trans (W15_arg V0 r hr)

theorem W16_x : W16 V0 (Proc.devRef .tc main_v154) = x11 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W16 x11
  rw [pieceA11_val,
    W15_f V0,
    W15_arg V0 main_arg1 (by decide),
    W15_arg V0 main_arg4 (by decide),
    W15_arg V0 main_arg5 (by decide)]

theorem W16_f : W16 V0 (Proc.devRef .tc main_v141) = f5 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA11_keep (W15 V0) (r := main_v141) (by decide)).trans (W15_f V0)

theorem W17_arg (r : Ref sig .tc) (hr : r ∈ argRefs) : W17 V0 (Proc.devRef .tc r) = V0 (Proc.devRef .tc r) :=
  (pieceA12_keep_arg (W16 V0) r hr).trans (W16_arg V0 r hr)

theorem W17_x : W17 V0 (Proc.devRef .tc main_v167) = x12 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W17 x12
  rw [pieceA12_val,
    W16_x V0,
    W16_arg V0 main_arg1 (by decide),
    W16_arg V0 main_arg4 (by decide),
    W16_arg V0 main_arg5 (by decide)]

theorem W17_f : W17 V0 (Proc.devRef .tc main_v141) = f5 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA12_keep (W16 V0) (r := main_v141) (by decide)).trans (W16_f V0)

theorem W18_arg (r : Ref sig .tc) (hr : r ∈ argRefs) : W18 V0 (Proc.devRef .tc r) = V0 (Proc.devRef .tc r) :=
  (pieceR6_keep_arg (W17 V0) r hr).trans (W17_arg V0 r hr)

theorem W18_f : W18 V0 (Proc.devRef .tc main_v170) = f6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W18 f6
  rw [pieceR6_val,
    W17_f V0,
    W17_x V0]

theorem W19_arg (r : Ref sig .tc) (hr : r ∈ argRefs) : W19 V0 (Proc.devRef .tc r) = V0 (Proc.devRef .tc r) :=
  (pieceA13_keep_arg (W18 V0) r hr).trans (W18_arg V0 r hr)

theorem W19_x : W19 V0 (Proc.devRef .tc main_v183) = x13 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W19 x13
  rw [pieceA13_val,
    W18_f V0,
    W18_arg V0 main_arg1 (by decide),
    W18_arg V0 main_arg4 (by decide),
    W18_arg V0 main_arg5 (by decide)]

theorem W19_f : W19 V0 (Proc.devRef .tc main_v170) = f6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceA13_keep (W18 V0) (r := main_v170) (by decide)).trans (W18_f V0)

theorem W20_arg (r : Ref sig .tc) (hr : r ∈ argRefs) : W20 V0 (Proc.devRef .tc r) = V0 (Proc.devRef .tc r) :=
  (pieceR7_keep_arg (W19 V0) r hr).trans (W19_arg V0 r hr)

theorem W20_f : W20 V0 (Proc.devRef .tc main_v186) = f7 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold W20 f7
  rw [pieceR7_val,
    W19_f V0,
    W19_x V0]

theorem W21_arg (r : Ref sig .tc) (hr : r ∈ argRefs) : W21 V0 (Proc.devRef .tc r) = V0 (Proc.devRef .tc r) :=
  (pieceLZ_keep_arg (W20 V0) r hr).trans (W20_arg V0 r hr)

theorem W21_out : W21 V0 (Proc.devRef .tc main_v194)
    = layerPre 2 (f7 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg1)) (V0 (Proc.devRef .tc main_arg6)) (V0 (Proc.devRef .tc main_arg7)) := by
  unfold W21
  rw [pieceLZ_val, W20_f V0, W20_arg V0 main_arg1 (by decide), W20_arg V0 main_arg6 (by decide), W20_arg V0 main_arg7 (by decide)]

theorem W21_f : W21 V0 (Proc.devRef .tc main_v186) = f7 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pieceLZ_keep (W20 V0) (r := main_v186) (by decide)).trans (W20_f V0)

end Cert.ReferenceIdeal.RefValue

end
-- ==== Proof.RValue.lean ====
/-
  The reference program's run: every weakly fair execution terminates with its two results at the network of its launch
  arguments — the coordinates (the last layer, not cut at zero, of the last running features) and those running features —
  and the eight arguments unchanged. The memory after the whole list of operations is the memory after the 21 pieces in
  turn; its stages are read in the specification's terms one piece at a time.
-/
import proofs.«108744_j27797028339962_2_alg».proof.Proof.RMain
import proofs.«108744_j27797028339962_2_alg».proof.Proof.RStages

noncomputable section

namespace Cert.ReferenceIdeal.RefValue

open Cert.ReferenceIdeal Cert.Gcn Idealize.ShloMosaic Idealize.ShloMosaic.TcCoe Idealize.SL.Sem Idealize.ShloMosaic.StableHlo
open Cert.ReferenceIdeal.Gen Cert.Gcn.Chain

/-- The TensorCore has no scoped reference and no scoped semaphore. -/
theorem scopedRefs_eq : (Finset.univ.filter fun b : Ref sig .tc => b.isScoped) = ∅ := by decide
theorem scopedSems_eq : (Finset.univ.filter fun sm : SemLoc sig => sm.isScoped .tc) = ∅ := by decide

/-- The memory after all 228 operations is the memory after the last piece. -/
theorem after_ops (V0 : Valuation τ sig (Elt Ideal)) : after (allOps (F := Ideal)) V0 = W21 V0 := by
  unfold allOps
  simp only [StableHlo.after_append]
  rfl

/-- The first result: the last layer of the last running features. -/
theorem after_ops_out0 (V0 : Valuation τ sig (Elt Ideal)) :
    after (allOps (F := Ideal)) V0 (Proc.devRef .tc main_v194)
      = (net (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7))).1 := by
  rw [after_ops, W21_out, net_eq]

/-- The second result: the last running features. -/
theorem after_ops_out1 (V0 : Valuation τ sig (Elt Ideal)) :
    after (allOps (F := Ideal)) V0 (Proc.devRef .tc main_v186)
      = (net (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7))).2 := by
  rw [after_ops, W21_f, net_eq]

/-- The arguments are left as launched. -/
theorem after_ops_arg (V0 : Valuation τ sig (Elt Ideal)) (r : Ref sig .tc) (hr : r ∈ argRefs) :
    after (allOps (F := Ideal)) V0 (Proc.devRef .tc r) = V0 (Proc.devRef .tc r) := by
  rw [after_ops]; exact W21_arg V0 r hr

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v194) = (net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1
        ∧ r.2.mem ((c.tc : Thread nD τ).loc main_v186) = (net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run (defs (F := Ideal)) _ _).mono (fun _ h c =>
      ⟨(h c main_v194).trans (after_ops_out0 (launchContents m c)),
       (h c main_v186).trans (after_ops_out1 (launchContents m c)),
       (h c main_arg0).trans (after_ops_arg (launchContents m c) main_arg0 (by decide)),
       (h c main_arg1).trans (after_ops_arg (launchContents m c) main_arg1 (by decide)),
       (h c main_arg2).trans (after_ops_arg (launchContents m c) main_arg2 (by decide)),
       (h c main_arg3).trans (after_ops_arg (launchContents m c) main_arg3 (by decide)),
       (h c main_arg4).trans (after_ops_arg (launchContents m c) main_arg4 (by decide)),
       (h c main_arg5).trans (after_ops_arg (launchContents m c) main_arg5 (by decide)),
       (h c main_arg6).trans (after_ops_arg (launchContents m c) main_arg6 (by decide)),
       (h c main_arg7).trans (after_ops_arg (launchContents m c) main_arg7 (by decide))⟩)
    (run_seq scopedRefs_eq scopedSems_eq defs main (fun _ => allOps) main_eq (fun _ => allOps_sub) m ρ (fun _ => allOps_fresh))

end Cert.ReferenceIdeal.RefValue

end
-- ==== Proof.lean ====
/-
  The certificate: a fourteen-layer graph network whose every layer multiplies the features by a weight matrix,
  aggregates the first columns of the product over the adjacency, passes the other columns through, adds a bias and
  cuts at zero, with the running features averaged between layers.

  The kernel program computes each layer in two grid launches (the projection, split into its two column pieces; then
  the aggregation of one piece, the bias, the cut and the rejoining) after copying the adjacency once in a narrower
  float format; the reference computes each layer with the host's matrix products, slices and concatenation. On the
  extended reals a change of float format is the identity, a matrix product is the plain sum over the contracted index
  whichever way it is tiled, and slicing the columns of a product is the product with the sliced columns; so both
  programs compute ONE function of the eight arguments (`Cert.Gcn.net`), entry by entry, with no algebraic law beyond
  reading each operation at an index. The precondition is not needed for the values.

  * the frames of the two kernel programs are the generated launch proofs; the reference's frame is its run with the
    results dropped;
  * nothing was rewritten between the kernel and its idealization, so that claim is trivial;
  * the value claim puts the kernel's run (its results read through the segments of its program, each region's output
    array a whole-array function of the region's inputs) beside the reference's run (read stage by stage), both at
    `net` of their own arguments, which agree.
-/
import proofs.«108744_j27797028339962_2_alg».proof.Defs
import proofs.«108744_j27797028339962_2_alg».proof.Proof.Gen.Kernel
import proofs.«108744_j27797028339962_2_alg».proof.Proof.Gen.Kernel.Frame
import proofs.«108744_j27797028339962_2_alg».proof.Proof.Gen.KernelIdeal
import proofs.«108744_j27797028339962_2_alg».proof.Proof.Gen.KernelIdeal.Frame
import proofs.«108744_j27797028339962_2_alg».proof.Proof.Gen.ReferenceIdeal
import proofs.«108744_j27797028339962_2_alg».proof.Proof.Gen.Pre_finite_inputs
import proofs.«108744_j27797028339962_2_alg».proof.Proof.Spec
import proofs.«108744_j27797028339962_2_alg».proof.Proof.KRun
import proofs.«108744_j27797028339962_2_alg».proof.Proof.KRegions
import proofs.«108744_j27797028339962_2_alg».proof.Proof.KChain
import proofs.«108744_j27797028339962_2_alg».proof.Proof.RValue
import Idealize.ShloMosaic.Adequacy
import Idealize.ShloMosaic.Init

noncomputable section

namespace Cert.Proof

open Idealize.ShloMosaic Idealize.SL.Sem Cert.Gcn

/-- Both idealized programs end with their results at the network of their arguments, and the arguments agree. -/
theorem algebraic : Cert.algebraic_KernelIdeal_ReferenceIdeal := by
  intro m ρ m' ρ' _ hagree
  refine ⟨fun c => (net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1,
    fun c => (net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2, ?_, ?_⟩
  · exact (θ_run Cert.KernelIdeal.defs _ _).mono
      (fun r h c => ⟨(h c).1.trans (Cert.KernelIdeal.Chain.value Cert.KernelIdeal.Reg.finals m ρ c).1,
        (h c).2.1.trans (Cert.KernelIdeal.Chain.value Cert.KernelIdeal.Reg.finals m ρ c).2, (h c).2.2⟩)
      (Cert.KernelIdeal.Results.run (F := Ideal) m ρ)
  · refine (θ_run Cert.ReferenceIdeal.defs _ _).mono (fun r h c => ?_) (Cert.ReferenceIdeal.RefValue.run m' ρ')
    obtain ⟨e0, e1, e2, e3, e4, e5, e6, e7⟩ := hagree c
    refine ⟨(h c).1.trans ?_, (h c).2.1.trans ?_, (h c).2.2⟩
    · rw [e0, e1, e2, e3, e4, e5, e6, e7]
    · rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.RefValue.run (m := m) (ρ := ρ)),
  trivial,
  algebraic⟩

end Cert.Proof

end
